-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 31999#32
  let main_v6 : IVec S4096 32 := broadcastInDim S4096 ![] bcast_S_S4096 main_c_1
  let main_v7 : IVec S4096 1 := cmpi .sle main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x32000 : Shape := ⟨2, ![4096, 32000]⟩
abbrev S4096 : Shape := ⟨1, ![4096]⟩
abbrev S512 : Shape := ⟨1, ![512]⟩
abbrev S128 : Shape := ⟨1, ![128]⟩
abbrev S16x8x128 : Shape := ⟨3, ![16, 8, 128]⟩
abbrev S16 : Shape := ⟨1, ![16]⟩
abbrev S_ : Shape := ⟨0, ![]⟩
abbrev S1 : Shape := ⟨1, ![1]⟩
abbrev S1x8x128 : Shape := ⟨3, ![1, 8, 128]⟩
abbrev S8x128 : Shape := ⟨2, ![8, 128]⟩
abbrev S4096x1 : Shape := ⟨2, ![4096, 1]⟩
abbrev S1x1 : Shape := ⟨2, ![1, 1]⟩
abbrev S128x1 : Shape := ⟨2, ![128, 1]⟩
abbrev S128x32000 : Shape := ⟨2, ![128, 32000]⟩
abbrev S1x128x1 : Shape := ⟨3, ![1, 128, 1]⟩
abbrev S1x1x1 : Shape := ⟨3, ![1, 1, 1]⟩

abbrev nBuf : Table → Nat
  | .hbm => 9
  | .local .tc .vmem => 7
  | .local .scVector .vmem => 3
  | _ => 0

abbrev bufTy : (tb : Table) → Fin (nBuf tb) → BufTy
  | .hbm, ⟨0, _⟩ => ⟨S4096x32000, .f32⟩
  | .hbm, ⟨1, _⟩ => ⟨S4096, .i32⟩
  | .hbm, ⟨2, _⟩ => ⟨S512, .f32⟩
  | .hbm, ⟨3, _⟩ => ⟨S4096x1, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .tc .vmem, ⟨0, _⟩ => ⟨S128x1, .i32⟩
  | .local .tc .vmem, ⟨1, _⟩ => ⟨S128x1, .i32⟩
  | .local .tc .vmem, ⟨2, _⟩ => ⟨S128x32000, .f32⟩
  | .local .tc .vmem, ⟨3, _⟩ => ⟨S128x32000, .f32⟩
  | .local .tc .vmem, ⟨4, _⟩ => ⟨S1x1, .f32⟩
  | .local .tc .vmem, ⟨5, _⟩ => ⟨S128x1, .f32⟩
  | .local .tc .vmem, ⟨6, _⟩ => ⟨S128x1, .f32⟩
  | .local .scVector .vmem, ⟨0, _⟩ => ⟨S128, .i32⟩
  | .local .scVector .vmem, ⟨1, _⟩ => ⟨S16x8x128, .f32⟩
  | .local .scVector .vmem, ⟨2, _⟩ => ⟨S16, .f32⟩
  | _, _ => ⟨S4096x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_scratch0 : Ref sig .tc := ⟨.vmem, 5, rfl⟩
abbrev cc1_scratch1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_mult1 (v6 : BitVec 32) : BitVec 32 :=
  let c_m128_i32 : BitVec 32 := 4294967168#32
  let v7 : BitVec 32 := Scalar.andi v6 c_m128_i32
  v7

def k0_off2 (i : grid0.Coords) (v6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v9 : BitVec 32 := Scalar.addi v2 c0_i32
  let c0_i32_0 : BitVec 32 := 0#32
  let v10 : BitVec 32 := Scalar.addi v9 c0_i32_0
  let c_m128_i32 : BitVec 32 := 4294967168#32
  let v7 : BitVec 32 := Scalar.andi v6 c_m128_i32
  let v8 : BitVec 32 := v7
  ![v10.toNat, v8.toNat]
def k0_mult2 (v18 : BitVec 32) : BitVec 32 :=
  let c_m128_i32_6 : BitVec 32 := 4294967168#32
  let v19 : BitVec 32 := Scalar.andi v18 c_m128_i32_6
  v19

def k0_off3 (i : grid0.Coords) (v18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7 : BitVec 32 := 0#32
  let v21 : BitVec 32 := Scalar.addi v2 c0_i32_7
  let c0_i32_8 : BitVec 32 := 0#32
  let v22 : BitVec 32 := Scalar.addi v21 c0_i32_8
  let c_m128_i32_6 : BitVec 32 := 4294967168#32
  let v19 : BitVec 32 := Scalar.andi v18 c_m128_i32_6
  let v20 : BitVec 32 := v19
  ![v22.toNat, v20.toNat]
def k0_mult3 (v30 : BitVec 32) : BitVec 32 :=
  let c_m128_i32_13 : BitVec 32 := 4294967168#32
  let v31 : BitVec 32 := Scalar.andi v30 c_m128_i32_13
  v31

def k0_off4 (i : grid0.Coords) (v30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_14 : BitVec 32 := 0#32
  let v33 : BitVec 32 := Scalar.addi v2 c0_i32_14
  let c0_i32_15 : BitVec 32 := 0#32
  let v34 : BitVec 32 := Scalar.addi v33 c0_i32_15
  let c_m128_i32_13 : BitVec 32 := 4294967168#32
  let v31 : BitVec 32 := Scalar.andi v30 c_m128_i32_13
  let v32 : BitVec 32 := v31
  ![v34.toNat, v32.toNat]
def k0_mult4 (v42 : BitVec 32) : BitVec 32 :=
  let c_m128_i32_21 : BitVec 32 := 4294967168#32
  let v43 : BitVec 32 := Scalar.andi v42 c_m128_i32_21
  v43

def k0_off5 (i : grid0.Coords) (v42 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let v45 : BitVec 32 := Scalar.addi v2 c0_i32_22
  let c0_i32_23 : BitVec 32 := 0#32
  let v46 : BitVec 32 := Scalar.addi v45 c0_i32_23
  let c_m128_i32_21 : BitVec 32 := 4294967168#32
  let v43 : BitVec 32 := Scalar.andi v42 c_m128_i32_21
  let v44 : BitVec 32 := v43
  ![v46.toNat, v44.toNat]
def k0_mult5 (v54 : BitVec 32) : BitVec 32 :=
  let c_m128_i32_28 : BitVec 32 := 4294967168#32
  let v55 : BitVec 32 := Scalar.andi v54 c_m128_i32_28
  v55

def k0_off6 (i : grid0.Coords) (v54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_29 : BitVec 32 := 0#32
  let v57 : BitVec 32 := Scalar.addi v2 c0_i32_29
  let c0_i32_30 : BitVec 32 := 0#32
  let v58 : BitVec 32 := Scalar.addi v57 c0_i32_30
  let c_m128_i32_28 : BitVec 32 := 4294967168#32
  let v55 : BitVec 32 := Scalar.andi v54 c_m128_i32_28
  let v56 : BitVec 32 := v55
  ![v58.toNat, v56.toNat]
def k0_mult6 (v66 : BitVec 32) : BitVec 32 :=
  let c_m128_i32_35 : BitVec 32 := 4294967168#32
  let v67 : BitVec 32 := Scalar.andi v66 c_m128_i32_35
  v67

def k0_off7 (i : grid0.Coords) (v66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_36 : BitVec 32 := 0#32
  let v69 : BitVec 32 := Scalar.addi v2 c0_i32_36
  let c0_i32_37 : BitVec 32 := 0#32
  let v70 : BitVec 32 := Scalar.addi v69 c0_i32_37
  let c_m128_i32_35 : BitVec 32 := 4294967168#32
  let v67 : BitVec 32 := Scalar.andi v66 c_m128_i32_35
  let v68 : BitVec 32 := v67
  ![v70.toNat, v68.toNat]
def k0_mult7 (v78 : BitVec 32) : BitVec 32 :=
  let c_m128_i32_42 : BitVec 32 := 4294967168#32
  let v79 : BitVec 32 := Scalar.andi v78 c_m128_i32_42
  v79

def k0_off8 (i : grid0.Coords) (v78 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_43 : BitVec 32 := 0#32
  let v81 : BitVec 32 := Scalar.addi v2 c0_i32_43
  let c0_i32_44 : BitVec 32 := 0#32
  let v82 : BitVec 32 := Scalar.addi v81 c0_i32_44
  let c_m128_i32_42 : BitVec 32 := 4294967168#32
  let v79 : BitVec 32 := Scalar.andi v78 c_m128_i32_42
  let v80 : BitVec 32 := v79
  ![v82.toNat, v80.toNat]
def k0_mult8 (v90 : BitVec 32) : BitVec 32 :=
  let c_m128_i32_49 : BitVec 32 := 4294967168#32
  let v91 : BitVec 32 := Scalar.andi v90 c_m128_i32_49
  v91

def k0_off9 (i : grid0.Coords) (v90 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_50 : BitVec 32 := 0#32
  let v93 : BitVec 32 := Scalar.addi v2 c0_i32_50
  let c0_i32_51 : BitVec 32 := 0#32
  let v94 : BitVec 32 := Scalar.addi v93 c0_i32_51
  let c_m128_i32_49 : BitVec 32 := 4294967168#32
  let v91 : BitVec 32 := Scalar.andi v90 c_m128_i32_49
  let v92 : BitVec 32 := v91
  ![v94.toNat, v92.toNat]
def k0_mult9 (v102 : BitVec 32) : BitVec 32 :=
  let c_m128_i32_56 : BitVec 32 := 4294967168#32
  let v103 : BitVec 32 := Scalar.andi v102 c_m128_i32_56
  v103

def k0_off10 (i : grid0.Coords) (v102 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_57 : BitVec 32 := 0#32
  let v105 : BitVec 32 := Scalar.addi v2 c0_i32_57
  let c8_i32 : BitVec 32 := 8#32
  let v106 : BitVec 32 := Scalar.addi v105 c8_i32
  let c_m128_i32_56 : BitVec 32 := 4294967168#32
  let v103 : BitVec 32 := Scalar.andi v102 c_m128_i32_56
  let v104 : BitVec 32 := v103
  ![v106.toNat, v104.toNat]
def k0_mult10 (v114 : BitVec 32) : BitVec 32 :=
  let c_m128_i32_63 : BitVec 32 := 4294967168#32
  let v115 : BitVec 32 := Scalar.andi v114 c_m128_i32_63
  v115

def k0_off11 (i : grid0.Coords) (v114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_64 : BitVec 32 := 0#32
  let v117 : BitVec 32 := Scalar.addi v2 c0_i32_64
  let c8_i32_65 : BitVec 32 := 8#32
  let v118 : BitVec 32 := Scalar.addi v117 c8_i32_65
  let c_m128_i32_63 : BitVec 32 := 4294967168#32
  let v115 : BitVec 32 := Scalar.andi v114 c_m128_i32_63
  let v116 : BitVec 32 := v115
  ![v118.toNat, v116.toNat]
def k0_mult11 (v126 : BitVec 32) : BitVec 32 :=
  let c_m128_i32_70 : BitVec 32 := 4294967168#32
  let v127 : BitVec 32 := Scalar.andi v126 c_m128_i32_70
  v127

def k0_off12 (i : grid0.Coords) (v126 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_71 : BitVec 32 := 0#32
  let v129 : BitVec 32 := Scalar.addi v2 c0_i32_71
  let c8_i32_72 : BitVec 32 := 8#32
  let v130 : BitVec 32 := Scalar.addi v129 c8_i32_72
  let c_m128_i32_70 : BitVec 32 := 4294967168#32
  let v127 : BitVec 32 := Scalar.andi v126 c_m128_i32_70
  let v128 : BitVec 32 := v127
  ![v130.toNat, v128.toNat]
def k0_mult12 (v138 : BitVec 32) : BitVec 32 :=
  let c_m128_i32_77 : BitVec 32 := 4294967168#32
  let v139 : BitVec 32 := Scalar.andi v138 c_m128_i32_77
  v139

def k0_off13 (i : grid0.Coords) (v138 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_78 : BitVec 32 := 0#32
  let v141 : BitVec 32 := Scalar.addi v2 c0_i32_78
  let c8_i32_79 : BitVec 32 := 8#32
  let v142 : BitVec 32 := Scalar.addi v141 c8_i32_79
  let c_m128_i32_77 : BitVec 32 := 4294967168#32
  let v139 : BitVec 32 := Scalar.andi v138 c_m128_i32_77
  let v140 : BitVec 32 := v139
  ![v142.toNat, v140.toNat]
def k0_mult13 (v150 : BitVec 32) : BitVec 32 :=
  let c_m128_i32_84 : BitVec 32 := 4294967168#32
  let v151 : BitVec 32 := Scalar.andi v150 c_m128_i32_84
  v151

def k0_off14 (i : grid0.Coords) (v150 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_85 : BitVec 32 := 0#32
  let v153 : BitVec 32 := Scalar.addi v2 c0_i32_85
  let c8_i32_86 : BitVec 32 := 8#32
  let v154 : BitVec 32 := Scalar.addi v153 c8_i32_86
  let c_m128_i32_84 : BitVec 32 := 4294967168#32
  let v151 : BitVec 32 := Scalar.andi v150 c_m128_i32_84
  let v152 : BitVec 32 := v151
  ![v154.toNat, v152.toNat]
def k0_mult14 (v162 : BitVec 32) : BitVec 32 :=
  let c_m128_i32_91 : BitVec 32 := 4294967168#32
  let v163 : BitVec 32 := Scalar.andi v162 c_m128_i32_91
  v163

def k0_off15 (i : grid0.Coords) (v162 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_92 : BitVec 32 := 0#32
  let v165 : BitVec 32 := Scalar.addi v2 c0_i32_92
  let c8_i32_93 : BitVec 32 := 8#32
  let v166 : BitVec 32 := Scalar.addi v165 c8_i32_93
  let c_m128_i32_91 : BitVec 32 := 4294967168#32
  let v163 : BitVec 32 := Scalar.andi v162 c_m128_i32_91
  let v164 : BitVec 32 := v163
  ![v166.toNat, v164.toNat]
def k0_mult15 (v174 : BitVec 32) : BitVec 32 :=
  let c_m128_i32_98 : BitVec 32 := 4294967168#32
  let v175 : BitVec 32 := Scalar.andi v174 c_m128_i32_98
  v175

def k0_off16 (i : grid0.Coords) (v174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_99 : BitVec 32 := 0#32
  let v177 : BitVec 32 := Scalar.addi v2 c0_i32_99
  let c8_i32_100 : BitVec 32 := 8#32
  let v178 : BitVec 32 := Scalar.addi v177 c8_i32_100
  let c_m128_i32_98 : BitVec 32 := 4294967168#32
  let v175 : BitVec 32 := Scalar.andi v174 c_m128_i32_98
  let v176 : BitVec 32 := v175
  ![v178.toNat, v176.toNat]
def k0_mult16 (v186 : BitVec 32) : BitVec 32 :=
  let c_m128_i32_105 : BitVec 32 := 4294967168#32
  let v187 : BitVec 32 := Scalar.andi v186 c_m128_i32_105
  v187

def k0_off17 (i : grid0.Coords) (v186 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let v189 : BitVec 32 := Scalar.addi v2 c0_i32_106
  let c8_i32_107 : BitVec 32 := 8#32
  let v190 : BitVec 32 := Scalar.addi v189 c8_i32_107
  let c_m128_i32_105 : BitVec 32 := 4294967168#32
  let v187 : BitVec 32 := Scalar.andi v186 c_m128_i32_105
  let v188 : BitVec 32 := v187
  ![v190.toNat, v188.toNat]

def k0_chk16 (i : grid0.Coords) (v186 : BitVec 32) : Prop :=
  (128 ∣ (k0_mult16 v186).toNat) ∧
  (∀ a, (k0_off17 i v186) a + S8x128.size a ≤ S4096x32000.size a)
instance k0_chk16.dec : ∀ (i : grid0.Coords) (v186 : BitVec 32), Decidable (k0_chk16 i v186) := fun i v186 => decidable_of_iff' _ (Iff.of_eq (k0_chk16.eq_1 i v186))
theorem k0_mult16_dvd : ∀ (i : grid0.Coords) (v186 : BitVec 32) (k0_hw16 : k0_chk16 i v186), 128 ∣ (k0_mult16 v186).toNat := fun i v186 k0_hw16 => k0_hw16.1
theorem k0_off17_inb : ∀ (i : grid0.Coords) (v186 : BitVec 32) (k0_hw16 : k0_chk16 i v186), ∀ a, (k0_off17 i v186) a + S8x128.size a ≤ S4096x32000.size a := fun i v186 k0_hw16 => k0_hw16.2

def k0_off18 (i : grid0.Coords) (v6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v9 : BitVec 32 := Scalar.addi v2 c0_i32
  let c0_i32_0 : BitVec 32 := 0#32
  let v10 : BitVec 32 := Scalar.addi v9 c0_i32_0
  let c_m128_i32 : BitVec 32 := 4294967168#32
  let v7 : BitVec 32 := Scalar.andi v6 c_m128_i32
  let v8 : BitVec 32 := v7
  ![v10.toNat, v8.toNat]

def k0_chk1 (i : grid0.Coords) (v6 : BitVec 32) : Prop :=
  (128 ∣ (k0_mult1 v6).toNat) ∧
  (∀ a, (k0_off2 i v6) a + S8x128.size a ≤ S4096x32000.size a) ∧
  (∀ a, (k0_off18 i v6) a + S8x128.size a ≤ S4096x32000.size a)
instance k0_chk1.dec : ∀ (i : grid0.Coords) (v6 : BitVec 32), Decidable (k0_chk1 i v6) := fun i v6 => decidable_of_iff' _ (Iff.of_eq (k0_chk1.eq_1 i v6))
theorem k0_mult1_dvd : ∀ (i : grid0.Coords) (v6 : BitVec 32) (k0_hw1 : k0_chk1 i v6), 128 ∣ (k0_mult1 v6).toNat := fun i v6 k0_hw1 => k0_hw1.1
theorem k0_off2_inb : ∀ (i : grid0.Coords) (v6 : BitVec 32) (k0_hw1 : k0_chk1 i v6), ∀ a, (k0_off2 i v6) a + S8x128.size a ≤ S4096x32000.size a := fun i v6 k0_hw1 => k0_hw1.2.1
theorem k0_off18_inb : ∀ (i : grid0.Coords) (v6 : BitVec 32) (k0_hw1 : k0_chk1 i v6), ∀ a, (k0_off18 i v6) a + S8x128.size a ≤ S4096x32000.size a := fun i v6 k0_hw1 => k0_hw1.2.2

def k0_off19 (i : grid0.Coords) (v18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7 : BitVec 32 := 0#32
  let v21 : BitVec 32 := Scalar.addi v2 c0_i32_7
  let c0_i32_8 : BitVec 32 := 0#32
  let v22 : BitVec 32 := Scalar.addi v21 c0_i32_8
  let c_m128_i32_6 : BitVec 32 := 4294967168#32
  let v19 : BitVec 32 := Scalar.andi v18 c_m128_i32_6
  let v20 : BitVec 32 := v19
  ![v22.toNat, v20.toNat]

def k0_chk2 (i : grid0.Coords) (v18 : BitVec 32) : Prop :=
  (128 ∣ (k0_mult2 v18).toNat) ∧
  (∀ a, (k0_off3 i v18) a + S8x128.size a ≤ S4096x32000.size a) ∧
  (∀ a, (k0_off19 i v18) a + S8x128.size a ≤ S4096x32000.size a)
instance k0_chk2.dec : ∀ (i : grid0.Coords) (v18 : BitVec 32), Decidable (k0_chk2 i v18) := fun i v18 => decidable_of_iff' _ (Iff.of_eq (k0_chk2.eq_1 i v18))
theorem k0_mult2_dvd : ∀ (i : grid0.Coords) (v18 : BitVec 32) (k0_hw2 : k0_chk2 i v18), 128 ∣ (k0_mult2 v18).toNat := fun i v18 k0_hw2 => k0_hw2.1
theorem k0_off3_inb : ∀ (i : grid0.Coords) (v18 : BitVec 32) (k0_hw2 : k0_chk2 i v18), ∀ a, (k0_off3 i v18) a + S8x128.size a ≤ S4096x32000.size a := fun i v18 k0_hw2 => k0_hw2.2.1
theorem k0_off19_inb : ∀ (i : grid0.Coords) (v18 : BitVec 32) (k0_hw2 : k0_chk2 i v18), ∀ a, (k0_off19 i v18) a + S8x128.size a ≤ S4096x32000.size a := fun i v18 k0_hw2 => k0_hw2.2.2

def k0_off20 (i : grid0.Coords) (v30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_14 : BitVec 32 := 0#32
  let v33 : BitVec 32 := Scalar.addi v2 c0_i32_14
  let c0_i32_15 : BitVec 32 := 0#32
  let v34 : BitVec 32 := Scalar.addi v33 c0_i32_15
  let c_m128_i32_13 : BitVec 32 := 4294967168#32
  let v31 : BitVec 32 := Scalar.andi v30 c_m128_i32_13
  let v32 : BitVec 32 := v31
  ![v34.toNat, v32.toNat]

def k0_chk3 (i : grid0.Coords) (v30 : BitVec 32) : Prop :=
  (128 ∣ (k0_mult3 v30).toNat) ∧
  (∀ a, (k0_off4 i v30) a + S8x128.size a ≤ S4096x32000.size a) ∧
  (∀ a, (k0_off20 i v30) a + S8x128.size a ≤ S4096x32000.size a)
instance k0_chk3.dec : ∀ (i : grid0.Coords) (v30 : BitVec 32), Decidable (k0_chk3 i v30) := fun i v30 => decidable_of_iff' _ (Iff.of_eq (k0_chk3.eq_1 i v30))
theorem k0_mult3_dvd : ∀ (i : grid0.Coords) (v30 : BitVec 32) (k0_hw3 : k0_chk3 i v30), 128 ∣ (k0_mult3 v30).toNat := fun i v30 k0_hw3 => k0_hw3.1
theorem k0_off4_inb : ∀ (i : grid0.Coords) (v30 : BitVec 32) (k0_hw3 : k0_chk3 i v30), ∀ a, (k0_off4 i v30) a + S8x128.size a ≤ S4096x32000.size a := fun i v30 k0_hw3 => k0_hw3.2.1
theorem k0_off20_inb : ∀ (i : grid0.Coords) (v30 : BitVec 32) (k0_hw3 : k0_chk3 i v30), ∀ a, (k0_off20 i v30) a + S8x128.size a ≤ S4096x32000.size a := fun i v30 k0_hw3 => k0_hw3.2.2

def k0_off21 (i : grid0.Coords) (v42 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let v45 : BitVec 32 := Scalar.addi v2 c0_i32_22
  let c0_i32_23 : BitVec 32 := 0#32
  let v46 : BitVec 32 := Scalar.addi v45 c0_i32_23
  let c_m128_i32_21 : BitVec 32 := 4294967168#32
  let v43 : BitVec 32 := Scalar.andi v42 c_m128_i32_21
  let v44 : BitVec 32 := v43
  ![v46.toNat, v44.toNat]

def k0_chk4 (i : grid0.Coords) (v42 : BitVec 32) : Prop :=
  (128 ∣ (k0_mult4 v42).toNat) ∧
  (∀ a, (k0_off5 i v42) a + S8x128.size a ≤ S4096x32000.size a) ∧
  (∀ a, (k0_off21 i v42) a + S8x128.size a ≤ S4096x32000.size a)
instance k0_chk4.dec : ∀ (i : grid0.Coords) (v42 : BitVec 32), Decidable (k0_chk4 i v42) := fun i v42 => decidable_of_iff' _ (Iff.of_eq (k0_chk4.eq_1 i v42))
theorem k0_mult4_dvd : ∀ (i : grid0.Coords) (v42 : BitVec 32) (k0_hw4 : k0_chk4 i v42), 128 ∣ (k0_mult4 v42).toNat := fun i v42 k0_hw4 => k0_hw4.1
theorem k0_off5_inb : ∀ (i : grid0.Coords) (v42 : BitVec 32) (k0_hw4 : k0_chk4 i v42), ∀ a, (k0_off5 i v42) a + S8x128.size a ≤ S4096x32000.size a := fun i v42 k0_hw4 => k0_hw4.2.1
theorem k0_off21_inb : ∀ (i : grid0.Coords) (v42 : BitVec 32) (k0_hw4 : k0_chk4 i v42), ∀ a, (k0_off21 i v42) a + S8x128.size a ≤ S4096x32000.size a := fun i v42 k0_hw4 => k0_hw4.2.2

def k0_off22 (i : grid0.Coords) (v54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_29 : BitVec 32 := 0#32
  let v57 : BitVec 32 := Scalar.addi v2 c0_i32_29
  let c0_i32_30 : BitVec 32 := 0#32
  let v58 : BitVec 32 := Scalar.addi v57 c0_i32_30
  let c_m128_i32_28 : BitVec 32 := 4294967168#32
  let v55 : BitVec 32 := Scalar.andi v54 c_m128_i32_28
  let v56 : BitVec 32 := v55
  ![v58.toNat, v56.toNat]

def k0_chk5 (i : grid0.Coords) (v54 : BitVec 32) : Prop :=
  (128 ∣ (k0_mult5 v54).toNat) ∧
  (∀ a, (k0_off6 i v54) a + S8x128.size a ≤ S4096x32000.size a) ∧
  (∀ a, (k0_off22 i v54) a + S8x128.size a ≤ S4096x32000.size a)
instance k0_chk5.dec : ∀ (i : grid0.Coords) (v54 : BitVec 32), Decidable (k0_chk5 i v54) := fun i v54 => decidable_of_iff' _ (Iff.of_eq (k0_chk5.eq_1 i v54))
theorem k0_mult5_dvd : ∀ (i : grid0.Coords) (v54 : BitVec 32) (k0_hw5 : k0_chk5 i v54), 128 ∣ (k0_mult5 v54).toNat := fun i v54 k0_hw5 => k0_hw5.1
theorem k0_off6_inb : ∀ (i : grid0.Coords) (v54 : BitVec 32) (k0_hw5 : k0_chk5 i v54), ∀ a, (k0_off6 i v54) a + S8x128.size a ≤ S4096x32000.size a := fun i v54 k0_hw5 => k0_hw5.2.1
theorem k0_off22_inb : ∀ (i : grid0.Coords) (v54 : BitVec 32) (k0_hw5 : k0_chk5 i v54), ∀ a, (k0_off22 i v54) a + S8x128.size a ≤ S4096x32000.size a := fun i v54 k0_hw5 => k0_hw5.2.2

def k0_off23 (i : grid0.Coords) (v66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_36 : BitVec 32 := 0#32
  let v69 : BitVec 32 := Scalar.addi v2 c0_i32_36
  let c0_i32_37 : BitVec 32 := 0#32
  let v70 : BitVec 32 := Scalar.addi v69 c0_i32_37
  let c_m128_i32_35 : BitVec 32 := 4294967168#32
  let v67 : BitVec 32 := Scalar.andi v66 c_m128_i32_35
  let v68 : BitVec 32 := v67
  ![v70.toNat, v68.toNat]

def k0_chk6 (i : grid0.Coords) (v66 : BitVec 32) : Prop :=
  (128 ∣ (k0_mult6 v66).toNat) ∧
  (∀ a, (k0_off7 i v66) a + S8x128.size a ≤ S4096x32000.size a) ∧
  (∀ a, (k0_off23 i v66) a + S8x128.size a ≤ S4096x32000.size a)
instance k0_chk6.dec : ∀ (i : grid0.Coords) (v66 : BitVec 32), Decidable (k0_chk6 i v66) := fun i v66 => decidable_of_iff' _ (Iff.of_eq (k0_chk6.eq_1 i v66))
theorem k0_mult6_dvd : ∀ (i : grid0.Coords) (v66 : BitVec 32) (k0_hw6 : k0_chk6 i v66), 128 ∣ (k0_mult6 v66).toNat := fun i v66 k0_hw6 => k0_hw6.1
theorem k0_off7_inb : ∀ (i : grid0.Coords) (v66 : BitVec 32) (k0_hw6 : k0_chk6 i v66), ∀ a, (k0_off7 i v66) a + S8x128.size a ≤ S4096x32000.size a := fun i v66 k0_hw6 => k0_hw6.2.1
theorem k0_off23_inb : ∀ (i : grid0.Coords) (v66 : BitVec 32) (k0_hw6 : k0_chk6 i v66), ∀ a, (k0_off23 i v66) a + S8x128.size a ≤ S4096x32000.size a := fun i v66 k0_hw6 => k0_hw6.2.2

def k0_off24 (i : grid0.Coords) (v78 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_43 : BitVec 32 := 0#32
  let v81 : BitVec 32 := Scalar.addi v2 c0_i32_43
  let c0_i32_44 : BitVec 32 := 0#32
  let v82 : BitVec 32 := Scalar.addi v81 c0_i32_44
  let c_m128_i32_42 : BitVec 32 := 4294967168#32
  let v79 : BitVec 32 := Scalar.andi v78 c_m128_i32_42
  let v80 : BitVec 32 := v79
  ![v82.toNat, v80.toNat]

def k0_chk7 (i : grid0.Coords) (v78 : BitVec 32) : Prop :=
  (128 ∣ (k0_mult7 v78).toNat) ∧
  (∀ a, (k0_off8 i v78) a + S8x128.size a ≤ S4096x32000.size a) ∧
  (∀ a, (k0_off24 i v78) a + S8x128.size a ≤ S4096x32000.size a)
instance k0_chk7.dec : ∀ (i : grid0.Coords) (v78 : BitVec 32), Decidable (k0_chk7 i v78) := fun i v78 => decidable_of_iff' _ (Iff.of_eq (k0_chk7.eq_1 i v78))
theorem k0_mult7_dvd : ∀ (i : grid0.Coords) (v78 : BitVec 32) (k0_hw7 : k0_chk7 i v78), 128 ∣ (k0_mult7 v78).toNat := fun i v78 k0_hw7 => k0_hw7.1
theorem k0_off8_inb : ∀ (i : grid0.Coords) (v78 : BitVec 32) (k0_hw7 : k0_chk7 i v78), ∀ a, (k0_off8 i v78) a + S8x128.size a ≤ S4096x32000.size a := fun i v78 k0_hw7 => k0_hw7.2.1
theorem k0_off24_inb : ∀ (i : grid0.Coords) (v78 : BitVec 32) (k0_hw7 : k0_chk7 i v78), ∀ a, (k0_off24 i v78) a + S8x128.size a ≤ S4096x32000.size a := fun i v78 k0_hw7 => k0_hw7.2.2

def k0_off25 (i : grid0.Coords) (v90 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_50 : BitVec 32 := 0#32
  let v93 : BitVec 32 := Scalar.addi v2 c0_i32_50
  let c0_i32_51 : BitVec 32 := 0#32
  let v94 : BitVec 32 := Scalar.addi v93 c0_i32_51
  let c_m128_i32_49 : BitVec 32 := 4294967168#32
  let v91 : BitVec 32 := Scalar.andi v90 c_m128_i32_49
  let v92 : BitVec 32 := v91
  ![v94.toNat, v92.toNat]

def k0_chk8 (i : grid0.Coords) (v90 : BitVec 32) : Prop :=
  (128 ∣ (k0_mult8 v90).toNat) ∧
  (∀ a, (k0_off9 i v90) a + S8x128.size a ≤ S4096x32000.size a) ∧
  (∀ a, (k0_off25 i v90) a + S8x128.size a ≤ S4096x32000.size a)
instance k0_chk8.dec : ∀ (i : grid0.Coords) (v90 : BitVec 32), Decidable (k0_chk8 i v90) := fun i v90 => decidable_of_iff' _ (Iff.of_eq (k0_chk8.eq_1 i v90))
theorem k0_mult8_dvd : ∀ (i : grid0.Coords) (v90 : BitVec 32) (k0_hw8 : k0_chk8 i v90), 128 ∣ (k0_mult8 v90).toNat := fun i v90 k0_hw8 => k0_hw8.1
theorem k0_off9_inb : ∀ (i : grid0.Coords) (v90 : BitVec 32) (k0_hw8 : k0_chk8 i v90), ∀ a, (k0_off9 i v90) a + S8x128.size a ≤ S4096x32000.size a := fun i v90 k0_hw8 => k0_hw8.2.1
theorem k0_off25_inb : ∀ (i : grid0.Coords) (v90 : BitVec 32) (k0_hw8 : k0_chk8 i v90), ∀ a, (k0_off25 i v90) a + S8x128.size a ≤ S4096x32000.size a := fun i v90 k0_hw8 => k0_hw8.2.2

def k0_off26 (i : grid0.Coords) (v102 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_57 : BitVec 32 := 0#32
  let v105 : BitVec 32 := Scalar.addi v2 c0_i32_57
  let c8_i32 : BitVec 32 := 8#32
  let v106 : BitVec 32 := Scalar.addi v105 c8_i32
  let c_m128_i32_56 : BitVec 32 := 4294967168#32
  let v103 : BitVec 32 := Scalar.andi v102 c_m128_i32_56
  let v104 : BitVec 32 := v103
  ![v106.toNat, v104.toNat]

def k0_chk9 (i : grid0.Coords) (v102 : BitVec 32) : Prop :=
  (128 ∣ (k0_mult9 v102).toNat) ∧
  (∀ a, (k0_off10 i v102) a + S8x128.size a ≤ S4096x32000.size a) ∧
  (∀ a, (k0_off26 i v102) a + S8x128.size a ≤ S4096x32000.size a)
instance k0_chk9.dec : ∀ (i : grid0.Coords) (v102 : BitVec 32), Decidable (k0_chk9 i v102) := fun i v102 => decidable_of_iff' _ (Iff.of_eq (k0_chk9.eq_1 i v102))
theorem k0_mult9_dvd : ∀ (i : grid0.Coords) (v102 : BitVec 32) (k0_hw9 : k0_chk9 i v102), 128 ∣ (k0_mult9 v102).toNat := fun i v102 k0_hw9 => k0_hw9.1
theorem k0_off10_inb : ∀ (i : grid0.Coords) (v102 : BitVec 32) (k0_hw9 : k0_chk9 i v102), ∀ a, (k0_off10 i v102) a + S8x128.size a ≤ S4096x32000.size a := fun i v102 k0_hw9 => k0_hw9.2.1
theorem k0_off26_inb : ∀ (i : grid0.Coords) (v102 : BitVec 32) (k0_hw9 : k0_chk9 i v102), ∀ a, (k0_off26 i v102) a + S8x128.size a ≤ S4096x32000.size a := fun i v102 k0_hw9 => k0_hw9.2.2

def k0_off27 (i : grid0.Coords) (v114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_64 : BitVec 32 := 0#32
  let v117 : BitVec 32 := Scalar.addi v2 c0_i32_64
  let c8_i32_65 : BitVec 32 := 8#32
  let v118 : BitVec 32 := Scalar.addi v117 c8_i32_65
  let c_m128_i32_63 : BitVec 32 := 4294967168#32
  let v115 : BitVec 32 := Scalar.andi v114 c_m128_i32_63
  let v116 : BitVec 32 := v115
  ![v118.toNat, v116.toNat]

def k0_chk10 (i : grid0.Coords) (v114 : BitVec 32) : Prop :=
  (128 ∣ (k0_mult10 v114).toNat) ∧
  (∀ a, (k0_off11 i v114) a + S8x128.size a ≤ S4096x32000.size a) ∧
  (∀ a, (k0_off27 i v114) a + S8x128.size a ≤ S4096x32000.size a)
instance k0_chk10.dec : ∀ (i : grid0.Coords) (v114 : BitVec 32), Decidable (k0_chk10 i v114) := fun i v114 => decidable_of_iff' _ (Iff.of_eq (k0_chk10.eq_1 i v114))
theorem k0_mult10_dvd : ∀ (i : grid0.Coords) (v114 : BitVec 32) (k0_hw10 : k0_chk10 i v114), 128 ∣ (k0_mult10 v114).toNat := fun i v114 k0_hw10 => k0_hw10.1
theorem k0_off11_inb : ∀ (i : grid0.Coords) (v114 : BitVec 32) (k0_hw10 : k0_chk10 i v114), ∀ a, (k0_off11 i v114) a + S8x128.size a ≤ S4096x32000.size a := fun i v114 k0_hw10 => k0_hw10.2.1
theorem k0_off27_inb : ∀ (i : grid0.Coords) (v114 : BitVec 32) (k0_hw10 : k0_chk10 i v114), ∀ a, (k0_off27 i v114) a + S8x128.size a ≤ S4096x32000.size a := fun i v114 k0_hw10 => k0_hw10.2.2

def k0_off28 (i : grid0.Coords) (v126 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_71 : BitVec 32 := 0#32
  let v129 : BitVec 32 := Scalar.addi v2 c0_i32_71
  let c8_i32_72 : BitVec 32 := 8#32
  let v130 : BitVec 32 := Scalar.addi v129 c8_i32_72
  let c_m128_i32_70 : BitVec 32 := 4294967168#32
  let v127 : BitVec 32 := Scalar.andi v126 c_m128_i32_70
  let v128 : BitVec 32 := v127
  ![v130.toNat, v128.toNat]

def k0_chk11 (i : grid0.Coords) (v126 : BitVec 32) : Prop :=
  (128 ∣ (k0_mult11 v126).toNat) ∧
  (∀ a, (k0_off12 i v126) a + S8x128.size a ≤ S4096x32000.size a) ∧
  (∀ a, (k0_off28 i v126) a + S8x128.size a ≤ S4096x32000.size a)
instance k0_chk11.dec : ∀ (i : grid0.Coords) (v126 : BitVec 32), Decidable (k0_chk11 i v126) := fun i v126 => decidable_of_iff' _ (Iff.of_eq (k0_chk11.eq_1 i v126))
theorem k0_mult11_dvd : ∀ (i : grid0.Coords) (v126 : BitVec 32) (k0_hw11 : k0_chk11 i v126), 128 ∣ (k0_mult11 v126).toNat := fun i v126 k0_hw11 => k0_hw11.1
theorem k0_off12_inb : ∀ (i : grid0.Coords) (v126 : BitVec 32) (k0_hw11 : k0_chk11 i v126), ∀ a, (k0_off12 i v126) a + S8x128.size a ≤ S4096x32000.size a := fun i v126 k0_hw11 => k0_hw11.2.1
theorem k0_off28_inb : ∀ (i : grid0.Coords) (v126 : BitVec 32) (k0_hw11 : k0_chk11 i v126), ∀ a, (k0_off28 i v126) a + S8x128.size a ≤ S4096x32000.size a := fun i v126 k0_hw11 => k0_hw11.2.2

def k0_off29 (i : grid0.Coords) (v138 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_78 : BitVec 32 := 0#32
  let v141 : BitVec 32 := Scalar.addi v2 c0_i32_78
  let c8_i32_79 : BitVec 32 := 8#32
  let v142 : BitVec 32 := Scalar.addi v141 c8_i32_79
  let c_m128_i32_77 : BitVec 32 := 4294967168#32
  let v139 : BitVec 32 := Scalar.andi v138 c_m128_i32_77
  let v140 : BitVec 32 := v139
  ![v142.toNat, v140.toNat]

def k0_chk12 (i : grid0.Coords) (v138 : BitVec 32) : Prop :=
  (128 ∣ (k0_mult12 v138).toNat) ∧
  (∀ a, (k0_off13 i v138) a + S8x128.size a ≤ S4096x32000.size a) ∧
  (∀ a, (k0_off29 i v138) a + S8x128.size a ≤ S4096x32000.size a)
instance k0_chk12.dec : ∀ (i : grid0.Coords) (v138 : BitVec 32), Decidable (k0_chk12 i v138) := fun i v138 => decidable_of_iff' _ (Iff.of_eq (k0_chk12.eq_1 i v138))
theorem k0_mult12_dvd : ∀ (i : grid0.Coords) (v138 : BitVec 32) (k0_hw12 : k0_chk12 i v138), 128 ∣ (k0_mult12 v138).toNat := fun i v138 k0_hw12 => k0_hw12.1
theorem k0_off13_inb : ∀ (i : grid0.Coords) (v138 : BitVec 32) (k0_hw12 : k0_chk12 i v138), ∀ a, (k0_off13 i v138) a + S8x128.size a ≤ S4096x32000.size a := fun i v138 k0_hw12 => k0_hw12.2.1
theorem k0_off29_inb : ∀ (i : grid0.Coords) (v138 : BitVec 32) (k0_hw12 : k0_chk12 i v138), ∀ a, (k0_off29 i v138) a + S8x128.size a ≤ S4096x32000.size a := fun i v138 k0_hw12 => k0_hw12.2.2

def k0_off30 (i : grid0.Coords) (v150 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_85 : BitVec 32 := 0#32
  let v153 : BitVec 32 := Scalar.addi v2 c0_i32_85
  let c8_i32_86 : BitVec 32 := 8#32
  let v154 : BitVec 32 := Scalar.addi v153 c8_i32_86
  let c_m128_i32_84 : BitVec 32 := 4294967168#32
  let v151 : BitVec 32 := Scalar.andi v150 c_m128_i32_84
  let v152 : BitVec 32 := v151
  ![v154.toNat, v152.toNat]

def k0_chk13 (i : grid0.Coords) (v150 : BitVec 32) : Prop :=
  (128 ∣ (k0_mult13 v150).toNat) ∧
  (∀ a, (k0_off14 i v150) a + S8x128.size a ≤ S4096x32000.size a) ∧
  (∀ a, (k0_off30 i v150) a + S8x128.size a ≤ S4096x32000.size a)
instance k0_chk13.dec : ∀ (i : grid0.Coords) (v150 : BitVec 32), Decidable (k0_chk13 i v150) := fun i v150 => decidable_of_iff' _ (Iff.of_eq (k0_chk13.eq_1 i v150))
theorem k0_mult13_dvd : ∀ (i : grid0.Coords) (v150 : BitVec 32) (k0_hw13 : k0_chk13 i v150), 128 ∣ (k0_mult13 v150).toNat := fun i v150 k0_hw13 => k0_hw13.1
theorem k0_off14_inb : ∀ (i : grid0.Coords) (v150 : BitVec 32) (k0_hw13 : k0_chk13 i v150), ∀ a, (k0_off14 i v150) a + S8x128.size a ≤ S4096x32000.size a := fun i v150 k0_hw13 => k0_hw13.2.1
theorem k0_off30_inb : ∀ (i : grid0.Coords) (v150 : BitVec 32) (k0_hw13 : k0_chk13 i v150), ∀ a, (k0_off30 i v150) a + S8x128.size a ≤ S4096x32000.size a := fun i v150 k0_hw13 => k0_hw13.2.2

def k0_off31 (i : grid0.Coords) (v162 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_92 : BitVec 32 := 0#32
  let v165 : BitVec 32 := Scalar.addi v2 c0_i32_92
  let c8_i32_93 : BitVec 32 := 8#32
  let v166 : BitVec 32 := Scalar.addi v165 c8_i32_93
  let c_m128_i32_91 : BitVec 32 := 4294967168#32
  let v163 : BitVec 32 := Scalar.andi v162 c_m128_i32_91
  let v164 : BitVec 32 := v163
  ![v166.toNat, v164.toNat]

def k0_chk14 (i : grid0.Coords) (v162 : BitVec 32) : Prop :=
  (128 ∣ (k0_mult14 v162).toNat) ∧
  (∀ a, (k0_off15 i v162) a + S8x128.size a ≤ S4096x32000.size a) ∧
  (∀ a, (k0_off31 i v162) a + S8x128.size a ≤ S4096x32000.size a)
instance k0_chk14.dec : ∀ (i : grid0.Coords) (v162 : BitVec 32), Decidable (k0_chk14 i v162) := fun i v162 => decidable_of_iff' _ (Iff.of_eq (k0_chk14.eq_1 i v162))
theorem k0_mult14_dvd : ∀ (i : grid0.Coords) (v162 : BitVec 32) (k0_hw14 : k0_chk14 i v162), 128 ∣ (k0_mult14 v162).toNat := fun i v162 k0_hw14 => k0_hw14.1
theorem k0_off15_inb : ∀ (i : grid0.Coords) (v162 : BitVec 32) (k0_hw14 : k0_chk14 i v162), ∀ a, (k0_off15 i v162) a + S8x128.size a ≤ S4096x32000.size a := fun i v162 k0_hw14 => k0_hw14.2.1
theorem k0_off31_inb : ∀ (i : grid0.Coords) (v162 : BitVec 32) (k0_hw14 : k0_chk14 i v162), ∀ a, (k0_off31 i v162) a + S8x128.size a ≤ S4096x32000.size a := fun i v162 k0_hw14 => k0_hw14.2.2

def k0_off32 (i : grid0.Coords) (v174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_99 : BitVec 32 := 0#32
  let v177 : BitVec 32 := Scalar.addi v2 c0_i32_99
  let c8_i32_100 : BitVec 32 := 8#32
  let v178 : BitVec 32 := Scalar.addi v177 c8_i32_100
  let c_m128_i32_98 : BitVec 32 := 4294967168#32
  let v175 : BitVec 32 := Scalar.andi v174 c_m128_i32_98
  let v176 : BitVec 32 := v175
  ![v178.toNat, v176.toNat]

def k0_chk15 (i : grid0.Coords) (v174 : BitVec 32) : Prop :=
  (128 ∣ (k0_mult15 v174).toNat) ∧
  (∀ a, (k0_off16 i v174) a + S8x128.size a ≤ S4096x32000.size a) ∧
  (∀ a, (k0_off32 i v174) a + S8x128.size a ≤ S4096x32000.size a)
instance k0_chk15.dec : ∀ (i : grid0.Coords) (v174 : BitVec 32), Decidable (k0_chk15 i v174) := fun i v174 => decidable_of_iff' _ (Iff.of_eq (k0_chk15.eq_1 i v174))
theorem k0_mult15_dvd : ∀ (i : grid0.Coords) (v174 : BitVec 32) (k0_hw15 : k0_chk15 i v174), 128 ∣ (k0_mult15 v174).toNat := fun i v174 k0_hw15 => k0_hw15.1
theorem k0_off16_inb : ∀ (i : grid0.Coords) (v174 : BitVec 32) (k0_hw15 : k0_chk15 i v174), ∀ a, (k0_off16 i v174) a + S8x128.size a ≤ S4096x32000.size a := fun i v174 k0_hw15 => k0_hw15.2.1
theorem k0_off32_inb : ∀ (i : grid0.Coords) (v174 : BitVec 32) (k0_hw15 : k0_chk15 i v174), ∀ a, (k0_off32 i v174) a + S8x128.size a ≤ S4096x32000.size a := fun i v174 k0_hw15 => k0_hw15.2.2

def k0_chk17 (v294 : IVec S16 32) (v296 : IVec S16 32) (v298 : IVec S16 32) : Prop :=
  (∀ a x, ((![v294, v296, v298] : Fin 3 → IVec S16 32) a x).toNat < S16x8x128.size a)
instance k0_chk17.dec : ∀ (v294 : IVec S16 32) (v296 : IVec S16 32) (v298 : IVec S16 32), Decidable (k0_chk17 v294 v296 v298) := fun v294 v296 v298 => decidable_of_iff' _ (Iff.of_eq (k0_chk17.eq_1 v294 v296 v298))
theorem k0_idx1_inb : ∀ (v294 : IVec S16 32) (v296 : IVec S16 32) (v298 : IVec S16 32) (k0_hw17 : k0_chk17 v294 v296 v298), ∀ a x, ((![v294, v296, v298] : Fin 3 → IVec S16 32) a x).toNat < S16x8x128.size a := fun v294 v296 v298 k0_hw17 => k0_hw17
def k0_mult17 (v307 : BitVec 32) : BitVec 32 :=
  let c_m128_i32_196 : BitVec 32 := 4294967168#32
  let v308 : BitVec 32 := Scalar.andi v307 c_m128_i32_196
  v308

def k0_off33 (i : grid0.Coords) (v307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let v310 : BitVec 32 := Scalar.addi v2 c16_i32
  let c0_i32_197 : BitVec 32 := 0#32
  let v311 : BitVec 32 := Scalar.addi v310 c0_i32_197
  let c_m128_i32_196 : BitVec 32 := 4294967168#32
  let v308 : BitVec 32 := Scalar.andi v307 c_m128_i32_196
  let v309 : BitVec 32 := v308
  ![v311.toNat, v309.toNat]
def k0_mult18 (v319 : BitVec 32) : BitVec 32 :=
  let c_m128_i32_203 : BitVec 32 := 4294967168#32
  let v320 : BitVec 32 := Scalar.andi v319 c_m128_i32_203
  v320

def k0_off34 (i : grid0.Coords) (v319 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_204 : BitVec 32 := 16#32
  let v322 : BitVec 32 := Scalar.addi v2 c16_i32_204
  let c0_i32_205 : BitVec 32 := 0#32
  let v323 : BitVec 32 := Scalar.addi v322 c0_i32_205
  let c_m128_i32_203 : BitVec 32 := 4294967168#32
  let v320 : BitVec 32 := Scalar.andi v319 c_m128_i32_203
  let v321 : BitVec 32 := v320
  ![v323.toNat, v321.toNat]
def k0_mult19 (v331 : BitVec 32) : BitVec 32 :=
  let c_m128_i32_211 : BitVec 32 := 4294967168#32
  let v332 : BitVec 32 := Scalar.andi v331 c_m128_i32_211
  v332

def k0_off35 (i : grid0.Coords) (v331 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_212 : BitVec 32 := 16#32
  let v334 : BitVec 32 := Scalar.addi v2 c16_i32_212
  let c0_i32_213 : BitVec 32 := 0#32
  let v335 : BitVec 32 := Scalar.addi v334 c0_i32_213
  let c_m128_i32_211 : BitVec 32 := 4294967168#32
  let v332 : BitVec 32 := Scalar.andi v331 c_m128_i32_211
  let v333 : BitVec 32 := v332
  ![v335.toNat, v333.toNat]
def k0_mult20 (v343 : BitVec 32) : BitVec 32 :=
  let c_m128_i32_219 : BitVec 32 := 4294967168#32
  let v344 : BitVec 32 := Scalar.andi v343 c_m128_i32_219
  v344

def k0_off36 (i : grid0.Coords) (v343 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_220 : BitVec 32 := 16#32
  let v346 : BitVec 32 := Scalar.addi v2 c16_i32_220
  let c0_i32_221 : BitVec 32 := 0#32
  let v347 : BitVec 32 := Scalar.addi v346 c0_i32_221
  let c_m128_i32_219 : BitVec 32 := 4294967168#32
  let v344 : BitVec 32 := Scalar.andi v343 c_m128_i32_219
  let v345 : BitVec 32 := v344
  ![v347.toNat, v345.toNat]
def k0_mult21 (v355 : BitVec 32) : BitVec 32 :=
  let c_m128_i32_227 : BitVec 32 := 4294967168#32
  let v356 : BitVec 32 := Scalar.andi v355 c_m128_i32_227
  v356

def k0_off37 (i : grid0.Coords) (v355 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_228 : BitVec 32 := 16#32
  let v358 : BitVec 32 := Scalar.addi v2 c16_i32_228
  let c0_i32_229 : BitVec 32 := 0#32
  let v359 : BitVec 32 := Scalar.addi v358 c0_i32_229
  let c_m128_i32_227 : BitVec 32 := 4294967168#32
  let v356 : BitVec 32 := Scalar.andi v355 c_m128_i32_227
  let v357 : BitVec 32 := v356
  ![v359.toNat, v357.toNat]
def k0_mult22 (v367 : BitVec 32) : BitVec 32 :=
  let c_m128_i32_235 : BitVec 32 := 4294967168#32
  let v368 : BitVec 32 := Scalar.andi v367 c_m128_i32_235
  v368

def k0_off38 (i : grid0.Coords) (v367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_236 : BitVec 32 := 16#32
  let v370 : BitVec 32 := Scalar.addi v2 c16_i32_236
  let c0_i32_237 : BitVec 32 := 0#32
  let v371 : BitVec 32 := Scalar.addi v370 c0_i32_237
  let c_m128_i32_235 : BitVec 32 := 4294967168#32
  let v368 : BitVec 32 := Scalar.andi v367 c_m128_i32_235
  let v369 : BitVec 32 := v368
  ![v371.toNat, v369.toNat]
def k0_mult23 (v379 : BitVec 32) : BitVec 32 :=
  let c_m128_i32_243 : BitVec 32 := 4294967168#32
  let v380 : BitVec 32 := Scalar.andi v379 c_m128_i32_243
  v380

def k0_off39 (i : grid0.Coords) (v379 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_244 : BitVec 32 := 16#32
  let v382 : BitVec 32 := Scalar.addi v2 c16_i32_244
  let c0_i32_245 : BitVec 32 := 0#32
  let v383 : BitVec 32 := Scalar.addi v382 c0_i32_245
  let c_m128_i32_243 : BitVec 32 := 4294967168#32
  let v380 : BitVec 32 := Scalar.andi v379 c_m128_i32_243
  let v381 : BitVec 32 := v380
  ![v383.toNat, v381.toNat]
def k0_mult24 (v391 : BitVec 32) : BitVec 32 :=
  let c_m128_i32_251 : BitVec 32 := 4294967168#32
  let v392 : BitVec 32 := Scalar.andi v391 c_m128_i32_251
  v392

def k0_off40 (i : grid0.Coords) (v391 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_252 : BitVec 32 := 16#32
  let v394 : BitVec 32 := Scalar.addi v2 c16_i32_252
  let c0_i32_253 : BitVec 32 := 0#32
  let v395 : BitVec 32 := Scalar.addi v394 c0_i32_253
  let c_m128_i32_251 : BitVec 32 := 4294967168#32
  let v392 : BitVec 32 := Scalar.andi v391 c_m128_i32_251
  let v393 : BitVec 32 := v392
  ![v395.toNat, v393.toNat]
def k0_mult25 (v403 : BitVec 32) : BitVec 32 :=
  let c_m128_i32_259 : BitVec 32 := 4294967168#32
  let v404 : BitVec 32 := Scalar.andi v403 c_m128_i32_259
  v404

def k0_off41 (i : grid0.Coords) (v403 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_260 : BitVec 32 := 16#32
  let v406 : BitVec 32 := Scalar.addi v2 c16_i32_260
  let c8_i32_261 : BitVec 32 := 8#32
  let v407 : BitVec 32 := Scalar.addi v406 c8_i32_261
  let c_m128_i32_259 : BitVec 32 := 4294967168#32
  let v404 : BitVec 32 := Scalar.andi v403 c_m128_i32_259
  let v405 : BitVec 32 := v404
  ![v407.toNat, v405.toNat]
def k0_mult26 (v415 : BitVec 32) : BitVec 32 :=
  let c_m128_i32_267 : BitVec 32 := 4294967168#32
  let v416 : BitVec 32 := Scalar.andi v415 c_m128_i32_267
  v416

def k0_off42 (i : grid0.Coords) (v415 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_268 : BitVec 32 := 16#32
  let v418 : BitVec 32 := Scalar.addi v2 c16_i32_268
  let c8_i32_269 : BitVec 32 := 8#32
  let v419 : BitVec 32 := Scalar.addi v418 c8_i32_269
  let c_m128_i32_267 : BitVec 32 := 4294967168#32
  let v416 : BitVec 32 := Scalar.andi v415 c_m128_i32_267
  let v417 : BitVec 32 := v416
  ![v419.toNat, v417.toNat]
def k0_mult27 (v427 : BitVec 32) : BitVec 32 :=
  let c_m128_i32_275 : BitVec 32 := 4294967168#32
  let v428 : BitVec 32 := Scalar.andi v427 c_m128_i32_275
  v428

def k0_off43 (i : grid0.Coords) (v427 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_276 : BitVec 32 := 16#32
  let v430 : BitVec 32 := Scalar.addi v2 c16_i32_276
  let c8_i32_277 : BitVec 32 := 8#32
  let v431 : BitVec 32 := Scalar.addi v430 c8_i32_277
  let c_m128_i32_275 : BitVec 32 := 4294967168#32
  let v428 : BitVec 32 := Scalar.andi v427 c_m128_i32_275
  let v429 : BitVec 32 := v428
  ![v431.toNat, v429.toNat]
def k0_mult28 (v439 : BitVec 32) : BitVec 32 :=
  let c_m128_i32_283 : BitVec 32 := 4294967168#32
  let v440 : BitVec 32 := Scalar.andi v439 c_m128_i32_283
  v440

def k0_off44 (i : grid0.Coords) (v439 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_284 : BitVec 32 := 16#32
  let v442 : BitVec 32 := Scalar.addi v2 c16_i32_284
  let c8_i32_285 : BitVec 32 := 8#32
  let v443 : BitVec 32 := Scalar.addi v442 c8_i32_285
  let c_m128_i32_283 : BitVec 32 := 4294967168#32
  let v440 : BitVec 32 := Scalar.andi v439 c_m128_i32_283
  let v441 : BitVec 32 := v440
  ![v443.toNat, v441.toNat]
def k0_mult29 (v451 : BitVec 32) : BitVec 32 :=
  let c_m128_i32_291 : BitVec 32 := 4294967168#32
  let v452 : BitVec 32 := Scalar.andi v451 c_m128_i32_291
  v452

def k0_off45 (i : grid0.Coords) (v451 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_292 : BitVec 32 := 16#32
  let v454 : BitVec 32 := Scalar.addi v2 c16_i32_292
  let c8_i32_293 : BitVec 32 := 8#32
  let v455 : BitVec 32 := Scalar.addi v454 c8_i32_293
  let c_m128_i32_291 : BitVec 32 := 4294967168#32
  let v452 : BitVec 32 := Scalar.andi v451 c_m128_i32_291
  let v453 : BitVec 32 := v452
  ![v455.toNat, v453.toNat]
def k0_mult30 (v463 : BitVec 32) : BitVec 32 :=
  let c_m128_i32_299 : BitVec 32 := 4294967168#32
  let v464 : BitVec 32 := Scalar.andi v463 c_m128_i32_299
  v464

def k0_off46 (i : grid0.Coords) (v463 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_300 : BitVec 32 := 16#32
  let v466 : BitVec 32 := Scalar.addi v2 c16_i32_300
  let c8_i32_301 : BitVec 32 := 8#32
  let v467 : BitVec 32 := Scalar.addi v466 c8_i32_301
  let c_m128_i32_299 : BitVec 32 := 4294967168#32
  let v464 : BitVec 32 := Scalar.andi v463 c_m128_i32_299
  let v465 : BitVec 32 := v464
  ![v467.toNat, v465.toNat]
def k0_mult31 (v475 : BitVec 32) : BitVec 32 :=
  let c_m128_i32_307 : BitVec 32 := 4294967168#32
  let v476 : BitVec 32 := Scalar.andi v475 c_m128_i32_307
  v476

def k0_off47 (i : grid0.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_308 : BitVec 32 := 16#32
  let v478 : BitVec 32 := Scalar.addi v2 c16_i32_308
  let c8_i32_309 : BitVec 32 := 8#32
  let v479 : BitVec 32 := Scalar.addi v478 c8_i32_309
  let c_m128_i32_307 : BitVec 32 := 4294967168#32
  let v476 : BitVec 32 := Scalar.andi v475 c_m128_i32_307
  let v477 : BitVec 32 := v476
  ![v479.toNat, v477.toNat]
def k0_mult32 (v487 : BitVec 32) : BitVec 32 :=
  let c_m128_i32_315 : BitVec 32 := 4294967168#32
  let v488 : BitVec 32 := Scalar.andi v487 c_m128_i32_315
  v488

def k0_off48 (i : grid0.Coords) (v487 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_316 : BitVec 32 := 16#32
  let v490 : BitVec 32 := Scalar.addi v2 c16_i32_316
  let c8_i32_317 : BitVec 32 := 8#32
  let v491 : BitVec 32 := Scalar.addi v490 c8_i32_317
  let c_m128_i32_315 : BitVec 32 := 4294967168#32
  let v488 : BitVec 32 := Scalar.andi v487 c_m128_i32_315
  let v489 : BitVec 32 := v488
  ![v491.toNat, v489.toNat]

def k0_chk33 (i : grid0.Coords) (v487 : BitVec 32) : Prop :=
  (128 ∣ (k0_mult32 v487).toNat) ∧
  (∀ a, (k0_off48 i v487) a + S8x128.size a ≤ S4096x32000.size a)
instance k0_chk33.dec : ∀ (i : grid0.Coords) (v487 : BitVec 32), Decidable (k0_chk33 i v487) := fun i v487 => decidable_of_iff' _ (Iff.of_eq (k0_chk33.eq_1 i v487))
theorem k0_mult32_dvd : ∀ (i : grid0.Coords) (v487 : BitVec 32) (k0_hw33 : k0_chk33 i v487), 128 ∣ (k0_mult32 v487).toNat := fun i v487 k0_hw33 => k0_hw33.1
theorem k0_off48_inb : ∀ (i : grid0.Coords) (v487 : BitVec 32) (k0_hw33 : k0_chk33 i v487), ∀ a, (k0_off48 i v487) a + S8x128.size a ≤ S4096x32000.size a := fun i v487 k0_hw33 => k0_hw33.2

def k0_off49 (i : grid0.Coords) (v307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let v310 : BitVec 32 := Scalar.addi v2 c16_i32
  let c0_i32_197 : BitVec 32 := 0#32
  let v311 : BitVec 32 := Scalar.addi v310 c0_i32_197
  let c_m128_i32_196 : BitVec 32 := 4294967168#32
  let v308 : BitVec 32 := Scalar.andi v307 c_m128_i32_196
  let v309 : BitVec 32 := v308
  ![v311.toNat, v309.toNat]

def k0_chk18 (i : grid0.Coords) (v307 : BitVec 32) : Prop :=
  (128 ∣ (k0_mult17 v307).toNat) ∧
  (∀ a, (k0_off33 i v307) a + S8x128.size a ≤ S4096x32000.size a) ∧
  (∀ a, (k0_off49 i v307) a + S8x128.size a ≤ S4096x32000.size a)
instance k0_chk18.dec : ∀ (i : grid0.Coords) (v307 : BitVec 32), Decidable (k0_chk18 i v307) := fun i v307 => decidable_of_iff' _ (Iff.of_eq (k0_chk18.eq_1 i v307))
theorem k0_mult17_dvd : ∀ (i : grid0.Coords) (v307 : BitVec 32) (k0_hw18 : k0_chk18 i v307), 128 ∣ (k0_mult17 v307).toNat := fun i v307 k0_hw18 => k0_hw18.1
theorem k0_off33_inb : ∀ (i : grid0.Coords) (v307 : BitVec 32) (k0_hw18 : k0_chk18 i v307), ∀ a, (k0_off33 i v307) a + S8x128.size a ≤ S4096x32000.size a := fun i v307 k0_hw18 => k0_hw18.2.1
theorem k0_off49_inb : ∀ (i : grid0.Coords) (v307 : BitVec 32) (k0_hw18 : k0_chk18 i v307), ∀ a, (k0_off49 i v307) a + S8x128.size a ≤ S4096x32000.size a := fun i v307 k0_hw18 => k0_hw18.2.2

def k0_off50 (i : grid0.Coords) (v319 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_204 : BitVec 32 := 16#32
  let v322 : BitVec 32 := Scalar.addi v2 c16_i32_204
  let c0_i32_205 : BitVec 32 := 0#32
  let v323 : BitVec 32 := Scalar.addi v322 c0_i32_205
  let c_m128_i32_203 : BitVec 32 := 4294967168#32
  let v320 : BitVec 32 := Scalar.andi v319 c_m128_i32_203
  let v321 : BitVec 32 := v320
  ![v323.toNat, v321.toNat]

def k0_chk19 (i : grid0.Coords) (v319 : BitVec 32) : Prop :=
  (128 ∣ (k0_mult18 v319).toNat) ∧
  (∀ a, (k0_off34 i v319) a + S8x128.size a ≤ S4096x32000.size a) ∧
  (∀ a, (k0_off50 i v319) a + S8x128.size a ≤ S4096x32000.size a)
instance k0_chk19.dec : ∀ (i : grid0.Coords) (v319 : BitVec 32), Decidable (k0_chk19 i v319) := fun i v319 => decidable_of_iff' _ (Iff.of_eq (k0_chk19.eq_1 i v319))
theorem k0_mult18_dvd : ∀ (i : grid0.Coords) (v319 : BitVec 32) (k0_hw19 : k0_chk19 i v319), 128 ∣ (k0_mult18 v319).toNat := fun i v319 k0_hw19 => k0_hw19.1
theorem k0_off34_inb : ∀ (i : grid0.Coords) (v319 : BitVec 32) (k0_hw19 : k0_chk19 i v319), ∀ a, (k0_off34 i v319) a + S8x128.size a ≤ S4096x32000.size a := fun i v319 k0_hw19 => k0_hw19.2.1
theorem k0_off50_inb : ∀ (i : grid0.Coords) (v319 : BitVec 32) (k0_hw19 : k0_chk19 i v319), ∀ a, (k0_off50 i v319) a + S8x128.size a ≤ S4096x32000.size a := fun i v319 k0_hw19 => k0_hw19.2.2

def k0_off51 (i : grid0.Coords) (v331 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_212 : BitVec 32 := 16#32
  let v334 : BitVec 32 := Scalar.addi v2 c16_i32_212
  let c0_i32_213 : BitVec 32 := 0#32
  let v335 : BitVec 32 := Scalar.addi v334 c0_i32_213
  let c_m128_i32_211 : BitVec 32 := 4294967168#32
  let v332 : BitVec 32 := Scalar.andi v331 c_m128_i32_211
  let v333 : BitVec 32 := v332
  ![v335.toNat, v333.toNat]

def k0_chk20 (i : grid0.Coords) (v331 : BitVec 32) : Prop :=
  (128 ∣ (k0_mult19 v331).toNat) ∧
  (∀ a, (k0_off35 i v331) a + S8x128.size a ≤ S4096x32000.size a) ∧
  (∀ a, (k0_off51 i v331) a + S8x128.size a ≤ S4096x32000.size a)
instance k0_chk20.dec : ∀ (i : grid0.Coords) (v331 : BitVec 32), Decidable (k0_chk20 i v331) := fun i v331 => decidable_of_iff' _ (Iff.of_eq (k0_chk20.eq_1 i v331))
theorem k0_mult19_dvd : ∀ (i : grid0.Coords) (v331 : BitVec 32) (k0_hw20 : k0_chk20 i v331), 128 ∣ (k0_mult19 v331).toNat := fun i v331 k0_hw20 => k0_hw20.1
theorem k0_off35_inb : ∀ (i : grid0.Coords) (v331 : BitVec 32) (k0_hw20 : k0_chk20 i v331), ∀ a, (k0_off35 i v331) a + S8x128.size a ≤ S4096x32000.size a := fun i v331 k0_hw20 => k0_hw20.2.1
theorem k0_off51_inb : ∀ (i : grid0.Coords) (v331 : BitVec 32) (k0_hw20 : k0_chk20 i v331), ∀ a, (k0_off51 i v331) a + S8x128.size a ≤ S4096x32000.size a := fun i v331 k0_hw20 => k0_hw20.2.2

def k0_off52 (i : grid0.Coords) (v343 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_220 : BitVec 32 := 16#32
  let v346 : BitVec 32 := Scalar.addi v2 c16_i32_220
  let c0_i32_221 : BitVec 32 := 0#32
  let v347 : BitVec 32 := Scalar.addi v346 c0_i32_221
  let c_m128_i32_219 : BitVec 32 := 4294967168#32
  let v344 : BitVec 32 := Scalar.andi v343 c_m128_i32_219
  let v345 : BitVec 32 := v344
  ![v347.toNat, v345.toNat]

def k0_chk21 (i : grid0.Coords) (v343 : BitVec 32) : Prop :=
  (128 ∣ (k0_mult20 v343).toNat) ∧
  (∀ a, (k0_off36 i v343) a + S8x128.size a ≤ S4096x32000.size a) ∧
  (∀ a, (k0_off52 i v343) a + S8x128.size a ≤ S4096x32000.size a)
instance k0_chk21.dec : ∀ (i : grid0.Coords) (v343 : BitVec 32), Decidable (k0_chk21 i v343) := fun i v343 => decidable_of_iff' _ (Iff.of_eq (k0_chk21.eq_1 i v343))
theorem k0_mult20_dvd : ∀ (i : grid0.Coords) (v343 : BitVec 32) (k0_hw21 : k0_chk21 i v343), 128 ∣ (k0_mult20 v343).toNat := fun i v343 k0_hw21 => k0_hw21.1
theorem k0_off36_inb : ∀ (i : grid0.Coords) (v343 : BitVec 32) (k0_hw21 : k0_chk21 i v343), ∀ a, (k0_off36 i v343) a + S8x128.size a ≤ S4096x32000.size a := fun i v343 k0_hw21 => k0_hw21.2.1
theorem k0_off52_inb : ∀ (i : grid0.Coords) (v343 : BitVec 32) (k0_hw21 : k0_chk21 i v343), ∀ a, (k0_off52 i v343) a + S8x128.size a ≤ S4096x32000.size a := fun i v343 k0_hw21 => k0_hw21.2.2

def k0_off53 (i : grid0.Coords) (v355 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_228 : BitVec 32 := 16#32
  let v358 : BitVec 32 := Scalar.addi v2 c16_i32_228
  let c0_i32_229 : BitVec 32 := 0#32
  let v359 : BitVec 32 := Scalar.addi v358 c0_i32_229
  let c_m128_i32_227 : BitVec 32 := 4294967168#32
  let v356 : BitVec 32 := Scalar.andi v355 c_m128_i32_227
  let v357 : BitVec 32 := v356
  ![v359.toNat, v357.toNat]

def k0_chk22 (i : grid0.Coords) (v355 : BitVec 32) : Prop :=
  (128 ∣ (k0_mult21 v355).toNat) ∧
  (∀ a, (k0_off37 i v355) a + S8x128.size a ≤ S4096x32000.size a) ∧
  (∀ a, (k0_off53 i v355) a + S8x128.size a ≤ S4096x32000.size a)
instance k0_chk22.dec : ∀ (i : grid0.Coords) (v355 : BitVec 32), Decidable (k0_chk22 i v355) := fun i v355 => decidable_of_iff' _ (Iff.of_eq (k0_chk22.eq_1 i v355))
theorem k0_mult21_dvd : ∀ (i : grid0.Coords) (v355 : BitVec 32) (k0_hw22 : k0_chk22 i v355), 128 ∣ (k0_mult21 v355).toNat := fun i v355 k0_hw22 => k0_hw22.1
theorem k0_off37_inb : ∀ (i : grid0.Coords) (v355 : BitVec 32) (k0_hw22 : k0_chk22 i v355), ∀ a, (k0_off37 i v355) a + S8x128.size a ≤ S4096x32000.size a := fun i v355 k0_hw22 => k0_hw22.2.1
theorem k0_off53_inb : ∀ (i : grid0.Coords) (v355 : BitVec 32) (k0_hw22 : k0_chk22 i v355), ∀ a, (k0_off53 i v355) a + S8x128.size a ≤ S4096x32000.size a := fun i v355 k0_hw22 => k0_hw22.2.2

def k0_off54 (i : grid0.Coords) (v367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_236 : BitVec 32 := 16#32
  let v370 : BitVec 32 := Scalar.addi v2 c16_i32_236
  let c0_i32_237 : BitVec 32 := 0#32
  let v371 : BitVec 32 := Scalar.addi v370 c0_i32_237
  let c_m128_i32_235 : BitVec 32 := 4294967168#32
  let v368 : BitVec 32 := Scalar.andi v367 c_m128_i32_235
  let v369 : BitVec 32 := v368
  ![v371.toNat, v369.toNat]

def k0_chk23 (i : grid0.Coords) (v367 : BitVec 32) : Prop :=
  (128 ∣ (k0_mult22 v367).toNat) ∧
  (∀ a, (k0_off38 i v367) a + S8x128.size a ≤ S4096x32000.size a) ∧
  (∀ a, (k0_off54 i v367) a + S8x128.size a ≤ S4096x32000.size a)
instance k0_chk23.dec : ∀ (i : grid0.Coords) (v367 : BitVec 32), Decidable (k0_chk23 i v367) := fun i v367 => decidable_of_iff' _ (Iff.of_eq (k0_chk23.eq_1 i v367))
theorem k0_mult22_dvd : ∀ (i : grid0.Coords) (v367 : BitVec 32) (k0_hw23 : k0_chk23 i v367), 128 ∣ (k0_mult22 v367).toNat := fun i v367 k0_hw23 => k0_hw23.1
theorem k0_off38_inb : ∀ (i : grid0.Coords) (v367 : BitVec 32) (k0_hw23 : k0_chk23 i v367), ∀ a, (k0_off38 i v367) a + S8x128.size a ≤ S4096x32000.size a := fun i v367 k0_hw23 => k0_hw23.2.1
theorem k0_off54_inb : ∀ (i : grid0.Coords) (v367 : BitVec 32) (k0_hw23 : k0_chk23 i v367), ∀ a, (k0_off54 i v367) a + S8x128.size a ≤ S4096x32000.size a := fun i v367 k0_hw23 => k0_hw23.2.2

def k0_off55 (i : grid0.Coords) (v379 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_244 : BitVec 32 := 16#32
  let v382 : BitVec 32 := Scalar.addi v2 c16_i32_244
  let c0_i32_245 : BitVec 32 := 0#32
  let v383 : BitVec 32 := Scalar.addi v382 c0_i32_245
  let c_m128_i32_243 : BitVec 32 := 4294967168#32
  let v380 : BitVec 32 := Scalar.andi v379 c_m128_i32_243
  let v381 : BitVec 32 := v380
  ![v383.toNat, v381.toNat]

def k0_chk24 (i : grid0.Coords) (v379 : BitVec 32) : Prop :=
  (128 ∣ (k0_mult23 v379).toNat) ∧
  (∀ a, (k0_off39 i v379) a + S8x128.size a ≤ S4096x32000.size a) ∧
  (∀ a, (k0_off55 i v379) a + S8x128.size a ≤ S4096x32000.size a)
instance k0_chk24.dec : ∀ (i : grid0.Coords) (v379 : BitVec 32), Decidable (k0_chk24 i v379) := fun i v379 => decidable_of_iff' _ (Iff.of_eq (k0_chk24.eq_1 i v379))
theorem k0_mult23_dvd : ∀ (i : grid0.Coords) (v379 : BitVec 32) (k0_hw24 : k0_chk24 i v379), 128 ∣ (k0_mult23 v379).toNat := fun i v379 k0_hw24 => k0_hw24.1
theorem k0_off39_inb : ∀ (i : grid0.Coords) (v379 : BitVec 32) (k0_hw24 : k0_chk24 i v379), ∀ a, (k0_off39 i v379) a + S8x128.size a ≤ S4096x32000.size a := fun i v379 k0_hw24 => k0_hw24.2.1
theorem k0_off55_inb : ∀ (i : grid0.Coords) (v379 : BitVec 32) (k0_hw24 : k0_chk24 i v379), ∀ a, (k0_off55 i v379) a + S8x128.size a ≤ S4096x32000.size a := fun i v379 k0_hw24 => k0_hw24.2.2

def k0_off56 (i : grid0.Coords) (v391 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_252 : BitVec 32 := 16#32
  let v394 : BitVec 32 := Scalar.addi v2 c16_i32_252
  let c0_i32_253 : BitVec 32 := 0#32
  let v395 : BitVec 32 := Scalar.addi v394 c0_i32_253
  let c_m128_i32_251 : BitVec 32 := 4294967168#32
  let v392 : BitVec 32 := Scalar.andi v391 c_m128_i32_251
  let v393 : BitVec 32 := v392
  ![v395.toNat, v393.toNat]

def k0_chk25 (i : grid0.Coords) (v391 : BitVec 32) : Prop :=
  (128 ∣ (k0_mult24 v391).toNat) ∧
  (∀ a, (k0_off40 i v391) a + S8x128.size a ≤ S4096x32000.size a) ∧
  (∀ a, (k0_off56 i v391) a + S8x128.size a ≤ S4096x32000.size a)
instance k0_chk25.dec : ∀ (i : grid0.Coords) (v391 : BitVec 32), Decidable (k0_chk25 i v391) := fun i v391 => decidable_of_iff' _ (Iff.of_eq (k0_chk25.eq_1 i v391))
theorem k0_mult24_dvd : ∀ (i : grid0.Coords) (v391 : BitVec 32) (k0_hw25 : k0_chk25 i v391), 128 ∣ (k0_mult24 v391).toNat := fun i v391 k0_hw25 => k0_hw25.1
theorem k0_off40_inb : ∀ (i : grid0.Coords) (v391 : BitVec 32) (k0_hw25 : k0_chk25 i v391), ∀ a, (k0_off40 i v391) a + S8x128.size a ≤ S4096x32000.size a := fun i v391 k0_hw25 => k0_hw25.2.1
theorem k0_off56_inb : ∀ (i : grid0.Coords) (v391 : BitVec 32) (k0_hw25 : k0_chk25 i v391), ∀ a, (k0_off56 i v391) a + S8x128.size a ≤ S4096x32000.size a := fun i v391 k0_hw25 => k0_hw25.2.2

def k0_off57 (i : grid0.Coords) (v403 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_260 : BitVec 32 := 16#32
  let v406 : BitVec 32 := Scalar.addi v2 c16_i32_260
  let c8_i32_261 : BitVec 32 := 8#32
  let v407 : BitVec 32 := Scalar.addi v406 c8_i32_261
  let c_m128_i32_259 : BitVec 32 := 4294967168#32
  let v404 : BitVec 32 := Scalar.andi v403 c_m128_i32_259
  let v405 : BitVec 32 := v404
  ![v407.toNat, v405.toNat]

def k0_chk26 (i : grid0.Coords) (v403 : BitVec 32) : Prop :=
  (128 ∣ (k0_mult25 v403).toNat) ∧
  (∀ a, (k0_off41 i v403) a + S8x128.size a ≤ S4096x32000.size a) ∧
  (∀ a, (k0_off57 i v403) a + S8x128.size a ≤ S4096x32000.size a)
instance k0_chk26.dec : ∀ (i : grid0.Coords) (v403 : BitVec 32), Decidable (k0_chk26 i v403) := fun i v403 => decidable_of_iff' _ (Iff.of_eq (k0_chk26.eq_1 i v403))
theorem k0_mult25_dvd : ∀ (i : grid0.Coords) (v403 : BitVec 32) (k0_hw26 : k0_chk26 i v403), 128 ∣ (k0_mult25 v403).toNat := fun i v403 k0_hw26 => k0_hw26.1
theorem k0_off41_inb : ∀ (i : grid0.Coords) (v403 : BitVec 32) (k0_hw26 : k0_chk26 i v403), ∀ a, (k0_off41 i v403) a + S8x128.size a ≤ S4096x32000.size a := fun i v403 k0_hw26 => k0_hw26.2.1
theorem k0_off57_inb : ∀ (i : grid0.Coords) (v403 : BitVec 32) (k0_hw26 : k0_chk26 i v403), ∀ a, (k0_off57 i v403) a + S8x128.size a ≤ S4096x32000.size a := fun i v403 k0_hw26 => k0_hw26.2.2

def k0_off58 (i : grid0.Coords) (v415 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_268 : BitVec 32 := 16#32
  let v418 : BitVec 32 := Scalar.addi v2 c16_i32_268
  let c8_i32_269 : BitVec 32 := 8#32
  let v419 : BitVec 32 := Scalar.addi v418 c8_i32_269
  let c_m128_i32_267 : BitVec 32 := 4294967168#32
  let v416 : BitVec 32 := Scalar.andi v415 c_m128_i32_267
  let v417 : BitVec 32 := v416
  ![v419.toNat, v417.toNat]

def k0_chk27 (i : grid0.Coords) (v415 : BitVec 32) : Prop :=
  (128 ∣ (k0_mult26 v415).toNat) ∧
  (∀ a, (k0_off42 i v415) a + S8x128.size a ≤ S4096x32000.size a) ∧
  (∀ a, (k0_off58 i v415) a + S8x128.size a ≤ S4096x32000.size a)
instance k0_chk27.dec : ∀ (i : grid0.Coords) (v415 : BitVec 32), Decidable (k0_chk27 i v415) := fun i v415 => decidable_of_iff' _ (Iff.of_eq (k0_chk27.eq_1 i v415))
theorem k0_mult26_dvd : ∀ (i : grid0.Coords) (v415 : BitVec 32) (k0_hw27 : k0_chk27 i v415), 128 ∣ (k0_mult26 v415).toNat := fun i v415 k0_hw27 => k0_hw27.1
theorem k0_off42_inb : ∀ (i : grid0.Coords) (v415 : BitVec 32) (k0_hw27 : k0_chk27 i v415), ∀ a, (k0_off42 i v415) a + S8x128.size a ≤ S4096x32000.size a := fun i v415 k0_hw27 => k0_hw27.2.1
theorem k0_off58_inb : ∀ (i : grid0.Coords) (v415 : BitVec 32) (k0_hw27 : k0_chk27 i v415), ∀ a, (k0_off58 i v415) a + S8x128.size a ≤ S4096x32000.size a := fun i v415 k0_hw27 => k0_hw27.2.2

def k0_off59 (i : grid0.Coords) (v427 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_276 : BitVec 32 := 16#32
  let v430 : BitVec 32 := Scalar.addi v2 c16_i32_276
  let c8_i32_277 : BitVec 32 := 8#32
  let v431 : BitVec 32 := Scalar.addi v430 c8_i32_277
  let c_m128_i32_275 : BitVec 32 := 4294967168#32
  let v428 : BitVec 32 := Scalar.andi v427 c_m128_i32_275
  let v429 : BitVec 32 := v428
  ![v431.toNat, v429.toNat]

def k0_chk28 (i : grid0.Coords) (v427 : BitVec 32) : Prop :=
  (128 ∣ (k0_mult27 v427).toNat) ∧
  (∀ a, (k0_off43 i v427) a + S8x128.size a ≤ S4096x32000.size a) ∧
  (∀ a, (k0_off59 i v427) a + S8x128.size a ≤ S4096x32000.size a)
instance k0_chk28.dec : ∀ (i : grid0.Coords) (v427 : BitVec 32), Decidable (k0_chk28 i v427) := fun i v427 => decidable_of_iff' _ (Iff.of_eq (k0_chk28.eq_1 i v427))
theorem k0_mult27_dvd : ∀ (i : grid0.Coords) (v427 : BitVec 32) (k0_hw28 : k0_chk28 i v427), 128 ∣ (k0_mult27 v427).toNat := fun i v427 k0_hw28 => k0_hw28.1
theorem k0_off43_inb : ∀ (i : grid0.Coords) (v427 : BitVec 32) (k0_hw28 : k0_chk28 i v427), ∀ a, (k0_off43 i v427) a + S8x128.size a ≤ S4096x32000.size a := fun i v427 k0_hw28 => k0_hw28.2.1
theorem k0_off59_inb : ∀ (i : grid0.Coords) (v427 : BitVec 32) (k0_hw28 : k0_chk28 i v427), ∀ a, (k0_off59 i v427) a + S8x128.size a ≤ S4096x32000.size a := fun i v427 k0_hw28 => k0_hw28.2.2

def k0_off60 (i : grid0.Coords) (v439 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_284 : BitVec 32 := 16#32
  let v442 : BitVec 32 := Scalar.addi v2 c16_i32_284
  let c8_i32_285 : BitVec 32 := 8#32
  let v443 : BitVec 32 := Scalar.addi v442 c8_i32_285
  let c_m128_i32_283 : BitVec 32 := 4294967168#32
  let v440 : BitVec 32 := Scalar.andi v439 c_m128_i32_283
  let v441 : BitVec 32 := v440
  ![v443.toNat, v441.toNat]

def k0_chk29 (i : grid0.Coords) (v439 : BitVec 32) : Prop :=
  (128 ∣ (k0_mult28 v439).toNat) ∧
  (∀ a, (k0_off44 i v439) a + S8x128.size a ≤ S4096x32000.size a) ∧
  (∀ a, (k0_off60 i v439) a + S8x128.size a ≤ S4096x32000.size a)
instance k0_chk29.dec : ∀ (i : grid0.Coords) (v439 : BitVec 32), Decidable (k0_chk29 i v439) := fun i v439 => decidable_of_iff' _ (Iff.of_eq (k0_chk29.eq_1 i v439))
theorem k0_mult28_dvd : ∀ (i : grid0.Coords) (v439 : BitVec 32) (k0_hw29 : k0_chk29 i v439), 128 ∣ (k0_mult28 v439).toNat := fun i v439 k0_hw29 => k0_hw29.1
theorem k0_off44_inb : ∀ (i : grid0.Coords) (v439 : BitVec 32) (k0_hw29 : k0_chk29 i v439), ∀ a, (k0_off44 i v439) a + S8x128.size a ≤ S4096x32000.size a := fun i v439 k0_hw29 => k0_hw29.2.1
theorem k0_off60_inb : ∀ (i : grid0.Coords) (v439 : BitVec 32) (k0_hw29 : k0_chk29 i v439), ∀ a, (k0_off60 i v439) a + S8x128.size a ≤ S4096x32000.size a := fun i v439 k0_hw29 => k0_hw29.2.2

def k0_off61 (i : grid0.Coords) (v451 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_292 : BitVec 32 := 16#32
  let v454 : BitVec 32 := Scalar.addi v2 c16_i32_292
  let c8_i32_293 : BitVec 32 := 8#32
  let v455 : BitVec 32 := Scalar.addi v454 c8_i32_293
  let c_m128_i32_291 : BitVec 32 := 4294967168#32
  let v452 : BitVec 32 := Scalar.andi v451 c_m128_i32_291
  let v453 : BitVec 32 := v452
  ![v455.toNat, v453.toNat]

def k0_chk30 (i : grid0.Coords) (v451 : BitVec 32) : Prop :=
  (128 ∣ (k0_mult29 v451).toNat) ∧
  (∀ a, (k0_off45 i v451) a + S8x128.size a ≤ S4096x32000.size a) ∧
  (∀ a, (k0_off61 i v451) a + S8x128.size a ≤ S4096x32000.size a)
instance k0_chk30.dec : ∀ (i : grid0.Coords) (v451 : BitVec 32), Decidable (k0_chk30 i v451) := fun i v451 => decidable_of_iff' _ (Iff.of_eq (k0_chk30.eq_1 i v451))
theorem k0_mult29_dvd : ∀ (i : grid0.Coords) (v451 : BitVec 32) (k0_hw30 : k0_chk30 i v451), 128 ∣ (k0_mult29 v451).toNat := fun i v451 k0_hw30 => k0_hw30.1
theorem k0_off45_inb : ∀ (i : grid0.Coords) (v451 : BitVec 32) (k0_hw30 : k0_chk30 i v451), ∀ a, (k0_off45 i v451) a + S8x128.size a ≤ S4096x32000.size a := fun i v451 k0_hw30 => k0_hw30.2.1
theorem k0_off61_inb : ∀ (i : grid0.Coords) (v451 : BitVec 32) (k0_hw30 : k0_chk30 i v451), ∀ a, (k0_off61 i v451) a + S8x128.size a ≤ S4096x32000.size a := fun i v451 k0_hw30 => k0_hw30.2.2

def k0_off62 (i : grid0.Coords) (v463 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_300 : BitVec 32 := 16#32
  let v466 : BitVec 32 := Scalar.addi v2 c16_i32_300
  let c8_i32_301 : BitVec 32 := 8#32
  let v467 : BitVec 32 := Scalar.addi v466 c8_i32_301
  let c_m128_i32_299 : BitVec 32 := 4294967168#32
  let v464 : BitVec 32 := Scalar.andi v463 c_m128_i32_299
  let v465 : BitVec 32 := v464
  ![v467.toNat, v465.toNat]

def k0_chk31 (i : grid0.Coords) (v463 : BitVec 32) : Prop :=
  (128 ∣ (k0_mult30 v463).toNat) ∧
  (∀ a, (k0_off46 i v463) a + S8x128.size a ≤ S4096x32000.size a) ∧
  (∀ a, (k0_off62 i v463) a + S8x128.size a ≤ S4096x32000.size a)
instance k0_chk31.dec : ∀ (i : grid0.Coords) (v463 : BitVec 32), Decidable (k0_chk31 i v463) := fun i v463 => decidable_of_iff' _ (Iff.of_eq (k0_chk31.eq_1 i v463))
theorem k0_mult30_dvd : ∀ (i : grid0.Coords) (v463 : BitVec 32) (k0_hw31 : k0_chk31 i v463), 128 ∣ (k0_mult30 v463).toNat := fun i v463 k0_hw31 => k0_hw31.1
theorem k0_off46_inb : ∀ (i : grid0.Coords) (v463 : BitVec 32) (k0_hw31 : k0_chk31 i v463), ∀ a, (k0_off46 i v463) a + S8x128.size a ≤ S4096x32000.size a := fun i v463 k0_hw31 => k0_hw31.2.1
theorem k0_off62_inb : ∀ (i : grid0.Coords) (v463 : BitVec 32) (k0_hw31 : k0_chk31 i v463), ∀ a, (k0_off62 i v463) a + S8x128.size a ≤ S4096x32000.size a := fun i v463 k0_hw31 => k0_hw31.2.2

def k0_off63 (i : grid0.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_308 : BitVec 32 := 16#32
  let v478 : BitVec 32 := Scalar.addi v2 c16_i32_308
  let c8_i32_309 : BitVec 32 := 8#32
  let v479 : BitVec 32 := Scalar.addi v478 c8_i32_309
  let c_m128_i32_307 : BitVec 32 := 4294967168#32
  let v476 : BitVec 32 := Scalar.andi v475 c_m128_i32_307
  let v477 : BitVec 32 := v476
  ![v479.toNat, v477.toNat]

def k0_chk32 (i : grid0.Coords) (v475 : BitVec 32) : Prop :=
  (128 ∣ (k0_mult31 v475).toNat) ∧
  (∀ a, (k0_off47 i v475) a + S8x128.size a ≤ S4096x32000.size a) ∧
  (∀ a, (k0_off63 i v475) a + S8x128.size a ≤ S4096x32000.size a)
instance k0_chk32.dec : ∀ (i : grid0.Coords) (v475 : BitVec 32), Decidable (k0_chk32 i v475) := fun i v475 => decidable_of_iff' _ (Iff.of_eq (k0_chk32.eq_1 i v475))
theorem k0_mult31_dvd : ∀ (i : grid0.Coords) (v475 : BitVec 32) (k0_hw32 : k0_chk32 i v475), 128 ∣ (k0_mult31 v475).toNat := fun i v475 k0_hw32 => k0_hw32.1
theorem k0_off47_inb : ∀ (i : grid0.Coords) (v475 : BitVec 32) (k0_hw32 : k0_chk32 i v475), ∀ a, (k0_off47 i v475) a + S8x128.size a ≤ S4096x32000.size a := fun i v475 k0_hw32 => k0_hw32.2.1
theorem k0_off63_inb : ∀ (i : grid0.Coords) (v475 : BitVec 32) (k0_hw32 : k0_chk32 i v475), ∀ a, (k0_off63 i v475) a + S8x128.size a ≤ S4096x32000.size a := fun i v475 k0_hw32 => k0_hw32.2.2

def k0_chk34 (v595 : IVec S16 32) (v597 : IVec S16 32) (v599 : IVec S16 32) : Prop :=
  (∀ a x, ((![v595, v597, v599] : Fin 3 → IVec S16 32) a x).toNat < S16x8x128.size a)
instance k0_chk34.dec : ∀ (v595 : IVec S16 32) (v597 : IVec S16 32) (v599 : IVec S16 32), Decidable (k0_chk34 v595 v597 v599) := fun v595 v597 v599 => decidable_of_iff' _ (Iff.of_eq (k0_chk34.eq_1 v595 v597 v599))
theorem k0_idx2_inb : ∀ (v595 : IVec S16 32) (v597 : IVec S16 32) (v599 : IVec S16 32) (k0_hw34 : k0_chk34 v595 v597 v599), ∀ a x, ((![v595, v597, v599] : Fin 3 → IVec S16 32) a x).toNat < S16x8x128.size a := fun v595 v597 v599 k0_hw34 => k0_hw34
def k0_mult33 (v608 : BitVec 32) : BitVec 32 :=
  let c_m128_i32_408 : BitVec 32 := 4294967168#32
  let v609 : BitVec 32 := Scalar.andi v608 c_m128_i32_408
  v609

def k0_off64 (i : grid0.Coords) (v608 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v611 : BitVec 32 := Scalar.addi v2 c32_i32
  let c0_i32_409 : BitVec 32 := 0#32
  let v612 : BitVec 32 := Scalar.addi v611 c0_i32_409
  let c_m128_i32_408 : BitVec 32 := 4294967168#32
  let v609 : BitVec 32 := Scalar.andi v608 c_m128_i32_408
  let v610 : BitVec 32 := v609
  ![v612.toNat, v610.toNat]
def k0_mult34 (v620 : BitVec 32) : BitVec 32 :=
  let c_m128_i32_415 : BitVec 32 := 4294967168#32
  let v621 : BitVec 32 := Scalar.andi v620 c_m128_i32_415
  v621

def k0_off65 (i : grid0.Coords) (v620 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_416 : BitVec 32 := 32#32
  let v623 : BitVec 32 := Scalar.addi v2 c32_i32_416
  let c0_i32_417 : BitVec 32 := 0#32
  let v624 : BitVec 32 := Scalar.addi v623 c0_i32_417
  let c_m128_i32_415 : BitVec 32 := 4294967168#32
  let v621 : BitVec 32 := Scalar.andi v620 c_m128_i32_415
  let v622 : BitVec 32 := v621
  ![v624.toNat, v622.toNat]
def k0_mult35 (v632 : BitVec 32) : BitVec 32 :=
  let c_m128_i32_423 : BitVec 32 := 4294967168#32
  let v633 : BitVec 32 := Scalar.andi v632 c_m128_i32_423
  v633

def k0_off66 (i : grid0.Coords) (v632 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_424 : BitVec 32 := 32#32
  let v635 : BitVec 32 := Scalar.addi v2 c32_i32_424
  let c0_i32_425 : BitVec 32 := 0#32
  let v636 : BitVec 32 := Scalar.addi v635 c0_i32_425
  let c_m128_i32_423 : BitVec 32 := 4294967168#32
  let v633 : BitVec 32 := Scalar.andi v632 c_m128_i32_423
  let v634 : BitVec 32 := v633
  ![v636.toNat, v634.toNat]
def k0_mult36 (v644 : BitVec 32) : BitVec 32 :=
  let c_m128_i32_431 : BitVec 32 := 4294967168#32
  let v645 : BitVec 32 := Scalar.andi v644 c_m128_i32_431
  v645

def k0_off67 (i : grid0.Coords) (v644 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_432 : BitVec 32 := 32#32
  let v647 : BitVec 32 := Scalar.addi v2 c32_i32_432
  let c0_i32_433 : BitVec 32 := 0#32
  let v648 : BitVec 32 := Scalar.addi v647 c0_i32_433
  let c_m128_i32_431 : BitVec 32 := 4294967168#32
  let v645 : BitVec 32 := Scalar.andi v644 c_m128_i32_431
  let v646 : BitVec 32 := v645
  ![v648.toNat, v646.toNat]
def k0_mult37 (v656 : BitVec 32) : BitVec 32 :=
  let c_m128_i32_439 : BitVec 32 := 4294967168#32
  let v657 : BitVec 32 := Scalar.andi v656 c_m128_i32_439
  v657

def k0_off68 (i : grid0.Coords) (v656 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_440 : BitVec 32 := 32#32
  let v659 : BitVec 32 := Scalar.addi v2 c32_i32_440
  let c0_i32_441 : BitVec 32 := 0#32
  let v660 : BitVec 32 := Scalar.addi v659 c0_i32_441
  let c_m128_i32_439 : BitVec 32 := 4294967168#32
  let v657 : BitVec 32 := Scalar.andi v656 c_m128_i32_439
  let v658 : BitVec 32 := v657
  ![v660.toNat, v658.toNat]
def k0_mult38 (v668 : BitVec 32) : BitVec 32 :=
  let c_m128_i32_447 : BitVec 32 := 4294967168#32
  let v669 : BitVec 32 := Scalar.andi v668 c_m128_i32_447
  v669

def k0_off69 (i : grid0.Coords) (v668 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_448 : BitVec 32 := 32#32
  let v671 : BitVec 32 := Scalar.addi v2 c32_i32_448
  let c0_i32_449 : BitVec 32 := 0#32
  let v672 : BitVec 32 := Scalar.addi v671 c0_i32_449
  let c_m128_i32_447 : BitVec 32 := 4294967168#32
  let v669 : BitVec 32 := Scalar.andi v668 c_m128_i32_447
  let v670 : BitVec 32 := v669
  ![v672.toNat, v670.toNat]
def k0_mult39 (v680 : BitVec 32) : BitVec 32 :=
  let c_m128_i32_455 : BitVec 32 := 4294967168#32
  let v681 : BitVec 32 := Scalar.andi v680 c_m128_i32_455
  v681

def k0_off70 (i : grid0.Coords) (v680 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_456 : BitVec 32 := 32#32
  let v683 : BitVec 32 := Scalar.addi v2 c32_i32_456
  let c0_i32_457 : BitVec 32 := 0#32
  let v684 : BitVec 32 := Scalar.addi v683 c0_i32_457
  let c_m128_i32_455 : BitVec 32 := 4294967168#32
  let v681 : BitVec 32 := Scalar.andi v680 c_m128_i32_455
  let v682 : BitVec 32 := v681
  ![v684.toNat, v682.toNat]
def k0_mult40 (v692 : BitVec 32) : BitVec 32 :=
  let c_m128_i32_463 : BitVec 32 := 4294967168#32
  let v693 : BitVec 32 := Scalar.andi v692 c_m128_i32_463
  v693

def k0_off71 (i : grid0.Coords) (v692 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_464 : BitVec 32 := 32#32
  let v695 : BitVec 32 := Scalar.addi v2 c32_i32_464
  let c0_i32_465 : BitVec 32 := 0#32
  let v696 : BitVec 32 := Scalar.addi v695 c0_i32_465
  let c_m128_i32_463 : BitVec 32 := 4294967168#32
  let v693 : BitVec 32 := Scalar.andi v692 c_m128_i32_463
  let v694 : BitVec 32 := v693
  ![v696.toNat, v694.toNat]
def k0_mult41 (v704 : BitVec 32) : BitVec 32 :=
  let c_m128_i32_471 : BitVec 32 := 4294967168#32
  let v705 : BitVec 32 := Scalar.andi v704 c_m128_i32_471
  v705

def k0_off72 (i : grid0.Coords) (v704 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_472 : BitVec 32 := 32#32
  let v707 : BitVec 32 := Scalar.addi v2 c32_i32_472
  let c8_i32_473 : BitVec 32 := 8#32
  let v708 : BitVec 32 := Scalar.addi v707 c8_i32_473
  let c_m128_i32_471 : BitVec 32 := 4294967168#32
  let v705 : BitVec 32 := Scalar.andi v704 c_m128_i32_471
  let v706 : BitVec 32 := v705
  ![v708.toNat, v706.toNat]
def k0_mult42 (v716 : BitVec 32) : BitVec 32 :=
  let c_m128_i32_479 : BitVec 32 := 4294967168#32
  let v717 : BitVec 32 := Scalar.andi v716 c_m128_i32_479
  v717

def k0_off73 (i : grid0.Coords) (v716 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_480 : BitVec 32 := 32#32
  let v719 : BitVec 32 := Scalar.addi v2 c32_i32_480
  let c8_i32_481 : BitVec 32 := 8#32
  let v720 : BitVec 32 := Scalar.addi v719 c8_i32_481
  let c_m128_i32_479 : BitVec 32 := 4294967168#32
  let v717 : BitVec 32 := Scalar.andi v716 c_m128_i32_479
  let v718 : BitVec 32 := v717
  ![v720.toNat, v718.toNat]
def k0_mult43 (v728 : BitVec 32) : BitVec 32 :=
  let c_m128_i32_487 : BitVec 32 := 4294967168#32
  let v729 : BitVec 32 := Scalar.andi v728 c_m128_i32_487
  v729

def k0_off74 (i : grid0.Coords) (v728 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_488 : BitVec 32 := 32#32
  let v731 : BitVec 32 := Scalar.addi v2 c32_i32_488
  let c8_i32_489 : BitVec 32 := 8#32
  let v732 : BitVec 32 := Scalar.addi v731 c8_i32_489
  let c_m128_i32_487 : BitVec 32 := 4294967168#32
  let v729 : BitVec 32 := Scalar.andi v728 c_m128_i32_487
  let v730 : BitVec 32 := v729
  ![v732.toNat, v730.toNat]
def k0_mult44 (v740 : BitVec 32) : BitVec 32 :=
  let c_m128_i32_495 : BitVec 32 := 4294967168#32
  let v741 : BitVec 32 := Scalar.andi v740 c_m128_i32_495
  v741

def k0_off75 (i : grid0.Coords) (v740 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_496 : BitVec 32 := 32#32
  let v743 : BitVec 32 := Scalar.addi v2 c32_i32_496
  let c8_i32_497 : BitVec 32 := 8#32
  let v744 : BitVec 32 := Scalar.addi v743 c8_i32_497
  let c_m128_i32_495 : BitVec 32 := 4294967168#32
  let v741 : BitVec 32 := Scalar.andi v740 c_m128_i32_495
  let v742 : BitVec 32 := v741
  ![v744.toNat, v742.toNat]
def k0_mult45 (v752 : BitVec 32) : BitVec 32 :=
  let c_m128_i32_503 : BitVec 32 := 4294967168#32
  let v753 : BitVec 32 := Scalar.andi v752 c_m128_i32_503
  v753

def k0_off76 (i : grid0.Coords) (v752 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_504 : BitVec 32 := 32#32
  let v755 : BitVec 32 := Scalar.addi v2 c32_i32_504
  let c8_i32_505 : BitVec 32 := 8#32
  let v756 : BitVec 32 := Scalar.addi v755 c8_i32_505
  let c_m128_i32_503 : BitVec 32 := 4294967168#32
  let v753 : BitVec 32 := Scalar.andi v752 c_m128_i32_503
  let v754 : BitVec 32 := v753
  ![v756.toNat, v754.toNat]
def k0_mult46 (v764 : BitVec 32) : BitVec 32 :=
  let c_m128_i32_511 : BitVec 32 := 4294967168#32
  let v765 : BitVec 32 := Scalar.andi v764 c_m128_i32_511
  v765

def k0_off77 (i : grid0.Coords) (v764 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_512 : BitVec 32 := 32#32
  let v767 : BitVec 32 := Scalar.addi v2 c32_i32_512
  let c8_i32_513 : BitVec 32 := 8#32
  let v768 : BitVec 32 := Scalar.addi v767 c8_i32_513
  let c_m128_i32_511 : BitVec 32 := 4294967168#32
  let v765 : BitVec 32 := Scalar.andi v764 c_m128_i32_511
  let v766 : BitVec 32 := v765
  ![v768.toNat, v766.toNat]
def k0_mult47 (v776 : BitVec 32) : BitVec 32 :=
  let c_m128_i32_519 : BitVec 32 := 4294967168#32
  let v777 : BitVec 32 := Scalar.andi v776 c_m128_i32_519
  v777

def k0_off78 (i : grid0.Coords) (v776 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_520 : BitVec 32 := 32#32
  let v779 : BitVec 32 := Scalar.addi v2 c32_i32_520
  let c8_i32_521 : BitVec 32 := 8#32
  let v780 : BitVec 32 := Scalar.addi v779 c8_i32_521
  let c_m128_i32_519 : BitVec 32 := 4294967168#32
  let v777 : BitVec 32 := Scalar.andi v776 c_m128_i32_519
  let v778 : BitVec 32 := v777
  ![v780.toNat, v778.toNat]
def k0_mult48 (v788 : BitVec 32) : BitVec 32 :=
  let c_m128_i32_527 : BitVec 32 := 4294967168#32
  let v789 : BitVec 32 := Scalar.andi v788 c_m128_i32_527
  v789

def k0_off79 (i : grid0.Coords) (v788 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_528 : BitVec 32 := 32#32
  let v791 : BitVec 32 := Scalar.addi v2 c32_i32_528
  let c8_i32_529 : BitVec 32 := 8#32
  let v792 : BitVec 32 := Scalar.addi v791 c8_i32_529
  let c_m128_i32_527 : BitVec 32 := 4294967168#32
  let v789 : BitVec 32 := Scalar.andi v788 c_m128_i32_527
  let v790 : BitVec 32 := v789
  ![v792.toNat, v790.toNat]

def k0_chk50 (i : grid0.Coords) (v788 : BitVec 32) : Prop :=
  (128 ∣ (k0_mult48 v788).toNat) ∧
  (∀ a, (k0_off79 i v788) a + S8x128.size a ≤ S4096x32000.size a)
instance k0_chk50.dec : ∀ (i : grid0.Coords) (v788 : BitVec 32), Decidable (k0_chk50 i v788) := fun i v788 => decidable_of_iff' _ (Iff.of_eq (k0_chk50.eq_1 i v788))
theorem k0_mult48_dvd : ∀ (i : grid0.Coords) (v788 : BitVec 32) (k0_hw50 : k0_chk50 i v788), 128 ∣ (k0_mult48 v788).toNat := fun i v788 k0_hw50 => k0_hw50.1
theorem k0_off79_inb : ∀ (i : grid0.Coords) (v788 : BitVec 32) (k0_hw50 : k0_chk50 i v788), ∀ a, (k0_off79 i v788) a + S8x128.size a ≤ S4096x32000.size a := fun i v788 k0_hw50 => k0_hw50.2

def k0_off80 (i : grid0.Coords) (v608 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v611 : BitVec 32 := Scalar.addi v2 c32_i32
  let c0_i32_409 : BitVec 32 := 0#32
  let v612 : BitVec 32 := Scalar.addi v611 c0_i32_409
  let c_m128_i32_408 : BitVec 32 := 4294967168#32
  let v609 : BitVec 32 := Scalar.andi v608 c_m128_i32_408
  let v610 : BitVec 32 := v609
  ![v612.toNat, v610.toNat]

def k0_chk35 (i : grid0.Coords) (v608 : BitVec 32) : Prop :=
  (128 ∣ (k0_mult33 v608).toNat) ∧
  (∀ a, (k0_off64 i v608) a + S8x128.size a ≤ S4096x32000.size a) ∧
  (∀ a, (k0_off80 i v608) a + S8x128.size a ≤ S4096x32000.size a)
instance k0_chk35.dec : ∀ (i : grid0.Coords) (v608 : BitVec 32), Decidable (k0_chk35 i v608) := fun i v608 => decidable_of_iff' _ (Iff.of_eq (k0_chk35.eq_1 i v608))
theorem k0_mult33_dvd : ∀ (i : grid0.Coords) (v608 : BitVec 32) (k0_hw35 : k0_chk35 i v608), 128 ∣ (k0_mult33 v608).toNat := fun i v608 k0_hw35 => k0_hw35.1
theorem k0_off64_inb : ∀ (i : grid0.Coords) (v608 : BitVec 32) (k0_hw35 : k0_chk35 i v608), ∀ a, (k0_off64 i v608) a + S8x128.size a ≤ S4096x32000.size a := fun i v608 k0_hw35 => k0_hw35.2.1
theorem k0_off80_inb : ∀ (i : grid0.Coords) (v608 : BitVec 32) (k0_hw35 : k0_chk35 i v608), ∀ a, (k0_off80 i v608) a + S8x128.size a ≤ S4096x32000.size a := fun i v608 k0_hw35 => k0_hw35.2.2

def k0_off81 (i : grid0.Coords) (v620 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_416 : BitVec 32 := 32#32
  let v623 : BitVec 32 := Scalar.addi v2 c32_i32_416
  let c0_i32_417 : BitVec 32 := 0#32
  let v624 : BitVec 32 := Scalar.addi v623 c0_i32_417
  let c_m128_i32_415 : BitVec 32 := 4294967168#32
  let v621 : BitVec 32 := Scalar.andi v620 c_m128_i32_415
  let v622 : BitVec 32 := v621
  ![v624.toNat, v622.toNat]

def k0_chk36 (i : grid0.Coords) (v620 : BitVec 32) : Prop :=
  (128 ∣ (k0_mult34 v620).toNat) ∧
  (∀ a, (k0_off65 i v620) a + S8x128.size a ≤ S4096x32000.size a) ∧
  (∀ a, (k0_off81 i v620) a + S8x128.size a ≤ S4096x32000.size a)
instance k0_chk36.dec : ∀ (i : grid0.Coords) (v620 : BitVec 32), Decidable (k0_chk36 i v620) := fun i v620 => decidable_of_iff' _ (Iff.of_eq (k0_chk36.eq_1 i v620))
theorem k0_mult34_dvd : ∀ (i : grid0.Coords) (v620 : BitVec 32) (k0_hw36 : k0_chk36 i v620), 128 ∣ (k0_mult34 v620).toNat := fun i v620 k0_hw36 => k0_hw36.1
theorem k0_off65_inb : ∀ (i : grid0.Coords) (v620 : BitVec 32) (k0_hw36 : k0_chk36 i v620), ∀ a, (k0_off65 i v620) a + S8x128.size a ≤ S4096x32000.size a := fun i v620 k0_hw36 => k0_hw36.2.1
theorem k0_off81_inb : ∀ (i : grid0.Coords) (v620 : BitVec 32) (k0_hw36 : k0_chk36 i v620), ∀ a, (k0_off81 i v620) a + S8x128.size a ≤ S4096x32000.size a := fun i v620 k0_hw36 => k0_hw36.2.2

def k0_off82 (i : grid0.Coords) (v632 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_424 : BitVec 32 := 32#32
  let v635 : BitVec 32 := Scalar.addi v2 c32_i32_424
  let c0_i32_425 : BitVec 32 := 0#32
  let v636 : BitVec 32 := Scalar.addi v635 c0_i32_425
  let c_m128_i32_423 : BitVec 32 := 4294967168#32
  let v633 : BitVec 32 := Scalar.andi v632 c_m128_i32_423
  let v634 : BitVec 32 := v633
  ![v636.toNat, v634.toNat]

def k0_chk37 (i : grid0.Coords) (v632 : BitVec 32) : Prop :=
  (128 ∣ (k0_mult35 v632).toNat) ∧
  (∀ a, (k0_off66 i v632) a + S8x128.size a ≤ S4096x32000.size a) ∧
  (∀ a, (k0_off82 i v632) a + S8x128.size a ≤ S4096x32000.size a)
instance k0_chk37.dec : ∀ (i : grid0.Coords) (v632 : BitVec 32), Decidable (k0_chk37 i v632) := fun i v632 => decidable_of_iff' _ (Iff.of_eq (k0_chk37.eq_1 i v632))
theorem k0_mult35_dvd : ∀ (i : grid0.Coords) (v632 : BitVec 32) (k0_hw37 : k0_chk37 i v632), 128 ∣ (k0_mult35 v632).toNat := fun i v632 k0_hw37 => k0_hw37.1
theorem k0_off66_inb : ∀ (i : grid0.Coords) (v632 : BitVec 32) (k0_hw37 : k0_chk37 i v632), ∀ a, (k0_off66 i v632) a + S8x128.size a ≤ S4096x32000.size a := fun i v632 k0_hw37 => k0_hw37.2.1
theorem k0_off82_inb : ∀ (i : grid0.Coords) (v632 : BitVec 32) (k0_hw37 : k0_chk37 i v632), ∀ a, (k0_off82 i v632) a + S8x128.size a ≤ S4096x32000.size a := fun i v632 k0_hw37 => k0_hw37.2.2

def k0_off83 (i : grid0.Coords) (v644 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_432 : BitVec 32 := 32#32
  let v647 : BitVec 32 := Scalar.addi v2 c32_i32_432
  let c0_i32_433 : BitVec 32 := 0#32
  let v648 : BitVec 32 := Scalar.addi v647 c0_i32_433
  let c_m128_i32_431 : BitVec 32 := 4294967168#32
  let v645 : BitVec 32 := Scalar.andi v644 c_m128_i32_431
  let v646 : BitVec 32 := v645
  ![v648.toNat, v646.toNat]

def k0_chk38 (i : grid0.Coords) (v644 : BitVec 32) : Prop :=
  (128 ∣ (k0_mult36 v644).toNat) ∧
  (∀ a, (k0_off67 i v644) a + S8x128.size a ≤ S4096x32000.size a) ∧
  (∀ a, (k0_off83 i v644) a + S8x128.size a ≤ S4096x32000.size a)
instance k0_chk38.dec : ∀ (i : grid0.Coords) (v644 : BitVec 32), Decidable (k0_chk38 i v644) := fun i v644 => decidable_of_iff' _ (Iff.of_eq (k0_chk38.eq_1 i v644))
theorem k0_mult36_dvd : ∀ (i : grid0.Coords) (v644 : BitVec 32) (k0_hw38 : k0_chk38 i v644), 128 ∣ (k0_mult36 v644).toNat := fun i v644 k0_hw38 => k0_hw38.1
theorem k0_off67_inb : ∀ (i : grid0.Coords) (v644 : BitVec 32) (k0_hw38 : k0_chk38 i v644), ∀ a, (k0_off67 i v644) a + S8x128.size a ≤ S4096x32000.size a := fun i v644 k0_hw38 => k0_hw38.2.1
theorem k0_off83_inb : ∀ (i : grid0.Coords) (v644 : BitVec 32) (k0_hw38 : k0_chk38 i v644), ∀ a, (k0_off83 i v644) a + S8x128.size a ≤ S4096x32000.size a := fun i v644 k0_hw38 => k0_hw38.2.2

def k0_off84 (i : grid0.Coords) (v656 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_440 : BitVec 32 := 32#32
  let v659 : BitVec 32 := Scalar.addi v2 c32_i32_440
  let c0_i32_441 : BitVec 32 := 0#32
  let v660 : BitVec 32 := Scalar.addi v659 c0_i32_441
  let c_m128_i32_439 : BitVec 32 := 4294967168#32
  let v657 : BitVec 32 := Scalar.andi v656 c_m128_i32_439
  let v658 : BitVec 32 := v657
  ![v660.toNat, v658.toNat]

def k0_chk39 (i : grid0.Coords) (v656 : BitVec 32) : Prop :=
  (128 ∣ (k0_mult37 v656).toNat) ∧
  (∀ a, (k0_off68 i v656) a + S8x128.size a ≤ S4096x32000.size a) ∧
  (∀ a, (k0_off84 i v656) a + S8x128.size a ≤ S4096x32000.size a)
instance k0_chk39.dec : ∀ (i : grid0.Coords) (v656 : BitVec 32), Decidable (k0_chk39 i v656) := fun i v656 => decidable_of_iff' _ (Iff.of_eq (k0_chk39.eq_1 i v656))
theorem k0_mult37_dvd : ∀ (i : grid0.Coords) (v656 : BitVec 32) (k0_hw39 : k0_chk39 i v656), 128 ∣ (k0_mult37 v656).toNat := fun i v656 k0_hw39 => k0_hw39.1
theorem k0_off68_inb : ∀ (i : grid0.Coords) (v656 : BitVec 32) (k0_hw39 : k0_chk39 i v656), ∀ a, (k0_off68 i v656) a + S8x128.size a ≤ S4096x32000.size a := fun i v656 k0_hw39 => k0_hw39.2.1
theorem k0_off84_inb : ∀ (i : grid0.Coords) (v656 : BitVec 32) (k0_hw39 : k0_chk39 i v656), ∀ a, (k0_off84 i v656) a + S8x128.size a ≤ S4096x32000.size a := fun i v656 k0_hw39 => k0_hw39.2.2

def k0_off85 (i : grid0.Coords) (v668 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_448 : BitVec 32 := 32#32
  let v671 : BitVec 32 := Scalar.addi v2 c32_i32_448
  let c0_i32_449 : BitVec 32 := 0#32
  let v672 : BitVec 32 := Scalar.addi v671 c0_i32_449
  let c_m128_i32_447 : BitVec 32 := 4294967168#32
  let v669 : BitVec 32 := Scalar.andi v668 c_m128_i32_447
  let v670 : BitVec 32 := v669
  ![v672.toNat, v670.toNat]

def k0_chk40 (i : grid0.Coords) (v668 : BitVec 32) : Prop :=
  (128 ∣ (k0_mult38 v668).toNat) ∧
  (∀ a, (k0_off69 i v668) a + S8x128.size a ≤ S4096x32000.size a) ∧
  (∀ a, (k0_off85 i v668) a + S8x128.size a ≤ S4096x32000.size a)
instance k0_chk40.dec : ∀ (i : grid0.Coords) (v668 : BitVec 32), Decidable (k0_chk40 i v668) := fun i v668 => decidable_of_iff' _ (Iff.of_eq (k0_chk40.eq_1 i v668))
theorem k0_mult38_dvd : ∀ (i : grid0.Coords) (v668 : BitVec 32) (k0_hw40 : k0_chk40 i v668), 128 ∣ (k0_mult38 v668).toNat := fun i v668 k0_hw40 => k0_hw40.1
theorem k0_off69_inb : ∀ (i : grid0.Coords) (v668 : BitVec 32) (k0_hw40 : k0_chk40 i v668), ∀ a, (k0_off69 i v668) a + S8x128.size a ≤ S4096x32000.size a := fun i v668 k0_hw40 => k0_hw40.2.1
theorem k0_off85_inb : ∀ (i : grid0.Coords) (v668 : BitVec 32) (k0_hw40 : k0_chk40 i v668), ∀ a, (k0_off85 i v668) a + S8x128.size a ≤ S4096x32000.size a := fun i v668 k0_hw40 => k0_hw40.2.2

def k0_off86 (i : grid0.Coords) (v680 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_456 : BitVec 32 := 32#32
  let v683 : BitVec 32 := Scalar.addi v2 c32_i32_456
  let c0_i32_457 : BitVec 32 := 0#32
  let v684 : BitVec 32 := Scalar.addi v683 c0_i32_457
  let c_m128_i32_455 : BitVec 32 := 4294967168#32
  let v681 : BitVec 32 := Scalar.andi v680 c_m128_i32_455
  let v682 : BitVec 32 := v681
  ![v684.toNat, v682.toNat]

def k0_chk41 (i : grid0.Coords) (v680 : BitVec 32) : Prop :=
  (128 ∣ (k0_mult39 v680).toNat) ∧
  (∀ a, (k0_off70 i v680) a + S8x128.size a ≤ S4096x32000.size a) ∧
  (∀ a, (k0_off86 i v680) a + S8x128.size a ≤ S4096x32000.size a)
instance k0_chk41.dec : ∀ (i : grid0.Coords) (v680 : BitVec 32), Decidable (k0_chk41 i v680) := fun i v680 => decidable_of_iff' _ (Iff.of_eq (k0_chk41.eq_1 i v680))
theorem k0_mult39_dvd : ∀ (i : grid0.Coords) (v680 : BitVec 32) (k0_hw41 : k0_chk41 i v680), 128 ∣ (k0_mult39 v680).toNat := fun i v680 k0_hw41 => k0_hw41.1
theorem k0_off70_inb : ∀ (i : grid0.Coords) (v680 : BitVec 32) (k0_hw41 : k0_chk41 i v680), ∀ a, (k0_off70 i v680) a + S8x128.size a ≤ S4096x32000.size a := fun i v680 k0_hw41 => k0_hw41.2.1
theorem k0_off86_inb : ∀ (i : grid0.Coords) (v680 : BitVec 32) (k0_hw41 : k0_chk41 i v680), ∀ a, (k0_off86 i v680) a + S8x128.size a ≤ S4096x32000.size a := fun i v680 k0_hw41 => k0_hw41.2.2

def k0_off87 (i : grid0.Coords) (v692 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_464 : BitVec 32 := 32#32
  let v695 : BitVec 32 := Scalar.addi v2 c32_i32_464
  let c0_i32_465 : BitVec 32 := 0#32
  let v696 : BitVec 32 := Scalar.addi v695 c0_i32_465
  let c_m128_i32_463 : BitVec 32 := 4294967168#32
  let v693 : BitVec 32 := Scalar.andi v692 c_m128_i32_463
  let v694 : BitVec 32 := v693
  ![v696.toNat, v694.toNat]

def k0_chk42 (i : grid0.Coords) (v692 : BitVec 32) : Prop :=
  (128 ∣ (k0_mult40 v692).toNat) ∧
  (∀ a, (k0_off71 i v692) a + S8x128.size a ≤ S4096x32000.size a) ∧
  (∀ a, (k0_off87 i v692) a + S8x128.size a ≤ S4096x32000.size a)
instance k0_chk42.dec : ∀ (i : grid0.Coords) (v692 : BitVec 32), Decidable (k0_chk42 i v692) := fun i v692 => decidable_of_iff' _ (Iff.of_eq (k0_chk42.eq_1 i v692))
theorem k0_mult40_dvd : ∀ (i : grid0.Coords) (v692 : BitVec 32) (k0_hw42 : k0_chk42 i v692), 128 ∣ (k0_mult40 v692).toNat := fun i v692 k0_hw42 => k0_hw42.1
theorem k0_off71_inb : ∀ (i : grid0.Coords) (v692 : BitVec 32) (k0_hw42 : k0_chk42 i v692), ∀ a, (k0_off71 i v692) a + S8x128.size a ≤ S4096x32000.size a := fun i v692 k0_hw42 => k0_hw42.2.1
theorem k0_off87_inb : ∀ (i : grid0.Coords) (v692 : BitVec 32) (k0_hw42 : k0_chk42 i v692), ∀ a, (k0_off87 i v692) a + S8x128.size a ≤ S4096x32000.size a := fun i v692 k0_hw42 => k0_hw42.2.2

def k0_off88 (i : grid0.Coords) (v704 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_472 : BitVec 32 := 32#32
  let v707 : BitVec 32 := Scalar.addi v2 c32_i32_472
  let c8_i32_473 : BitVec 32 := 8#32
  let v708 : BitVec 32 := Scalar.addi v707 c8_i32_473
  let c_m128_i32_471 : BitVec 32 := 4294967168#32
  let v705 : BitVec 32 := Scalar.andi v704 c_m128_i32_471
  let v706 : BitVec 32 := v705
  ![v708.toNat, v706.toNat]

def k0_chk43 (i : grid0.Coords) (v704 : BitVec 32) : Prop :=
  (128 ∣ (k0_mult41 v704).toNat) ∧
  (∀ a, (k0_off72 i v704) a + S8x128.size a ≤ S4096x32000.size a) ∧
  (∀ a, (k0_off88 i v704) a + S8x128.size a ≤ S4096x32000.size a)
instance k0_chk43.dec : ∀ (i : grid0.Coords) (v704 : BitVec 32), Decidable (k0_chk43 i v704) := fun i v704 => decidable_of_iff' _ (Iff.of_eq (k0_chk43.eq_1 i v704))
theorem k0_mult41_dvd : ∀ (i : grid0.Coords) (v704 : BitVec 32) (k0_hw43 : k0_chk43 i v704), 128 ∣ (k0_mult41 v704).toNat := fun i v704 k0_hw43 => k0_hw43.1
theorem k0_off72_inb : ∀ (i : grid0.Coords) (v704 : BitVec 32) (k0_hw43 : k0_chk43 i v704), ∀ a, (k0_off72 i v704) a + S8x128.size a ≤ S4096x32000.size a := fun i v704 k0_hw43 => k0_hw43.2.1
theorem k0_off88_inb : ∀ (i : grid0.Coords) (v704 : BitVec 32) (k0_hw43 : k0_chk43 i v704), ∀ a, (k0_off88 i v704) a + S8x128.size a ≤ S4096x32000.size a := fun i v704 k0_hw43 => k0_hw43.2.2

def k0_off89 (i : grid0.Coords) (v716 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_480 : BitVec 32 := 32#32
  let v719 : BitVec 32 := Scalar.addi v2 c32_i32_480
  let c8_i32_481 : BitVec 32 := 8#32
  let v720 : BitVec 32 := Scalar.addi v719 c8_i32_481
  let c_m128_i32_479 : BitVec 32 := 4294967168#32
  let v717 : BitVec 32 := Scalar.andi v716 c_m128_i32_479
  let v718 : BitVec 32 := v717
  ![v720.toNat, v718.toNat]

def k0_chk44 (i : grid0.Coords) (v716 : BitVec 32) : Prop :=
  (128 ∣ (k0_mult42 v716).toNat) ∧
  (∀ a, (k0_off73 i v716) a + S8x128.size a ≤ S4096x32000.size a) ∧
  (∀ a, (k0_off89 i v716) a + S8x128.size a ≤ S4096x32000.size a)
instance k0_chk44.dec : ∀ (i : grid0.Coords) (v716 : BitVec 32), Decidable (k0_chk44 i v716) := fun i v716 => decidable_of_iff' _ (Iff.of_eq (k0_chk44.eq_1 i v716))
theorem k0_mult42_dvd : ∀ (i : grid0.Coords) (v716 : BitVec 32) (k0_hw44 : k0_chk44 i v716), 128 ∣ (k0_mult42 v716).toNat := fun i v716 k0_hw44 => k0_hw44.1
theorem k0_off73_inb : ∀ (i : grid0.Coords) (v716 : BitVec 32) (k0_hw44 : k0_chk44 i v716), ∀ a, (k0_off73 i v716) a + S8x128.size a ≤ S4096x32000.size a := fun i v716 k0_hw44 => k0_hw44.2.1
theorem k0_off89_inb : ∀ (i : grid0.Coords) (v716 : BitVec 32) (k0_hw44 : k0_chk44 i v716), ∀ a, (k0_off89 i v716) a + S8x128.size a ≤ S4096x32000.size a := fun i v716 k0_hw44 => k0_hw44.2.2

def k0_off90 (i : grid0.Coords) (v728 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_488 : BitVec 32 := 32#32
  let v731 : BitVec 32 := Scalar.addi v2 c32_i32_488
  let c8_i32_489 : BitVec 32 := 8#32
  let v732 : BitVec 32 := Scalar.addi v731 c8_i32_489
  let c_m128_i32_487 : BitVec 32 := 4294967168#32
  let v729 : BitVec 32 := Scalar.andi v728 c_m128_i32_487
  let v730 : BitVec 32 := v729
  ![v732.toNat, v730.toNat]

def k0_chk45 (i : grid0.Coords) (v728 : BitVec 32) : Prop :=
  (128 ∣ (k0_mult43 v728).toNat) ∧
  (∀ a, (k0_off74 i v728) a + S8x128.size a ≤ S4096x32000.size a) ∧
  (∀ a, (k0_off90 i v728) a + S8x128.size a ≤ S4096x32000.size a)
instance k0_chk45.dec : ∀ (i : grid0.Coords) (v728 : BitVec 32), Decidable (k0_chk45 i v728) := fun i v728 => decidable_of_iff' _ (Iff.of_eq (k0_chk45.eq_1 i v728))
theorem k0_mult43_dvd : ∀ (i : grid0.Coords) (v728 : BitVec 32) (k0_hw45 : k0_chk45 i v728), 128 ∣ (k0_mult43 v728).toNat := fun i v728 k0_hw45 => k0_hw45.1
theorem k0_off74_inb : ∀ (i : grid0.Coords) (v728 : BitVec 32) (k0_hw45 : k0_chk45 i v728), ∀ a, (k0_off74 i v728) a + S8x128.size a ≤ S4096x32000.size a := fun i v728 k0_hw45 => k0_hw45.2.1
theorem k0_off90_inb : ∀ (i : grid0.Coords) (v728 : BitVec 32) (k0_hw45 : k0_chk45 i v728), ∀ a, (k0_off90 i v728) a + S8x128.size a ≤ S4096x32000.size a := fun i v728 k0_hw45 => k0_hw45.2.2

def k0_off91 (i : grid0.Coords) (v740 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_496 : BitVec 32 := 32#32
  let v743 : BitVec 32 := Scalar.addi v2 c32_i32_496
  let c8_i32_497 : BitVec 32 := 8#32
  let v744 : BitVec 32 := Scalar.addi v743 c8_i32_497
  let c_m128_i32_495 : BitVec 32 := 4294967168#32
  let v741 : BitVec 32 := Scalar.andi v740 c_m128_i32_495
  let v742 : BitVec 32 := v741
  ![v744.toNat, v742.toNat]

def k0_chk46 (i : grid0.Coords) (v740 : BitVec 32) : Prop :=
  (128 ∣ (k0_mult44 v740).toNat) ∧
  (∀ a, (k0_off75 i v740) a + S8x128.size a ≤ S4096x32000.size a) ∧
  (∀ a, (k0_off91 i v740) a + S8x128.size a ≤ S4096x32000.size a)
instance k0_chk46.dec : ∀ (i : grid0.Coords) (v740 : BitVec 32), Decidable (k0_chk46 i v740) := fun i v740 => decidable_of_iff' _ (Iff.of_eq (k0_chk46.eq_1 i v740))
theorem k0_mult44_dvd : ∀ (i : grid0.Coords) (v740 : BitVec 32) (k0_hw46 : k0_chk46 i v740), 128 ∣ (k0_mult44 v740).toNat := fun i v740 k0_hw46 => k0_hw46.1
theorem k0_off75_inb : ∀ (i : grid0.Coords) (v740 : BitVec 32) (k0_hw46 : k0_chk46 i v740), ∀ a, (k0_off75 i v740) a + S8x128.size a ≤ S4096x32000.size a := fun i v740 k0_hw46 => k0_hw46.2.1
theorem k0_off91_inb : ∀ (i : grid0.Coords) (v740 : BitVec 32) (k0_hw46 : k0_chk46 i v740), ∀ a, (k0_off91 i v740) a + S8x128.size a ≤ S4096x32000.size a := fun i v740 k0_hw46 => k0_hw46.2.2

def k0_off92 (i : grid0.Coords) (v752 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_504 : BitVec 32 := 32#32
  let v755 : BitVec 32 := Scalar.addi v2 c32_i32_504
  let c8_i32_505 : BitVec 32 := 8#32
  let v756 : BitVec 32 := Scalar.addi v755 c8_i32_505
  let c_m128_i32_503 : BitVec 32 := 4294967168#32
  let v753 : BitVec 32 := Scalar.andi v752 c_m128_i32_503
  let v754 : BitVec 32 := v753
  ![v756.toNat, v754.toNat]

def k0_chk47 (i : grid0.Coords) (v752 : BitVec 32) : Prop :=
  (128 ∣ (k0_mult45 v752).toNat) ∧
  (∀ a, (k0_off76 i v752) a + S8x128.size a ≤ S4096x32000.size a) ∧
  (∀ a, (k0_off92 i v752) a + S8x128.size a ≤ S4096x32000.size a)
instance k0_chk47.dec : ∀ (i : grid0.Coords) (v752 : BitVec 32), Decidable (k0_chk47 i v752) := fun i v752 => decidable_of_iff' _ (Iff.of_eq (k0_chk47.eq_1 i v752))
theorem k0_mult45_dvd : ∀ (i : grid0.Coords) (v752 : BitVec 32) (k0_hw47 : k0_chk47 i v752), 128 ∣ (k0_mult45 v752).toNat := fun i v752 k0_hw47 => k0_hw47.1
theorem k0_off76_inb : ∀ (i : grid0.Coords) (v752 : BitVec 32) (k0_hw47 : k0_chk47 i v752), ∀ a, (k0_off76 i v752) a + S8x128.size a ≤ S4096x32000.size a := fun i v752 k0_hw47 => k0_hw47.2.1
theorem k0_off92_inb : ∀ (i : grid0.Coords) (v752 : BitVec 32) (k0_hw47 : k0_chk47 i v752), ∀ a, (k0_off92 i v752) a + S8x128.size a ≤ S4096x32000.size a := fun i v752 k0_hw47 => k0_hw47.2.2

def k0_off93 (i : grid0.Coords) (v764 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_512 : BitVec 32 := 32#32
  let v767 : BitVec 32 := Scalar.addi v2 c32_i32_512
  let c8_i32_513 : BitVec 32 := 8#32
  let v768 : BitVec 32 := Scalar.addi v767 c8_i32_513
  let c_m128_i32_511 : BitVec 32 := 4294967168#32
  let v765 : BitVec 32 := Scalar.andi v764 c_m128_i32_511
  let v766 : BitVec 32 := v765
  ![v768.toNat, v766.toNat]

def k0_chk48 (i : grid0.Coords) (v764 : BitVec 32) : Prop :=
  (128 ∣ (k0_mult46 v764).toNat) ∧
  (∀ a, (k0_off77 i v764) a + S8x128.size a ≤ S4096x32000.size a) ∧
  (∀ a, (k0_off93 i v764) a + S8x128.size a ≤ S4096x32000.size a)
instance k0_chk48.dec : ∀ (i : grid0.Coords) (v764 : BitVec 32), Decidable (k0_chk48 i v764) := fun i v764 => decidable_of_iff' _ (Iff.of_eq (k0_chk48.eq_1 i v764))
theorem k0_mult46_dvd : ∀ (i : grid0.Coords) (v764 : BitVec 32) (k0_hw48 : k0_chk48 i v764), 128 ∣ (k0_mult46 v764).toNat := fun i v764 k0_hw48 => k0_hw48.1
theorem k0_off77_inb : ∀ (i : grid0.Coords) (v764 : BitVec 32) (k0_hw48 : k0_chk48 i v764), ∀ a, (k0_off77 i v764) a + S8x128.size a ≤ S4096x32000.size a := fun i v764 k0_hw48 => k0_hw48.2.1
theorem k0_off93_inb : ∀ (i : grid0.Coords) (v764 : BitVec 32) (k0_hw48 : k0_chk48 i v764), ∀ a, (k0_off93 i v764) a + S8x128.size a ≤ S4096x32000.size a := fun i v764 k0_hw48 => k0_hw48.2.2

def k0_off94 (i : grid0.Coords) (v776 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_520 : BitVec 32 := 32#32
  let v779 : BitVec 32 := Scalar.addi v2 c32_i32_520
  let c8_i32_521 : BitVec 32 := 8#32
  let v780 : BitVec 32 := Scalar.addi v779 c8_i32_521
  let c_m128_i32_519 : BitVec 32 := 4294967168#32
  let v777 : BitVec 32 := Scalar.andi v776 c_m128_i32_519
  let v778 : BitVec 32 := v777
  ![v780.toNat, v778.toNat]

def k0_chk49 (i : grid0.Coords) (v776 : BitVec 32) : Prop :=
  (128 ∣ (k0_mult47 v776).toNat) ∧
  (∀ a, (k0_off78 i v776) a + S8x128.size a ≤ S4096x32000.size a) ∧
  (∀ a, (k0_off94 i v776) a + S8x128.size a ≤ S4096x32000.size a)
instance k0_chk49.dec : ∀ (i : grid0.Coords) (v776 : BitVec 32), Decidable (k0_chk49 i v776) := fun i v776 => decidable_of_iff' _ (Iff.of_eq (k0_chk49.eq_1 i v776))
theorem k0_mult47_dvd : ∀ (i : grid0.Coords) (v776 : BitVec 32) (k0_hw49 : k0_chk49 i v776), 128 ∣ (k0_mult47 v776).toNat := fun i v776 k0_hw49 => k0_hw49.1
theorem k0_off78_inb : ∀ (i : grid0.Coords) (v776 : BitVec 32) (k0_hw49 : k0_chk49 i v776), ∀ a, (k0_off78 i v776) a + S8x128.size a ≤ S4096x32000.size a := fun i v776 k0_hw49 => k0_hw49.2.1
theorem k0_off94_inb : ∀ (i : grid0.Coords) (v776 : BitVec 32) (k0_hw49 : k0_chk49 i v776), ∀ a, (k0_off94 i v776) a + S8x128.size a ≤ S4096x32000.size a := fun i v776 k0_hw49 => k0_hw49.2.2

def k0_chk51 (v896 : IVec S16 32) (v898 : IVec S16 32) (v900 : IVec S16 32) : Prop :=
  (∀ a x, ((![v896, v898, v900] : Fin 3 → IVec S16 32) a x).toNat < S16x8x128.size a)
instance k0_chk51.dec : ∀ (v896 : IVec S16 32) (v898 : IVec S16 32) (v900 : IVec S16 32), Decidable (k0_chk51 v896 v898 v900) := fun v896 v898 v900 => decidable_of_iff' _ (Iff.of_eq (k0_chk51.eq_1 v896 v898 v900))
theorem k0_idx3_inb : ∀ (v896 : IVec S16 32) (v898 : IVec S16 32) (v900 : IVec S16 32) (k0_hw51 : k0_chk51 v896 v898 v900), ∀ a x, ((![v896, v898, v900] : Fin 3 → IVec S16 32) a x).toNat < S16x8x128.size a := fun v896 v898 v900 k0_hw51 => k0_hw51
def k0_mult49 (v909 : BitVec 32) : BitVec 32 :=
  let c_m128_i32_620 : BitVec 32 := 4294967168#32
  let v910 : BitVec 32 := Scalar.andi v909 c_m128_i32_620
  v910

def k0_off95 (i : grid0.Coords) (v909 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32 : BitVec 32 := 48#32
  let v912 : BitVec 32 := Scalar.addi v2 c48_i32
  let c0_i32_621 : BitVec 32 := 0#32
  let v913 : BitVec 32 := Scalar.addi v912 c0_i32_621
  let c_m128_i32_620 : BitVec 32 := 4294967168#32
  let v910 : BitVec 32 := Scalar.andi v909 c_m128_i32_620
  let v911 : BitVec 32 := v910
  ![v913.toNat, v911.toNat]
def k0_mult50 (v921 : BitVec 32) : BitVec 32 :=
  let c_m128_i32_627 : BitVec 32 := 4294967168#32
  let v922 : BitVec 32 := Scalar.andi v921 c_m128_i32_627
  v922

def k0_off96 (i : grid0.Coords) (v921 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_628 : BitVec 32 := 48#32
  let v924 : BitVec 32 := Scalar.addi v2 c48_i32_628
  let c0_i32_629 : BitVec 32 := 0#32
  let v925 : BitVec 32 := Scalar.addi v924 c0_i32_629
  let c_m128_i32_627 : BitVec 32 := 4294967168#32
  let v922 : BitVec 32 := Scalar.andi v921 c_m128_i32_627
  let v923 : BitVec 32 := v922
  ![v925.toNat, v923.toNat]
def k0_mult51 (v933 : BitVec 32) : BitVec 32 :=
  let c_m128_i32_635 : BitVec 32 := 4294967168#32
  let v934 : BitVec 32 := Scalar.andi v933 c_m128_i32_635
  v934

def k0_off97 (i : grid0.Coords) (v933 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_636 : BitVec 32 := 48#32
  let v936 : BitVec 32 := Scalar.addi v2 c48_i32_636
  let c0_i32_637 : BitVec 32 := 0#32
  let v937 : BitVec 32 := Scalar.addi v936 c0_i32_637
  let c_m128_i32_635 : BitVec 32 := 4294967168#32
  let v934 : BitVec 32 := Scalar.andi v933 c_m128_i32_635
  let v935 : BitVec 32 := v934
  ![v937.toNat, v935.toNat]
def k0_mult52 (v945 : BitVec 32) : BitVec 32 :=
  let c_m128_i32_643 : BitVec 32 := 4294967168#32
  let v946 : BitVec 32 := Scalar.andi v945 c_m128_i32_643
  v946

def k0_off98 (i : grid0.Coords) (v945 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_644 : BitVec 32 := 48#32
  let v948 : BitVec 32 := Scalar.addi v2 c48_i32_644
  let c0_i32_645 : BitVec 32 := 0#32
  let v949 : BitVec 32 := Scalar.addi v948 c0_i32_645
  let c_m128_i32_643 : BitVec 32 := 4294967168#32
  let v946 : BitVec 32 := Scalar.andi v945 c_m128_i32_643
  let v947 : BitVec 32 := v946
  ![v949.toNat, v947.toNat]
def k0_mult53 (v957 : BitVec 32) : BitVec 32 :=
  let c_m128_i32_651 : BitVec 32 := 4294967168#32
  let v958 : BitVec 32 := Scalar.andi v957 c_m128_i32_651
  v958

def k0_off99 (i : grid0.Coords) (v957 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_652 : BitVec 32 := 48#32
  let v960 : BitVec 32 := Scalar.addi v2 c48_i32_652
  let c0_i32_653 : BitVec 32 := 0#32
  let v961 : BitVec 32 := Scalar.addi v960 c0_i32_653
  let c_m128_i32_651 : BitVec 32 := 4294967168#32
  let v958 : BitVec 32 := Scalar.andi v957 c_m128_i32_651
  let v959 : BitVec 32 := v958
  ![v961.toNat, v959.toNat]
def k0_mult54 (v969 : BitVec 32) : BitVec 32 :=
  let c_m128_i32_659 : BitVec 32 := 4294967168#32
  let v970 : BitVec 32 := Scalar.andi v969 c_m128_i32_659
  v970

def k0_off100 (i : grid0.Coords) (v969 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_660 : BitVec 32 := 48#32
  let v972 : BitVec 32 := Scalar.addi v2 c48_i32_660
  let c0_i32_661 : BitVec 32 := 0#32
  let v973 : BitVec 32 := Scalar.addi v972 c0_i32_661
  let c_m128_i32_659 : BitVec 32 := 4294967168#32
  let v970 : BitVec 32 := Scalar.andi v969 c_m128_i32_659
  let v971 : BitVec 32 := v970
  ![v973.toNat, v971.toNat]
def k0_mult55 (v981 : BitVec 32) : BitVec 32 :=
  let c_m128_i32_667 : BitVec 32 := 4294967168#32
  let v982 : BitVec 32 := Scalar.andi v981 c_m128_i32_667
  v982

def k0_off101 (i : grid0.Coords) (v981 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_668 : BitVec 32 := 48#32
  let v984 : BitVec 32 := Scalar.addi v2 c48_i32_668
  let c0_i32_669 : BitVec 32 := 0#32
  let v985 : BitVec 32 := Scalar.addi v984 c0_i32_669
  let c_m128_i32_667 : BitVec 32 := 4294967168#32
  let v982 : BitVec 32 := Scalar.andi v981 c_m128_i32_667
  let v983 : BitVec 32 := v982
  ![v985.toNat, v983.toNat]
def k0_mult56 (v993 : BitVec 32) : BitVec 32 :=
  let c_m128_i32_675 : BitVec 32 := 4294967168#32
  let v994 : BitVec 32 := Scalar.andi v993 c_m128_i32_675
  v994

def k0_off102 (i : grid0.Coords) (v993 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_676 : BitVec 32 := 48#32
  let v996 : BitVec 32 := Scalar.addi v2 c48_i32_676
  let c0_i32_677 : BitVec 32 := 0#32
  let v997 : BitVec 32 := Scalar.addi v996 c0_i32_677
  let c_m128_i32_675 : BitVec 32 := 4294967168#32
  let v994 : BitVec 32 := Scalar.andi v993 c_m128_i32_675
  let v995 : BitVec 32 := v994
  ![v997.toNat, v995.toNat]
def k0_mult57 (v1005 : BitVec 32) : BitVec 32 :=
  let c_m128_i32_683 : BitVec 32 := 4294967168#32
  let v1006 : BitVec 32 := Scalar.andi v1005 c_m128_i32_683
  v1006

def k0_off103 (i : grid0.Coords) (v1005 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_684 : BitVec 32 := 48#32
  let v1008 : BitVec 32 := Scalar.addi v2 c48_i32_684
  let c8_i32_685 : BitVec 32 := 8#32
  let v1009 : BitVec 32 := Scalar.addi v1008 c8_i32_685
  let c_m128_i32_683 : BitVec 32 := 4294967168#32
  let v1006 : BitVec 32 := Scalar.andi v1005 c_m128_i32_683
  let v1007 : BitVec 32 := v1006
  ![v1009.toNat, v1007.toNat]
def k0_mult58 (v1017 : BitVec 32) : BitVec 32 :=
  let c_m128_i32_691 : BitVec 32 := 4294967168#32
  let v1018 : BitVec 32 := Scalar.andi v1017 c_m128_i32_691
  v1018

def k0_off104 (i : grid0.Coords) (v1017 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_692 : BitVec 32 := 48#32
  let v1020 : BitVec 32 := Scalar.addi v2 c48_i32_692
  let c8_i32_693 : BitVec 32 := 8#32
  let v1021 : BitVec 32 := Scalar.addi v1020 c8_i32_693
  let c_m128_i32_691 : BitVec 32 := 4294967168#32
  let v1018 : BitVec 32 := Scalar.andi v1017 c_m128_i32_691
  let v1019 : BitVec 32 := v1018
  ![v1021.toNat, v1019.toNat]
def k0_mult59 (v1029 : BitVec 32) : BitVec 32 :=
  let c_m128_i32_699 : BitVec 32 := 4294967168#32
  let v1030 : BitVec 32 := Scalar.andi v1029 c_m128_i32_699
  v1030

def k0_off105 (i : grid0.Coords) (v1029 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_700 : BitVec 32 := 48#32
  let v1032 : BitVec 32 := Scalar.addi v2 c48_i32_700
  let c8_i32_701 : BitVec 32 := 8#32
  let v1033 : BitVec 32 := Scalar.addi v1032 c8_i32_701
  let c_m128_i32_699 : BitVec 32 := 4294967168#32
  let v1030 : BitVec 32 := Scalar.andi v1029 c_m128_i32_699
  let v1031 : BitVec 32 := v1030
  ![v1033.toNat, v1031.toNat]
def k0_mult60 (v1041 : BitVec 32) : BitVec 32 :=
  let c_m128_i32_707 : BitVec 32 := 4294967168#32
  let v1042 : BitVec 32 := Scalar.andi v1041 c_m128_i32_707
  v1042

def k0_off106 (i : grid0.Coords) (v1041 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_708 : BitVec 32 := 48#32
  let v1044 : BitVec 32 := Scalar.addi v2 c48_i32_708
  let c8_i32_709 : BitVec 32 := 8#32
  let v1045 : BitVec 32 := Scalar.addi v1044 c8_i32_709
  let c_m128_i32_707 : BitVec 32 := 4294967168#32
  let v1042 : BitVec 32 := Scalar.andi v1041 c_m128_i32_707
  let v1043 : BitVec 32 := v1042
  ![v1045.toNat, v1043.toNat]
def k0_mult61 (v1053 : BitVec 32) : BitVec 32 :=
  let c_m128_i32_715 : BitVec 32 := 4294967168#32
  let v1054 : BitVec 32 := Scalar.andi v1053 c_m128_i32_715
  v1054

def k0_off107 (i : grid0.Coords) (v1053 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_716 : BitVec 32 := 48#32
  let v1056 : BitVec 32 := Scalar.addi v2 c48_i32_716
  let c8_i32_717 : BitVec 32 := 8#32
  let v1057 : BitVec 32 := Scalar.addi v1056 c8_i32_717
  let c_m128_i32_715 : BitVec 32 := 4294967168#32
  let v1054 : BitVec 32 := Scalar.andi v1053 c_m128_i32_715
  let v1055 : BitVec 32 := v1054
  ![v1057.toNat, v1055.toNat]
def k0_mult62 (v1065 : BitVec 32) : BitVec 32 :=
  let c_m128_i32_723 : BitVec 32 := 4294967168#32
  let v1066 : BitVec 32 := Scalar.andi v1065 c_m128_i32_723
  v1066

def k0_off108 (i : grid0.Coords) (v1065 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_724 : BitVec 32 := 48#32
  let v1068 : BitVec 32 := Scalar.addi v2 c48_i32_724
  let c8_i32_725 : BitVec 32 := 8#32
  let v1069 : BitVec 32 := Scalar.addi v1068 c8_i32_725
  let c_m128_i32_723 : BitVec 32 := 4294967168#32
  let v1066 : BitVec 32 := Scalar.andi v1065 c_m128_i32_723
  let v1067 : BitVec 32 := v1066
  ![v1069.toNat, v1067.toNat]
def k0_mult63 (v1077 : BitVec 32) : BitVec 32 :=
  let c_m128_i32_731 : BitVec 32 := 4294967168#32
  let v1078 : BitVec 32 := Scalar.andi v1077 c_m128_i32_731
  v1078

def k0_off109 (i : grid0.Coords) (v1077 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_732 : BitVec 32 := 48#32
  let v1080 : BitVec 32 := Scalar.addi v2 c48_i32_732
  let c8_i32_733 : BitVec 32 := 8#32
  let v1081 : BitVec 32 := Scalar.addi v1080 c8_i32_733
  let c_m128_i32_731 : BitVec 32 := 4294967168#32
  let v1078 : BitVec 32 := Scalar.andi v1077 c_m128_i32_731
  let v1079 : BitVec 32 := v1078
  ![v1081.toNat, v1079.toNat]
def k0_mult64 (v1089 : BitVec 32) : BitVec 32 :=
  let c_m128_i32_739 : BitVec 32 := 4294967168#32
  let v1090 : BitVec 32 := Scalar.andi v1089 c_m128_i32_739
  v1090

def k0_off110 (i : grid0.Coords) (v1089 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_740 : BitVec 32 := 48#32
  let v1092 : BitVec 32 := Scalar.addi v2 c48_i32_740
  let c8_i32_741 : BitVec 32 := 8#32
  let v1093 : BitVec 32 := Scalar.addi v1092 c8_i32_741
  let c_m128_i32_739 : BitVec 32 := 4294967168#32
  let v1090 : BitVec 32 := Scalar.andi v1089 c_m128_i32_739
  let v1091 : BitVec 32 := v1090
  ![v1093.toNat, v1091.toNat]

def k0_chk67 (i : grid0.Coords) (v1089 : BitVec 32) : Prop :=
  (128 ∣ (k0_mult64 v1089).toNat) ∧
  (∀ a, (k0_off110 i v1089) a + S8x128.size a ≤ S4096x32000.size a)
instance k0_chk67.dec : ∀ (i : grid0.Coords) (v1089 : BitVec 32), Decidable (k0_chk67 i v1089) := fun i v1089 => decidable_of_iff' _ (Iff.of_eq (k0_chk67.eq_1 i v1089))
theorem k0_mult64_dvd : ∀ (i : grid0.Coords) (v1089 : BitVec 32) (k0_hw67 : k0_chk67 i v1089), 128 ∣ (k0_mult64 v1089).toNat := fun i v1089 k0_hw67 => k0_hw67.1
theorem k0_off110_inb : ∀ (i : grid0.Coords) (v1089 : BitVec 32) (k0_hw67 : k0_chk67 i v1089), ∀ a, (k0_off110 i v1089) a + S8x128.size a ≤ S4096x32000.size a := fun i v1089 k0_hw67 => k0_hw67.2

def k0_off111 (i : grid0.Coords) (v909 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32 : BitVec 32 := 48#32
  let v912 : BitVec 32 := Scalar.addi v2 c48_i32
  let c0_i32_621 : BitVec 32 := 0#32
  let v913 : BitVec 32 := Scalar.addi v912 c0_i32_621
  let c_m128_i32_620 : BitVec 32 := 4294967168#32
  let v910 : BitVec 32 := Scalar.andi v909 c_m128_i32_620
  let v911 : BitVec 32 := v910
  ![v913.toNat, v911.toNat]

def k0_chk52 (i : grid0.Coords) (v909 : BitVec 32) : Prop :=
  (128 ∣ (k0_mult49 v909).toNat) ∧
  (∀ a, (k0_off95 i v909) a + S8x128.size a ≤ S4096x32000.size a) ∧
  (∀ a, (k0_off111 i v909) a + S8x128.size a ≤ S4096x32000.size a)
instance k0_chk52.dec : ∀ (i : grid0.Coords) (v909 : BitVec 32), Decidable (k0_chk52 i v909) := fun i v909 => decidable_of_iff' _ (Iff.of_eq (k0_chk52.eq_1 i v909))
theorem k0_mult49_dvd : ∀ (i : grid0.Coords) (v909 : BitVec 32) (k0_hw52 : k0_chk52 i v909), 128 ∣ (k0_mult49 v909).toNat := fun i v909 k0_hw52 => k0_hw52.1
theorem k0_off95_inb : ∀ (i : grid0.Coords) (v909 : BitVec 32) (k0_hw52 : k0_chk52 i v909), ∀ a, (k0_off95 i v909) a + S8x128.size a ≤ S4096x32000.size a := fun i v909 k0_hw52 => k0_hw52.2.1
theorem k0_off111_inb : ∀ (i : grid0.Coords) (v909 : BitVec 32) (k0_hw52 : k0_chk52 i v909), ∀ a, (k0_off111 i v909) a + S8x128.size a ≤ S4096x32000.size a := fun i v909 k0_hw52 => k0_hw52.2.2

def k0_off112 (i : grid0.Coords) (v921 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_628 : BitVec 32 := 48#32
  let v924 : BitVec 32 := Scalar.addi v2 c48_i32_628
  let c0_i32_629 : BitVec 32 := 0#32
  let v925 : BitVec 32 := Scalar.addi v924 c0_i32_629
  let c_m128_i32_627 : BitVec 32 := 4294967168#32
  let v922 : BitVec 32 := Scalar.andi v921 c_m128_i32_627
  let v923 : BitVec 32 := v922
  ![v925.toNat, v923.toNat]

def k0_chk53 (i : grid0.Coords) (v921 : BitVec 32) : Prop :=
  (128 ∣ (k0_mult50 v921).toNat) ∧
  (∀ a, (k0_off96 i v921) a + S8x128.size a ≤ S4096x32000.size a) ∧
  (∀ a, (k0_off112 i v921) a + S8x128.size a ≤ S4096x32000.size a)
instance k0_chk53.dec : ∀ (i : grid0.Coords) (v921 : BitVec 32), Decidable (k0_chk53 i v921) := fun i v921 => decidable_of_iff' _ (Iff.of_eq (k0_chk53.eq_1 i v921))
theorem k0_mult50_dvd : ∀ (i : grid0.Coords) (v921 : BitVec 32) (k0_hw53 : k0_chk53 i v921), 128 ∣ (k0_mult50 v921).toNat := fun i v921 k0_hw53 => k0_hw53.1
theorem k0_off96_inb : ∀ (i : grid0.Coords) (v921 : BitVec 32) (k0_hw53 : k0_chk53 i v921), ∀ a, (k0_off96 i v921) a + S8x128.size a ≤ S4096x32000.size a := fun i v921 k0_hw53 => k0_hw53.2.1
theorem k0_off112_inb : ∀ (i : grid0.Coords) (v921 : BitVec 32) (k0_hw53 : k0_chk53 i v921), ∀ a, (k0_off112 i v921) a + S8x128.size a ≤ S4096x32000.size a := fun i v921 k0_hw53 => k0_hw53.2.2

def k0_off113 (i : grid0.Coords) (v933 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_636 : BitVec 32 := 48#32
  let v936 : BitVec 32 := Scalar.addi v2 c48_i32_636
  let c0_i32_637 : BitVec 32 := 0#32
  let v937 : BitVec 32 := Scalar.addi v936 c0_i32_637
  let c_m128_i32_635 : BitVec 32 := 4294967168#32
  let v934 : BitVec 32 := Scalar.andi v933 c_m128_i32_635
  let v935 : BitVec 32 := v934
  ![v937.toNat, v935.toNat]

def k0_chk54 (i : grid0.Coords) (v933 : BitVec 32) : Prop :=
  (128 ∣ (k0_mult51 v933).toNat) ∧
  (∀ a, (k0_off97 i v933) a + S8x128.size a ≤ S4096x32000.size a) ∧
  (∀ a, (k0_off113 i v933) a + S8x128.size a ≤ S4096x32000.size a)
instance k0_chk54.dec : ∀ (i : grid0.Coords) (v933 : BitVec 32), Decidable (k0_chk54 i v933) := fun i v933 => decidable_of_iff' _ (Iff.of_eq (k0_chk54.eq_1 i v933))
theorem k0_mult51_dvd : ∀ (i : grid0.Coords) (v933 : BitVec 32) (k0_hw54 : k0_chk54 i v933), 128 ∣ (k0_mult51 v933).toNat := fun i v933 k0_hw54 => k0_hw54.1
theorem k0_off97_inb : ∀ (i : grid0.Coords) (v933 : BitVec 32) (k0_hw54 : k0_chk54 i v933), ∀ a, (k0_off97 i v933) a + S8x128.size a ≤ S4096x32000.size a := fun i v933 k0_hw54 => k0_hw54.2.1
theorem k0_off113_inb : ∀ (i : grid0.Coords) (v933 : BitVec 32) (k0_hw54 : k0_chk54 i v933), ∀ a, (k0_off113 i v933) a + S8x128.size a ≤ S4096x32000.size a := fun i v933 k0_hw54 => k0_hw54.2.2

def k0_off114 (i : grid0.Coords) (v945 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_644 : BitVec 32 := 48#32
  let v948 : BitVec 32 := Scalar.addi v2 c48_i32_644
  let c0_i32_645 : BitVec 32 := 0#32
  let v949 : BitVec 32 := Scalar.addi v948 c0_i32_645
  let c_m128_i32_643 : BitVec 32 := 4294967168#32
  let v946 : BitVec 32 := Scalar.andi v945 c_m128_i32_643
  let v947 : BitVec 32 := v946
  ![v949.toNat, v947.toNat]

def k0_chk55 (i : grid0.Coords) (v945 : BitVec 32) : Prop :=
  (128 ∣ (k0_mult52 v945).toNat) ∧
  (∀ a, (k0_off98 i v945) a + S8x128.size a ≤ S4096x32000.size a) ∧
  (∀ a, (k0_off114 i v945) a + S8x128.size a ≤ S4096x32000.size a)
instance k0_chk55.dec : ∀ (i : grid0.Coords) (v945 : BitVec 32), Decidable (k0_chk55 i v945) := fun i v945 => decidable_of_iff' _ (Iff.of_eq (k0_chk55.eq_1 i v945))
theorem k0_mult52_dvd : ∀ (i : grid0.Coords) (v945 : BitVec 32) (k0_hw55 : k0_chk55 i v945), 128 ∣ (k0_mult52 v945).toNat := fun i v945 k0_hw55 => k0_hw55.1
theorem k0_off98_inb : ∀ (i : grid0.Coords) (v945 : BitVec 32) (k0_hw55 : k0_chk55 i v945), ∀ a, (k0_off98 i v945) a + S8x128.size a ≤ S4096x32000.size a := fun i v945 k0_hw55 => k0_hw55.2.1
theorem k0_off114_inb : ∀ (i : grid0.Coords) (v945 : BitVec 32) (k0_hw55 : k0_chk55 i v945), ∀ a, (k0_off114 i v945) a + S8x128.size a ≤ S4096x32000.size a := fun i v945 k0_hw55 => k0_hw55.2.2

def k0_off115 (i : grid0.Coords) (v957 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_652 : BitVec 32 := 48#32
  let v960 : BitVec 32 := Scalar.addi v2 c48_i32_652
  let c0_i32_653 : BitVec 32 := 0#32
  let v961 : BitVec 32 := Scalar.addi v960 c0_i32_653
  let c_m128_i32_651 : BitVec 32 := 4294967168#32
  let v958 : BitVec 32 := Scalar.andi v957 c_m128_i32_651
  let v959 : BitVec 32 := v958
  ![v961.toNat, v959.toNat]

def k0_chk56 (i : grid0.Coords) (v957 : BitVec 32) : Prop :=
  (128 ∣ (k0_mult53 v957).toNat) ∧
  (∀ a, (k0_off99 i v957) a + S8x128.size a ≤ S4096x32000.size a) ∧
  (∀ a, (k0_off115 i v957) a + S8x128.size a ≤ S4096x32000.size a)
instance k0_chk56.dec : ∀ (i : grid0.Coords) (v957 : BitVec 32), Decidable (k0_chk56 i v957) := fun i v957 => decidable_of_iff' _ (Iff.of_eq (k0_chk56.eq_1 i v957))
theorem k0_mult53_dvd : ∀ (i : grid0.Coords) (v957 : BitVec 32) (k0_hw56 : k0_chk56 i v957), 128 ∣ (k0_mult53 v957).toNat := fun i v957 k0_hw56 => k0_hw56.1
theorem k0_off99_inb : ∀ (i : grid0.Coords) (v957 : BitVec 32) (k0_hw56 : k0_chk56 i v957), ∀ a, (k0_off99 i v957) a + S8x128.size a ≤ S4096x32000.size a := fun i v957 k0_hw56 => k0_hw56.2.1
theorem k0_off115_inb : ∀ (i : grid0.Coords) (v957 : BitVec 32) (k0_hw56 : k0_chk56 i v957), ∀ a, (k0_off115 i v957) a + S8x128.size a ≤ S4096x32000.size a := fun i v957 k0_hw56 => k0_hw56.2.2

def k0_off116 (i : grid0.Coords) (v969 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_660 : BitVec 32 := 48#32
  let v972 : BitVec 32 := Scalar.addi v2 c48_i32_660
  let c0_i32_661 : BitVec 32 := 0#32
  let v973 : BitVec 32 := Scalar.addi v972 c0_i32_661
  let c_m128_i32_659 : BitVec 32 := 4294967168#32
  let v970 : BitVec 32 := Scalar.andi v969 c_m128_i32_659
  let v971 : BitVec 32 := v970
  ![v973.toNat, v971.toNat]

def k0_chk57 (i : grid0.Coords) (v969 : BitVec 32) : Prop :=
  (128 ∣ (k0_mult54 v969).toNat) ∧
  (∀ a, (k0_off100 i v969) a + S8x128.size a ≤ S4096x32000.size a) ∧
  (∀ a, (k0_off116 i v969) a + S8x128.size a ≤ S4096x32000.size a)
instance k0_chk57.dec : ∀ (i : grid0.Coords) (v969 : BitVec 32), Decidable (k0_chk57 i v969) := fun i v969 => decidable_of_iff' _ (Iff.of_eq (k0_chk57.eq_1 i v969))
theorem k0_mult54_dvd : ∀ (i : grid0.Coords) (v969 : BitVec 32) (k0_hw57 : k0_chk57 i v969), 128 ∣ (k0_mult54 v969).toNat := fun i v969 k0_hw57 => k0_hw57.1
theorem k0_off100_inb : ∀ (i : grid0.Coords) (v969 : BitVec 32) (k0_hw57 : k0_chk57 i v969), ∀ a, (k0_off100 i v969) a + S8x128.size a ≤ S4096x32000.size a := fun i v969 k0_hw57 => k0_hw57.2.1
theorem k0_off116_inb : ∀ (i : grid0.Coords) (v969 : BitVec 32) (k0_hw57 : k0_chk57 i v969), ∀ a, (k0_off116 i v969) a + S8x128.size a ≤ S4096x32000.size a := fun i v969 k0_hw57 => k0_hw57.2.2

def k0_off117 (i : grid0.Coords) (v981 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_668 : BitVec 32 := 48#32
  let v984 : BitVec 32 := Scalar.addi v2 c48_i32_668
  let c0_i32_669 : BitVec 32 := 0#32
  let v985 : BitVec 32 := Scalar.addi v984 c0_i32_669
  let c_m128_i32_667 : BitVec 32 := 4294967168#32
  let v982 : BitVec 32 := Scalar.andi v981 c_m128_i32_667
  let v983 : BitVec 32 := v982
  ![v985.toNat, v983.toNat]

def k0_chk58 (i : grid0.Coords) (v981 : BitVec 32) : Prop :=
  (128 ∣ (k0_mult55 v981).toNat) ∧
  (∀ a, (k0_off101 i v981) a + S8x128.size a ≤ S4096x32000.size a) ∧
  (∀ a, (k0_off117 i v981) a + S8x128.size a ≤ S4096x32000.size a)
instance k0_chk58.dec : ∀ (i : grid0.Coords) (v981 : BitVec 32), Decidable (k0_chk58 i v981) := fun i v981 => decidable_of_iff' _ (Iff.of_eq (k0_chk58.eq_1 i v981))
theorem k0_mult55_dvd : ∀ (i : grid0.Coords) (v981 : BitVec 32) (k0_hw58 : k0_chk58 i v981), 128 ∣ (k0_mult55 v981).toNat := fun i v981 k0_hw58 => k0_hw58.1
theorem k0_off101_inb : ∀ (i : grid0.Coords) (v981 : BitVec 32) (k0_hw58 : k0_chk58 i v981), ∀ a, (k0_off101 i v981) a + S8x128.size a ≤ S4096x32000.size a := fun i v981 k0_hw58 => k0_hw58.2.1
theorem k0_off117_inb : ∀ (i : grid0.Coords) (v981 : BitVec 32) (k0_hw58 : k0_chk58 i v981), ∀ a, (k0_off117 i v981) a + S8x128.size a ≤ S4096x32000.size a := fun i v981 k0_hw58 => k0_hw58.2.2

def k0_off118 (i : grid0.Coords) (v993 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_676 : BitVec 32 := 48#32
  let v996 : BitVec 32 := Scalar.addi v2 c48_i32_676
  let c0_i32_677 : BitVec 32 := 0#32
  let v997 : BitVec 32 := Scalar.addi v996 c0_i32_677
  let c_m128_i32_675 : BitVec 32 := 4294967168#32
  let v994 : BitVec 32 := Scalar.andi v993 c_m128_i32_675
  let v995 : BitVec 32 := v994
  ![v997.toNat, v995.toNat]

def k0_chk59 (i : grid0.Coords) (v993 : BitVec 32) : Prop :=
  (128 ∣ (k0_mult56 v993).toNat) ∧
  (∀ a, (k0_off102 i v993) a + S8x128.size a ≤ S4096x32000.size a) ∧
  (∀ a, (k0_off118 i v993) a + S8x128.size a ≤ S4096x32000.size a)
instance k0_chk59.dec : ∀ (i : grid0.Coords) (v993 : BitVec 32), Decidable (k0_chk59 i v993) := fun i v993 => decidable_of_iff' _ (Iff.of_eq (k0_chk59.eq_1 i v993))
theorem k0_mult56_dvd : ∀ (i : grid0.Coords) (v993 : BitVec 32) (k0_hw59 : k0_chk59 i v993), 128 ∣ (k0_mult56 v993).toNat := fun i v993 k0_hw59 => k0_hw59.1
theorem k0_off102_inb : ∀ (i : grid0.Coords) (v993 : BitVec 32) (k0_hw59 : k0_chk59 i v993), ∀ a, (k0_off102 i v993) a + S8x128.size a ≤ S4096x32000.size a := fun i v993 k0_hw59 => k0_hw59.2.1
theorem k0_off118_inb : ∀ (i : grid0.Coords) (v993 : BitVec 32) (k0_hw59 : k0_chk59 i v993), ∀ a, (k0_off118 i v993) a + S8x128.size a ≤ S4096x32000.size a := fun i v993 k0_hw59 => k0_hw59.2.2

def k0_off119 (i : grid0.Coords) (v1005 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_684 : BitVec 32 := 48#32
  let v1008 : BitVec 32 := Scalar.addi v2 c48_i32_684
  let c8_i32_685 : BitVec 32 := 8#32
  let v1009 : BitVec 32 := Scalar.addi v1008 c8_i32_685
  let c_m128_i32_683 : BitVec 32 := 4294967168#32
  let v1006 : BitVec 32 := Scalar.andi v1005 c_m128_i32_683
  let v1007 : BitVec 32 := v1006
  ![v1009.toNat, v1007.toNat]

def k0_chk60 (i : grid0.Coords) (v1005 : BitVec 32) : Prop :=
  (128 ∣ (k0_mult57 v1005).toNat) ∧
  (∀ a, (k0_off103 i v1005) a + S8x128.size a ≤ S4096x32000.size a) ∧
  (∀ a, (k0_off119 i v1005) a + S8x128.size a ≤ S4096x32000.size a)
instance k0_chk60.dec : ∀ (i : grid0.Coords) (v1005 : BitVec 32), Decidable (k0_chk60 i v1005) := fun i v1005 => decidable_of_iff' _ (Iff.of_eq (k0_chk60.eq_1 i v1005))
theorem k0_mult57_dvd : ∀ (i : grid0.Coords) (v1005 : BitVec 32) (k0_hw60 : k0_chk60 i v1005), 128 ∣ (k0_mult57 v1005).toNat := fun i v1005 k0_hw60 => k0_hw60.1
theorem k0_off103_inb : ∀ (i : grid0.Coords) (v1005 : BitVec 32) (k0_hw60 : k0_chk60 i v1005), ∀ a, (k0_off103 i v1005) a + S8x128.size a ≤ S4096x32000.size a := fun i v1005 k0_hw60 => k0_hw60.2.1
theorem k0_off119_inb : ∀ (i : grid0.Coords) (v1005 : BitVec 32) (k0_hw60 : k0_chk60 i v1005), ∀ a, (k0_off119 i v1005) a + S8x128.size a ≤ S4096x32000.size a := fun i v1005 k0_hw60 => k0_hw60.2.2

def k0_off120 (i : grid0.Coords) (v1017 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_692 : BitVec 32 := 48#32
  let v1020 : BitVec 32 := Scalar.addi v2 c48_i32_692
  let c8_i32_693 : BitVec 32 := 8#32
  let v1021 : BitVec 32 := Scalar.addi v1020 c8_i32_693
  let c_m128_i32_691 : BitVec 32 := 4294967168#32
  let v1018 : BitVec 32 := Scalar.andi v1017 c_m128_i32_691
  let v1019 : BitVec 32 := v1018
  ![v1021.toNat, v1019.toNat]

def k0_chk61 (i : grid0.Coords) (v1017 : BitVec 32) : Prop :=
  (128 ∣ (k0_mult58 v1017).toNat) ∧
  (∀ a, (k0_off104 i v1017) a + S8x128.size a ≤ S4096x32000.size a) ∧
  (∀ a, (k0_off120 i v1017) a + S8x128.size a ≤ S4096x32000.size a)
instance k0_chk61.dec : ∀ (i : grid0.Coords) (v1017 : BitVec 32), Decidable (k0_chk61 i v1017) := fun i v1017 => decidable_of_iff' _ (Iff.of_eq (k0_chk61.eq_1 i v1017))
theorem k0_mult58_dvd : ∀ (i : grid0.Coords) (v1017 : BitVec 32) (k0_hw61 : k0_chk61 i v1017), 128 ∣ (k0_mult58 v1017).toNat := fun i v1017 k0_hw61 => k0_hw61.1
theorem k0_off104_inb : ∀ (i : grid0.Coords) (v1017 : BitVec 32) (k0_hw61 : k0_chk61 i v1017), ∀ a, (k0_off104 i v1017) a + S8x128.size a ≤ S4096x32000.size a := fun i v1017 k0_hw61 => k0_hw61.2.1
theorem k0_off120_inb : ∀ (i : grid0.Coords) (v1017 : BitVec 32) (k0_hw61 : k0_chk61 i v1017), ∀ a, (k0_off120 i v1017) a + S8x128.size a ≤ S4096x32000.size a := fun i v1017 k0_hw61 => k0_hw61.2.2

def k0_off121 (i : grid0.Coords) (v1029 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_700 : BitVec 32 := 48#32
  let v1032 : BitVec 32 := Scalar.addi v2 c48_i32_700
  let c8_i32_701 : BitVec 32 := 8#32
  let v1033 : BitVec 32 := Scalar.addi v1032 c8_i32_701
  let c_m128_i32_699 : BitVec 32 := 4294967168#32
  let v1030 : BitVec 32 := Scalar.andi v1029 c_m128_i32_699
  let v1031 : BitVec 32 := v1030
  ![v1033.toNat, v1031.toNat]

def k0_chk62 (i : grid0.Coords) (v1029 : BitVec 32) : Prop :=
  (128 ∣ (k0_mult59 v1029).toNat) ∧
  (∀ a, (k0_off105 i v1029) a + S8x128.size a ≤ S4096x32000.size a) ∧
  (∀ a, (k0_off121 i v1029) a + S8x128.size a ≤ S4096x32000.size a)
instance k0_chk62.dec : ∀ (i : grid0.Coords) (v1029 : BitVec 32), Decidable (k0_chk62 i v1029) := fun i v1029 => decidable_of_iff' _ (Iff.of_eq (k0_chk62.eq_1 i v1029))
theorem k0_mult59_dvd : ∀ (i : grid0.Coords) (v1029 : BitVec 32) (k0_hw62 : k0_chk62 i v1029), 128 ∣ (k0_mult59 v1029).toNat := fun i v1029 k0_hw62 => k0_hw62.1
theorem k0_off105_inb : ∀ (i : grid0.Coords) (v1029 : BitVec 32) (k0_hw62 : k0_chk62 i v1029), ∀ a, (k0_off105 i v1029) a + S8x128.size a ≤ S4096x32000.size a := fun i v1029 k0_hw62 => k0_hw62.2.1
theorem k0_off121_inb : ∀ (i : grid0.Coords) (v1029 : BitVec 32) (k0_hw62 : k0_chk62 i v1029), ∀ a, (k0_off121 i v1029) a + S8x128.size a ≤ S4096x32000.size a := fun i v1029 k0_hw62 => k0_hw62.2.2

def k0_off122 (i : grid0.Coords) (v1041 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_708 : BitVec 32 := 48#32
  let v1044 : BitVec 32 := Scalar.addi v2 c48_i32_708
  let c8_i32_709 : BitVec 32 := 8#32
  let v1045 : BitVec 32 := Scalar.addi v1044 c8_i32_709
  let c_m128_i32_707 : BitVec 32 := 4294967168#32
  let v1042 : BitVec 32 := Scalar.andi v1041 c_m128_i32_707
  let v1043 : BitVec 32 := v1042
  ![v1045.toNat, v1043.toNat]

def k0_chk63 (i : grid0.Coords) (v1041 : BitVec 32) : Prop :=
  (128 ∣ (k0_mult60 v1041).toNat) ∧
  (∀ a, (k0_off106 i v1041) a + S8x128.size a ≤ S4096x32000.size a) ∧
  (∀ a, (k0_off122 i v1041) a + S8x128.size a ≤ S4096x32000.size a)
instance k0_chk63.dec : ∀ (i : grid0.Coords) (v1041 : BitVec 32), Decidable (k0_chk63 i v1041) := fun i v1041 => decidable_of_iff' _ (Iff.of_eq (k0_chk63.eq_1 i v1041))
theorem k0_mult60_dvd : ∀ (i : grid0.Coords) (v1041 : BitVec 32) (k0_hw63 : k0_chk63 i v1041), 128 ∣ (k0_mult60 v1041).toNat := fun i v1041 k0_hw63 => k0_hw63.1
theorem k0_off106_inb : ∀ (i : grid0.Coords) (v1041 : BitVec 32) (k0_hw63 : k0_chk63 i v1041), ∀ a, (k0_off106 i v1041) a + S8x128.size a ≤ S4096x32000.size a := fun i v1041 k0_hw63 => k0_hw63.2.1
theorem k0_off122_inb : ∀ (i : grid0.Coords) (v1041 : BitVec 32) (k0_hw63 : k0_chk63 i v1041), ∀ a, (k0_off122 i v1041) a + S8x128.size a ≤ S4096x32000.size a := fun i v1041 k0_hw63 => k0_hw63.2.2

def k0_off123 (i : grid0.Coords) (v1053 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_716 : BitVec 32 := 48#32
  let v1056 : BitVec 32 := Scalar.addi v2 c48_i32_716
  let c8_i32_717 : BitVec 32 := 8#32
  let v1057 : BitVec 32 := Scalar.addi v1056 c8_i32_717
  let c_m128_i32_715 : BitVec 32 := 4294967168#32
  let v1054 : BitVec 32 := Scalar.andi v1053 c_m128_i32_715
  let v1055 : BitVec 32 := v1054
  ![v1057.toNat, v1055.toNat]

def k0_chk64 (i : grid0.Coords) (v1053 : BitVec 32) : Prop :=
  (128 ∣ (k0_mult61 v1053).toNat) ∧
  (∀ a, (k0_off107 i v1053) a + S8x128.size a ≤ S4096x32000.size a) ∧
  (∀ a, (k0_off123 i v1053) a + S8x128.size a ≤ S4096x32000.size a)
instance k0_chk64.dec : ∀ (i : grid0.Coords) (v1053 : BitVec 32), Decidable (k0_chk64 i v1053) := fun i v1053 => decidable_of_iff' _ (Iff.of_eq (k0_chk64.eq_1 i v1053))
theorem k0_mult61_dvd : ∀ (i : grid0.Coords) (v1053 : BitVec 32) (k0_hw64 : k0_chk64 i v1053), 128 ∣ (k0_mult61 v1053).toNat := fun i v1053 k0_hw64 => k0_hw64.1
theorem k0_off107_inb : ∀ (i : grid0.Coords) (v1053 : BitVec 32) (k0_hw64 : k0_chk64 i v1053), ∀ a, (k0_off107 i v1053) a + S8x128.size a ≤ S4096x32000.size a := fun i v1053 k0_hw64 => k0_hw64.2.1
theorem k0_off123_inb : ∀ (i : grid0.Coords) (v1053 : BitVec 32) (k0_hw64 : k0_chk64 i v1053), ∀ a, (k0_off123 i v1053) a + S8x128.size a ≤ S4096x32000.size a := fun i v1053 k0_hw64 => k0_hw64.2.2

def k0_off124 (i : grid0.Coords) (v1065 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_724 : BitVec 32 := 48#32
  let v1068 : BitVec 32 := Scalar.addi v2 c48_i32_724
  let c8_i32_725 : BitVec 32 := 8#32
  let v1069 : BitVec 32 := Scalar.addi v1068 c8_i32_725
  let c_m128_i32_723 : BitVec 32 := 4294967168#32
  let v1066 : BitVec 32 := Scalar.andi v1065 c_m128_i32_723
  let v1067 : BitVec 32 := v1066
  ![v1069.toNat, v1067.toNat]

def k0_chk65 (i : grid0.Coords) (v1065 : BitVec 32) : Prop :=
  (128 ∣ (k0_mult62 v1065).toNat) ∧
  (∀ a, (k0_off108 i v1065) a + S8x128.size a ≤ S4096x32000.size a) ∧
  (∀ a, (k0_off124 i v1065) a + S8x128.size a ≤ S4096x32000.size a)
instance k0_chk65.dec : ∀ (i : grid0.Coords) (v1065 : BitVec 32), Decidable (k0_chk65 i v1065) := fun i v1065 => decidable_of_iff' _ (Iff.of_eq (k0_chk65.eq_1 i v1065))
theorem k0_mult62_dvd : ∀ (i : grid0.Coords) (v1065 : BitVec 32) (k0_hw65 : k0_chk65 i v1065), 128 ∣ (k0_mult62 v1065).toNat := fun i v1065 k0_hw65 => k0_hw65.1
theorem k0_off108_inb : ∀ (i : grid0.Coords) (v1065 : BitVec 32) (k0_hw65 : k0_chk65 i v1065), ∀ a, (k0_off108 i v1065) a + S8x128.size a ≤ S4096x32000.size a := fun i v1065 k0_hw65 => k0_hw65.2.1
theorem k0_off124_inb : ∀ (i : grid0.Coords) (v1065 : BitVec 32) (k0_hw65 : k0_chk65 i v1065), ∀ a, (k0_off124 i v1065) a + S8x128.size a ≤ S4096x32000.size a := fun i v1065 k0_hw65 => k0_hw65.2.2

def k0_off125 (i : grid0.Coords) (v1077 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_732 : BitVec 32 := 48#32
  let v1080 : BitVec 32 := Scalar.addi v2 c48_i32_732
  let c8_i32_733 : BitVec 32 := 8#32
  let v1081 : BitVec 32 := Scalar.addi v1080 c8_i32_733
  let c_m128_i32_731 : BitVec 32 := 4294967168#32
  let v1078 : BitVec 32 := Scalar.andi v1077 c_m128_i32_731
  let v1079 : BitVec 32 := v1078
  ![v1081.toNat, v1079.toNat]

def k0_chk66 (i : grid0.Coords) (v1077 : BitVec 32) : Prop :=
  (128 ∣ (k0_mult63 v1077).toNat) ∧
  (∀ a, (k0_off109 i v1077) a + S8x128.size a ≤ S4096x32000.size a) ∧
  (∀ a, (k0_off125 i v1077) a + S8x128.size a ≤ S4096x32000.size a)
instance k0_chk66.dec : ∀ (i : grid0.Coords) (v1077 : BitVec 32), Decidable (k0_chk66 i v1077) := fun i v1077 => decidable_of_iff' _ (Iff.of_eq (k0_chk66.eq_1 i v1077))
theorem k0_mult63_dvd : ∀ (i : grid0.Coords) (v1077 : BitVec 32) (k0_hw66 : k0_chk66 i v1077), 128 ∣ (k0_mult63 v1077).toNat := fun i v1077 k0_hw66 => k0_hw66.1
theorem k0_off109_inb : ∀ (i : grid0.Coords) (v1077 : BitVec 32) (k0_hw66 : k0_chk66 i v1077), ∀ a, (k0_off109 i v1077) a + S8x128.size a ≤ S4096x32000.size a := fun i v1077 k0_hw66 => k0_hw66.2.1
theorem k0_off125_inb : ∀ (i : grid0.Coords) (v1077 : BitVec 32) (k0_hw66 : k0_chk66 i v1077), ∀ a, (k0_off125 i v1077) a + S8x128.size a ≤ S4096x32000.size a := fun i v1077 k0_hw66 => k0_hw66.2.2

def k0_chk68 (v1197 : IVec S16 32) (v1199 : IVec S16 32) (v1201 : IVec S16 32) : Prop :=
  (∀ a x, ((![v1197, v1199, v1201] : Fin 3 → IVec S16 32) a x).toNat < S16x8x128.size a)
instance k0_chk68.dec : ∀ (v1197 : IVec S16 32) (v1199 : IVec S16 32) (v1201 : IVec S16 32), Decidable (k0_chk68 v1197 v1199 v1201) := fun v1197 v1199 v1201 => decidable_of_iff' _ (Iff.of_eq (k0_chk68.eq_1 v1197 v1199 v1201))
theorem k0_idx4_inb : ∀ (v1197 : IVec S16 32) (v1199 : IVec S16 32) (v1201 : IVec S16 32) (k0_hw68 : k0_chk68 v1197 v1199 v1201), ∀ a x, ((![v1197, v1199, v1201] : Fin 3 → IVec S16 32) a x).toNat < S16x8x128.size a := fun v1197 v1199 v1201 k0_hw68 => k0_hw68
def k0_mult65 (v1210 : BitVec 32) : BitVec 32 :=
  let c_m128_i32_832 : BitVec 32 := 4294967168#32
  let v1211 : BitVec 32 := Scalar.andi v1210 c_m128_i32_832
  v1211

def k0_off126 (i : grid0.Coords) (v1210 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v1213 : BitVec 32 := Scalar.addi v2 c64_i32
  let c0_i32_833 : BitVec 32 := 0#32
  let v1214 : BitVec 32 := Scalar.addi v1213 c0_i32_833
  let c_m128_i32_832 : BitVec 32 := 4294967168#32
  let v1211 : BitVec 32 := Scalar.andi v1210 c_m128_i32_832
  let v1212 : BitVec 32 := v1211
  ![v1214.toNat, v1212.toNat]
def k0_mult66 (v1222 : BitVec 32) : BitVec 32 :=
  let c_m128_i32_839 : BitVec 32 := 4294967168#32
  let v1223 : BitVec 32 := Scalar.andi v1222 c_m128_i32_839
  v1223

def k0_off127 (i : grid0.Coords) (v1222 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_840 : BitVec 32 := 64#32
  let v1225 : BitVec 32 := Scalar.addi v2 c64_i32_840
  let c0_i32_841 : BitVec 32 := 0#32
  let v1226 : BitVec 32 := Scalar.addi v1225 c0_i32_841
  let c_m128_i32_839 : BitVec 32 := 4294967168#32
  let v1223 : BitVec 32 := Scalar.andi v1222 c_m128_i32_839
  let v1224 : BitVec 32 := v1223
  ![v1226.toNat, v1224.toNat]
def k0_mult67 (v1234 : BitVec 32) : BitVec 32 :=
  let c_m128_i32_847 : BitVec 32 := 4294967168#32
  let v1235 : BitVec 32 := Scalar.andi v1234 c_m128_i32_847
  v1235

def k0_off128 (i : grid0.Coords) (v1234 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_848 : BitVec 32 := 64#32
  let v1237 : BitVec 32 := Scalar.addi v2 c64_i32_848
  let c0_i32_849 : BitVec 32 := 0#32
  let v1238 : BitVec 32 := Scalar.addi v1237 c0_i32_849
  let c_m128_i32_847 : BitVec 32 := 4294967168#32
  let v1235 : BitVec 32 := Scalar.andi v1234 c_m128_i32_847
  let v1236 : BitVec 32 := v1235
  ![v1238.toNat, v1236.toNat]
def k0_mult68 (v1246 : BitVec 32) : BitVec 32 :=
  let c_m128_i32_855 : BitVec 32 := 4294967168#32
  let v1247 : BitVec 32 := Scalar.andi v1246 c_m128_i32_855
  v1247

def k0_off129 (i : grid0.Coords) (v1246 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_856 : BitVec 32 := 64#32
  let v1249 : BitVec 32 := Scalar.addi v2 c64_i32_856
  let c0_i32_857 : BitVec 32 := 0#32
  let v1250 : BitVec 32 := Scalar.addi v1249 c0_i32_857
  let c_m128_i32_855 : BitVec 32 := 4294967168#32
  let v1247 : BitVec 32 := Scalar.andi v1246 c_m128_i32_855
  let v1248 : BitVec 32 := v1247
  ![v1250.toNat, v1248.toNat]
def k0_mult69 (v1258 : BitVec 32) : BitVec 32 :=
  let c_m128_i32_863 : BitVec 32 := 4294967168#32
  let v1259 : BitVec 32 := Scalar.andi v1258 c_m128_i32_863
  v1259

def k0_off130 (i : grid0.Coords) (v1258 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_864 : BitVec 32 := 64#32
  let v1261 : BitVec 32 := Scalar.addi v2 c64_i32_864
  let c0_i32_865 : BitVec 32 := 0#32
  let v1262 : BitVec 32 := Scalar.addi v1261 c0_i32_865
  let c_m128_i32_863 : BitVec 32 := 4294967168#32
  let v1259 : BitVec 32 := Scalar.andi v1258 c_m128_i32_863
  let v1260 : BitVec 32 := v1259
  ![v1262.toNat, v1260.toNat]
def k0_mult70 (v1270 : BitVec 32) : BitVec 32 :=
  let c_m128_i32_871 : BitVec 32 := 4294967168#32
  let v1271 : BitVec 32 := Scalar.andi v1270 c_m128_i32_871
  v1271

def k0_off131 (i : grid0.Coords) (v1270 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_872 : BitVec 32 := 64#32
  let v1273 : BitVec 32 := Scalar.addi v2 c64_i32_872
  let c0_i32_873 : BitVec 32 := 0#32
  let v1274 : BitVec 32 := Scalar.addi v1273 c0_i32_873
  let c_m128_i32_871 : BitVec 32 := 4294967168#32
  let v1271 : BitVec 32 := Scalar.andi v1270 c_m128_i32_871
  let v1272 : BitVec 32 := v1271
  ![v1274.toNat, v1272.toNat]
def k0_mult71 (v1282 : BitVec 32) : BitVec 32 :=
  let c_m128_i32_879 : BitVec 32 := 4294967168#32
  let v1283 : BitVec 32 := Scalar.andi v1282 c_m128_i32_879
  v1283

def k0_off132 (i : grid0.Coords) (v1282 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_880 : BitVec 32 := 64#32
  let v1285 : BitVec 32 := Scalar.addi v2 c64_i32_880
  let c0_i32_881 : BitVec 32 := 0#32
  let v1286 : BitVec 32 := Scalar.addi v1285 c0_i32_881
  let c_m128_i32_879 : BitVec 32 := 4294967168#32
  let v1283 : BitVec 32 := Scalar.andi v1282 c_m128_i32_879
  let v1284 : BitVec 32 := v1283
  ![v1286.toNat, v1284.toNat]
def k0_mult72 (v1294 : BitVec 32) : BitVec 32 :=
  let c_m128_i32_887 : BitVec 32 := 4294967168#32
  let v1295 : BitVec 32 := Scalar.andi v1294 c_m128_i32_887
  v1295

def k0_off133 (i : grid0.Coords) (v1294 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_888 : BitVec 32 := 64#32
  let v1297 : BitVec 32 := Scalar.addi v2 c64_i32_888
  let c0_i32_889 : BitVec 32 := 0#32
  let v1298 : BitVec 32 := Scalar.addi v1297 c0_i32_889
  let c_m128_i32_887 : BitVec 32 := 4294967168#32
  let v1295 : BitVec 32 := Scalar.andi v1294 c_m128_i32_887
  let v1296 : BitVec 32 := v1295
  ![v1298.toNat, v1296.toNat]
def k0_mult73 (v1306 : BitVec 32) : BitVec 32 :=
  let c_m128_i32_895 : BitVec 32 := 4294967168#32
  let v1307 : BitVec 32 := Scalar.andi v1306 c_m128_i32_895
  v1307

def k0_off134 (i : grid0.Coords) (v1306 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_896 : BitVec 32 := 64#32
  let v1309 : BitVec 32 := Scalar.addi v2 c64_i32_896
  let c8_i32_897 : BitVec 32 := 8#32
  let v1310 : BitVec 32 := Scalar.addi v1309 c8_i32_897
  let c_m128_i32_895 : BitVec 32 := 4294967168#32
  let v1307 : BitVec 32 := Scalar.andi v1306 c_m128_i32_895
  let v1308 : BitVec 32 := v1307
  ![v1310.toNat, v1308.toNat]
def k0_mult74 (v1318 : BitVec 32) : BitVec 32 :=
  let c_m128_i32_903 : BitVec 32 := 4294967168#32
  let v1319 : BitVec 32 := Scalar.andi v1318 c_m128_i32_903
  v1319

def k0_off135 (i : grid0.Coords) (v1318 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_904 : BitVec 32 := 64#32
  let v1321 : BitVec 32 := Scalar.addi v2 c64_i32_904
  let c8_i32_905 : BitVec 32 := 8#32
  let v1322 : BitVec 32 := Scalar.addi v1321 c8_i32_905
  let c_m128_i32_903 : BitVec 32 := 4294967168#32
  let v1319 : BitVec 32 := Scalar.andi v1318 c_m128_i32_903
  let v1320 : BitVec 32 := v1319
  ![v1322.toNat, v1320.toNat]
def k0_mult75 (v1330 : BitVec 32) : BitVec 32 :=
  let c_m128_i32_911 : BitVec 32 := 4294967168#32
  let v1331 : BitVec 32 := Scalar.andi v1330 c_m128_i32_911
  v1331

def k0_off136 (i : grid0.Coords) (v1330 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_912 : BitVec 32 := 64#32
  let v1333 : BitVec 32 := Scalar.addi v2 c64_i32_912
  let c8_i32_913 : BitVec 32 := 8#32
  let v1334 : BitVec 32 := Scalar.addi v1333 c8_i32_913
  let c_m128_i32_911 : BitVec 32 := 4294967168#32
  let v1331 : BitVec 32 := Scalar.andi v1330 c_m128_i32_911
  let v1332 : BitVec 32 := v1331
  ![v1334.toNat, v1332.toNat]
def k0_mult76 (v1342 : BitVec 32) : BitVec 32 :=
  let c_m128_i32_919 : BitVec 32 := 4294967168#32
  let v1343 : BitVec 32 := Scalar.andi v1342 c_m128_i32_919
  v1343

def k0_off137 (i : grid0.Coords) (v1342 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_920 : BitVec 32 := 64#32
  let v1345 : BitVec 32 := Scalar.addi v2 c64_i32_920
  let c8_i32_921 : BitVec 32 := 8#32
  let v1346 : BitVec 32 := Scalar.addi v1345 c8_i32_921
  let c_m128_i32_919 : BitVec 32 := 4294967168#32
  let v1343 : BitVec 32 := Scalar.andi v1342 c_m128_i32_919
  let v1344 : BitVec 32 := v1343
  ![v1346.toNat, v1344.toNat]
def k0_mult77 (v1354 : BitVec 32) : BitVec 32 :=
  let c_m128_i32_927 : BitVec 32 := 4294967168#32
  let v1355 : BitVec 32 := Scalar.andi v1354 c_m128_i32_927
  v1355

def k0_off138 (i : grid0.Coords) (v1354 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_928 : BitVec 32 := 64#32
  let v1357 : BitVec 32 := Scalar.addi v2 c64_i32_928
  let c8_i32_929 : BitVec 32 := 8#32
  let v1358 : BitVec 32 := Scalar.addi v1357 c8_i32_929
  let c_m128_i32_927 : BitVec 32 := 4294967168#32
  let v1355 : BitVec 32 := Scalar.andi v1354 c_m128_i32_927
  let v1356 : BitVec 32 := v1355
  ![v1358.toNat, v1356.toNat]
def k0_mult78 (v1366 : BitVec 32) : BitVec 32 :=
  let c_m128_i32_935 : BitVec 32 := 4294967168#32
  let v1367 : BitVec 32 := Scalar.andi v1366 c_m128_i32_935
  v1367

def k0_off139 (i : grid0.Coords) (v1366 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_936 : BitVec 32 := 64#32
  let v1369 : BitVec 32 := Scalar.addi v2 c64_i32_936
  let c8_i32_937 : BitVec 32 := 8#32
  let v1370 : BitVec 32 := Scalar.addi v1369 c8_i32_937
  let c_m128_i32_935 : BitVec 32 := 4294967168#32
  let v1367 : BitVec 32 := Scalar.andi v1366 c_m128_i32_935
  let v1368 : BitVec 32 := v1367
  ![v1370.toNat, v1368.toNat]
def k0_mult79 (v1378 : BitVec 32) : BitVec 32 :=
  let c_m128_i32_943 : BitVec 32 := 4294967168#32
  let v1379 : BitVec 32 := Scalar.andi v1378 c_m128_i32_943
  v1379

def k0_off140 (i : grid0.Coords) (v1378 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_944 : BitVec 32 := 64#32
  let v1381 : BitVec 32 := Scalar.addi v2 c64_i32_944
  let c8_i32_945 : BitVec 32 := 8#32
  let v1382 : BitVec 32 := Scalar.addi v1381 c8_i32_945
  let c_m128_i32_943 : BitVec 32 := 4294967168#32
  let v1379 : BitVec 32 := Scalar.andi v1378 c_m128_i32_943
  let v1380 : BitVec 32 := v1379
  ![v1382.toNat, v1380.toNat]
def k0_mult80 (v1390 : BitVec 32) : BitVec 32 :=
  let c_m128_i32_951 : BitVec 32 := 4294967168#32
  let v1391 : BitVec 32 := Scalar.andi v1390 c_m128_i32_951
  v1391

def k0_off141 (i : grid0.Coords) (v1390 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_952 : BitVec 32 := 64#32
  let v1393 : BitVec 32 := Scalar.addi v2 c64_i32_952
  let c8_i32_953 : BitVec 32 := 8#32
  let v1394 : BitVec 32 := Scalar.addi v1393 c8_i32_953
  let c_m128_i32_951 : BitVec 32 := 4294967168#32
  let v1391 : BitVec 32 := Scalar.andi v1390 c_m128_i32_951
  let v1392 : BitVec 32 := v1391
  ![v1394.toNat, v1392.toNat]

def k0_chk84 (i : grid0.Coords) (v1390 : BitVec 32) : Prop :=
  (128 ∣ (k0_mult80 v1390).toNat) ∧
  (∀ a, (k0_off141 i v1390) a + S8x128.size a ≤ S4096x32000.size a)
instance k0_chk84.dec : ∀ (i : grid0.Coords) (v1390 : BitVec 32), Decidable (k0_chk84 i v1390) := fun i v1390 => decidable_of_iff' _ (Iff.of_eq (k0_chk84.eq_1 i v1390))
theorem k0_mult80_dvd : ∀ (i : grid0.Coords) (v1390 : BitVec 32) (k0_hw84 : k0_chk84 i v1390), 128 ∣ (k0_mult80 v1390).toNat := fun i v1390 k0_hw84 => k0_hw84.1
theorem k0_off141_inb : ∀ (i : grid0.Coords) (v1390 : BitVec 32) (k0_hw84 : k0_chk84 i v1390), ∀ a, (k0_off141 i v1390) a + S8x128.size a ≤ S4096x32000.size a := fun i v1390 k0_hw84 => k0_hw84.2

def k0_off142 (i : grid0.Coords) (v1210 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v1213 : BitVec 32 := Scalar.addi v2 c64_i32
  let c0_i32_833 : BitVec 32 := 0#32
  let v1214 : BitVec 32 := Scalar.addi v1213 c0_i32_833
  let c_m128_i32_832 : BitVec 32 := 4294967168#32
  let v1211 : BitVec 32 := Scalar.andi v1210 c_m128_i32_832
  let v1212 : BitVec 32 := v1211
  ![v1214.toNat, v1212.toNat]

def k0_chk69 (i : grid0.Coords) (v1210 : BitVec 32) : Prop :=
  (128 ∣ (k0_mult65 v1210).toNat) ∧
  (∀ a, (k0_off126 i v1210) a + S8x128.size a ≤ S4096x32000.size a) ∧
  (∀ a, (k0_off142 i v1210) a + S8x128.size a ≤ S4096x32000.size a)
instance k0_chk69.dec : ∀ (i : grid0.Coords) (v1210 : BitVec 32), Decidable (k0_chk69 i v1210) := fun i v1210 => decidable_of_iff' _ (Iff.of_eq (k0_chk69.eq_1 i v1210))
theorem k0_mult65_dvd : ∀ (i : grid0.Coords) (v1210 : BitVec 32) (k0_hw69 : k0_chk69 i v1210), 128 ∣ (k0_mult65 v1210).toNat := fun i v1210 k0_hw69 => k0_hw69.1
theorem k0_off126_inb : ∀ (i : grid0.Coords) (v1210 : BitVec 32) (k0_hw69 : k0_chk69 i v1210), ∀ a, (k0_off126 i v1210) a + S8x128.size a ≤ S4096x32000.size a := fun i v1210 k0_hw69 => k0_hw69.2.1
theorem k0_off142_inb : ∀ (i : grid0.Coords) (v1210 : BitVec 32) (k0_hw69 : k0_chk69 i v1210), ∀ a, (k0_off142 i v1210) a + S8x128.size a ≤ S4096x32000.size a := fun i v1210 k0_hw69 => k0_hw69.2.2

def k0_off143 (i : grid0.Coords) (v1222 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_840 : BitVec 32 := 64#32
  let v1225 : BitVec 32 := Scalar.addi v2 c64_i32_840
  let c0_i32_841 : BitVec 32 := 0#32
  let v1226 : BitVec 32 := Scalar.addi v1225 c0_i32_841
  let c_m128_i32_839 : BitVec 32 := 4294967168#32
  let v1223 : BitVec 32 := Scalar.andi v1222 c_m128_i32_839
  let v1224 : BitVec 32 := v1223
  ![v1226.toNat, v1224.toNat]

def k0_chk70 (i : grid0.Coords) (v1222 : BitVec 32) : Prop :=
  (128 ∣ (k0_mult66 v1222).toNat) ∧
  (∀ a, (k0_off127 i v1222) a + S8x128.size a ≤ S4096x32000.size a) ∧
  (∀ a, (k0_off143 i v1222) a + S8x128.size a ≤ S4096x32000.size a)
instance k0_chk70.dec : ∀ (i : grid0.Coords) (v1222 : BitVec 32), Decidable (k0_chk70 i v1222) := fun i v1222 => decidable_of_iff' _ (Iff.of_eq (k0_chk70.eq_1 i v1222))
theorem k0_mult66_dvd : ∀ (i : grid0.Coords) (v1222 : BitVec 32) (k0_hw70 : k0_chk70 i v1222), 128 ∣ (k0_mult66 v1222).toNat := fun i v1222 k0_hw70 => k0_hw70.1
theorem k0_off127_inb : ∀ (i : grid0.Coords) (v1222 : BitVec 32) (k0_hw70 : k0_chk70 i v1222), ∀ a, (k0_off127 i v1222) a + S8x128.size a ≤ S4096x32000.size a := fun i v1222 k0_hw70 => k0_hw70.2.1
theorem k0_off143_inb : ∀ (i : grid0.Coords) (v1222 : BitVec 32) (k0_hw70 : k0_chk70 i v1222), ∀ a, (k0_off143 i v1222) a + S8x128.size a ≤ S4096x32000.size a := fun i v1222 k0_hw70 => k0_hw70.2.2

def k0_off144 (i : grid0.Coords) (v1234 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_848 : BitVec 32 := 64#32
  let v1237 : BitVec 32 := Scalar.addi v2 c64_i32_848
  let c0_i32_849 : BitVec 32 := 0#32
  let v1238 : BitVec 32 := Scalar.addi v1237 c0_i32_849
  let c_m128_i32_847 : BitVec 32 := 4294967168#32
  let v1235 : BitVec 32 := Scalar.andi v1234 c_m128_i32_847
  let v1236 : BitVec 32 := v1235
  ![v1238.toNat, v1236.toNat]

def k0_chk71 (i : grid0.Coords) (v1234 : BitVec 32) : Prop :=
  (128 ∣ (k0_mult67 v1234).toNat) ∧
  (∀ a, (k0_off128 i v1234) a + S8x128.size a ≤ S4096x32000.size a) ∧
  (∀ a, (k0_off144 i v1234) a + S8x128.size a ≤ S4096x32000.size a)
instance k0_chk71.dec : ∀ (i : grid0.Coords) (v1234 : BitVec 32), Decidable (k0_chk71 i v1234) := fun i v1234 => decidable_of_iff' _ (Iff.of_eq (k0_chk71.eq_1 i v1234))
theorem k0_mult67_dvd : ∀ (i : grid0.Coords) (v1234 : BitVec 32) (k0_hw71 : k0_chk71 i v1234), 128 ∣ (k0_mult67 v1234).toNat := fun i v1234 k0_hw71 => k0_hw71.1
theorem k0_off128_inb : ∀ (i : grid0.Coords) (v1234 : BitVec 32) (k0_hw71 : k0_chk71 i v1234), ∀ a, (k0_off128 i v1234) a + S8x128.size a ≤ S4096x32000.size a := fun i v1234 k0_hw71 => k0_hw71.2.1
theorem k0_off144_inb : ∀ (i : grid0.Coords) (v1234 : BitVec 32) (k0_hw71 : k0_chk71 i v1234), ∀ a, (k0_off144 i v1234) a + S8x128.size a ≤ S4096x32000.size a := fun i v1234 k0_hw71 => k0_hw71.2.2

def k0_off145 (i : grid0.Coords) (v1246 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_856 : BitVec 32 := 64#32
  let v1249 : BitVec 32 := Scalar.addi v2 c64_i32_856
  let c0_i32_857 : BitVec 32 := 0#32
  let v1250 : BitVec 32 := Scalar.addi v1249 c0_i32_857
  let c_m128_i32_855 : BitVec 32 := 4294967168#32
  let v1247 : BitVec 32 := Scalar.andi v1246 c_m128_i32_855
  let v1248 : BitVec 32 := v1247
  ![v1250.toNat, v1248.toNat]

def k0_chk72 (i : grid0.Coords) (v1246 : BitVec 32) : Prop :=
  (128 ∣ (k0_mult68 v1246).toNat) ∧
  (∀ a, (k0_off129 i v1246) a + S8x128.size a ≤ S4096x32000.size a) ∧
  (∀ a, (k0_off145 i v1246) a + S8x128.size a ≤ S4096x32000.size a)
instance k0_chk72.dec : ∀ (i : grid0.Coords) (v1246 : BitVec 32), Decidable (k0_chk72 i v1246) := fun i v1246 => decidable_of_iff' _ (Iff.of_eq (k0_chk72.eq_1 i v1246))
theorem k0_mult68_dvd : ∀ (i : grid0.Coords) (v1246 : BitVec 32) (k0_hw72 : k0_chk72 i v1246), 128 ∣ (k0_mult68 v1246).toNat := fun i v1246 k0_hw72 => k0_hw72.1
theorem k0_off129_inb : ∀ (i : grid0.Coords) (v1246 : BitVec 32) (k0_hw72 : k0_chk72 i v1246), ∀ a, (k0_off129 i v1246) a + S8x128.size a ≤ S4096x32000.size a := fun i v1246 k0_hw72 => k0_hw72.2.1
theorem k0_off145_inb : ∀ (i : grid0.Coords) (v1246 : BitVec 32) (k0_hw72 : k0_chk72 i v1246), ∀ a, (k0_off145 i v1246) a + S8x128.size a ≤ S4096x32000.size a := fun i v1246 k0_hw72 => k0_hw72.2.2

def k0_off146 (i : grid0.Coords) (v1258 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_864 : BitVec 32 := 64#32
  let v1261 : BitVec 32 := Scalar.addi v2 c64_i32_864
  let c0_i32_865 : BitVec 32 := 0#32
  let v1262 : BitVec 32 := Scalar.addi v1261 c0_i32_865
  let c_m128_i32_863 : BitVec 32 := 4294967168#32
  let v1259 : BitVec 32 := Scalar.andi v1258 c_m128_i32_863
  let v1260 : BitVec 32 := v1259
  ![v1262.toNat, v1260.toNat]

def k0_chk73 (i : grid0.Coords) (v1258 : BitVec 32) : Prop :=
  (128 ∣ (k0_mult69 v1258).toNat) ∧
  (∀ a, (k0_off130 i v1258) a + S8x128.size a ≤ S4096x32000.size a) ∧
  (∀ a, (k0_off146 i v1258) a + S8x128.size a ≤ S4096x32000.size a)
instance k0_chk73.dec : ∀ (i : grid0.Coords) (v1258 : BitVec 32), Decidable (k0_chk73 i v1258) := fun i v1258 => decidable_of_iff' _ (Iff.of_eq (k0_chk73.eq_1 i v1258))
theorem k0_mult69_dvd : ∀ (i : grid0.Coords) (v1258 : BitVec 32) (k0_hw73 : k0_chk73 i v1258), 128 ∣ (k0_mult69 v1258).toNat := fun i v1258 k0_hw73 => k0_hw73.1
theorem k0_off130_inb : ∀ (i : grid0.Coords) (v1258 : BitVec 32) (k0_hw73 : k0_chk73 i v1258), ∀ a, (k0_off130 i v1258) a + S8x128.size a ≤ S4096x32000.size a := fun i v1258 k0_hw73 => k0_hw73.2.1
theorem k0_off146_inb : ∀ (i : grid0.Coords) (v1258 : BitVec 32) (k0_hw73 : k0_chk73 i v1258), ∀ a, (k0_off146 i v1258) a + S8x128.size a ≤ S4096x32000.size a := fun i v1258 k0_hw73 => k0_hw73.2.2

def k0_off147 (i : grid0.Coords) (v1270 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_872 : BitVec 32 := 64#32
  let v1273 : BitVec 32 := Scalar.addi v2 c64_i32_872
  let c0_i32_873 : BitVec 32 := 0#32
  let v1274 : BitVec 32 := Scalar.addi v1273 c0_i32_873
  let c_m128_i32_871 : BitVec 32 := 4294967168#32
  let v1271 : BitVec 32 := Scalar.andi v1270 c_m128_i32_871
  let v1272 : BitVec 32 := v1271
  ![v1274.toNat, v1272.toNat]

def k0_chk74 (i : grid0.Coords) (v1270 : BitVec 32) : Prop :=
  (128 ∣ (k0_mult70 v1270).toNat) ∧
  (∀ a, (k0_off131 i v1270) a + S8x128.size a ≤ S4096x32000.size a) ∧
  (∀ a, (k0_off147 i v1270) a + S8x128.size a ≤ S4096x32000.size a)
instance k0_chk74.dec : ∀ (i : grid0.Coords) (v1270 : BitVec 32), Decidable (k0_chk74 i v1270) := fun i v1270 => decidable_of_iff' _ (Iff.of_eq (k0_chk74.eq_1 i v1270))
theorem k0_mult70_dvd : ∀ (i : grid0.Coords) (v1270 : BitVec 32) (k0_hw74 : k0_chk74 i v1270), 128 ∣ (k0_mult70 v1270).toNat := fun i v1270 k0_hw74 => k0_hw74.1
theorem k0_off131_inb : ∀ (i : grid0.Coords) (v1270 : BitVec 32) (k0_hw74 : k0_chk74 i v1270), ∀ a, (k0_off131 i v1270) a + S8x128.size a ≤ S4096x32000.size a := fun i v1270 k0_hw74 => k0_hw74.2.1
theorem k0_off147_inb : ∀ (i : grid0.Coords) (v1270 : BitVec 32) (k0_hw74 : k0_chk74 i v1270), ∀ a, (k0_off147 i v1270) a + S8x128.size a ≤ S4096x32000.size a := fun i v1270 k0_hw74 => k0_hw74.2.2

def k0_off148 (i : grid0.Coords) (v1282 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_880 : BitVec 32 := 64#32
  let v1285 : BitVec 32 := Scalar.addi v2 c64_i32_880
  let c0_i32_881 : BitVec 32 := 0#32
  let v1286 : BitVec 32 := Scalar.addi v1285 c0_i32_881
  let c_m128_i32_879 : BitVec 32 := 4294967168#32
  let v1283 : BitVec 32 := Scalar.andi v1282 c_m128_i32_879
  let v1284 : BitVec 32 := v1283
  ![v1286.toNat, v1284.toNat]

def k0_chk75 (i : grid0.Coords) (v1282 : BitVec 32) : Prop :=
  (128 ∣ (k0_mult71 v1282).toNat) ∧
  (∀ a, (k0_off132 i v1282) a + S8x128.size a ≤ S4096x32000.size a) ∧
  (∀ a, (k0_off148 i v1282) a + S8x128.size a ≤ S4096x32000.size a)
instance k0_chk75.dec : ∀ (i : grid0.Coords) (v1282 : BitVec 32), Decidable (k0_chk75 i v1282) := fun i v1282 => decidable_of_iff' _ (Iff.of_eq (k0_chk75.eq_1 i v1282))
theorem k0_mult71_dvd : ∀ (i : grid0.Coords) (v1282 : BitVec 32) (k0_hw75 : k0_chk75 i v1282), 128 ∣ (k0_mult71 v1282).toNat := fun i v1282 k0_hw75 => k0_hw75.1
theorem k0_off132_inb : ∀ (i : grid0.Coords) (v1282 : BitVec 32) (k0_hw75 : k0_chk75 i v1282), ∀ a, (k0_off132 i v1282) a + S8x128.size a ≤ S4096x32000.size a := fun i v1282 k0_hw75 => k0_hw75.2.1
theorem k0_off148_inb : ∀ (i : grid0.Coords) (v1282 : BitVec 32) (k0_hw75 : k0_chk75 i v1282), ∀ a, (k0_off148 i v1282) a + S8x128.size a ≤ S4096x32000.size a := fun i v1282 k0_hw75 => k0_hw75.2.2

def k0_off149 (i : grid0.Coords) (v1294 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_888 : BitVec 32 := 64#32
  let v1297 : BitVec 32 := Scalar.addi v2 c64_i32_888
  let c0_i32_889 : BitVec 32 := 0#32
  let v1298 : BitVec 32 := Scalar.addi v1297 c0_i32_889
  let c_m128_i32_887 : BitVec 32 := 4294967168#32
  let v1295 : BitVec 32 := Scalar.andi v1294 c_m128_i32_887
  let v1296 : BitVec 32 := v1295
  ![v1298.toNat, v1296.toNat]

def k0_chk76 (i : grid0.Coords) (v1294 : BitVec 32) : Prop :=
  (128 ∣ (k0_mult72 v1294).toNat) ∧
  (∀ a, (k0_off133 i v1294) a + S8x128.size a ≤ S4096x32000.size a) ∧
  (∀ a, (k0_off149 i v1294) a + S8x128.size a ≤ S4096x32000.size a)
instance k0_chk76.dec : ∀ (i : grid0.Coords) (v1294 : BitVec 32), Decidable (k0_chk76 i v1294) := fun i v1294 => decidable_of_iff' _ (Iff.of_eq (k0_chk76.eq_1 i v1294))
theorem k0_mult72_dvd : ∀ (i : grid0.Coords) (v1294 : BitVec 32) (k0_hw76 : k0_chk76 i v1294), 128 ∣ (k0_mult72 v1294).toNat := fun i v1294 k0_hw76 => k0_hw76.1
theorem k0_off133_inb : ∀ (i : grid0.Coords) (v1294 : BitVec 32) (k0_hw76 : k0_chk76 i v1294), ∀ a, (k0_off133 i v1294) a + S8x128.size a ≤ S4096x32000.size a := fun i v1294 k0_hw76 => k0_hw76.2.1
theorem k0_off149_inb : ∀ (i : grid0.Coords) (v1294 : BitVec 32) (k0_hw76 : k0_chk76 i v1294), ∀ a, (k0_off149 i v1294) a + S8x128.size a ≤ S4096x32000.size a := fun i v1294 k0_hw76 => k0_hw76.2.2

def k0_off150 (i : grid0.Coords) (v1306 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_896 : BitVec 32 := 64#32
  let v1309 : BitVec 32 := Scalar.addi v2 c64_i32_896
  let c8_i32_897 : BitVec 32 := 8#32
  let v1310 : BitVec 32 := Scalar.addi v1309 c8_i32_897
  let c_m128_i32_895 : BitVec 32 := 4294967168#32
  let v1307 : BitVec 32 := Scalar.andi v1306 c_m128_i32_895
  let v1308 : BitVec 32 := v1307
  ![v1310.toNat, v1308.toNat]

def k0_chk77 (i : grid0.Coords) (v1306 : BitVec 32) : Prop :=
  (128 ∣ (k0_mult73 v1306).toNat) ∧
  (∀ a, (k0_off134 i v1306) a + S8x128.size a ≤ S4096x32000.size a) ∧
  (∀ a, (k0_off150 i v1306) a + S8x128.size a ≤ S4096x32000.size a)
instance k0_chk77.dec : ∀ (i : grid0.Coords) (v1306 : BitVec 32), Decidable (k0_chk77 i v1306) := fun i v1306 => decidable_of_iff' _ (Iff.of_eq (k0_chk77.eq_1 i v1306))
theorem k0_mult73_dvd : ∀ (i : grid0.Coords) (v1306 : BitVec 32) (k0_hw77 : k0_chk77 i v1306), 128 ∣ (k0_mult73 v1306).toNat := fun i v1306 k0_hw77 => k0_hw77.1
theorem k0_off134_inb : ∀ (i : grid0.Coords) (v1306 : BitVec 32) (k0_hw77 : k0_chk77 i v1306), ∀ a, (k0_off134 i v1306) a + S8x128.size a ≤ S4096x32000.size a := fun i v1306 k0_hw77 => k0_hw77.2.1
theorem k0_off150_inb : ∀ (i : grid0.Coords) (v1306 : BitVec 32) (k0_hw77 : k0_chk77 i v1306), ∀ a, (k0_off150 i v1306) a + S8x128.size a ≤ S4096x32000.size a := fun i v1306 k0_hw77 => k0_hw77.2.2

def k0_off151 (i : grid0.Coords) (v1318 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_904 : BitVec 32 := 64#32
  let v1321 : BitVec 32 := Scalar.addi v2 c64_i32_904
  let c8_i32_905 : BitVec 32 := 8#32
  let v1322 : BitVec 32 := Scalar.addi v1321 c8_i32_905
  let c_m128_i32_903 : BitVec 32 := 4294967168#32
  let v1319 : BitVec 32 := Scalar.andi v1318 c_m128_i32_903
  let v1320 : BitVec 32 := v1319
  ![v1322.toNat, v1320.toNat]

def k0_chk78 (i : grid0.Coords) (v1318 : BitVec 32) : Prop :=
  (128 ∣ (k0_mult74 v1318).toNat) ∧
  (∀ a, (k0_off135 i v1318) a + S8x128.size a ≤ S4096x32000.size a) ∧
  (∀ a, (k0_off151 i v1318) a + S8x128.size a ≤ S4096x32000.size a)
instance k0_chk78.dec : ∀ (i : grid0.Coords) (v1318 : BitVec 32), Decidable (k0_chk78 i v1318) := fun i v1318 => decidable_of_iff' _ (Iff.of_eq (k0_chk78.eq_1 i v1318))
theorem k0_mult74_dvd : ∀ (i : grid0.Coords) (v1318 : BitVec 32) (k0_hw78 : k0_chk78 i v1318), 128 ∣ (k0_mult74 v1318).toNat := fun i v1318 k0_hw78 => k0_hw78.1
theorem k0_off135_inb : ∀ (i : grid0.Coords) (v1318 : BitVec 32) (k0_hw78 : k0_chk78 i v1318), ∀ a, (k0_off135 i v1318) a + S8x128.size a ≤ S4096x32000.size a := fun i v1318 k0_hw78 => k0_hw78.2.1
theorem k0_off151_inb : ∀ (i : grid0.Coords) (v1318 : BitVec 32) (k0_hw78 : k0_chk78 i v1318), ∀ a, (k0_off151 i v1318) a + S8x128.size a ≤ S4096x32000.size a := fun i v1318 k0_hw78 => k0_hw78.2.2

def k0_off152 (i : grid0.Coords) (v1330 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_912 : BitVec 32 := 64#32
  let v1333 : BitVec 32 := Scalar.addi v2 c64_i32_912
  let c8_i32_913 : BitVec 32 := 8#32
  let v1334 : BitVec 32 := Scalar.addi v1333 c8_i32_913
  let c_m128_i32_911 : BitVec 32 := 4294967168#32
  let v1331 : BitVec 32 := Scalar.andi v1330 c_m128_i32_911
  let v1332 : BitVec 32 := v1331
  ![v1334.toNat, v1332.toNat]

def k0_chk79 (i : grid0.Coords) (v1330 : BitVec 32) : Prop :=
  (128 ∣ (k0_mult75 v1330).toNat) ∧
  (∀ a, (k0_off136 i v1330) a + S8x128.size a ≤ S4096x32000.size a) ∧
  (∀ a, (k0_off152 i v1330) a + S8x128.size a ≤ S4096x32000.size a)
instance k0_chk79.dec : ∀ (i : grid0.Coords) (v1330 : BitVec 32), Decidable (k0_chk79 i v1330) := fun i v1330 => decidable_of_iff' _ (Iff.of_eq (k0_chk79.eq_1 i v1330))
theorem k0_mult75_dvd : ∀ (i : grid0.Coords) (v1330 : BitVec 32) (k0_hw79 : k0_chk79 i v1330), 128 ∣ (k0_mult75 v1330).toNat := fun i v1330 k0_hw79 => k0_hw79.1
theorem k0_off136_inb : ∀ (i : grid0.Coords) (v1330 : BitVec 32) (k0_hw79 : k0_chk79 i v1330), ∀ a, (k0_off136 i v1330) a + S8x128.size a ≤ S4096x32000.size a := fun i v1330 k0_hw79 => k0_hw79.2.1
theorem k0_off152_inb : ∀ (i : grid0.Coords) (v1330 : BitVec 32) (k0_hw79 : k0_chk79 i v1330), ∀ a, (k0_off152 i v1330) a + S8x128.size a ≤ S4096x32000.size a := fun i v1330 k0_hw79 => k0_hw79.2.2

def k0_off153 (i : grid0.Coords) (v1342 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_920 : BitVec 32 := 64#32
  let v1345 : BitVec 32 := Scalar.addi v2 c64_i32_920
  let c8_i32_921 : BitVec 32 := 8#32
  let v1346 : BitVec 32 := Scalar.addi v1345 c8_i32_921
  let c_m128_i32_919 : BitVec 32 := 4294967168#32
  let v1343 : BitVec 32 := Scalar.andi v1342 c_m128_i32_919
  let v1344 : BitVec 32 := v1343
  ![v1346.toNat, v1344.toNat]

def k0_chk80 (i : grid0.Coords) (v1342 : BitVec 32) : Prop :=
  (128 ∣ (k0_mult76 v1342).toNat) ∧
  (∀ a, (k0_off137 i v1342) a + S8x128.size a ≤ S4096x32000.size a) ∧
  (∀ a, (k0_off153 i v1342) a + S8x128.size a ≤ S4096x32000.size a)
instance k0_chk80.dec : ∀ (i : grid0.Coords) (v1342 : BitVec 32), Decidable (k0_chk80 i v1342) := fun i v1342 => decidable_of_iff' _ (Iff.of_eq (k0_chk80.eq_1 i v1342))
theorem k0_mult76_dvd : ∀ (i : grid0.Coords) (v1342 : BitVec 32) (k0_hw80 : k0_chk80 i v1342), 128 ∣ (k0_mult76 v1342).toNat := fun i v1342 k0_hw80 => k0_hw80.1
theorem k0_off137_inb : ∀ (i : grid0.Coords) (v1342 : BitVec 32) (k0_hw80 : k0_chk80 i v1342), ∀ a, (k0_off137 i v1342) a + S8x128.size a ≤ S4096x32000.size a := fun i v1342 k0_hw80 => k0_hw80.2.1
theorem k0_off153_inb : ∀ (i : grid0.Coords) (v1342 : BitVec 32) (k0_hw80 : k0_chk80 i v1342), ∀ a, (k0_off153 i v1342) a + S8x128.size a ≤ S4096x32000.size a := fun i v1342 k0_hw80 => k0_hw80.2.2

def k0_off154 (i : grid0.Coords) (v1354 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_928 : BitVec 32 := 64#32
  let v1357 : BitVec 32 := Scalar.addi v2 c64_i32_928
  let c8_i32_929 : BitVec 32 := 8#32
  let v1358 : BitVec 32 := Scalar.addi v1357 c8_i32_929
  let c_m128_i32_927 : BitVec 32 := 4294967168#32
  let v1355 : BitVec 32 := Scalar.andi v1354 c_m128_i32_927
  let v1356 : BitVec 32 := v1355
  ![v1358.toNat, v1356.toNat]

def k0_chk81 (i : grid0.Coords) (v1354 : BitVec 32) : Prop :=
  (128 ∣ (k0_mult77 v1354).toNat) ∧
  (∀ a, (k0_off138 i v1354) a + S8x128.size a ≤ S4096x32000.size a) ∧
  (∀ a, (k0_off154 i v1354) a + S8x128.size a ≤ S4096x32000.size a)
instance k0_chk81.dec : ∀ (i : grid0.Coords) (v1354 : BitVec 32), Decidable (k0_chk81 i v1354) := fun i v1354 => decidable_of_iff' _ (Iff.of_eq (k0_chk81.eq_1 i v1354))
theorem k0_mult77_dvd : ∀ (i : grid0.Coords) (v1354 : BitVec 32) (k0_hw81 : k0_chk81 i v1354), 128 ∣ (k0_mult77 v1354).toNat := fun i v1354 k0_hw81 => k0_hw81.1
theorem k0_off138_inb : ∀ (i : grid0.Coords) (v1354 : BitVec 32) (k0_hw81 : k0_chk81 i v1354), ∀ a, (k0_off138 i v1354) a + S8x128.size a ≤ S4096x32000.size a := fun i v1354 k0_hw81 => k0_hw81.2.1
theorem k0_off154_inb : ∀ (i : grid0.Coords) (v1354 : BitVec 32) (k0_hw81 : k0_chk81 i v1354), ∀ a, (k0_off154 i v1354) a + S8x128.size a ≤ S4096x32000.size a := fun i v1354 k0_hw81 => k0_hw81.2.2

def k0_off155 (i : grid0.Coords) (v1366 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_936 : BitVec 32 := 64#32
  let v1369 : BitVec 32 := Scalar.addi v2 c64_i32_936
  let c8_i32_937 : BitVec 32 := 8#32
  let v1370 : BitVec 32 := Scalar.addi v1369 c8_i32_937
  let c_m128_i32_935 : BitVec 32 := 4294967168#32
  let v1367 : BitVec 32 := Scalar.andi v1366 c_m128_i32_935
  let v1368 : BitVec 32 := v1367
  ![v1370.toNat, v1368.toNat]

def k0_chk82 (i : grid0.Coords) (v1366 : BitVec 32) : Prop :=
  (128 ∣ (k0_mult78 v1366).toNat) ∧
  (∀ a, (k0_off139 i v1366) a + S8x128.size a ≤ S4096x32000.size a) ∧
  (∀ a, (k0_off155 i v1366) a + S8x128.size a ≤ S4096x32000.size a)
instance k0_chk82.dec : ∀ (i : grid0.Coords) (v1366 : BitVec 32), Decidable (k0_chk82 i v1366) := fun i v1366 => decidable_of_iff' _ (Iff.of_eq (k0_chk82.eq_1 i v1366))
theorem k0_mult78_dvd : ∀ (i : grid0.Coords) (v1366 : BitVec 32) (k0_hw82 : k0_chk82 i v1366), 128 ∣ (k0_mult78 v1366).toNat := fun i v1366 k0_hw82 => k0_hw82.1
theorem k0_off139_inb : ∀ (i : grid0.Coords) (v1366 : BitVec 32) (k0_hw82 : k0_chk82 i v1366), ∀ a, (k0_off139 i v1366) a + S8x128.size a ≤ S4096x32000.size a := fun i v1366 k0_hw82 => k0_hw82.2.1
theorem k0_off155_inb : ∀ (i : grid0.Coords) (v1366 : BitVec 32) (k0_hw82 : k0_chk82 i v1366), ∀ a, (k0_off155 i v1366) a + S8x128.size a ≤ S4096x32000.size a := fun i v1366 k0_hw82 => k0_hw82.2.2

def k0_off156 (i : grid0.Coords) (v1378 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_944 : BitVec 32 := 64#32
  let v1381 : BitVec 32 := Scalar.addi v2 c64_i32_944
  let c8_i32_945 : BitVec 32 := 8#32
  let v1382 : BitVec 32 := Scalar.addi v1381 c8_i32_945
  let c_m128_i32_943 : BitVec 32 := 4294967168#32
  let v1379 : BitVec 32 := Scalar.andi v1378 c_m128_i32_943
  let v1380 : BitVec 32 := v1379
  ![v1382.toNat, v1380.toNat]

def k0_chk83 (i : grid0.Coords) (v1378 : BitVec 32) : Prop :=
  (128 ∣ (k0_mult79 v1378).toNat) ∧
  (∀ a, (k0_off140 i v1378) a + S8x128.size a ≤ S4096x32000.size a) ∧
  (∀ a, (k0_off156 i v1378) a + S8x128.size a ≤ S4096x32000.size a)
instance k0_chk83.dec : ∀ (i : grid0.Coords) (v1378 : BitVec 32), Decidable (k0_chk83 i v1378) := fun i v1378 => decidable_of_iff' _ (Iff.of_eq (k0_chk83.eq_1 i v1378))
theorem k0_mult79_dvd : ∀ (i : grid0.Coords) (v1378 : BitVec 32) (k0_hw83 : k0_chk83 i v1378), 128 ∣ (k0_mult79 v1378).toNat := fun i v1378 k0_hw83 => k0_hw83.1
theorem k0_off140_inb : ∀ (i : grid0.Coords) (v1378 : BitVec 32) (k0_hw83 : k0_chk83 i v1378), ∀ a, (k0_off140 i v1378) a + S8x128.size a ≤ S4096x32000.size a := fun i v1378 k0_hw83 => k0_hw83.2.1
theorem k0_off156_inb : ∀ (i : grid0.Coords) (v1378 : BitVec 32) (k0_hw83 : k0_chk83 i v1378), ∀ a, (k0_off156 i v1378) a + S8x128.size a ≤ S4096x32000.size a := fun i v1378 k0_hw83 => k0_hw83.2.2

def k0_chk85 (v1498 : IVec S16 32) (v1500 : IVec S16 32) (v1502 : IVec S16 32) : Prop :=
  (∀ a x, ((![v1498, v1500, v1502] : Fin 3 → IVec S16 32) a x).toNat < S16x8x128.size a)
instance k0_chk85.dec : ∀ (v1498 : IVec S16 32) (v1500 : IVec S16 32) (v1502 : IVec S16 32), Decidable (k0_chk85 v1498 v1500 v1502) := fun v1498 v1500 v1502 => decidable_of_iff' _ (Iff.of_eq (k0_chk85.eq_1 v1498 v1500 v1502))
theorem k0_idx5_inb : ∀ (v1498 : IVec S16 32) (v1500 : IVec S16 32) (v1502 : IVec S16 32) (k0_hw85 : k0_chk85 v1498 v1500 v1502), ∀ a x, ((![v1498, v1500, v1502] : Fin 3 → IVec S16 32) a x).toNat < S16x8x128.size a := fun v1498 v1500 v1502 k0_hw85 => k0_hw85
def k0_mult81 (v1511 : BitVec 32) : BitVec 32 :=
  let c_m128_i32_1044 : BitVec 32 := 4294967168#32
  let v1512 : BitVec 32 := Scalar.andi v1511 c_m128_i32_1044
  v1512

def k0_off157 (i : grid0.Coords) (v1511 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32 : BitVec 32 := 80#32
  let v1514 : BitVec 32 := Scalar.addi v2 c80_i32
  let c0_i32_1045 : BitVec 32 := 0#32
  let v1515 : BitVec 32 := Scalar.addi v1514 c0_i32_1045
  let c_m128_i32_1044 : BitVec 32 := 4294967168#32
  let v1512 : BitVec 32 := Scalar.andi v1511 c_m128_i32_1044
  let v1513 : BitVec 32 := v1512
  ![v1515.toNat, v1513.toNat]
def k0_mult82 (v1523 : BitVec 32) : BitVec 32 :=
  let c_m128_i32_1051 : BitVec 32 := 4294967168#32
  let v1524 : BitVec 32 := Scalar.andi v1523 c_m128_i32_1051
  v1524

def k0_off158 (i : grid0.Coords) (v1523 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1052 : BitVec 32 := 80#32
  let v1526 : BitVec 32 := Scalar.addi v2 c80_i32_1052
  let c0_i32_1053 : BitVec 32 := 0#32
  let v1527 : BitVec 32 := Scalar.addi v1526 c0_i32_1053
  let c_m128_i32_1051 : BitVec 32 := 4294967168#32
  let v1524 : BitVec 32 := Scalar.andi v1523 c_m128_i32_1051
  let v1525 : BitVec 32 := v1524
  ![v1527.toNat, v1525.toNat]
def k0_mult83 (v1535 : BitVec 32) : BitVec 32 :=
  let c_m128_i32_1059 : BitVec 32 := 4294967168#32
  let v1536 : BitVec 32 := Scalar.andi v1535 c_m128_i32_1059
  v1536

def k0_off159 (i : grid0.Coords) (v1535 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1060 : BitVec 32 := 80#32
  let v1538 : BitVec 32 := Scalar.addi v2 c80_i32_1060
  let c0_i32_1061 : BitVec 32 := 0#32
  let v1539 : BitVec 32 := Scalar.addi v1538 c0_i32_1061
  let c_m128_i32_1059 : BitVec 32 := 4294967168#32
  let v1536 : BitVec 32 := Scalar.andi v1535 c_m128_i32_1059
  let v1537 : BitVec 32 := v1536
  ![v1539.toNat, v1537.toNat]
def k0_mult84 (v1547 : BitVec 32) : BitVec 32 :=
  let c_m128_i32_1067 : BitVec 32 := 4294967168#32
  let v1548 : BitVec 32 := Scalar.andi v1547 c_m128_i32_1067
  v1548

def k0_off160 (i : grid0.Coords) (v1547 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1068 : BitVec 32 := 80#32
  let v1550 : BitVec 32 := Scalar.addi v2 c80_i32_1068
  let c0_i32_1069 : BitVec 32 := 0#32
  let v1551 : BitVec 32 := Scalar.addi v1550 c0_i32_1069
  let c_m128_i32_1067 : BitVec 32 := 4294967168#32
  let v1548 : BitVec 32 := Scalar.andi v1547 c_m128_i32_1067
  let v1549 : BitVec 32 := v1548
  ![v1551.toNat, v1549.toNat]
def k0_mult85 (v1559 : BitVec 32) : BitVec 32 :=
  let c_m128_i32_1075 : BitVec 32 := 4294967168#32
  let v1560 : BitVec 32 := Scalar.andi v1559 c_m128_i32_1075
  v1560

def k0_off161 (i : grid0.Coords) (v1559 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1076 : BitVec 32 := 80#32
  let v1562 : BitVec 32 := Scalar.addi v2 c80_i32_1076
  let c0_i32_1077 : BitVec 32 := 0#32
  let v1563 : BitVec 32 := Scalar.addi v1562 c0_i32_1077
  let c_m128_i32_1075 : BitVec 32 := 4294967168#32
  let v1560 : BitVec 32 := Scalar.andi v1559 c_m128_i32_1075
  let v1561 : BitVec 32 := v1560
  ![v1563.toNat, v1561.toNat]
def k0_mult86 (v1571 : BitVec 32) : BitVec 32 :=
  let c_m128_i32_1083 : BitVec 32 := 4294967168#32
  let v1572 : BitVec 32 := Scalar.andi v1571 c_m128_i32_1083
  v1572

def k0_off162 (i : grid0.Coords) (v1571 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1084 : BitVec 32 := 80#32
  let v1574 : BitVec 32 := Scalar.addi v2 c80_i32_1084
  let c0_i32_1085 : BitVec 32 := 0#32
  let v1575 : BitVec 32 := Scalar.addi v1574 c0_i32_1085
  let c_m128_i32_1083 : BitVec 32 := 4294967168#32
  let v1572 : BitVec 32 := Scalar.andi v1571 c_m128_i32_1083
  let v1573 : BitVec 32 := v1572
  ![v1575.toNat, v1573.toNat]
def k0_mult87 (v1583 : BitVec 32) : BitVec 32 :=
  let c_m128_i32_1091 : BitVec 32 := 4294967168#32
  let v1584 : BitVec 32 := Scalar.andi v1583 c_m128_i32_1091
  v1584

def k0_off163 (i : grid0.Coords) (v1583 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1092 : BitVec 32 := 80#32
  let v1586 : BitVec 32 := Scalar.addi v2 c80_i32_1092
  let c0_i32_1093 : BitVec 32 := 0#32
  let v1587 : BitVec 32 := Scalar.addi v1586 c0_i32_1093
  let c_m128_i32_1091 : BitVec 32 := 4294967168#32
  let v1584 : BitVec 32 := Scalar.andi v1583 c_m128_i32_1091
  let v1585 : BitVec 32 := v1584
  ![v1587.toNat, v1585.toNat]
def k0_mult88 (v1595 : BitVec 32) : BitVec 32 :=
  let c_m128_i32_1099 : BitVec 32 := 4294967168#32
  let v1596 : BitVec 32 := Scalar.andi v1595 c_m128_i32_1099
  v1596

def k0_off164 (i : grid0.Coords) (v1595 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1100 : BitVec 32 := 80#32
  let v1598 : BitVec 32 := Scalar.addi v2 c80_i32_1100
  let c0_i32_1101 : BitVec 32 := 0#32
  let v1599 : BitVec 32 := Scalar.addi v1598 c0_i32_1101
  let c_m128_i32_1099 : BitVec 32 := 4294967168#32
  let v1596 : BitVec 32 := Scalar.andi v1595 c_m128_i32_1099
  let v1597 : BitVec 32 := v1596
  ![v1599.toNat, v1597.toNat]
def k0_mult89 (v1607 : BitVec 32) : BitVec 32 :=
  let c_m128_i32_1107 : BitVec 32 := 4294967168#32
  let v1608 : BitVec 32 := Scalar.andi v1607 c_m128_i32_1107
  v1608

def k0_off165 (i : grid0.Coords) (v1607 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1108 : BitVec 32 := 80#32
  let v1610 : BitVec 32 := Scalar.addi v2 c80_i32_1108
  let c8_i32_1109 : BitVec 32 := 8#32
  let v1611 : BitVec 32 := Scalar.addi v1610 c8_i32_1109
  let c_m128_i32_1107 : BitVec 32 := 4294967168#32
  let v1608 : BitVec 32 := Scalar.andi v1607 c_m128_i32_1107
  let v1609 : BitVec 32 := v1608
  ![v1611.toNat, v1609.toNat]
def k0_mult90 (v1619 : BitVec 32) : BitVec 32 :=
  let c_m128_i32_1115 : BitVec 32 := 4294967168#32
  let v1620 : BitVec 32 := Scalar.andi v1619 c_m128_i32_1115
  v1620

def k0_off166 (i : grid0.Coords) (v1619 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1116 : BitVec 32 := 80#32
  let v1622 : BitVec 32 := Scalar.addi v2 c80_i32_1116
  let c8_i32_1117 : BitVec 32 := 8#32
  let v1623 : BitVec 32 := Scalar.addi v1622 c8_i32_1117
  let c_m128_i32_1115 : BitVec 32 := 4294967168#32
  let v1620 : BitVec 32 := Scalar.andi v1619 c_m128_i32_1115
  let v1621 : BitVec 32 := v1620
  ![v1623.toNat, v1621.toNat]
def k0_mult91 (v1631 : BitVec 32) : BitVec 32 :=
  let c_m128_i32_1123 : BitVec 32 := 4294967168#32
  let v1632 : BitVec 32 := Scalar.andi v1631 c_m128_i32_1123
  v1632

def k0_off167 (i : grid0.Coords) (v1631 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1124 : BitVec 32 := 80#32
  let v1634 : BitVec 32 := Scalar.addi v2 c80_i32_1124
  let c8_i32_1125 : BitVec 32 := 8#32
  let v1635 : BitVec 32 := Scalar.addi v1634 c8_i32_1125
  let c_m128_i32_1123 : BitVec 32 := 4294967168#32
  let v1632 : BitVec 32 := Scalar.andi v1631 c_m128_i32_1123
  let v1633 : BitVec 32 := v1632
  ![v1635.toNat, v1633.toNat]
def k0_mult92 (v1643 : BitVec 32) : BitVec 32 :=
  let c_m128_i32_1131 : BitVec 32 := 4294967168#32
  let v1644 : BitVec 32 := Scalar.andi v1643 c_m128_i32_1131
  v1644

def k0_off168 (i : grid0.Coords) (v1643 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1132 : BitVec 32 := 80#32
  let v1646 : BitVec 32 := Scalar.addi v2 c80_i32_1132
  let c8_i32_1133 : BitVec 32 := 8#32
  let v1647 : BitVec 32 := Scalar.addi v1646 c8_i32_1133
  let c_m128_i32_1131 : BitVec 32 := 4294967168#32
  let v1644 : BitVec 32 := Scalar.andi v1643 c_m128_i32_1131
  let v1645 : BitVec 32 := v1644
  ![v1647.toNat, v1645.toNat]
def k0_mult93 (v1655 : BitVec 32) : BitVec 32 :=
  let c_m128_i32_1139 : BitVec 32 := 4294967168#32
  let v1656 : BitVec 32 := Scalar.andi v1655 c_m128_i32_1139
  v1656

def k0_off169 (i : grid0.Coords) (v1655 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1140 : BitVec 32 := 80#32
  let v1658 : BitVec 32 := Scalar.addi v2 c80_i32_1140
  let c8_i32_1141 : BitVec 32 := 8#32
  let v1659 : BitVec 32 := Scalar.addi v1658 c8_i32_1141
  let c_m128_i32_1139 : BitVec 32 := 4294967168#32
  let v1656 : BitVec 32 := Scalar.andi v1655 c_m128_i32_1139
  let v1657 : BitVec 32 := v1656
  ![v1659.toNat, v1657.toNat]
def k0_mult94 (v1667 : BitVec 32) : BitVec 32 :=
  let c_m128_i32_1147 : BitVec 32 := 4294967168#32
  let v1668 : BitVec 32 := Scalar.andi v1667 c_m128_i32_1147
  v1668

def k0_off170 (i : grid0.Coords) (v1667 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1148 : BitVec 32 := 80#32
  let v1670 : BitVec 32 := Scalar.addi v2 c80_i32_1148
  let c8_i32_1149 : BitVec 32 := 8#32
  let v1671 : BitVec 32 := Scalar.addi v1670 c8_i32_1149
  let c_m128_i32_1147 : BitVec 32 := 4294967168#32
  let v1668 : BitVec 32 := Scalar.andi v1667 c_m128_i32_1147
  let v1669 : BitVec 32 := v1668
  ![v1671.toNat, v1669.toNat]
def k0_mult95 (v1679 : BitVec 32) : BitVec 32 :=
  let c_m128_i32_1155 : BitVec 32 := 4294967168#32
  let v1680 : BitVec 32 := Scalar.andi v1679 c_m128_i32_1155
  v1680

def k0_off171 (i : grid0.Coords) (v1679 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1156 : BitVec 32 := 80#32
  let v1682 : BitVec 32 := Scalar.addi v2 c80_i32_1156
  let c8_i32_1157 : BitVec 32 := 8#32
  let v1683 : BitVec 32 := Scalar.addi v1682 c8_i32_1157
  let c_m128_i32_1155 : BitVec 32 := 4294967168#32
  let v1680 : BitVec 32 := Scalar.andi v1679 c_m128_i32_1155
  let v1681 : BitVec 32 := v1680
  ![v1683.toNat, v1681.toNat]
def k0_mult96 (v1691 : BitVec 32) : BitVec 32 :=
  let c_m128_i32_1163 : BitVec 32 := 4294967168#32
  let v1692 : BitVec 32 := Scalar.andi v1691 c_m128_i32_1163
  v1692

def k0_off172 (i : grid0.Coords) (v1691 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1164 : BitVec 32 := 80#32
  let v1694 : BitVec 32 := Scalar.addi v2 c80_i32_1164
  let c8_i32_1165 : BitVec 32 := 8#32
  let v1695 : BitVec 32 := Scalar.addi v1694 c8_i32_1165
  let c_m128_i32_1163 : BitVec 32 := 4294967168#32
  let v1692 : BitVec 32 := Scalar.andi v1691 c_m128_i32_1163
  let v1693 : BitVec 32 := v1692
  ![v1695.toNat, v1693.toNat]

def k0_chk101 (i : grid0.Coords) (v1691 : BitVec 32) : Prop :=
  (128 ∣ (k0_mult96 v1691).toNat) ∧
  (∀ a, (k0_off172 i v1691) a + S8x128.size a ≤ S4096x32000.size a)
instance k0_chk101.dec : ∀ (i : grid0.Coords) (v1691 : BitVec 32), Decidable (k0_chk101 i v1691) := fun i v1691 => decidable_of_iff' _ (Iff.of_eq (k0_chk101.eq_1 i v1691))
theorem k0_mult96_dvd : ∀ (i : grid0.Coords) (v1691 : BitVec 32) (k0_hw101 : k0_chk101 i v1691), 128 ∣ (k0_mult96 v1691).toNat := fun i v1691 k0_hw101 => k0_hw101.1
theorem k0_off172_inb : ∀ (i : grid0.Coords) (v1691 : BitVec 32) (k0_hw101 : k0_chk101 i v1691), ∀ a, (k0_off172 i v1691) a + S8x128.size a ≤ S4096x32000.size a := fun i v1691 k0_hw101 => k0_hw101.2

def k0_off173 (i : grid0.Coords) (v1511 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32 : BitVec 32 := 80#32
  let v1514 : BitVec 32 := Scalar.addi v2 c80_i32
  let c0_i32_1045 : BitVec 32 := 0#32
  let v1515 : BitVec 32 := Scalar.addi v1514 c0_i32_1045
  let c_m128_i32_1044 : BitVec 32 := 4294967168#32
  let v1512 : BitVec 32 := Scalar.andi v1511 c_m128_i32_1044
  let v1513 : BitVec 32 := v1512
  ![v1515.toNat, v1513.toNat]

def k0_chk86 (i : grid0.Coords) (v1511 : BitVec 32) : Prop :=
  (128 ∣ (k0_mult81 v1511).toNat) ∧
  (∀ a, (k0_off157 i v1511) a + S8x128.size a ≤ S4096x32000.size a) ∧
  (∀ a, (k0_off173 i v1511) a + S8x128.size a ≤ S4096x32000.size a)
instance k0_chk86.dec : ∀ (i : grid0.Coords) (v1511 : BitVec 32), Decidable (k0_chk86 i v1511) := fun i v1511 => decidable_of_iff' _ (Iff.of_eq (k0_chk86.eq_1 i v1511))
theorem k0_mult81_dvd : ∀ (i : grid0.Coords) (v1511 : BitVec 32) (k0_hw86 : k0_chk86 i v1511), 128 ∣ (k0_mult81 v1511).toNat := fun i v1511 k0_hw86 => k0_hw86.1
theorem k0_off157_inb : ∀ (i : grid0.Coords) (v1511 : BitVec 32) (k0_hw86 : k0_chk86 i v1511), ∀ a, (k0_off157 i v1511) a + S8x128.size a ≤ S4096x32000.size a := fun i v1511 k0_hw86 => k0_hw86.2.1
theorem k0_off173_inb : ∀ (i : grid0.Coords) (v1511 : BitVec 32) (k0_hw86 : k0_chk86 i v1511), ∀ a, (k0_off173 i v1511) a + S8x128.size a ≤ S4096x32000.size a := fun i v1511 k0_hw86 => k0_hw86.2.2

def k0_off174 (i : grid0.Coords) (v1523 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1052 : BitVec 32 := 80#32
  let v1526 : BitVec 32 := Scalar.addi v2 c80_i32_1052
  let c0_i32_1053 : BitVec 32 := 0#32
  let v1527 : BitVec 32 := Scalar.addi v1526 c0_i32_1053
  let c_m128_i32_1051 : BitVec 32 := 4294967168#32
  let v1524 : BitVec 32 := Scalar.andi v1523 c_m128_i32_1051
  let v1525 : BitVec 32 := v1524
  ![v1527.toNat, v1525.toNat]

def k0_chk87 (i : grid0.Coords) (v1523 : BitVec 32) : Prop :=
  (128 ∣ (k0_mult82 v1523).toNat) ∧
  (∀ a, (k0_off158 i v1523) a + S8x128.size a ≤ S4096x32000.size a) ∧
  (∀ a, (k0_off174 i v1523) a + S8x128.size a ≤ S4096x32000.size a)
instance k0_chk87.dec : ∀ (i : grid0.Coords) (v1523 : BitVec 32), Decidable (k0_chk87 i v1523) := fun i v1523 => decidable_of_iff' _ (Iff.of_eq (k0_chk87.eq_1 i v1523))
theorem k0_mult82_dvd : ∀ (i : grid0.Coords) (v1523 : BitVec 32) (k0_hw87 : k0_chk87 i v1523), 128 ∣ (k0_mult82 v1523).toNat := fun i v1523 k0_hw87 => k0_hw87.1
theorem k0_off158_inb : ∀ (i : grid0.Coords) (v1523 : BitVec 32) (k0_hw87 : k0_chk87 i v1523), ∀ a, (k0_off158 i v1523) a + S8x128.size a ≤ S4096x32000.size a := fun i v1523 k0_hw87 => k0_hw87.2.1
theorem k0_off174_inb : ∀ (i : grid0.Coords) (v1523 : BitVec 32) (k0_hw87 : k0_chk87 i v1523), ∀ a, (k0_off174 i v1523) a + S8x128.size a ≤ S4096x32000.size a := fun i v1523 k0_hw87 => k0_hw87.2.2

def k0_off175 (i : grid0.Coords) (v1535 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1060 : BitVec 32 := 80#32
  let v1538 : BitVec 32 := Scalar.addi v2 c80_i32_1060
  let c0_i32_1061 : BitVec 32 := 0#32
  let v1539 : BitVec 32 := Scalar.addi v1538 c0_i32_1061
  let c_m128_i32_1059 : BitVec 32 := 4294967168#32
  let v1536 : BitVec 32 := Scalar.andi v1535 c_m128_i32_1059
  let v1537 : BitVec 32 := v1536
  ![v1539.toNat, v1537.toNat]

def k0_chk88 (i : grid0.Coords) (v1535 : BitVec 32) : Prop :=
  (128 ∣ (k0_mult83 v1535).toNat) ∧
  (∀ a, (k0_off159 i v1535) a + S8x128.size a ≤ S4096x32000.size a) ∧
  (∀ a, (k0_off175 i v1535) a + S8x128.size a ≤ S4096x32000.size a)
instance k0_chk88.dec : ∀ (i : grid0.Coords) (v1535 : BitVec 32), Decidable (k0_chk88 i v1535) := fun i v1535 => decidable_of_iff' _ (Iff.of_eq (k0_chk88.eq_1 i v1535))
theorem k0_mult83_dvd : ∀ (i : grid0.Coords) (v1535 : BitVec 32) (k0_hw88 : k0_chk88 i v1535), 128 ∣ (k0_mult83 v1535).toNat := fun i v1535 k0_hw88 => k0_hw88.1
theorem k0_off159_inb : ∀ (i : grid0.Coords) (v1535 : BitVec 32) (k0_hw88 : k0_chk88 i v1535), ∀ a, (k0_off159 i v1535) a + S8x128.size a ≤ S4096x32000.size a := fun i v1535 k0_hw88 => k0_hw88.2.1
theorem k0_off175_inb : ∀ (i : grid0.Coords) (v1535 : BitVec 32) (k0_hw88 : k0_chk88 i v1535), ∀ a, (k0_off175 i v1535) a + S8x128.size a ≤ S4096x32000.size a := fun i v1535 k0_hw88 => k0_hw88.2.2

def k0_off176 (i : grid0.Coords) (v1547 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1068 : BitVec 32 := 80#32
  let v1550 : BitVec 32 := Scalar.addi v2 c80_i32_1068
  let c0_i32_1069 : BitVec 32 := 0#32
  let v1551 : BitVec 32 := Scalar.addi v1550 c0_i32_1069
  let c_m128_i32_1067 : BitVec 32 := 4294967168#32
  let v1548 : BitVec 32 := Scalar.andi v1547 c_m128_i32_1067
  let v1549 : BitVec 32 := v1548
  ![v1551.toNat, v1549.toNat]

def k0_chk89 (i : grid0.Coords) (v1547 : BitVec 32) : Prop :=
  (128 ∣ (k0_mult84 v1547).toNat) ∧
  (∀ a, (k0_off160 i v1547) a + S8x128.size a ≤ S4096x32000.size a) ∧
  (∀ a, (k0_off176 i v1547) a + S8x128.size a ≤ S4096x32000.size a)
instance k0_chk89.dec : ∀ (i : grid0.Coords) (v1547 : BitVec 32), Decidable (k0_chk89 i v1547) := fun i v1547 => decidable_of_iff' _ (Iff.of_eq (k0_chk89.eq_1 i v1547))
theorem k0_mult84_dvd : ∀ (i : grid0.Coords) (v1547 : BitVec 32) (k0_hw89 : k0_chk89 i v1547), 128 ∣ (k0_mult84 v1547).toNat := fun i v1547 k0_hw89 => k0_hw89.1
theorem k0_off160_inb : ∀ (i : grid0.Coords) (v1547 : BitVec 32) (k0_hw89 : k0_chk89 i v1547), ∀ a, (k0_off160 i v1547) a + S8x128.size a ≤ S4096x32000.size a := fun i v1547 k0_hw89 => k0_hw89.2.1
theorem k0_off176_inb : ∀ (i : grid0.Coords) (v1547 : BitVec 32) (k0_hw89 : k0_chk89 i v1547), ∀ a, (k0_off176 i v1547) a + S8x128.size a ≤ S4096x32000.size a := fun i v1547 k0_hw89 => k0_hw89.2.2

def k0_off177 (i : grid0.Coords) (v1559 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1076 : BitVec 32 := 80#32
  let v1562 : BitVec 32 := Scalar.addi v2 c80_i32_1076
  let c0_i32_1077 : BitVec 32 := 0#32
  let v1563 : BitVec 32 := Scalar.addi v1562 c0_i32_1077
  let c_m128_i32_1075 : BitVec 32 := 4294967168#32
  let v1560 : BitVec 32 := Scalar.andi v1559 c_m128_i32_1075
  let v1561 : BitVec 32 := v1560
  ![v1563.toNat, v1561.toNat]

def k0_chk90 (i : grid0.Coords) (v1559 : BitVec 32) : Prop :=
  (128 ∣ (k0_mult85 v1559).toNat) ∧
  (∀ a, (k0_off161 i v1559) a + S8x128.size a ≤ S4096x32000.size a) ∧
  (∀ a, (k0_off177 i v1559) a + S8x128.size a ≤ S4096x32000.size a)
instance k0_chk90.dec : ∀ (i : grid0.Coords) (v1559 : BitVec 32), Decidable (k0_chk90 i v1559) := fun i v1559 => decidable_of_iff' _ (Iff.of_eq (k0_chk90.eq_1 i v1559))
theorem k0_mult85_dvd : ∀ (i : grid0.Coords) (v1559 : BitVec 32) (k0_hw90 : k0_chk90 i v1559), 128 ∣ (k0_mult85 v1559).toNat := fun i v1559 k0_hw90 => k0_hw90.1
theorem k0_off161_inb : ∀ (i : grid0.Coords) (v1559 : BitVec 32) (k0_hw90 : k0_chk90 i v1559), ∀ a, (k0_off161 i v1559) a + S8x128.size a ≤ S4096x32000.size a := fun i v1559 k0_hw90 => k0_hw90.2.1
theorem k0_off177_inb : ∀ (i : grid0.Coords) (v1559 : BitVec 32) (k0_hw90 : k0_chk90 i v1559), ∀ a, (k0_off177 i v1559) a + S8x128.size a ≤ S4096x32000.size a := fun i v1559 k0_hw90 => k0_hw90.2.2

def k0_off178 (i : grid0.Coords) (v1571 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1084 : BitVec 32 := 80#32
  let v1574 : BitVec 32 := Scalar.addi v2 c80_i32_1084
  let c0_i32_1085 : BitVec 32 := 0#32
  let v1575 : BitVec 32 := Scalar.addi v1574 c0_i32_1085
  let c_m128_i32_1083 : BitVec 32 := 4294967168#32
  let v1572 : BitVec 32 := Scalar.andi v1571 c_m128_i32_1083
  let v1573 : BitVec 32 := v1572
  ![v1575.toNat, v1573.toNat]

def k0_chk91 (i : grid0.Coords) (v1571 : BitVec 32) : Prop :=
  (128 ∣ (k0_mult86 v1571).toNat) ∧
  (∀ a, (k0_off162 i v1571) a + S8x128.size a ≤ S4096x32000.size a) ∧
  (∀ a, (k0_off178 i v1571) a + S8x128.size a ≤ S4096x32000.size a)
instance k0_chk91.dec : ∀ (i : grid0.Coords) (v1571 : BitVec 32), Decidable (k0_chk91 i v1571) := fun i v1571 => decidable_of_iff' _ (Iff.of_eq (k0_chk91.eq_1 i v1571))
theorem k0_mult86_dvd : ∀ (i : grid0.Coords) (v1571 : BitVec 32) (k0_hw91 : k0_chk91 i v1571), 128 ∣ (k0_mult86 v1571).toNat := fun i v1571 k0_hw91 => k0_hw91.1
theorem k0_off162_inb : ∀ (i : grid0.Coords) (v1571 : BitVec 32) (k0_hw91 : k0_chk91 i v1571), ∀ a, (k0_off162 i v1571) a + S8x128.size a ≤ S4096x32000.size a := fun i v1571 k0_hw91 => k0_hw91.2.1
theorem k0_off178_inb : ∀ (i : grid0.Coords) (v1571 : BitVec 32) (k0_hw91 : k0_chk91 i v1571), ∀ a, (k0_off178 i v1571) a + S8x128.size a ≤ S4096x32000.size a := fun i v1571 k0_hw91 => k0_hw91.2.2

def k0_off179 (i : grid0.Coords) (v1583 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1092 : BitVec 32 := 80#32
  let v1586 : BitVec 32 := Scalar.addi v2 c80_i32_1092
  let c0_i32_1093 : BitVec 32 := 0#32
  let v1587 : BitVec 32 := Scalar.addi v1586 c0_i32_1093
  let c_m128_i32_1091 : BitVec 32 := 4294967168#32
  let v1584 : BitVec 32 := Scalar.andi v1583 c_m128_i32_1091
  let v1585 : BitVec 32 := v1584
  ![v1587.toNat, v1585.toNat]

def k0_chk92 (i : grid0.Coords) (v1583 : BitVec 32) : Prop :=
  (128 ∣ (k0_mult87 v1583).toNat) ∧
  (∀ a, (k0_off163 i v1583) a + S8x128.size a ≤ S4096x32000.size a) ∧
  (∀ a, (k0_off179 i v1583) a + S8x128.size a ≤ S4096x32000.size a)
instance k0_chk92.dec : ∀ (i : grid0.Coords) (v1583 : BitVec 32), Decidable (k0_chk92 i v1583) := fun i v1583 => decidable_of_iff' _ (Iff.of_eq (k0_chk92.eq_1 i v1583))
theorem k0_mult87_dvd : ∀ (i : grid0.Coords) (v1583 : BitVec 32) (k0_hw92 : k0_chk92 i v1583), 128 ∣ (k0_mult87 v1583).toNat := fun i v1583 k0_hw92 => k0_hw92.1
theorem k0_off163_inb : ∀ (i : grid0.Coords) (v1583 : BitVec 32) (k0_hw92 : k0_chk92 i v1583), ∀ a, (k0_off163 i v1583) a + S8x128.size a ≤ S4096x32000.size a := fun i v1583 k0_hw92 => k0_hw92.2.1
theorem k0_off179_inb : ∀ (i : grid0.Coords) (v1583 : BitVec 32) (k0_hw92 : k0_chk92 i v1583), ∀ a, (k0_off179 i v1583) a + S8x128.size a ≤ S4096x32000.size a := fun i v1583 k0_hw92 => k0_hw92.2.2

def k0_off180 (i : grid0.Coords) (v1595 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1100 : BitVec 32 := 80#32
  let v1598 : BitVec 32 := Scalar.addi v2 c80_i32_1100
  let c0_i32_1101 : BitVec 32 := 0#32
  let v1599 : BitVec 32 := Scalar.addi v1598 c0_i32_1101
  let c_m128_i32_1099 : BitVec 32 := 4294967168#32
  let v1596 : BitVec 32 := Scalar.andi v1595 c_m128_i32_1099
  let v1597 : BitVec 32 := v1596
  ![v1599.toNat, v1597.toNat]

def k0_chk93 (i : grid0.Coords) (v1595 : BitVec 32) : Prop :=
  (128 ∣ (k0_mult88 v1595).toNat) ∧
  (∀ a, (k0_off164 i v1595) a + S8x128.size a ≤ S4096x32000.size a) ∧
  (∀ a, (k0_off180 i v1595) a + S8x128.size a ≤ S4096x32000.size a)
instance k0_chk93.dec : ∀ (i : grid0.Coords) (v1595 : BitVec 32), Decidable (k0_chk93 i v1595) := fun i v1595 => decidable_of_iff' _ (Iff.of_eq (k0_chk93.eq_1 i v1595))
theorem k0_mult88_dvd : ∀ (i : grid0.Coords) (v1595 : BitVec 32) (k0_hw93 : k0_chk93 i v1595), 128 ∣ (k0_mult88 v1595).toNat := fun i v1595 k0_hw93 => k0_hw93.1
theorem k0_off164_inb : ∀ (i : grid0.Coords) (v1595 : BitVec 32) (k0_hw93 : k0_chk93 i v1595), ∀ a, (k0_off164 i v1595) a + S8x128.size a ≤ S4096x32000.size a := fun i v1595 k0_hw93 => k0_hw93.2.1
theorem k0_off180_inb : ∀ (i : grid0.Coords) (v1595 : BitVec 32) (k0_hw93 : k0_chk93 i v1595), ∀ a, (k0_off180 i v1595) a + S8x128.size a ≤ S4096x32000.size a := fun i v1595 k0_hw93 => k0_hw93.2.2

def k0_off181 (i : grid0.Coords) (v1607 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1108 : BitVec 32 := 80#32
  let v1610 : BitVec 32 := Scalar.addi v2 c80_i32_1108
  let c8_i32_1109 : BitVec 32 := 8#32
  let v1611 : BitVec 32 := Scalar.addi v1610 c8_i32_1109
  let c_m128_i32_1107 : BitVec 32 := 4294967168#32
  let v1608 : BitVec 32 := Scalar.andi v1607 c_m128_i32_1107
  let v1609 : BitVec 32 := v1608
  ![v1611.toNat, v1609.toNat]

def k0_chk94 (i : grid0.Coords) (v1607 : BitVec 32) : Prop :=
  (128 ∣ (k0_mult89 v1607).toNat) ∧
  (∀ a, (k0_off165 i v1607) a + S8x128.size a ≤ S4096x32000.size a) ∧
  (∀ a, (k0_off181 i v1607) a + S8x128.size a ≤ S4096x32000.size a)
instance k0_chk94.dec : ∀ (i : grid0.Coords) (v1607 : BitVec 32), Decidable (k0_chk94 i v1607) := fun i v1607 => decidable_of_iff' _ (Iff.of_eq (k0_chk94.eq_1 i v1607))
theorem k0_mult89_dvd : ∀ (i : grid0.Coords) (v1607 : BitVec 32) (k0_hw94 : k0_chk94 i v1607), 128 ∣ (k0_mult89 v1607).toNat := fun i v1607 k0_hw94 => k0_hw94.1
theorem k0_off165_inb : ∀ (i : grid0.Coords) (v1607 : BitVec 32) (k0_hw94 : k0_chk94 i v1607), ∀ a, (k0_off165 i v1607) a + S8x128.size a ≤ S4096x32000.size a := fun i v1607 k0_hw94 => k0_hw94.2.1
theorem k0_off181_inb : ∀ (i : grid0.Coords) (v1607 : BitVec 32) (k0_hw94 : k0_chk94 i v1607), ∀ a, (k0_off181 i v1607) a + S8x128.size a ≤ S4096x32000.size a := fun i v1607 k0_hw94 => k0_hw94.2.2

def k0_off182 (i : grid0.Coords) (v1619 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1116 : BitVec 32 := 80#32
  let v1622 : BitVec 32 := Scalar.addi v2 c80_i32_1116
  let c8_i32_1117 : BitVec 32 := 8#32
  let v1623 : BitVec 32 := Scalar.addi v1622 c8_i32_1117
  let c_m128_i32_1115 : BitVec 32 := 4294967168#32
  let v1620 : BitVec 32 := Scalar.andi v1619 c_m128_i32_1115
  let v1621 : BitVec 32 := v1620
  ![v1623.toNat, v1621.toNat]

def k0_chk95 (i : grid0.Coords) (v1619 : BitVec 32) : Prop :=
  (128 ∣ (k0_mult90 v1619).toNat) ∧
  (∀ a, (k0_off166 i v1619) a + S8x128.size a ≤ S4096x32000.size a) ∧
  (∀ a, (k0_off182 i v1619) a + S8x128.size a ≤ S4096x32000.size a)
instance k0_chk95.dec : ∀ (i : grid0.Coords) (v1619 : BitVec 32), Decidable (k0_chk95 i v1619) := fun i v1619 => decidable_of_iff' _ (Iff.of_eq (k0_chk95.eq_1 i v1619))
theorem k0_mult90_dvd : ∀ (i : grid0.Coords) (v1619 : BitVec 32) (k0_hw95 : k0_chk95 i v1619), 128 ∣ (k0_mult90 v1619).toNat := fun i v1619 k0_hw95 => k0_hw95.1
theorem k0_off166_inb : ∀ (i : grid0.Coords) (v1619 : BitVec 32) (k0_hw95 : k0_chk95 i v1619), ∀ a, (k0_off166 i v1619) a + S8x128.size a ≤ S4096x32000.size a := fun i v1619 k0_hw95 => k0_hw95.2.1
theorem k0_off182_inb : ∀ (i : grid0.Coords) (v1619 : BitVec 32) (k0_hw95 : k0_chk95 i v1619), ∀ a, (k0_off182 i v1619) a + S8x128.size a ≤ S4096x32000.size a := fun i v1619 k0_hw95 => k0_hw95.2.2

def k0_off183 (i : grid0.Coords) (v1631 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1124 : BitVec 32 := 80#32
  let v1634 : BitVec 32 := Scalar.addi v2 c80_i32_1124
  let c8_i32_1125 : BitVec 32 := 8#32
  let v1635 : BitVec 32 := Scalar.addi v1634 c8_i32_1125
  let c_m128_i32_1123 : BitVec 32 := 4294967168#32
  let v1632 : BitVec 32 := Scalar.andi v1631 c_m128_i32_1123
  let v1633 : BitVec 32 := v1632
  ![v1635.toNat, v1633.toNat]

def k0_chk96 (i : grid0.Coords) (v1631 : BitVec 32) : Prop :=
  (128 ∣ (k0_mult91 v1631).toNat) ∧
  (∀ a, (k0_off167 i v1631) a + S8x128.size a ≤ S4096x32000.size a) ∧
  (∀ a, (k0_off183 i v1631) a + S8x128.size a ≤ S4096x32000.size a)
instance k0_chk96.dec : ∀ (i : grid0.Coords) (v1631 : BitVec 32), Decidable (k0_chk96 i v1631) := fun i v1631 => decidable_of_iff' _ (Iff.of_eq (k0_chk96.eq_1 i v1631))
theorem k0_mult91_dvd : ∀ (i : grid0.Coords) (v1631 : BitVec 32) (k0_hw96 : k0_chk96 i v1631), 128 ∣ (k0_mult91 v1631).toNat := fun i v1631 k0_hw96 => k0_hw96.1
theorem k0_off167_inb : ∀ (i : grid0.Coords) (v1631 : BitVec 32) (k0_hw96 : k0_chk96 i v1631), ∀ a, (k0_off167 i v1631) a + S8x128.size a ≤ S4096x32000.size a := fun i v1631 k0_hw96 => k0_hw96.2.1
theorem k0_off183_inb : ∀ (i : grid0.Coords) (v1631 : BitVec 32) (k0_hw96 : k0_chk96 i v1631), ∀ a, (k0_off183 i v1631) a + S8x128.size a ≤ S4096x32000.size a := fun i v1631 k0_hw96 => k0_hw96.2.2

def k0_off184 (i : grid0.Coords) (v1643 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1132 : BitVec 32 := 80#32
  let v1646 : BitVec 32 := Scalar.addi v2 c80_i32_1132
  let c8_i32_1133 : BitVec 32 := 8#32
  let v1647 : BitVec 32 := Scalar.addi v1646 c8_i32_1133
  let c_m128_i32_1131 : BitVec 32 := 4294967168#32
  let v1644 : BitVec 32 := Scalar.andi v1643 c_m128_i32_1131
  let v1645 : BitVec 32 := v1644
  ![v1647.toNat, v1645.toNat]

def k0_chk97 (i : grid0.Coords) (v1643 : BitVec 32) : Prop :=
  (128 ∣ (k0_mult92 v1643).toNat) ∧
  (∀ a, (k0_off168 i v1643) a + S8x128.size a ≤ S4096x32000.size a) ∧
  (∀ a, (k0_off184 i v1643) a + S8x128.size a ≤ S4096x32000.size a)
instance k0_chk97.dec : ∀ (i : grid0.Coords) (v1643 : BitVec 32), Decidable (k0_chk97 i v1643) := fun i v1643 => decidable_of_iff' _ (Iff.of_eq (k0_chk97.eq_1 i v1643))
theorem k0_mult92_dvd : ∀ (i : grid0.Coords) (v1643 : BitVec 32) (k0_hw97 : k0_chk97 i v1643), 128 ∣ (k0_mult92 v1643).toNat := fun i v1643 k0_hw97 => k0_hw97.1
theorem k0_off168_inb : ∀ (i : grid0.Coords) (v1643 : BitVec 32) (k0_hw97 : k0_chk97 i v1643), ∀ a, (k0_off168 i v1643) a + S8x128.size a ≤ S4096x32000.size a := fun i v1643 k0_hw97 => k0_hw97.2.1
theorem k0_off184_inb : ∀ (i : grid0.Coords) (v1643 : BitVec 32) (k0_hw97 : k0_chk97 i v1643), ∀ a, (k0_off184 i v1643) a + S8x128.size a ≤ S4096x32000.size a := fun i v1643 k0_hw97 => k0_hw97.2.2

def k0_off185 (i : grid0.Coords) (v1655 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1140 : BitVec 32 := 80#32
  let v1658 : BitVec 32 := Scalar.addi v2 c80_i32_1140
  let c8_i32_1141 : BitVec 32 := 8#32
  let v1659 : BitVec 32 := Scalar.addi v1658 c8_i32_1141
  let c_m128_i32_1139 : BitVec 32 := 4294967168#32
  let v1656 : BitVec 32 := Scalar.andi v1655 c_m128_i32_1139
  let v1657 : BitVec 32 := v1656
  ![v1659.toNat, v1657.toNat]

def k0_chk98 (i : grid0.Coords) (v1655 : BitVec 32) : Prop :=
  (128 ∣ (k0_mult93 v1655).toNat) ∧
  (∀ a, (k0_off169 i v1655) a + S8x128.size a ≤ S4096x32000.size a) ∧
  (∀ a, (k0_off185 i v1655) a + S8x128.size a ≤ S4096x32000.size a)
instance k0_chk98.dec : ∀ (i : grid0.Coords) (v1655 : BitVec 32), Decidable (k0_chk98 i v1655) := fun i v1655 => decidable_of_iff' _ (Iff.of_eq (k0_chk98.eq_1 i v1655))
theorem k0_mult93_dvd : ∀ (i : grid0.Coords) (v1655 : BitVec 32) (k0_hw98 : k0_chk98 i v1655), 128 ∣ (k0_mult93 v1655).toNat := fun i v1655 k0_hw98 => k0_hw98.1
theorem k0_off169_inb : ∀ (i : grid0.Coords) (v1655 : BitVec 32) (k0_hw98 : k0_chk98 i v1655), ∀ a, (k0_off169 i v1655) a + S8x128.size a ≤ S4096x32000.size a := fun i v1655 k0_hw98 => k0_hw98.2.1
theorem k0_off185_inb : ∀ (i : grid0.Coords) (v1655 : BitVec 32) (k0_hw98 : k0_chk98 i v1655), ∀ a, (k0_off185 i v1655) a + S8x128.size a ≤ S4096x32000.size a := fun i v1655 k0_hw98 => k0_hw98.2.2

def k0_off186 (i : grid0.Coords) (v1667 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1148 : BitVec 32 := 80#32
  let v1670 : BitVec 32 := Scalar.addi v2 c80_i32_1148
  let c8_i32_1149 : BitVec 32 := 8#32
  let v1671 : BitVec 32 := Scalar.addi v1670 c8_i32_1149
  let c_m128_i32_1147 : BitVec 32 := 4294967168#32
  let v1668 : BitVec 32 := Scalar.andi v1667 c_m128_i32_1147
  let v1669 : BitVec 32 := v1668
  ![v1671.toNat, v1669.toNat]

def k0_chk99 (i : grid0.Coords) (v1667 : BitVec 32) : Prop :=
  (128 ∣ (k0_mult94 v1667).toNat) ∧
  (∀ a, (k0_off170 i v1667) a + S8x128.size a ≤ S4096x32000.size a) ∧
  (∀ a, (k0_off186 i v1667) a + S8x128.size a ≤ S4096x32000.size a)
instance k0_chk99.dec : ∀ (i : grid0.Coords) (v1667 : BitVec 32), Decidable (k0_chk99 i v1667) := fun i v1667 => decidable_of_iff' _ (Iff.of_eq (k0_chk99.eq_1 i v1667))
theorem k0_mult94_dvd : ∀ (i : grid0.Coords) (v1667 : BitVec 32) (k0_hw99 : k0_chk99 i v1667), 128 ∣ (k0_mult94 v1667).toNat := fun i v1667 k0_hw99 => k0_hw99.1
theorem k0_off170_inb : ∀ (i : grid0.Coords) (v1667 : BitVec 32) (k0_hw99 : k0_chk99 i v1667), ∀ a, (k0_off170 i v1667) a + S8x128.size a ≤ S4096x32000.size a := fun i v1667 k0_hw99 => k0_hw99.2.1
theorem k0_off186_inb : ∀ (i : grid0.Coords) (v1667 : BitVec 32) (k0_hw99 : k0_chk99 i v1667), ∀ a, (k0_off186 i v1667) a + S8x128.size a ≤ S4096x32000.size a := fun i v1667 k0_hw99 => k0_hw99.2.2

def k0_off187 (i : grid0.Coords) (v1679 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1156 : BitVec 32 := 80#32
  let v1682 : BitVec 32 := Scalar.addi v2 c80_i32_1156
  let c8_i32_1157 : BitVec 32 := 8#32
  let v1683 : BitVec 32 := Scalar.addi v1682 c8_i32_1157
  let c_m128_i32_1155 : BitVec 32 := 4294967168#32
  let v1680 : BitVec 32 := Scalar.andi v1679 c_m128_i32_1155
  let v1681 : BitVec 32 := v1680
  ![v1683.toNat, v1681.toNat]

def k0_chk100 (i : grid0.Coords) (v1679 : BitVec 32) : Prop :=
  (128 ∣ (k0_mult95 v1679).toNat) ∧
  (∀ a, (k0_off171 i v1679) a + S8x128.size a ≤ S4096x32000.size a) ∧
  (∀ a, (k0_off187 i v1679) a + S8x128.size a ≤ S4096x32000.size a)
instance k0_chk100.dec : ∀ (i : grid0.Coords) (v1679 : BitVec 32), Decidable (k0_chk100 i v1679) := fun i v1679 => decidable_of_iff' _ (Iff.of_eq (k0_chk100.eq_1 i v1679))
theorem k0_mult95_dvd : ∀ (i : grid0.Coords) (v1679 : BitVec 32) (k0_hw100 : k0_chk100 i v1679), 128 ∣ (k0_mult95 v1679).toNat := fun i v1679 k0_hw100 => k0_hw100.1
theorem k0_off171_inb : ∀ (i : grid0.Coords) (v1679 : BitVec 32) (k0_hw100 : k0_chk100 i v1679), ∀ a, (k0_off171 i v1679) a + S8x128.size a ≤ S4096x32000.size a := fun i v1679 k0_hw100 => k0_hw100.2.1
theorem k0_off187_inb : ∀ (i : grid0.Coords) (v1679 : BitVec 32) (k0_hw100 : k0_chk100 i v1679), ∀ a, (k0_off187 i v1679) a + S8x128.size a ≤ S4096x32000.size a := fun i v1679 k0_hw100 => k0_hw100.2.2

def k0_chk102 (v1799 : IVec S16 32) (v1801 : IVec S16 32) (v1803 : IVec S16 32) : Prop :=
  (∀ a x, ((![v1799, v1801, v1803] : Fin 3 → IVec S16 32) a x).toNat < S16x8x128.size a)
instance k0_chk102.dec : ∀ (v1799 : IVec S16 32) (v1801 : IVec S16 32) (v1803 : IVec S16 32), Decidable (k0_chk102 v1799 v1801 v1803) := fun v1799 v1801 v1803 => decidable_of_iff' _ (Iff.of_eq (k0_chk102.eq_1 v1799 v1801 v1803))
theorem k0_idx6_inb : ∀ (v1799 : IVec S16 32) (v1801 : IVec S16 32) (v1803 : IVec S16 32) (k0_hw102 : k0_chk102 v1799 v1801 v1803), ∀ a x, ((![v1799, v1801, v1803] : Fin 3 → IVec S16 32) a x).toNat < S16x8x128.size a := fun v1799 v1801 v1803 k0_hw102 => k0_hw102
def k0_mult97 (v1812 : BitVec 32) : BitVec 32 :=
  let c_m128_i32_1256 : BitVec 32 := 4294967168#32
  let v1813 : BitVec 32 := Scalar.andi v1812 c_m128_i32_1256
  v1813

def k0_off188 (i : grid0.Coords) (v1812 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32 : BitVec 32 := 96#32
  let v1815 : BitVec 32 := Scalar.addi v2 c96_i32
  let c0_i32_1257 : BitVec 32 := 0#32
  let v1816 : BitVec 32 := Scalar.addi v1815 c0_i32_1257
  let c_m128_i32_1256 : BitVec 32 := 4294967168#32
  let v1813 : BitVec 32 := Scalar.andi v1812 c_m128_i32_1256
  let v1814 : BitVec 32 := v1813
  ![v1816.toNat, v1814.toNat]
def k0_mult98 (v1824 : BitVec 32) : BitVec 32 :=
  let c_m128_i32_1263 : BitVec 32 := 4294967168#32
  let v1825 : BitVec 32 := Scalar.andi v1824 c_m128_i32_1263
  v1825

def k0_off189 (i : grid0.Coords) (v1824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1264 : BitVec 32 := 96#32
  let v1827 : BitVec 32 := Scalar.addi v2 c96_i32_1264
  let c0_i32_1265 : BitVec 32 := 0#32
  let v1828 : BitVec 32 := Scalar.addi v1827 c0_i32_1265
  let c_m128_i32_1263 : BitVec 32 := 4294967168#32
  let v1825 : BitVec 32 := Scalar.andi v1824 c_m128_i32_1263
  let v1826 : BitVec 32 := v1825
  ![v1828.toNat, v1826.toNat]
def k0_mult99 (v1836 : BitVec 32) : BitVec 32 :=
  let c_m128_i32_1271 : BitVec 32 := 4294967168#32
  let v1837 : BitVec 32 := Scalar.andi v1836 c_m128_i32_1271
  v1837

def k0_off190 (i : grid0.Coords) (v1836 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1272 : BitVec 32 := 96#32
  let v1839 : BitVec 32 := Scalar.addi v2 c96_i32_1272
  let c0_i32_1273 : BitVec 32 := 0#32
  let v1840 : BitVec 32 := Scalar.addi v1839 c0_i32_1273
  let c_m128_i32_1271 : BitVec 32 := 4294967168#32
  let v1837 : BitVec 32 := Scalar.andi v1836 c_m128_i32_1271
  let v1838 : BitVec 32 := v1837
  ![v1840.toNat, v1838.toNat]
def k0_mult100 (v1848 : BitVec 32) : BitVec 32 :=
  let c_m128_i32_1279 : BitVec 32 := 4294967168#32
  let v1849 : BitVec 32 := Scalar.andi v1848 c_m128_i32_1279
  v1849

def k0_off191 (i : grid0.Coords) (v1848 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1280 : BitVec 32 := 96#32
  let v1851 : BitVec 32 := Scalar.addi v2 c96_i32_1280
  let c0_i32_1281 : BitVec 32 := 0#32
  let v1852 : BitVec 32 := Scalar.addi v1851 c0_i32_1281
  let c_m128_i32_1279 : BitVec 32 := 4294967168#32
  let v1849 : BitVec 32 := Scalar.andi v1848 c_m128_i32_1279
  let v1850 : BitVec 32 := v1849
  ![v1852.toNat, v1850.toNat]
def k0_mult101 (v1860 : BitVec 32) : BitVec 32 :=
  let c_m128_i32_1287 : BitVec 32 := 4294967168#32
  let v1861 : BitVec 32 := Scalar.andi v1860 c_m128_i32_1287
  v1861

def k0_off192 (i : grid0.Coords) (v1860 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1288 : BitVec 32 := 96#32
  let v1863 : BitVec 32 := Scalar.addi v2 c96_i32_1288
  let c0_i32_1289 : BitVec 32 := 0#32
  let v1864 : BitVec 32 := Scalar.addi v1863 c0_i32_1289
  let c_m128_i32_1287 : BitVec 32 := 4294967168#32
  let v1861 : BitVec 32 := Scalar.andi v1860 c_m128_i32_1287
  let v1862 : BitVec 32 := v1861
  ![v1864.toNat, v1862.toNat]
def k0_mult102 (v1872 : BitVec 32) : BitVec 32 :=
  let c_m128_i32_1295 : BitVec 32 := 4294967168#32
  let v1873 : BitVec 32 := Scalar.andi v1872 c_m128_i32_1295
  v1873

def k0_off193 (i : grid0.Coords) (v1872 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1296 : BitVec 32 := 96#32
  let v1875 : BitVec 32 := Scalar.addi v2 c96_i32_1296
  let c0_i32_1297 : BitVec 32 := 0#32
  let v1876 : BitVec 32 := Scalar.addi v1875 c0_i32_1297
  let c_m128_i32_1295 : BitVec 32 := 4294967168#32
  let v1873 : BitVec 32 := Scalar.andi v1872 c_m128_i32_1295
  let v1874 : BitVec 32 := v1873
  ![v1876.toNat, v1874.toNat]
def k0_mult103 (v1884 : BitVec 32) : BitVec 32 :=
  let c_m128_i32_1303 : BitVec 32 := 4294967168#32
  let v1885 : BitVec 32 := Scalar.andi v1884 c_m128_i32_1303
  v1885

def k0_off194 (i : grid0.Coords) (v1884 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1304 : BitVec 32 := 96#32
  let v1887 : BitVec 32 := Scalar.addi v2 c96_i32_1304
  let c0_i32_1305 : BitVec 32 := 0#32
  let v1888 : BitVec 32 := Scalar.addi v1887 c0_i32_1305
  let c_m128_i32_1303 : BitVec 32 := 4294967168#32
  let v1885 : BitVec 32 := Scalar.andi v1884 c_m128_i32_1303
  let v1886 : BitVec 32 := v1885
  ![v1888.toNat, v1886.toNat]
def k0_mult104 (v1896 : BitVec 32) : BitVec 32 :=
  let c_m128_i32_1311 : BitVec 32 := 4294967168#32
  let v1897 : BitVec 32 := Scalar.andi v1896 c_m128_i32_1311
  v1897

def k0_off195 (i : grid0.Coords) (v1896 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1312 : BitVec 32 := 96#32
  let v1899 : BitVec 32 := Scalar.addi v2 c96_i32_1312
  let c0_i32_1313 : BitVec 32 := 0#32
  let v1900 : BitVec 32 := Scalar.addi v1899 c0_i32_1313
  let c_m128_i32_1311 : BitVec 32 := 4294967168#32
  let v1897 : BitVec 32 := Scalar.andi v1896 c_m128_i32_1311
  let v1898 : BitVec 32 := v1897
  ![v1900.toNat, v1898.toNat]
def k0_mult105 (v1908 : BitVec 32) : BitVec 32 :=
  let c_m128_i32_1319 : BitVec 32 := 4294967168#32
  let v1909 : BitVec 32 := Scalar.andi v1908 c_m128_i32_1319
  v1909

def k0_off196 (i : grid0.Coords) (v1908 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1320 : BitVec 32 := 96#32
  let v1911 : BitVec 32 := Scalar.addi v2 c96_i32_1320
  let c8_i32_1321 : BitVec 32 := 8#32
  let v1912 : BitVec 32 := Scalar.addi v1911 c8_i32_1321
  let c_m128_i32_1319 : BitVec 32 := 4294967168#32
  let v1909 : BitVec 32 := Scalar.andi v1908 c_m128_i32_1319
  let v1910 : BitVec 32 := v1909
  ![v1912.toNat, v1910.toNat]
def k0_mult106 (v1920 : BitVec 32) : BitVec 32 :=
  let c_m128_i32_1327 : BitVec 32 := 4294967168#32
  let v1921 : BitVec 32 := Scalar.andi v1920 c_m128_i32_1327
  v1921

def k0_off197 (i : grid0.Coords) (v1920 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1328 : BitVec 32 := 96#32
  let v1923 : BitVec 32 := Scalar.addi v2 c96_i32_1328
  let c8_i32_1329 : BitVec 32 := 8#32
  let v1924 : BitVec 32 := Scalar.addi v1923 c8_i32_1329
  let c_m128_i32_1327 : BitVec 32 := 4294967168#32
  let v1921 : BitVec 32 := Scalar.andi v1920 c_m128_i32_1327
  let v1922 : BitVec 32 := v1921
  ![v1924.toNat, v1922.toNat]
def k0_mult107 (v1932 : BitVec 32) : BitVec 32 :=
  let c_m128_i32_1335 : BitVec 32 := 4294967168#32
  let v1933 : BitVec 32 := Scalar.andi v1932 c_m128_i32_1335
  v1933

def k0_off198 (i : grid0.Coords) (v1932 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1336 : BitVec 32 := 96#32
  let v1935 : BitVec 32 := Scalar.addi v2 c96_i32_1336
  let c8_i32_1337 : BitVec 32 := 8#32
  let v1936 : BitVec 32 := Scalar.addi v1935 c8_i32_1337
  let c_m128_i32_1335 : BitVec 32 := 4294967168#32
  let v1933 : BitVec 32 := Scalar.andi v1932 c_m128_i32_1335
  let v1934 : BitVec 32 := v1933
  ![v1936.toNat, v1934.toNat]
def k0_mult108 (v1944 : BitVec 32) : BitVec 32 :=
  let c_m128_i32_1343 : BitVec 32 := 4294967168#32
  let v1945 : BitVec 32 := Scalar.andi v1944 c_m128_i32_1343
  v1945

def k0_off199 (i : grid0.Coords) (v1944 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1344 : BitVec 32 := 96#32
  let v1947 : BitVec 32 := Scalar.addi v2 c96_i32_1344
  let c8_i32_1345 : BitVec 32 := 8#32
  let v1948 : BitVec 32 := Scalar.addi v1947 c8_i32_1345
  let c_m128_i32_1343 : BitVec 32 := 4294967168#32
  let v1945 : BitVec 32 := Scalar.andi v1944 c_m128_i32_1343
  let v1946 : BitVec 32 := v1945
  ![v1948.toNat, v1946.toNat]
def k0_mult109 (v1956 : BitVec 32) : BitVec 32 :=
  let c_m128_i32_1351 : BitVec 32 := 4294967168#32
  let v1957 : BitVec 32 := Scalar.andi v1956 c_m128_i32_1351
  v1957

def k0_off200 (i : grid0.Coords) (v1956 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1352 : BitVec 32 := 96#32
  let v1959 : BitVec 32 := Scalar.addi v2 c96_i32_1352
  let c8_i32_1353 : BitVec 32 := 8#32
  let v1960 : BitVec 32 := Scalar.addi v1959 c8_i32_1353
  let c_m128_i32_1351 : BitVec 32 := 4294967168#32
  let v1957 : BitVec 32 := Scalar.andi v1956 c_m128_i32_1351
  let v1958 : BitVec 32 := v1957
  ![v1960.toNat, v1958.toNat]
def k0_mult110 (v1968 : BitVec 32) : BitVec 32 :=
  let c_m128_i32_1359 : BitVec 32 := 4294967168#32
  let v1969 : BitVec 32 := Scalar.andi v1968 c_m128_i32_1359
  v1969

def k0_off201 (i : grid0.Coords) (v1968 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1360 : BitVec 32 := 96#32
  let v1971 : BitVec 32 := Scalar.addi v2 c96_i32_1360
  let c8_i32_1361 : BitVec 32 := 8#32
  let v1972 : BitVec 32 := Scalar.addi v1971 c8_i32_1361
  let c_m128_i32_1359 : BitVec 32 := 4294967168#32
  let v1969 : BitVec 32 := Scalar.andi v1968 c_m128_i32_1359
  let v1970 : BitVec 32 := v1969
  ![v1972.toNat, v1970.toNat]
def k0_mult111 (v1980 : BitVec 32) : BitVec 32 :=
  let c_m128_i32_1367 : BitVec 32 := 4294967168#32
  let v1981 : BitVec 32 := Scalar.andi v1980 c_m128_i32_1367
  v1981

def k0_off202 (i : grid0.Coords) (v1980 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1368 : BitVec 32 := 96#32
  let v1983 : BitVec 32 := Scalar.addi v2 c96_i32_1368
  let c8_i32_1369 : BitVec 32 := 8#32
  let v1984 : BitVec 32 := Scalar.addi v1983 c8_i32_1369
  let c_m128_i32_1367 : BitVec 32 := 4294967168#32
  let v1981 : BitVec 32 := Scalar.andi v1980 c_m128_i32_1367
  let v1982 : BitVec 32 := v1981
  ![v1984.toNat, v1982.toNat]
def k0_mult112 (v1992 : BitVec 32) : BitVec 32 :=
  let c_m128_i32_1375 : BitVec 32 := 4294967168#32
  let v1993 : BitVec 32 := Scalar.andi v1992 c_m128_i32_1375
  v1993

def k0_off203 (i : grid0.Coords) (v1992 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1376 : BitVec 32 := 96#32
  let v1995 : BitVec 32 := Scalar.addi v2 c96_i32_1376
  let c8_i32_1377 : BitVec 32 := 8#32
  let v1996 : BitVec 32 := Scalar.addi v1995 c8_i32_1377
  let c_m128_i32_1375 : BitVec 32 := 4294967168#32
  let v1993 : BitVec 32 := Scalar.andi v1992 c_m128_i32_1375
  let v1994 : BitVec 32 := v1993
  ![v1996.toNat, v1994.toNat]

def k0_chk118 (i : grid0.Coords) (v1992 : BitVec 32) : Prop :=
  (128 ∣ (k0_mult112 v1992).toNat) ∧
  (∀ a, (k0_off203 i v1992) a + S8x128.size a ≤ S4096x32000.size a)
instance k0_chk118.dec : ∀ (i : grid0.Coords) (v1992 : BitVec 32), Decidable (k0_chk118 i v1992) := fun i v1992 => decidable_of_iff' _ (Iff.of_eq (k0_chk118.eq_1 i v1992))
theorem k0_mult112_dvd : ∀ (i : grid0.Coords) (v1992 : BitVec 32) (k0_hw118 : k0_chk118 i v1992), 128 ∣ (k0_mult112 v1992).toNat := fun i v1992 k0_hw118 => k0_hw118.1
theorem k0_off203_inb : ∀ (i : grid0.Coords) (v1992 : BitVec 32) (k0_hw118 : k0_chk118 i v1992), ∀ a, (k0_off203 i v1992) a + S8x128.size a ≤ S4096x32000.size a := fun i v1992 k0_hw118 => k0_hw118.2

def k0_off204 (i : grid0.Coords) (v1812 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32 : BitVec 32 := 96#32
  let v1815 : BitVec 32 := Scalar.addi v2 c96_i32
  let c0_i32_1257 : BitVec 32 := 0#32
  let v1816 : BitVec 32 := Scalar.addi v1815 c0_i32_1257
  let c_m128_i32_1256 : BitVec 32 := 4294967168#32
  let v1813 : BitVec 32 := Scalar.andi v1812 c_m128_i32_1256
  let v1814 : BitVec 32 := v1813
  ![v1816.toNat, v1814.toNat]

def k0_chk103 (i : grid0.Coords) (v1812 : BitVec 32) : Prop :=
  (128 ∣ (k0_mult97 v1812).toNat) ∧
  (∀ a, (k0_off188 i v1812) a + S8x128.size a ≤ S4096x32000.size a) ∧
  (∀ a, (k0_off204 i v1812) a + S8x128.size a ≤ S4096x32000.size a)
instance k0_chk103.dec : ∀ (i : grid0.Coords) (v1812 : BitVec 32), Decidable (k0_chk103 i v1812) := fun i v1812 => decidable_of_iff' _ (Iff.of_eq (k0_chk103.eq_1 i v1812))
theorem k0_mult97_dvd : ∀ (i : grid0.Coords) (v1812 : BitVec 32) (k0_hw103 : k0_chk103 i v1812), 128 ∣ (k0_mult97 v1812).toNat := fun i v1812 k0_hw103 => k0_hw103.1
theorem k0_off188_inb : ∀ (i : grid0.Coords) (v1812 : BitVec 32) (k0_hw103 : k0_chk103 i v1812), ∀ a, (k0_off188 i v1812) a + S8x128.size a ≤ S4096x32000.size a := fun i v1812 k0_hw103 => k0_hw103.2.1
theorem k0_off204_inb : ∀ (i : grid0.Coords) (v1812 : BitVec 32) (k0_hw103 : k0_chk103 i v1812), ∀ a, (k0_off204 i v1812) a + S8x128.size a ≤ S4096x32000.size a := fun i v1812 k0_hw103 => k0_hw103.2.2

def k0_off205 (i : grid0.Coords) (v1824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1264 : BitVec 32 := 96#32
  let v1827 : BitVec 32 := Scalar.addi v2 c96_i32_1264
  let c0_i32_1265 : BitVec 32 := 0#32
  let v1828 : BitVec 32 := Scalar.addi v1827 c0_i32_1265
  let c_m128_i32_1263 : BitVec 32 := 4294967168#32
  let v1825 : BitVec 32 := Scalar.andi v1824 c_m128_i32_1263
  let v1826 : BitVec 32 := v1825
  ![v1828.toNat, v1826.toNat]

def k0_chk104 (i : grid0.Coords) (v1824 : BitVec 32) : Prop :=
  (128 ∣ (k0_mult98 v1824).toNat) ∧
  (∀ a, (k0_off189 i v1824) a + S8x128.size a ≤ S4096x32000.size a) ∧
  (∀ a, (k0_off205 i v1824) a + S8x128.size a ≤ S4096x32000.size a)
instance k0_chk104.dec : ∀ (i : grid0.Coords) (v1824 : BitVec 32), Decidable (k0_chk104 i v1824) := fun i v1824 => decidable_of_iff' _ (Iff.of_eq (k0_chk104.eq_1 i v1824))
theorem k0_mult98_dvd : ∀ (i : grid0.Coords) (v1824 : BitVec 32) (k0_hw104 : k0_chk104 i v1824), 128 ∣ (k0_mult98 v1824).toNat := fun i v1824 k0_hw104 => k0_hw104.1
theorem k0_off189_inb : ∀ (i : grid0.Coords) (v1824 : BitVec 32) (k0_hw104 : k0_chk104 i v1824), ∀ a, (k0_off189 i v1824) a + S8x128.size a ≤ S4096x32000.size a := fun i v1824 k0_hw104 => k0_hw104.2.1
theorem k0_off205_inb : ∀ (i : grid0.Coords) (v1824 : BitVec 32) (k0_hw104 : k0_chk104 i v1824), ∀ a, (k0_off205 i v1824) a + S8x128.size a ≤ S4096x32000.size a := fun i v1824 k0_hw104 => k0_hw104.2.2

def k0_off206 (i : grid0.Coords) (v1836 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1272 : BitVec 32 := 96#32
  let v1839 : BitVec 32 := Scalar.addi v2 c96_i32_1272
  let c0_i32_1273 : BitVec 32 := 0#32
  let v1840 : BitVec 32 := Scalar.addi v1839 c0_i32_1273
  let c_m128_i32_1271 : BitVec 32 := 4294967168#32
  let v1837 : BitVec 32 := Scalar.andi v1836 c_m128_i32_1271
  let v1838 : BitVec 32 := v1837
  ![v1840.toNat, v1838.toNat]

def k0_chk105 (i : grid0.Coords) (v1836 : BitVec 32) : Prop :=
  (128 ∣ (k0_mult99 v1836).toNat) ∧
  (∀ a, (k0_off190 i v1836) a + S8x128.size a ≤ S4096x32000.size a) ∧
  (∀ a, (k0_off206 i v1836) a + S8x128.size a ≤ S4096x32000.size a)
instance k0_chk105.dec : ∀ (i : grid0.Coords) (v1836 : BitVec 32), Decidable (k0_chk105 i v1836) := fun i v1836 => decidable_of_iff' _ (Iff.of_eq (k0_chk105.eq_1 i v1836))
theorem k0_mult99_dvd : ∀ (i : grid0.Coords) (v1836 : BitVec 32) (k0_hw105 : k0_chk105 i v1836), 128 ∣ (k0_mult99 v1836).toNat := fun i v1836 k0_hw105 => k0_hw105.1
theorem k0_off190_inb : ∀ (i : grid0.Coords) (v1836 : BitVec 32) (k0_hw105 : k0_chk105 i v1836), ∀ a, (k0_off190 i v1836) a + S8x128.size a ≤ S4096x32000.size a := fun i v1836 k0_hw105 => k0_hw105.2.1
theorem k0_off206_inb : ∀ (i : grid0.Coords) (v1836 : BitVec 32) (k0_hw105 : k0_chk105 i v1836), ∀ a, (k0_off206 i v1836) a + S8x128.size a ≤ S4096x32000.size a := fun i v1836 k0_hw105 => k0_hw105.2.2

def k0_off207 (i : grid0.Coords) (v1848 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1280 : BitVec 32 := 96#32
  let v1851 : BitVec 32 := Scalar.addi v2 c96_i32_1280
  let c0_i32_1281 : BitVec 32 := 0#32
  let v1852 : BitVec 32 := Scalar.addi v1851 c0_i32_1281
  let c_m128_i32_1279 : BitVec 32 := 4294967168#32
  let v1849 : BitVec 32 := Scalar.andi v1848 c_m128_i32_1279
  let v1850 : BitVec 32 := v1849
  ![v1852.toNat, v1850.toNat]

def k0_chk106 (i : grid0.Coords) (v1848 : BitVec 32) : Prop :=
  (128 ∣ (k0_mult100 v1848).toNat) ∧
  (∀ a, (k0_off191 i v1848) a + S8x128.size a ≤ S4096x32000.size a) ∧
  (∀ a, (k0_off207 i v1848) a + S8x128.size a ≤ S4096x32000.size a)
instance k0_chk106.dec : ∀ (i : grid0.Coords) (v1848 : BitVec 32), Decidable (k0_chk106 i v1848) := fun i v1848 => decidable_of_iff' _ (Iff.of_eq (k0_chk106.eq_1 i v1848))
theorem k0_mult100_dvd : ∀ (i : grid0.Coords) (v1848 : BitVec 32) (k0_hw106 : k0_chk106 i v1848), 128 ∣ (k0_mult100 v1848).toNat := fun i v1848 k0_hw106 => k0_hw106.1
theorem k0_off191_inb : ∀ (i : grid0.Coords) (v1848 : BitVec 32) (k0_hw106 : k0_chk106 i v1848), ∀ a, (k0_off191 i v1848) a + S8x128.size a ≤ S4096x32000.size a := fun i v1848 k0_hw106 => k0_hw106.2.1
theorem k0_off207_inb : ∀ (i : grid0.Coords) (v1848 : BitVec 32) (k0_hw106 : k0_chk106 i v1848), ∀ a, (k0_off207 i v1848) a + S8x128.size a ≤ S4096x32000.size a := fun i v1848 k0_hw106 => k0_hw106.2.2

def k0_off208 (i : grid0.Coords) (v1860 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1288 : BitVec 32 := 96#32
  let v1863 : BitVec 32 := Scalar.addi v2 c96_i32_1288
  let c0_i32_1289 : BitVec 32 := 0#32
  let v1864 : BitVec 32 := Scalar.addi v1863 c0_i32_1289
  let c_m128_i32_1287 : BitVec 32 := 4294967168#32
  let v1861 : BitVec 32 := Scalar.andi v1860 c_m128_i32_1287
  let v1862 : BitVec 32 := v1861
  ![v1864.toNat, v1862.toNat]

def k0_chk107 (i : grid0.Coords) (v1860 : BitVec 32) : Prop :=
  (128 ∣ (k0_mult101 v1860).toNat) ∧
  (∀ a, (k0_off192 i v1860) a + S8x128.size a ≤ S4096x32000.size a) ∧
  (∀ a, (k0_off208 i v1860) a + S8x128.size a ≤ S4096x32000.size a)
instance k0_chk107.dec : ∀ (i : grid0.Coords) (v1860 : BitVec 32), Decidable (k0_chk107 i v1860) := fun i v1860 => decidable_of_iff' _ (Iff.of_eq (k0_chk107.eq_1 i v1860))
theorem k0_mult101_dvd : ∀ (i : grid0.Coords) (v1860 : BitVec 32) (k0_hw107 : k0_chk107 i v1860), 128 ∣ (k0_mult101 v1860).toNat := fun i v1860 k0_hw107 => k0_hw107.1
theorem k0_off192_inb : ∀ (i : grid0.Coords) (v1860 : BitVec 32) (k0_hw107 : k0_chk107 i v1860), ∀ a, (k0_off192 i v1860) a + S8x128.size a ≤ S4096x32000.size a := fun i v1860 k0_hw107 => k0_hw107.2.1
theorem k0_off208_inb : ∀ (i : grid0.Coords) (v1860 : BitVec 32) (k0_hw107 : k0_chk107 i v1860), ∀ a, (k0_off208 i v1860) a + S8x128.size a ≤ S4096x32000.size a := fun i v1860 k0_hw107 => k0_hw107.2.2

def k0_off209 (i : grid0.Coords) (v1872 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1296 : BitVec 32 := 96#32
  let v1875 : BitVec 32 := Scalar.addi v2 c96_i32_1296
  let c0_i32_1297 : BitVec 32 := 0#32
  let v1876 : BitVec 32 := Scalar.addi v1875 c0_i32_1297
  let c_m128_i32_1295 : BitVec 32 := 4294967168#32
  let v1873 : BitVec 32 := Scalar.andi v1872 c_m128_i32_1295
  let v1874 : BitVec 32 := v1873
  ![v1876.toNat, v1874.toNat]

def k0_chk108 (i : grid0.Coords) (v1872 : BitVec 32) : Prop :=
  (128 ∣ (k0_mult102 v1872).toNat) ∧
  (∀ a, (k0_off193 i v1872) a + S8x128.size a ≤ S4096x32000.size a) ∧
  (∀ a, (k0_off209 i v1872) a + S8x128.size a ≤ S4096x32000.size a)
instance k0_chk108.dec : ∀ (i : grid0.Coords) (v1872 : BitVec 32), Decidable (k0_chk108 i v1872) := fun i v1872 => decidable_of_iff' _ (Iff.of_eq (k0_chk108.eq_1 i v1872))
theorem k0_mult102_dvd : ∀ (i : grid0.Coords) (v1872 : BitVec 32) (k0_hw108 : k0_chk108 i v1872), 128 ∣ (k0_mult102 v1872).toNat := fun i v1872 k0_hw108 => k0_hw108.1
theorem k0_off193_inb : ∀ (i : grid0.Coords) (v1872 : BitVec 32) (k0_hw108 : k0_chk108 i v1872), ∀ a, (k0_off193 i v1872) a + S8x128.size a ≤ S4096x32000.size a := fun i v1872 k0_hw108 => k0_hw108.2.1
theorem k0_off209_inb : ∀ (i : grid0.Coords) (v1872 : BitVec 32) (k0_hw108 : k0_chk108 i v1872), ∀ a, (k0_off209 i v1872) a + S8x128.size a ≤ S4096x32000.size a := fun i v1872 k0_hw108 => k0_hw108.2.2

def k0_off210 (i : grid0.Coords) (v1884 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1304 : BitVec 32 := 96#32
  let v1887 : BitVec 32 := Scalar.addi v2 c96_i32_1304
  let c0_i32_1305 : BitVec 32 := 0#32
  let v1888 : BitVec 32 := Scalar.addi v1887 c0_i32_1305
  let c_m128_i32_1303 : BitVec 32 := 4294967168#32
  let v1885 : BitVec 32 := Scalar.andi v1884 c_m128_i32_1303
  let v1886 : BitVec 32 := v1885
  ![v1888.toNat, v1886.toNat]

def k0_chk109 (i : grid0.Coords) (v1884 : BitVec 32) : Prop :=
  (128 ∣ (k0_mult103 v1884).toNat) ∧
  (∀ a, (k0_off194 i v1884) a + S8x128.size a ≤ S4096x32000.size a) ∧
  (∀ a, (k0_off210 i v1884) a + S8x128.size a ≤ S4096x32000.size a)
instance k0_chk109.dec : ∀ (i : grid0.Coords) (v1884 : BitVec 32), Decidable (k0_chk109 i v1884) := fun i v1884 => decidable_of_iff' _ (Iff.of_eq (k0_chk109.eq_1 i v1884))
theorem k0_mult103_dvd : ∀ (i : grid0.Coords) (v1884 : BitVec 32) (k0_hw109 : k0_chk109 i v1884), 128 ∣ (k0_mult103 v1884).toNat := fun i v1884 k0_hw109 => k0_hw109.1
theorem k0_off194_inb : ∀ (i : grid0.Coords) (v1884 : BitVec 32) (k0_hw109 : k0_chk109 i v1884), ∀ a, (k0_off194 i v1884) a + S8x128.size a ≤ S4096x32000.size a := fun i v1884 k0_hw109 => k0_hw109.2.1
theorem k0_off210_inb : ∀ (i : grid0.Coords) (v1884 : BitVec 32) (k0_hw109 : k0_chk109 i v1884), ∀ a, (k0_off210 i v1884) a + S8x128.size a ≤ S4096x32000.size a := fun i v1884 k0_hw109 => k0_hw109.2.2

def k0_off211 (i : grid0.Coords) (v1896 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1312 : BitVec 32 := 96#32
  let v1899 : BitVec 32 := Scalar.addi v2 c96_i32_1312
  let c0_i32_1313 : BitVec 32 := 0#32
  let v1900 : BitVec 32 := Scalar.addi v1899 c0_i32_1313
  let c_m128_i32_1311 : BitVec 32 := 4294967168#32
  let v1897 : BitVec 32 := Scalar.andi v1896 c_m128_i32_1311
  let v1898 : BitVec 32 := v1897
  ![v1900.toNat, v1898.toNat]

def k0_chk110 (i : grid0.Coords) (v1896 : BitVec 32) : Prop :=
  (128 ∣ (k0_mult104 v1896).toNat) ∧
  (∀ a, (k0_off195 i v1896) a + S8x128.size a ≤ S4096x32000.size a) ∧
  (∀ a, (k0_off211 i v1896) a + S8x128.size a ≤ S4096x32000.size a)
instance k0_chk110.dec : ∀ (i : grid0.Coords) (v1896 : BitVec 32), Decidable (k0_chk110 i v1896) := fun i v1896 => decidable_of_iff' _ (Iff.of_eq (k0_chk110.eq_1 i v1896))
theorem k0_mult104_dvd : ∀ (i : grid0.Coords) (v1896 : BitVec 32) (k0_hw110 : k0_chk110 i v1896), 128 ∣ (k0_mult104 v1896).toNat := fun i v1896 k0_hw110 => k0_hw110.1
theorem k0_off195_inb : ∀ (i : grid0.Coords) (v1896 : BitVec 32) (k0_hw110 : k0_chk110 i v1896), ∀ a, (k0_off195 i v1896) a + S8x128.size a ≤ S4096x32000.size a := fun i v1896 k0_hw110 => k0_hw110.2.1
theorem k0_off211_inb : ∀ (i : grid0.Coords) (v1896 : BitVec 32) (k0_hw110 : k0_chk110 i v1896), ∀ a, (k0_off211 i v1896) a + S8x128.size a ≤ S4096x32000.size a := fun i v1896 k0_hw110 => k0_hw110.2.2

def k0_off212 (i : grid0.Coords) (v1908 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1320 : BitVec 32 := 96#32
  let v1911 : BitVec 32 := Scalar.addi v2 c96_i32_1320
  let c8_i32_1321 : BitVec 32 := 8#32
  let v1912 : BitVec 32 := Scalar.addi v1911 c8_i32_1321
  let c_m128_i32_1319 : BitVec 32 := 4294967168#32
  let v1909 : BitVec 32 := Scalar.andi v1908 c_m128_i32_1319
  let v1910 : BitVec 32 := v1909
  ![v1912.toNat, v1910.toNat]

def k0_chk111 (i : grid0.Coords) (v1908 : BitVec 32) : Prop :=
  (128 ∣ (k0_mult105 v1908).toNat) ∧
  (∀ a, (k0_off196 i v1908) a + S8x128.size a ≤ S4096x32000.size a) ∧
  (∀ a, (k0_off212 i v1908) a + S8x128.size a ≤ S4096x32000.size a)
instance k0_chk111.dec : ∀ (i : grid0.Coords) (v1908 : BitVec 32), Decidable (k0_chk111 i v1908) := fun i v1908 => decidable_of_iff' _ (Iff.of_eq (k0_chk111.eq_1 i v1908))
theorem k0_mult105_dvd : ∀ (i : grid0.Coords) (v1908 : BitVec 32) (k0_hw111 : k0_chk111 i v1908), 128 ∣ (k0_mult105 v1908).toNat := fun i v1908 k0_hw111 => k0_hw111.1
theorem k0_off196_inb : ∀ (i : grid0.Coords) (v1908 : BitVec 32) (k0_hw111 : k0_chk111 i v1908), ∀ a, (k0_off196 i v1908) a + S8x128.size a ≤ S4096x32000.size a := fun i v1908 k0_hw111 => k0_hw111.2.1
theorem k0_off212_inb : ∀ (i : grid0.Coords) (v1908 : BitVec 32) (k0_hw111 : k0_chk111 i v1908), ∀ a, (k0_off212 i v1908) a + S8x128.size a ≤ S4096x32000.size a := fun i v1908 k0_hw111 => k0_hw111.2.2

def k0_off213 (i : grid0.Coords) (v1920 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1328 : BitVec 32 := 96#32
  let v1923 : BitVec 32 := Scalar.addi v2 c96_i32_1328
  let c8_i32_1329 : BitVec 32 := 8#32
  let v1924 : BitVec 32 := Scalar.addi v1923 c8_i32_1329
  let c_m128_i32_1327 : BitVec 32 := 4294967168#32
  let v1921 : BitVec 32 := Scalar.andi v1920 c_m128_i32_1327
  let v1922 : BitVec 32 := v1921
  ![v1924.toNat, v1922.toNat]

def k0_chk112 (i : grid0.Coords) (v1920 : BitVec 32) : Prop :=
  (128 ∣ (k0_mult106 v1920).toNat) ∧
  (∀ a, (k0_off197 i v1920) a + S8x128.size a ≤ S4096x32000.size a) ∧
  (∀ a, (k0_off213 i v1920) a + S8x128.size a ≤ S4096x32000.size a)
instance k0_chk112.dec : ∀ (i : grid0.Coords) (v1920 : BitVec 32), Decidable (k0_chk112 i v1920) := fun i v1920 => decidable_of_iff' _ (Iff.of_eq (k0_chk112.eq_1 i v1920))
theorem k0_mult106_dvd : ∀ (i : grid0.Coords) (v1920 : BitVec 32) (k0_hw112 : k0_chk112 i v1920), 128 ∣ (k0_mult106 v1920).toNat := fun i v1920 k0_hw112 => k0_hw112.1
theorem k0_off197_inb : ∀ (i : grid0.Coords) (v1920 : BitVec 32) (k0_hw112 : k0_chk112 i v1920), ∀ a, (k0_off197 i v1920) a + S8x128.size a ≤ S4096x32000.size a := fun i v1920 k0_hw112 => k0_hw112.2.1
theorem k0_off213_inb : ∀ (i : grid0.Coords) (v1920 : BitVec 32) (k0_hw112 : k0_chk112 i v1920), ∀ a, (k0_off213 i v1920) a + S8x128.size a ≤ S4096x32000.size a := fun i v1920 k0_hw112 => k0_hw112.2.2

def k0_off214 (i : grid0.Coords) (v1932 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1336 : BitVec 32 := 96#32
  let v1935 : BitVec 32 := Scalar.addi v2 c96_i32_1336
  let c8_i32_1337 : BitVec 32 := 8#32
  let v1936 : BitVec 32 := Scalar.addi v1935 c8_i32_1337
  let c_m128_i32_1335 : BitVec 32 := 4294967168#32
  let v1933 : BitVec 32 := Scalar.andi v1932 c_m128_i32_1335
  let v1934 : BitVec 32 := v1933
  ![v1936.toNat, v1934.toNat]

def k0_chk113 (i : grid0.Coords) (v1932 : BitVec 32) : Prop :=
  (128 ∣ (k0_mult107 v1932).toNat) ∧
  (∀ a, (k0_off198 i v1932) a + S8x128.size a ≤ S4096x32000.size a) ∧
  (∀ a, (k0_off214 i v1932) a + S8x128.size a ≤ S4096x32000.size a)
instance k0_chk113.dec : ∀ (i : grid0.Coords) (v1932 : BitVec 32), Decidable (k0_chk113 i v1932) := fun i v1932 => decidable_of_iff' _ (Iff.of_eq (k0_chk113.eq_1 i v1932))
theorem k0_mult107_dvd : ∀ (i : grid0.Coords) (v1932 : BitVec 32) (k0_hw113 : k0_chk113 i v1932), 128 ∣ (k0_mult107 v1932).toNat := fun i v1932 k0_hw113 => k0_hw113.1
theorem k0_off198_inb : ∀ (i : grid0.Coords) (v1932 : BitVec 32) (k0_hw113 : k0_chk113 i v1932), ∀ a, (k0_off198 i v1932) a + S8x128.size a ≤ S4096x32000.size a := fun i v1932 k0_hw113 => k0_hw113.2.1
theorem k0_off214_inb : ∀ (i : grid0.Coords) (v1932 : BitVec 32) (k0_hw113 : k0_chk113 i v1932), ∀ a, (k0_off214 i v1932) a + S8x128.size a ≤ S4096x32000.size a := fun i v1932 k0_hw113 => k0_hw113.2.2

def k0_off215 (i : grid0.Coords) (v1944 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1344 : BitVec 32 := 96#32
  let v1947 : BitVec 32 := Scalar.addi v2 c96_i32_1344
  let c8_i32_1345 : BitVec 32 := 8#32
  let v1948 : BitVec 32 := Scalar.addi v1947 c8_i32_1345
  let c_m128_i32_1343 : BitVec 32 := 4294967168#32
  let v1945 : BitVec 32 := Scalar.andi v1944 c_m128_i32_1343
  let v1946 : BitVec 32 := v1945
  ![v1948.toNat, v1946.toNat]

def k0_chk114 (i : grid0.Coords) (v1944 : BitVec 32) : Prop :=
  (128 ∣ (k0_mult108 v1944).toNat) ∧
  (∀ a, (k0_off199 i v1944) a + S8x128.size a ≤ S4096x32000.size a) ∧
  (∀ a, (k0_off215 i v1944) a + S8x128.size a ≤ S4096x32000.size a)
instance k0_chk114.dec : ∀ (i : grid0.Coords) (v1944 : BitVec 32), Decidable (k0_chk114 i v1944) := fun i v1944 => decidable_of_iff' _ (Iff.of_eq (k0_chk114.eq_1 i v1944))
theorem k0_mult108_dvd : ∀ (i : grid0.Coords) (v1944 : BitVec 32) (k0_hw114 : k0_chk114 i v1944), 128 ∣ (k0_mult108 v1944).toNat := fun i v1944 k0_hw114 => k0_hw114.1
theorem k0_off199_inb : ∀ (i : grid0.Coords) (v1944 : BitVec 32) (k0_hw114 : k0_chk114 i v1944), ∀ a, (k0_off199 i v1944) a + S8x128.size a ≤ S4096x32000.size a := fun i v1944 k0_hw114 => k0_hw114.2.1
theorem k0_off215_inb : ∀ (i : grid0.Coords) (v1944 : BitVec 32) (k0_hw114 : k0_chk114 i v1944), ∀ a, (k0_off215 i v1944) a + S8x128.size a ≤ S4096x32000.size a := fun i v1944 k0_hw114 => k0_hw114.2.2

def k0_off216 (i : grid0.Coords) (v1956 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1352 : BitVec 32 := 96#32
  let v1959 : BitVec 32 := Scalar.addi v2 c96_i32_1352
  let c8_i32_1353 : BitVec 32 := 8#32
  let v1960 : BitVec 32 := Scalar.addi v1959 c8_i32_1353
  let c_m128_i32_1351 : BitVec 32 := 4294967168#32
  let v1957 : BitVec 32 := Scalar.andi v1956 c_m128_i32_1351
  let v1958 : BitVec 32 := v1957
  ![v1960.toNat, v1958.toNat]

def k0_chk115 (i : grid0.Coords) (v1956 : BitVec 32) : Prop :=
  (128 ∣ (k0_mult109 v1956).toNat) ∧
  (∀ a, (k0_off200 i v1956) a + S8x128.size a ≤ S4096x32000.size a) ∧
  (∀ a, (k0_off216 i v1956) a + S8x128.size a ≤ S4096x32000.size a)
instance k0_chk115.dec : ∀ (i : grid0.Coords) (v1956 : BitVec 32), Decidable (k0_chk115 i v1956) := fun i v1956 => decidable_of_iff' _ (Iff.of_eq (k0_chk115.eq_1 i v1956))
theorem k0_mult109_dvd : ∀ (i : grid0.Coords) (v1956 : BitVec 32) (k0_hw115 : k0_chk115 i v1956), 128 ∣ (k0_mult109 v1956).toNat := fun i v1956 k0_hw115 => k0_hw115.1
theorem k0_off200_inb : ∀ (i : grid0.Coords) (v1956 : BitVec 32) (k0_hw115 : k0_chk115 i v1956), ∀ a, (k0_off200 i v1956) a + S8x128.size a ≤ S4096x32000.size a := fun i v1956 k0_hw115 => k0_hw115.2.1
theorem k0_off216_inb : ∀ (i : grid0.Coords) (v1956 : BitVec 32) (k0_hw115 : k0_chk115 i v1956), ∀ a, (k0_off216 i v1956) a + S8x128.size a ≤ S4096x32000.size a := fun i v1956 k0_hw115 => k0_hw115.2.2

def k0_off217 (i : grid0.Coords) (v1968 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1360 : BitVec 32 := 96#32
  let v1971 : BitVec 32 := Scalar.addi v2 c96_i32_1360
  let c8_i32_1361 : BitVec 32 := 8#32
  let v1972 : BitVec 32 := Scalar.addi v1971 c8_i32_1361
  let c_m128_i32_1359 : BitVec 32 := 4294967168#32
  let v1969 : BitVec 32 := Scalar.andi v1968 c_m128_i32_1359
  let v1970 : BitVec 32 := v1969
  ![v1972.toNat, v1970.toNat]

def k0_chk116 (i : grid0.Coords) (v1968 : BitVec 32) : Prop :=
  (128 ∣ (k0_mult110 v1968).toNat) ∧
  (∀ a, (k0_off201 i v1968) a + S8x128.size a ≤ S4096x32000.size a) ∧
  (∀ a, (k0_off217 i v1968) a + S8x128.size a ≤ S4096x32000.size a)
instance k0_chk116.dec : ∀ (i : grid0.Coords) (v1968 : BitVec 32), Decidable (k0_chk116 i v1968) := fun i v1968 => decidable_of_iff' _ (Iff.of_eq (k0_chk116.eq_1 i v1968))
theorem k0_mult110_dvd : ∀ (i : grid0.Coords) (v1968 : BitVec 32) (k0_hw116 : k0_chk116 i v1968), 128 ∣ (k0_mult110 v1968).toNat := fun i v1968 k0_hw116 => k0_hw116.1
theorem k0_off201_inb : ∀ (i : grid0.Coords) (v1968 : BitVec 32) (k0_hw116 : k0_chk116 i v1968), ∀ a, (k0_off201 i v1968) a + S8x128.size a ≤ S4096x32000.size a := fun i v1968 k0_hw116 => k0_hw116.2.1
theorem k0_off217_inb : ∀ (i : grid0.Coords) (v1968 : BitVec 32) (k0_hw116 : k0_chk116 i v1968), ∀ a, (k0_off217 i v1968) a + S8x128.size a ≤ S4096x32000.size a := fun i v1968 k0_hw116 => k0_hw116.2.2

def k0_off218 (i : grid0.Coords) (v1980 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1368 : BitVec 32 := 96#32
  let v1983 : BitVec 32 := Scalar.addi v2 c96_i32_1368
  let c8_i32_1369 : BitVec 32 := 8#32
  let v1984 : BitVec 32 := Scalar.addi v1983 c8_i32_1369
  let c_m128_i32_1367 : BitVec 32 := 4294967168#32
  let v1981 : BitVec 32 := Scalar.andi v1980 c_m128_i32_1367
  let v1982 : BitVec 32 := v1981
  ![v1984.toNat, v1982.toNat]

def k0_chk117 (i : grid0.Coords) (v1980 : BitVec 32) : Prop :=
  (128 ∣ (k0_mult111 v1980).toNat) ∧
  (∀ a, (k0_off202 i v1980) a + S8x128.size a ≤ S4096x32000.size a) ∧
  (∀ a, (k0_off218 i v1980) a + S8x128.size a ≤ S4096x32000.size a)
instance k0_chk117.dec : ∀ (i : grid0.Coords) (v1980 : BitVec 32), Decidable (k0_chk117 i v1980) := fun i v1980 => decidable_of_iff' _ (Iff.of_eq (k0_chk117.eq_1 i v1980))
theorem k0_mult111_dvd : ∀ (i : grid0.Coords) (v1980 : BitVec 32) (k0_hw117 : k0_chk117 i v1980), 128 ∣ (k0_mult111 v1980).toNat := fun i v1980 k0_hw117 => k0_hw117.1
theorem k0_off202_inb : ∀ (i : grid0.Coords) (v1980 : BitVec 32) (k0_hw117 : k0_chk117 i v1980), ∀ a, (k0_off202 i v1980) a + S8x128.size a ≤ S4096x32000.size a := fun i v1980 k0_hw117 => k0_hw117.2.1
theorem k0_off218_inb : ∀ (i : grid0.Coords) (v1980 : BitVec 32) (k0_hw117 : k0_chk117 i v1980), ∀ a, (k0_off218 i v1980) a + S8x128.size a ≤ S4096x32000.size a := fun i v1980 k0_hw117 => k0_hw117.2.2

def k0_chk119 (v2100 : IVec S16 32) (v2102 : IVec S16 32) (v2104 : IVec S16 32) : Prop :=
  (∀ a x, ((![v2100, v2102, v2104] : Fin 3 → IVec S16 32) a x).toNat < S16x8x128.size a)
instance k0_chk119.dec : ∀ (v2100 : IVec S16 32) (v2102 : IVec S16 32) (v2104 : IVec S16 32), Decidable (k0_chk119 v2100 v2102 v2104) := fun v2100 v2102 v2104 => decidable_of_iff' _ (Iff.of_eq (k0_chk119.eq_1 v2100 v2102 v2104))
theorem k0_idx7_inb : ∀ (v2100 : IVec S16 32) (v2102 : IVec S16 32) (v2104 : IVec S16 32) (k0_hw119 : k0_chk119 v2100 v2102 v2104), ∀ a x, ((![v2100, v2102, v2104] : Fin 3 → IVec S16 32) a x).toNat < S16x8x128.size a := fun v2100 v2102 v2104 k0_hw119 => k0_hw119
def k0_mult113 (v2113 : BitVec 32) : BitVec 32 :=
  let c_m128_i32_1468 : BitVec 32 := 4294967168#32
  let v2114 : BitVec 32 := Scalar.andi v2113 c_m128_i32_1468
  v2114

def k0_off219 (i : grid0.Coords) (v2113 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32 : BitVec 32 := 112#32
  let v2116 : BitVec 32 := Scalar.addi v2 c112_i32
  let c0_i32_1469 : BitVec 32 := 0#32
  let v2117 : BitVec 32 := Scalar.addi v2116 c0_i32_1469
  let c_m128_i32_1468 : BitVec 32 := 4294967168#32
  let v2114 : BitVec 32 := Scalar.andi v2113 c_m128_i32_1468
  let v2115 : BitVec 32 := v2114
  ![v2117.toNat, v2115.toNat]
def k0_mult114 (v2125 : BitVec 32) : BitVec 32 :=
  let c_m128_i32_1475 : BitVec 32 := 4294967168#32
  let v2126 : BitVec 32 := Scalar.andi v2125 c_m128_i32_1475
  v2126

def k0_off220 (i : grid0.Coords) (v2125 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1476 : BitVec 32 := 112#32
  let v2128 : BitVec 32 := Scalar.addi v2 c112_i32_1476
  let c0_i32_1477 : BitVec 32 := 0#32
  let v2129 : BitVec 32 := Scalar.addi v2128 c0_i32_1477
  let c_m128_i32_1475 : BitVec 32 := 4294967168#32
  let v2126 : BitVec 32 := Scalar.andi v2125 c_m128_i32_1475
  let v2127 : BitVec 32 := v2126
  ![v2129.toNat, v2127.toNat]
def k0_mult115 (v2137 : BitVec 32) : BitVec 32 :=
  let c_m128_i32_1483 : BitVec 32 := 4294967168#32
  let v2138 : BitVec 32 := Scalar.andi v2137 c_m128_i32_1483
  v2138

def k0_off221 (i : grid0.Coords) (v2137 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1484 : BitVec 32 := 112#32
  let v2140 : BitVec 32 := Scalar.addi v2 c112_i32_1484
  let c0_i32_1485 : BitVec 32 := 0#32
  let v2141 : BitVec 32 := Scalar.addi v2140 c0_i32_1485
  let c_m128_i32_1483 : BitVec 32 := 4294967168#32
  let v2138 : BitVec 32 := Scalar.andi v2137 c_m128_i32_1483
  let v2139 : BitVec 32 := v2138
  ![v2141.toNat, v2139.toNat]
def k0_mult116 (v2149 : BitVec 32) : BitVec 32 :=
  let c_m128_i32_1491 : BitVec 32 := 4294967168#32
  let v2150 : BitVec 32 := Scalar.andi v2149 c_m128_i32_1491
  v2150

def k0_off222 (i : grid0.Coords) (v2149 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1492 : BitVec 32 := 112#32
  let v2152 : BitVec 32 := Scalar.addi v2 c112_i32_1492
  let c0_i32_1493 : BitVec 32 := 0#32
  let v2153 : BitVec 32 := Scalar.addi v2152 c0_i32_1493
  let c_m128_i32_1491 : BitVec 32 := 4294967168#32
  let v2150 : BitVec 32 := Scalar.andi v2149 c_m128_i32_1491
  let v2151 : BitVec 32 := v2150
  ![v2153.toNat, v2151.toNat]
def k0_mult117 (v2161 : BitVec 32) : BitVec 32 :=
  let c_m128_i32_1499 : BitVec 32 := 4294967168#32
  let v2162 : BitVec 32 := Scalar.andi v2161 c_m128_i32_1499
  v2162

def k0_off223 (i : grid0.Coords) (v2161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1500 : BitVec 32 := 112#32
  let v2164 : BitVec 32 := Scalar.addi v2 c112_i32_1500
  let c0_i32_1501 : BitVec 32 := 0#32
  let v2165 : BitVec 32 := Scalar.addi v2164 c0_i32_1501
  let c_m128_i32_1499 : BitVec 32 := 4294967168#32
  let v2162 : BitVec 32 := Scalar.andi v2161 c_m128_i32_1499
  let v2163 : BitVec 32 := v2162
  ![v2165.toNat, v2163.toNat]
def k0_mult118 (v2173 : BitVec 32) : BitVec 32 :=
  let c_m128_i32_1507 : BitVec 32 := 4294967168#32
  let v2174 : BitVec 32 := Scalar.andi v2173 c_m128_i32_1507
  v2174

def k0_off224 (i : grid0.Coords) (v2173 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1508 : BitVec 32 := 112#32
  let v2176 : BitVec 32 := Scalar.addi v2 c112_i32_1508
  let c0_i32_1509 : BitVec 32 := 0#32
  let v2177 : BitVec 32 := Scalar.addi v2176 c0_i32_1509
  let c_m128_i32_1507 : BitVec 32 := 4294967168#32
  let v2174 : BitVec 32 := Scalar.andi v2173 c_m128_i32_1507
  let v2175 : BitVec 32 := v2174
  ![v2177.toNat, v2175.toNat]
def k0_mult119 (v2185 : BitVec 32) : BitVec 32 :=
  let c_m128_i32_1515 : BitVec 32 := 4294967168#32
  let v2186 : BitVec 32 := Scalar.andi v2185 c_m128_i32_1515
  v2186

def k0_off225 (i : grid0.Coords) (v2185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1516 : BitVec 32 := 112#32
  let v2188 : BitVec 32 := Scalar.addi v2 c112_i32_1516
  let c0_i32_1517 : BitVec 32 := 0#32
  let v2189 : BitVec 32 := Scalar.addi v2188 c0_i32_1517
  let c_m128_i32_1515 : BitVec 32 := 4294967168#32
  let v2186 : BitVec 32 := Scalar.andi v2185 c_m128_i32_1515
  let v2187 : BitVec 32 := v2186
  ![v2189.toNat, v2187.toNat]
def k0_mult120 (v2197 : BitVec 32) : BitVec 32 :=
  let c_m128_i32_1523 : BitVec 32 := 4294967168#32
  let v2198 : BitVec 32 := Scalar.andi v2197 c_m128_i32_1523
  v2198

def k0_off226 (i : grid0.Coords) (v2197 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1524 : BitVec 32 := 112#32
  let v2200 : BitVec 32 := Scalar.addi v2 c112_i32_1524
  let c0_i32_1525 : BitVec 32 := 0#32
  let v2201 : BitVec 32 := Scalar.addi v2200 c0_i32_1525
  let c_m128_i32_1523 : BitVec 32 := 4294967168#32
  let v2198 : BitVec 32 := Scalar.andi v2197 c_m128_i32_1523
  let v2199 : BitVec 32 := v2198
  ![v2201.toNat, v2199.toNat]
def k0_mult121 (v2209 : BitVec 32) : BitVec 32 :=
  let c_m128_i32_1531 : BitVec 32 := 4294967168#32
  let v2210 : BitVec 32 := Scalar.andi v2209 c_m128_i32_1531
  v2210

def k0_off227 (i : grid0.Coords) (v2209 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1532 : BitVec 32 := 112#32
  let v2212 : BitVec 32 := Scalar.addi v2 c112_i32_1532
  let c8_i32_1533 : BitVec 32 := 8#32
  let v2213 : BitVec 32 := Scalar.addi v2212 c8_i32_1533
  let c_m128_i32_1531 : BitVec 32 := 4294967168#32
  let v2210 : BitVec 32 := Scalar.andi v2209 c_m128_i32_1531
  let v2211 : BitVec 32 := v2210
  ![v2213.toNat, v2211.toNat]
def k0_mult122 (v2221 : BitVec 32) : BitVec 32 :=
  let c_m128_i32_1539 : BitVec 32 := 4294967168#32
  let v2222 : BitVec 32 := Scalar.andi v2221 c_m128_i32_1539
  v2222

def k0_off228 (i : grid0.Coords) (v2221 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1540 : BitVec 32 := 112#32
  let v2224 : BitVec 32 := Scalar.addi v2 c112_i32_1540
  let c8_i32_1541 : BitVec 32 := 8#32
  let v2225 : BitVec 32 := Scalar.addi v2224 c8_i32_1541
  let c_m128_i32_1539 : BitVec 32 := 4294967168#32
  let v2222 : BitVec 32 := Scalar.andi v2221 c_m128_i32_1539
  let v2223 : BitVec 32 := v2222
  ![v2225.toNat, v2223.toNat]
def k0_mult123 (v2233 : BitVec 32) : BitVec 32 :=
  let c_m128_i32_1547 : BitVec 32 := 4294967168#32
  let v2234 : BitVec 32 := Scalar.andi v2233 c_m128_i32_1547
  v2234

def k0_off229 (i : grid0.Coords) (v2233 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1548 : BitVec 32 := 112#32
  let v2236 : BitVec 32 := Scalar.addi v2 c112_i32_1548
  let c8_i32_1549 : BitVec 32 := 8#32
  let v2237 : BitVec 32 := Scalar.addi v2236 c8_i32_1549
  let c_m128_i32_1547 : BitVec 32 := 4294967168#32
  let v2234 : BitVec 32 := Scalar.andi v2233 c_m128_i32_1547
  let v2235 : BitVec 32 := v2234
  ![v2237.toNat, v2235.toNat]
def k0_mult124 (v2245 : BitVec 32) : BitVec 32 :=
  let c_m128_i32_1555 : BitVec 32 := 4294967168#32
  let v2246 : BitVec 32 := Scalar.andi v2245 c_m128_i32_1555
  v2246

def k0_off230 (i : grid0.Coords) (v2245 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1556 : BitVec 32 := 112#32
  let v2248 : BitVec 32 := Scalar.addi v2 c112_i32_1556
  let c8_i32_1557 : BitVec 32 := 8#32
  let v2249 : BitVec 32 := Scalar.addi v2248 c8_i32_1557
  let c_m128_i32_1555 : BitVec 32 := 4294967168#32
  let v2246 : BitVec 32 := Scalar.andi v2245 c_m128_i32_1555
  let v2247 : BitVec 32 := v2246
  ![v2249.toNat, v2247.toNat]
def k0_mult125 (v2257 : BitVec 32) : BitVec 32 :=
  let c_m128_i32_1563 : BitVec 32 := 4294967168#32
  let v2258 : BitVec 32 := Scalar.andi v2257 c_m128_i32_1563
  v2258

def k0_off231 (i : grid0.Coords) (v2257 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1564 : BitVec 32 := 112#32
  let v2260 : BitVec 32 := Scalar.addi v2 c112_i32_1564
  let c8_i32_1565 : BitVec 32 := 8#32
  let v2261 : BitVec 32 := Scalar.addi v2260 c8_i32_1565
  let c_m128_i32_1563 : BitVec 32 := 4294967168#32
  let v2258 : BitVec 32 := Scalar.andi v2257 c_m128_i32_1563
  let v2259 : BitVec 32 := v2258
  ![v2261.toNat, v2259.toNat]
def k0_mult126 (v2269 : BitVec 32) : BitVec 32 :=
  let c_m128_i32_1571 : BitVec 32 := 4294967168#32
  let v2270 : BitVec 32 := Scalar.andi v2269 c_m128_i32_1571
  v2270

def k0_off232 (i : grid0.Coords) (v2269 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1572 : BitVec 32 := 112#32
  let v2272 : BitVec 32 := Scalar.addi v2 c112_i32_1572
  let c8_i32_1573 : BitVec 32 := 8#32
  let v2273 : BitVec 32 := Scalar.addi v2272 c8_i32_1573
  let c_m128_i32_1571 : BitVec 32 := 4294967168#32
  let v2270 : BitVec 32 := Scalar.andi v2269 c_m128_i32_1571
  let v2271 : BitVec 32 := v2270
  ![v2273.toNat, v2271.toNat]
def k0_mult127 (v2281 : BitVec 32) : BitVec 32 :=
  let c_m128_i32_1579 : BitVec 32 := 4294967168#32
  let v2282 : BitVec 32 := Scalar.andi v2281 c_m128_i32_1579
  v2282

def k0_off233 (i : grid0.Coords) (v2281 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1580 : BitVec 32 := 112#32
  let v2284 : BitVec 32 := Scalar.addi v2 c112_i32_1580
  let c8_i32_1581 : BitVec 32 := 8#32
  let v2285 : BitVec 32 := Scalar.addi v2284 c8_i32_1581
  let c_m128_i32_1579 : BitVec 32 := 4294967168#32
  let v2282 : BitVec 32 := Scalar.andi v2281 c_m128_i32_1579
  let v2283 : BitVec 32 := v2282
  ![v2285.toNat, v2283.toNat]
def k0_mult128 (v2293 : BitVec 32) : BitVec 32 :=
  let c_m128_i32_1587 : BitVec 32 := 4294967168#32
  let v2294 : BitVec 32 := Scalar.andi v2293 c_m128_i32_1587
  v2294

def k0_off234 (i : grid0.Coords) (v2293 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1588 : BitVec 32 := 112#32
  let v2296 : BitVec 32 := Scalar.addi v2 c112_i32_1588
  let c8_i32_1589 : BitVec 32 := 8#32
  let v2297 : BitVec 32 := Scalar.addi v2296 c8_i32_1589
  let c_m128_i32_1587 : BitVec 32 := 4294967168#32
  let v2294 : BitVec 32 := Scalar.andi v2293 c_m128_i32_1587
  let v2295 : BitVec 32 := v2294
  ![v2297.toNat, v2295.toNat]

def k0_chk135 (i : grid0.Coords) (v2293 : BitVec 32) : Prop :=
  (128 ∣ (k0_mult128 v2293).toNat) ∧
  (∀ a, (k0_off234 i v2293) a + S8x128.size a ≤ S4096x32000.size a)
instance k0_chk135.dec : ∀ (i : grid0.Coords) (v2293 : BitVec 32), Decidable (k0_chk135 i v2293) := fun i v2293 => decidable_of_iff' _ (Iff.of_eq (k0_chk135.eq_1 i v2293))
theorem k0_mult128_dvd : ∀ (i : grid0.Coords) (v2293 : BitVec 32) (k0_hw135 : k0_chk135 i v2293), 128 ∣ (k0_mult128 v2293).toNat := fun i v2293 k0_hw135 => k0_hw135.1
theorem k0_off234_inb : ∀ (i : grid0.Coords) (v2293 : BitVec 32) (k0_hw135 : k0_chk135 i v2293), ∀ a, (k0_off234 i v2293) a + S8x128.size a ≤ S4096x32000.size a := fun i v2293 k0_hw135 => k0_hw135.2

def k0_off235 (i : grid0.Coords) (v2113 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32 : BitVec 32 := 112#32
  let v2116 : BitVec 32 := Scalar.addi v2 c112_i32
  let c0_i32_1469 : BitVec 32 := 0#32
  let v2117 : BitVec 32 := Scalar.addi v2116 c0_i32_1469
  let c_m128_i32_1468 : BitVec 32 := 4294967168#32
  let v2114 : BitVec 32 := Scalar.andi v2113 c_m128_i32_1468
  let v2115 : BitVec 32 := v2114
  ![v2117.toNat, v2115.toNat]

def k0_chk120 (i : grid0.Coords) (v2113 : BitVec 32) : Prop :=
  (128 ∣ (k0_mult113 v2113).toNat) ∧
  (∀ a, (k0_off219 i v2113) a + S8x128.size a ≤ S4096x32000.size a) ∧
  (∀ a, (k0_off235 i v2113) a + S8x128.size a ≤ S4096x32000.size a)
instance k0_chk120.dec : ∀ (i : grid0.Coords) (v2113 : BitVec 32), Decidable (k0_chk120 i v2113) := fun i v2113 => decidable_of_iff' _ (Iff.of_eq (k0_chk120.eq_1 i v2113))
theorem k0_mult113_dvd : ∀ (i : grid0.Coords) (v2113 : BitVec 32) (k0_hw120 : k0_chk120 i v2113), 128 ∣ (k0_mult113 v2113).toNat := fun i v2113 k0_hw120 => k0_hw120.1
theorem k0_off219_inb : ∀ (i : grid0.Coords) (v2113 : BitVec 32) (k0_hw120 : k0_chk120 i v2113), ∀ a, (k0_off219 i v2113) a + S8x128.size a ≤ S4096x32000.size a := fun i v2113 k0_hw120 => k0_hw120.2.1
theorem k0_off235_inb : ∀ (i : grid0.Coords) (v2113 : BitVec 32) (k0_hw120 : k0_chk120 i v2113), ∀ a, (k0_off235 i v2113) a + S8x128.size a ≤ S4096x32000.size a := fun i v2113 k0_hw120 => k0_hw120.2.2

def k0_off236 (i : grid0.Coords) (v2125 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1476 : BitVec 32 := 112#32
  let v2128 : BitVec 32 := Scalar.addi v2 c112_i32_1476
  let c0_i32_1477 : BitVec 32 := 0#32
  let v2129 : BitVec 32 := Scalar.addi v2128 c0_i32_1477
  let c_m128_i32_1475 : BitVec 32 := 4294967168#32
  let v2126 : BitVec 32 := Scalar.andi v2125 c_m128_i32_1475
  let v2127 : BitVec 32 := v2126
  ![v2129.toNat, v2127.toNat]

def k0_chk121 (i : grid0.Coords) (v2125 : BitVec 32) : Prop :=
  (128 ∣ (k0_mult114 v2125).toNat) ∧
  (∀ a, (k0_off220 i v2125) a + S8x128.size a ≤ S4096x32000.size a) ∧
  (∀ a, (k0_off236 i v2125) a + S8x128.size a ≤ S4096x32000.size a)
instance k0_chk121.dec : ∀ (i : grid0.Coords) (v2125 : BitVec 32), Decidable (k0_chk121 i v2125) := fun i v2125 => decidable_of_iff' _ (Iff.of_eq (k0_chk121.eq_1 i v2125))
theorem k0_mult114_dvd : ∀ (i : grid0.Coords) (v2125 : BitVec 32) (k0_hw121 : k0_chk121 i v2125), 128 ∣ (k0_mult114 v2125).toNat := fun i v2125 k0_hw121 => k0_hw121.1
theorem k0_off220_inb : ∀ (i : grid0.Coords) (v2125 : BitVec 32) (k0_hw121 : k0_chk121 i v2125), ∀ a, (k0_off220 i v2125) a + S8x128.size a ≤ S4096x32000.size a := fun i v2125 k0_hw121 => k0_hw121.2.1
theorem k0_off236_inb : ∀ (i : grid0.Coords) (v2125 : BitVec 32) (k0_hw121 : k0_chk121 i v2125), ∀ a, (k0_off236 i v2125) a + S8x128.size a ≤ S4096x32000.size a := fun i v2125 k0_hw121 => k0_hw121.2.2

def k0_off237 (i : grid0.Coords) (v2137 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1484 : BitVec 32 := 112#32
  let v2140 : BitVec 32 := Scalar.addi v2 c112_i32_1484
  let c0_i32_1485 : BitVec 32 := 0#32
  let v2141 : BitVec 32 := Scalar.addi v2140 c0_i32_1485
  let c_m128_i32_1483 : BitVec 32 := 4294967168#32
  let v2138 : BitVec 32 := Scalar.andi v2137 c_m128_i32_1483
  let v2139 : BitVec 32 := v2138
  ![v2141.toNat, v2139.toNat]

def k0_chk122 (i : grid0.Coords) (v2137 : BitVec 32) : Prop :=
  (128 ∣ (k0_mult115 v2137).toNat) ∧
  (∀ a, (k0_off221 i v2137) a + S8x128.size a ≤ S4096x32000.size a) ∧
  (∀ a, (k0_off237 i v2137) a + S8x128.size a ≤ S4096x32000.size a)
instance k0_chk122.dec : ∀ (i : grid0.Coords) (v2137 : BitVec 32), Decidable (k0_chk122 i v2137) := fun i v2137 => decidable_of_iff' _ (Iff.of_eq (k0_chk122.eq_1 i v2137))
theorem k0_mult115_dvd : ∀ (i : grid0.Coords) (v2137 : BitVec 32) (k0_hw122 : k0_chk122 i v2137), 128 ∣ (k0_mult115 v2137).toNat := fun i v2137 k0_hw122 => k0_hw122.1
theorem k0_off221_inb : ∀ (i : grid0.Coords) (v2137 : BitVec 32) (k0_hw122 : k0_chk122 i v2137), ∀ a, (k0_off221 i v2137) a + S8x128.size a ≤ S4096x32000.size a := fun i v2137 k0_hw122 => k0_hw122.2.1
theorem k0_off237_inb : ∀ (i : grid0.Coords) (v2137 : BitVec 32) (k0_hw122 : k0_chk122 i v2137), ∀ a, (k0_off237 i v2137) a + S8x128.size a ≤ S4096x32000.size a := fun i v2137 k0_hw122 => k0_hw122.2.2

def k0_off238 (i : grid0.Coords) (v2149 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1492 : BitVec 32 := 112#32
  let v2152 : BitVec 32 := Scalar.addi v2 c112_i32_1492
  let c0_i32_1493 : BitVec 32 := 0#32
  let v2153 : BitVec 32 := Scalar.addi v2152 c0_i32_1493
  let c_m128_i32_1491 : BitVec 32 := 4294967168#32
  let v2150 : BitVec 32 := Scalar.andi v2149 c_m128_i32_1491
  let v2151 : BitVec 32 := v2150
  ![v2153.toNat, v2151.toNat]

def k0_chk123 (i : grid0.Coords) (v2149 : BitVec 32) : Prop :=
  (128 ∣ (k0_mult116 v2149).toNat) ∧
  (∀ a, (k0_off222 i v2149) a + S8x128.size a ≤ S4096x32000.size a) ∧
  (∀ a, (k0_off238 i v2149) a + S8x128.size a ≤ S4096x32000.size a)
instance k0_chk123.dec : ∀ (i : grid0.Coords) (v2149 : BitVec 32), Decidable (k0_chk123 i v2149) := fun i v2149 => decidable_of_iff' _ (Iff.of_eq (k0_chk123.eq_1 i v2149))
theorem k0_mult116_dvd : ∀ (i : grid0.Coords) (v2149 : BitVec 32) (k0_hw123 : k0_chk123 i v2149), 128 ∣ (k0_mult116 v2149).toNat := fun i v2149 k0_hw123 => k0_hw123.1
theorem k0_off222_inb : ∀ (i : grid0.Coords) (v2149 : BitVec 32) (k0_hw123 : k0_chk123 i v2149), ∀ a, (k0_off222 i v2149) a + S8x128.size a ≤ S4096x32000.size a := fun i v2149 k0_hw123 => k0_hw123.2.1
theorem k0_off238_inb : ∀ (i : grid0.Coords) (v2149 : BitVec 32) (k0_hw123 : k0_chk123 i v2149), ∀ a, (k0_off238 i v2149) a + S8x128.size a ≤ S4096x32000.size a := fun i v2149 k0_hw123 => k0_hw123.2.2

def k0_off239 (i : grid0.Coords) (v2161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1500 : BitVec 32 := 112#32
  let v2164 : BitVec 32 := Scalar.addi v2 c112_i32_1500
  let c0_i32_1501 : BitVec 32 := 0#32
  let v2165 : BitVec 32 := Scalar.addi v2164 c0_i32_1501
  let c_m128_i32_1499 : BitVec 32 := 4294967168#32
  let v2162 : BitVec 32 := Scalar.andi v2161 c_m128_i32_1499
  let v2163 : BitVec 32 := v2162
  ![v2165.toNat, v2163.toNat]

def k0_chk124 (i : grid0.Coords) (v2161 : BitVec 32) : Prop :=
  (128 ∣ (k0_mult117 v2161).toNat) ∧
  (∀ a, (k0_off223 i v2161) a + S8x128.size a ≤ S4096x32000.size a) ∧
  (∀ a, (k0_off239 i v2161) a + S8x128.size a ≤ S4096x32000.size a)
instance k0_chk124.dec : ∀ (i : grid0.Coords) (v2161 : BitVec 32), Decidable (k0_chk124 i v2161) := fun i v2161 => decidable_of_iff' _ (Iff.of_eq (k0_chk124.eq_1 i v2161))
theorem k0_mult117_dvd : ∀ (i : grid0.Coords) (v2161 : BitVec 32) (k0_hw124 : k0_chk124 i v2161), 128 ∣ (k0_mult117 v2161).toNat := fun i v2161 k0_hw124 => k0_hw124.1
theorem k0_off223_inb : ∀ (i : grid0.Coords) (v2161 : BitVec 32) (k0_hw124 : k0_chk124 i v2161), ∀ a, (k0_off223 i v2161) a + S8x128.size a ≤ S4096x32000.size a := fun i v2161 k0_hw124 => k0_hw124.2.1
theorem k0_off239_inb : ∀ (i : grid0.Coords) (v2161 : BitVec 32) (k0_hw124 : k0_chk124 i v2161), ∀ a, (k0_off239 i v2161) a + S8x128.size a ≤ S4096x32000.size a := fun i v2161 k0_hw124 => k0_hw124.2.2

def k0_off240 (i : grid0.Coords) (v2173 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1508 : BitVec 32 := 112#32
  let v2176 : BitVec 32 := Scalar.addi v2 c112_i32_1508
  let c0_i32_1509 : BitVec 32 := 0#32
  let v2177 : BitVec 32 := Scalar.addi v2176 c0_i32_1509
  let c_m128_i32_1507 : BitVec 32 := 4294967168#32
  let v2174 : BitVec 32 := Scalar.andi v2173 c_m128_i32_1507
  let v2175 : BitVec 32 := v2174
  ![v2177.toNat, v2175.toNat]

def k0_chk125 (i : grid0.Coords) (v2173 : BitVec 32) : Prop :=
  (128 ∣ (k0_mult118 v2173).toNat) ∧
  (∀ a, (k0_off224 i v2173) a + S8x128.size a ≤ S4096x32000.size a) ∧
  (∀ a, (k0_off240 i v2173) a + S8x128.size a ≤ S4096x32000.size a)
instance k0_chk125.dec : ∀ (i : grid0.Coords) (v2173 : BitVec 32), Decidable (k0_chk125 i v2173) := fun i v2173 => decidable_of_iff' _ (Iff.of_eq (k0_chk125.eq_1 i v2173))
theorem k0_mult118_dvd : ∀ (i : grid0.Coords) (v2173 : BitVec 32) (k0_hw125 : k0_chk125 i v2173), 128 ∣ (k0_mult118 v2173).toNat := fun i v2173 k0_hw125 => k0_hw125.1
theorem k0_off224_inb : ∀ (i : grid0.Coords) (v2173 : BitVec 32) (k0_hw125 : k0_chk125 i v2173), ∀ a, (k0_off224 i v2173) a + S8x128.size a ≤ S4096x32000.size a := fun i v2173 k0_hw125 => k0_hw125.2.1
theorem k0_off240_inb : ∀ (i : grid0.Coords) (v2173 : BitVec 32) (k0_hw125 : k0_chk125 i v2173), ∀ a, (k0_off240 i v2173) a + S8x128.size a ≤ S4096x32000.size a := fun i v2173 k0_hw125 => k0_hw125.2.2

def k0_off241 (i : grid0.Coords) (v2185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1516 : BitVec 32 := 112#32
  let v2188 : BitVec 32 := Scalar.addi v2 c112_i32_1516
  let c0_i32_1517 : BitVec 32 := 0#32
  let v2189 : BitVec 32 := Scalar.addi v2188 c0_i32_1517
  let c_m128_i32_1515 : BitVec 32 := 4294967168#32
  let v2186 : BitVec 32 := Scalar.andi v2185 c_m128_i32_1515
  let v2187 : BitVec 32 := v2186
  ![v2189.toNat, v2187.toNat]

def k0_chk126 (i : grid0.Coords) (v2185 : BitVec 32) : Prop :=
  (128 ∣ (k0_mult119 v2185).toNat) ∧
  (∀ a, (k0_off225 i v2185) a + S8x128.size a ≤ S4096x32000.size a) ∧
  (∀ a, (k0_off241 i v2185) a + S8x128.size a ≤ S4096x32000.size a)
instance k0_chk126.dec : ∀ (i : grid0.Coords) (v2185 : BitVec 32), Decidable (k0_chk126 i v2185) := fun i v2185 => decidable_of_iff' _ (Iff.of_eq (k0_chk126.eq_1 i v2185))
theorem k0_mult119_dvd : ∀ (i : grid0.Coords) (v2185 : BitVec 32) (k0_hw126 : k0_chk126 i v2185), 128 ∣ (k0_mult119 v2185).toNat := fun i v2185 k0_hw126 => k0_hw126.1
theorem k0_off225_inb : ∀ (i : grid0.Coords) (v2185 : BitVec 32) (k0_hw126 : k0_chk126 i v2185), ∀ a, (k0_off225 i v2185) a + S8x128.size a ≤ S4096x32000.size a := fun i v2185 k0_hw126 => k0_hw126.2.1
theorem k0_off241_inb : ∀ (i : grid0.Coords) (v2185 : BitVec 32) (k0_hw126 : k0_chk126 i v2185), ∀ a, (k0_off241 i v2185) a + S8x128.size a ≤ S4096x32000.size a := fun i v2185 k0_hw126 => k0_hw126.2.2

def k0_off242 (i : grid0.Coords) (v2197 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1524 : BitVec 32 := 112#32
  let v2200 : BitVec 32 := Scalar.addi v2 c112_i32_1524
  let c0_i32_1525 : BitVec 32 := 0#32
  let v2201 : BitVec 32 := Scalar.addi v2200 c0_i32_1525
  let c_m128_i32_1523 : BitVec 32 := 4294967168#32
  let v2198 : BitVec 32 := Scalar.andi v2197 c_m128_i32_1523
  let v2199 : BitVec 32 := v2198
  ![v2201.toNat, v2199.toNat]

def k0_chk127 (i : grid0.Coords) (v2197 : BitVec 32) : Prop :=
  (128 ∣ (k0_mult120 v2197).toNat) ∧
  (∀ a, (k0_off226 i v2197) a + S8x128.size a ≤ S4096x32000.size a) ∧
  (∀ a, (k0_off242 i v2197) a + S8x128.size a ≤ S4096x32000.size a)
instance k0_chk127.dec : ∀ (i : grid0.Coords) (v2197 : BitVec 32), Decidable (k0_chk127 i v2197) := fun i v2197 => decidable_of_iff' _ (Iff.of_eq (k0_chk127.eq_1 i v2197))
theorem k0_mult120_dvd : ∀ (i : grid0.Coords) (v2197 : BitVec 32) (k0_hw127 : k0_chk127 i v2197), 128 ∣ (k0_mult120 v2197).toNat := fun i v2197 k0_hw127 => k0_hw127.1
theorem k0_off226_inb : ∀ (i : grid0.Coords) (v2197 : BitVec 32) (k0_hw127 : k0_chk127 i v2197), ∀ a, (k0_off226 i v2197) a + S8x128.size a ≤ S4096x32000.size a := fun i v2197 k0_hw127 => k0_hw127.2.1
theorem k0_off242_inb : ∀ (i : grid0.Coords) (v2197 : BitVec 32) (k0_hw127 : k0_chk127 i v2197), ∀ a, (k0_off242 i v2197) a + S8x128.size a ≤ S4096x32000.size a := fun i v2197 k0_hw127 => k0_hw127.2.2

def k0_off243 (i : grid0.Coords) (v2209 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1532 : BitVec 32 := 112#32
  let v2212 : BitVec 32 := Scalar.addi v2 c112_i32_1532
  let c8_i32_1533 : BitVec 32 := 8#32
  let v2213 : BitVec 32 := Scalar.addi v2212 c8_i32_1533
  let c_m128_i32_1531 : BitVec 32 := 4294967168#32
  let v2210 : BitVec 32 := Scalar.andi v2209 c_m128_i32_1531
  let v2211 : BitVec 32 := v2210
  ![v2213.toNat, v2211.toNat]

def k0_chk128 (i : grid0.Coords) (v2209 : BitVec 32) : Prop :=
  (128 ∣ (k0_mult121 v2209).toNat) ∧
  (∀ a, (k0_off227 i v2209) a + S8x128.size a ≤ S4096x32000.size a) ∧
  (∀ a, (k0_off243 i v2209) a + S8x128.size a ≤ S4096x32000.size a)
instance k0_chk128.dec : ∀ (i : grid0.Coords) (v2209 : BitVec 32), Decidable (k0_chk128 i v2209) := fun i v2209 => decidable_of_iff' _ (Iff.of_eq (k0_chk128.eq_1 i v2209))
theorem k0_mult121_dvd : ∀ (i : grid0.Coords) (v2209 : BitVec 32) (k0_hw128 : k0_chk128 i v2209), 128 ∣ (k0_mult121 v2209).toNat := fun i v2209 k0_hw128 => k0_hw128.1
theorem k0_off227_inb : ∀ (i : grid0.Coords) (v2209 : BitVec 32) (k0_hw128 : k0_chk128 i v2209), ∀ a, (k0_off227 i v2209) a + S8x128.size a ≤ S4096x32000.size a := fun i v2209 k0_hw128 => k0_hw128.2.1
theorem k0_off243_inb : ∀ (i : grid0.Coords) (v2209 : BitVec 32) (k0_hw128 : k0_chk128 i v2209), ∀ a, (k0_off243 i v2209) a + S8x128.size a ≤ S4096x32000.size a := fun i v2209 k0_hw128 => k0_hw128.2.2

def k0_off244 (i : grid0.Coords) (v2221 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1540 : BitVec 32 := 112#32
  let v2224 : BitVec 32 := Scalar.addi v2 c112_i32_1540
  let c8_i32_1541 : BitVec 32 := 8#32
  let v2225 : BitVec 32 := Scalar.addi v2224 c8_i32_1541
  let c_m128_i32_1539 : BitVec 32 := 4294967168#32
  let v2222 : BitVec 32 := Scalar.andi v2221 c_m128_i32_1539
  let v2223 : BitVec 32 := v2222
  ![v2225.toNat, v2223.toNat]

def k0_chk129 (i : grid0.Coords) (v2221 : BitVec 32) : Prop :=
  (128 ∣ (k0_mult122 v2221).toNat) ∧
  (∀ a, (k0_off228 i v2221) a + S8x128.size a ≤ S4096x32000.size a) ∧
  (∀ a, (k0_off244 i v2221) a + S8x128.size a ≤ S4096x32000.size a)
instance k0_chk129.dec : ∀ (i : grid0.Coords) (v2221 : BitVec 32), Decidable (k0_chk129 i v2221) := fun i v2221 => decidable_of_iff' _ (Iff.of_eq (k0_chk129.eq_1 i v2221))
theorem k0_mult122_dvd : ∀ (i : grid0.Coords) (v2221 : BitVec 32) (k0_hw129 : k0_chk129 i v2221), 128 ∣ (k0_mult122 v2221).toNat := fun i v2221 k0_hw129 => k0_hw129.1
theorem k0_off228_inb : ∀ (i : grid0.Coords) (v2221 : BitVec 32) (k0_hw129 : k0_chk129 i v2221), ∀ a, (k0_off228 i v2221) a + S8x128.size a ≤ S4096x32000.size a := fun i v2221 k0_hw129 => k0_hw129.2.1
theorem k0_off244_inb : ∀ (i : grid0.Coords) (v2221 : BitVec 32) (k0_hw129 : k0_chk129 i v2221), ∀ a, (k0_off244 i v2221) a + S8x128.size a ≤ S4096x32000.size a := fun i v2221 k0_hw129 => k0_hw129.2.2

def k0_off245 (i : grid0.Coords) (v2233 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1548 : BitVec 32 := 112#32
  let v2236 : BitVec 32 := Scalar.addi v2 c112_i32_1548
  let c8_i32_1549 : BitVec 32 := 8#32
  let v2237 : BitVec 32 := Scalar.addi v2236 c8_i32_1549
  let c_m128_i32_1547 : BitVec 32 := 4294967168#32
  let v2234 : BitVec 32 := Scalar.andi v2233 c_m128_i32_1547
  let v2235 : BitVec 32 := v2234
  ![v2237.toNat, v2235.toNat]

def k0_chk130 (i : grid0.Coords) (v2233 : BitVec 32) : Prop :=
  (128 ∣ (k0_mult123 v2233).toNat) ∧
  (∀ a, (k0_off229 i v2233) a + S8x128.size a ≤ S4096x32000.size a) ∧
  (∀ a, (k0_off245 i v2233) a + S8x128.size a ≤ S4096x32000.size a)
instance k0_chk130.dec : ∀ (i : grid0.Coords) (v2233 : BitVec 32), Decidable (k0_chk130 i v2233) := fun i v2233 => decidable_of_iff' _ (Iff.of_eq (k0_chk130.eq_1 i v2233))
theorem k0_mult123_dvd : ∀ (i : grid0.Coords) (v2233 : BitVec 32) (k0_hw130 : k0_chk130 i v2233), 128 ∣ (k0_mult123 v2233).toNat := fun i v2233 k0_hw130 => k0_hw130.1
theorem k0_off229_inb : ∀ (i : grid0.Coords) (v2233 : BitVec 32) (k0_hw130 : k0_chk130 i v2233), ∀ a, (k0_off229 i v2233) a + S8x128.size a ≤ S4096x32000.size a := fun i v2233 k0_hw130 => k0_hw130.2.1
theorem k0_off245_inb : ∀ (i : grid0.Coords) (v2233 : BitVec 32) (k0_hw130 : k0_chk130 i v2233), ∀ a, (k0_off245 i v2233) a + S8x128.size a ≤ S4096x32000.size a := fun i v2233 k0_hw130 => k0_hw130.2.2

def k0_off246 (i : grid0.Coords) (v2245 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1556 : BitVec 32 := 112#32
  let v2248 : BitVec 32 := Scalar.addi v2 c112_i32_1556
  let c8_i32_1557 : BitVec 32 := 8#32
  let v2249 : BitVec 32 := Scalar.addi v2248 c8_i32_1557
  let c_m128_i32_1555 : BitVec 32 := 4294967168#32
  let v2246 : BitVec 32 := Scalar.andi v2245 c_m128_i32_1555
  let v2247 : BitVec 32 := v2246
  ![v2249.toNat, v2247.toNat]

def k0_chk131 (i : grid0.Coords) (v2245 : BitVec 32) : Prop :=
  (128 ∣ (k0_mult124 v2245).toNat) ∧
  (∀ a, (k0_off230 i v2245) a + S8x128.size a ≤ S4096x32000.size a) ∧
  (∀ a, (k0_off246 i v2245) a + S8x128.size a ≤ S4096x32000.size a)
instance k0_chk131.dec : ∀ (i : grid0.Coords) (v2245 : BitVec 32), Decidable (k0_chk131 i v2245) := fun i v2245 => decidable_of_iff' _ (Iff.of_eq (k0_chk131.eq_1 i v2245))
theorem k0_mult124_dvd : ∀ (i : grid0.Coords) (v2245 : BitVec 32) (k0_hw131 : k0_chk131 i v2245), 128 ∣ (k0_mult124 v2245).toNat := fun i v2245 k0_hw131 => k0_hw131.1
theorem k0_off230_inb : ∀ (i : grid0.Coords) (v2245 : BitVec 32) (k0_hw131 : k0_chk131 i v2245), ∀ a, (k0_off230 i v2245) a + S8x128.size a ≤ S4096x32000.size a := fun i v2245 k0_hw131 => k0_hw131.2.1
theorem k0_off246_inb : ∀ (i : grid0.Coords) (v2245 : BitVec 32) (k0_hw131 : k0_chk131 i v2245), ∀ a, (k0_off246 i v2245) a + S8x128.size a ≤ S4096x32000.size a := fun i v2245 k0_hw131 => k0_hw131.2.2

def k0_off247 (i : grid0.Coords) (v2257 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1564 : BitVec 32 := 112#32
  let v2260 : BitVec 32 := Scalar.addi v2 c112_i32_1564
  let c8_i32_1565 : BitVec 32 := 8#32
  let v2261 : BitVec 32 := Scalar.addi v2260 c8_i32_1565
  let c_m128_i32_1563 : BitVec 32 := 4294967168#32
  let v2258 : BitVec 32 := Scalar.andi v2257 c_m128_i32_1563
  let v2259 : BitVec 32 := v2258
  ![v2261.toNat, v2259.toNat]

def k0_chk132 (i : grid0.Coords) (v2257 : BitVec 32) : Prop :=
  (128 ∣ (k0_mult125 v2257).toNat) ∧
  (∀ a, (k0_off231 i v2257) a + S8x128.size a ≤ S4096x32000.size a) ∧
  (∀ a, (k0_off247 i v2257) a + S8x128.size a ≤ S4096x32000.size a)
instance k0_chk132.dec : ∀ (i : grid0.Coords) (v2257 : BitVec 32), Decidable (k0_chk132 i v2257) := fun i v2257 => decidable_of_iff' _ (Iff.of_eq (k0_chk132.eq_1 i v2257))
theorem k0_mult125_dvd : ∀ (i : grid0.Coords) (v2257 : BitVec 32) (k0_hw132 : k0_chk132 i v2257), 128 ∣ (k0_mult125 v2257).toNat := fun i v2257 k0_hw132 => k0_hw132.1
theorem k0_off231_inb : ∀ (i : grid0.Coords) (v2257 : BitVec 32) (k0_hw132 : k0_chk132 i v2257), ∀ a, (k0_off231 i v2257) a + S8x128.size a ≤ S4096x32000.size a := fun i v2257 k0_hw132 => k0_hw132.2.1
theorem k0_off247_inb : ∀ (i : grid0.Coords) (v2257 : BitVec 32) (k0_hw132 : k0_chk132 i v2257), ∀ a, (k0_off247 i v2257) a + S8x128.size a ≤ S4096x32000.size a := fun i v2257 k0_hw132 => k0_hw132.2.2

def k0_off248 (i : grid0.Coords) (v2269 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1572 : BitVec 32 := 112#32
  let v2272 : BitVec 32 := Scalar.addi v2 c112_i32_1572
  let c8_i32_1573 : BitVec 32 := 8#32
  let v2273 : BitVec 32 := Scalar.addi v2272 c8_i32_1573
  let c_m128_i32_1571 : BitVec 32 := 4294967168#32
  let v2270 : BitVec 32 := Scalar.andi v2269 c_m128_i32_1571
  let v2271 : BitVec 32 := v2270
  ![v2273.toNat, v2271.toNat]

def k0_chk133 (i : grid0.Coords) (v2269 : BitVec 32) : Prop :=
  (128 ∣ (k0_mult126 v2269).toNat) ∧
  (∀ a, (k0_off232 i v2269) a + S8x128.size a ≤ S4096x32000.size a) ∧
  (∀ a, (k0_off248 i v2269) a + S8x128.size a ≤ S4096x32000.size a)
instance k0_chk133.dec : ∀ (i : grid0.Coords) (v2269 : BitVec 32), Decidable (k0_chk133 i v2269) := fun i v2269 => decidable_of_iff' _ (Iff.of_eq (k0_chk133.eq_1 i v2269))
theorem k0_mult126_dvd : ∀ (i : grid0.Coords) (v2269 : BitVec 32) (k0_hw133 : k0_chk133 i v2269), 128 ∣ (k0_mult126 v2269).toNat := fun i v2269 k0_hw133 => k0_hw133.1
theorem k0_off232_inb : ∀ (i : grid0.Coords) (v2269 : BitVec 32) (k0_hw133 : k0_chk133 i v2269), ∀ a, (k0_off232 i v2269) a + S8x128.size a ≤ S4096x32000.size a := fun i v2269 k0_hw133 => k0_hw133.2.1
theorem k0_off248_inb : ∀ (i : grid0.Coords) (v2269 : BitVec 32) (k0_hw133 : k0_chk133 i v2269), ∀ a, (k0_off248 i v2269) a + S8x128.size a ≤ S4096x32000.size a := fun i v2269 k0_hw133 => k0_hw133.2.2

def k0_off249 (i : grid0.Coords) (v2281 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1580 : BitVec 32 := 112#32
  let v2284 : BitVec 32 := Scalar.addi v2 c112_i32_1580
  let c8_i32_1581 : BitVec 32 := 8#32
  let v2285 : BitVec 32 := Scalar.addi v2284 c8_i32_1581
  let c_m128_i32_1579 : BitVec 32 := 4294967168#32
  let v2282 : BitVec 32 := Scalar.andi v2281 c_m128_i32_1579
  let v2283 : BitVec 32 := v2282
  ![v2285.toNat, v2283.toNat]

def k0_chk134 (i : grid0.Coords) (v2281 : BitVec 32) : Prop :=
  (128 ∣ (k0_mult127 v2281).toNat) ∧
  (∀ a, (k0_off233 i v2281) a + S8x128.size a ≤ S4096x32000.size a) ∧
  (∀ a, (k0_off249 i v2281) a + S8x128.size a ≤ S4096x32000.size a)
instance k0_chk134.dec : ∀ (i : grid0.Coords) (v2281 : BitVec 32), Decidable (k0_chk134 i v2281) := fun i v2281 => decidable_of_iff' _ (Iff.of_eq (k0_chk134.eq_1 i v2281))
theorem k0_mult127_dvd : ∀ (i : grid0.Coords) (v2281 : BitVec 32) (k0_hw134 : k0_chk134 i v2281), 128 ∣ (k0_mult127 v2281).toNat := fun i v2281 k0_hw134 => k0_hw134.1
theorem k0_off233_inb : ∀ (i : grid0.Coords) (v2281 : BitVec 32) (k0_hw134 : k0_chk134 i v2281), ∀ a, (k0_off233 i v2281) a + S8x128.size a ≤ S4096x32000.size a := fun i v2281 k0_hw134 => k0_hw134.2.1
theorem k0_off249_inb : ∀ (i : grid0.Coords) (v2281 : BitVec 32) (k0_hw134 : k0_chk134 i v2281), ∀ a, (k0_off249 i v2281) a + S8x128.size a ≤ S4096x32000.size a := fun i v2281 k0_hw134 => k0_hw134.2.2

def k0_chk136 (v2401 : IVec S16 32) (v2403 : IVec S16 32) (v2405 : IVec S16 32) : Prop :=
  (∀ a x, ((![v2401, v2403, v2405] : Fin 3 → IVec S16 32) a x).toNat < S16x8x128.size a)
instance k0_chk136.dec : ∀ (v2401 : IVec S16 32) (v2403 : IVec S16 32) (v2405 : IVec S16 32), Decidable (k0_chk136 v2401 v2403 v2405) := fun v2401 v2403 v2405 => decidable_of_iff' _ (Iff.of_eq (k0_chk136.eq_1 v2401 v2403 v2405))
theorem k0_idx8_inb : ∀ (v2401 : IVec S16 32) (v2403 : IVec S16 32) (v2405 : IVec S16 32) (k0_hw136 : k0_chk136 v2401 v2403 v2405), ∀ a x, ((![v2401, v2403, v2405] : Fin 3 → IVec S16 32) a x).toNat < S16x8x128.size a := fun v2401 v2403 v2405 k0_hw136 => k0_hw136
def k0_off250 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_1681 : BitVec 32 := 16#32
  let v2413 : BitVec 32 := Scalar.muli v1 c16_i32_1681
  ![v2413.toNat]
abbrev grid1 : Pipeline.Grid := ⟨2, ![32, 1], ![false, false]⟩

def k1_cond2 (i : grid1.Coords) : BitVec 1 :=
  let arg1 : BitVec 32 := BitVec.ofNat 32 (i 1).val
  let c0_i32_13 : BitVec 32 := 0#32
  let v26 : BitVec 1 := Scalar.cmpi .eq arg1 c0_i32_13
  let v27 : BitVec 32 := Scalar.extui v26
  let c0_i32_14 : BitVec 32 := 0#32
  let v28 : BitVec 1 := Scalar.cmpi .ne v27 c0_i32_14
  v28

def k1_cond3 (i : grid1.Coords) : BitVec 1 :=
  let arg0 : BitVec 32 := BitVec.ofNat 32 (i 0).val
  let c0_i32_22 : BitVec 32 := 0#32
  let v42 : BitVec 1 := Scalar.cmpi .eq arg0 c0_i32_22
  let v43 : BitVec 32 := Scalar.extui v42
  let c0_i32_23 : BitVec 32 := 0#32
  let v44 : BitVec 1 := Scalar.cmpi .ne v43 c0_i32_23
  v44

def k1_cond4 (i : grid1.Coords) : BitVec 1 :=
  let arg0 : BitVec 32 := BitVec.ofNat 32 (i 0).val
  let c0_i32_24 : BitVec 32 := 0#32
  let v45 : BitVec 1 := Scalar.cmpi .sgt arg0 c0_i32_24
  let v46 : BitVec 32 := Scalar.extui v45
  let c0_i32_25 : BitVec 32 := 0#32
  let v47 : BitVec 1 := Scalar.cmpi .ne v46 c0_i32_25
  v47

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x32000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S128_S16_0 : ∀ a, (![0] : Fin 1 → Nat) a + S16.size a ≤ S128.size a
  h_S16 : 0 < S16.numel
  slices_S16_o0_S1 : S16.Slices ![0] S1
  inpos_S1_p0 : ∀ a, (![0] : Fin 1 → Nat) a < S1.size a
  inb_S16x8x128_S1x8x128_0_0_0 : ∀ a, (![0, 0, 0] : Fin 3 → Nat) a + S1x8x128.size a ≤ S16x8x128.size a
  squeezes_S1x8x128_S8x128 : S1x8x128.Squeezes S8x128
  slices_S16_o1_S1 : S16.Slices ![1] S1
  inb_S16x8x128_S1x8x128_1_0_0 : ∀ a, (![1, 0, 0] : Fin 3 → Nat) a + S1x8x128.size a ≤ S16x8x128.size a
  slices_S16_o2_S1 : S16.Slices ![2] S1
  inb_S16x8x128_S1x8x128_2_0_0 : ∀ a, (![2, 0, 0] : Fin 3 → Nat) a + S1x8x128.size a ≤ S16x8x128.size a
  slices_S16_o3_S1 : S16.Slices ![3] S1
  inb_S16x8x128_S1x8x128_3_0_0 : ∀ a, (![3, 0, 0] : Fin 3 → Nat) a + S1x8x128.size a ≤ S16x8x128.size a
  slices_S16_o4_S1 : S16.Slices ![4] S1
  inb_S16x8x128_S1x8x128_4_0_0 : ∀ a, (![4, 0, 0] : Fin 3 → Nat) a + S1x8x128.size a ≤ S16x8x128.size a
  slices_S16_o5_S1 : S16.Slices ![5] S1
  inb_S16x8x128_S1x8x128_5_0_0 : ∀ a, (![5, 0, 0] : Fin 3 → Nat) a + S1x8x128.size a ≤ S16x8x128.size a
  slices_S16_o6_S1 : S16.Slices ![6] S1
  inb_S16x8x128_S1x8x128_6_0_0 : ∀ a, (![6, 0, 0] : Fin 3 → Nat) a + S1x8x128.size a ≤ S16x8x128.size a
  slices_S16_o7_S1 : S16.Slices ![7] S1
  inb_S16x8x128_S1x8x128_7_0_0 : ∀ a, (![7, 0, 0] : Fin 3 → Nat) a + S1x8x128.size a ≤ S16x8x128.size a
  slices_S16_o8_S1 : S16.Slices ![8] S1
  inb_S16x8x128_S1x8x128_8_0_0 : ∀ a, (![8, 0, 0] : Fin 3 → Nat) a + S1x8x128.size a ≤ S16x8x128.size a
  slices_S16_o9_S1 : S16.Slices ![9] S1
  inb_S16x8x128_S1x8x128_9_0_0 : ∀ a, (![9, 0, 0] : Fin 3 → Nat) a + S1x8x128.size a ≤ S16x8x128.size a
  slices_S16_o10_S1 : S16.Slices ![10] S1
  inb_S16x8x128_S1x8x128_10_0_0 : ∀ a, (![10, 0, 0] : Fin 3 → Nat) a + S1x8x128.size a ≤ S16x8x128.size a
  slices_S16_o11_S1 : S16.Slices ![11] S1
  inb_S16x8x128_S1x8x128_11_0_0 : ∀ a, (![11, 0, 0] : Fin 3 → Nat) a + S1x8x128.size a ≤ S16x8x128.size a
  slices_S16_o12_S1 : S16.Slices ![12] S1
  inb_S16x8x128_S1x8x128_12_0_0 : ∀ a, (![12, 0, 0] : Fin 3 → Nat) a + S1x8x128.size a ≤ S16x8x128.size a
  slices_S16_o13_S1 : S16.Slices ![13] S1
  inb_S16x8x128_S1x8x128_13_0_0 : ∀ a, (![13, 0, 0] : Fin 3 → Nat) a + S1x8x128.size a ≤ S16x8x128.size a
  slices_S16_o14_S1 : S16.Slices ![14] S1
  inb_S16x8x128_S1x8x128_14_0_0 : ∀ a, (![14, 0, 0] : Fin 3 → Nat) a + S1x8x128.size a ≤ S16x8x128.size a
  slices_S16_o15_S1 : S16.Slices ![15] S1
  inb_S16x8x128_S1x8x128_15_0_0 : ∀ a, (![15, 0, 0] : Fin 3 → Nat) a + S1x8x128.size a ≤ S16x8x128.size a
  iota_S16_d0_w32_scVector : S16.Iotas .scVector 32 [0]
  h_S16x8x128 : 0 < S16x8x128.numel
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S16_S16_0 : ∀ a, (![0] : Fin 1 → Nat) a + S16.size a ≤ S16.size a
  shapeCasts_S4096_S4096x1 : S4096.ShapeCasts S4096x1
  inb_S128x32000_S128x32000_0_0 : ∀ a, (![0, 0] : Fin 2 → Nat) a + S128x32000.size a ≤ S128x32000.size a
  h_S128x32000 : 0 < S128x32000.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x32000_S128 : S128x32000.Reduces [1] S128
  shapeCasts_S128_S128x1 : S128.ShapeCasts S128x1
  broadcasts_S128x1_S128x32000 : S128x1.Broadcasts S128x32000
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  reducesTo_S512_S_d0 : S512.ReducesTo [0] S_
  h_S_ : 0 < S_.numel
  hcc0_scratch3 : 0 + S_.numel ≤ 8
  hcc0_scoped0 : 1 + S_.numel ≤ 8
  hcc0_scoped1 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off250_inb : ∀ i : grid0.Coords, ∀ a, (k0_off250 i) a + S16.size a ≤ S512.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S4096x1.size a
  hwx1_0 : ∀ i : grid1.Coords, EltTy.bits .i32 = 32 ∨ (Rect.block (s := S4096x1) S128x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x32000.size a ≤ S4096x32000.size a
  hwx1_1 : ∀ i : grid1.Coords, EltTy.bits .f32 = 32 ∨ (Rect.block (s := S4096x32000) S128x32000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1

abbrev win1_0 : Pipeline.Window sig grid1 :=
  Pipeline.Window.ofSpec (Memref.whole main_v1) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S128x32000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1 && k1_cond3 i == 1#1) && !(k1_cond2 i == 1#1 && k1_cond4 i == 1#1) | ⟨_ + 3, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 63
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S_, .f32⟩
  | .hbm, ⟨18, _⟩ => ⟨S4096x32000, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S_, .f32⟩
  | .hbm, ⟨38, _⟩ => ⟨S4096, .f32⟩
  | .hbm, ⟨39, _⟩ => ⟨S4096x32000, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S4096x1, .i1⟩
  | .hbm, ⟨44, _⟩ => ⟨S_, .f32⟩
  | .hbm, ⟨45, _⟩ => ⟨S_, .f32⟩
  | .hbm, ⟨46, _⟩ => ⟨S4096x32000, .i1⟩
  | .hbm, ⟨47, _⟩ => ⟨S4096x32000, .f32⟩
  | .hbm, ⟨48, _⟩ => ⟨S4096x32000, .f32⟩
  | .hbm, ⟨49, _⟩ => ⟨S_, .f32⟩
  | .hbm, ⟨50, _⟩ => ⟨S4096x32000, .f32⟩
  | .hbm, ⟨51, _⟩ => ⟨S4096x32000, .i1⟩
  | .hbm, ⟨52, _⟩ => ⟨S4096x32000, .i1⟩
  | .hbm, ⟨53, _⟩ => ⟨S4096x32000, .i1⟩
  | .hbm, ⟨54, _⟩ => ⟨S4096x32000, .f32⟩
  | .hbm, ⟨55, _⟩ => ⟨S4096x32000, .f32⟩
  | .hbm, ⟨56, _⟩ => ⟨S_, .f32⟩
  | .hbm, ⟨57, _⟩ => ⟨S4096x32000, .f32⟩
  | .hbm, ⟨58, _⟩ => ⟨S4096x32000, .f32⟩
  | .hbm, ⟨59, _⟩ => ⟨S4096x32000, .f32⟩
  | .hbm, ⟨60, _⟩ => ⟨S4096x32000, .f32⟩
  | .hbm, ⟨61, _⟩ => ⟨S_, .f32⟩
  | .hbm, ⟨62, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v21 : Ref sig .tc := ⟨.hbm, 48, rfl⟩
abbrev main_cst_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_8 : Ref sig .tc := ⟨.hbm, 61, rfl⟩
abbrev main_v32 : Ref sig .tc := ⟨.hbm, 62, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x32000 : S_.BroadcastsInDim S4096x32000 (![] : Fin 0 → Fin S4096x32000.rank)
  concatenates_S4096x1_S4096x1_S4096x2_d1 : Shape.Concatenates [S4096x1, S4096x1] S4096x2 1
  reducesTo_S4096x32000_S_d0_1 : S4096x32000.ReducesTo [0, 1] S_
  scatter_S4096x32000_S4096x2_S4096_n_01_01_1_wf : ScatterDims.WF S4096x32000 S4096x2 S4096 [] [0, 1] [0, 1] 1

variable [Facts₀]

def scatter_S4096x32000_S4096x2_S4096_n_01_01_1 : ScatterDims S4096x32000 S4096x2 S4096 where
  updateWindowDims := []
  insertedWindowDims := [0, 1]
  scatterDimsToOperandDims := [0, 1]
  indexVectorDim := 1
  wf := scatter_S4096x32000_S4096x2_S4096_n_01_01_1_wf

class Facts : Prop extends Facts₀ where

variable [Facts]
-- ==== Proof.Common.lean ====
/-
  The kernel's program as the launch theorem sees it, and the resource algebra of its proof: the handshakes'
  rounds (between the TensorCore, the two sequencers and the thirty-two tiles), the rounds of the TensorCore
  pipeline's staging cells, and the counters of the tiles' own local copies.
-/
import proofs.«217662_g32298154065999_cont_8to1_b_8_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«217662_g32298154065999_cont_8to1_b_8_33_alg».proof.Proof.Gen.KernelIdeal
import proofs.«217662_g32298154065999_cont_8to1_b_8_33_alg».proof.Proof.Gen.KernelIdeal.Skeleton
import proofs.«217662_g32298154065999_cont_8to1_b_8_33_alg».proof.Proof.Gen.KernelIdeal.Launch
import proofs.«217662_g32298154065999_cont_8to1_b_8_33_alg».proof.Proof.Gen.KernelIdeal.Points

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

/-- The handshakes' rounds, the left factor. -/
abbrev EH : Emb UH (MT nD τ sig (HIx 1) (Elt F) ℕ UU ℕ) := embL
/-- The pipeline's staging cells' rounds, the left factor of the right factor; the counters are found by instance. -/
def ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER : Emb UR (MT nD τ sig (HIx 1) (Elt F) ℕ UU ℕ)).LandsIn (upEmb : UEmb _ (MT nD τ sig (HIx 1) (Elt F) ℕ UU ℕ)) := by
  unfold ER; infer_instance

example : CountersIn UU := inferInstance

end Cert.Proof.KernelIdeal

end
-- ==== Proof.Pay.lean ====
/-
  What the SparseCore call carries between the threads, with the values.

  Tile (core c, subcore i) is worker w = 2 i + c. It reads rows [128 w, 128 w + 128) of x and entries
  [128 w, 128 w + 128) of t, and writes words [16 w, 16 w + 16) of the call's result. Lane l of its result is the
  left fold over the eight chunks k of  acc + (if t[r] ≠ 0 then x[r, t[r]] else 0),  r = 128 w + 16 k + l,
  from acc = 0 (`tileOut`). The TensorCore hands each tile exactly those three pieces and gets them back, the
  result's piece at `tileOut`.
-/
import proofs.«217662_g32298154065999_cont_8to1_b_8_33_alg».proof.Proof.Common
import Idealize.ShloMosaic.Lib.ValueIdx

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays and their pieces -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

theorem hdivX : 32 ∣ S4096x32000.size 0 := ⟨128, rfl⟩
theorem hdivT : 32 ∣ S4096.size 0 := ⟨128, rfl⟩
theorem hdivO : 32 ∣ S512.size 0 := ⟨16, rfl⟩

/-- Worker w's 128 rows of x, its 128 entries of t, its 16 words of the result. -/
abbrev xPart (w : Fin 32) : Finset S4096x32000.Idx := (Rect.part (s := S4096x32000) (a₀ := 0) hdivX w).set
abbrev tPart (w : Fin 32) : Finset S4096.Idx := (Rect.part (s := S4096) (a₀ := 0) hdivT w).set
abbrev oPart (w : Fin 32) : Finset S512.Idx := (Rect.part (s := S512) (a₀ := 0) hdivO w).set

/-- The worker number of the tile on core `c`, subcore `i`. -/
def widOf (c : Fin 2) (i : Fin 16) : Fin 32 := ⟨2 * i.val + c.val, by omega⟩

/-! ## What a tile computes -/

section Value
variable [FloatOps F]

/-- Row `128 w + 16 k + l`. -/
def rowOf (w : Fin 32) (k : Fin 8) (l : Fin 16) : Fin 4096 := ⟨128 * w.val + 16 * k.val + l.val, by omega⟩

/-- Chunk `k` of worker `w`'s entries of t, as the 16-lane vector the tile loads. -/
def tvec (t : S4096.Idx → BitVec 32) (w : Fin 32) (k : Fin 8) : IVec S16 32 := fun l => t (ix1 (rowOf w k (l 0)))

/-- The 16 gathered entries of chunk `k`: lane `l` is x at row `128 w + 16 k + l`, column t of that row. -/
def gath (x : S4096x32000.Idx → F .f32) (t : S4096.Idx → BitVec 32) (w : Fin 32) (k : Fin 8) : FVec F S16 .f32 :=
  fun l => x (ix2 (rowOf w k (l 0)) ⟨(t (ix1 (rowOf w k (l 0)))).toNat % 32000, Nat.mod_lt _ (by norm_num)⟩)

/-- One chunk's step of the accumulator: add the gathered entries of the rows whose t is not zero. -/
def accStep (acc : FVec F S16 .f32) (tv : IVec S16 32) (g : FVec F S16 .f32) : FVec F S16 .f32 :=
  addf acc (select (cmpi .ne tv (broadcast S16 0#32)) g (broadcast S16 (Scalar.ofBits .f32 0x00000000#32)))

/-- The accumulator after the first `n` chunks. -/
def scAccAt (x : S4096x32000.Idx → F .f32) (t : S4096.Idx → BitVec 32) (w : Fin 32) : (n : Nat) → n ≤ 8 → FVec F S16 .f32
  | 0, _ => broadcast S16 (Scalar.ofBits .f32 0x00000000#32)
  | n + 1, h => accStep (scAccAt x t w n (by omega)) (tvec t w ⟨n, by omega⟩) (gath x t w ⟨n, by omega⟩)

/-- What worker `w` writes into its 16 words of the result. -/
def tileOut (x : S4096x32000.Idx → F .f32) (t : S4096.Idx → BitVec 32) (w : Fin 32) : FVec F S16 .f32 := scAccAt x t w 8 le_rfl

end Value

/-! ## What the handshakes carry -/

variable (m : (ℓ : Loc nD τ sig) → Buf (Elt F) ℓ)

/-- What worker `w`'s tile is handed: its rows of x, its entries of t, its words of the result, all at the launch
    contents. -/
abbrev xPartPts (d : Dev nD) (w : Fin 32) : sProp 𝕄 := xLoc d ↦[xPart w]{fullShare} m (xLoc d)
abbrev tPartPts (d : Dev nD) (w : Fin 32) : sProp 𝕄 := tLoc d ↦[tPart w]{fullShare} m (tLoc d)
abbrev oPartPts (d : Dev nD) (w : Fin 32) (f : Buf (Elt F) (oLoc d)) : sProp 𝕄 := oLoc d ↦[oPart w]{fullShare} f

def goRes (d : Dev nD) (w : Fin 32) : sProp 𝕄 :=
  iprop(xPartPts m d w ∗ tPartPts m d w ∗ oPartPts d w (m (oLoc d)))

/-- The result array holds worker `w`'s value in worker `w`'s words. -/
def OutHolds [FloatOps F] (d : Dev nD) (w : Fin 32) (f : Buf (Elt F) (oLoc d)) : Prop :=
  ∀ l : Fin 16, f (ix1 ⟨16 * w.val + l.val, by omega⟩) = tileOut (F := F) (m (xLoc d)) (m (tLoc d)) w (ix1 l)

/-- What it hands back: x and t untouched, its words of the result at `tileOut`. -/
def tdRes [FloatOps F] (d : Dev nD) (w : Fin 32) : sProp 𝕄 :=
  iprop(xPartPts m d w ∗ tPartPts m d w ∗ ∃ f, ⌜OutHolds m d w f⌝ ∗ oPartPts d w f)

/-- The one SparseCore call: each SparseCore is handed its sixteen tiles' pieces and hands them to its tiles as they are. -/
def P [FloatOps F] : (K (F := F)).Pay (nD := nD) (Val := Elt F) (Name := ℕ) (U := UU) where
  st := fun q d c => match q with | 0 => bigSep Finset.univ fun i : Fin 16 => goRes m d (widOf (Fin.cast nCore_zero c) i)
  dn := fun q d c => match q with | 0 => bigSep Finset.univ fun i : Fin 16 => tdRes m d (widOf (Fin.cast nCore_zero c) i)
  go := fun q d c i => match q with | 0 => goRes m d (widOf (Fin.cast nCore_zero c) (Fin.cast nSub_zero i))
  td := fun q d c i => match q with | 0 => tdRes m d (widOf (Fin.cast nCore_zero c) (Fin.cast nSub_zero i))
  x := fun _ _ => iprop(emp)

instance goRes_storable (d : Dev nD) (w : Fin 32) : BI.Storable (upEmb : UEmb _ 𝕄) (goRes m d w) := by unfold goRes; infer_instance
instance tdRes_storable [FloatOps F] (d : Dev nD) (w : Fin 32) : BI.Storable (upEmb : UEmb _ 𝕄) (tdRes m d w) := by unfold tdRes; infer_instance

instance P_storable [FloatOps F] : (P (F := F) m).IsStorable where
  st q d c := match q with | 0 => (inferInstance : BI.Storable (upEmb : UEmb _ 𝕄) (bigSep Finset.univ fun i : Fin 16 => goRes m d (widOf (Fin.cast nCore_zero c) i)))
  dn q d c := match q with | 0 => (inferInstance : BI.Storable (upEmb : UEmb _ 𝕄) (bigSep Finset.univ fun i : Fin 16 => tdRes m d (widOf (Fin.cast nCore_zero c) i)))
  go q d c i := match q with | 0 => (inferInstance : BI.Storable (upEmb : UEmb _ 𝕄) (goRes m d (widOf (Fin.cast nCore_zero c) (Fin.cast nSub_zero i))))
  td q d c i := match q with | 0 => (inferInstance : BI.Storable (upEmb : UEmb _ 𝕄) (tdRes m d (widOf (Fin.cast nCore_zero c) (Fin.cast nSub_zero i))))

end Cert.Proof.KernelIdeal

end
-- ==== Proof.LaunchSc.lean ====
/-
  The SparseCore call as @main's TensorCore sees it: the three arrays whole go in — cut into the thirty-two
  workers' pieces (rows of x, entries of t, words of the result: each a partition of its array into equal parts
  along the first axis), dealt to the two SparseCores by the parity of the worker number — and come back whole,
  the result holding every worker's value in that worker's words.
-/
import proofs.«217662_g32298154065999_cont_8to1_b_8_33_alg».proof.Proof.Pay

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The pieces partition the arrays -/

theorem xParts_disjoint : ∀ i ∈ (Finset.univ : Finset (Fin 32)), ∀ j ∈ (Finset.univ : Finset (Fin 32)), i ≠ j → Disjoint (xPart i) (xPart j) :=
  fun _ _ _ _ h => Rect.part_disjoint hdivX h
theorem tParts_disjoint : ∀ i ∈ (Finset.univ : Finset (Fin 32)), ∀ j ∈ (Finset.univ : Finset (Fin 32)), i ≠ j → Disjoint (tPart i) (tPart j) :=
  fun _ _ _ _ h => Rect.part_disjoint hdivT h
theorem oParts_disjoint : ∀ i ∈ (Finset.univ : Finset (Fin 32)), ∀ j ∈ (Finset.univ : Finset (Fin 32)), i ≠ j → Disjoint (oPart i) (oPart j) :=
  fun _ _ _ _ h => Rect.part_disjoint hdivO h
theorem xParts_cover : (Finset.univ : Finset (Fin 32)).biUnion xPart = Finset.univ := Rect.biUnion_part hdivX
theorem tParts_cover : (Finset.univ : Finset (Fin 32)).biUnion tPart = Finset.univ := Rect.biUnion_part hdivT
theorem oParts_cover : (Finset.univ : Finset (Fin 32)).biUnion oPart = Finset.univ := Rect.biUnion_part hdivO

theorem xPts_parts (d : Dev nD) (f : Buf (Elt F) (xLoc d)) :
    (xLoc d ↦{fullShare} f : sProp 𝕄) = bigSep Finset.univ fun w : Fin 32 => xLoc d ↦[xPart w]{fullShare} f := by
  rw [← pointsTo_biUnion Finset.univ (ℓ := xLoc d) xPart xParts_disjoint, xParts_cover]; try rfl
theorem tPts_parts (d : Dev nD) (f : Buf (Elt F) (tLoc d)) :
    (tLoc d ↦{fullShare} f : sProp 𝕄) = bigSep Finset.univ fun w : Fin 32 => tLoc d ↦[tPart w]{fullShare} f := by
  rw [← pointsTo_biUnion Finset.univ (ℓ := tLoc d) tPart tParts_disjoint, tParts_cover]; try rfl
theorem oPts_parts (d : Dev nD) (f : Buf (Elt F) (oLoc d)) :
    (oLoc d ↦{fullShare} f : sProp 𝕄) = bigSep Finset.univ fun w : Fin 32 => oLoc d ↦[oPart w]{fullShare} f := by
  rw [← pointsTo_biUnion Finset.univ (ℓ := oLoc d) oPart oParts_disjoint, oParts_cover]; try rfl

/-! ## Workers by core and subcore -/

theorem widOf_injOn : Set.InjOn (fun p : Fin 2 × Fin 16 => widOf p.1 p.2) ((Finset.univ : Finset (Fin 2 × Fin 16)) : Set _) := by
  intro a _ b _ e
  have h : 2 * a.2.val + a.1.val = 2 * b.2.val + b.1.val := congrArg Fin.val e
  exact Prod.ext (Fin.ext (by omega)) (Fin.ext (by omega))
theorem widOf_image : (Finset.univ : Finset (Fin 2 × Fin 16)).image (fun p => widOf p.1 p.2) = Finset.univ := by decide

/-- A family over the workers, regrouped by core and then subcore. -/
theorem bigSep_workers (Φ : Fin 32 → sProp 𝕄) :
    bigSep Finset.univ Φ = bigSep Finset.univ fun c : Fin 2 => bigSep Finset.univ fun i : Fin 16 => Φ (widOf c i) := by
  rw [← widOf_image, SparseCore.bigSep_image_of_injOn widOf_injOn Φ, ← Finset.univ_product_univ, SparseCore.bigSep_product]

/-! ## Going in: the arrays whole are the workers' pieces -/

theorem go_all (d : Dev nD) :
    (bigSep Finset.univ fun w : Fin 32 => goRes m d w)
      = (iprop((xLoc d ↦{fullShare} m (xLoc d)) ∗ (tLoc d ↦{fullShare} m (tLoc d)) ∗ (oLoc d ↦{fullShare} m (oLoc d))) : sProp 𝕄) := by
  unfold goRes xPartPts tPartPts oPartPts
  rw [bigSep_sep', bigSep_sep', ← xPts_parts, ← tPts_parts, ← oPts_parts]

variable [FloatOps F]

theorem st0_eq (d : Dev nD) :
    (bigSep Finset.univ fun c : Fin ((K (F := F)).nCore 0) => (P m).st 0 d c) = bigSep Finset.univ fun w : Fin 32 => goRes m d w := by
  rw [bigSep_workers (fun w => goRes m d w)]
  rfl
theorem dn0_eq (d : Dev nD) :
    (bigSep Finset.univ fun c : Fin ((K (F := F)).nCore 0) => (P m).dn 0 d c) = bigSep Finset.univ fun w : Fin 32 => tdRes m d w := by
  rw [bigSep_workers (fun w => tdRes m d w)]
  rfl

/-! ## Coming back: the pieces join, the result holding every worker's value -/

/-- Word `16 w + l` of the result is one of worker `w`'s. -/
theorem mem_oPart (w : Fin 32) (l : Fin 16) : (ix1 (⟨16 * w.val + l.val, by omega⟩ : Fin 512) : S512.Idx) ∈ oPart w := by
  refine Rect.mem_set_unit.mpr fun a => ?_
  obtain rfl : a = 0 := Subsingleton.elim _ _
  simp only [Shape.partIx, Shape.partSize, ↓reduceIte]
  show w.val * (512 / 32) ≤ 16 * w.val + l.val ∧ 16 * w.val + l.val < w.val * (512 / 32) + 512 / 32
  omega

theorem o_choice (d : Dev nD) :
    (bigSep Finset.univ fun w : Fin 32 => iprop(∃ f, ⌜OutHolds m d w f⌝ ∗ oLoc d ↦[oPart w]{fullShare} f))
      ⊢ (iprop(∃ fs : Fin 32 → Buf (Elt F) (oLoc d), ⌜∀ w ∈ (Finset.univ : Finset (Fin 32)), OutHolds m d w (fs w)⌝
          ∗ bigSep Finset.univ fun w : Fin 32 => oLoc d ↦[oPart w]{fullShare} fs w) : sProp 𝕄) := by
  refine (bigSep_exists_pi Finset.univ (fun (w : Fin 32) (f : Buf (Elt F) (oLoc d)) => iprop(⌜OutHolds m d w f⌝ ∗ oLoc d ↦[oPart w]{fullShare} f))).trans ?_
  iintro ⟨%fs, H⟩
  iexists fs
  iapply (bigSep_pure_sep Finset.univ (fun w : Fin 32 => OutHolds m d w (fs w)) (fun w : Fin 32 => oLoc d ↦[oPart w]{fullShare} fs w))
  iexact H

theorem td_all (d : Dev nD) :
    (bigSep Finset.univ fun w : Fin 32 => tdRes m d w)
      ⊢ (iprop((xLoc d ↦{fullShare} m (xLoc d)) ∗ (tLoc d ↦{fullShare} m (tLoc d))
          ∗ ∃ f, ⌜∀ w, OutHolds m d w f⌝ ∗ oLoc d ↦{fullShare} f) : sProp 𝕄) := by
  unfold tdRes xPartPts tPartPts oPartPts
  rw [bigSep_sep', bigSep_sep', ← xPts_parts, ← tPts_parts]
  iintro ⟨Hx, Ht, Ho⟩
  isplitl [Hx]; · iexact Hx
  isplitl [Ht]; · iexact Ht
  ihave Ho' := (o_choice m d) $$ Ho
  icases Ho' with ⟨%fs, %hp, H⟩
  ihave H' := (pointsTo_biUnion_join Finset.univ oPart fs (fs 0) oParts_disjoint) $$ H
  icases H' with ⟨%g, %hg, Hg⟩
  rw [oParts_cover]
  iexists g; isplitr
  · ipureintro
    intro w l
    rw [hg w (Finset.mem_univ w) _ (mem_oPart w l)]
    exact hp w (Finset.mem_univ w) l
  · iexact Hg

/-! ## The call -/

/-- The SparseCore call, as @main's TensorCore runs it: the three arrays whole in; out, x and t as they were and
    the result holding every worker's value. -/
theorem sc_call (κ : GSem nD τ sig → ℕ) (d : Dev nD) {Φ : PUnit → sProp 𝕄} :
    iprop((K (F := F)).ctx EH (P m) κ ∗ (K (F := F)).tcSt EH d 0
        ∗ ((xLoc d ↦{fullShare} m (xLoc d)) ∗ (tLoc d ↦{fullShare} m (tLoc d)) ∗ (oLoc d ↦{fullShare} m (oLoc d)))
        ∗ (((K (F := F)).tcSt EH d 1 ∗ (xLoc d ↦{fullShare} m (xLoc d)) ∗ (tLoc d ↦{fullShare} m (tLoc d))
              ∗ ∃ f, ⌜∀ w, OutHolds m d w f⌝ ∗ oLoc d ↦{fullShare} f) -∗ Φ ⟨⟩))
      ⊢ wp frame (wpE ((K (F := F)).defs (D (F := F))) 𝒱 (SparseCore.T d) none) Set.univ ((K (F := F)).run d 0) Φ := by
  iintro ⟨#Hctx, Hst, Harr, Hk⟩
  iapply ((K (F := F)).wp_run (D (F := F)) 𝒱 (EH := EH) (P := P m) κ d 0) $$ [Hst Harr Hk]
  isplitr; · iexact Hctx
  isplitl [Hst]; · iexact Hst
  isplitl [Harr]
  · rw [st0_eq, go_all]; iexact Harr
  iintro ⟨Hst, Hdn⟩
  iapply Hk
  isplitl [Hst]; · iexact Hst
  ihave Hdn' := (Entails.of_eq (dn0_eq m d)) $$ Hdn
  iapply (td_all m d); iexact Hdn'

end Cert.Proof.KernelIdeal

end
-- ==== Proof.LaunchElem.lean ====
/-
  The launch element of the proof's ghost state: the handshakes' rounds go to the launch theorem, the rounds of the
  TensorCore pipeline's staging cells are dealt to the TensorCore (their states, positions and duty tokens, for the
  region that runs after the SparseCore call), the counters' factor is not needed at launch (the tiles' local copies
  allocate theirs from their semaphores' counters at zero), and no kernel consumes anything at its call.
-/
import proofs.«217662_g32298154065999_cont_8to1_b_8_33_alg».proof.Proof.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d` starts from beyond what the launch deals every TensorCore: the ghost state of
    the pipeline's staging cells and the duty tokens of its transfers. -/
def G (d : Dev nD) : sProp 𝕄 :=
  iprop(Pipeline.cellsGhost (nD := nD) (τ := τ) cfgs (ER (F := F)) 0 d ∗ (Pipeline.toksInit (nD := nD) (τ := τ) cfgs (ER (F := F)) 0 d : sProp 𝕄))

theorem bigSep_emp' {I : Type} (s : Finset I) : (bigSep s fun _ => iprop(emp)) = (iprop(emp) : sProp 𝕄) := bigSep_emp_const s

theorem bigSep_fin1 (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem own_ER (a : UR) :
    (BI.own (((Emb.inl : Emb UR (UR × Counters)).trans (embR : Emb (UR × Counters) 𝕄)) a) : sProp 𝕄) ⊢ BI.own ((ER (F := F)) a) :=
  BI.Entails.refl _

theorem hu₀ [FloatOps F] : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UR × Counters) 𝕄) _ _) $$ HR
  icases H2 with ⟨HP, -⟩
  ihave HP' := (own_ER _) $$ HP
  imod (Pipeline.fund_ghost (nD := nD) (τ := τ) cfgs (ER (F := F)) cellOf_inj) $$ HP' with ⟨Hg, Htok⟩
  imodintro
  isplitl [HH]; · iexact HH
  isplitl [Hg Htok]
  · unfold G; rw [bigSep_sep']
    ihave Hg' := (Entails.of_eq (bigSep_fin1 (F := F) (fun p c => Pipeline.cellsGhost (nD := nD) (τ := τ) cfgs (ER (F := F)) p c))) $$ Hg
    ihave Htok' := (Entails.of_eq (bigSep_fin1 (F := F) (fun p c => (Pipeline.toksInit (nD := nD) (τ := τ) cfgs (ER (F := F)) p c : sProp 𝕄)))) $$ Htok
    isplitl [Hg']; · iexact Hg'
    iexact Htok'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal

end
-- ==== Proof.TcRegionDefs.lean ====
import proofs.«217662_g32298154065999_cont_8to1_b_8_33_alg».proof.Proof.Common
import Idealize.ShloMosaic.Lib.Pipeline.FrameBody

noncomputable section

namespace Cert.Proof.KernelIdeal

open Cert.KernelIdeal Cert.KernelIdeal.Gen

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The value the TensorCore call computes

The call's grid has 32 points, one per block of 128 rows; its column axis has one block, so at every point the
running maximum and running sum are reset before the block is folded in. -/

/-- The contents of the call's three arrays. -/
abbrev XC (F : FTy → Type) : Type := (⟨S4096x32000, .f32⟩ : BufTy).Contents (Elt F)
abbrev TC (F : FTy → Type) : Type := (⟨S4096x1, .i32⟩ : BufTy).Contents (Elt F)
abbrev OC (F : FTy → Type) : Type := (⟨S1x1, .f32⟩ : BufTy).Contents (Elt F)

/-- The block of 128 rows of the logits the call stages at point `t`. -/
def xBlk (x : XC F) (t : Fin cfg1.N) : Vec F S128x32000 .f32 :=
  ((cfg1.win 1).blk t).view.read (Elt F) x

/-- The block of 128 targets it stages there. -/
def tBlk (t1 : TC F) (t : Fin cfg1.N) : Vec F S128x1 .i32 :=
  ((cfg1.win 0).blk t).view.read (Elt F) t1

/-- The running maximum after the block is folded into the reset state: the rows' maxima. -/
def mNew (xb : Vec F S128x32000 .f32) : Vec F S128x1 .f32 := k1_pay5 xb (k1_pay1 (F := F))

/-- The running sum after the block is folded into the reset state: the rows' sums of exponentials about their maxima. -/
def sNew (xb : Vec F S128x32000 .f32) : Vec F S128x1 .f32 := k1_pay4 xb (k1_pay1 (F := F)) (k1_pay2 (F := F))

/-- The partial sum of point `t`: over its 128 rows, the log-sum-exp of each row whose target is not 0. -/
def part (x : XC F) (t1 : TC F) (t : Fin cfg1.N) : Vec F S1x1 .f32 :=
  k1_pay6 (tBlk t1 t) (sNew (xBlk x t)) (mNew (xBlk x t))

/-- The output block after point `n`: point 0 stores its partial sum, a later point adds its own to what the block holds. -/
def accAt (x : XC F) (t1 : TC F) : (n : ℕ) → n < cfg1.N → Vec F S1x1 .f32
  | 0, h => part x t1 ⟨0, h⟩
  | n + 1, h => k1_pay7 (tBlk t1 ⟨n + 1, h⟩) (sNew (xBlk x ⟨n + 1, h⟩)) (mNew (xBlk x ⟨n + 1, h⟩)) (accAt x t1 n (Nat.lt_of_succ_lt h))

/-- What the call leaves in its result: the output block after the last point. -/
def tcOut (x : XC F) (t1 : TC F) : OC F := accAt x t1 31 (by decide)

end Cert.Proof.KernelIdeal

end
-- ==== Proof.KernelOut.lean ====
/-
  The scalar @main ends with, as a pure function of x, t and the SparseCore call's 512 words: the TensorCore
  call's 1x1 result (on x and t reshaped to a column) reshaped to a scalar, minus the sum of the 512 words.
-/
import proofs.«217662_g32298154065999_cont_8to1_b_8_33_alg».proof.Proof.Pay
import proofs.«217662_g32298154065999_cont_8to1_b_8_33_alg».proof.Proof.TcRegionDefs

noncomputable section

namespace Cert.Proof.KernelIdeal

open Cert.KernelIdeal
open Idealize.ShloMosaic

variable {F : FTy → Type} [FloatOps F]

abbrev TV (F : FTy → Type) : Type := (⟨S4096, .i32⟩ : BufTy).Contents (Elt F)
abbrev OV (F : FTy → Type) : Type := (⟨S512, .f32⟩ : BufTy).Contents (Elt F)
abbrev RV (F : FTy → Type) : Type := (⟨S_, .f32⟩ : BufTy).Contents (Elt F)

/-- t as the column the TensorCore call reads. -/
def tCol (t : TV F) : TC F := shapeCast S4096x1 t Facts₀.shapeCasts_S4096_S4096x1

/-- The sum of the SparseCore call's 512 words. -/
def scSum (f : OV F) : RV F := Host.reduceAdd f (constant S_ .f32 0x00000000#32) Facts₀.reducesTo_S512_S_d0 Facts₀.h_S_

/-- The TensorCore call's result as a scalar. -/
def tcScalar (x : XC F) (t : TV F) : RV F := shapeCast S_ (tcOut x (tCol t)) Facts₀.shapeCasts_S1x1_S_

/-- What @main returns. -/
def kernelOut (x : XC F) (t : TV F) (f : OV F) : RV F := subf (tcScalar x t) (scSum f)

end Cert.Proof.KernelIdeal

end
-- ==== Proof.Launch.lean ====
/-
  @main on the TensorCore, and the program's run.

  @main starts the SparseCore call on the three arrays whole and gets them back, the call's result holding every
  worker's sixteen sums; reshapes t to a column; runs the TensorCore pallas_call on that column and x, whose 1x1
  result is the sum over the rows with t ≠ 0 of their log-sum-exp; reshapes it to a scalar, sums the SparseCore
  call's 512 words, and subtracts. x and t are never written.
-/
import proofs.«217662_g32298154065999_cont_8to1_b_8_33_alg».proof.Proof.LaunchSc
import proofs.«217662_g32298154065999_cont_8to1_b_8_33_alg».proof.Proof.LaunchElem
import proofs.«217662_g32298154065999_cont_8to1_b_8_33_alg».proof.Proof.KernelOut

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev rx : DevRef τ sig := Proc.devRef .tc (main_arg0 : Ref sig .tc)
abbrev rt : DevRef τ sig := Proc.devRef .tc (main_arg1 : Ref sig .tc)
abbrev ro : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev rc : DevRef τ sig := Proc.devRef .tc (main_cst : Ref sig .tc)
abbrev r4 : DevRef τ sig := Proc.devRef .tc (main_v4 : Ref sig .tc)
abbrev r5 : DevRef τ sig := Proc.devRef .tc (main_v5 : Ref sig .tc)

abbrev pt (d : Dev nD) (b : DevRef τ sig) (f : Buf (Elt F) ((d, b) : Loc nD τ sig)) : sProp 𝕄 := ((d, b) : Loc nD τ sig) ↦{fullShare} f

theorem unscopedBufs_eq (d : Dev nD) (W : (b : Ref sig .tc) → Buf (Elt F) ((d.tc : Thread nD τ).loc b)) :
    (unscopedBufs d W : sProp 𝕄) = iprop(pt d rx (W main_arg0) ∗ pt d rt (W main_arg1) ∗ pt d ro (W main_v0) ∗ pt d r1 (W main_v1) ∗ pt d r2 (W main_v2)
      ∗ pt d r3 (W main_v3) ∗ pt d rc (W main_cst) ∗ pt d r4 (W main_v4) ∗ pt d r5 (W main_v5)) := by
  unfold unscopedBufs
  rw [show (Finset.univ.filter fun b : Ref sig .tc => ¬ b.isScoped) = {main_arg0, main_arg1, main_v0, main_v1, main_v2, main_v3, main_cst, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## Holding two or three arrays at a valuation -/

theorem held1 (d : Dev nD) (a : DevRef τ sig) (V : Valuation τ sig (Elt F)) :
    (held (T d) {a} V : sProp 𝕄) = pt d a (V a) := by
  unfold held; rw [bigSep_singleton]
theorem held2 (d : Dev nD) (a b : DevRef τ sig) (hab : a ≠ b) (V : Valuation τ sig (Elt F)) :
    (held (T d) {a, b} V : sProp 𝕄) = iprop(pt d a (V a) ∗ pt d b (V b)) := by
  unfold held; rw [SparseCore.bigSep_insert' (by simpa using hab), bigSep_singleton]
theorem held3 (d : Dev nD) (a b c : DevRef τ sig) (hab : a ≠ b) (hac : a ≠ c) (hbc : b ≠ c) (V : Valuation τ sig (Elt F)) :
    (held (T d) {a, b, c} V : sProp 𝕄) = iprop(pt d a (V a) ∗ pt d b (V b) ∗ pt d c (V c)) := by
  unfold held; rw [SparseCore.bigSep_insert' (by simp [hab, hac]), SparseCore.bigSep_insert' (by simpa using hbc), bigSep_singleton]

/-- The launch valuation. -/
def V0 (d : Dev nD) : Valuation τ sig (Elt F) := fun b => m (d, b)

/-! ## The host operations of @main, one step each -/

section Ops
variable [FloatOps F]

abbrev op1 : HloOp τ sig (Elt F) := StableHlo.reshape main_arg1 main_v1 rfl Facts₀.shapeCasts_S4096_S4096x1
abbrev op3 : HloOp τ sig (Elt F) := StableHlo.reshape main_v2 main_v3 rfl Facts₀.shapeCasts_S1x1_S_
abbrev opc : HloOp τ sig (Elt F) := StableHlo.nullary main_cst (constant S_ .f32 0x00000000#32)
abbrev op4 : HloOp τ sig (Elt F) := StableHlo.binary main_v0 main_cst main_v4
  ((fun x v => Host.reduceAdd x v Facts₀.reducesTo_S512_S_d0 Facts₀.h_S_) : (⟨S512, .f32⟩ : BufTy).Contents (Elt F) → (⟨S_, .f32⟩ : BufTy).Contents (Elt F) → (⟨S_, .f32⟩ : BufTy).Contents (Elt F))
abbrev op5 : HloOp τ sig (Elt F) := StableHlo.binary main_v3 main_v4 main_v5
  (subf : (⟨S_, .f32⟩ : BufTy).Contents (Elt F) → (⟨S_, .f32⟩ : BufTy).Contents (Elt F) → (⟨S_, .f32⟩ : BufTy).Contents (Elt F))

/-- t reshaped to a column. -/
theorem step_reshape_t (Vb : Valuation τ sig (Elt F)) (d : Dev nD) (tv : TV F) (y : TC F)
    {k : ((b : (op1 (F := F)).writes) → b.1.ty.Contents (Elt F)) → Prog (TpuEff nD τ sig (Elt F) (SparseCore.Sig (ΛP (F := F)) 1) .tc) PUnit} {Q : PUnit → sProp 𝕄} :
    iprop(boundary (T d) ∗ pt d rt tv ∗ pt d r1 y
        ∗ ((boundary (T d) ∗ pt d rt tv ∗ pt d r1 (tCol tv)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (op1 (F := F)) k) Q := by
  have e_rt : (op1 (F := F)).result (Function.update (Function.update Vb r1 y) rt tv) rt = tv :=
    ((op1 (F := F)).result_of_not_mem _ (b := rt) (show rt ∉ ({r1} : Finset (DevRef τ sig)) by decide)).trans (Function.update_self _ _ _)
  have e_r1 : (op1 (F := F)).result (Function.update (Function.update Vb r1 y) rt tv) r1 = tCol tv := by
    refine (StableHlo.reshape_result main_arg1 main_v1 rfl Facts₀.shapeCasts_S4096_S4096x1 _ _ _).trans ?_
    show (fun i => shapeCast S4096x1 ((Function.update (Function.update Vb r1 y) rt tv) rt) _ i) = tCol tv
    rw [show (Function.update (Function.update Vb r1 y) rt tv) rt = tv from Function.update_self _ _ _]; rfl
  iintro ⟨Hb, Ht, H1, Hk⟩
  iapply (wp_hlo_within 𝒱 (SparseCore.T d) none Set.univ (op := op1 (F := F)) (S := {rt, r1}) (Finset.Subset.refl _)
    (V := Function.update (Function.update Vb r1 y) rt tv)) $$ [Hb Ht H1]
  · isplitl [Hb]; · iexact Hb
    rw [held2 d rt r1 (by decide), Function.update_self, Function.update_of_ne (show r1 ≠ rt by decide), Function.update_self]
    isplitl [Ht]; · iexact Ht
    iexact H1
  iintro ⟨Hb, Hh⟩
  ihave Hh' := (Entails.of_eq ((held2 d rt r1 (by decide) _).trans (by rw [e_rt, e_r1]))) $$ Hh
  ispecialize Hk $$ [Hb Hh']
  · isplitl [Hb]; · iexact Hb
    iexact Hh'
  iapply Hk $$ %_

/-- The TensorCore call's 1x1 result reshaped to a scalar. -/
theorem step_reshape_o (Vb : Valuation τ sig (Elt F)) (d : Dev nD) (g : OC F) (y : RV F)
    {k : ((b : (op3 (F := F)).writes) → b.1.ty.Contents (Elt F)) → Prog (TpuEff nD τ sig (Elt F) (SparseCore.Sig (ΛP (F := F)) 1) .tc) PUnit} {Q : PUnit → sProp 𝕄} :
    iprop(boundary (T d) ∗ pt d r2 g ∗ pt d r3 y
        ∗ ((boundary (T d) ∗ pt d r2 g ∗ pt d r3 (shapeCast S_ g Facts₀.shapeCasts_S1x1_S_ : RV F)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (op3 (F := F)) k) Q := by
  have e_a : (op3 (F := F)).result (Function.update (Function.update Vb r3 y) r2 g) r2 = g :=
    ((op3 (F := F)).result_of_not_mem _ (b := r2) (show r2 ∉ ({r3} : Finset (DevRef τ sig)) by decide)).trans (Function.update_self _ _ _)
  have e_y : (op3 (F := F)).result (Function.update (Function.update Vb r3 y) r2 g) r3 = (shapeCast S_ g Facts₀.shapeCasts_S1x1_S_ : RV F) := by
    refine (StableHlo.reshape_result main_v2 main_v3 rfl Facts₀.shapeCasts_S1x1_S_ _ _ _).trans ?_
    show (fun i => shapeCast S_ ((Function.update (Function.update Vb r3 y) r2 g) r2) _ i) = _
    rw [show (Function.update (Function.update Vb r3 y) r2 g) r2 = g from Function.update_self _ _ _]
  iintro ⟨Hb, Ha, Hy, Hk⟩
  iapply (wp_hlo_within 𝒱 (SparseCore.T d) none Set.univ (op := op3 (F := F)) (S := {r2, r3}) (Finset.Subset.refl _)
    (V := Function.update (Function.update Vb r3 y) r2 g)) $$ [Hb Ha Hy]
  · isplitl [Hb]; · iexact Hb
    rw [held2 d r2 r3 (by decide), Function.update_self, Function.update_of_ne (show r3 ≠ r2 by decide), Function.update_self]
    isplitl [Ha]; · iexact Ha
    iexact Hy
  iintro ⟨Hb, Hh⟩
  ihave Hh' := (Entails.of_eq ((held2 d r2 r3 (by decide) _).trans (by rw [e_a, e_y]))) $$ Hh
  ispecialize Hk $$ [Hb Hh']
  · isplitl [Hb]; · iexact Hb
    iexact Hh'
  iapply Hk $$ %_

/-- The zero the sum starts from. -/
theorem step_cst (Vb : Valuation τ sig (Elt F)) (d : Dev nD) (y : RV F)
    {k : ((b : (opc (F := F)).writes) → b.1.ty.Contents (Elt F)) → Prog (TpuEff nD τ sig (Elt F) (SparseCore.Sig (ΛP (F := F)) 1) .tc) PUnit} {Q : PUnit → sProp 𝕄} :
    iprop(boundary (T d) ∗ pt d rc y
        ∗ ((boundary (T d) ∗ pt d rc (constant S_ .f32 0x00000000#32 : RV F)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (opc (F := F)) k) Q := by
  have e_y : (opc (F := F)).result (Function.update Vb rc y) rc = (constant S_ .f32 0x00000000#32 : RV F) :=
    StableHlo.nullary_result main_cst _ _ _
  iintro ⟨Hb, Hy, Hk⟩
  iapply (wp_hlo_within 𝒱 (SparseCore.T d) none Set.univ (op := opc (F := F)) (S := {rc}) (Finset.Subset.refl _)
    (V := Function.update Vb rc y)) $$ [Hb Hy]
  · isplitl [Hb]; · iexact Hb
    rw [held1 d rc, Function.update_self]
    iexact Hy
  iintro ⟨Hb, Hh⟩
  ihave Hh' := (Entails.of_eq ((held1 d rc _).trans (by rw [e_y]))) $$ Hh
  ispecialize Hk $$ [Hb Hh']
  · isplitl [Hb]; · iexact Hb
    iexact Hh'
  iapply Hk $$ %_

/-- The sum of the SparseCore call's 512 words. -/
theorem step_sum (Vb : Valuation τ sig (Elt F)) (d : Dev nD) (f : OV F) (cv : RV F) (y : RV F)
    {k : ((b : (op4 (F := F)).writes) → b.1.ty.Contents (Elt F)) → Prog (TpuEff nD τ sig (Elt F) (SparseCore.Sig (ΛP (F := F)) 1) .tc) PUnit} {Q : PUnit → sProp 𝕄} :
    iprop(boundary (T d) ∗ pt d ro f ∗ pt d rc cv ∗ pt d r4 y
        ∗ ((boundary (T d) ∗ pt d ro f ∗ pt d rc cv ∗ pt d r4 (Host.reduceAdd f cv Facts₀.reducesTo_S512_S_d0 Facts₀.h_S_ : RV F)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (op4 (F := F)) k) Q := by
  have e_a : (op4 (F := F)).result (Function.update (Function.update (Function.update Vb r4 y) rc cv) ro f) ro = f :=
    ((op4 (F := F)).result_of_not_mem _ (b := ro) (show ro ∉ ({r4} : Finset (DevRef τ sig)) by decide)).trans (Function.update_self _ _ _)
  have e_b : (op4 (F := F)).result (Function.update (Function.update (Function.update Vb r4 y) rc cv) ro f) rc = cv :=
    ((op4 (F := F)).result_of_not_mem _ (b := rc) (show rc ∉ ({r4} : Finset (DevRef τ sig)) by decide)).trans
      ((Function.update_of_ne (show rc ≠ ro by decide) _ _).trans (Function.update_self _ _ _))
  have e_y : (op4 (F := F)).result (Function.update (Function.update (Function.update Vb r4 y) rc cv) ro f) r4
      = (Host.reduceAdd f cv Facts₀.reducesTo_S512_S_d0 Facts₀.h_S_ : RV F) := by
    refine (StableHlo.binary_result main_v0 main_cst main_v4 _ _ _ _ _).trans ?_
    rw [show (Function.update (Function.update (Function.update Vb r4 y) rc cv) ro f) ro = f from Function.update_self _ _ _,
      show (Function.update (Function.update (Function.update Vb r4 y) rc cv) ro f) rc = cv from
        (Function.update_of_ne (show rc ≠ ro by decide) _ _).trans (Function.update_self _ _ _)]
  iintro ⟨Hb, Ha, Hc, Hy, Hk⟩
  iapply (wp_hlo_within 𝒱 (SparseCore.T d) none Set.univ (op := op4 (F := F)) (S := {ro, rc, r4}) (Finset.Subset.refl _)
    (V := Function.update (Function.update (Function.update Vb r4 y) rc cv) ro f)) $$ [Hb Ha Hc Hy]
  · isplitl [Hb]; · iexact Hb
    rw [held3 d ro rc r4 (by decide) (by decide) (by decide), Function.update_self,
      Function.update_of_ne (show rc ≠ ro by decide), Function.update_self,
      Function.update_of_ne (show r4 ≠ ro by decide), Function.update_of_ne (show r4 ≠ rc by decide), Function.update_self]
    isplitl [Ha]; · iexact Ha
    isplitl [Hc]; · iexact Hc
    iexact Hy
  iintro ⟨Hb, Hh⟩
  ihave Hh' := (Entails.of_eq ((held3 d ro rc r4 (by decide) (by decide) (by decide) _).trans (by rw [e_a, e_b, e_y]))) $$ Hh
  ispecialize Hk $$ [Hb Hh']
  · isplitl [Hb]; · iexact Hb
    iexact Hh'
  iapply Hk $$ %_

/-- The difference @main returns. -/
theorem step_sub (Vb : Valuation τ sig (Elt F)) (d : Dev nD) (a b : RV F) (y : RV F)
    {k : ((b : (op5 (F := F)).writes) → b.1.ty.Contents (Elt F)) → Prog (TpuEff nD τ sig (Elt F) (SparseCore.Sig (ΛP (F := F)) 1) .tc) PUnit} {Q : PUnit → sProp 𝕄} :
    iprop(boundary (T d) ∗ pt d r3 a ∗ pt d r4 b ∗ pt d r5 y
        ∗ ((boundary (T d) ∗ pt d r3 a ∗ pt d r4 b ∗ pt d r5 (subf a b : RV F)) -∗ ∀ r, wp frame (wpE ((K (F := F)).defs (D (F := F))) 𝒱 (SparseCore.T d) none) Set.univ (k r) Q))
      ⊢ wp frame (wpE ((K (F := F)).defs (D (F := F))) 𝒱 (SparseCore.T d) none) Set.univ (hlo rfl (op5 (F := F)) k) Q := by
  have e_a : (op5 (F := F)).result (Function.update (Function.update (Function.update Vb r5 y) r4 b) r3 a) r3 = a :=
    ((op5 (F := F)).result_of_not_mem _ (b := r3) (show r3 ∉ ({r5} : Finset (DevRef τ sig)) by decide)).trans (Function.update_self _ _ _)
  have e_b : (op5 (F := F)).result (Function.update (Function.update (Function.update Vb r5 y) r4 b) r3 a) r4 = b :=
    ((op5 (F := F)).result_of_not_mem _ (b := r4) (show r4 ∉ ({r5} : Finset (DevRef τ sig)) by decide)).trans
      ((Function.update_of_ne (show r4 ≠ r3 by decide) _ _).trans (Function.update_self _ _ _))
  have e_y : (op5 (F := F)).result (Function.update (Function.update (Function.update Vb r5 y) r4 b) r3 a) r5 = (subf a b : RV F) := by
    refine (StableHlo.binary_result main_v3 main_v4 main_v5 _ _ _ _ _).trans ?_
    rw [show (Function.update (Function.update (Function.update Vb r5 y) r4 b) r3 a) r3 = a from Function.update_self _ _ _,
      show (Function.update (Function.update (Function.update Vb r5 y) r4 b) r3 a) r4 = b from
        (Function.update_of_ne (show r4 ≠ r3 by decide) _ _).trans (Function.update_self _ _ _)]
  iintro ⟨Hb, Ha, Hc, Hy, Hk⟩
  iapply (wp_hlo_within 𝒱 (SparseCore.T d) none Set.univ (op := op5 (F := F)) (S := {r3, r4, r5}) (Finset.Subset.refl _)
    (V := Function.update (Function.update (Function.update Vb r5 y) r4 b) r3 a)) $$ [Hb Ha Hc Hy]
  · isplitl [Hb]; · iexact Hb
    rw [held3 d r3 r4 r5 (by decide) (by decide) (by decide), Function.update_self,
      Function.update_of_ne (show r4 ≠ r3 by decide), Function.update_self,
      Function.update_of_ne (show r5 ≠ r3 by decide), Function.update_of_ne (show r5 ≠ r4 by decide), Function.update_self]
    isplitl [Ha]; · iexact Ha
    isplitl [Hc]; · iexact Hc
    iexact Hy
  iintro ⟨Hb, Hh⟩
  ihave Hh' := (Entails.of_eq ((held3 d r3 r4 r5 (by decide) (by decide) (by decide) _).trans (by rw [e_a, e_b, e_y]))) $$ Hh
  ispecialize Hk $$ [Hb Hh']
  · isplitl [Hb]; · iexact Hb
    iexact Hh'
  iapply Hk $$ %_

end Ops

/-! ## @main -/

section Main
variable [FloatOps F]

/-- What the TensorCore pallas_call's region is asked to do, as @main's step needs it: from the three arrays whole,
    the TensorCore's boundary holdings, what it owes, and the staging cells' ghost state, to the same with the
    call's result at `tcOut`. -/
def TcRegionK : Prop :=
  ∀ (d : Dev nD) (lv : GSem nD τ sig → HIx 1 → ℕ) (_ : (K (F := F)).Refines lv) (O : CellTallies nD τ sig (HIx 1)) (_ : ∀ g, O g none = 0) (b : ℕ)
    (x : XC F) (t1 : TC F) (y : OC F) (Φ : PUnit → sProp 𝕄),
    iprop(levAts (K (F := F)).L lv ∗ (∃ W, ⌜(K (F := F)).WBelow (T d) W b⌝ ∗ owes (T d) O W) ∗ boundary (T d)
        ∗ pt d rx x ∗ pt d r1 t1 ∗ pt d r2 y
        ∗ Pipeline.cellsGhost (nD := nD) (τ := τ) cfgs (ER (F := F)) 0 d ∗ (Pipeline.toksInit (nD := nD) (τ := τ) cfgs (ER (F := F)) 0 d : sProp 𝕄)
        ∗ (((∃ W, ⌜(K (F := F)).WBelow (T d) W b⌝ ∗ owes (T d) O W) ∗ boundary (T d) ∗ pt d rx x ∗ pt d r1 t1 ∗ pt d r2 (tcOut x t1)) -∗ Φ ⟨⟩))
      ⊢ wp frame (wpE ((K (F := F)).defs (D (F := F))) 𝒱 (SparseCore.T d) none) Set.univ
          (Prog.lift (.customCall (SparseCore.inner (Pipeline.entry 0)) ())) Φ

/-- What @main leaves the claim: x and t as launched, the result at `kernelOut` of them and of a SparseCore result
    that holds every worker's value. -/
def FIN (d : Dev nD) : sProp 𝕄 :=
  iprop(pt d rx (m (xLoc d)) ∗ pt d rt (m (tLoc d)) ∗ ∃ f, ⌜∀ w, OutHolds m d w f⌝ ∗ pt d r5 (kernelOut (F := F) (m (xLoc d)) (m (tLoc d)) f))

theorem G_eq (d : Dev nD) : (G (F := F) d : sProp 𝕄)
    = iprop(Pipeline.cellsGhost (nD := nD) (τ := τ) cfgs (ER (F := F)) 0 d ∗ (Pipeline.toksInit (nD := nD) (τ := τ) cfgs (ER (F := F)) 0 d : sProp 𝕄)) := rfl

/-- The TensorCore's handshake state after the call: what it owes, and the rest. -/
theorem tcSt1_split (d : Dev nD) : ∃ R : sProp 𝕄, (K (F := F)).tcSt EH d 1
    = iprop((∃ W, ⌜(K (F := F)).WBelow (T d) W (8 * 1)⌝ ∗ owes (T d) ((K (F := F)).Otc d 1) W) ∗ R) := ⟨_, rfl⟩

theorem Otc1_none (d : Dev nD) : ∀ g, (K (F := F)).Otc d 1 g none = 0 := by
  rw [(K (F := F)).Otc_end d le_rfl]; intro _; rfl

theorem hmain (htc : TcRegionK (F := F)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, H1, H2, H3, Hc, H4, H5⟩, -, -⟩, HG⟩
  iapply (sc_call m κ d) $$ [Hst Hx Ht Ho Hb H1 H2 H3 Hc H4 H5 HG]
  isplitr; · iexact Hctx
  isplitl [Hst]; · iexact Hst
  isplitl [Hx Ht Ho]
  · isplitl [Hx]; · iexact Hx
    isplitl [Ht]; · iexact Ht
    iexact Ho
  iintro ⟨Hst, Hx, Ht, %f, %hf, Ho⟩
  -- t as a column
  iapply (step_reshape_t (V0 m d) d (m (tLoc d)) (m ((SparseCore.T d).loc main_v1))) $$ [Hb Ht H1 H2 H3 Hc H4 H5 HG Hst Hx Ho]
  isplitl [Hb]; · iexact Hb
  isplitl [Ht]; · iexact Ht
  isplitl [H1]; · iexact H1
  iintro ⟨Hb, Ht, H1⟩ %_
  rw [wp_ret]; imodintro
  -- the TensorCore call
  obtain ⟨R, hR⟩ := tcSt1_split (F := F) d
  ihave Hst' := (Entails.of_eq hR) $$ Hst
  icases Hst' with ⟨Howes, HR⟩
  ihave HG' := (Entails.of_eq (G_eq (F := F) d)) $$ HG
  icases HG' with ⟨Hg, Htok⟩
  ihave Hlev := (SparseCore.Cfg.ctx_levAts κ) $$ Hctx
  iapply (htc d (K (F := F)).lev (by sl_refines_lev) ((K (F := F)).Otc d 1) (Otc1_none d) (8 * 1) (m (xLoc d)) (tCol (m (tLoc d))) (m ((SparseCore.T d).loc main_v2)) _)
    $$ [Hlev Howes Hb Hx H1 H2 Hg Htok Ht H3 Hc H4 H5 HR Ho]
  isplitl [Hlev]; · iexact Hlev
  isplitl [Howes]; · iexact Howes
  isplitl [Hb]; · iexact Hb
  isplitl [Hx]; · iexact Hx
  isplitl [H1]; · iexact H1
  isplitl [H2]; · iexact H2
  isplitl [Hg]; · iexact Hg
  isplitl [Htok]; · iexact Htok
  iintro ⟨Howes, Hb, Hx, H1, H2⟩
  -- its result as a scalar
  iapply (step_reshape_o (V0 m d) d (tcOut (m (xLoc d)) (tCol (m (tLoc d)))) (m ((SparseCore.T d).loc main_v3))) $$ [Hb H2 H3 Hc H4 H5 Ho Ht HR Howes Hx H1]
  isplitl [Hb]; · iexact Hb
  isplitl [H2]; · iexact H2
  isplitl [H3]; · iexact H3
  iintro ⟨Hb, H2, H3⟩ %_
  rw [wp_ret]; imodintro
  -- the zero
  iapply (step_cst (V0 m d) d (m ((SparseCore.T d).loc main_cst))) $$ [Hb H2 H3 Hc H4 H5 Ho Ht HR Howes Hx H1]
  isplitl [Hb]; · iexact Hb
  isplitl [Hc]; · iexact Hc
  iintro ⟨Hb, Hc⟩ %_
  rw [wp_ret]; imodintro
  -- the sum of the SparseCore call's words
  iapply (step_sum (V0 m d) d f (constant S_ .f32 0x00000000#32) (m ((SparseCore.T d).loc main_v4))) $$ [Hb H2 H3 Hc H4 H5 Ho Ht HR Howes Hx H1]
  isplitl [Hb]; · iexact Hb
  isplitl [Ho]; · iexact Ho
  isplitl [Hc]; · iexact Hc
  isplitl [H4]; · iexact H4
  iintro ⟨Hb, Ho, Hc, H4⟩ %_
  rw [wp_ret]; imodintro
  -- the difference
  iapply (step_sub (V0 m d) d (shapeCast S_ (tcOut (m (xLoc d)) (tCol (m (tLoc d)))) Facts₀.shapeCasts_S1x1_S_)
    (Host.reduceAdd f (constant S_ .f32 0x00000000#32) Facts₀.reducesTo_S512_S_d0 Facts₀.h_S_) (m ((SparseCore.T d).loc main_v5))) $$ [Hb H2 H3 Hc H4 H5 Ho Ht HR Howes Hx H1]
  isplitl [Hb]; · iexact Hb
  isplitl [H3]; · iexact H3
  isplitl [H4]; · iexact H4
  isplitl [H5]; · iexact H5
  iintro ⟨Hb, H3, H4, H5⟩ %_
  rw [wp_ret]; imodintro; imodintro
  isplitl [Howes HR]
  · iapply (Entails.of_eq hR.symm)
    isplitl [Howes]; · iexact Howes
    iexact HR
  unfold FIN
  isplitl [Hx]; · iexact Hx
  isplitl [Ht]; · iexact Ht
  iexists f; isplitr; · ipureintro; exact hf
  iexact H5

/-! ## Reading the claim off the final memory -/

def fq (d : Dev nD) (s' : Phys nD τ sig (Elt F)) : Prop :=
  s'.mem.mem (xLoc d) = m (xLoc d) ∧ s'.mem.mem (tLoc d) = m (tLoc d)
    ∧ ∃ f, (∀ w, OutHolds m d w f) ∧ s'.mem.mem ((SparseCore.T d).loc main_v5) = kernelOut (F := F) (m (xLoc d)) (m (tLoc d)) f

theorem hfin (d : Dev nD) (s' : Phys nD τ sig (Elt F)) : iprop(FIN m d ∗ SI s') ⊢ (⌜fq m d s'⌝ : sProp 𝕄) := by
  unfold FIN
  iintro ⟨⟨Hx, Ht, %f, %hf, H5⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := (SparseCore.T d).loc main_v5) (I := Finset.univ) (q := fullShare)
    (f := kernelOut (F := F) (m (xLoc d)) (m (tLoc d)) f)) $$ [HSI H5]
  · isplitl [HSI] <;> iassumption
  icases H with %h3
  ipureintro
  exact ⟨funext fun i => h1 i (Finset.mem_univ i), funext fun i => h2 i (Finset.mem_univ i), f, hf, funext fun i => h3 i (Finset.mem_univ i)⟩

/-! ## A SparseCore's pieces are its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goRes m d (widOf (Fin.cast nCore_zero c) i)) ⊢ |={Set.univ}=> iprop(
      (bigSep Finset.univ fun i : Fin ((K (F := F)).nSub 0) => goRes m d (widOf (Fin.cast nCore_zero c) (Fin.cast nSub_zero i)))
      ∗ ((bigSep Finset.univ fun i : Fin ((K (F := F)).nSub 0) => tdRes m d (widOf (Fin.cast nCore_zero c) (Fin.cast nSub_zero i)))
          -∗ bigSep Finset.univ fun i : Fin 16 => tdRes m d (widOf (Fin.cast nCore_zero c) i)))
  rw [bigSep_tasks (F := F) (fun i => goRes m d (widOf (Fin.cast nCore_zero c) i)),
    bigSep_tasks (F := F) (fun i => tdRes m d (widOf (Fin.cast nCore_zero c) i))]
  iintro H; imodintro
  isplitl [H]; · iexact H
  iintro H; iexact H

/-! ## The program's run -/

/-- On every device: x and t as launched, and the result `kernelOut` of them and of a SparseCore result holding
    every worker's value. -/
def QC : PUnit × MemSt nD τ sig (Elt F) → Prop := fun r => ∀ c : Dev nD,
  r.2.mem (xLoc c) = m (xLoc c) ∧ r.2.mem (tLoc c) = m (tLoc c)
    ∧ ∃ f, (∀ w, OutHolds m c w f) ∧ r.2.mem ((SparseCore.T c).loc main_v5) = kernelOut (F := F) (m (xLoc c)) (m (tLoc c)) f

theorem run_main [∀ e, Nonempty (Elt F e)] (htile : (K (F := F)).TileObl (D (F := F)) 𝒱 (P m) v₀ 0) (htc : TcRegionK (F := F)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m) (u₀ (F := F)) (sep_elim_left.trans (hu₀ m)) (hmain m ρ htc) (fq m) (hfin m) (QC m) (fun _ h => h)

end Main

end Cert.Proof.KernelIdeal

end
-- ==== Proof.Bits.Common.lean ====
/-
  The kernel's program as the launch theorem sees it, and the resource algebra of its proof: the handshakes'
  rounds (between the TensorCore, the two sequencers and the thirty-two tiles), the rounds of the TensorCore
  pipeline's staging cells, and the counters of the tiles' own local copies.
-/
import proofs.«217662_g32298154065999_cont_8to1_b_8_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«217662_g32298154065999_cont_8to1_b_8_33_alg».proof.Proof.Gen.Kernel
import proofs.«217662_g32298154065999_cont_8to1_b_8_33_alg».proof.Proof.Gen.Kernel.Skeleton
import proofs.«217662_g32298154065999_cont_8to1_b_8_33_alg».proof.Proof.Gen.Kernel.Launch
import proofs.«217662_g32298154065999_cont_8to1_b_8_33_alg».proof.Proof.Gen.Kernel.Points

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

/-- The handshakes' rounds, the left factor. -/
abbrev EH : Emb UH (MT nD τ sig (HIx 1) (Elt F) ℕ UU ℕ) := embL
/-- The pipeline's staging cells' rounds, the left factor of the right factor; the counters are found by instance. -/
def ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER : Emb UR (MT nD τ sig (HIx 1) (Elt F) ℕ UU ℕ)).LandsIn (upEmb : UEmb _ (MT nD τ sig (HIx 1) (Elt F) ℕ UU ℕ)) := by
  unfold ER; infer_instance

example : CountersIn UU := inferInstance

end Cert.Proof.Kernel

end
-- ==== Proof.Bits.Pay.lean ====
/-
  What the SparseCore call carries between the threads, with the values.

  Tile (core c, subcore i) is worker w = 2 i + c. It reads rows [128 w, 128 w + 128) of x and entries
  [128 w, 128 w + 128) of t, and writes words [16 w, 16 w + 16) of the call's result. Lane l of its result is the
  left fold over the eight chunks k of  acc + (if t[r] ≠ 0 then x[r, t[r]] else 0),  r = 128 w + 16 k + l,
  from acc = 0 (`tileOut`). The TensorCore hands each tile exactly those three pieces and gets them back, the
  result's piece at `tileOut`.
-/
import proofs.«217662_g32298154065999_cont_8to1_b_8_33_alg».proof.Proof.Bits.Common
import Idealize.ShloMosaic.Lib.ValueIdx

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays and their pieces -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

theorem hdivX : 32 ∣ S4096x32000.size 0 := ⟨128, rfl⟩
theorem hdivT : 32 ∣ S4096.size 0 := ⟨128, rfl⟩
theorem hdivO : 32 ∣ S512.size 0 := ⟨16, rfl⟩

/-- Worker w's 128 rows of x, its 128 entries of t, its 16 words of the result. -/
abbrev xPart (w : Fin 32) : Finset S4096x32000.Idx := (Rect.part (s := S4096x32000) (a₀ := 0) hdivX w).set
abbrev tPart (w : Fin 32) : Finset S4096.Idx := (Rect.part (s := S4096) (a₀ := 0) hdivT w).set
abbrev oPart (w : Fin 32) : Finset S512.Idx := (Rect.part (s := S512) (a₀ := 0) hdivO w).set

/-- The worker number of the tile on core `c`, subcore `i`. -/
def widOf (c : Fin 2) (i : Fin 16) : Fin 32 := ⟨2 * i.val + c.val, by omega⟩

/-! ## What a tile computes -/

section Value
variable [FloatOps F]

/-- Row `128 w + 16 k + l`. -/
def rowOf (w : Fin 32) (k : Fin 8) (l : Fin 16) : Fin 4096 := ⟨128 * w.val + 16 * k.val + l.val, by omega⟩

/-- Chunk `k` of worker `w`'s entries of t, as the 16-lane vector the tile loads. -/
def tvec (t : S4096.Idx → BitVec 32) (w : Fin 32) (k : Fin 8) : IVec S16 32 := fun l => t (ix1 (rowOf w k (l 0)))

/-- The 16 gathered entries of chunk `k`: lane `l` is x at row `128 w + 16 k + l`, column t of that row. -/
def gath (x : S4096x32000.Idx → F .f32) (t : S4096.Idx → BitVec 32) (w : Fin 32) (k : Fin 8) : FVec F S16 .f32 :=
  fun l => x (ix2 (rowOf w k (l 0)) ⟨(t (ix1 (rowOf w k (l 0)))).toNat % 32000, Nat.mod_lt _ (by norm_num)⟩)

/-- One chunk's step of the accumulator: add the gathered entries of the rows whose t is not zero. -/
def accStep (acc : FVec F S16 .f32) (tv : IVec S16 32) (g : FVec F S16 .f32) : FVec F S16 .f32 :=
  addf acc (select (cmpi .ne tv (broadcast S16 0#32)) g (broadcast S16 (Scalar.ofBits .f32 0x00000000#32)))

/-- The accumulator after the first `n` chunks. -/
def scAccAt (x : S4096x32000.Idx → F .f32) (t : S4096.Idx → BitVec 32) (w : Fin 32) : (n : Nat) → n ≤ 8 → FVec F S16 .f32
  | 0, _ => broadcast S16 (Scalar.ofBits .f32 0x00000000#32)
  | n + 1, h => accStep (scAccAt x t w n (by omega)) (tvec t w ⟨n, by omega⟩) (gath x t w ⟨n, by omega⟩)

/-- What worker `w` writes into its 16 words of the result. -/
def tileOut (x : S4096x32000.Idx → F .f32) (t : S4096.Idx → BitVec 32) (w : Fin 32) : FVec F S16 .f32 := scAccAt x t w 8 le_rfl

end Value

/-! ## What the handshakes carry -/

variable (m : (ℓ : Loc nD τ sig) → Buf (Elt F) ℓ)

/-- What worker `w`'s tile is handed: its rows of x, its entries of t, its words of the result, all at the launch
    contents. -/
abbrev xPartPts (d : Dev nD) (w : Fin 32) : sProp 𝕄 := xLoc d ↦[xPart w]{fullShare} m (xLoc d)
abbrev tPartPts (d : Dev nD) (w : Fin 32) : sProp 𝕄 := tLoc d ↦[tPart w]{fullShare} m (tLoc d)
abbrev oPartPts (d : Dev nD) (w : Fin 32) (f : Buf (Elt F) (oLoc d)) : sProp 𝕄 := oLoc d ↦[oPart w]{fullShare} f

def goRes (d : Dev nD) (w : Fin 32) : sProp 𝕄 :=
  iprop(xPartPts m d w ∗ tPartPts m d w ∗ oPartPts d w (m (oLoc d)))

/-- The result array holds worker `w`'s value in worker `w`'s words. -/
def OutHolds [FloatOps F] (d : Dev nD) (w : Fin 32) (f : Buf (Elt F) (oLoc d)) : Prop :=
  ∀ l : Fin 16, f (ix1 ⟨16 * w.val + l.val, by omega⟩) = tileOut (F := F) (m (xLoc d)) (m (tLoc d)) w (ix1 l)

/-- What it hands back: x and t untouched, its words of the result at `tileOut`. -/
def tdRes [FloatOps F] (d : Dev nD) (w : Fin 32) : sProp 𝕄 :=
  iprop(xPartPts m d w ∗ tPartPts m d w ∗ ∃ f, ⌜OutHolds m d w f⌝ ∗ oPartPts d w f)

/-- The one SparseCore call: each SparseCore is handed its sixteen tiles' pieces and hands them to its tiles as they are. -/
def P [FloatOps F] : (K (F := F)).Pay (nD := nD) (Val := Elt F) (Name := ℕ) (U := UU) where
  st := fun q d c => match q with | 0 => bigSep Finset.univ fun i : Fin 16 => goRes m d (widOf (Fin.cast nCore_zero c) i)
  dn := fun q d c => match q with | 0 => bigSep Finset.univ fun i : Fin 16 => tdRes m d (widOf (Fin.cast nCore_zero c) i)
  go := fun q d c i => match q with | 0 => goRes m d (widOf (Fin.cast nCore_zero c) (Fin.cast nSub_zero i))
  td := fun q d c i => match q with | 0 => tdRes m d (widOf (Fin.cast nCore_zero c) (Fin.cast nSub_zero i))
  x := fun _ _ => iprop(emp)

instance goRes_storable (d : Dev nD) (w : Fin 32) : BI.Storable (upEmb : UEmb _ 𝕄) (goRes m d w) := by unfold goRes; infer_instance
instance tdRes_storable [FloatOps F] (d : Dev nD) (w : Fin 32) : BI.Storable (upEmb : UEmb _ 𝕄) (tdRes m d w) := by unfold tdRes; infer_instance

instance P_storable [FloatOps F] : (P (F := F) m).IsStorable where
  st q d c := match q with | 0 => (inferInstance : BI.Storable (upEmb : UEmb _ 𝕄) (bigSep Finset.univ fun i : Fin 16 => goRes m d (widOf (Fin.cast nCore_zero c) i)))
  dn q d c := match q with | 0 => (inferInstance : BI.Storable (upEmb : UEmb _ 𝕄) (bigSep Finset.univ fun i : Fin 16 => tdRes m d (widOf (Fin.cast nCore_zero c) i)))
  go q d c i := match q with | 0 => (inferInstance : BI.Storable (upEmb : UEmb _ 𝕄) (goRes m d (widOf (Fin.cast nCore_zero c) (Fin.cast nSub_zero i))))
  td q d c i := match q with | 0 => (inferInstance : BI.Storable (upEmb : UEmb _ 𝕄) (tdRes m d (widOf (Fin.cast nCore_zero c) (Fin.cast nSub_zero i))))

end Cert.Proof.Kernel

end
-- ==== Proof.Bits.LaunchSc.lean ====
/-
  The SparseCore call as @main's TensorCore sees it: the three arrays whole go in — cut into the thirty-two
  workers' pieces (rows of x, entries of t, words of the result: each a partition of its array into equal parts
  along the first axis), dealt to the two SparseCores by the parity of the worker number — and come back whole,
  the result holding every worker's value in that worker's words.
-/
import proofs.«217662_g32298154065999_cont_8to1_b_8_33_alg».proof.Proof.Bits.Pay

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The pieces partition the arrays -/

theorem xParts_disjoint : ∀ i ∈ (Finset.univ : Finset (Fin 32)), ∀ j ∈ (Finset.univ : Finset (Fin 32)), i ≠ j → Disjoint (xPart i) (xPart j) :=
  fun _ _ _ _ h => Rect.part_disjoint hdivX h
theorem tParts_disjoint : ∀ i ∈ (Finset.univ : Finset (Fin 32)), ∀ j ∈ (Finset.univ : Finset (Fin 32)), i ≠ j → Disjoint (tPart i) (tPart j) :=
  fun _ _ _ _ h => Rect.part_disjoint hdivT h
theorem oParts_disjoint : ∀ i ∈ (Finset.univ : Finset (Fin 32)), ∀ j ∈ (Finset.univ : Finset (Fin 32)), i ≠ j → Disjoint (oPart i) (oPart j) :=
  fun _ _ _ _ h => Rect.part_disjoint hdivO h
theorem xParts_cover : (Finset.univ : Finset (Fin 32)).biUnion xPart = Finset.univ := Rect.biUnion_part hdivX
theorem tParts_cover : (Finset.univ : Finset (Fin 32)).biUnion tPart = Finset.univ := Rect.biUnion_part hdivT
theorem oParts_cover : (Finset.univ : Finset (Fin 32)).biUnion oPart = Finset.univ := Rect.biUnion_part hdivO

theorem xPts_parts (d : Dev nD) (f : Buf (Elt F) (xLoc d)) :
    (xLoc d ↦{fullShare} f : sProp 𝕄) = bigSep Finset.univ fun w : Fin 32 => xLoc d ↦[xPart w]{fullShare} f := by
  rw [← pointsTo_biUnion Finset.univ (ℓ := xLoc d) xPart xParts_disjoint, xParts_cover]; try rfl
theorem tPts_parts (d : Dev nD) (f : Buf (Elt F) (tLoc d)) :
    (tLoc d ↦{fullShare} f : sProp 𝕄) = bigSep Finset.univ fun w : Fin 32 => tLoc d ↦[tPart w]{fullShare} f := by
  rw [← pointsTo_biUnion Finset.univ (ℓ := tLoc d) tPart tParts_disjoint, tParts_cover]; try rfl
theorem oPts_parts (d : Dev nD) (f : Buf (Elt F) (oLoc d)) :
    (oLoc d ↦{fullShare} f : sProp 𝕄) = bigSep Finset.univ fun w : Fin 32 => oLoc d ↦[oPart w]{fullShare} f := by
  rw [← pointsTo_biUnion Finset.univ (ℓ := oLoc d) oPart oParts_disjoint, oParts_cover]; try rfl

/-! ## Workers by core and subcore -/

theorem widOf_injOn : Set.InjOn (fun p : Fin 2 × Fin 16 => widOf p.1 p.2) ((Finset.univ : Finset (Fin 2 × Fin 16)) : Set _) := by
  intro a _ b _ e
  have h : 2 * a.2.val + a.1.val = 2 * b.2.val + b.1.val := congrArg Fin.val e
  exact Prod.ext (Fin.ext (by omega)) (Fin.ext (by omega))
theorem widOf_image : (Finset.univ : Finset (Fin 2 × Fin 16)).image (fun p => widOf p.1 p.2) = Finset.univ := by decide

/-- A family over the workers, regrouped by core and then subcore. -/
theorem bigSep_workers (Φ : Fin 32 → sProp 𝕄) :
    bigSep Finset.univ Φ = bigSep Finset.univ fun c : Fin 2 => bigSep Finset.univ fun i : Fin 16 => Φ (widOf c i) := by
  rw [← widOf_image, SparseCore.bigSep_image_of_injOn widOf_injOn Φ, ← Finset.univ_product_univ, SparseCore.bigSep_product]

/-! ## Going in: the arrays whole are the workers' pieces -/

theorem go_all (d : Dev nD) :
    (bigSep Finset.univ fun w : Fin 32 => goRes m d w)
      = (iprop((xLoc d ↦{fullShare} m (xLoc d)) ∗ (tLoc d ↦{fullShare} m (tLoc d)) ∗ (oLoc d ↦{fullShare} m (oLoc d))) : sProp 𝕄) := by
  unfold goRes xPartPts tPartPts oPartPts
  rw [bigSep_sep', bigSep_sep', ← xPts_parts, ← tPts_parts, ← oPts_parts]

variable [FloatOps F]

theorem st0_eq (d : Dev nD) :
    (bigSep Finset.univ fun c : Fin ((K (F := F)).nCore 0) => (P m).st 0 d c) = bigSep Finset.univ fun w : Fin 32 => goRes m d w := by
  rw [bigSep_workers (fun w => goRes m d w)]
  rfl
theorem dn0_eq (d : Dev nD) :
    (bigSep Finset.univ fun c : Fin ((K (F := F)).nCore 0) => (P m).dn 0 d c) = bigSep Finset.univ fun w : Fin 32 => tdRes m d w := by
  rw [bigSep_workers (fun w => tdRes m d w)]
  rfl

/-! ## Coming back: the pieces join, the result holding every worker's value -/

/-- Word `16 w + l` of the result is one of worker `w`'s. -/
theorem mem_oPart (w : Fin 32) (l : Fin 16) : (ix1 (⟨16 * w.val + l.val, by omega⟩ : Fin 512) : S512.Idx) ∈ oPart w := by
  refine Rect.mem_set_unit.mpr fun a => ?_
  obtain rfl : a = 0 := Subsingleton.elim _ _
  simp only [Shape.partIx, Shape.partSize, ↓reduceIte]
  show w.val * (512 / 32) ≤ 16 * w.val + l.val ∧ 16 * w.val + l.val < w.val * (512 / 32) + 512 / 32
  omega

theorem o_choice (d : Dev nD) :
    (bigSep Finset.univ fun w : Fin 32 => iprop(∃ f, ⌜OutHolds m d w f⌝ ∗ oLoc d ↦[oPart w]{fullShare} f))
      ⊢ (iprop(∃ fs : Fin 32 → Buf (Elt F) (oLoc d), ⌜∀ w ∈ (Finset.univ : Finset (Fin 32)), OutHolds m d w (fs w)⌝
          ∗ bigSep Finset.univ fun w : Fin 32 => oLoc d ↦[oPart w]{fullShare} fs w) : sProp 𝕄) := by
  refine (bigSep_exists_pi Finset.univ (fun (w : Fin 32) (f : Buf (Elt F) (oLoc d)) => iprop(⌜OutHolds m d w f⌝ ∗ oLoc d ↦[oPart w]{fullShare} f))).trans ?_
  iintro ⟨%fs, H⟩
  iexists fs
  iapply (bigSep_pure_sep Finset.univ (fun w : Fin 32 => OutHolds m d w (fs w)) (fun w : Fin 32 => oLoc d ↦[oPart w]{fullShare} fs w))
  iexact H

theorem td_all (d : Dev nD) :
    (bigSep Finset.univ fun w : Fin 32 => tdRes m d w)
      ⊢ (iprop((xLoc d ↦{fullShare} m (xLoc d)) ∗ (tLoc d ↦{fullShare} m (tLoc d))
          ∗ ∃ f, ⌜∀ w, OutHolds m d w f⌝ ∗ oLoc d ↦{fullShare} f) : sProp 𝕄) := by
  unfold tdRes xPartPts tPartPts oPartPts
  rw [bigSep_sep', bigSep_sep', ← xPts_parts, ← tPts_parts]
  iintro ⟨Hx, Ht, Ho⟩
  isplitl [Hx]; · iexact Hx
  isplitl [Ht]; · iexact Ht
  ihave Ho' := (o_choice m d) $$ Ho
  icases Ho' with ⟨%fs, %hp, H⟩
  ihave H' := (pointsTo_biUnion_join Finset.univ oPart fs (fs 0) oParts_disjoint) $$ H
  icases H' with ⟨%g, %hg, Hg⟩
  rw [oParts_cover]
  iexists g; isplitr
  · ipureintro
    intro w l
    rw [hg w (Finset.mem_univ w) _ (mem_oPart w l)]
    exact hp w (Finset.mem_univ w) l
  · iexact Hg

/-! ## The call -/

/-- The SparseCore call, as @main's TensorCore runs it: the three arrays whole in; out, x and t as they were and
    the result holding every worker's value. -/
theorem sc_call (κ : GSem nD τ sig → ℕ) (d : Dev nD) {Φ : PUnit → sProp 𝕄} :
    iprop((K (F := F)).ctx EH (P m) κ ∗ (K (F := F)).tcSt EH d 0
        ∗ ((xLoc d ↦{fullShare} m (xLoc d)) ∗ (tLoc d ↦{fullShare} m (tLoc d)) ∗ (oLoc d ↦{fullShare} m (oLoc d)))
        ∗ (((K (F := F)).tcSt EH d 1 ∗ (xLoc d ↦{fullShare} m (xLoc d)) ∗ (tLoc d ↦{fullShare} m (tLoc d))
              ∗ ∃ f, ⌜∀ w, OutHolds m d w f⌝ ∗ oLoc d ↦{fullShare} f) -∗ Φ ⟨⟩))
      ⊢ wp frame (wpE ((K (F := F)).defs (D (F := F))) 𝒱 (SparseCore.T d) none) Set.univ ((K (F := F)).run d 0) Φ := by
  iintro ⟨#Hctx, Hst, Harr, Hk⟩
  iapply ((K (F := F)).wp_run (D (F := F)) 𝒱 (EH := EH) (P := P m) κ d 0) $$ [Hst Harr Hk]
  isplitr; · iexact Hctx
  isplitl [Hst]; · iexact Hst
  isplitl [Harr]
  · rw [st0_eq, go_all]; iexact Harr
  iintro ⟨Hst, Hdn⟩
  iapply Hk
  isplitl [Hst]; · iexact Hst
  ihave Hdn' := (Entails.of_eq (dn0_eq m d)) $$ Hdn
  iapply (td_all m d); iexact Hdn'

end Cert.Proof.Kernel

end
-- ==== Proof.Bits.LaunchElem.lean ====
/-
  The launch element of the proof's ghost state: the handshakes' rounds go to the launch theorem, the rounds of the
  TensorCore pipeline's staging cells are dealt to the TensorCore (their states, positions and duty tokens, for the
  region that runs after the SparseCore call), the counters' factor is not needed at launch (the tiles' local copies
  allocate theirs from their semaphores' counters at zero), and no kernel consumes anything at its call.
-/
import proofs.«217662_g32298154065999_cont_8to1_b_8_33_alg».proof.Proof.Bits.Pay

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d` starts from beyond what the launch deals every TensorCore: the ghost state of
    the pipeline's staging cells and the duty tokens of its transfers. -/
def G (d : Dev nD) : sProp 𝕄 :=
  iprop(Pipeline.cellsGhost (nD := nD) (τ := τ) cfgs (ER (F := F)) 0 d ∗ (Pipeline.toksInit (nD := nD) (τ := τ) cfgs (ER (F := F)) 0 d : sProp 𝕄))

theorem bigSep_emp' {I : Type} (s : Finset I) : (bigSep s fun _ => iprop(emp)) = (iprop(emp) : sProp 𝕄) := bigSep_emp_const s

theorem bigSep_fin1 (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem own_ER (a : UR) :
    (BI.own (((Emb.inl : Emb UR (UR × Counters)).trans (embR : Emb (UR × Counters) 𝕄)) a) : sProp 𝕄) ⊢ BI.own ((ER (F := F)) a) :=
  BI.Entails.refl _

theorem hu₀ [FloatOps F] : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UR × Counters) 𝕄) _ _) $$ HR
  icases H2 with ⟨HP, -⟩
  ihave HP' := (own_ER _) $$ HP
  imod (Pipeline.fund_ghost (nD := nD) (τ := τ) cfgs (ER (F := F)) cellOf_inj) $$ HP' with ⟨Hg, Htok⟩
  imodintro
  isplitl [HH]; · iexact HH
  isplitl [Hg Htok]
  · unfold G; rw [bigSep_sep']
    ihave Hg' := (Entails.of_eq (bigSep_fin1 (F := F) (fun p c => Pipeline.cellsGhost (nD := nD) (τ := τ) cfgs (ER (F := F)) p c))) $$ Hg
    ihave Htok' := (Entails.of_eq (bigSep_fin1 (F := F) (fun p c => (Pipeline.toksInit (nD := nD) (τ := τ) cfgs (ER (F := F)) p c : sProp 𝕄)))) $$ Htok
    isplitl [Hg']; · iexact Hg'
    iexact Htok'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Kernel

end
-- ==== Proof.Bits.TcRegionDefs.lean ====
import proofs.«217662_g32298154065999_cont_8to1_b_8_33_alg».proof.Proof.Bits.Common
import Idealize.ShloMosaic.Lib.Pipeline.FrameBody

noncomputable section

namespace Cert.Proof.Kernel

open Cert.Kernel Cert.Kernel.Gen

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The value the TensorCore call computes

The call's grid has 32 points, one per block of 128 rows; its column axis has one block, so at every point the
running maximum and running sum are reset before the block is folded in. -/

/-- The contents of the call's three arrays. -/
abbrev XC (F : FTy → Type) : Type := (⟨S4096x32000, .f32⟩ : BufTy).Contents (Elt F)
abbrev TC (F : FTy → Type) : Type := (⟨S4096x1, .i32⟩ : BufTy).Contents (Elt F)
abbrev OC (F : FTy → Type) : Type := (⟨S1x1, .f32⟩ : BufTy).Contents (Elt F)

/-- The block of 128 rows of the logits the call stages at point `t`. -/
def xBlk (x : XC F) (t : Fin cfg1.N) : Vec F S128x32000 .f32 :=
  ((cfg1.win 1).blk t).view.read (Elt F) x

/-- The block of 128 targets it stages there. -/
def tBlk (t1 : TC F) (t : Fin cfg1.N) : Vec F S128x1 .i32 :=
  ((cfg1.win 0).blk t).view.read (Elt F) t1

/-- The running maximum after the block is folded into the reset state: the rows' maxima. -/
def mNew (xb : Vec F S128x32000 .f32) : Vec F S128x1 .f32 := k1_pay5 xb (k1_pay1 (F := F))

/-- The running sum after the block is folded into the reset state: the rows' sums of exponentials about their maxima. -/
def sNew (xb : Vec F S128x32000 .f32) : Vec F S128x1 .f32 := k1_pay4 xb (k1_pay1 (F := F)) (k1_pay2 (F := F))

/-- The partial sum of point `t`: over its 128 rows, the log-sum-exp of each row whose target is not 0. -/
def part (x : XC F) (t1 : TC F) (t : Fin cfg1.N) : Vec F S1x1 .f32 :=
  k1_pay6 (tBlk t1 t) (sNew (xBlk x t)) (mNew (xBlk x t))

/-- The output block after point `n`: point 0 stores its partial sum, a later point adds its own to what the block holds. -/
def accAt (x : XC F) (t1 : TC F) : (n : ℕ) → n < cfg1.N → Vec F S1x1 .f32
  | 0, h => part x t1 ⟨0, h⟩
  | n + 1, h => k1_pay7 (tBlk t1 ⟨n + 1, h⟩) (sNew (xBlk x ⟨n + 1, h⟩)) (mNew (xBlk x ⟨n + 1, h⟩)) (accAt x t1 n (Nat.lt_of_succ_lt h))

/-- What the call leaves in its result: the output block after the last point. -/
def tcOut (x : XC F) (t1 : TC F) : OC F := accAt x t1 31 (by decide)

end Cert.Proof.Kernel

end
-- ==== Proof.Bits.KernelOut.lean ====
/-
  The scalar @main ends with, as a pure function of x, t and the SparseCore call's 512 words: the TensorCore
  call's 1x1 result (on x and t reshaped to a column) reshaped to a scalar, minus the sum of the 512 words.
-/
import proofs.«217662_g32298154065999_cont_8to1_b_8_33_alg».proof.Proof.Bits.Pay
import proofs.«217662_g32298154065999_cont_8to1_b_8_33_alg».proof.Proof.Bits.TcRegionDefs

noncomputable section

namespace Cert.Proof.Kernel

open Cert.Kernel
open Idealize.ShloMosaic

variable {F : FTy → Type} [FloatOps F]

abbrev TV (F : FTy → Type) : Type := (⟨S4096, .i32⟩ : BufTy).Contents (Elt F)
abbrev OV (F : FTy → Type) : Type := (⟨S512, .f32⟩ : BufTy).Contents (Elt F)
abbrev RV (F : FTy → Type) : Type := (⟨S_, .f32⟩ : BufTy).Contents (Elt F)

/-- t as the column the TensorCore call reads. -/
def tCol (t : TV F) : TC F := shapeCast S4096x1 t Facts₀.shapeCasts_S4096_S4096x1

/-- The sum of the SparseCore call's 512 words. -/
def scSum (f : OV F) : RV F := Host.reduceAdd f (constant S_ .f32 0x00000000#32) Facts₀.reducesTo_S512_S_d0 Facts₀.h_S_

/-- The TensorCore call's result as a scalar. -/
def tcScalar (x : XC F) (t : TV F) : RV F := shapeCast S_ (tcOut x (tCol t)) Facts₀.shapeCasts_S1x1_S_

/-- What @main returns. -/
def kernelOut (x : XC F) (t : TV F) (f : OV F) : RV F := subf (tcScalar x t) (scSum f)

end Cert.Proof.Kernel

end
-- ==== Proof.Bits.Launch.lean ====
/-
  @main on the TensorCore, and the program's run.

  @main starts the SparseCore call on the three arrays whole and gets them back, the call's result holding every
  worker's sixteen sums; reshapes t to a column; runs the TensorCore pallas_call on that column and x, whose 1x1
  result is the sum over the rows with t ≠ 0 of their log-sum-exp; reshapes it to a scalar, sums the SparseCore
  call's 512 words, and subtracts. x and t are never written.
-/
import proofs.«217662_g32298154065999_cont_8to1_b_8_33_alg».proof.Proof.Bits.LaunchSc
import proofs.«217662_g32298154065999_cont_8to1_b_8_33_alg».proof.Proof.Bits.LaunchElem
import proofs.«217662_g32298154065999_cont_8to1_b_8_33_alg».proof.Proof.Bits.KernelOut

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev rx : DevRef τ sig := Proc.devRef .tc (main_arg0 : Ref sig .tc)
abbrev rt : DevRef τ sig := Proc.devRef .tc (main_arg1 : Ref sig .tc)
abbrev ro : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev rc : DevRef τ sig := Proc.devRef .tc (main_cst : Ref sig .tc)
abbrev r4 : DevRef τ sig := Proc.devRef .tc (main_v4 : Ref sig .tc)
abbrev r5 : DevRef τ sig := Proc.devRef .tc (main_v5 : Ref sig .tc)

abbrev pt (d : Dev nD) (b : DevRef τ sig) (f : Buf (Elt F) ((d, b) : Loc nD τ sig)) : sProp 𝕄 := ((d, b) : Loc nD τ sig) ↦{fullShare} f

theorem unscopedBufs_eq (d : Dev nD) (W : (b : Ref sig .tc) → Buf (Elt F) ((d.tc : Thread nD τ).loc b)) :
    (unscopedBufs d W : sProp 𝕄) = iprop(pt d rx (W main_arg0) ∗ pt d rt (W main_arg1) ∗ pt d ro (W main_v0) ∗ pt d r1 (W main_v1) ∗ pt d r2 (W main_v2)
      ∗ pt d r3 (W main_v3) ∗ pt d rc (W main_cst) ∗ pt d r4 (W main_v4) ∗ pt d r5 (W main_v5)) := by
  unfold unscopedBufs
  rw [show (Finset.univ.filter fun b : Ref sig .tc => ¬ b.isScoped) = {main_arg0, main_arg1, main_v0, main_v1, main_v2, main_v3, main_cst, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## Holding two or three arrays at a valuation -/

theorem held1 (d : Dev nD) (a : DevRef τ sig) (V : Valuation τ sig (Elt F)) :
    (held (T d) {a} V : sProp 𝕄) = pt d a (V a) := by
  unfold held; rw [bigSep_singleton]
theorem held2 (d : Dev nD) (a b : DevRef τ sig) (hab : a ≠ b) (V : Valuation τ sig (Elt F)) :
    (held (T d) {a, b} V : sProp 𝕄) = iprop(pt d a (V a) ∗ pt d b (V b)) := by
  unfold held; rw [SparseCore.bigSep_insert' (by simpa using hab), bigSep_singleton]
theorem held3 (d : Dev nD) (a b c : DevRef τ sig) (hab : a ≠ b) (hac : a ≠ c) (hbc : b ≠ c) (V : Valuation τ sig (Elt F)) :
    (held (T d) {a, b, c} V : sProp 𝕄) = iprop(pt d a (V a) ∗ pt d b (V b) ∗ pt d c (V c)) := by
  unfold held; rw [SparseCore.bigSep_insert' (by simp [hab, hac]), SparseCore.bigSep_insert' (by simpa using hbc), bigSep_singleton]

/-- The launch valuation. -/
def V0 (d : Dev nD) : Valuation τ sig (Elt F) := fun b => m (d, b)

/-! ## The host operations of @main, one step each -/

section Ops
variable [FloatOps F]

abbrev op1 : HloOp τ sig (Elt F) := StableHlo.reshape main_arg1 main_v1 rfl Facts₀.shapeCasts_S4096_S4096x1
abbrev op3 : HloOp τ sig (Elt F) := StableHlo.reshape main_v2 main_v3 rfl Facts₀.shapeCasts_S1x1_S_
abbrev opc : HloOp τ sig (Elt F) := StableHlo.nullary main_cst (constant S_ .f32 0x00000000#32)
abbrev op4 : HloOp τ sig (Elt F) := StableHlo.binary main_v0 main_cst main_v4
  ((fun x v => Host.reduceAdd x v Facts₀.reducesTo_S512_S_d0 Facts₀.h_S_) : (⟨S512, .f32⟩ : BufTy).Contents (Elt F) → (⟨S_, .f32⟩ : BufTy).Contents (Elt F) → (⟨S_, .f32⟩ : BufTy).Contents (Elt F))
abbrev op5 : HloOp τ sig (Elt F) := StableHlo.binary main_v3 main_v4 main_v5
  (subf : (⟨S_, .f32⟩ : BufTy).Contents (Elt F) → (⟨S_, .f32⟩ : BufTy).Contents (Elt F) → (⟨S_, .f32⟩ : BufTy).Contents (Elt F))

/-- t reshaped to a column. -/
theorem step_reshape_t (Vb : Valuation τ sig (Elt F)) (d : Dev nD) (tv : TV F) (y : TC F)
    {k : ((b : (op1 (F := F)).writes) → b.1.ty.Contents (Elt F)) → Prog (TpuEff nD τ sig (Elt F) (SparseCore.Sig (ΛP (F := F)) 1) .tc) PUnit} {Q : PUnit → sProp 𝕄} :
    iprop(boundary (T d) ∗ pt d rt tv ∗ pt d r1 y
        ∗ ((boundary (T d) ∗ pt d rt tv ∗ pt d r1 (tCol tv)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (op1 (F := F)) k) Q := by
  have e_rt : (op1 (F := F)).result (Function.update (Function.update Vb r1 y) rt tv) rt = tv :=
    ((op1 (F := F)).result_of_not_mem _ (b := rt) (show rt ∉ ({r1} : Finset (DevRef τ sig)) by decide)).trans (Function.update_self _ _ _)
  have e_r1 : (op1 (F := F)).result (Function.update (Function.update Vb r1 y) rt tv) r1 = tCol tv := by
    refine (StableHlo.reshape_result main_arg1 main_v1 rfl Facts₀.shapeCasts_S4096_S4096x1 _ _ _).trans ?_
    show (fun i => shapeCast S4096x1 ((Function.update (Function.update Vb r1 y) rt tv) rt) _ i) = tCol tv
    rw [show (Function.update (Function.update Vb r1 y) rt tv) rt = tv from Function.update_self _ _ _]; rfl
  iintro ⟨Hb, Ht, H1, Hk⟩
  iapply (wp_hlo_within 𝒱 (SparseCore.T d) none Set.univ (op := op1 (F := F)) (S := {rt, r1}) (Finset.Subset.refl _)
    (V := Function.update (Function.update Vb r1 y) rt tv)) $$ [Hb Ht H1]
  · isplitl [Hb]; · iexact Hb
    rw [held2 d rt r1 (by decide), Function.update_self, Function.update_of_ne (show r1 ≠ rt by decide), Function.update_self]
    isplitl [Ht]; · iexact Ht
    iexact H1
  iintro ⟨Hb, Hh⟩
  ihave Hh' := (Entails.of_eq ((held2 d rt r1 (by decide) _).trans (by rw [e_rt, e_r1]))) $$ Hh
  ispecialize Hk $$ [Hb Hh']
  · isplitl [Hb]; · iexact Hb
    iexact Hh'
  iapply Hk $$ %_

/-- The TensorCore call's 1x1 result reshaped to a scalar. -/
theorem step_reshape_o (Vb : Valuation τ sig (Elt F)) (d : Dev nD) (g : OC F) (y : RV F)
    {k : ((b : (op3 (F := F)).writes) → b.1.ty.Contents (Elt F)) → Prog (TpuEff nD τ sig (Elt F) (SparseCore.Sig (ΛP (F := F)) 1) .tc) PUnit} {Q : PUnit → sProp 𝕄} :
    iprop(boundary (T d) ∗ pt d r2 g ∗ pt d r3 y
        ∗ ((boundary (T d) ∗ pt d r2 g ∗ pt d r3 (shapeCast S_ g Facts₀.shapeCasts_S1x1_S_ : RV F)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (op3 (F := F)) k) Q := by
  have e_a : (op3 (F := F)).result (Function.update (Function.update Vb r3 y) r2 g) r2 = g :=
    ((op3 (F := F)).result_of_not_mem _ (b := r2) (show r2 ∉ ({r3} : Finset (DevRef τ sig)) by decide)).trans (Function.update_self _ _ _)
  have e_y : (op3 (F := F)).result (Function.update (Function.update Vb r3 y) r2 g) r3 = (shapeCast S_ g Facts₀.shapeCasts_S1x1_S_ : RV F) := by
    refine (StableHlo.reshape_result main_v2 main_v3 rfl Facts₀.shapeCasts_S1x1_S_ _ _ _).trans ?_
    show (fun i => shapeCast S_ ((Function.update (Function.update Vb r3 y) r2 g) r2) _ i) = _
    rw [show (Function.update (Function.update Vb r3 y) r2 g) r2 = g from Function.update_self _ _ _]
  iintro ⟨Hb, Ha, Hy, Hk⟩
  iapply (wp_hlo_within 𝒱 (SparseCore.T d) none Set.univ (op := op3 (F := F)) (S := {r2, r3}) (Finset.Subset.refl _)
    (V := Function.update (Function.update Vb r3 y) r2 g)) $$ [Hb Ha Hy]
  · isplitl [Hb]; · iexact Hb
    rw [held2 d r2 r3 (by decide), Function.update_self, Function.update_of_ne (show r3 ≠ r2 by decide), Function.update_self]
    isplitl [Ha]; · iexact Ha
    iexact Hy
  iintro ⟨Hb, Hh⟩
  ihave Hh' := (Entails.of_eq ((held2 d r2 r3 (by decide) _).trans (by rw [e_a, e_y]))) $$ Hh
  ispecialize Hk $$ [Hb Hh']
  · isplitl [Hb]; · iexact Hb
    iexact Hh'
  iapply Hk $$ %_

/-- The zero the sum starts from. -/
theorem step_cst (Vb : Valuation τ sig (Elt F)) (d : Dev nD) (y : RV F)
    {k : ((b : (opc (F := F)).writes) → b.1.ty.Contents (Elt F)) → Prog (TpuEff nD τ sig (Elt F) (SparseCore.Sig (ΛP (F := F)) 1) .tc) PUnit} {Q : PUnit → sProp 𝕄} :
    iprop(boundary (T d) ∗ pt d rc y
        ∗ ((boundary (T d) ∗ pt d rc (constant S_ .f32 0x00000000#32 : RV F)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (opc (F := F)) k) Q := by
  have e_y : (opc (F := F)).result (Function.update Vb rc y) rc = (constant S_ .f32 0x00000000#32 : RV F) :=
    StableHlo.nullary_result main_cst _ _ _
  iintro ⟨Hb, Hy, Hk⟩
  iapply (wp_hlo_within 𝒱 (SparseCore.T d) none Set.univ (op := opc (F := F)) (S := {rc}) (Finset.Subset.refl _)
    (V := Function.update Vb rc y)) $$ [Hb Hy]
  · isplitl [Hb]; · iexact Hb
    rw [held1 d rc, Function.update_self]
    iexact Hy
  iintro ⟨Hb, Hh⟩
  ihave Hh' := (Entails.of_eq ((held1 d rc _).trans (by rw [e_y]))) $$ Hh
  ispecialize Hk $$ [Hb Hh']
  · isplitl [Hb]; · iexact Hb
    iexact Hh'
  iapply Hk $$ %_

/-- The sum of the SparseCore call's 512 words. -/
theorem step_sum (Vb : Valuation τ sig (Elt F)) (d : Dev nD) (f : OV F) (cv : RV F) (y : RV F)
    {k : ((b : (op4 (F := F)).writes) → b.1.ty.Contents (Elt F)) → Prog (TpuEff nD τ sig (Elt F) (SparseCore.Sig (ΛP (F := F)) 1) .tc) PUnit} {Q : PUnit → sProp 𝕄} :
    iprop(boundary (T d) ∗ pt d ro f ∗ pt d rc cv ∗ pt d r4 y
        ∗ ((boundary (T d) ∗ pt d ro f ∗ pt d rc cv ∗ pt d r4 (Host.reduceAdd f cv Facts₀.reducesTo_S512_S_d0 Facts₀.h_S_ : RV F)) -∗ ∀ a, wp frame (wpE ((K (F := F)).defs (D (F := F))) 𝒱 (SparseCore.T d) none) Set.univ (k a) Q))
      ⊢ wp frame (wpE ((K (F := F)).defs (D (F := F))) 𝒱 (SparseCore.T d) none) Set.univ (hlo rfl (op4 (F := F)) k) Q := by
  have e_a : (op4 (F := F)).result (Function.update (Function.update (Function.update Vb r4 y) rc cv) ro f) ro = f :=
    ((op4 (F := F)).result_of_not_mem _ (b := ro) (show ro ∉ ({r4} : Finset (DevRef τ sig)) by decide)).trans (Function.update_self _ _ _)
  have e_b : (op4 (F := F)).result (Function.update (Function.update (Function.update Vb r4 y) rc cv) ro f) rc = cv :=
    ((op4 (F := F)).result_of_not_mem _ (b := rc) (show rc ∉ ({r4} : Finset (DevRef τ sig)) by decide)).trans
      ((Function.update_of_ne (show rc ≠ ro by decide) _ _).trans (Function.update_self _ _ _))
  have e_y : (op4 (F := F)).result (Function.update (Function.update (Function.update Vb r4 y) rc cv) ro f) r4
      = (Host.reduceAdd f cv Facts₀.reducesTo_S512_S_d0 Facts₀.h_S_ : RV F) := by
    refine (StableHlo.binary_result main_v0 main_cst main_v4 _ _ _ _ _).trans ?_
    rw [show (Function.update (Function.update (Function.update Vb r4 y) rc cv) ro f) ro = f from Function.update_self _ _ _,
      show (Function.update (Function.update (Function.update Vb r4 y) rc cv) ro f) rc = cv from
        (Function.update_of_ne (show rc ≠ ro by decide) _ _).trans (Function.update_self _ _ _)]
  iintro ⟨Hb, Ha, Hc, Hy, Hk⟩
  iapply (wp_hlo_within 𝒱 (SparseCore.T d) none Set.univ (op := op4 (F := F)) (S := {ro, rc, r4}) (Finset.Subset.refl _)
    (V := Function.update (Function.update (Function.update Vb r4 y) rc cv) ro f)) $$ [Hb Ha Hc Hy]
  · isplitl [Hb]; · iexact Hb
    rw [held3 d ro rc r4 (by decide) (by decide) (by decide), Function.update_self,
      Function.update_of_ne (show rc ≠ ro by decide), Function.update_self,
      Function.update_of_ne (show r4 ≠ ro by decide), Function.update_of_ne (show r4 ≠ rc by decide), Function.update_self]
    isplitl [Ha]; · iexact Ha
    isplitl [Hc]; · iexact Hc
    iexact Hy
  iintro ⟨Hb, Hh⟩
  ihave Hh' := (Entails.of_eq ((held3 d ro rc r4 (by decide) (by decide) (by decide) _).trans (by rw [e_a, e_b, e_y]))) $$ Hh
  ispecialize Hk $$ [Hb Hh']
  · isplitl [Hb]; · iexact Hb
    iexact Hh'
  iapply Hk $$ %_

/-- The difference @main returns. -/
theorem step_sub (Vb : Valuation τ sig (Elt F)) (d : Dev nD) (a b : RV F) (y : RV F)
    {k : ((b : (op5 (F := F)).writes) → b.1.ty.Contents (Elt F)) → Prog (TpuEff nD τ sig (Elt F) (SparseCore.Sig (ΛP (F := F)) 1) .tc) PUnit} {Q : PUnit → sProp 𝕄} :
    iprop(boundary (T d) ∗ pt d r3 a ∗ pt d r4 b ∗ pt d r5 y
        ∗ ((boundary (T d) ∗ pt d r3 a ∗ pt d r4 b ∗ pt d r5 (subf a b : RV F)) -∗ ∀ r, wp frame (wpE ((K (F := F)).defs (D (F := F))) 𝒱 (SparseCore.T d) none) Set.univ (k r) Q))
      ⊢ wp frame (wpE ((K (F := F)).defs (D (F := F))) 𝒱 (SparseCore.T d) none) Set.univ (hlo rfl (op5 (F := F)) k) Q := by
  have e_a : (op5 (F := F)).result (Function.update (Function.update (Function.update Vb r5 y) r4 b) r3 a) r3 = a :=
    ((op5 (F := F)).result_of_not_mem _ (b := r3) (show r3 ∉ ({r5} : Finset (DevRef τ sig)) by decide)).trans (Function.update_self _ _ _)
  have e_b : (op5 (F := F)).result (Function.update (Function.update (Function.update Vb r5 y) r4 b) r3 a) r4 = b :=
    ((op5 (F := F)).result_of_not_mem _ (b := r4) (show r4 ∉ ({r5} : Finset (DevRef τ sig)) by decide)).trans
      ((Function.update_of_ne (show r4 ≠ r3 by decide) _ _).trans (Function.update_self _ _ _))
  have e_y : (op5 (F := F)).result (Function.update (Function.update (Function.update Vb r5 y) r4 b) r3 a) r5 = (subf a b : RV F) := by
    refine (StableHlo.binary_result main_v3 main_v4 main_v5 _ _ _ _ _).trans ?_
    rw [show (Function.update (Function.update (Function.update Vb r5 y) r4 b) r3 a) r3 = a from Function.update_self _ _ _,
      show (Function.update (Function.update (Function.update Vb r5 y) r4 b) r3 a) r4 = b from
        (Function.update_of_ne (show r4 ≠ r3 by decide) _ _).trans (Function.update_self _ _ _)]
  iintro ⟨Hb, Ha, Hc, Hy, Hk⟩
  iapply (wp_hlo_within 𝒱 (SparseCore.T d) none Set.univ (op := op5 (F := F)) (S := {r3, r4, r5}) (Finset.Subset.refl _)
    (V := Function.update (Function.update (Function.update Vb r5 y) r4 b) r3 a)) $$ [Hb Ha Hc Hy]
  · isplitl [Hb]; · iexact Hb
    rw [held3 d r3 r4 r5 (by decide) (by decide) (by decide), Function.update_self,
      Function.update_of_ne (show r4 ≠ r3 by decide), Function.update_self,
      Function.update_of_ne (show r5 ≠ r3 by decide), Function.update_of_ne (show r5 ≠ r4 by decide), Function.update_self]
    isplitl [Ha]; · iexact Ha
    isplitl [Hc]; · iexact Hc
    iexact Hy
  iintro ⟨Hb, Hh⟩
  ihave Hh' := (Entails.of_eq ((held3 d r3 r4 r5 (by decide) (by decide) (by decide) _).trans (by rw [e_a, e_b, e_y]))) $$ Hh
  ispecialize Hk $$ [Hb Hh']
  · isplitl [Hb]; · iexact Hb
    iexact Hh'
  iapply Hk $$ %_

end Ops

/-! ## @main -/

section Main
variable [FloatOps F]

/-- What the TensorCore pallas_call's region is asked to do, as @main's step needs it: from the three arrays whole,
    the TensorCore's boundary holdings, what it owes, and the staging cells' ghost state, to the same with the
    call's result at `tcOut`. -/
def TcRegionK : Prop :=
  ∀ (d : Dev nD) (lv : GSem nD τ sig → HIx 1 → ℕ) (_ : (K (F := F)).Refines lv) (O : CellTallies nD τ sig (HIx 1)) (_ : ∀ g, O g none = 0) (b : ℕ)
    (x : XC F) (t1 : TC F) (y : OC F) (Φ : PUnit → sProp 𝕄),
    iprop(levAts (K (F := F)).L lv ∗ (∃ W, ⌜(K (F := F)).WBelow (T d) W b⌝ ∗ owes (T d) O W) ∗ boundary (T d)
        ∗ pt d rx x ∗ pt d r1 t1 ∗ pt d r2 y
        ∗ Pipeline.cellsGhost (nD := nD) (τ := τ) cfgs (ER (F := F)) 0 d ∗ (Pipeline.toksInit (nD := nD) (τ := τ) cfgs (ER (F := F)) 0 d : sProp 𝕄)
        ∗ (((∃ W, ⌜(K (F := F)).WBelow (T d) W b⌝ ∗ owes (T d) O W) ∗ boundary (T d) ∗ pt d rx x ∗ pt d r1 t1 ∗ pt d r2 (tcOut x t1)) -∗ Φ ⟨⟩))
      ⊢ wp frame (wpE ((K (F := F)).defs (D (F := F))) 𝒱 (SparseCore.T d) none) Set.univ
          (Prog.lift (.customCall (SparseCore.inner (Pipeline.entry 0)) ())) Φ

/-- What @main leaves the claim: x and t as launched, the result at `kernelOut` of them and of a SparseCore result
    that holds every worker's value. -/
def FIN (d : Dev nD) : sProp 𝕄 :=
  iprop(pt d rx (m (xLoc d)) ∗ pt d rt (m (tLoc d)) ∗ ∃ f, ⌜∀ w, OutHolds m d w f⌝ ∗ pt d r5 (kernelOut (F := F) (m (xLoc d)) (m (tLoc d)) f))

theorem G_eq (d : Dev nD) : (G (F := F) d : sProp 𝕄)
    = iprop(Pipeline.cellsGhost (nD := nD) (τ := τ) cfgs (ER (F := F)) 0 d ∗ (Pipeline.toksInit (nD := nD) (τ := τ) cfgs (ER (F := F)) 0 d : sProp 𝕄)) := rfl

/-- The TensorCore's handshake state after the call: what it owes, and the rest. -/
theorem tcSt1_split (d : Dev nD) : ∃ R : sProp 𝕄, (K (F := F)).tcSt EH d 1
    = iprop((∃ W, ⌜(K (F := F)).WBelow (T d) W (8 * 1)⌝ ∗ owes (T d) ((K (F := F)).Otc d 1) W) ∗ R) := ⟨_, rfl⟩

theorem Otc1_none (d : Dev nD) : ∀ g, (K (F := F)).Otc d 1 g none = 0 := by
  rw [(K (F := F)).Otc_end d le_rfl]; intro _; rfl

theorem hmain (htc : TcRegionK (F := F)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, H1, H2, H3, Hc, H4, H5⟩, -, -⟩, HG⟩
  iapply (sc_call m κ d) $$ [Hst Hx Ht Ho Hb H1 H2 H3 Hc H4 H5 HG]
  isplitr; · iexact Hctx
  isplitl [Hst]; · iexact Hst
  isplitl [Hx Ht Ho]
  · isplitl [Hx]; · iexact Hx
    isplitl [Ht]; · iexact Ht
    iexact Ho
  iintro ⟨Hst, Hx, Ht, %f, %hf, Ho⟩
  -- t as a column
  iapply (step_reshape_t (V0 m d) d (m (tLoc d)) (m ((SparseCore.T d).loc main_v1))) $$ [Hb Ht H1 H2 H3 Hc H4 H5 HG Hst Hx Ho]
  isplitl [Hb]; · iexact Hb
  isplitl [Ht]; · iexact Ht
  isplitl [H1]; · iexact H1
  iintro ⟨Hb, Ht, H1⟩ %_
  rw [wp_ret]; imodintro
  -- the TensorCore call
  obtain ⟨R, hR⟩ := tcSt1_split (F := F) d
  ihave Hst' := (Entails.of_eq hR) $$ Hst
  icases Hst' with ⟨Howes, HR⟩
  ihave HG' := (Entails.of_eq (G_eq (F := F) d)) $$ HG
  icases HG' with ⟨Hg, Htok⟩
  ihave Hlev := (SparseCore.Cfg.ctx_levAts κ) $$ Hctx
  iapply (htc d (K (F := F)).lev (by sl_refines_lev) ((K (F := F)).Otc d 1) (Otc1_none d) (8 * 1) (m (xLoc d)) (tCol (m (tLoc d))) (m ((SparseCore.T d).loc main_v2)) _)
    $$ [Hlev Howes Hb Hx H1 H2 Hg Htok Ht H3 Hc H4 H5 HR Ho]
  isplitl [Hlev]; · iexact Hlev
  isplitl [Howes]; · iexact Howes
  isplitl [Hb]; · iexact Hb
  isplitl [Hx]; · iexact Hx
  isplitl [H1]; · iexact H1
  isplitl [H2]; · iexact H2
  isplitl [Hg]; · iexact Hg
  isplitl [Htok]; · iexact Htok
  iintro ⟨Howes, Hb, Hx, H1, H2⟩
  -- its result as a scalar
  iapply (step_reshape_o (V0 m d) d (tcOut (m (xLoc d)) (tCol (m (tLoc d)))) (m ((SparseCore.T d).loc main_v3))) $$ [Hb H2 H3 Hc H4 H5 Ho Ht HR Howes Hx H1]
  isplitl [Hb]; · iexact Hb
  isplitl [H2]; · iexact H2
  isplitl [H3]; · iexact H3
  iintro ⟨Hb, H2, H3⟩ %_
  rw [wp_ret]; imodintro
  -- the zero
  iapply (step_cst (V0 m d) d (m ((SparseCore.T d).loc main_cst))) $$ [Hb H2 H3 Hc H4 H5 Ho Ht HR Howes Hx H1]
  isplitl [Hb]; · iexact Hb
  isplitl [Hc]; · iexact Hc
  iintro ⟨Hb, Hc⟩ %_
  rw [wp_ret]; imodintro
  -- the sum of the SparseCore call's words
  iapply (step_sum (V0 m d) d f (constant S_ .f32 0x00000000#32) (m ((SparseCore.T d).loc main_v4))) $$ [Hb H2 H3 Hc H4 H5 Ho Ht HR Howes Hx H1]
  isplitl [Hb]; · iexact Hb
  isplitl [Ho]; · iexact Ho
  isplitl [Hc]; · iexact Hc
  isplitl [H4]; · iexact H4
  iintro ⟨Hb, Ho, Hc, H4⟩ %_
  rw [wp_ret]; imodintro
  -- the difference
  iapply (step_sub (V0 m d) d (shapeCast S_ (tcOut (m (xLoc d)) (tCol (m (tLoc d)))) Facts₀.shapeCasts_S1x1_S_)
    (Host.reduceAdd f (constant S_ .f32 0x00000000#32) Facts₀.reducesTo_S512_S_d0 Facts₀.h_S_) (m ((SparseCore.T d).loc main_v5))) $$ [Hb H2 H3 Hc H4 H5 Ho Ht HR Howes Hx H1]
  isplitl [Hb]; · iexact Hb
  isplitl [H3]; · iexact H3
  isplitl [H4]; · iexact H4
  isplitl [H5]; · iexact H5
  iintro ⟨Hb, H3, H4, H5⟩ %_
  rw [wp_ret]; imodintro; imodintro
  isplitl [Howes HR]
  · iapply (Entails.of_eq hR.symm)
    isplitl [Howes]; · iexact Howes
    iexact HR
  unfold FIN
  isplitl [Hx]; · iexact Hx
  isplitl [Ht]; · iexact Ht
  iexists f; isplitr; · ipureintro; exact hf
  iexact H5

/-! ## Reading the claim off the final memory -/

def fq (d : Dev nD) (s' : Phys nD τ sig (Elt F)) : Prop :=
  s'.mem.mem (xLoc d) = m (xLoc d) ∧ s'.mem.mem (tLoc d) = m (tLoc d)
    ∧ ∃ f, (∀ w, OutHolds m d w f) ∧ s'.mem.mem ((SparseCore.T d).loc main_v5) = kernelOut (F := F) (m (xLoc d)) (m (tLoc d)) f

theorem hfin (d : Dev nD) (s' : Phys nD τ sig (Elt F)) : iprop(FIN m d ∗ SI s') ⊢ (⌜fq m d s'⌝ : sProp 𝕄) := by
  unfold FIN
  iintro ⟨⟨Hx, Ht, %f, %hf, H5⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := (SparseCore.T d).loc main_v5) (I := Finset.univ) (q := fullShare)
    (f := kernelOut (F := F) (m (xLoc d)) (m (tLoc d)) f)) $$ [HSI H5]
  · isplitl [HSI] <;> iassumption
  icases H with %h3
  ipureintro
  exact ⟨funext fun i => h1 i (Finset.mem_univ i), funext fun i => h2 i (Finset.mem_univ i), f, hf, funext fun i => h3 i (Finset.mem_univ i)⟩

/-! ## A SparseCore's pieces are its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goRes m d (widOf (Fin.cast nCore_zero c) i)) ⊢ |={Set.univ}=> iprop(
      (bigSep Finset.univ fun i : Fin ((K (F := F)).nSub 0) => goRes m d (widOf (Fin.cast nCore_zero c) (Fin.cast nSub_zero i)))
      ∗ ((bigSep Finset.univ fun i : Fin ((K (F := F)).nSub 0) => tdRes m d (widOf (Fin.cast nCore_zero c) (Fin.cast nSub_zero i)))
          -∗ bigSep Finset.univ fun i : Fin 16 => tdRes m d (widOf (Fin.cast nCore_zero c) i)))
  rw [bigSep_tasks (F := F) (fun i => goRes m d (widOf (Fin.cast nCore_zero c) i)),
    bigSep_tasks (F := F) (fun i => tdRes m d (widOf (Fin.cast nCore_zero c) i))]
  iintro H; imodintro
  isplitl [H]; · iexact H
  iintro H; iexact H

/-! ## The program's run -/

/-- On every device: x and t as launched, and the result `kernelOut` of them and of a SparseCore result holding
    every worker's value. -/
def QC : PUnit × MemSt nD τ sig (Elt F) → Prop := fun r => ∀ c : Dev nD,
  r.2.mem (xLoc c) = m (xLoc c) ∧ r.2.mem (tLoc c) = m (tLoc c)
    ∧ ∃ f, (∀ w, OutHolds m c w f) ∧ r.2.mem ((SparseCore.T c).loc main_v5) = kernelOut (F := F) (m (xLoc c)) (m (tLoc c)) f

theorem run_main [∀ e, Nonempty (Elt F e)] (htile : (K (F := F)).TileObl (D (F := F)) 𝒱 (P m) v₀ 0) (htc : TcRegionK (F := F)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m) (u₀ (F := F)) (sep_elim_left.trans (hu₀ m)) (hmain m ρ htc) (fq m) (hfin m) (QC m) (fun _ h => h)

end Main

end Cert.Proof.Kernel

end
-- ==== Proof.TcRegionBody.lean ====
import proofs.«217662_g32298154065999_cont_8to1_b_8_33_alg».proof.Proof.Common
import proofs.«217662_g32298154065999_cont_8to1_b_8_33_alg».proof.Proof.TcRegionDefs
import Idealize.ShloMosaic.Lib.Pipeline.FrameBody
import Idealize.ShloMosaic.Lib.WholeRead

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Reading whole staging buffers -/

section Whole

variable {κ : Kind} {sp : Space} {Sh : Shape} {e : EltTy}

/-- A load of a whole buffer, held at the contents that read `X`, through the full rectangle at offsets zero reads `X`. -/
theorem tcReadAt_full {m : Memref sig κ sp Sh e} (h : m.IsWhole) (X : Sh.Idx → Elt F e)
    {off : Fin Sh.rank → ℕ} (hoff : off = fun _ => 0) (inb : ∀ a, off a + Sh.size a ≤ Sh.size a) :
    View.readAt (Elt F) m.view (Rect.unit (s := Sh) off Sh.size inb).toLoadRect (h.unread X) = X := by
  subst hoff; funext x
  refine (Memref.IsWhole.readAt_unread h X _ x).trans ?_
  show X ((Rect.whole Sh).emb x) = X x
  rw [Rect.emb_whole_apply]

/-- A buffer whose newest store covers it reads that store's value. -/
theorem tcReadWrites_full (v : View sig κ sp Sh e) (f : v.ty.Contents (Elt F))
    {off : Fin Sh.rank → ℕ} (hoff : off = fun _ => 0) (inb : ∀ a, off a + Sh.size a ≤ Sh.size a)
    (w : Sh.Idx → Elt F e) (Ls : List (View.Piece (Elt F) Sh e)) :
    v.read (Elt F) (v.writes (Elt F) f ((⟨Rect.unit (s := Sh) off Sh.size inb, w⟩ : View.Piece (Elt F) Sh e) :: Ls)) = w := by
  subst hoff; funext y
  have h := View.read_writes_cons_emb v f (Rect.whole Sh) w Ls y
  rwa [Rect.emb_whole_apply] at h

/-- A load through the full rectangle of a buffer whose newest store covers it reads that store's value. -/
theorem tcReadCov_full (v : View sig κ sp Sh e)
    {off : Fin Sh.rank → ℕ} (hoff : off = fun _ => 0) (inb : ∀ a, off a + Sh.size a ≤ Sh.size a)
    (w : Sh.Idx → Elt F e) (Ls : List (View.Piece (Elt F) Sh e)) :
    v.readCov ((⟨Rect.unit (s := Sh) off Sh.size inb, w⟩ : View.Piece (Elt F) Sh e) :: Ls) (Rect.unit (s := Sh) off Sh.size inb).toLoadRect = w :=
  View.readCov_cons_toLoadRect v (Rect.unit (s := Sh) off Sh.size inb) w Ls

theorem tcZeroA : (![0, 0] : Fin S128x1.rank → ℕ) = fun _ => 0 := by
  funext a; exact Fin.cases rfl (fun b => Fin.cases rfl (fun c => c.elim0) b) a
theorem tcZeroB : (![0, 0] : Fin S128x32000.rank → ℕ) = fun _ => 0 := by
  funext a; exact Fin.cases rfl (fun b => Fin.cases rfl (fun c => c.elim0) b) a
theorem tcZeroC : (![0, 0] : Fin S1x1.rank → ℕ) = fun _ => 0 := by
  funext a; exact Fin.cases rfl (fun b => Fin.cases rfl (fun c => c.elim0) b) a

end Whole

set_option maxRecDepth 16384

local notation "𝕄" => MT nD τ sig (HIx 1) (Elt F) ℕ UU ℕ

/-- The body's test that the column block is the first, from the grid coordinates. -/
abbrev tcCond1 (i : grid1.Coords) : Prop :=
  (Scalar.cmpi .ne (Scalar.extui (Scalar.cmpi .eq (BitVec.ofNat 32 (i 1).val) 0#32)) 0#32) = 1#1

set_option maxHeartbeats 1000000 in
/-- The body at a point of the first row block, on whole staging buffers: the scratches are reset, the block is folded in, and the
    output block is stored at the point's partial sum; the inputs' buffers are left as they were. -/
theorem tcBodyRunA (d : Dev nD) (i : grid1.Coords)
    (arg2 : Memref sig .tc .vmem S128x1 .i32) (harg2 : arg2.IsWhole) (arg3 : Memref sig .tc .vmem S128x32000 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole)
    (hc1 : tcCond1 i) (hc2 : k1_cond2 i = 1#1) (hc3 : k1_cond3 i = 1#1) (hc4 : ¬ k1_cond4 i = 1#1)
    (tb : Vec F S128x1 .i32) (xb : Vec F S128x32000 .f32) (o0 : Vec F S1x1 .f32) (m0 s0 : Vec F S128x1 .f32)
    (E : Set ℕ) (Kc : PUnit → sProp 𝕄) :
    (iprop(owns (T d : Thread nD τ) arg2 fullShare tb ∗ owns (T d : Thread nD τ) arg3 fullShare xb
        ∗ owns (T d : Thread nD τ) arg4 fullShare o0 ∗ owns (T d : Thread nD τ) arg5 fullShare m0 ∗ owns (T d : Thread nD τ) arg6 fullShare s0
        ∗ (iprop(owns (T d : Thread nD τ) arg2 fullShare tb ∗ owns (T d : Thread nD τ) arg3 fullShare xb
            ∗ owns (T d : Thread nD τ) arg4 fullShare (k1_pay6 tb (sNew xb) (mNew xb))
            ∗ owns (T d : Thread nD τ) arg5 fullShare (mNew xb) ∗ owns (T d : Thread nD τ) arg6 fullShare (sNew xb)) -∗ Kc ⟨⟩)) : sProp 𝕄)
      ⊢ wp frame (wpE (defs₀ (F := F)) 𝒱₀ (T d) none) E (cc1__loss_body i arg2 harg2 arg3 harg3 arg4 harg4 arg5 harg5 arg6 harg6) Kc := by
  simp only [cc1__loss_body_eq_skeleton]; unfold cc1__loss_body_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  isplitl [H5]
  · iexists _; isplitr
    swap; · iexact H5
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  · iexists _; isplitr
    swap; · iexact H6
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl

set_option maxHeartbeats 1000000 in
/-- The body at a point of a later row block, on whole staging buffers: the scratches are reset, the block is folded in, and the
    output block has the point's partial sum added to what it held; the inputs' buffers are left as they were. -/
theorem tcBodyRunB (d : Dev nD) (i : grid1.Coords)
    (arg2 : Memref sig .tc .vmem S128x1 .i32) (harg2 : arg2.IsWhole) (arg3 : Memref sig .tc .vmem S128x32000 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole)
    (hc1 : tcCond1 i) (hc2 : k1_cond2 i = 1#1) (hc3 : ¬ k1_cond3 i = 1#1) (hc4 : k1_cond4 i = 1#1)
    (tb : Vec F S128x1 .i32) (xb : Vec F S128x32000 .f32) (o0 : Vec F S1x1 .f32) (m0 s0 : Vec F S128x1 .f32)
    (E : Set ℕ) (Kc : PUnit → sProp 𝕄) :
    (iprop(owns (T d : Thread nD τ) arg2 fullShare tb ∗ owns (T d : Thread nD τ) arg3 fullShare xb
        ∗ owns (T d : Thread nD τ) arg4 fullShare o0 ∗ owns (T d : Thread nD τ) arg5 fullShare m0 ∗ owns (T d : Thread nD τ) arg6 fullShare s0
        ∗ (iprop(owns (T d : Thread nD τ) arg2 fullShare tb ∗ owns (T d : Thread nD τ) arg3 fullShare xb
            ∗ owns (T d : Thread nD τ) arg4 fullShare (k1_pay7 tb (sNew xb) (mNew xb) o0)
            ∗ owns (T d : Thread nD τ) arg5 fullShare (mNew xb) ∗ owns (T d : Thread nD τ) arg6 fullShare (sNew xb)) -∗ Kc ⟨⟩)) : sProp 𝕄)
      ⊢ wp frame (wpE (defs₀ (F := F)) 𝒱₀ (T d) none) E (cc1__loss_body i arg2 harg2 arg3 harg3 arg4 harg4 arg5 harg5 arg6 harg6) Kc := by
  simp only [cc1__loss_body_eq_skeleton]; unfold cc1__loss_body_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  isplitl [H5]
  · iexists _; isplitr
    swap; · iexact H5
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  · iexists _; isplitr
    swap; · iexact H6
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl

end Cert.Proof.KernelIdeal

end
-- ==== Proof.TcRegionDat.lean ====
import proofs.«217662_g32298154065999_cont_8to1_b_8_33_alg».proof.Proof.Common
import proofs.«217662_g32298154065999_cont_8to1_b_8_33_alg».proof.Proof.TcRegionBody
import Idealize.ShloMosaic.Lib.Pipeline.FrameBody
import Idealize.ShloMosaic.Lib.WholeRead

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

local notation "𝕄" => MT nD τ sig (HIx 1) (Elt F) ℕ UU ℕ

/-! ## The control conditions over the grid -/

/-- Every point is on the first (the only) column block. -/
theorem tcCond1_all : ∀ t : Fin cfg1.N, tcCond1 (grid1.coords t) :=
  (by decide +kernel : ∀ t : Fin grid1.N, tcCond1 (grid1.coords t))
/-- and on the last. -/
theorem tcCond2_all : ∀ t : Fin cfg1.N, k1_cond2 (grid1.coords t) = 1#1 :=
  (by decide +kernel : ∀ t : Fin grid1.N, k1_cond2 (grid1.coords t) = 1#1)
/-- The first row block is at the first point only. -/
theorem tcCond3_iff : ∀ t : Fin cfg1.N, k1_cond3 (grid1.coords t) = 1#1 ↔ t.val = 0 :=
  (by decide +kernel : ∀ t : Fin grid1.N, k1_cond3 (grid1.coords t) = 1#1 ↔ t.val = 0)
/-- A later row block is at every other point. -/
theorem tcCond4_iff : ∀ t : Fin cfg1.N, k1_cond4 (grid1.coords t) = 1#1 ↔ t.val ≠ 0 :=
  (by decide +kernel : ∀ t : Fin grid1.N, k1_cond4 (grid1.coords t) = 1#1 ↔ t.val ≠ 0)
/-- The body stores into the output block at every point. -/
theorem tcLive2 : ∀ i : grid1.Coords, cfg1.idle 2 i = false :=
  (by decide +kernel : ∀ i : grid1.Coords, idle1 2 i = false)

/-! ## The proof data -/

/-- The bound kept on the pairs the TensorCore's waits have recorded: those at level at most `b`. -/
def tcRecB (d : Dev nD) (b : ℕ) : Set (SemLoc sig × HIx 1) := {p | (K (F := F)).lev ((T d : Thread nD τ), p.1) p.2 ≤ b}

/-- The call's proof data on device `d`: the arrays as the call finds them; after the body at point `t` each input's
    buffer at its block and the output's at the running sum; the invariant the two scratches at any contents (every
    point resets them); what the core owes constant. -/
def tcDat (d : Dev nD) (x : XC F) (t1 : TC F) (y : OC F) (O : CellTallies nD τ sig (HIx 1)) (b : ℕ) :
    Dat τ (Elt F) (HIx 1) ℕ UU ℕ cfg1 d where
  A w := match w with
    | ⟨0, _⟩ => t1
    | ⟨1, _⟩ => x
    | ⟨2, _⟩ => y
  after w t := match w with
    | ⟨0, _⟩ => tBlk t1 t
    | ⟨1, _⟩ => xBlk x t
    | ⟨2, _⟩ => accAt x t1 t.val t.isLt
  Φ _ := Pipeline.scopedRest spec1 d
  q _ := fullShare
  owed _ := O
  recorded _ := tcRecB (F := F) d b

variable (d : Dev nD) (x : XC F) (t1 : TC F) (y : OC F) (O : CellTallies nD τ sig (HIx 1)) (b : ℕ)

theorem tcDat_A0 : (tcDat d x t1 y O b).A 0 = t1 := by dsimp only [tcDat]
theorem tcDat_A1 : (tcDat d x t1 y O b).A 1 = x := by dsimp only [tcDat]
theorem tcDat_A2 : (tcDat d x t1 y O b).A 2 = y := by dsimp only [tcDat]
theorem tcDat_after0 (t : Fin cfg1.N) : (tcDat d x t1 y O b).after 0 t = tBlk t1 t := by dsimp only [tcDat]
theorem tcDat_after1 (t : Fin cfg1.N) : (tcDat d x t1 y O b).after 1 t = xBlk x t := by dsimp only [tcDat]
theorem tcDat_after2 (t : Fin cfg1.N) : (tcDat d x t1 y O b).after 2 t = accAt x t1 t.val t.isLt := by dsimp only [tcDat]

/-- Each input's current staging buffer holds its block at every point. -/
theorem tcBefore0 (t : Fin cfg1.N) (e) : (tcDat d x t1 y O b).before 0 t e = tBlk t1 t :=
  ((tcDat d x t1 y O b).before_in_eq_fetched 0 rfl (fun _ => rfl) (fun _ _ _ => rfl)
    (fun t => by rw [tcDat_after0]; unfold Dat.blockOf tBlk; rw [tcDat_A0]; try rfl) t e).trans
    (by unfold Dat.fetched Dat.blockOf tBlk; rw [tcDat_A0]; try rfl)
theorem tcBefore1 (t : Fin cfg1.N) (e) : (tcDat d x t1 y O b).before 1 t e = xBlk x t :=
  ((tcDat d x t1 y O b).before_in_eq_fetched 1 rfl (fun _ => rfl) (fun _ _ _ => rfl)
    (fun t => by rw [tcDat_after1]; unfold Dat.blockOf xBlk; rw [tcDat_A1]; try rfl) t e).trans
    (by unfold Dat.fetched Dat.blockOf xBlk; rw [tcDat_A1]; try rfl)

/-- At a later point the output's staging buffer holds what the body left at the point before: it is not written back
    between, and the body stores into it at every point. -/
theorem tcBefore2 (t : Fin cfg1.N) (h0 : t.val ≠ 0) (e) :
    (tcDat d x t1 y O b).before 2 t e = accAt x t1 (t.val - 1) (Nat.lt_of_le_of_lt (Nat.sub_le _ _) t.isLt) := by
  have hN : t.val < 32 := lt_of_lt_of_eq t.isLt (show cfg1.N = 32 from N_1)
  rw [Dat.before_out_kept _ 2 rfl t h0 (Bool.eq_false_iff.mpr fun h => by have := (flush1_2 _).mp h; dsimp only at this; omega)
    tcLive2 (fun _ _ => rfl)]
  dsimp only [tcDat]

/-! ## The running sum, point by point -/

theorem accAt_zero (t : Fin cfg1.N) (h0 : t.val = 0) :
    accAt x t1 t.val t.isLt = k1_pay6 (tBlk t1 t) (sNew (xBlk x t)) (mNew (xBlk x t)) := by
  obtain ⟨n, hn⟩ := t
  cases n with
  | zero => rfl
  | succ n => exact absurd h0 (Nat.succ_ne_zero n)

theorem accAt_pos (t : Fin cfg1.N) (h0 : t.val ≠ 0) :
    accAt x t1 t.val t.isLt = k1_pay7 (tBlk t1 t) (sNew (xBlk x t)) (mNew (xBlk x t))
      (accAt x t1 (t.val - 1) (Nat.lt_of_le_of_lt (Nat.sub_le _ _) t.isLt)) := by
  obtain ⟨n, hn⟩ := t
  cases n with
  | zero => exact absurd rfl h0
  | succ n => rfl

/-! ## The body obligation -/

/-- What the body is called with at point `t`, the windows one by one, -/
def tcBodyPre (t : Fin cfg1.N) : sProp 𝕄 :=
  iprop((tcDat d x t1 y O b).Φ t.castSucc ∗ (tcDat d x t1 y O b).owesAt none t.castSucc
    ∗ (∃ e, owns (d : Thread nD τ) (st1_0 t) fullShare ((tcDat d x t1 y O b).before 0 t e))
    ∗ (∃ e, owns (d : Thread nD τ) (st1_1 t) fullShare ((tcDat d x t1 y O b).before 1 t e))
    ∗ (∃ e, owns (d : Thread nD τ) (st1_2 t) fullShare ((tcDat d x t1 y O b).before 2 t e)))

/-- and what it returns. -/
def tcBodyPost (t : Fin cfg1.N) : sProp 𝕄 :=
  iprop((tcDat d x t1 y O b).Φ t.succ ∗ (tcDat d x t1 y O b).owesAt none t.succ
    ∗ owns (d : Thread nD τ) (st1_0 t) fullShare ((tcDat d x t1 y O b).after 0 t)
    ∗ owns (d : Thread nD τ) (st1_1 t) fullShare ((tcDat d x t1 y O b).after 1 t)
    ∗ owns (d : Thread nD τ) (st1_2 t) fullShare ((tcDat d x t1 y O b).after 2 t))

set_option maxHeartbeats 800000 in
theorem tcSoundBody (t : Fin cfg1.N) :
    tcBodyPre d x t1 y O b t ⊢ wp frame (wpE (defs₀ (F := F)) 𝒱₀ d none) Set.univ (bodyAt1 t) (fun _ => tcBodyPost d x t1 y O b t) := by
  unfold tcBodyPre tcBodyPost bodyAt1
  simp only [tcBefore0, tcBefore1]
  rw [show (tcDat d x t1 y O b).Φ t.succ = Pipeline.scopedRest spec1 d from rfl,
    show (tcDat d x t1 y O b).Φ t.castSucc = Pipeline.scopedRest spec1 d from rfl,
    show (tcDat d x t1 y O b).owesAt none t.succ = (tcDat d x t1 y O b).owesAt none t.castSucc from rfl,
    tcDat_after0, tcDat_after1, tcDat_after2, scopedRest1_eq]
  by_cases h0 : t.val = 0
  · rw [accAt_zero x t1 t h0]
    iintro ⟨⟨⟨%fm, Hm⟩, ⟨%fs, Hs⟩⟩, Ho, ⟨%e0, H0⟩, ⟨%e1, H1⟩, ⟨%e2, H2⟩⟩
    iapply (tcBodyRunA d (grid1.coords t) _ _ _ _ _ _ _ _ _ _ (tcCond1_all t) (tcCond2_all t) ((tcCond3_iff t).mpr h0)
      (fun h => (tcCond4_iff t).mp h h0) (tBlk t1 t) (xBlk x t) _ fm fs Set.univ _)
    isplitl [H0]; · iexact H0
    isplitl [H1]; · iexact H1
    isplitl [H2]; · iexact H2
    isplitl [Hm]; · iapply (Entails.of_eq (owns_whole _ _ _ _).symm); iexact Hm
    isplitl [Hs]; · iapply (Entails.of_eq (owns_whole _ _ _ _).symm); iexact Hs
    iintro ⟨H0, H1, H2, Hm, Hs⟩
    isplitl [Hm Hs]
    · isplitl [Hm]
      · iexists _; iapply (Entails.of_eq (owns_whole _ _ _ _)); iexact Hm
      · iexists _; iapply (Entails.of_eq (owns_whole _ _ _ _)); iexact Hs
    isplitl [Ho]; · iexact Ho
    isplitl [H0]; · iexact H0
    isplitl [H1]; · iexact H1
    iexact H2
  · rw [accAt_pos x t1 t h0]
    simp only [tcBefore2 d x t1 y O b t h0]
    iintro ⟨⟨⟨%fm, Hm⟩, ⟨%fs, Hs⟩⟩, Ho, ⟨%e0, H0⟩, ⟨%e1, H1⟩, ⟨%e2, H2⟩⟩
    iapply (tcBodyRunB d (grid1.coords t) _ _ _ _ _ _ _ _ _ _ (tcCond1_all t) (tcCond2_all t) (fun h => h0 ((tcCond3_iff t).mp h))
      ((tcCond4_iff t).mpr h0) (tBlk t1 t) (xBlk x t) _ fm fs Set.univ _)
    isplitl [H0]; · iexact H0
    isplitl [H1]; · iexact H1
    isplitl [H2]; · iexact H2
    isplitl [Hm]; · iapply (Entails.of_eq (owns_whole _ _ _ _).symm); iexact Hm
    isplitl [Hs]; · iapply (Entails.of_eq (owns_whole _ _ _ _).symm); iexact Hs
    iintro ⟨H0, H1, H2, Hm, Hs⟩
    isplitl [Hm Hs]
    · isplitl [Hm]
      · iexists _; iapply (Entails.of_eq (owns_whole _ _ _ _)); iexact Hm
      · iexists _; iapply (Entails.of_eq (owns_whole _ _ _ _)); iexact Hs
    isplitl [Ho]; · iexact Ho
    isplitl [H0]; · iexact H0
    isplitl [H1]; · iexact H1
    iexact H2

/-- The library's body obligation, at every point. -/
theorem tcBodyObligation : BodyObligation (tcDat d x t1 y O b) (defs₀ (F := F)) 𝒱₀ none Set.univ := fun t => by
  rw [bigSep_W1, bigSep_W1]
  rw [show cfg1.idle 2 (cfg1.grid.coords t) = false from tcLive2 _]
  exact tcSoundBody d x t1 y O b t

end Cert.Proof.KernelIdeal

end
-- ==== Proof.TcRegion.lean ====
import proofs.«217662_g32298154065999_cont_8to1_b_8_33_alg».proof.Proof.Common
import proofs.«217662_g32298154065999_cont_8to1_b_8_33_alg».proof.Proof.TcRegionDat
import Idealize.ShloMosaic.Lib.Pipeline.FrameBody
import Idealize.ShloMosaic.Lib.WholeRead

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

local notation "𝕄" => MT nD τ sig (HIx 1) (Elt F) ℕ UU ℕ

/-- The one admissible contents of the call's (absent) prefetched tables. -/
abbrev tcAdm : (p : Fin 1) → (pcfgs (F := F) p).Adm := fun p => (cfgs p).toPCfg_adm

/-- The call's proof data per pipeline and device. -/
abbrev tcDats (x : XC F) (t1 : TC F) (y : OC F) (O : CellTallies nD τ sig (HIx 1)) (b : ℕ) :
    (p : Fin 1) → (c : Dev nD) → Dat τ (Elt F) (HIx 1) ℕ UU ℕ (Pipeline.pin (pcfgs (F := F)) tcAdm p) c :=
  fun _ c => tcDat c x t1 y O b

/-- The two scoped-resource splits of the region rule, at this call. -/
theorem tcScopedSems0 (d : Dev nD) :
    (scopedSems0 (d.tc : Thread nD τ) : sProp 𝕄)
      = iprop((Pipeline.cellsSems0 cfgs 0 d ∗ Pipeline.ownSems0 (fun k : PEmpty => k.elim) d) ∗ Pipeline.idleSems0 cfgs cellOf_inj 0 (Pipeline.OwnSemFacts.none _) d) :=
  Pipeline.scopedSems0_split cfgs cellOf_inj 0 winFacts1.to₀ (Pipeline.OwnSemFacts.none _) d

theorem tcScopedBufs (d : Dev nD) :
    (scopedBufs (d.tc : Thread nD τ) : sProp 𝕄) = iprop(Dat.staging cfg1 d ∗ Pipeline.scopedRest spec1 d) :=
  Pipeline.scopedBufs_split cfgs 0 winFacts1.stage_scoped winFacts1.stage_inj stage_whole1 d

/-- The same data over the pipelines as the program states them. -/
abbrev tcDats' (x : XC F) (t1 : TC F) (y : OC F) (O : CellTallies nD τ sig (HIx 1)) (b : ℕ) :
    (p : Fin 1) → (c : Dev nD) → Dat τ (Elt F) (HIx 1) ℕ UU ℕ (cfgs p) c :=
  fun _ c => tcDat c x t1 y O b

section Final

variable (d : Dev nD) (x : XC F) (t1 : TC F) (y : OC F) (O : CellTallies nD τ sig (HIx 1)) (b : ℕ)

/-- A one-by-one block has one index. -/
theorem tcIdx11_eq (j j' : S1x1.Idx) : j = j' := by
  funext a
  apply Fin.ext
  have h1 := (j a).isLt
  have h2 := (j' a).isLt
  have ha : ∀ a : Fin S1x1.rank, S1x1.size a = 1 := by decide
  have := ha a
  omega

/-- The inputs' arrays are never written. -/
theorem tcArr0 : (tcDat d x t1 y O b).arrAt 0 cfg1.N = t1 :=
  ((tcDat d x t1 y O b).arrAt_in 0 rfl _).trans (tcDat_A0 d x t1 y O b)
theorem tcArr1 : (tcDat d x t1 y O b).arrAt 1 cfg1.N = x :=
  ((tcDat d x t1 y O b).arrAt_in 1 rfl _).trans (tcDat_A1 d x t1 y O b)

/-- The last point's block of the result is the whole result. -/
abbrev tcLast : Fin cfg1.N := ⟨31, by decide⟩
theorem tcCover2 : ∀ i : ((cfg1.win 2).blk tcLast).view.ty.Idx, i ∈ ((cfg1.win 2).blk tcLast).view.set := by decide +kernel

/-- The result's array after the one write-back, at the last point: the fold. -/
theorem tcArr2 : (tcDat d x t1 y O b).arrAt 2 cfg1.N = tcOut x t1 := by
  refine (tcDat d x t1 y O b).arrAt_eq_of_cover 2 (tcOut x t1) (fun t hf => ?_)
    (fun i => ⟨tcLast, (flush1_2 _).mpr rfl, tcCover2 i⟩)
  have ht : t.val % 32 = 31 := (flush1_2 t).mp hf
  obtain ⟨n, hn⟩ := t
  have hn' : n < 32 := lt_of_lt_of_eq hn N_1
  have hn31 : n = 31 := by dsimp only at ht; omega
  subst hn31
  funext j
  rw [View.read_apply]
  refine Eq.trans ?_ (cast_eq _ _).symm
  show (tcDat d x t1 y O b).after 2 ⟨31, hn⟩ _ = _
  rw [tcDat_after2]
  exact congrArg (accAt x t1 31 _) (tcIdx11_eq _ _)

end Final

/-- What the call leaves, beside the boundary: the arrays (the inputs unchanged, the result at the fold) and the core's debts as they were. -/
def tcPost (d : Dev nD) (O : CellTallies nD τ sig (HIx 1)) (b : ℕ) (x : XC F) (t1 : TC F) : sProp 𝕄 :=
  iprop((∃ W, ⌜(K (F := F)).WBelow (T d) W b⌝ ∗ owes (T d) O W)
    ∗ boundary (T d)
    ∗ (((T d : Thread nD τ).loc main_arg0) ↦{fullShare} x)
    ∗ (((T d : Thread nD τ).loc main_v1) ↦{fullShare} t1)
    ∗ (((T d : Thread nD τ).loc main_v2) ↦{fullShare} tcOut x t1))

/-- What the call starts from. -/
def tcPre (d : Dev nD) (lv : GSem nD τ sig → HIx 1 → ℕ) (O : CellTallies nD τ sig (HIx 1)) (b : ℕ) (x : XC F) (t1 : TC F) (y : OC F) : sProp 𝕄 :=
  iprop(levAts (K (F := F)).L lv
    ∗ (∃ W, ⌜(K (F := F)).WBelow (T d) W b⌝ ∗ owes (T d) O W)
    ∗ boundary (T d)
    ∗ (((T d : Thread nD τ).loc main_arg0) ↦{fullShare} x)
    ∗ (((T d : Thread nD τ).loc main_v1) ↦{fullShare} t1)
    ∗ (((T d : Thread nD τ).loc main_v2) ↦{fullShare} y)
    ∗ Pipeline.cellsGhost cfgs ER 0 d ∗ Pipeline.toksInit cfgs ER 0 d)

set_option maxHeartbeats 400000 in
/-- The region under the pipeline library's own body table. -/
theorem tcRegion_inner (d : Dev nD) (lv : GSem nD τ sig → HIx 1 → ℕ) (hlv : (K (F := F)).Refines lv)
    (O : CellTallies nD τ sig (HIx 1)) (hO : ∀ g, O g none = 0) (b : ℕ)
    (x : XC F) (t1 : TC F) (y : OC F) (Φ : PUnit → sProp 𝕄) :
    (iprop(tcPre d lv O b x t1 y ∗ (tcPost d O b x t1 -∗ Φ ⟨⟩)) : sProp 𝕄)
      ⊢ wp frame (wpE (D (F := F)) 𝒱 (T d) none) Set.univ (.op (.customCall (Pipeline.entry 0) ()) .ret) Φ := by
  classical
  have hss := tcScopedSems0 (F := F) d
  have hsb := tcScopedBufs (F := F) d
  have hbd : (boundary (T d : Thread nD τ) : sProp 𝕄)
      ⊢ iprop(scopedBufs (T d : Thread nD τ) ∗ scopedSems0 (T d : Thread nD τ) ∗ opIdle (T d : Thread nD τ)) := BI.Entails.refl _
  have hbd' : (iprop(scopedBufs (T d : Thread nD τ) ∗ scopedSems0 (T d : Thread nD τ) ∗ opIdle (T d : Thread nD τ)) : sProp 𝕄)
      ⊢ boundary (T d : Thread nD τ) := BI.Entails.refl _
  -- the rule's pre and post, read over the pipelines as the program states them
  have hpre : ∀ κ : GSem nD τ sig → ℕ, (Pipeline.EntryPre cfgs (tcDats' x t1 y O b) none ER κ 0 d : sProp 𝕄)
      ⊢ Pipeline.EntryPre (Pipeline.pin (pcfgs (F := F)) tcAdm) (tcDats x t1 y O b) none ER κ 0 d := fun κ => BI.Entails.refl _
  have hpost : (Pipeline.EntryPost (Pipeline.pin (pcfgs (F := F)) tcAdm) (tcDats x t1 y O b) none 0 d : sProp 𝕄)
      ⊢ Pipeline.EntryPost cfgs (tcDats' x t1 y O b) none 0 d := BI.Entails.refl _
  have harrs : ∀ Fm, ((tcDats' x t1 y O b 0 d).arrays Fm : sProp 𝕄)
      = iprop((((d.tc : Thread nD τ).loc main_v1) ↦{fullShare} Fm 0) ∗ (((d.tc : Thread nD τ).loc main_arg0) ↦{fullShare} Fm 1)
          ∗ (((d.tc : Thread nD τ).loc main_v2) ↦{fullShare} Fm 2)) := fun Fm => by
    rw [Pipeline.arrays_eq cfgs (tcDats' x t1 y O b) 0 d arr_whole1 (fun w => (tcDat d x t1 y O b).share_full (fun _ => rfl) w) Fm, bigSep_W1]
  have hin : (iprop(iprop(emp) ∗ Pipeline.prefHeld (pcfgs (F := F) 0).pre d (fun k => k.elim0) (tcAdm (F := F) 0).1 ∗ Pipeline.scopedRest spec1 d) : sProp 𝕄)
      ⊢ Pipeline.scopedRest spec1 d := by
    iintro ⟨-, -, HR⟩; iexact HR
  have hout : (iprop(Pipeline.scopedRest spec1 d
        ∗ Pipeline.cellsSems0 cfgs 0 d ∗ Dat.staging cfg1 d
        ∗ Pipeline.idleSems0 cfgs cellOf_inj 0 (Pipeline.OwnSemFacts.none _) d) : sProp 𝕄)
      ⊢ iprop(iprop(emp) ∗ scopedSems0 (d.tc : Thread nD τ) ∗ scopedBufs (d.tc : Thread nD τ)) := by
    rw [hss, hsb]
    iintro ⟨HΦ, Hcells, Hst, Hidle⟩
    isplitr; · iempintro
    isplitl [Hcells Hidle]
    · isplitl [Hcells]
      · isplitl [Hcells]; · iexact Hcells
        rw [Pipeline.ownSems0_none nD τ sig (Elt F) (HIx 1) ℕ UU ℕ d]; iempintro
      · iexact Hidle
    isplitl [Hst]; · iexact Hst
    iexact HΦ
  have hpref : (levAts (K (F := F)).L lv : sProp 𝕄)
      ⊢ Pipeline.prefHeld (pcfgs (F := F) 0).pre d (fun k => k.elim0) (tcAdm (F := F) 0).1 := by
    unfold Pipeline.prefHeld
    exact BI.bigSep_intro_persistent fun k _ => Fin.elim0 k
  unfold tcPre
  iintro ⟨⟨#Hlev, ⟨%W, %hW, HL⟩, Hb, Hx, Ht, Hy, Hg, Htok⟩, HΦ⟩
  ihave Hb' := hbd $$ Hb
  icases Hb' with ⟨Hsc, Hss, Hidl⟩
  ihave Hss' := (Entails.of_eq hss) $$ Hss
  icases Hss' with ⟨⟨Hcells, Hos⟩, Hidle⟩
  iapply (fupd_wp frame (wpE (D (F := F)) 𝒱 (T d) none) Set.univ _ _)
  imod (Pipeline.cellsInit_alloc cfgs (tcDats' x t1 y O b) ER cellOf_inj 0 d) $$ [Hcells Hg] with ⟨%κ, -, Hinit⟩
  · isplitl [Hcells] <;> iassumption
  imodintro
  iapply (Pipeline.wp_customCall_entry_frame (pcfgs (F := F)) tcAdm (tcDats x t1 y O b) none ER κ cellOf_inj 0 (defs₀ (F := F)) 𝒱₀
      (fun k => k.elim0) d Set.univ (fun _ _ => Set.mem_univ _)
      (tcBodyObligation d x t1 y O b).loose block_pos1 none (fun u h => nomatch h)
      (X := iprop(emp)) (Y := iprop(emp)) (R := Pipeline.scopedRest spec1 d)
      (I := Pipeline.idleSems0 cfgs cellOf_inj 0 (Pipeline.OwnSemFacts.none _) d)
      (Entails.of_eq hsb) hin hout (k := .ret) (Q := Φ)) $$ [Hx Ht Hy HL Hinit Htok Hidle Hsc]
  · isplitl [Hx Ht Hy HL Hinit Htok]
    · iapply (hpre κ)
      unfold Pipeline.EntryPre Pipeline.PerCore.EntryPre
      isplitl [Hx Ht Hy]
      · rw [harrs]
        isplitl [Ht]; · iexact Ht
        isplitl [Hx]; · iexact Hx
        iexact Hy
      isplitl [HL]
      · iexists W; isplitr
        · ipureintro; exact fun p hp => Or.inl (hW p (Finset.mem_coe.mp hp))
        iexact HL
      isplitr
      · iapply (Pipeline.cellsWaits_intro cfgs (tcDats' x t1 y O b) none 0 d (R := levAts (K (F := F)).L lv)
          (fun w s t => (K (F := F)).mayWait_none _ hO lv hlv))
        iexact Hlev
      isplitl [Hinit]; · iexact Hinit
      iexact Htok
    isplitr
    · iapply hpref
      iexact Hlev
    isplitr; · iempintro
    isplitl [Hidle]; · iexact Hidle
    iexact Hsc
  iintro ⟨Hpost, -, Hss2, Hsc2⟩
  iapply (le_wp_ret _ _ _ PUnit.unit Φ)
  iapply HΦ
  ihave Hpost' := hpost $$ Hpost
  unfold tcPost Pipeline.EntryPost Pipeline.PerCore.EntryPost
  icases Hpost' with ⟨Ha, ⟨%W', %hW', HL'⟩⟩
  isplitl [HL']
  · iexists W'; isplitr
    · ipureintro
      intro p hp
      rcases hW' (Finset.mem_coe.mpr hp) with h | ⟨w, s, rfl⟩
      · exact h
      · exact Nat.zero_le _
    iexact HL'
  isplitl [Hsc2 Hss2 Hidl]
  · iapply hbd'
    isplitl [Hsc2]; · iexact Hsc2
    isplitl [Hss2]; · iexact Hss2
    iexact Hidl
  ihave Ha' := (Entails.of_eq (harrs _)) $$ Ha
  icases Ha' with ⟨Ht, Hx, Hy⟩
  ihave Ht2 := (Entails.of_eq (congrArg (fun v => (((T d : Thread nD τ).loc main_v1) ↦{fullShare} v : sProp 𝕄)) (tcArr0 d x t1 y O b))) $$ Ht
  ihave Hx2 := (Entails.of_eq (congrArg (fun v => (((T d : Thread nD τ).loc main_arg0) ↦{fullShare} v : sProp 𝕄)) (tcArr1 d x t1 y O b))) $$ Hx
  ihave Hy2 := (Entails.of_eq (congrArg (fun v => (((T d : Thread nD τ).loc main_v2) ↦{fullShare} v : sProp 𝕄)) (tcArr2 d x t1 y O b))) $$ Hy
  isplitl [Hx2]; · iexact Hx2
  isplitl [Ht2]; · iexact Ht2
  iexact Hy2

/-- The call's step of @main is the pipeline library's region entry, lifted. -/
theorem tcProg_eq :
    (Prog.lift (.customCall (SparseCore.inner (Pipeline.entry 0)) ()) :
        Prog (TpuEff nD τ sig (Elt F) (SparseCore.Sig (ΛP (F := F)) 1) .tc) PUnit)
      = SparseCore.liftProg (.op (.customCall (Pipeline.entry 0) ()) .ret) := rfl

set_option maxHeartbeats 400000 in
/-- THE REGION, in continuation form: from what the TensorCore holds when @main reaches the call, the call's step runs
    to any `Φ` that follows from what it leaves. -/
theorem tcRegion_k (d : Dev nD) (lv : GSem nD τ sig → HIx 1 → ℕ) (hlv : (K (F := F)).Refines lv)
    (O : CellTallies nD τ sig (HIx 1)) (hO : ∀ g, O g none = 0) (b : ℕ)
    (x : XC F) (t1 : TC F) (y : OC F) (Φ : PUnit → sProp 𝕄) :
    (iprop(tcPre d lv O b x t1 y ∗ (tcPost d O b x t1 -∗ Φ ⟨⟩)) : sProp 𝕄)
      ⊢ wp frame (wpE ((K (F := F)).defs (D (F := F))) 𝒱 (T d) none) Set.univ
          (Prog.lift (.customCall (SparseCore.inner (Pipeline.entry 0)) ())) Φ := by
  rw [tcProg_eq]
  exact (tcRegion_inner d lv hlv O hO b x t1 y Φ).trans
    ((K (F := F)).wp_liftProg (D (F := F)) 𝒱 (T d) Set.univ none (.op (.customCall (Pipeline.entry 0) ()) .ret) Φ)

/-- THE REGION, as a triple. -/
theorem tcRegion (d : Dev nD) (lv : GSem nD τ sig → HIx 1 → ℕ) (hlv : (K (F := F)).Refines lv)
    (O : CellTallies nD τ sig (HIx 1)) (hO : ∀ g, O g none = 0) (b : ℕ)
    (x : XC F) (t1 : TC F) (y : OC F) :
    (tcPre d lv O b x t1 y : sProp 𝕄)
      ⊢ wp frame (wpE ((K (F := F)).defs (D (F := F))) 𝒱 (T d) none) Set.univ
          (Prog.lift (.customCall (SparseCore.inner (Pipeline.entry 0)) ())) fun _ => tcPost d O b x t1 := by
  have h : (tcPre d lv O b x t1 y : sProp 𝕄) ⊢ iprop(tcPre d lv O b x t1 y ∗ (tcPost d O b x t1 -∗ tcPost d O b x t1)) := by
    iintro H
    isplitl [H]; · iexact H
    iintro H; iexact H
  exact h.trans (tcRegion_k d lv hlv O hO b x t1 y fun _ => tcPost d O b x t1)

end Cert.Proof.KernelIdeal

end
-- ==== Proof.TcRegionK.lean ====
/-
  The TensorCore call's region, in the form @main's proof applies it.
-/
import proofs.«217662_g32298154065999_cont_8to1_b_8_33_alg».proof.Proof.Launch
import proofs.«217662_g32298154065999_cont_8to1_b_8_33_alg».proof.Proof.TcRegion

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem tcRegionK : TcRegionK (F := F) := by
  intro d lv hlv O hO b x t1 y Φ
  iintro ⟨Hl, Ho, Hb, Hx, H1, H2, Hg, Ht, Hk⟩
  iapply (tcRegion_k d lv hlv O hO b x t1 y Φ)
  isplitl [Hl Ho Hb Hx H1 H2 Hg Ht]
  · unfold tcPre
    isplitl [Hl]; · iexact Hl
    isplitl [Ho]; · iexact Ho
    isplitl [Hb]; · iexact Hb
    isplitl [Hx]; · iexact Hx
    isplitl [H1]; · iexact H1
    isplitl [H2]; · iexact H2
    isplitl [Hg]; · iexact Hg
    iexact Ht
  · unfold tcPost
    iintro Hp
    iapply Hk
    iexact Hp

end Cert.Proof.KernelIdeal

end
-- ==== Proof.Bits.TcRegionBody.lean ====
import proofs.«217662_g32298154065999_cont_8to1_b_8_33_alg».proof.Proof.Bits.Common
import proofs.«217662_g32298154065999_cont_8to1_b_8_33_alg».proof.Proof.Bits.TcRegionDefs
import Idealize.ShloMosaic.Lib.Pipeline.FrameBody
import Idealize.ShloMosaic.Lib.WholeRead

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Reading whole staging buffers -/

section Whole

variable {κ : Kind} {sp : Space} {Sh : Shape} {e : EltTy}

/-- A load of a whole buffer, held at the contents that read `X`, through the full rectangle at offsets zero reads `X`. -/
theorem tcReadAt_full {m : Memref sig κ sp Sh e} (h : m.IsWhole) (X : Sh.Idx → Elt F e)
    {off : Fin Sh.rank → ℕ} (hoff : off = fun _ => 0) (inb : ∀ a, off a + Sh.size a ≤ Sh.size a) :
    View.readAt (Elt F) m.view (Rect.unit (s := Sh) off Sh.size inb).toLoadRect (h.unread X) = X := by
  subst hoff; funext x
  refine (Memref.IsWhole.readAt_unread h X _ x).trans ?_
  show X ((Rect.whole Sh).emb x) = X x
  rw [Rect.emb_whole_apply]

/-- A buffer whose newest store covers it reads that store's value. -/
theorem tcReadWrites_full (v : View sig κ sp Sh e) (f : v.ty.Contents (Elt F))
    {off : Fin Sh.rank → ℕ} (hoff : off = fun _ => 0) (inb : ∀ a, off a + Sh.size a ≤ Sh.size a)
    (w : Sh.Idx → Elt F e) (Ls : List (View.Piece (Elt F) Sh e)) :
    v.read (Elt F) (v.writes (Elt F) f ((⟨Rect.unit (s := Sh) off Sh.size inb, w⟩ : View.Piece (Elt F) Sh e) :: Ls)) = w := by
  subst hoff; funext y
  have h := View.read_writes_cons_emb v f (Rect.whole Sh) w Ls y
  rwa [Rect.emb_whole_apply] at h

/-- A load through the full rectangle of a buffer whose newest store covers it reads that store's value. -/
theorem tcReadCov_full (v : View sig κ sp Sh e)
    {off : Fin Sh.rank → ℕ} (hoff : off = fun _ => 0) (inb : ∀ a, off a + Sh.size a ≤ Sh.size a)
    (w : Sh.Idx → Elt F e) (Ls : List (View.Piece (Elt F) Sh e)) :
    v.readCov ((⟨Rect.unit (s := Sh) off Sh.size inb, w⟩ : View.Piece (Elt F) Sh e) :: Ls) (Rect.unit (s := Sh) off Sh.size inb).toLoadRect = w :=
  View.readCov_cons_toLoadRect v (Rect.unit (s := Sh) off Sh.size inb) w Ls

theorem tcZeroA : (![0, 0] : Fin S128x1.rank → ℕ) = fun _ => 0 := by
  funext a; exact Fin.cases rfl (fun b => Fin.cases rfl (fun c => c.elim0) b) a
theorem tcZeroB : (![0, 0] : Fin S128x32000.rank → ℕ) = fun _ => 0 := by
  funext a; exact Fin.cases rfl (fun b => Fin.cases rfl (fun c => c.elim0) b) a
theorem tcZeroC : (![0, 0] : Fin S1x1.rank → ℕ) = fun _ => 0 := by
  funext a; exact Fin.cases rfl (fun b => Fin.cases rfl (fun c => c.elim0) b) a

end Whole

set_option maxRecDepth 16384

local notation "𝕄" => MT nD τ sig (HIx 1) (Elt F) ℕ UU ℕ

/-- The body's test that the column block is the first, from the grid coordinates. -/
abbrev tcCond1 (i : grid1.Coords) : Prop :=
  (Scalar.cmpi .ne (Scalar.extui (Scalar.cmpi .eq (BitVec.ofNat 32 (i 1).val) 0#32)) 0#32) = 1#1

set_option maxHeartbeats 1000000 in
/-- The body at a point of the first row block, on whole staging buffers: the scratches are reset, the block is folded in, and the
    output block is stored at the point's partial sum; the inputs' buffers are left as they were. -/
theorem tcBodyRunA (d : Dev nD) (i : grid1.Coords)
    (arg2 : Memref sig .tc .vmem S128x1 .i32) (harg2 : arg2.IsWhole) (arg3 : Memref sig .tc .vmem S128x32000 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole)
    (hc1 : tcCond1 i) (hc2 : k1_cond2 i = 1#1) (hc3 : k1_cond3 i = 1#1) (hc4 : ¬ k1_cond4 i = 1#1)
    (tb : Vec F S128x1 .i32) (xb : Vec F S128x32000 .f32) (o0 : Vec F S1x1 .f32) (m0 s0 : Vec F S128x1 .f32)
    (E : Set ℕ) (Kc : PUnit → sProp 𝕄) :
    (iprop(owns (T d : Thread nD τ) arg2 fullShare tb ∗ owns (T d : Thread nD τ) arg3 fullShare xb
        ∗ owns (T d : Thread nD τ) arg4 fullShare o0 ∗ owns (T d : Thread nD τ) arg5 fullShare m0 ∗ owns (T d : Thread nD τ) arg6 fullShare s0
        ∗ (iprop(owns (T d : Thread nD τ) arg2 fullShare tb ∗ owns (T d : Thread nD τ) arg3 fullShare xb
            ∗ owns (T d : Thread nD τ) arg4 fullShare (k1_pay6 tb (sNew xb) (mNew xb))
            ∗ owns (T d : Thread nD τ) arg5 fullShare (mNew xb) ∗ owns (T d : Thread nD τ) arg6 fullShare (sNew xb)) -∗ Kc ⟨⟩)) : sProp 𝕄)
      ⊢ wp frame (wpE (defs₀ (F := F)) 𝒱₀ (T d) none) E (cc1__loss_body i arg2 harg2 arg3 harg3 arg4 harg4 arg5 harg5 arg6 harg6) Kc := by
  simp only [cc1__loss_body_eq_skeleton]; unfold cc1__loss_body_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  isplitl [H5]
  · iexists _; isplitr
    swap; · iexact H5
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  · iexists _; isplitr
    swap; · iexact H6
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl

set_option maxHeartbeats 1000000 in
/-- The body at a point of a later row block, on whole staging buffers: the scratches are reset, the block is folded in, and the
    output block has the point's partial sum added to what it held; the inputs' buffers are left as they were. -/
theorem tcBodyRunB (d : Dev nD) (i : grid1.Coords)
    (arg2 : Memref sig .tc .vmem S128x1 .i32) (harg2 : arg2.IsWhole) (arg3 : Memref sig .tc .vmem S128x32000 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole)
    (hc1 : tcCond1 i) (hc2 : k1_cond2 i = 1#1) (hc3 : ¬ k1_cond3 i = 1#1) (hc4 : k1_cond4 i = 1#1)
    (tb : Vec F S128x1 .i32) (xb : Vec F S128x32000 .f32) (o0 : Vec F S1x1 .f32) (m0 s0 : Vec F S128x1 .f32)
    (E : Set ℕ) (Kc : PUnit → sProp 𝕄) :
    (iprop(owns (T d : Thread nD τ) arg2 fullShare tb ∗ owns (T d : Thread nD τ) arg3 fullShare xb
        ∗ owns (T d : Thread nD τ) arg4 fullShare o0 ∗ owns (T d : Thread nD τ) arg5 fullShare m0 ∗ owns (T d : Thread nD τ) arg6 fullShare s0
        ∗ (iprop(owns (T d : Thread nD τ) arg2 fullShare tb ∗ owns (T d : Thread nD τ) arg3 fullShare xb
            ∗ owns (T d : Thread nD τ) arg4 fullShare (k1_pay7 tb (sNew xb) (mNew xb) o0)
            ∗ owns (T d : Thread nD τ) arg5 fullShare (mNew xb) ∗ owns (T d : Thread nD τ) arg6 fullShare (sNew xb)) -∗ Kc ⟨⟩)) : sProp 𝕄)
      ⊢ wp frame (wpE (defs₀ (F := F)) 𝒱₀ (T d) none) E (cc1__loss_body i arg2 harg2 arg3 harg3 arg4 harg4 arg5 harg5 arg6 harg6) Kc := by
  simp only [cc1__loss_body_eq_skeleton]; unfold cc1__loss_body_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  isplitl [H5]
  · iexists _; isplitr
    swap; · iexact H5
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl
  · iexists _; isplitr
    swap; · iexact H6
    ipureintro
    sl_unfold_run_names
    simp only [tcReadCov_full (Sh := S128x1) _ tcZeroA, tcReadAt_full (Sh := S128x1) _ _ tcZeroA, tcReadAt_full (Sh := S128x32000) _ _ tcZeroB, tcReadWrites_full (Sh := S128x1) _ _ tcZeroA, tcReadWrites_full (Sh := S1x1) _ _ tcZeroC, tcReadAt_full (Sh := S1x1) _ _ tcZeroC]
    rfl

end Cert.Proof.Kernel

end
-- ==== Proof.Bits.TcRegionDat.lean ====
import proofs.«217662_g32298154065999_cont_8to1_b_8_33_alg».proof.Proof.Bits.Common
import proofs.«217662_g32298154065999_cont_8to1_b_8_33_alg».proof.Proof.Bits.TcRegionBody
import Idealize.ShloMosaic.Lib.Pipeline.FrameBody
import Idealize.ShloMosaic.Lib.WholeRead

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

local notation "𝕄" => MT nD τ sig (HIx 1) (Elt F) ℕ UU ℕ

/-! ## The control conditions over the grid -/

/-- Every point is on the first (the only) column block. -/
theorem tcCond1_all : ∀ t : Fin cfg1.N, tcCond1 (grid1.coords t) :=
  (by decide +kernel : ∀ t : Fin grid1.N, tcCond1 (grid1.coords t))
/-- and on the last. -/
theorem tcCond2_all : ∀ t : Fin cfg1.N, k1_cond2 (grid1.coords t) = 1#1 :=
  (by decide +kernel : ∀ t : Fin grid1.N, k1_cond2 (grid1.coords t) = 1#1)
/-- The first row block is at the first point only. -/
theorem tcCond3_iff : ∀ t : Fin cfg1.N, k1_cond3 (grid1.coords t) = 1#1 ↔ t.val = 0 :=
  (by decide +kernel : ∀ t : Fin grid1.N, k1_cond3 (grid1.coords t) = 1#1 ↔ t.val = 0)
/-- A later row block is at every other point. -/
theorem tcCond4_iff : ∀ t : Fin cfg1.N, k1_cond4 (grid1.coords t) = 1#1 ↔ t.val ≠ 0 :=
  (by decide +kernel : ∀ t : Fin grid1.N, k1_cond4 (grid1.coords t) = 1#1 ↔ t.val ≠ 0)
/-- The body stores into the output block at every point. -/
theorem tcLive2 : ∀ i : grid1.Coords, cfg1.idle 2 i = false :=
  (by decide +kernel : ∀ i : grid1.Coords, idle1 2 i = false)

/-! ## The proof data -/

/-- The bound kept on the pairs the TensorCore's waits have recorded: those at level at most `b`. -/
def tcRecB (d : Dev nD) (b : ℕ) : Set (SemLoc sig × HIx 1) := {p | (K (F := F)).lev ((T d : Thread nD τ), p.1) p.2 ≤ b}

/-- The call's proof data on device `d`: the arrays as the call finds them; after the body at point `t` each input's
    buffer at its block and the output's at the running sum; the invariant the two scratches at any contents (every
    point resets them); what the core owes constant. -/
def tcDat (d : Dev nD) (x : XC F) (t1 : TC F) (y : OC F) (O : CellTallies nD τ sig (HIx 1)) (b : ℕ) :
    Dat τ (Elt F) (HIx 1) ℕ UU ℕ cfg1 d where
  A w := match w with
    | ⟨0, _⟩ => t1
    | ⟨1, _⟩ => x
    | ⟨2, _⟩ => y
  after w t := match w with
    | ⟨0, _⟩ => tBlk t1 t
    | ⟨1, _⟩ => xBlk x t
    | ⟨2, _⟩ => accAt x t1 t.val t.isLt
  Φ _ := Pipeline.scopedRest spec1 d
  q _ := fullShare
  owed _ := O
  recorded _ := tcRecB (F := F) d b

variable (d : Dev nD) (x : XC F) (t1 : TC F) (y : OC F) (O : CellTallies nD τ sig (HIx 1)) (b : ℕ)

theorem tcDat_A0 : (tcDat d x t1 y O b).A 0 = t1 := by dsimp only [tcDat]
theorem tcDat_A1 : (tcDat d x t1 y O b).A 1 = x := by dsimp only [tcDat]
theorem tcDat_A2 : (tcDat d x t1 y O b).A 2 = y := by dsimp only [tcDat]
theorem tcDat_after0 (t : Fin cfg1.N) : (tcDat d x t1 y O b).after 0 t = tBlk t1 t := by dsimp only [tcDat]
theorem tcDat_after1 (t : Fin cfg1.N) : (tcDat d x t1 y O b).after 1 t = xBlk x t := by dsimp only [tcDat]
theorem tcDat_after2 (t : Fin cfg1.N) : (tcDat d x t1 y O b).after 2 t = accAt x t1 t.val t.isLt := by dsimp only [tcDat]

/-- Each input's current staging buffer holds its block at every point. -/
theorem tcBefore0 (t : Fin cfg1.N) (e) : (tcDat d x t1 y O b).before 0 t e = tBlk t1 t :=
  ((tcDat d x t1 y O b).before_in_eq_fetched 0 rfl (fun _ => rfl) (fun _ _ _ => rfl)
    (fun t => by rw [tcDat_after0]; unfold Dat.blockOf tBlk; rw [tcDat_A0]; try rfl) t e).trans
    (by unfold Dat.fetched Dat.blockOf tBlk; rw [tcDat_A0]; try rfl)
theorem tcBefore1 (t : Fin cfg1.N) (e) : (tcDat d x t1 y O b).before 1 t e = xBlk x t :=
  ((tcDat d x t1 y O b).before_in_eq_fetched 1 rfl (fun _ => rfl) (fun _ _ _ => rfl)
    (fun t => by rw [tcDat_after1]; unfold Dat.blockOf xBlk; rw [tcDat_A1]; try rfl) t e).trans
    (by unfold Dat.fetched Dat.blockOf xBlk; rw [tcDat_A1]; try rfl)

/-- At a later point the output's staging buffer holds what the body left at the point before: it is not written back
    between, and the body stores into it at every point. -/
theorem tcBefore2 (t : Fin cfg1.N) (h0 : t.val ≠ 0) (e) :
    (tcDat d x t1 y O b).before 2 t e = accAt x t1 (t.val - 1) (Nat.lt_of_le_of_lt (Nat.sub_le _ _) t.isLt) := by
  have hN : t.val < 32 := lt_of_lt_of_eq t.isLt (show cfg1.N = 32 from N_1)
  rw [Dat.before_out_kept _ 2 rfl t h0 (Bool.eq_false_iff.mpr fun h => by have := (flush1_2 _).mp h; dsimp only at this; omega)
    tcLive2 (fun _ _ => rfl)]
  dsimp only [tcDat]

/-! ## The running sum, point by point -/

theorem accAt_zero (t : Fin cfg1.N) (h0 : t.val = 0) :
    accAt x t1 t.val t.isLt = k1_pay6 (tBlk t1 t) (sNew (xBlk x t)) (mNew (xBlk x t)) := by
  obtain ⟨n, hn⟩ := t
  cases n with
  | zero => rfl
  | succ n => exact absurd h0 (Nat.succ_ne_zero n)

theorem accAt_pos (t : Fin cfg1.N) (h0 : t.val ≠ 0) :
    accAt x t1 t.val t.isLt = k1_pay7 (tBlk t1 t) (sNew (xBlk x t)) (mNew (xBlk x t))
      (accAt x t1 (t.val - 1) (Nat.lt_of_le_of_lt (Nat.sub_le _ _) t.isLt)) := by
  obtain ⟨n, hn⟩ := t
  cases n with
  | zero => exact absurd rfl h0
  | succ n => rfl

/-! ## The body obligation -/

/-- What the body is called with at point `t`, the windows one by one, -/
def tcBodyPre (t : Fin cfg1.N) : sProp 𝕄 :=
  iprop((tcDat d x t1 y O b).Φ t.castSucc ∗ (tcDat d x t1 y O b).owesAt none t.castSucc
    ∗ (∃ e, owns (d : Thread nD τ) (st1_0 t) fullShare ((tcDat d x t1 y O b).before 0 t e))
    ∗ (∃ e, owns (d : Thread nD τ) (st1_1 t) fullShare ((tcDat d x t1 y O b).before 1 t e))
    ∗ (∃ e, owns (d : Thread nD τ) (st1_2 t) fullShare ((tcDat d x t1 y O b).before 2 t e)))

/-- and what it returns. -/
def tcBodyPost (t : Fin cfg1.N) : sProp 𝕄 :=
  iprop((tcDat d x t1 y O b).Φ t.succ ∗ (tcDat d x t1 y O b).owesAt none t.succ
    ∗ owns (d : Thread nD τ) (st1_0 t) fullShare ((tcDat d x t1 y O b).after 0 t)
    ∗ owns (d : Thread nD τ) (st1_1 t) fullShare ((tcDat d x t1 y O b).after 1 t)
    ∗ owns (d : Thread nD τ) (st1_2 t) fullShare ((tcDat d x t1 y O b).after 2 t))

set_option maxHeartbeats 800000 in
theorem tcSoundBody (t : Fin cfg1.N) :
    tcBodyPre d x t1 y O b t ⊢ wp frame (wpE (defs₀ (F := F)) 𝒱₀ d none) Set.univ (bodyAt1 t) (fun _ => tcBodyPost d x t1 y O b t) := by
  unfold tcBodyPre tcBodyPost bodyAt1
  simp only [tcBefore0, tcBefore1]
  rw [show (tcDat d x t1 y O b).Φ t.succ = Pipeline.scopedRest spec1 d from rfl,
    show (tcDat d x t1 y O b).Φ t.castSucc = Pipeline.scopedRest spec1 d from rfl,
    show (tcDat d x t1 y O b).owesAt none t.succ = (tcDat d x t1 y O b).owesAt none t.castSucc from rfl,
    tcDat_after0, tcDat_after1, tcDat_after2, scopedRest1_eq]
  by_cases h0 : t.val = 0
  · rw [accAt_zero x t1 t h0]
    iintro ⟨⟨⟨%fm, Hm⟩, ⟨%fs, Hs⟩⟩, Ho, ⟨%e0, H0⟩, ⟨%e1, H1⟩, ⟨%e2, H2⟩⟩
    iapply (tcBodyRunA d (grid1.coords t) _ _ _ _ _ _ _ _ _ _ (tcCond1_all t) (tcCond2_all t) ((tcCond3_iff t).mpr h0)
      (fun h => (tcCond4_iff t).mp h h0) (tBlk t1 t) (xBlk x t) _ fm fs Set.univ _)
    isplitl [H0]; · iexact H0
    isplitl [H1]; · iexact H1
    isplitl [H2]; · iexact H2
    isplitl [Hm]; · iapply (Entails.of_eq (owns_whole _ _ _ _).symm); iexact Hm
    isplitl [Hs]; · iapply (Entails.of_eq (owns_whole _ _ _ _).symm); iexact Hs
    iintro ⟨H0, H1, H2, Hm, Hs⟩
    isplitl [Hm Hs]
    · isplitl [Hm]
      · iexists _; iapply (Entails.of_eq (owns_whole _ _ _ _)); iexact Hm
      · iexists _; iapply (Entails.of_eq (owns_whole _ _ _ _)); iexact Hs
    isplitl [Ho]; · iexact Ho
    isplitl [H0]; · iexact H0
    isplitl [H1]; · iexact H1
    iexact H2
  · rw [accAt_pos x t1 t h0]
    simp only [tcBefore2 d x t1 y O b t h0]
    iintro ⟨⟨⟨%fm, Hm⟩, ⟨%fs, Hs⟩⟩, Ho, ⟨%e0, H0⟩, ⟨%e1, H1⟩, ⟨%e2, H2⟩⟩
    iapply (tcBodyRunB d (grid1.coords t) _ _ _ _ _ _ _ _ _ _ (tcCond1_all t) (tcCond2_all t) (fun h => h0 ((tcCond3_iff t).mp h))
      ((tcCond4_iff t).mpr h0) (tBlk t1 t) (xBlk x t) _ fm fs Set.univ _)
    isplitl [H0]; · iexact H0
    isplitl [H1]; · iexact H1
    isplitl [H2]; · iexact H2
    isplitl [Hm]; · iapply (Entails.of_eq (owns_whole _ _ _ _).symm); iexact Hm
    isplitl [Hs]; · iapply (Entails.of_eq (owns_whole _ _ _ _).symm); iexact Hs
    iintro ⟨H0, H1, H2, Hm, Hs⟩
    isplitl [Hm Hs]
    · isplitl [Hm]
      · iexists _; iapply (Entails.of_eq (owns_whole _ _ _ _)); iexact Hm
      · iexists _; iapply (Entails.of_eq (owns_whole _ _ _ _)); iexact Hs
    isplitl [Ho]; · iexact Ho
    isplitl [H0]; · iexact H0
    isplitl [H1]; · iexact H1
    iexact H2

/-- The library's body obligation, at every point. -/
theorem tcBodyObligation : BodyObligation (tcDat d x t1 y O b) (defs₀ (F := F)) 𝒱₀ none Set.univ := fun t => by
  rw [bigSep_W1, bigSep_W1]
  rw [show cfg1.idle 2 (cfg1.grid.coords t) = false from tcLive2 _]
  exact tcSoundBody d x t1 y O b t

end Cert.Proof.Kernel

end
-- ==== Proof.Bits.TcRegion.lean ====
import proofs.«217662_g32298154065999_cont_8to1_b_8_33_alg».proof.Proof.Bits.Common
import proofs.«217662_g32298154065999_cont_8to1_b_8_33_alg».proof.Proof.Bits.TcRegionDat
import Idealize.ShloMosaic.Lib.Pipeline.FrameBody
import Idealize.ShloMosaic.Lib.WholeRead

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

local notation "𝕄" => MT nD τ sig (HIx 1) (Elt F) ℕ UU ℕ

/-- The one admissible contents of the call's (absent) prefetched tables. -/
abbrev tcAdm : (p : Fin 1) → (pcfgs (F := F) p).Adm := fun p => (cfgs p).toPCfg_adm

/-- The call's proof data per pipeline and device. -/
abbrev tcDats (x : XC F) (t1 : TC F) (y : OC F) (O : CellTallies nD τ sig (HIx 1)) (b : ℕ) :
    (p : Fin 1) → (c : Dev nD) → Dat τ (Elt F) (HIx 1) ℕ UU ℕ (Pipeline.pin (pcfgs (F := F)) tcAdm p) c :=
  fun _ c => tcDat c x t1 y O b

/-- The two scoped-resource splits of the region rule, at this call. -/
theorem tcScopedSems0 (d : Dev nD) :
    (scopedSems0 (d.tc : Thread nD τ) : sProp 𝕄)
      = iprop((Pipeline.cellsSems0 cfgs 0 d ∗ Pipeline.ownSems0 (fun k : PEmpty => k.elim) d) ∗ Pipeline.idleSems0 cfgs cellOf_inj 0 (Pipeline.OwnSemFacts.none _) d) :=
  Pipeline.scopedSems0_split cfgs cellOf_inj 0 winFacts1.to₀ (Pipeline.OwnSemFacts.none _) d

theorem tcScopedBufs (d : Dev nD) :
    (scopedBufs (d.tc : Thread nD τ) : sProp 𝕄) = iprop(Dat.staging cfg1 d ∗ Pipeline.scopedRest spec1 d) :=
  Pipeline.scopedBufs_split cfgs 0 winFacts1.stage_scoped winFacts1.stage_inj stage_whole1 d

/-- The same data over the pipelines as the program states them. -/
abbrev tcDats' (x : XC F) (t1 : TC F) (y : OC F) (O : CellTallies nD τ sig (HIx 1)) (b : ℕ) :
    (p : Fin 1) → (c : Dev nD) → Dat τ (Elt F) (HIx 1) ℕ UU ℕ (cfgs p) c :=
  fun _ c => tcDat c x t1 y O b

section Final

variable (d : Dev nD) (x : XC F) (t1 : TC F) (y : OC F) (O : CellTallies nD τ sig (HIx 1)) (b : ℕ)

/-- A one-by-one block has one index. -/
theorem tcIdx11_eq (j j' : S1x1.Idx) : j = j' := by
  funext a
  apply Fin.ext
  have h1 := (j a).isLt
  have h2 := (j' a).isLt
  have ha : ∀ a : Fin S1x1.rank, S1x1.size a = 1 := by decide
  have := ha a
  omega

/-- The inputs' arrays are never written. -/
theorem tcArr0 : (tcDat d x t1 y O b).arrAt 0 cfg1.N = t1 :=
  ((tcDat d x t1 y O b).arrAt_in 0 rfl _).trans (tcDat_A0 d x t1 y O b)
theorem tcArr1 : (tcDat d x t1 y O b).arrAt 1 cfg1.N = x :=
  ((tcDat d x t1 y O b).arrAt_in 1 rfl _).trans (tcDat_A1 d x t1 y O b)

/-- The last point's block of the result is the whole result. -/
abbrev tcLast : Fin cfg1.N := ⟨31, by decide⟩
theorem tcCover2 : ∀ i : ((cfg1.win 2).blk tcLast).view.ty.Idx, i ∈ ((cfg1.win 2).blk tcLast).view.set := by decide +kernel

/-- The result's array after the one write-back, at the last point: the fold. -/
theorem tcArr2 : (tcDat d x t1 y O b).arrAt 2 cfg1.N = tcOut x t1 := by
  refine (tcDat d x t1 y O b).arrAt_eq_of_cover 2 (tcOut x t1) (fun t hf => ?_)
    (fun i => ⟨tcLast, (flush1_2 _).mpr rfl, tcCover2 i⟩)
  have ht : t.val % 32 = 31 := (flush1_2 t).mp hf
  obtain ⟨n, hn⟩ := t
  have hn' : n < 32 := lt_of_lt_of_eq hn N_1
  have hn31 : n = 31 := by dsimp only at ht; omega
  subst hn31
  funext j
  rw [View.read_apply]
  refine Eq.trans ?_ (cast_eq _ _).symm
  show (tcDat d x t1 y O b).after 2 ⟨31, hn⟩ _ = _
  rw [tcDat_after2]
  exact congrArg (accAt x t1 31 _) (tcIdx11_eq _ _)

end Final

/-- What the call leaves, beside the boundary: the arrays (the inputs unchanged, the result at the fold) and the core's debts as they were. -/
def tcPost (d : Dev nD) (O : CellTallies nD τ sig (HIx 1)) (b : ℕ) (x : XC F) (t1 : TC F) : sProp 𝕄 :=
  iprop((∃ W, ⌜(K (F := F)).WBelow (T d) W b⌝ ∗ owes (T d) O W)
    ∗ boundary (T d)
    ∗ (((T d : Thread nD τ).loc main_arg0) ↦{fullShare} x)
    ∗ (((T d : Thread nD τ).loc main_v1) ↦{fullShare} t1)
    ∗ (((T d : Thread nD τ).loc main_v2) ↦{fullShare} tcOut x t1))

/-- What the call starts from. -/
def tcPre (d : Dev nD) (lv : GSem nD τ sig → HIx 1 → ℕ) (O : CellTallies nD τ sig (HIx 1)) (b : ℕ) (x : XC F) (t1 : TC F) (y : OC F) : sProp 𝕄 :=
  iprop(levAts (K (F := F)).L lv
    ∗ (∃ W, ⌜(K (F := F)).WBelow (T d) W b⌝ ∗ owes (T d) O W)
    ∗ boundary (T d)
    ∗ (((T d : Thread nD τ).loc main_arg0) ↦{fullShare} x)
    ∗ (((T d : Thread nD τ).loc main_v1) ↦{fullShare} t1)
    ∗ (((T d : Thread nD τ).loc main_v2) ↦{fullShare} y)
    ∗ Pipeline.cellsGhost cfgs ER 0 d ∗ Pipeline.toksInit cfgs ER 0 d)

set_option maxHeartbeats 400000 in
/-- The region under the pipeline library's own body table. -/
theorem tcRegion_inner (d : Dev nD) (lv : GSem nD τ sig → HIx 1 → ℕ) (hlv : (K (F := F)).Refines lv)
    (O : CellTallies nD τ sig (HIx 1)) (hO : ∀ g, O g none = 0) (b : ℕ)
    (x : XC F) (t1 : TC F) (y : OC F) (Φ : PUnit → sProp 𝕄) :
    (iprop(tcPre d lv O b x t1 y ∗ (tcPost d O b x t1 -∗ Φ ⟨⟩)) : sProp 𝕄)
      ⊢ wp frame (wpE (D (F := F)) 𝒱 (T d) none) Set.univ (.op (.customCall (Pipeline.entry 0) ()) .ret) Φ := by
  classical
  have hss := tcScopedSems0 (F := F) d
  have hsb := tcScopedBufs (F := F) d
  have hbd : (boundary (T d : Thread nD τ) : sProp 𝕄)
      ⊢ iprop(scopedBufs (T d : Thread nD τ) ∗ scopedSems0 (T d : Thread nD τ) ∗ opIdle (T d : Thread nD τ)) := BI.Entails.refl _
  have hbd' : (iprop(scopedBufs (T d : Thread nD τ) ∗ scopedSems0 (T d : Thread nD τ) ∗ opIdle (T d : Thread nD τ)) : sProp 𝕄)
      ⊢ boundary (T d : Thread nD τ) := BI.Entails.refl _
  -- the rule's pre and post, read over the pipelines as the program states them
  have hpre : ∀ κ : GSem nD τ sig → ℕ, (Pipeline.EntryPre cfgs (tcDats' x t1 y O b) none ER κ 0 d : sProp 𝕄)
      ⊢ Pipeline.EntryPre (Pipeline.pin (pcfgs (F := F)) tcAdm) (tcDats x t1 y O b) none ER κ 0 d := fun κ => BI.Entails.refl _
  have hpost : (Pipeline.EntryPost (Pipeline.pin (pcfgs (F := F)) tcAdm) (tcDats x t1 y O b) none 0 d : sProp 𝕄)
      ⊢ Pipeline.EntryPost cfgs (tcDats' x t1 y O b) none 0 d := BI.Entails.refl _
  have harrs : ∀ Fm, ((tcDats' x t1 y O b 0 d).arrays Fm : sProp 𝕄)
      = iprop((((d.tc : Thread nD τ).loc main_v1) ↦{fullShare} Fm 0) ∗ (((d.tc : Thread nD τ).loc main_arg0) ↦{fullShare} Fm 1)
          ∗ (((d.tc : Thread nD τ).loc main_v2) ↦{fullShare} Fm 2)) := fun Fm => by
    rw [Pipeline.arrays_eq cfgs (tcDats' x t1 y O b) 0 d arr_whole1 (fun w => (tcDat d x t1 y O b).share_full (fun _ => rfl) w) Fm, bigSep_W1]
  have hin : (iprop(iprop(emp) ∗ Pipeline.prefHeld (pcfgs (F := F) 0).pre d (fun k => k.elim0) (tcAdm (F := F) 0).1 ∗ Pipeline.scopedRest spec1 d) : sProp 𝕄)
      ⊢ Pipeline.scopedRest spec1 d := by
    iintro ⟨-, -, HR⟩; iexact HR
  have hout : (iprop(Pipeline.scopedRest spec1 d
        ∗ Pipeline.cellsSems0 cfgs 0 d ∗ Dat.staging cfg1 d
        ∗ Pipeline.idleSems0 cfgs cellOf_inj 0 (Pipeline.OwnSemFacts.none _) d) : sProp 𝕄)
      ⊢ iprop(iprop(emp) ∗ scopedSems0 (d.tc : Thread nD τ) ∗ scopedBufs (d.tc : Thread nD τ)) := by
    rw [hss, hsb]
    iintro ⟨HΦ, Hcells, Hst, Hidle⟩
    isplitr; · iempintro
    isplitl [Hcells Hidle]
    · isplitl [Hcells]
      · isplitl [Hcells]; · iexact Hcells
        rw [Pipeline.ownSems0_none nD τ sig (Elt F) (HIx 1) ℕ UU ℕ d]; iempintro
      · iexact Hidle
    isplitl [Hst]; · iexact Hst
    iexact HΦ
  have hpref : (levAts (K (F := F)).L lv : sProp 𝕄)
      ⊢ Pipeline.prefHeld (pcfgs (F := F) 0).pre d (fun k => k.elim0) (tcAdm (F := F) 0).1 := by
    unfold Pipeline.prefHeld
    exact BI.bigSep_intro_persistent fun k _ => Fin.elim0 k
  unfold tcPre
  iintro ⟨⟨#Hlev, ⟨%W, %hW, HL⟩, Hb, Hx, Ht, Hy, Hg, Htok⟩, HΦ⟩
  ihave Hb' := hbd $$ Hb
  icases Hb' with ⟨Hsc, Hss, Hidl⟩
  ihave Hss' := (Entails.of_eq hss) $$ Hss
  icases Hss' with ⟨⟨Hcells, Hos⟩, Hidle⟩
  iapply (fupd_wp frame (wpE (D (F := F)) 𝒱 (T d) none) Set.univ _ _)
  imod (Pipeline.cellsInit_alloc cfgs (tcDats' x t1 y O b) ER cellOf_inj 0 d) $$ [Hcells Hg] with ⟨%κ, -, Hinit⟩
  · isplitl [Hcells] <;> iassumption
  imodintro
  iapply (Pipeline.wp_customCall_entry_frame (pcfgs (F := F)) tcAdm (tcDats x t1 y O b) none ER κ cellOf_inj 0 (defs₀ (F := F)) 𝒱₀
      (fun k => k.elim0) d Set.univ (fun _ _ => Set.mem_univ _)
      (tcBodyObligation d x t1 y O b).loose block_pos1 none (fun u h => nomatch h)
      (X := iprop(emp)) (Y := iprop(emp)) (R := Pipeline.scopedRest spec1 d)
      (I := Pipeline.idleSems0 cfgs cellOf_inj 0 (Pipeline.OwnSemFacts.none _) d)
      (Entails.of_eq hsb) hin hout (k := .ret) (Q := Φ)) $$ [Hx Ht Hy HL Hinit Htok Hidle Hsc]
  · isplitl [Hx Ht Hy HL Hinit Htok]
    · iapply (hpre κ)
      unfold Pipeline.EntryPre Pipeline.PerCore.EntryPre
      isplitl [Hx Ht Hy]
      · rw [harrs]
        isplitl [Ht]; · iexact Ht
        isplitl [Hx]; · iexact Hx
        iexact Hy
      isplitl [HL]
      · iexists W; isplitr
        · ipureintro; exact fun p hp => Or.inl (hW p (Finset.mem_coe.mp hp))
        iexact HL
      isplitr
      · iapply (Pipeline.cellsWaits_intro cfgs (tcDats' x t1 y O b) none 0 d (R := levAts (K (F := F)).L lv)
          (fun w s t => (K (F := F)).mayWait_none _ hO lv hlv))
        iexact Hlev
      isplitl [Hinit]; · iexact Hinit
      iexact Htok
    isplitr
    · iapply hpref
      iexact Hlev
    isplitr; · iempintro
    isplitl [Hidle]; · iexact Hidle
    iexact Hsc
  iintro ⟨Hpost, -, Hss2, Hsc2⟩
  iapply (le_wp_ret _ _ _ PUnit.unit Φ)
  iapply HΦ
  ihave Hpost' := hpost $$ Hpost
  unfold tcPost Pipeline.EntryPost Pipeline.PerCore.EntryPost
  icases Hpost' with ⟨Ha, ⟨%W', %hW', HL'⟩⟩
  isplitl [HL']
  · iexists W'; isplitr
    · ipureintro
      intro p hp
      rcases hW' (Finset.mem_coe.mpr hp) with h | ⟨w, s, rfl⟩
      · exact h
      · exact Nat.zero_le _
    iexact HL'
  isplitl [Hsc2 Hss2 Hidl]
  · iapply hbd'
    isplitl [Hsc2]; · iexact Hsc2
    isplitl [Hss2]; · iexact Hss2
    iexact Hidl
  ihave Ha' := (Entails.of_eq (harrs _)) $$ Ha
  icases Ha' with ⟨Ht, Hx, Hy⟩
  ihave Ht2 := (Entails.of_eq (congrArg (fun v => (((T d : Thread nD τ).loc main_v1) ↦{fullShare} v : sProp 𝕄)) (tcArr0 d x t1 y O b))) $$ Ht
  ihave Hx2 := (Entails.of_eq (congrArg (fun v => (((T d : Thread nD τ).loc main_arg0) ↦{fullShare} v : sProp 𝕄)) (tcArr1 d x t1 y O b))) $$ Hx
  ihave Hy2 := (Entails.of_eq (congrArg (fun v => (((T d : Thread nD τ).loc main_v2) ↦{fullShare} v : sProp 𝕄)) (tcArr2 d x t1 y O b))) $$ Hy
  isplitl [Hx2]; · iexact Hx2
  isplitl [Ht2]; · iexact Ht2
  iexact Hy2

/-- The call's step of @main is the pipeline library's region entry, lifted. -/
theorem tcProg_eq :
    (Prog.lift (.customCall (SparseCore.inner (Pipeline.entry 0)) ()) :
        Prog (TpuEff nD τ sig (Elt F) (SparseCore.Sig (ΛP (F := F)) 1) .tc) PUnit)
      = SparseCore.liftProg (.op (.customCall (Pipeline.entry 0) ()) .ret) := rfl

set_option maxHeartbeats 400000 in
/-- THE REGION, in continuation form: from what the TensorCore holds when @main reaches the call, the call's step runs
    to any `Φ` that follows from what it leaves. -/
theorem tcRegion_k (d : Dev nD) (lv : GSem nD τ sig → HIx 1 → ℕ) (hlv : (K (F := F)).Refines lv)
    (O : CellTallies nD τ sig (HIx 1)) (hO : ∀ g, O g none = 0) (b : ℕ)
    (x : XC F) (t1 : TC F) (y : OC F) (Φ : PUnit → sProp 𝕄) :
    (iprop(tcPre d lv O b x t1 y ∗ (tcPost d O b x t1 -∗ Φ ⟨⟩)) : sProp 𝕄)
      ⊢ wp frame (wpE ((K (F := F)).defs (D (F := F))) 𝒱 (T d) none) Set.univ
          (Prog.lift (.customCall (SparseCore.inner (Pipeline.entry 0)) ())) Φ := by
  rw [tcProg_eq]
  exact (tcRegion_inner d lv hlv O hO b x t1 y Φ).trans
    ((K (F := F)).wp_liftProg (D (F := F)) 𝒱 (T d) Set.univ none (.op (.customCall (Pipeline.entry 0) ()) .ret) Φ)

/-- THE REGION, as a triple. -/
theorem tcRegion (d : Dev nD) (lv : GSem nD τ sig → HIx 1 → ℕ) (hlv : (K (F := F)).Refines lv)
    (O : CellTallies nD τ sig (HIx 1)) (hO : ∀ g, O g none = 0) (b : ℕ)
    (x : XC F) (t1 : TC F) (y : OC F) :
    (tcPre d lv O b x t1 y : sProp 𝕄)
      ⊢ wp frame (wpE ((K (F := F)).defs (D (F := F))) 𝒱 (T d) none) Set.univ
          (Prog.lift (.customCall (SparseCore.inner (Pipeline.entry 0)) ())) fun _ => tcPost d O b x t1 := by
  have h : (tcPre d lv O b x t1 y : sProp 𝕄) ⊢ iprop(tcPre d lv O b x t1 y ∗ (tcPost d O b x t1 -∗ tcPost d O b x t1)) := by
    iintro H
    isplitl [H]; · iexact H
    iintro H; iexact H
  exact h.trans (tcRegion_k d lv hlv O hO b x t1 y fun _ => tcPost d O b x t1)

end Cert.Proof.Kernel

end
-- ==== Proof.Bits.TcRegionK.lean ====
/-
  The TensorCore call's region, in the form @main's proof applies it.
-/
import proofs.«217662_g32298154065999_cont_8to1_b_8_33_alg».proof.Proof.Bits.Launch
import proofs.«217662_g32298154065999_cont_8to1_b_8_33_alg».proof.Proof.Bits.TcRegion

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem tcRegionK : TcRegionK (F := F) := by
  intro d lv hlv O hO b x t1 y Φ
  iintro ⟨Hl, Ho, Hb, Hx, H1, H2, Hg, Ht, Hk⟩
  iapply (tcRegion_k d lv hlv O hO b x t1 y Φ)
  isplitl [Hl Ho Hb Hx H1 H2 Hg Ht]
  · unfold tcPre
    isplitl [Hl]; · iexact Hl
    isplitl [Ho]; · iexact Ho
    isplitl [Hb]; · iexact Hb
    isplitl [Hx]; · iexact Hx
    isplitl [H1]; · iexact H1
    isplitl [H2]; · iexact H2
    isplitl [Hg]; · iexact Hg
    iexact Ht
  · unfold tcPost
    iintro Hp
    iapply Hk
    iexact Hp

end Cert.Proof.Kernel

end
-- ==== Proof.ScTileDefs.lean ====
/-
  A tile's task as the launch theorem asks for it: the place of the tile on the grid, the worker number it computes,
  the program it runs with the operands the kernel is called with, the statement of its body's triple, and the
  launch theorem's obligation from that triple.
-/
import proofs.«217662_g32298154065999_cont_8to1_b_8_33_alg».proof.Proof.Pay

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The operands, as the kernel is called with them -/

abbrev xV : Memref sig .scVector .hbm S4096x32000 .f32 := Memref.whole main_arg0_scv
abbrev tV : Memref sig .scVector .hbm S4096 .i32 := Memref.whole main_arg1_scv
abbrev oV : Memref sig .scVector .hbm S512 .f32 := Memref.whole main_v0_scv
/-- A tile's scratch: its 128 entries of t, the sixteen 8×128 blocks of x, the accumulator. -/
abbrev sT : Memref sig .scVector .vmem S128 .i32 := Memref.whole cc0_scratch0
abbrev sX : Memref sig .scVector .vmem S16x8x128 .f32 := Memref.whole cc0_scratch1
abbrev sA : Memref sig .scVector .vmem S16 .f32 := Memref.whole cc0_scratch2

/-! ## The place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number the tile at grid point `L` computes: twice its subcore plus its core. -/
def widL (L : grid0.Coords) : Fin 32 :=
  ⟨2 * (L 1).val + (L 0).val, by have h0 : (L 0).val < 2 := (L 0).isLt; have h1 : (L 1).val < 16 := (L 1).isLt; omega⟩

def coordsV (c : Fin (grid0.bound 0)) (s : Fin (grid0.bound 1)) : grid0.Coords :=
  fun | 0 => c | 1 => s | ⟨_ + 2, h⟩ => absurd h (Nat.not_lt.2 (Nat.le_add_left _ _))

/-- The tile's program at grid point `L`. -/
abbrev tileProg [FloatOps F] (L : grid0.Coords) :
    Prog (TpuEff nD τ sig (Elt F) Λ₀ (.scVector ((L 0).castLE hcore0) ((L 1).castLE hsub0))) PUnit :=
  cc0__sc_gather L xV (Memref.isWhole_whole _) tV (Memref.isWhole_whole _) oV (Memref.isWhole_whole _)
    sT (Memref.isWhole_whole _) sX (Memref.isWhole_whole _) sA (Memref.isWhole_whole _) cc0_scratch3 cc0_scoped0 cc0_scoped1

theorem defs₀_vector [FloatOps F] (c : Fin τ.nSC) (s : Fin τ.nSub) :
    defs₀ (F := F) (.scVector c s) 0 ()
      = SparseCore.onTile hcore0 hsub0 (fun c s => tileProg (F := F) (coordsV c s)) ⟨⟩ c s := rfl

/-! ## The body's triple, as a statement -/

/-- The triple of the tile's body at grid point `L` of device `d`: from the worker's pieces at the launch contents,
    the tile's own buffers and semaphores, to the pieces back with the result's words at the worker's value. -/
def TileBodyAt [FloatOps F] (m : (ℓ : Loc nD τ sig) → Buf (Elt F) ℓ) (d : Dev nD) (L : grid0.Coords)
    (O : CellTallies nD τ sig (HIx 1)) (W : Waits sig (HIx 1)) : Prop :=
  iprop(levAts (K (F := F)).L (K (F := F)).lev ∗ goRes m d (widL L) ∗ scopedBufs (V d (cV L) (jV L)) ∗ scopedSems0 (V d (cV L) (jV L))
      ∗ owes (V d (cV L) (jV L)) O W)
    ⊢ wp frame (wpE (defs₀ (F := F)) 𝒱₀ (V d (cV L) (jV L)) none) Set.univ (tileProg (F := F) L)
        fun _ => iprop(tdRes m d (widL L) ∗ scopedBufs (V d (cV L) (jV L)) ∗ scopedSems0 (V d (cV L) (jV L))
          ∗ ∃ W', ⌜∀ p ∈ W', p ∈ W ∨ p.2 = none⌝ ∗ owes (V d (cV L) (jV L)) O W')

/-! ## The launch theorem's obligation from the triple -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_pre {A X G B C E : sProp 𝕄} : iprop(A ∗ X ∗ G ∗ B ∗ C ∗ E) ⊢ iprop(A ∗ G ∗ B ∗ C ∗ E) := by
  iintro ⟨HA, -, HG, HB, HC, HE⟩
  isplitl [HA]; · iexact HA
  isplitl [HG]; · iexact HG
  isplitl [HB]; · iexact HB
  isplitl [HC]; · iexact HC
  iexact HE

theorem widL_coordsV (c : Fin (grid0.bound 0)) (s : Fin (grid0.bound 1)) :
    widL (coordsV c s) = widOf (Fin.cast bound_zero c) (Fin.cast bound_one s) := rfl

set_option maxRecDepth 65536 in
theorem tileObl_of [FloatOps F] (m : (ℓ : Loc nD τ sig) → Buf (Elt F) ℓ)
    (hbody : ∀ d L O W, (∀ g, O g none = 0) → TileBodyAt (F := F) m d L O W) :
    (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := hbody d (coordsV ⟨_, hc.1⟩ ⟨_, hc.2⟩) O W hO
  unfold TileBodyAt at hb
  have hw : widL (coordsV ⟨_, hc.1⟩ ⟨_, hc.2⟩) = widOf (Fin.cast nCore_zero c) (Fin.cast nSub_zero i) := Fin.ext rfl
  rw [hw] at hb
  have hb' := hb.trans (wp_mono frame _ _ fun _ => obl_post (q := (0 : Fin 1)))
  exact obl_pre.trans hb'

end Cert.Proof.KernelIdeal

end
-- ==== Proof.ScTileMath.lean ====
/-
  The arithmetic of a tile's copies: the row of a block is the tile's base row plus two constants, the column of
  a block is the 128-aligned part of a word of t; with t at most 31999 every 8 × 128 block lies inside the
  4096 × 32000 array (32000 = 250 · 128), and the side conditions the body assumes of each word follow.
-/
import proofs.«217662_g32298154065999_cont_8to1_b_8_33_alg».proof.Proof.ScTileDefs

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Words -/

theorem sc_and_hi (x : Nat) (hx : x < 2^32) : x &&& 4294967168 = 128 * (x / 128) := by
  have h1 : (x &&& 4294967168) % 2^7 = 0 := by
    rw [Nat.and_mod_two_pow]; norm_num
  have h2 : (x &&& 4294967168) / 2^7 = x / 2^7 := by
    rw [Nat.and_div_two_pow]
    rw [show (4294967168 : Nat) / 2^7 = 2^25 - 1 by norm_num, Nat.and_two_pow_sub_one_eq_mod, Nat.mod_eq_of_lt]
    omega
  omega

theorem sc_and_lo (x : Nat) : x &&& 127 = x % 128 := by
  rw [show (127 : Nat) = 2^7 - 1 by norm_num, Nat.and_two_pow_sub_one_eq_mod]

theorem sc_and_7 (x : Nat) : x &&& 7 = x % 8 := by
  rw [show (7 : Nat) = 2^3 - 1 by norm_num, Nat.and_two_pow_sub_one_eq_mod]

/-- The 128-aligned part of a word. -/
theorem sc_andi_hi (v : BitVec 32) : (Scalar.andi v 4294967168#32).toNat = 128 * (v.toNat / 128) := by
  show (v &&& 4294967168#32).toNat = _
  rw [BitVec.toNat_and]; exact sc_and_hi _ v.isLt

/-- The lane of a word inside its block of 128. -/
theorem sc_andi_lo (v : BitVec 32) : (IntOp.andi v 127#32).toNat = v.toNat % 128 := by
  show (v &&& 127#32).toNat = _
  rw [BitVec.toNat_and]; exact sc_and_lo _

theorem sc_andi_7 (v : BitVec 32) : (IntOp.andi v 7#32).toNat = v.toNat % 8 := by
  show (v &&& 7#32).toNat = _
  rw [BitVec.toNat_and]; exact sc_and_7 _

theorem sc_dvd (v : BitVec 32) : 128 ∣ (Scalar.andi v 4294967168#32).toNat := ⟨_, sc_andi_hi v⟩

/-! ## The base row and the blocks' offsets -/

/-- The tile's base row, as the kernel computes it from its grid point: 128 times the worker number. -/
def scBase (L : grid0.Coords) : BitVec 32 :=
  Scalar.muli (Scalar.addi (Scalar.muli (BitVec.ofNat 32 (L 1).val) 2#32) (BitVec.ofNat 32 (L 0).val)) 128#32

theorem scBase_toNat (L : grid0.Coords) : (scBase L).toNat = 128 * (widL L).val := by
  have h0 : (L 0).val < 2 := (L 0).isLt
  have h1 : (L 1).val < 16 := (L 1).isLt
  show ((BitVec.ofNat 32 (L 1).val * 2#32 + BitVec.ofNat 32 (L 0).val) * 128#32).toNat = 128 * (2 * (L 1).val + (L 0).val)
  simp only [BitVec.toNat_mul, BitVec.toNat_add, BitVec.toNat_ofNat]
  omega

/-- The offsets of a block copy: the base row plus two constants, the word's 128-aligned part. -/
def scOff (L : grid0.Coords) (c1 c2 v : BitVec 32) : Fin 2 → Nat :=
  ![(Scalar.addi (Scalar.addi (scBase L) c1) c2).toNat, (Scalar.andi v 4294967168#32).toNat]

theorem scOff_eq (L : grid0.Coords) (c1 c2 v : BitVec 32) (h : c1.toNat + c2.toNat ≤ 120) :
    scOff L c1 c2 v = ![128 * (widL L).val + (c1.toNat + c2.toNat), 128 * (v.toNat / 128)] := by
  have hw := (widL L).isLt
  unfold scOff
  congr 1
  · show ((scBase L + c1 + c2).toNat) = _
    simp only [BitVec.toNat_add, scBase_toNat]
    omega
  · rw [sc_andi_hi]

theorem scOff_inb (L : grid0.Coords) (c1 c2 v : BitVec 32) (h : c1.toNat + c2.toNat ≤ 120) (hv : v.toNat ≤ 31999) :
    ∀ a, scOff L c1 c2 v a + S8x128.size a ≤ S4096x32000.size a := by
  have hw := (widL L).isLt
  rw [scOff_eq L c1 c2 v h]
  intro a
  match a with
  | 0 => show 128 * (widL L).val + (c1.toNat + c2.toNat) + 8 ≤ 4096; omega
  | 1 => show 128 * (v.toNat / 128) + 128 ≤ 32000; omega

/-- The side condition the body assumes of a word of t before it copies the word's block: the column offset a
    multiple of 128, the block (as issued, and as waited for) inside the array. It holds of every word at most 31999.
    One statement for the 128 copies: the printed offsets are `scOff` at the copy's two constants, by unfolding. -/
macro "sc_chk" hv:term : tactic =>
  `(tactic| first
    | exact ⟨sc_dvd _, scOff_inb _ _ _ _ (by decide) $hv, scOff_inb _ _ _ _ (by decide) $hv⟩
    | exact ⟨sc_dvd _, scOff_inb _ _ _ _ (by decide) $hv⟩)

example (L : grid0.Coords) (v : BitVec 32) (hv : v.toNat ≤ 31999) : k0_chk1 L v := by sc_chk hv
example (L : grid0.Coords) (v : BitVec 32) (hv : v.toNat ≤ 31999) : k0_chk16 L v := by sc_chk hv
example (L : grid0.Coords) (v : BitVec 32) (hv : v.toNat ≤ 31999) : k0_chk60 L v := by sc_chk hv
example (L : grid0.Coords) (v : BitVec 32) (hv : v.toNat ≤ 31999) : k0_chk135 L v := by sc_chk hv

end Cert.Proof.KernelIdeal

end
-- ==== Proof.ScTileRes.lean ====
/-
  A tile's resources as its body slices them: its own semaphores and scratch buffers, its entries of t and words
  of the result, the 8 × 128 blocks of x its copies read and the sixteen tiles of the scratch they land in, what
  a copy delivers, and what the index scratch holds once the entries of t have landed.
-/
import proofs.«217662_g32298154065999_cont_8to1_b_8_33_alg».proof.Proof.ScTileMath

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile's own semaphores and buffers -/

section Tile

variable (d : Dev nD) (L : grid0.Coords)

/-- The tile's thread. -/
abbrev tileThr : Thread nD τ := V d (cV L) (jV L)

/-- The kernel's one semaphore for the block copies, and the two scoped regions' own. -/
abbrev scCellK : GSem nD τ sig := (V d (cV L) (jV L), .dma cc0_scratch3.sem)
abbrev scCell0 : GSem nD τ sig := (V d (cV L) (jV L), .dma cc0_scoped0.sem)
abbrev scCell1 : GSem nD τ sig := (V d (cV L) (jV L), .dma cc0_scoped1.sem)

theorem sc_ownSems0_V :
    (ownSems0 (V d (cV L) (jV L)) : sProp 𝕄)
      = iprop(semVal (scCellK d L) 0 ∗ semVal (scCell0 d L) 0 ∗ semVal (scCell1 d L) 0
          ∗ bigSep ((((ownCells (V d (cV L) (jV L))).erase (scCellK d L)).erase (scCell0 d L)).erase (scCell1 d L))
              fun g => semVal g 0) := by
  unfold SparseCore.Cfg.ownSems0
  rw [SparseCore.bigSep_erase' ((mem_ownCells (g := scCellK d L)).mpr ⟨rfl, by
      show (SemLoc.dma cc0_scratch3.sem : SemLoc sig).isScoped .scVector = true; decide⟩),
    SparseCore.bigSep_erase' (Finset.mem_erase.mpr ⟨by simp [scCellK, scCell0]; decide, (mem_ownCells (g := scCell0 d L)).mpr ⟨rfl, by
      show (SemLoc.dma cc0_scoped0.sem : SemLoc sig).isScoped .scVector = true; decide⟩⟩),
    SparseCore.bigSep_erase' (Finset.mem_erase.mpr ⟨by simp [scCell0, scCell1]; decide, Finset.mem_erase.mpr ⟨by simp [scCellK, scCell1]; decide,
      (mem_ownCells (g := scCell1 d L)).mpr ⟨rfl, by show (SemLoc.dma cc0_scoped1.sem : SemLoc sig).isScoped .scVector = true; decide⟩⟩⟩)]

/-- The three scratch buffers are among the tile's own: they are them, at some contents, and the rest. -/
theorem sc_ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The tile's entries of t and words of the result, as the body slices them -/

abbrev tSliceR : Rect S4096 := Rect.unit (s := S4096) (k0_off1 L) S128.size (k0_off1_inb L)
abbrev oSliceR : Rect S512 := Rect.unit (s := S512) (k0_off250 L) S16.size (k0_off250_inb L)
abbrev tSlice : Memref sig .scVector .hbm S128 .i32 := (tV : Memref sig .scVector .hbm S4096 .i32).slice (tSliceR L) (fun _ => rfl)
abbrev oSlice : Memref sig .scVector .hbm S16 .f32 := (oV : Memref sig .scVector .hbm S512 .f32).slice (oSliceR L) (fun _ => rfl)

theorem tSliceR_eq : tSliceR L = Rect.part (s := S4096) (a₀ := 0) hdivT (widL L) := by
  unfold tSliceR Rect.part Rect.block
  congr 1 <;> funext a
  · rw [k0_off1_eq]
    match a with
    | 0 => simp [Shape.partIx, Shape.partSize, widL]; omega
  · match a with
    | 0 => simp [Shape.partSize]
theorem oSliceR_eq : oSliceR L = Rect.part (s := S512) (a₀ := 0) hdivO (widL L) := by
  unfold oSliceR Rect.part Rect.block
  congr 1 <;> funext a
  · rw [k0_off250_eq]
    match a with
    | 0 => simp [Shape.partIx, Shape.partSize, widL]; omega
  · match a with
    | 0 => simp [Shape.partSize]

theorem set_tSlice : (tSlice L).view.set = tPart (widL L) := by
  show ((View.whole (main_arg1_scv : Ref sig .scVector)).slice (tSliceR L)).set = _
  rw [View.set_slice, tSliceR_eq]; exact Finset.map_refl
theorem set_oSlice : (oSlice L).view.set = oPart (widL L) := by
  show ((View.whole (main_v0_scv : Ref sig .scVector)).slice (oSliceR L)).set = _
  rw [View.set_slice, oSliceR_eq]; exact Finset.map_refl

theorem pts_tSlice (f : Buf (Elt F) (tLoc d)) :
    ((tSlice L).view.loc (V d (cV L) (jV L)) ↦[(tSlice L).view.set]{fullShare} f : sProp 𝕄) = tLoc d ↦[tPart (widL L)]{fullShare} f := by
  rw [set_tSlice]
theorem pts_oSlice (f : Buf (Elt F) (oLoc d)) :
    ((oSlice L).view.loc (V d (cV L) (jV L)) ↦[(oSlice L).view.set]{fullShare} f : sProp 𝕄) = oLoc d ↦[oPart (widL L)]{fullShare} f := by
  rw [set_oSlice]

theorem pts_sT (f : Buf (Elt F) ((V d (cV L) (jV L)).loc cc0_scratch0)) :
    ((sT : Memref sig .scVector .vmem S128 .i32).view.loc (V d (cV L) (jV L)) ↦{fullShare} f : sProp 𝕄) = (V d (cV L) (jV L)).loc cc0_scratch0 ↦{fullShare} f := rfl
theorem pts_sX (f : Buf (Elt F) ((V d (cV L) (jV L)).loc cc0_scratch1)) :
    ((sX : Memref sig .scVector .vmem S16x8x128 .f32).view.loc (V d (cV L) (jV L)) ↦{fullShare} f : sProp 𝕄) = (V d (cV L) (jV L)).loc cc0_scratch1 ↦{fullShare} f := rfl
theorem pts_sA (f : Buf (Elt F) ((V d (cV L) (jV L)).loc cc0_scratch2)) :
    ((sA : Memref sig .scVector .vmem S16 .f32).view.loc (V d (cV L) (jV L)) ↦{fullShare} f : sProp 𝕄) = (V d (cV L) (jV L)).loc cc0_scratch2 ↦{fullShare} f := rfl

end Tile

/-! ## The blocks of x and the tiles of the scratch -/

abbrev scBlkR (off : Fin 2 → Nat) (inb : ∀ a, off a + S8x128.size a ≤ S4096x32000.size a) : Rect S4096x32000 :=
  Rect.unit (s := S4096x32000) off S8x128.size inb
/-- The 8 × 128 block of x at `off`, as the body slices it. -/
abbrev scBlkM (off : Fin 2 → Nat) (inb : ∀ a, off a + S8x128.size a ≤ S4096x32000.size a) : Memref sig .scVector .hbm S8x128 .f32 :=
  (xV : Memref sig .scVector .hbm S4096x32000 .f32).slice (scBlkR off inb) (fun _ => rfl)

theorem sc_inb_tile (j : Fin 16) : ∀ a, (![j.val, 0, 0] : Fin 3 → Nat) a + S1x8x128.size a ≤ S16x8x128.size a := by
  have := j.isLt
  intro a
  match a with
  | 0 => show j.val + 1 ≤ 16; omega
  | 1 => show 0 + 8 ≤ 8; omega
  | 2 => show 0 + 128 ≤ 128; omega
abbrev scTileR (j : Fin 16) : Rect S16x8x128 := Rect.unit (s := S16x8x128) ![j.val, 0, 0] S1x8x128.size (sc_inb_tile j)
/-- Tile `j` of the scratch, an 8 × 128 block, as the body slices and squeezes it. -/
abbrev scTileM (j : Fin 16) : Memref sig .scVector .vmem S8x128 .f32 :=
  ((sX : Memref sig .scVector .vmem S16x8x128 .f32).slice (scTileR j) (fun _ => rfl)).squeeze S8x128 squeezes_S1x8x128_S8x128

section Deliv
variable (d : Dev nD) (L : grid0.Coords)

/-- What the copy of the block at `off` into tile `j` delivers: the tile holding the block, the block's share back. -/
def scDelivAt (mx : Buf (Elt F) (xLoc d)) (j : Fin 16) (q : PosShare TreeShare)
    (fd : Buf (Elt F) ((scTileM j).view.loc (V d (cV L) (jV L))))
    (off : Fin 2 → Nat) (inb : ∀ a, off a + S8x128.size a ≤ S4096x32000.size a) : sProp 𝕄 :=
  iprop(((scTileM j).view.loc (V d (cV L) (jV L)) ↦[(scTileM j).view.set]{fullShare}
          ((scTileM j).view.write (Elt F) fd (ReadAs.same.apply ((scBlkM off inb).view.read (Elt F) mx)) Finset.univ))
     ∗ ((scBlkM off inb).view.loc (V d (cV L) (jV L)) ↦[(scBlkM off inb).view.set]{q} mx))

theorem scDelivAt_congr (mx : Buf (Elt F) (xLoc d)) (j : Fin 16) (q : PosShare TreeShare)
    (fd : Buf (Elt F) ((scTileM j).view.loc (V d (cV L) (jV L))))
    {off off' : Fin 2 → Nat} (h : off = off') (inb : ∀ a, off a + S8x128.size a ≤ S4096x32000.size a)
    (inb' : ∀ a, off' a + S8x128.size a ≤ S4096x32000.size a) :
    scDelivAt (F := F) d L mx j q fd off inb = scDelivAt (F := F) d L mx j q fd off' inb' := by
  subst h; rfl

instance scDelivAt_storable (mx : Buf (Elt F) (xLoc d)) (j : Fin 16) (q : PosShare TreeShare)
    (fd : Buf (Elt F) ((scTileM j).view.loc (V d (cV L) (jV L))))
    (off : Fin 2 → Nat) (inb : ∀ a, off a + S8x128.size a ≤ S4096x32000.size a) :
    BI.Storable (upEmb : UEmb _ 𝕄) (scDelivAt (F := F) d L mx j q fd off inb) := by unfold scDelivAt; infer_instance

end Deliv

section Words
variable (d : Dev nD) (L : grid0.Coords)

/-- What the tile's index scratch holds once its entries of t have landed: entry `i` is t at `128 w + i`. -/
def scTgtF (mt : Buf (Elt F) (tLoc d)) : Buf (Elt F) ((V d (cV L) (jV L)).loc cc0_scratch0) :=
  fun i => mt (ix1 ⟨128 * (widL L).val + (i 0).val, by have := (widL L).isLt; have h : (i 0).val < 128 := (i 0).isLt; omega⟩)

theorem sc_tgt_eq (f0 : Buf (Elt F) ((V d (cV L) (jV L)).loc cc0_scratch0)) (mt : Buf (Elt F) (tLoc d)) :
    View.write (Elt F) (sT : Memref sig .scVector .vmem S128 .i32).view f0 (ReadAs.same.apply ((tSlice L).view.read (Elt F) mt)) Finset.univ
      = scTgtF (F := F) d L mt := by
  rw [View.write_whole_univ]
  funext i
  show (tSlice L).view.read (Elt F) mt i = _
  rw [View.read_apply]
  refine (cast_eq _ _).trans ?_
  show mt ((tSliceR L).emb i) = mt (ix1 ⟨128 * (widL L).val + (i 0).val, _⟩)
  congr 1
  funext a
  have ha : a = (0 : Fin 1) := Subsingleton.elim (α := Fin 1) a 0
  subst ha
  apply Fin.ext
  show k0_off1 L 0 + 1 * (i 0).val = 128 * (widL L).val + (i 0).val
  rw [k0_off1_eq]
  show 256 * (L 1).val + 128 * (L 0).val + 1 * (i 0).val = 128 * (2 * (L 1).val + (L 0).val) + (i 0).val
  omega

/-- A chunk's sixteen entries, loaded from the scratch. -/
theorem sc_load_eq (mt : Buf (Elt F) (tLoc d)) (k : Fin 8) (inb : ∀ a, (![16 * k.val] : Fin 1 → Nat) a + S16.size a ≤ S128.size a) :
    View.readAt (Elt F) (sT : Memref sig .scVector .vmem S128 .i32).view (Rect.unit (s := S128) ![16 * k.val] S16.size inb).toLoadRect (scTgtF (F := F) d L mt)
      = tvec mt (widL L) k := by
  funext l
  simp only [View.readAt_apply, Memref.view_whole, View.read_whole]
  unfold scTgtF tvec rowOf
  congr 1
  funext a
  have ha : a = (0 : Fin 1) := Subsingleton.elim (α := Fin 1) a 0
  subst ha
  apply Fin.ext
  show 128 * (widL L).val + (16 * k.val + 1 * (l 0).val) = 128 * (widL L).val + 16 * k.val + (l 0).val
  omega

/-- Lane `j` of a chunk's entries, as the body extracts it, is t at the lane's row. -/
theorem sc_word_eq (mt : Buf (Elt F) (tLoc d)) (k : Fin 8) (j : Fin 16) (h : S16.Slices ![j.val] S1) (h' : ∀ a, (![0] : Fin 1 → Nat) a < S1.size a) :
    extractAt ![0] (extractStridedSlice S1 ![j.val] (tvec mt (widL L) k) h) h' = mt (ix1 (rowOf (widL L) k j)) := rfl

end Words

end Cert.Proof.KernelIdeal

end
-- ==== Proof.ScTileChunk.lean ====
/-
  One chunk of a tile's work: the sixteen words of t it extracts, the blocks of x they name, the read tokens and
  the tiles its sixteen copies take, the batch they form on the kernel's semaphore, and the one rule by which
  each copy is issued.
-/
import proofs.«217662_g32298154065999_cont_8to1_b_8_33_alg».proof.Proof.ScTileRes

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Chunk
variable [FloatOps F] (m : (ℓ : Loc nD τ sig) → Buf (Elt F) ℓ) (d : Dev nD) (L : grid0.Coords)

/-- The word of t for lane `j` of chunk `k`. -/
def scTw (k : Fin 8) (j : Fin 16) : BitVec 32 := m (tLoc d) (ix1 (rowOf (widL L) k j))
theorem scTw_le (hrng : ∀ i, (m (tLoc d) i).toNat ≤ 31999) (k : Fin 8) (j : Fin 16) : (scTw m d L k j).toNat ≤ 31999 := hrng _

/-- The two constants of a block's row: the chunk's sixteen rows, the lane's half of them. -/
def scC1 (k : Fin 8) : BitVec 32 := BitVec.ofNat 32 (16 * k.val)
def scC2 (j : Fin 16) : BitVec 32 := BitVec.ofNat 32 (8 * (j.val / 8))
theorem scC_le (k : Fin 8) (j : Fin 16) : (scC1 k).toNat + (scC2 j).toNat ≤ 120 := by
  have := k.isLt; have := j.isLt
  unfold scC1 scC2; simp only [BitVec.toNat_ofNat]; omega

/-- The block lane `j` of chunk `k` copies. -/
abbrev scBlkC (hrng : ∀ i, (m (tLoc d) i).toNat ≤ 31999) (k : Fin 8) (j : Fin 16) : Memref sig .scVector .hbm S8x128 .f32 :=
  scBlkM (scOff L (scC1 k) (scC2 j) (scTw m d L k j)) (scOff_inb L _ _ _ (scC_le k j) (scTw_le m d L hrng k j))
/-- Lane `j`'s read token of x, on its block. -/
abbrev scBlkTok (hrng : ∀ i, (m (tLoc d) i).toNat ≤ 31999) (k : Fin 8) (j : Fin 16) : sProp 𝕄 :=
  (scBlkC m d L hrng k j).view.loc (V d (cV L) (jV L)) ↦[(scBlkC m d L hrng k j).view.set]{Transfers.shareTok fullShare 16 j} m (xLoc d)
/-- Tile `j` of the scratch at the contents `f` of the whole scratch. -/
abbrev scTilePts (j : Fin 16) (f : Buf (Elt F) ((V d (cV L) (jV L)).loc cc0_scratch1)) : sProp 𝕄 :=
  (scTileM j).view.loc (V d (cV L) (jV L)) ↦[(scTileM j).view.set]{fullShare} f

/-- The deliveries of chunk `k`'s sixteen copies. -/
def scD (hrng : ∀ i, (m (tLoc d) i).toNat ≤ 31999) (k : Fin 8) (fd : Buf (Elt F) ((V d (cV L) (jV L)).loc cc0_scratch1)) (j : Fin 16) : sProp 𝕄 :=
  scDelivAt (F := F) d L (m (xLoc d)) j (Transfers.shareTok fullShare 16 j) fd
    (scOff L (scC1 k) (scC2 j) (scTw m d L k j)) (scOff_inb L _ _ _ (scC_le k j) (scTw_le m d L hrng k j))

instance scD_storable (hrng : ∀ i, (m (tLoc d) i).toNat ≤ 31999) (k : Fin 8) (fd : Buf (Elt F) ((V d (cV L) (jV L)).loc cc0_scratch1)) (j : Fin 16) :
    BI.Storable (upEmb : UEmb _ 𝕄) (scD (F := F) m d L hrng k fd j) := by unfold scD; infer_instance

/-- One block's credit. -/
abbrev scN : ℕ := (scTileM 0).view.amount (SemLoc.dma (sig := sig) cc0_scratch3.sem)

/-- Chunk `k`'s batch on the kernel's semaphore with `j` copies issued. -/
abbrev scBatch (hrng : ∀ i, (m (tLoc d) i).toNat ≤ 31999) (k : Fin 8) (fd : Buf (Elt F) ((V d (cV L) (jV L)).loc cc0_scratch1)) (j u : ℕ) : sProp 𝕄 :=
  Transfers.Batch (countersEmb (U := UU)) (V d (cV L) (jV L)) (.dma cc0_scratch3.sem) (none : HIx 1) scN (scD (F := F) m d L hrng k fd) j u

variable {m d L}

/-- One issue of a chunk's batch: the block's read token and the tile in, the batch one further. The block is the one
    the body slices at the word it extracted (`hoff`). -/
theorem sc_issue {α : Type} (hrng : ∀ i, (m (tLoc d) i).toNat ≤ 31999) (kk : Fin 8) (j : Fin 16)
    (fd : Buf (Elt F) ((V d (cV L) (jV L)).loc cc0_scratch1))
    (off : Fin 2 → Nat) (inb : ∀ a, off a + S8x128.size a ≤ S4096x32000.size a)
    (hoff : off = scOff L (scC1 kk) (scC2 j) (scTw m d L kk j))
    {h1 : (scBlkM off inb).view.WordExact}
    {h2 : (DmaTarget.here (scTileM j) : DmaTarget nD τ sig (Proc.scVector (cV L) (jV L)) .vmem S8x128 .f32).view.WordExact}
    {h3 : (DmaTarget.here (scTileM j) : DmaTarget nD τ sig (Proc.scVector (cV L) (jV L)) .vmem S8x128 .f32).Typed .hbm (SemLoc.dma cc0_scratch3.sem)}
    {kont : PUnit → Prog (TpuEff nD τ sig (Elt F) Λ₀ (Proc.scVector (cV L) (jV L))) α} {Q : α → sProp 𝕄} :
    iprop(scBlkTok (F := F) m d L hrng kk j ∗ scTilePts (F := F) d L j fd ∗ scBatch (F := F) m d L hrng kk fd j.val 0)
      ⊢ iprop((scBatch (F := F) m d L hrng kk fd (j.val + 1) 0
            -∗ wp frame (wpE (defs₀ (F := F)) 𝒱₀ (V d (cV L) (jV L)) none) Set.univ (kont ⟨⟩) Q)
          -∗ wp frame (wpE (defs₀ (F := F)) 𝒱₀ (V d (cV L) (jV L)) none) Set.univ
              (.op (.enqueueDma (scBlkM off inb) (.here (scTileM j)) (.dma cc0_scratch3.sem) h1 h2 h3) kont) Q) := by
  subst hoff
  exact Transfers.wp_dmaBatch (countersEmb (U := UU)) 𝒱₀ (V d (cV L) (jV L)) none
      (src := scBlkM _ _) (dst := scTileM j) (none : HIx 1) scN rfl subset_rfl
      (D := scD (F := F) m d L hrng kk fd) (j := j.val) (u := 0) j.isLt (Nat.zero_le _)
      (by unfold scD scDelivAt; exact .rfl)

/-- The word the body extracts for lane `j` of chunk `k`, from the scratch as the first copy left it. -/
theorem sc_v_eq (f0 : Buf (Elt F) ((V d (cV L) (jV L)).loc cc0_scratch0)) (k : Fin 8) (j : Fin 16)
    (inb : ∀ a, (![16 * k.val] : Fin 1 → Nat) a + S16.size a ≤ S128.size a) (h : S16.Slices ![j.val] S1) (h' : ∀ a, (![0] : Fin 1 → Nat) a < S1.size a) :
    extractAt ![0] (extractStridedSlice (s := S16) S1 ![j.val]
        (View.readAt (Elt F) (sT : Memref sig .scVector .vmem S128 .i32).view (Rect.unit (s := S128) ![16 * k.val] S16.size inb).toLoadRect
          (View.write (Elt F) (sT : Memref sig .scVector .vmem S128 .i32).view f0 (ReadAs.same.apply ((tSlice L).view.read (Elt F) (m (tLoc d)))) Finset.univ)) h) h'
      = scTw m d L k j := by
  rw [sc_tgt_eq, sc_load_eq]; rfl

/-- Every entry of the scratch, as the first copy left it, is an entry of t: at most 31999. -/
theorem sc_tgt_le (hrng : ∀ i, (m (tLoc d) i).toNat ≤ 31999) (f0 : Buf (Elt F) ((V d (cV L) (jV L)).loc cc0_scratch0)) (i : S128.Idx) :
    ((View.write (Elt F) (sT : Memref sig .scVector .vmem S128 .i32).view f0 (ReadAs.same.apply ((tSlice L).view.read (Elt F) (m (tLoc d)))) Finset.univ i : Elt F .i32) : BitVec 32).toNat ≤ 31999 := by
  rw [sc_tgt_eq]; exact hrng _

theorem sc_word_le (g : IVec S16 32) (hg : ∀ l, (g l).toNat ≤ 31999) (off : Fin 1 → Nat) (h : S16.Slices off S1) (h' : ∀ a, (![0] : Fin 1 → Nat) a < S1.size a) :
    (extractAt ![0] (extractStridedSlice S1 off g h) h').toNat ≤ 31999 := hg _

theorem sc_load_le (f : Buf (Elt F) ((V d (cV L) (jV L)).loc cc0_scratch0)) (hf : ∀ i, ((f i : Elt F .i32) : BitVec 32).toNat ≤ 31999)
    (r : LoadRect S128) (l : r.shape.Idx) :
    ((View.readAt (Elt F) (sT : Memref sig .scVector .vmem S128 .i32).view r f l : Elt F .i32) : BitVec 32).toNat ≤ 31999 := by
  simp only [View.readAt_apply, Memref.view_whole, View.read_whole]; exact hf _

/-- The word the body extracts is an entry of t: at most 31999. -/
theorem sc_v_le (hrng : ∀ i, (m (tLoc d) i).toNat ≤ 31999) (f0 : Buf (Elt F) ((V d (cV L) (jV L)).loc cc0_scratch0))
    (o : Nat) (inb : ∀ a, (![o] : Fin 1 → Nat) a + S16.size a ≤ S128.size a) (off : Fin 1 → Nat) (h : S16.Slices off S1)
    (h' : ∀ a, (![0] : Fin 1 → Nat) a < S1.size a) :
    (extractAt ![0] (extractStridedSlice (s := S16) S1 off
        (View.readAt (Elt F) (sT : Memref sig .scVector .vmem S128 .i32).view (Rect.unit (s := S128) ![o] S16.size inb).toLoadRect
          (View.write (Elt F) (sT : Memref sig .scVector .vmem S128 .i32).view f0 (ReadAs.same.apply ((tSlice L).view.read (Elt F) (m (tLoc d)))) Finset.univ)) h) h').toNat ≤ 31999 := by
  rw [sc_tgt_eq]
  unfold extractAt extractStridedSlice
  simp only [View.readAt_apply, Memref.view_whole, View.read_whole]
  exact hrng _

end Chunk

theorem sc_bigSep16 {M : Type} [URA M] (Φ : Fin 16 → sProp M) :
    bigSep Finset.univ Φ = iprop(Φ (0 : Fin 16) ∗ Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

end Cert.Proof.KernelIdeal

end
-- ==== Proof.ScTileLemmas.lean ====
/-
  Pure facts about one chunk of a tile's work.

  After chunk k's sixteen blocks have landed, slot j of the tile's 16 × 8 × 128 scratch holds the 8 × 128 block of
  x whose first row is 128 w + 16 k + 8 (j / 8) and whose first column is the 128-aligned part of t at row
  128 w + 16 k + j (`scG`). The gather reads slot l at row-in-block l mod 8 and lane (t mod 128) of row
  128 w + 16 k + l: that is x at that row and column t (`scG_gather`), since 8 (l / 8) + l mod 8 = l and
  128 (t / 128) + t mod 128 = t. Its three index vectors are below 16, 8 and 128 (`sc_gchk`). Each chunk's
  accumulate payload is `accStep`.
-/
import proofs.«217662_g32298154065999_cont_8to1_b_8_33_alg».proof.Proof.ScTileMath

noncomputable section

namespace Cert.Proof.KernelIdeal

open Cert.KernelIdeal Cert.KernelIdeal.Gen
open Idealize.ShloMosaic Idealize.ShloMosaic.ValueIdx

variable {F : FTy → Type} [FloatOps F]

/-- Slot `a`, row `b`, lane `c` of the scratch after chunk `k`'s blocks have landed. -/
def scGat (mx : S4096x32000.Idx → F .f32) (mt : S4096.Idx → BitVec 32) (w : Fin 32) (k : Fin 8) (a : Fin 16) (b : Fin 8) (c : Fin 128) : F .f32 :=
  mx (ix2 (⟨128 * w.val + 16 * k.val + 8 * (a.val / 8) + b.val, by omega⟩ : Fin 4096)
    (⟨(128 * ((mt (ix1 (rowOf w k a))).toNat / 128) + c.val) % 32000, Nat.mod_lt _ (by norm_num)⟩ : Fin 32000))

/-- The scratch after chunk `k`'s blocks have landed. -/
def scG (mx : S4096x32000.Idx → F .f32) (mt : S4096.Idx → BitVec 32) (w : Fin 32) (k : Fin 8) : S16x8x128.Idx → F .f32 :=
  fun i => scGat mx mt w k (i 0) (i 1) (i 2)

theorem sc_iota_toNat (h : S16.Iotas .scVector 32 [0]) (x : S16.Idx) : (iota .scVector S16 32 [0] h x).toNat = (x 0).val := by
  have hx : (x 0).val < 16 := (x 0).isLt
  show (BitVec.ofNat 32 (0 * 16 + (x 0).val)).toNat = _
  rw [BitVec.toNat_ofNat]; omega

/-- The gather's three index vectors name a slot, a row and a lane. -/
theorem sc_gchk (tv : IVec S16 32) (h : S16.Iotas .scVector 32 [0]) :
    ∀ a x, ((![iota .scVector S16 32 [0] h, andi (iota .scVector S16 32 [0] h) (broadcast S16 7#32), andi tv (broadcast S16 127#32)] : Fin 3 → IVec S16 32) a x).toNat
      < S16x8x128.size a := by
  intro a x
  have hx : (x 0).val < 16 := (x 0).isLt
  match a with
  | 0 => show (iota .scVector S16 32 [0] h x).toNat < 16; rw [sc_iota_toNat]; exact hx
  | 1 =>
    show (IntOp.andi (iota .scVector S16 32 [0] h x) 7#32).toNat < 8
    rw [sc_andi_7]; omega
  | 2 =>
    show (IntOp.andi (tv x) 127#32).toNat < 128
    rw [sc_andi_lo]; omega

/-- What the gather reads out of the landed blocks: x at row 128 w + 16 k + l and column t of that row. -/
theorem scG_gather (mx : S4096x32000.Idx → F .f32) (mt : S4096.Idx → BitVec 32) (w : Fin 32) (k : Fin 8) (h : S16.Iotas .scVector 32 [0])
    (hidx : ∀ a x, ((![iota .scVector S16 32 [0] h, andi (iota .scVector S16 32 [0] h) (broadcast S16 7#32), andi (tvec mt w k) (broadcast S16 127#32)] : Fin 3 → IVec S16 32) a x).toNat
      < S16x8x128.size a) :
    loadIdx (F := F) (s := S16x8x128) (t := S16) (e := EltTy.f32) (scG mx mt w k) ![iota .scVector S16 32 [0] h, andi (iota .scVector S16 32 [0] h) (broadcast S16 7#32), andi (tvec mt w k) (broadcast S16 127#32)] hidx
      = gath mx mt w k := by
  funext x
  have hx : (x 0).val < 16 := (x 0).isLt
  have e0 : (iota .scVector S16 32 [0] h x).toNat = (x 0).val := sc_iota_toNat h x
  have e1 : (IntOp.andi (iota .scVector S16 32 [0] h x) 7#32).toNat = (x 0).val % 8 := by rw [sc_andi_7, e0]
  have e2 : (IntOp.andi (tvec mt w k x) 127#32).toNat = (tvec mt w k x).toNat % 128 := sc_andi_lo _
  show mx _ = mx _
  refine congrArg mx ?_
  funext a
  match a with
  | ⟨0, _⟩ =>
    apply Fin.ext
    show 128 * w.val + 16 * k.val + 8 * ((iota .scVector S16 32 [0] h x).toNat / 8) + (IntOp.andi (iota .scVector S16 32 [0] h x) 7#32).toNat
      = 128 * w.val + 16 * k.val + (x 0).val
    rw [e0, e1]; omega
  | ⟨1, _⟩ =>
    apply Fin.ext
    show (128 * ((mt (ix1 (rowOf w k ⟨(iota .scVector S16 32 [0] h x).toNat, _⟩))).toNat / 128) + (IntOp.andi (tvec mt w k x) 127#32).toNat) % 32000
      = (mt (ix1 (rowOf w k (x 0)))).toNat % 32000
    have er : (⟨(iota .scVector S16 32 [0] h x).toNat, (hidx 0 x)⟩ : Fin 16) = x 0 := Fin.ext e0
    rw [e2]
    show (128 * ((mt (ix1 (rowOf w k ⟨(iota .scVector S16 32 [0] h x).toNat, _⟩))).toNat / 128) + (mt (ix1 (rowOf w k (x 0)))).toNat % 128) % 32000 = _
    rw [er]; omega

/-! ## The accumulate payloads are `accStep` -/

theorem sc_acc0 : (k0_pay4 (F := F)) = broadcast S16 (Scalar.ofBits .f32 0x00000000#32) := rfl
theorem sc_acc_c0 (acc : FVec F S16 .f32) (tv : IVec S16 32) (g : FVec F S16 .f32) : k0_pay23 acc tv g = accStep acc tv g := rfl
theorem sc_acc_c1 (acc : FVec F S16 .f32) (tv : IVec S16 32) (g : FVec F S16 .f32) :
    k0_pay43 acc g (k0_pay42 (F := F) tv) (Scalar.ofBits .f32 0x00000000#32) = accStep acc tv g := rfl
theorem sc_acc_c2 (acc : FVec F S16 .f32) (tv : IVec S16 32) (g : FVec F S16 .f32) : k0_pay62 acc tv g = accStep acc tv g := rfl
theorem sc_acc_c3 (acc : FVec F S16 .f32) (tv : IVec S16 32) (g : FVec F S16 .f32) : k0_pay81 acc tv g = accStep acc tv g := rfl
theorem sc_acc_c4 (acc : FVec F S16 .f32) (tv : IVec S16 32) (g : FVec F S16 .f32) : k0_pay100 acc tv g = accStep acc tv g := rfl
theorem sc_acc_c5 (acc : FVec F S16 .f32) (tv : IVec S16 32) (g : FVec F S16 .f32) : k0_pay119 acc tv g = accStep acc tv g := rfl
theorem sc_acc_c6 (acc : FVec F S16 .f32) (tv : IVec S16 32) (g : FVec F S16 .f32) :
    k0_pay139 acc g (k0_pay138 (F := F) tv) (Scalar.ofBits .f32 0x00000000#32) = accStep acc tv g := rfl
theorem sc_acc_c7 (acc : FVec F S16 .f32) (tv : IVec S16 32) (g : FVec F S16 .f32) : k0_pay3 acc tv g = accStep acc tv g := rfl

end Cert.Proof.KernelIdeal

end
-- ==== Proof.ScTileLemmas2.lean ====
/-
  Pure facts about the views a tile's body slices: where an 8 × 128 block of x lies among a worker's rows, which
  elements of the scratch a tile of it covers, and what a tile holds once a block has landed in it.
-/
import proofs.«217662_g32298154065999_cont_8to1_b_8_33_alg».proof.Proof.ScTileRes

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## A landed tile -/

/-- The rows and columns of a block stay inside x. -/
theorem sc_row_lt (off : Fin 2 → Nat) (inb : ∀ a, off a + S8x128.size a ≤ S4096x32000.size a) (i : S16x8x128.Idx) :
    off 0 + (i 1).val < 4096 := by
  have h : off 0 + 8 ≤ 4096 := inb 0
  have h2 : (i 1).val < 8 := (i 1).isLt
  omega
theorem sc_col_lt (off : Fin 2 → Nat) (inb : ∀ a, off a + S8x128.size a ≤ S4096x32000.size a) (i : S16x8x128.Idx) :
    off 1 + (i 2).val < 32000 := by
  have h : off 1 + 128 ≤ 32000 := inb 1
  have h2 : (i 2).val < 128 := (i 2).isLt
  omega

/-- An element of tile `j` of the scratch is the tile's element at its last two coordinates. -/
theorem sc_tile_emb (j : Fin 16) (i : S16x8x128.Idx) (hi : (i 0).val = j.val) :
    (scTileM j).view.emb (ix2 (i 1) (i 2)) = i := by
  show (Memref.whole cc0_scratch1 : Memref sig .scVector .vmem S16x8x128 .f32).view.emb
      ((scTileR j).emb (Shape.reshapeEquiv squeezes_S1x8x128_S8x128.numel_eq (ix2 (i 1) (i 2)))) = i
  rw [Shape.reshapeEquiv_cons_one]
  funext a
  apply Fin.ext
  match a with
  | ⟨0, _⟩ => show j.val + 1 * 0 = (i 0).val; omega
  | ⟨1, _⟩ => show 0 + 1 * (i 1).val = (i 1).val; omega
  | ⟨2, _⟩ => show 0 + 1 * (i 2).val = (i 2).val; omega

/-- THE VALUE of a landed tile: once the block of x at `off` has landed in tile `j`, the scratch's element
    `(j, r, c)` is x at `(off 0 + r, off 1 + c)`. -/
theorem sc_tile_landed_at (d : Dev nD) (L : grid0.Coords) (j : Fin 16)
    (f1 : Buf (Elt F) ((V d (cV L) (jV L)).loc cc0_scratch1)) (mx : Buf (Elt F) (xLoc d))
    (off : Fin 2 → Nat) (inb : ∀ a, off a + S8x128.size a ≤ S4096x32000.size a)
    (i : S16x8x128.Idx) (hi : (i 0).val = j.val) :
    (scTileM j).view.write (Elt F) f1 (ReadAs.same.apply ((scBlkM off inb).view.read (Elt F) mx)) Finset.univ i
      = mx (ix2 ⟨off 0 + (i 1).val, sc_row_lt off inb i⟩ ⟨off 1 + (i 2).val, sc_col_lt off inb i⟩) := by
  have he := sc_tile_emb j i hi
  rw [← he, View.write_emb_of_mem _ _ (Finset.mem_univ _)]
  refine (cast_eq _ _).trans ?_
  show (scBlkM off inb).view.read (Elt F) mx (ix2 (i 1) (i 2)) = _
  rw [View.read_apply]
  refine (cast_eq _ _).trans ?_
  show mx ((scBlkR off inb).emb (ix2 (i 1) (i 2))) = _
  rw [he]
  congr 1
  funext a
  apply Fin.ext
  match a with
  | ⟨0, _⟩ => show off 0 + 1 * (i 1).val = off 0 + (i 1).val; omega
  | ⟨1, _⟩ => show off 1 + 1 * (i 2).val = off 1 + (i 2).val; omega

/-! ## The tiles of the scratch -/

/-- Tile `j`'s elements are the tile's rectangle of the scratch. -/
theorem sc_tile_view_set (j : Fin 16) : ((scTileM j).view.set : Finset S16x8x128.Idx) = (scTileR j).set := by
  show (((View.whole (cc0_scratch1 : Ref sig .scVector)).slice (scTileR j)).reshape S8x128 squeezes_S1x8x128_S8x128.numel_eq).set = _
  rw [View.set_reshape, View.set_slice]; exact Finset.map_refl

/-- An element of the scratch is in tile `j` exactly when its first coordinate is `j`. -/
theorem sc_tile_set (j : Fin 16) (i : S16x8x128.Idx) : i ∈ ((scTileM j).view.set : Finset S16x8x128.Idx) ↔ (i 0).val = j.val := by
  rw [sc_tile_view_set, Rect.mem_set_unit]
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ =>
      have h1 : (i 1).val < 8 := (i 1).isLt
      show 0 ≤ (i 1).val ∧ (i 1).val < 0 + 8; omega
    | ⟨2, _⟩ =>
      have h2 : (i 2).val < 128 := (i 2).isLt
      show 0 ≤ (i 2).val ∧ (i 2).val < 0 + 128; omega

/-- The sixteen tiles are pairwise disjoint -/
theorem sc_tile_disjoint {j j' : Fin 16} (h : j ≠ j') :
    Disjoint ((scTileM j).view.set : Finset S16x8x128.Idx) ((scTileM j').view.set : Finset S16x8x128.Idx) := by
  rw [Finset.disjoint_left]
  intro i hi hi'
  rw [sc_tile_set] at hi hi'
  exact h (Fin.ext (hi.symm.trans hi'))

/-- and cover the scratch. -/
abbrev scTileSet (j : Fin 16) : Finset S16x8x128.Idx := (scTileM j).view.set
theorem sc_tile_biUnion : (Finset.univ : Finset (Fin 16)).biUnion scTileSet = Finset.univ := by
  ext i
  simp only [Finset.mem_biUnion, Finset.mem_univ, true_and, iff_true]
  exact ⟨⟨(i 0).val, (i 0).isLt⟩, (sc_tile_set _ i).mpr rfl⟩

/-! ## A block of x among a worker's rows -/

/-- The block's elements are the block's rectangle of x. -/
theorem sc_blk_view_set (off : Fin 2 → Nat) (inb : ∀ a, off a + S8x128.size a ≤ S4096x32000.size a) :
    ((scBlkM off inb).view.set : Finset S4096x32000.Idx) = (scBlkR off inb).set := by
  show ((View.whole (main_arg0_scv : Ref sig .scVector)).slice (scBlkR off inb)).set = _
  rw [View.set_slice]; exact Finset.map_refl

/-- A block whose eight rows lie among worker `w`'s 128 lies in the worker's part of x. -/
theorem sc_blk_subset (w : Fin 32) (off : Fin 2 → Nat) (inb : ∀ a, off a + S8x128.size a ≤ S4096x32000.size a)
    (h0 : 128 * w.val ≤ off 0) (h1 : off 0 + 8 ≤ 128 * w.val + 128) :
    (scBlkM off inb).view.set ⊆ xPart w := by
  intro i hi
  have hi' := Rect.mem_set_unit.mp ((sc_blk_view_set off inb) ▸ hi)
  refine Rect.mem_set_unit.mpr fun a => ?_
  match a with
  | ⟨0, _⟩ =>
    have ha : off 0 ≤ (i 0).val ∧ (i 0).val < off 0 + 8 := hi' 0
    simp only [Shape.partIx, Shape.partSize, ↓reduceIte]
    show w.val * (4096 / 32) ≤ (i 0).val ∧ (i 0).val < w.val * (4096 / 32) + 4096 / 32
    omega
  | ⟨1, _⟩ =>
    have h2 : (i 1).val < 32000 := (i 1).isLt
    show 0 * 32000 ≤ (i 1).val ∧ (i 1).val < 0 * 32000 + 32000
    omega

end Cert.Proof.KernelIdeal

end
-- ==== Proof.ScTileLemmas3.lean ====
/-
  A chunk's resources regrouped: the scratch as its sixteen tiles, a worker's rows of x lent to the sixteen copies
  as read tokens on their blocks, and the sixteen deliveries collected into the scratch's contents.
-/
import proofs.«217662_g32298154065999_cont_8to1_b_8_33_alg».proof.Proof.ScTileChunk
import proofs.«217662_g32298154065999_cont_8to1_b_8_33_alg».proof.Proof.ScTileLemmas
import proofs.«217662_g32298154065999_cont_8to1_b_8_33_alg».proof.Proof.ScTileLemmas2

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {m : (ℓ : Loc nD τ sig) → Buf (Elt F) ℓ} {d : Dev nD} {L : grid0.Coords}

local notation "𝕄" => MT nD τ sig (HIx 1) (Elt F) ℕ UU ℕ

/-! ## The scratch as its sixteen tiles -/

theorem sc_tiles_split (f : Buf (Elt F) ((V d (cV L) (jV L)).loc cc0_scratch1)) :
    ((V d (cV L) (jV L)).loc cc0_scratch1 ↦{fullShare} f : sProp 𝕄) = bigSep Finset.univ fun j : Fin 16 => scTilePts (F := F) d L j f := by
  have h : ((V d (cV L) (jV L)).loc cc0_scratch1 ↦[(Finset.univ : Finset (Fin 16)).biUnion scTileSet]{fullShare} f : sProp 𝕄)
      = bigSep Finset.univ fun j : Fin 16 => ((V d (cV L) (jV L)).loc cc0_scratch1 ↦[scTileSet j]{fullShare} f) :=
    pointsTo_biUnion _ _ (fun t _ t' _ hne => sc_tile_disjoint hne)
  rw [sc_tile_biUnion] at h
  exact h

/-! ## The sixteen deliveries, collected -/

theorem sc3_C1_toNat (k : Fin 8) : (scC1 k).toNat = 16 * k.val := by
  have := k.isLt
  unfold scC1; rw [BitVec.toNat_ofNat]; omega
theorem sc3_C2_toNat (j : Fin 16) : (scC2 j).toNat = 8 * (j.val / 8) := by
  have := j.isLt
  unfold scC2; rw [BitVec.toNat_ofNat]; omega

/-- Tile `j` after its block has landed holds, on its own elements, the chunk's contents of the scratch. -/
theorem sc_tile_landed_scG (hrng : ∀ i, (m (tLoc d) i).toNat ≤ 31999) (k : Fin 8) (j : Fin 16)
    (f1 : Buf (Elt F) ((V d (cV L) (jV L)).loc cc0_scratch1)) (i : S16x8x128.Idx) (hi : (i 0).val = j.val) :
    (scTileM j).view.write (Elt F) f1 (ReadAs.same.apply ((scBlkC m d L hrng k j).view.read (Elt F) (m (xLoc d)))) Finset.univ i
      = scG (m (xLoc d)) (m (tLoc d)) (widL L) k i := by
  rw [sc_tile_landed_at d L j f1 (m (xLoc d)) _ _ i hi]
  have hoff := scOff_eq L (scC1 k) (scC2 j) (scTw m d L k j) (scC_le k j)
  have h0 : scOff L (scC1 k) (scC2 j) (scTw m d L k j) 0 = 128 * (widL L).val + ((scC1 k).toNat + (scC2 j).toNat) := by rw [hoff]; rfl
  have h1 : scOff L (scC1 k) (scC2 j) (scTw m d L k j) 1 = 128 * ((scTw m d L k j).toNat / 128) := by rw [hoff]; rfl
  have hij : i 0 = j := Fin.ext hi
  have htw : (scTw m d L k j).toNat ≤ 31999 := scTw_le m d L hrng k j
  have hi1 : (i 1).val < 8 := (i 1).isLt
  have hi2 : (i 2).val < 128 := (i 2).isLt
  unfold scG scGat
  refine congrArg (m (xLoc d)) ?_
  funext a
  match a with
  | ⟨0, _⟩ =>
    apply Fin.ext
    show scOff L (scC1 k) (scC2 j) (scTw m d L k j) 0 + (i 1).val = 128 * (widL L).val + 16 * k.val + 8 * ((i 0).val / 8) + (i 1).val
    rw [h0, sc3_C1_toNat, sc3_C2_toNat, hi]; omega
  | ⟨1, _⟩ =>
    apply Fin.ext
    show scOff L (scC1 k) (scC2 j) (scTw m d L k j) 1 + (i 2).val
      = (128 * ((m (tLoc d) (ix1 (rowOf (widL L) k (i 0)))).toNat / 128) + (i 2).val) % 32000
    rw [h1, hij]
    show 128 * ((scTw m d L k j).toNat / 128) + (i 2).val = (128 * ((scTw m d L k j).toNat / 128) + (i 2).val) % 32000
    omega

theorem sc_collect (hrng : ∀ i, (m (tLoc d) i).toNat ≤ 31999) (k : Fin 8) (f1 : Buf (Elt F) ((V d (cV L) (jV L)).loc cc0_scratch1)) :
    bigSep Finset.univ (scD (F := F) m d L hrng k f1)
      ⊢ (iprop(((V d (cV L) (jV L)).loc cc0_scratch1 ↦{fullShare} scG (m (xLoc d)) (m (tLoc d)) (widL L) k)
          ∗ bigSep Finset.univ fun j : Fin 16 => scBlkTok (F := F) m d L hrng k j) : sProp 𝕄) := by
  have hcongr : ∀ j : Fin 16,
      ((scTileM j).view.loc (V d (cV L) (jV L)) ↦[(scTileM j).view.set]{fullShare}
          ((scTileM j).view.write (Elt F) f1 (ReadAs.same.apply ((scBlkC m d L hrng k j).view.read (Elt F) (m (xLoc d)))) Finset.univ) : sProp 𝕄)
        = scTilePts (F := F) d L j (scG (m (xLoc d)) (m (tLoc d)) (widL L) k) := fun j =>
    pointsTo_congr fun i hi => sc_tile_landed_scG hrng k j f1 i ((sc_tile_set j i).mp hi)
  rw [sc_tiles_split]
  unfold scD scDelivAt
  rw [bigSep_sep']
  exact sep_mono (Entails.of_eq (bigSep_congr fun j _ => hcongr j)) .rfl

/-! ## A worker's rows of x, lent to a chunk's sixteen copies -/

/-- Each block of the chunk lies among the worker's rows. -/
theorem sc_blkC_subset (hrng : ∀ i, (m (tLoc d) i).toNat ≤ 31999) (k : Fin 8) (j : Fin 16) :
    (scBlkC m d L hrng k j).view.set ⊆ xPart (widL L) := by
  have hoff := scOff_eq L (scC1 k) (scC2 j) (scTw m d L k j) (scC_le k j)
  have hle := scC_le k j
  have h0 : scOff L (scC1 k) (scC2 j) (scTw m d L k j) 0 = 128 * (widL L).val + ((scC1 k).toNat + (scC2 j).toNat) := by rw [hoff]; rfl
  refine sc_blk_subset (widL L) _ _ ?_ ?_
  · rw [h0]; omega
  · rw [h0]; omega

theorem sc_x_lend (hrng : ∀ i, (m (tLoc d) i).toNat ≤ 31999) (k : Fin 8) :
    xPartPts m d (widL L)
      ⊢ (iprop((bigSep Finset.univ fun j : Fin 16 => scBlkTok (F := F) m d L hrng k j)
          ∗ ((bigSep Finset.univ fun j : Fin 16 => scBlkTok (F := F) m d L hrng k j) -∗ xPartPts m d (widL L))) : sProp 𝕄) := by
  have hsplit : ∀ j : Fin 16, (xLoc d ↦[xPart (widL L)]{Transfers.shareTok fullShare 16 j} m (xLoc d) : sProp 𝕄)
      ⊣⊢ iprop((xLoc d ↦[((scBlkC m d L hrng k j).view.set : Finset S4096x32000.Idx)]{Transfers.shareTok fullShare 16 j} m (xLoc d))
          ∗ (xLoc d ↦[xPart (widL L) \ ((scBlkC m d L hrng k j).view.set : Finset S4096x32000.Idx)]{Transfers.shareTok fullShare 16 j} m (xLoc d))) :=
    fun j => pointsTo_split_subset (sc_blkC_subset hrng k j)
  have h1 : (bigSep Finset.univ fun j : Fin 16 => (xLoc d ↦[xPart (widL L)]{Transfers.shareTok fullShare 16 j} m (xLoc d) : sProp 𝕄))
      ⊢ iprop((bigSep Finset.univ fun j : Fin 16 => scBlkTok (F := F) m d L hrng k j)
          ∗ bigSep Finset.univ fun j : Fin 16 =>
              (xLoc d ↦[xPart (widL L) \ ((scBlkC m d L hrng k j).view.set : Finset S4096x32000.Idx)]{Transfers.shareTok fullShare 16 j} m (xLoc d))) := by
    rw [← bigSep_sep']
    exact bigSep_mono fun j _ => (hsplit j).1
  have h2 : (iprop((bigSep Finset.univ fun j : Fin 16 => scBlkTok (F := F) m d L hrng k j)
          ∗ bigSep Finset.univ fun j : Fin 16 =>
              (xLoc d ↦[xPart (widL L) \ ((scBlkC m d L hrng k j).view.set : Finset S4096x32000.Idx)]{Transfers.shareTok fullShare 16 j} m (xLoc d))) : sProp 𝕄)
      ⊢ bigSep Finset.univ fun j : Fin 16 => (xLoc d ↦[xPart (widL L)]{Transfers.shareTok fullShare 16 j} m (xLoc d) : sProp 𝕄) := by
    rw [← bigSep_sep']
    exact bigSep_mono fun j _ => (hsplit j).2
  unfold xPartPts
  iintro HA
  ihave H := (Transfers.pointsTo_toks_split fullShare 16) $$ HA
  icases H with ⟨Hd, Ht⟩
  ihave Ht' := h1 $$ Ht
  icases Ht' with ⟨Hb, Hr⟩
  isplitl [Hb]; · iexact Hb
  iintro Hb
  iapply (Transfers.pointsTo_toks_join fullShare 16)
  isplitl [Hd]; · iexact Hd
  iapply h2
  isplitl [Hb]; · iexact Hb
  iexact Hr

end Cert.Proof.KernelIdeal

end
-- ==== Proof.ScTileValue.lean ====
/-
  The values a tile's body computes, as pure facts.

  (1) A landed block. Lane j of chunk k copies the 8 × 128 block of x whose first row is 128 w + 16 k + 8 (j / 8) and
  whose first column is the 128-aligned part of t at row 128 w + 16 k + j; once it has landed in tile j of the
  scratch, element (j, r, c) of the scratch is x at that row plus r and that column plus c — the scratch `scG` of the
  chunk (with t at most 31999 the column stays below 32000 = 250 · 128, so the reduction modulo 32000 in `scG` is the
  identity).
  (2) The gather out of the landed scratch, with the index vectors as the body names them, reads lane l at x of row
  128 w + 16 k + l and column t of that row: the chunk's gathered entries.
  (3) One chunk's accumulate step takes the accumulator after n chunks to the accumulator after n + 1; after eight
  it is the tile's result.
  (4) The accumulator stored whole reads back as stored; copied out to the worker's sixteen words of the result,
  word 16 w + l holds lane l.
-/
import proofs.«217662_g32298154065999_cont_8to1_b_8_33_alg».proof.Proof.ScTileLemmas
import proofs.«217662_g32298154065999_cont_8to1_b_8_33_alg».proof.Proof.ScTileLemmas2
import proofs.«217662_g32298154065999_cont_8to1_b_8_33_alg».proof.Proof.ScTileChunk
import Idealize.ShloMosaic.Lib.WritesUnit

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## (1) A landed block is the chunk's scratch -/

theorem scv_C1_toNat (k : Fin 8) : (scC1 k).toNat = 16 * k.val := by
  have := k.isLt
  unfold scC1; rw [BitVec.toNat_ofNat]; omega
theorem scv_C2_toNat (j : Fin 16) : (scC2 j).toNat = 8 * (j.val / 8) := by
  have := j.isLt
  unfold scC2; rw [BitVec.toNat_ofNat]; omega

/-- Tile j of the scratch after lane j's block of chunk k has landed: the chunk's scratch `scG`, element by element. -/
theorem sc_landed_eq [FloatOps F] (m : (ℓ : Loc nD τ sig) → Buf (Elt F) ℓ) (d : Dev nD) (L : grid0.Coords)
    (hrng : ∀ i, (m (tLoc d) i).toNat ≤ 31999) (k : Fin 8) (j : Fin 16)
    (fd : Buf (Elt F) ((V d (cV L) (jV L)).loc cc0_scratch1)) (i : S16x8x128.Idx) (hi : (i 0).val = j.val) :
    (scTileM j).view.write (Elt F) fd (ReadAs.same.apply ((scBlkC m d L hrng k j).view.read (Elt F) (m (xLoc d)))) Finset.univ i
      = scG (m (xLoc d)) (m (tLoc d)) (widL L) k i := by
  have hij : i 0 = j := Fin.ext hi
  have hk := k.isLt
  have hj := j.isLt
  have hw := (widL L).isLt
  have hr : (i 1).val < 8 := (i 1).isLt
  have hc : (i 2).val < 128 := (i 2).isLt
  have htw : (scTw m d L k j).toNat ≤ 31999 := scTw_le m d L hrng k j
  have hoff := scOff_eq L (scC1 k) (scC2 j) (scTw m d L k j) (scC_le k j)
  rw [sc_tile_landed_at d L j fd (m (xLoc d)) _ _ i hi]
  unfold scG scGat
  refine congrArg (m (xLoc d)) ?_
  funext a
  apply Fin.ext
  match a with
  | ⟨0, _⟩ =>
    show scOff L (scC1 k) (scC2 j) (scTw m d L k j) 0 + (i 1).val = 128 * (widL L).val + 16 * k.val + 8 * ((i 0).val / 8) + (i 1).val
    rw [hoff, hi]
    show 128 * (widL L).val + ((scC1 k).toNat + (scC2 j).toNat) + (i 1).val = _
    rw [scv_C1_toNat, scv_C2_toNat]; omega
  | ⟨1, _⟩ =>
    show scOff L (scC1 k) (scC2 j) (scTw m d L k j) 1 + (i 2).val
      = (128 * ((m (tLoc d) (ix1 (rowOf (widL L) k (i 0)))).toNat / 128) + (i 2).val) % 32000
    rw [hoff, hij]
    show 128 * ((scTw m d L k j).toNat / 128) + (i 2).val = (128 * ((scTw m d L k j).toNat / 128) + (i 2).val) % 32000
    omega

/-! ## (2) The gather out of the landed scratch -/

/-- The gather with its index vectors named: whatever the second and third are called, if they are the lane's row in
    its block and the word's lane in its block of 128, and the scratch holds the chunk's blocks, it reads the chunk's
    gathered entries. -/
theorem sc_gather_eq [FloatOps F] (mx : S4096x32000.Idx → F .f32) (mt : S4096.Idx → BitVec 32) (w : Fin 32) (k : Fin 8)
    (A B : IVec S16 32)
    (hA : A = andi (iota .scVector S16 32 [0] iota_S16_d0_w32_scVector) (broadcast S16 7#32))
    (hB : B = andi (tvec mt w k) (broadcast S16 127#32))
    (f : S16x8x128.Idx → F .f32) (hf : f = scG mx mt w k)
    (hidx : ∀ a x, ((![iota .scVector S16 32 [0] iota_S16_d0_w32_scVector, A, B] : Fin 3 → IVec S16 32) a x).toNat < S16x8x128.size a) :
    loadIdx (F := F) (s := S16x8x128) (t := S16) (e := EltTy.f32) f ![iota .scVector S16 32 [0] iota_S16_d0_w32_scVector, A, B] hidx
      = gath mx mt w k := by
  subst hA hB hf
  exact scG_gather mx mt w k _ hidx

/-- The scratch read whole is its contents. -/
theorem sc_read_whole (d : Dev nD) (L : grid0.Coords) (f : Buf (Elt F) ((V d (cV L) (jV L)).loc cc0_scratch1)) :
    ((sX : Memref sig .scVector .vmem S16x8x128 .f32).access (.whole S16x8x128)).read (Elt F) f = f := by
  funext i
  rw [View.read_apply]
  refine (cast_eq _ _).trans ?_
  refine congrArg f (funext fun a => Fin.ext ?_)
  show 0 + 1 * (i a).val = (i a).val
  omega

/-! ## (3) The chain of accumulate steps -/

/-- One chunk's step: from the accumulator after n chunks, with the chunk's entries of t and gathered entries of x, to
    the accumulator after n + 1. -/
theorem sc_chain [FloatOps F] (mx : S4096x32000.Idx → F .f32) (mt : S4096.Idx → BitVec 32) (w : Fin 32) (n : Nat) (h : n + 1 ≤ 8)
    (acc : FVec F S16 .f32) (hacc : acc = scAccAt mx mt w n (by omega))
    (tv : IVec S16 32) (htv : tv = tvec mt w ⟨n, by omega⟩)
    (g : FVec F S16 .f32) (hg : g = gath mx mt w ⟨n, by omega⟩) :
    accStep acc tv g = scAccAt mx mt w (n + 1) h := by
  subst hacc htv hg; rfl

theorem sc_chain_zero [FloatOps F] (mx : S4096x32000.Idx → F .f32) (mt : S4096.Idx → BitVec 32) (w : Fin 32) :
    (k0_pay4 (F := F)) = scAccAt mx mt w 0 (by omega) := rfl

theorem sc_chain_last [FloatOps F] (mx : S4096x32000.Idx → F .f32) (mt : S4096.Idx → BitVec 32) (w : Fin 32) :
    scAccAt mx mt w 8 le_rfl = tileOut mx mt w := rfl

/-- One chunk of the run, as the run leaves it: the accumulate step over the chunk's sixteen entries of t as loaded from
    the index scratch (which holds the worker's entries of t) and the gather out of the landed scratch, is the
    accumulator after one more chunk. -/
theorem sc_step [FloatOps F] (m : (ℓ : Loc nD τ sig) → Buf (Elt F) ℓ) (d : Dev nD) (L : grid0.Coords) (k : Fin 8)
    (f0 : Buf (Elt F) ((V d (cV L) (jV L)).loc cc0_scratch0))
    (inb : ∀ a, (![16 * k.val] : Fin 1 → Nat) a + S16.size a ≤ S128.size a)
    (A B : IVec S16 32) (acc : FVec F S16 .f32)
    (hacc : acc = scAccAt (m (xLoc d)) (m (tLoc d)) (widL L) k.val (by have := k.isLt; omega))
    (hA : A = andi (iota .scVector S16 32 [0] iota_S16_d0_w32_scVector) (broadcast S16 7#32))
    (hB : B = andi (View.readAt (Elt F) (sT : Memref sig .scVector .vmem S128 .i32).view (Rect.unit (s := S128) ![16 * k.val] S16.size inb).toLoadRect
        (View.write (Elt F) (sT : Memref sig .scVector .vmem S128 .i32).view f0 (ReadAs.same.apply ((tSlice L).view.read (Elt F) (m (tLoc d)))) Finset.univ))
      (broadcast S16 127#32))
    (hidx : ∀ a x, ((![iota .scVector S16 32 [0] iota_S16_d0_w32_scVector, A, B] : Fin 3 → IVec S16 32) a x).toNat < S16x8x128.size a) :
    accStep acc
        (View.readAt (Elt F) (sT : Memref sig .scVector .vmem S128 .i32).view (Rect.unit (s := S128) ![16 * k.val] S16.size inb).toLoadRect
          (View.write (Elt F) (sT : Memref sig .scVector .vmem S128 .i32).view f0 (ReadAs.same.apply ((tSlice L).view.read (Elt F) (m (tLoc d)))) Finset.univ))
        (loadIdx (F := F) (s := S16x8x128) (t := S16) (e := EltTy.f32)
          (((sX : Memref sig .scVector .vmem S16x8x128 .f32).access (.whole S16x8x128)).read (Elt F) (scG (m (xLoc d)) (m (tLoc d)) (widL L) k))
          ![iota .scVector S16 32 [0] iota_S16_d0_w32_scVector, A, B] hidx)
      = scAccAt (m (xLoc d)) (m (tLoc d)) (widL L) (k.val + 1) (by have := k.isLt; omega) := by
  have htv : View.readAt (Elt F) (sT : Memref sig .scVector .vmem S128 .i32).view (Rect.unit (s := S128) ![16 * k.val] S16.size inb).toLoadRect
      (View.write (Elt F) (sT : Memref sig .scVector .vmem S128 .i32).view f0 (ReadAs.same.apply ((tSlice L).view.read (Elt F) (m (tLoc d)))) Finset.univ)
        = tvec (m (tLoc d)) (widL L) k := by
    rw [sc_tgt_eq, sc_load_eq]
  refine sc_chain (m (xLoc d)) (m (tLoc d)) (widL L) k.val (by have := k.isLt; omega) acc hacc _ htv _ ?_
  exact sc_gather_eq (m (xLoc d)) (m (tLoc d)) (widL L) k A B hA (by rw [hB, htv]) _ (sc_read_whole d L _) hidx

/-! ## (4) The store of the accumulator and the copy-out -/

/-- The accumulator scratch stored whole, as one write, reads back as the stored vector. -/
theorem sc_store_read (d : Dev nD) (L : grid0.Coords) (f2 : Buf (Elt F) ((V d (cV L) (jV L)).loc cc0_scratch2))
    (v : S16.Idx → Elt F .f32) :
    (sA : Memref sig .scVector .vmem S16 .f32).view.read (Elt F)
      (View.write (Elt F) (sA : Memref sig .scVector .vmem S16 .f32).view f2 v Finset.univ) = v := by
  rw [View.write_whole_univ]
  rfl

/-- The same with the store kept as a list of one write through the whole rectangle. -/
theorem sc_store_read_writes (d : Dev nD) (L : grid0.Coords) (f2 : Buf (Elt F) ((V d (cV L) (jV L)).loc cc0_scratch2))
    (inb : ∀ a, (![0] : Fin 1 → Nat) a + S16.size a ≤ S16.size a) (v : (Rect.unit (s := S16) ![0] S16.size inb).shape.Idx → Elt F .f32) :
    (sA : Memref sig .scVector .vmem S16 .f32).view.read (Elt F)
      ((sA : Memref sig .scVector .vmem S16 .f32).view.writes (Elt F) f2 [⟨Rect.unit (s := S16) ![0] S16.size inb, v⟩]) = v := by
  funext y
  refine View.read_writes_cons_unit_of_mem (sA : Memref sig .scVector .vmem S16 .f32).view f2 inb v [] y y rfl (fun a => ?_)
  have ha : a = (0 : Fin 1) := Subsingleton.elim (α := Fin 1) a 0
  subst ha
  show (y 0).val = 0 + (y 0).val
  omega

/-- The copy-out: the worker's sixteen words of the result hold the accumulator's sixteen lanes. -/
theorem sc_out_eq (d : Dev nD) (L : grid0.Coords) (fo : Buf (Elt F) (oLoc d))
    (acc : Buf (Elt F) ((V d (cV L) (jV L)).loc cc0_scratch2)) (l : Fin 16) :
    View.write (Elt F) (oSlice L).view fo (ReadAs.same.apply ((sA : Memref sig .scVector .vmem S16 .f32).view.read (Elt F) acc)) Finset.univ
        (ix1 ⟨16 * (widL L).val + l.val, by have := (widL L).isLt; have := l.isLt; omega⟩)
      = acc (ix1 l) := by
  have he : (oSlice L).view.emb (ix1 l) = ix1 ⟨16 * (widL L).val + l.val, by have := (widL L).isLt; have := l.isLt; omega⟩ := by
    funext a
    have ha : a = (0 : Fin 1) := Subsingleton.elim (α := Fin 1) a 0
    subst ha
    apply Fin.ext
    show k0_off250 L 0 + 1 * l.val = 16 * (widL L).val + l.val
    rw [k0_off250_eq]
    show 32 * (L 1).val + 16 * (L 0).val + 1 * l.val = 16 * (2 * (L 1).val + (L 0).val) + l.val
    omega
  rw [← he, View.write_emb_of_mem _ _ (Finset.mem_univ _)]
  refine (cast_eq _ _).trans ?_
  show (sA : Memref sig .scVector .vmem S16 .f32).view.read (Elt F) acc (ix1 l) = _
  simp only [Memref.view_whole, View.read_whole]

/-- So when the accumulator holds the tile's result, the result array holds the worker's value in the worker's words. -/
theorem sc_outHolds [FloatOps F] (m : (ℓ : Loc nD τ sig) → Buf (Elt F) ℓ) (d : Dev nD) (L : grid0.Coords) (fo : Buf (Elt F) (oLoc d))
    (acc : Buf (Elt F) ((V d (cV L) (jV L)).loc cc0_scratch2))
    (hacc : ∀ l : Fin 16, acc (ix1 l) = tileOut (F := F) (m (xLoc d)) (m (tLoc d)) (widL L) (ix1 l)) :
    OutHolds m d (widL L)
      (View.write (Elt F) (oSlice L).view fo (ReadAs.same.apply ((sA : Memref sig .scVector .vmem S16 .f32).view.read (Elt F) acc)) Finset.univ) :=
  fun l => (sc_out_eq d L fo acc l).trans (hacc l)

/-! ## (5) The whole chain, over the terms the run leaves -/

section Final
variable [FloatOps F] (m : (ℓ : Loc nD τ sig) → Buf (Elt F) ℓ) (d : Dev nD) (L : grid0.Coords)
  (f0 : Buf (Elt F) ((V d (cV L) (jV L)).loc cc0_scratch0))

/-- The sixteen entries of t at offset n of the index scratch, as loaded once the worker's entries have landed in it. -/
abbrev scTV (n : Nat) (inb : ∀ a, (![n] : Fin 1 → Nat) a + S16.size a ≤ S128.size a) : IVec S16 32 :=
  View.readAt (Elt F) (sT : Memref sig .scVector .vmem S128 .i32).view (Rect.unit (s := S128) ![n] S16.size inb).toLoadRect
    (View.write (Elt F) (sT : Memref sig .scVector .vmem S128 .i32).view f0 (ReadAs.same.apply ((tSlice L).view.read (Elt F) (m (tLoc d)))) Finset.univ)

/-- The gather out of chunk k's landed scratch at index vectors A, B. -/
abbrev scGV (k : Fin 8) (A B : IVec S16 32)
    (h : ∀ a x, ((![iota .scVector S16 32 [0] iota_S16_d0_w32_scVector, A, B] : Fin 3 → IVec S16 32) a x).toNat < S16x8x128.size a) : FVec F S16 .f32 :=
  loadIdx (F := F) (s := S16x8x128) (t := S16) (e := EltTy.f32)
    (((sX : Memref sig .scVector .vmem S16x8x128 .f32).access (.whole S16x8x128)).read (Elt F) (scG (m (xLoc d)) (m (tLoc d)) (widL L) k))
    ![iota .scVector S16 32 [0] iota_S16_d0_w32_scVector, A, B] h

/-- Chunk 0's accumulate payload, over the run's terms, takes the accumulator after 0 chunks to the one after 1. -/
theorem sc_acc_step0 (acc : FVec F S16 .f32)
    (hacc : acc = scAccAt (m (xLoc d)) (m (tLoc d)) (widL L) 0 (by omega))
    (h : ∀ a x, ((![iota .scVector S16 32 [0] iota_S16_d0_w32_scVector, k0_pay21, (k0_pay22 (F := F) (scTV m d L f0 0 inb_S128_S16_0))] : Fin 3 → IVec S16 32) a x).toNat < S16x8x128.size a) :
    k0_pay23 acc (scTV m d L f0 0 inb_S128_S16_0) (scGV m d L 0 k0_pay21 (k0_pay22 (F := F) (scTV m d L f0 0 inb_S128_S16_0)) h)
      = scAccAt (m (xLoc d)) (m (tLoc d)) (widL L) 1 (by omega) :=
  (sc_acc_c0 acc (scTV m d L f0 0 inb_S128_S16_0) (scGV m d L 0 k0_pay21 (k0_pay22 (F := F) (scTV m d L f0 0 inb_S128_S16_0)) h)).trans
    (sc_step m d L (0 : Fin 8) f0 inb_S128_S16_0 k0_pay21 (k0_pay22 (F := F) (scTV m d L f0 0 inb_S128_S16_0)) acc hacc rfl rfl h)

/-- Chunk 1's accumulate payload, over the run's terms, takes the accumulator after 1 chunks to the one after 2. -/
theorem sc_acc_step1 (acc : FVec F S16 .f32)
    (hacc : acc = scAccAt (m (xLoc d)) (m (tLoc d)) (widL L) 1 (by omega))
    (h : ∀ a x, ((![iota .scVector S16 32 [0] iota_S16_d0_w32_scVector, k0_pay40, (k0_pay41 (F := F) (scTV m d L f0 16 inb_S128_S16_16))] : Fin 3 → IVec S16 32) a x).toNat < S16x8x128.size a) :
    k0_pay43 acc (scGV m d L 1 k0_pay40 (k0_pay41 (F := F) (scTV m d L f0 16 inb_S128_S16_16)) h) (k0_pay42 (F := F) (scTV m d L f0 16 inb_S128_S16_16)) (Scalar.ofBits .f32 0x00000000#32)
      = scAccAt (m (xLoc d)) (m (tLoc d)) (widL L) 2 (by omega) :=
  (sc_acc_c1 acc (scTV m d L f0 16 inb_S128_S16_16) (scGV m d L 1 k0_pay40 (k0_pay41 (F := F) (scTV m d L f0 16 inb_S128_S16_16)) h)).trans
    (sc_step m d L (1 : Fin 8) f0 inb_S128_S16_16 k0_pay40 (k0_pay41 (F := F) (scTV m d L f0 16 inb_S128_S16_16)) acc hacc rfl rfl h)

/-- Chunk 2's accumulate payload, over the run's terms, takes the accumulator after 2 chunks to the one after 3. -/
theorem sc_acc_step2 (acc : FVec F S16 .f32)
    (hacc : acc = scAccAt (m (xLoc d)) (m (tLoc d)) (widL L) 2 (by omega))
    (h : ∀ a x, ((![iota .scVector S16 32 [0] iota_S16_d0_w32_scVector, k0_pay60, (k0_pay61 (F := F) (scTV m d L f0 32 inb_S128_S16_32))] : Fin 3 → IVec S16 32) a x).toNat < S16x8x128.size a) :
    k0_pay62 acc (scTV m d L f0 32 inb_S128_S16_32) (scGV m d L 2 k0_pay60 (k0_pay61 (F := F) (scTV m d L f0 32 inb_S128_S16_32)) h)
      = scAccAt (m (xLoc d)) (m (tLoc d)) (widL L) 3 (by omega) :=
  (sc_acc_c2 acc (scTV m d L f0 32 inb_S128_S16_32) (scGV m d L 2 k0_pay60 (k0_pay61 (F := F) (scTV m d L f0 32 inb_S128_S16_32)) h)).trans
    (sc_step m d L (2 : Fin 8) f0 inb_S128_S16_32 k0_pay60 (k0_pay61 (F := F) (scTV m d L f0 32 inb_S128_S16_32)) acc hacc rfl rfl h)

/-- Chunk 3's accumulate payload, over the run's terms, takes the accumulator after 3 chunks to the one after 4. -/
theorem sc_acc_step3 (acc : FVec F S16 .f32)
    (hacc : acc = scAccAt (m (xLoc d)) (m (tLoc d)) (widL L) 3 (by omega))
    (h : ∀ a x, ((![iota .scVector S16 32 [0] iota_S16_d0_w32_scVector, k0_pay79, (k0_pay80 (F := F) (scTV m d L f0 48 inb_S128_S16_48))] : Fin 3 → IVec S16 32) a x).toNat < S16x8x128.size a) :
    k0_pay81 acc (scTV m d L f0 48 inb_S128_S16_48) (scGV m d L 3 k0_pay79 (k0_pay80 (F := F) (scTV m d L f0 48 inb_S128_S16_48)) h)
      = scAccAt (m (xLoc d)) (m (tLoc d)) (widL L) 4 (by omega) :=
  (sc_acc_c3 acc (scTV m d L f0 48 inb_S128_S16_48) (scGV m d L 3 k0_pay79 (k0_pay80 (F := F) (scTV m d L f0 48 inb_S128_S16_48)) h)).trans
    (sc_step m d L (3 : Fin 8) f0 inb_S128_S16_48 k0_pay79 (k0_pay80 (F := F) (scTV m d L f0 48 inb_S128_S16_48)) acc hacc rfl rfl h)

/-- Chunk 4's accumulate payload, over the run's terms, takes the accumulator after 4 chunks to the one after 5. -/
theorem sc_acc_step4 (acc : FVec F S16 .f32)
    (hacc : acc = scAccAt (m (xLoc d)) (m (tLoc d)) (widL L) 4 (by omega))
    (h : ∀ a x, ((![iota .scVector S16 32 [0] iota_S16_d0_w32_scVector, (k0_pay98 (iota .scVector S16 32 [0] iota_S16_d0_w32_scVector)), (k0_pay99 (F := F) (scTV m d L f0 64 inb_S128_S16_64))] : Fin 3 → IVec S16 32) a x).toNat < S16x8x128.size a) :
    k0_pay100 acc (scTV m d L f0 64 inb_S128_S16_64) (scGV m d L 4 (k0_pay98 (iota .scVector S16 32 [0] iota_S16_d0_w32_scVector)) (k0_pay99 (F := F) (scTV m d L f0 64 inb_S128_S16_64)) h)
      = scAccAt (m (xLoc d)) (m (tLoc d)) (widL L) 5 (by omega) :=
  (sc_acc_c4 acc (scTV m d L f0 64 inb_S128_S16_64) (scGV m d L 4 (k0_pay98 (iota .scVector S16 32 [0] iota_S16_d0_w32_scVector)) (k0_pay99 (F := F) (scTV m d L f0 64 inb_S128_S16_64)) h)).trans
    (sc_step m d L (4 : Fin 8) f0 inb_S128_S16_64 (k0_pay98 (iota .scVector S16 32 [0] iota_S16_d0_w32_scVector)) (k0_pay99 (F := F) (scTV m d L f0 64 inb_S128_S16_64)) acc hacc rfl rfl h)

/-- Chunk 5's accumulate payload, over the run's terms, takes the accumulator after 5 chunks to the one after 6. -/
theorem sc_acc_step5 (acc : FVec F S16 .f32)
    (hacc : acc = scAccAt (m (xLoc d)) (m (tLoc d)) (widL L) 5 (by omega))
    (h : ∀ a x, ((![iota .scVector S16 32 [0] iota_S16_d0_w32_scVector, k0_pay117, (k0_pay118 (F := F) (scTV m d L f0 80 inb_S128_S16_80))] : Fin 3 → IVec S16 32) a x).toNat < S16x8x128.size a) :
    k0_pay119 acc (scTV m d L f0 80 inb_S128_S16_80) (scGV m d L 5 k0_pay117 (k0_pay118 (F := F) (scTV m d L f0 80 inb_S128_S16_80)) h)
      = scAccAt (m (xLoc d)) (m (tLoc d)) (widL L) 6 (by omega) :=
  (sc_acc_c5 acc (scTV m d L f0 80 inb_S128_S16_80) (scGV m d L 5 k0_pay117 (k0_pay118 (F := F) (scTV m d L f0 80 inb_S128_S16_80)) h)).trans
    (sc_step m d L (5 : Fin 8) f0 inb_S128_S16_80 k0_pay117 (k0_pay118 (F := F) (scTV m d L f0 80 inb_S128_S16_80)) acc hacc rfl rfl h)

/-- Chunk 6's accumulate payload, over the run's terms, takes the accumulator after 6 chunks to the one after 7. -/
theorem sc_acc_step6 (acc : FVec F S16 .f32)
    (hacc : acc = scAccAt (m (xLoc d)) (m (tLoc d)) (widL L) 6 (by omega))
    (h : ∀ a x, ((![iota .scVector S16 32 [0] iota_S16_d0_w32_scVector, k0_pay136, (k0_pay137 (F := F) (scTV m d L f0 96 inb_S128_S16_96))] : Fin 3 → IVec S16 32) a x).toNat < S16x8x128.size a) :
    k0_pay139 acc (scGV m d L 6 k0_pay136 (k0_pay137 (F := F) (scTV m d L f0 96 inb_S128_S16_96)) h) (k0_pay138 (F := F) (scTV m d L f0 96 inb_S128_S16_96)) (Scalar.ofBits .f32 0x00000000#32)
      = scAccAt (m (xLoc d)) (m (tLoc d)) (widL L) 7 (by omega) :=
  (sc_acc_c6 acc (scTV m d L f0 96 inb_S128_S16_96) (scGV m d L 6 k0_pay136 (k0_pay137 (F := F) (scTV m d L f0 96 inb_S128_S16_96)) h)).trans
    (sc_step m d L (6 : Fin 8) f0 inb_S128_S16_96 k0_pay136 (k0_pay137 (F := F) (scTV m d L f0 96 inb_S128_S16_96)) acc hacc rfl rfl h)

/-- Chunk 7's accumulate payload, over the run's terms, takes the accumulator after 7 chunks to the one after 8. -/
theorem sc_acc_step7 (acc : FVec F S16 .f32)
    (hacc : acc = scAccAt (m (xLoc d)) (m (tLoc d)) (widL L) 7 (by omega))
    (h : ∀ a x, ((![iota .scVector S16 32 [0] iota_S16_d0_w32_scVector, k0_pay1, (k0_pay2 (F := F) (scTV m d L f0 112 inb_S128_S16_112))] : Fin 3 → IVec S16 32) a x).toNat < S16x8x128.size a) :
    k0_pay3 acc (scTV m d L f0 112 inb_S128_S16_112) (scGV m d L 7 k0_pay1 (k0_pay2 (F := F) (scTV m d L f0 112 inb_S128_S16_112)) h)
      = scAccAt (m (xLoc d)) (m (tLoc d)) (widL L) 8 (by omega) :=
  (sc_acc_c7 acc (scTV m d L f0 112 inb_S128_S16_112) (scGV m d L 7 k0_pay1 (k0_pay2 (F := F) (scTV m d L f0 112 inb_S128_S16_112)) h)).trans
    (sc_step m d L (7 : Fin 8) f0 inb_S128_S16_112 k0_pay1 (k0_pay2 (F := F) (scTV m d L f0 112 inb_S128_S16_112)) acc hacc rfl rfl h)

/-- The accumulator after the eight chunks, over the run's terms, is the tile's result. -/
theorem sc_final_acc
    (h0 : ∀ a x, ((![iota .scVector S16 32 [0] iota_S16_d0_w32_scVector, k0_pay21, (k0_pay22 (F := F) (scTV m d L f0 0 inb_S128_S16_0))] : Fin 3 → IVec S16 32) a x).toNat < S16x8x128.size a)
    (h1 : ∀ a x, ((![iota .scVector S16 32 [0] iota_S16_d0_w32_scVector, k0_pay40, (k0_pay41 (F := F) (scTV m d L f0 16 inb_S128_S16_16))] : Fin 3 → IVec S16 32) a x).toNat < S16x8x128.size a)
    (h2 : ∀ a x, ((![iota .scVector S16 32 [0] iota_S16_d0_w32_scVector, k0_pay60, (k0_pay61 (F := F) (scTV m d L f0 32 inb_S128_S16_32))] : Fin 3 → IVec S16 32) a x).toNat < S16x8x128.size a)
    (h3 : ∀ a x, ((![iota .scVector S16 32 [0] iota_S16_d0_w32_scVector, k0_pay79, (k0_pay80 (F := F) (scTV m d L f0 48 inb_S128_S16_48))] : Fin 3 → IVec S16 32) a x).toNat < S16x8x128.size a)
    (h4 : ∀ a x, ((![iota .scVector S16 32 [0] iota_S16_d0_w32_scVector, (k0_pay98 (iota .scVector S16 32 [0] iota_S16_d0_w32_scVector)), (k0_pay99 (F := F) (scTV m d L f0 64 inb_S128_S16_64))] : Fin 3 → IVec S16 32) a x).toNat < S16x8x128.size a)
    (h5 : ∀ a x, ((![iota .scVector S16 32 [0] iota_S16_d0_w32_scVector, k0_pay117, (k0_pay118 (F := F) (scTV m d L f0 80 inb_S128_S16_80))] : Fin 3 → IVec S16 32) a x).toNat < S16x8x128.size a)
    (h6 : ∀ a x, ((![iota .scVector S16 32 [0] iota_S16_d0_w32_scVector, k0_pay136, (k0_pay137 (F := F) (scTV m d L f0 96 inb_S128_S16_96))] : Fin 3 → IVec S16 32) a x).toNat < S16x8x128.size a)
    (h7 : ∀ a x, ((![iota .scVector S16 32 [0] iota_S16_d0_w32_scVector, k0_pay1, (k0_pay2 (F := F) (scTV m d L f0 112 inb_S128_S16_112))] : Fin 3 → IVec S16 32) a x).toNat < S16x8x128.size a) :
    (k0_pay3 (k0_pay139 (k0_pay119 (k0_pay100 (k0_pay81 (k0_pay62 (k0_pay43 (k0_pay23 (k0_pay4 (F := F)) (scTV m d L f0 0 inb_S128_S16_0) (scGV m d L 0 k0_pay21 (k0_pay22 (F := F) (scTV m d L f0 0 inb_S128_S16_0)) h0)) (scGV m d L 1 k0_pay40 (k0_pay41 (F := F) (scTV m d L f0 16 inb_S128_S16_16)) h1) (k0_pay42 (F := F) (scTV m d L f0 16 inb_S128_S16_16)) (Scalar.ofBits .f32 0x00000000#32)) (scTV m d L f0 32 inb_S128_S16_32) (scGV m d L 2 k0_pay60 (k0_pay61 (F := F) (scTV m d L f0 32 inb_S128_S16_32)) h2)) (scTV m d L f0 48 inb_S128_S16_48) (scGV m d L 3 k0_pay79 (k0_pay80 (F := F) (scTV m d L f0 48 inb_S128_S16_48)) h3)) (scTV m d L f0 64 inb_S128_S16_64) (scGV m d L 4 (k0_pay98 (iota .scVector S16 32 [0] iota_S16_d0_w32_scVector)) (k0_pay99 (F := F) (scTV m d L f0 64 inb_S128_S16_64)) h4)) (scTV m d L f0 80 inb_S128_S16_80) (scGV m d L 5 k0_pay117 (k0_pay118 (F := F) (scTV m d L f0 80 inb_S128_S16_80)) h5)) (scGV m d L 6 k0_pay136 (k0_pay137 (F := F) (scTV m d L f0 96 inb_S128_S16_96)) h6) (k0_pay138 (F := F) (scTV m d L f0 96 inb_S128_S16_96)) (Scalar.ofBits .f32 0x00000000#32)) (scTV m d L f0 112 inb_S128_S16_112) (scGV m d L 7 k0_pay1 (k0_pay2 (F := F) (scTV m d L f0 112 inb_S128_S16_112)) h7))
      = tileOut (m (xLoc d)) (m (tLoc d)) (widL L) := by
  have e1 := sc_acc_step0 m d L f0 _ (sc_chain_zero _ _ _) h0
  have e2 := sc_acc_step1 m d L f0 _ e1 h1
  have e3 := sc_acc_step2 m d L f0 _ e2 h2
  have e4 := sc_acc_step3 m d L f0 _ e3 h3
  have e5 := sc_acc_step4 m d L f0 _ e4 h4
  have e6 := sc_acc_step5 m d L f0 _ e5 h5
  have e7 := sc_acc_step6 m d L f0 _ e6 h6
  have e8 := sc_acc_step7 m d L f0 _ e7 h7
  exact e8.trans (sc_chain_last _ _ _)

/-- The copy-out's word 16 w + l is lane l of what the accumulator scratch reads. -/
theorem sc_out_read (fo : Buf (Elt F) (oLoc d)) (acc : Buf (Elt F) ((V d (cV L) (jV L)).loc cc0_scratch2)) (l : Fin 16) :
    View.write (Elt F) (oSlice L).view fo (ReadAs.same.apply ((sA : Memref sig .scVector .vmem S16 .f32).view.read (Elt F) acc)) Finset.univ
        (ix1 ⟨16 * (widL L).val + l.val, by have := (widL L).isLt; have := l.isLt; omega⟩)
      = (sA : Memref sig .scVector .vmem S16 .f32).view.read (Elt F) acc (ix1 l) := by
  have he : (oSlice L).view.emb (ix1 l) = ix1 ⟨16 * (widL L).val + l.val, by have := (widL L).isLt; have := l.isLt; omega⟩ := by
    funext a
    have ha : a = (0 : Fin 1) := Subsingleton.elim (α := Fin 1) a 0
    subst ha
    apply Fin.ext
    show k0_off250 L 0 + 1 * l.val = 16 * (widL L).val + l.val
    rw [k0_off250_eq]
    show 32 * (L 1).val + 16 * (L 0).val + 1 * l.val = 16 * (2 * (L 1).val + (L 0).val) + l.val
    omega
  rw [← he, View.write_emb_of_mem _ _ (Finset.mem_univ _)]
  exact cast_eq _ _

/-- THE POST'S VALUE: after the eight chunks, the store of the accumulator and the copy-out, the result array holds the
    worker's value in the worker's sixteen words. -/
theorem sc_post_value (f2 : Buf (Elt F) ((V d (cV L) (jV L)).loc cc0_scratch2))
    (h0 : ∀ a x, ((![iota .scVector S16 32 [0] iota_S16_d0_w32_scVector, k0_pay21, (k0_pay22 (F := F) (scTV m d L f0 0 inb_S128_S16_0))] : Fin 3 → IVec S16 32) a x).toNat < S16x8x128.size a)
    (h1 : ∀ a x, ((![iota .scVector S16 32 [0] iota_S16_d0_w32_scVector, k0_pay40, (k0_pay41 (F := F) (scTV m d L f0 16 inb_S128_S16_16))] : Fin 3 → IVec S16 32) a x).toNat < S16x8x128.size a)
    (h2 : ∀ a x, ((![iota .scVector S16 32 [0] iota_S16_d0_w32_scVector, k0_pay60, (k0_pay61 (F := F) (scTV m d L f0 32 inb_S128_S16_32))] : Fin 3 → IVec S16 32) a x).toNat < S16x8x128.size a)
    (h3 : ∀ a x, ((![iota .scVector S16 32 [0] iota_S16_d0_w32_scVector, k0_pay79, (k0_pay80 (F := F) (scTV m d L f0 48 inb_S128_S16_48))] : Fin 3 → IVec S16 32) a x).toNat < S16x8x128.size a)
    (h4 : ∀ a x, ((![iota .scVector S16 32 [0] iota_S16_d0_w32_scVector, (k0_pay98 (iota .scVector S16 32 [0] iota_S16_d0_w32_scVector)), (k0_pay99 (F := F) (scTV m d L f0 64 inb_S128_S16_64))] : Fin 3 → IVec S16 32) a x).toNat < S16x8x128.size a)
    (h5 : ∀ a x, ((![iota .scVector S16 32 [0] iota_S16_d0_w32_scVector, k0_pay117, (k0_pay118 (F := F) (scTV m d L f0 80 inb_S128_S16_80))] : Fin 3 → IVec S16 32) a x).toNat < S16x8x128.size a)
    (h6 : ∀ a x, ((![iota .scVector S16 32 [0] iota_S16_d0_w32_scVector, k0_pay136, (k0_pay137 (F := F) (scTV m d L f0 96 inb_S128_S16_96))] : Fin 3 → IVec S16 32) a x).toNat < S16x8x128.size a)
    (h7 : ∀ a x, ((![iota .scVector S16 32 [0] iota_S16_d0_w32_scVector, k0_pay1, (k0_pay2 (F := F) (scTV m d L f0 112 inb_S128_S16_112))] : Fin 3 → IVec S16 32) a x).toNat < S16x8x128.size a) :
    OutHolds m d (widL L)
      ((oSlice L).view.writes (Elt F) (m (oLoc d)) [⟨Rect.whole S16, ReadAs.same.apply (View.read (Elt F) (sA : Memref sig .scVector .vmem S16 .f32).view
        ((sA : Memref sig .scVector .vmem S16 .f32).view.writes (Elt F) f2 [⟨Rect.unit (s := S16) ![0] S16.size inb_S16_S16_0,
          (k0_pay3 (k0_pay139 (k0_pay119 (k0_pay100 (k0_pay81 (k0_pay62 (k0_pay43 (k0_pay23 (k0_pay4 (F := F)) (scTV m d L f0 0 inb_S128_S16_0) (scGV m d L 0 k0_pay21 (k0_pay22 (F := F) (scTV m d L f0 0 inb_S128_S16_0)) h0)) (scGV m d L 1 k0_pay40 (k0_pay41 (F := F) (scTV m d L f0 16 inb_S128_S16_16)) h1) (k0_pay42 (F := F) (scTV m d L f0 16 inb_S128_S16_16)) (Scalar.ofBits .f32 0x00000000#32)) (scTV m d L f0 32 inb_S128_S16_32) (scGV m d L 2 k0_pay60 (k0_pay61 (F := F) (scTV m d L f0 32 inb_S128_S16_32)) h2)) (scTV m d L f0 48 inb_S128_S16_48) (scGV m d L 3 k0_pay79 (k0_pay80 (F := F) (scTV m d L f0 48 inb_S128_S16_48)) h3)) (scTV m d L f0 64 inb_S128_S16_64) (scGV m d L 4 (k0_pay98 (iota .scVector S16 32 [0] iota_S16_d0_w32_scVector)) (k0_pay99 (F := F) (scTV m d L f0 64 inb_S128_S16_64)) h4)) (scTV m d L f0 80 inb_S128_S16_80) (scGV m d L 5 k0_pay117 (k0_pay118 (F := F) (scTV m d L f0 80 inb_S128_S16_80)) h5)) (scGV m d L 6 k0_pay136 (k0_pay137 (F := F) (scTV m d L f0 96 inb_S128_S16_96)) h6) (k0_pay138 (F := F) (scTV m d L f0 96 inb_S128_S16_96)) (Scalar.ofBits .f32 0x00000000#32)) (scTV m d L f0 112 inb_S128_S16_112) (scGV m d L 7 k0_pay1 (k0_pay2 (F := F) (scTV m d L f0 112 inb_S128_S16_112)) h7))⟩]))⟩]) := by
  unfold OutHolds
  intro l
  rw [← View.write_univ_eq_writes_whole, View.writes_nil]
  refine (sc_out_read d L _ _ l).trans ?_
  rw [sc_store_read_writes]
  exact congrFun (sc_final_acc m d L f0 h0 h1 h2 h3 h4 h5 h6 h7) (ix1 l)

end Final

end Cert.Proof.KernelIdeal

end
-- ==== Proof.ScTile.lean ====
/-
  A tile's body, run once at a symbolic place: the sync copy of its 128 entries of t, then for each of the eight
  chunks the sixteen block copies issued on the kernel's one semaphore (each from a read token of x on the block's
  own elements, into its tile of the scratch), the sixteen waits — only the last hands the tiles back —, the gather
  of one entry per row and the accumulation; the accumulator stored and its sixteen words copied out. The value is
  carried all along: after chunk k the scratch is the function `scG … k`, the accumulator `scAccAt … (k + 1)`.
-/
import proofs.«217662_g32298154065999_cont_8to1_b_8_33_alg».proof.Proof.ScTileLemmas3
import proofs.«217662_g32298154065999_cont_8to1_b_8_33_alg».proof.Proof.ScTileValue

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem pts_sX_access (d : Dev nD) (L : grid0.Coords) (f : Buf (Elt F) ((V d (cV L) (jV L)).loc cc0_scratch1)) :
    (((sX : Memref sig .scVector .vmem S16x8x128 .f32).access (.whole S16x8x128)).loc (V d (cV L) (jV L)) ↦{fullShare} f : sProp 𝕄)
      = (V d (cV L) (jV L)).loc cc0_scratch1 ↦{fullShare} f := rfl

theorem sc_waits_mono {W S : Waits sig (HIx 1)} (sm : SemLoc sig) (h : ∀ p ∈ S, p ∈ W ∨ p.2 = none) :
    ∀ p ∈ insert (sm, (none : HIx 1)) S, p ∈ W ∨ p.2 = none := by
  intro p hp
  rcases Finset.mem_insert.mp hp with rfl | hp
  · exact .inr rfl
  · exact h p hp

/-! ## The run's script

The body is unrolled: eight chunks, each sixteen (word check, issue), sixteen waits, a collect and a gather. The
steps of one lane and of one chunk are the same tactic text up to the chunk's and the lane's numbers — the names of
the generated facts (`inb_S128_S16_<16k>`, `slices_S16_o<j>_S1`, `k0_off<31k+2+j>`) and of the word the run names
(`<theorem>.sl.v<6+301k+12j>`) — so the text is computed from `(k, j)` here and run by `sc_chunk`. -/

namespace ScScript

def K8 (k : Nat) : String := s!"({k} : Fin 8)"
def J16 (j : Nat) : String := s!"({j} : Fin 16)"
def vname (thm : String) (k j : Nat) : String := s!"{thm}.sl.v{6 + 301 * k + 12 * j}"
def offN (k j : Nat) : String := s!"k0_off{31 * k + 2 + j}"
/-- What the scratch holds when chunk `k` starts. -/
def fdOf (k : Nat) : String := if k = 0 then "f1" else s!"(scG (m (xLoc d)) (m (tLoc d)) (widL L) {K8 (k - 1)})"
def names (p : String) : String := ", ".intercalate ((List.range 16).map fun j => s!"{p}{j}")

/-- Lane `j` of chunk `k`: run to the issue (the word's check discharged from the range of t), issue by `sc_issue`. -/
def lane (thm : String) (k j : Nat) : String :=
  let v := vname thm k j
  s!"  sl_exec_parts (disch := sc_chk (sc_v_le hrng f0 {16 * k} inb_S128_S16_{16 * k} ![{j}] slices_S16_o{j}_S1 inpos_S1_p0))
  have hv : {v} m d L f0 = scTw m d L {K8 k} {J16 j} := sc_v_eq f0 {K8 k} {J16 j} inb_S128_S16_{16 * k} slices_S16_o{j}_S1 inpos_S1_p0
  iapply (sc_issue hrng {K8 k} {J16 j} {fdOf k} ({offN k j} L ({v} m d L f0)) _ (by rw [hv]; rfl)) $$ [Hb{j} Hd{j} HB]
  · isplitl [Hb{j}]; · iexact Hb{j}
    isplitl [Hd{j}]; · iexact Hd{j}
    iexact HB
  iintro HB
  clear hv
"

/-- Chunk `k`: the scratch as its tiles, x lent, the batch allocated (from the semaphore's counter at zero); the sixteen
    lanes; the waits; the collect; the gather's check and the gather. -/
def chunk (thm : String) (k : Nat) : String :=
  let fd := fdOf k
  let hall := " ".intercalate ((List.range 16).map fun j => s!"HB_dst{j} HB_src{j}")
  s!"  ihave Htl := (Entails.of_eq ((sc_tiles_split (F := F) (d := d) (L := L) {fd}).trans (sc_bigSep16 _))) $$ Hs1
  icases Htl with ⟨{names "Hd"}⟩
  ihave Hxl := (sc_x_lend (F := F) (m := m) (d := d) (L := L) hrng {K8 k}) $$ Hx
  icases Hxl with ⟨Hbs, Hback⟩
  ihave Hbs' := (Entails.of_eq (sc_bigSep16 _)) $$ Hbs
  icases Hbs' with ⟨{names "Hb"}⟩
  imod (Transfers.batch_alloc' (Lvl := ℕ) (countersEmb (U := UU)) (V d (cV L) (jV L)) (none : HIx 1) scN
    (scD (F := F) m d L hrng {K8 k} {fd}) (sm := .dma cc0_scratch3.sem) (E := Set.univ)) $$ HsemK with HB
" ++ String.join ((List.range 16).map (lane thm k)) ++
  s!"  sl_exec_parts
  ihave HsemK : (semVal (scCellK d L) 0) $$ [HB]
  · iexact HB
  ihave Hall : (bigSep Finset.univ (scD (F := F) m d L hrng {K8 k} {fd})) $$ [{hall}]
  · rw [sc_bigSep16]; unfold scD scDelivAt
" ++ String.join ((List.range 15).map fun j => s!"    isplitl [HB_dst{j} HB_src{j}]
    · isplitl [HB_dst{j}]; · iexact HB_dst{j}
      iexact HB_src{j}
") ++
  s!"    isplitl [HB_dst15]; · iexact HB_dst15
    iexact HB_src15
  ihave Hc := (sc_collect (F := F) (m := m) (d := d) (L := L) hrng _ {fd}) $$ Hall
  icases Hc with ⟨Hs1, Hbs⟩
  ihave Hx := Hback $$ Hbs
  sl_exec_parts (disch := exact sc_gchk _ _)
  ihave Hsx := (Entails.of_eq (pts_sX_access (F := F) d L _).symm) $$ Hs1
  iapply (SparseCore.wp_vectorLoadIdx 𝒱₀ (V d (cV L) (jV L)) none Set.univ (base := (sX : Memref sig .scVector .vmem S16x8x128 .f32)) (S := Finset.univ) (q := fullShare) (Finset.subset_univ _)) $$ Hsx; iintro Hsx
  ihave Hs1 := (Entails.of_eq (pts_sX_access (F := F) d L _)) $$ Hsx
"

end ScScript

open Lean Elab Tactic in
/-- Run chunk `k`'s script in the theorem `thm`. -/
elab "sc_chunk " thm:ident k:num : tactic => do
  let txt := "(\n" ++ ScScript.chunk thm.getId.toString k.getNat ++ ")"
  match Parser.runParserCategory (← getEnv) `tactic txt with
  | .ok stx => evalTactic stx
  | .error e => throwError e

section Body
variable [FloatOps F] (m : (ℓ : Loc nD τ sig) → Buf (Elt F) ℓ) (d : Dev nD) (L : grid0.Coords)
set_option maxHeartbeats 4000000 in
theorem tile_body (hF : (K (F := F)).Facts)
    (hrng : ∀ i, (m (tLoc d) i).toNat ≤ 31999) (O : CellTallies nD τ sig (HIx 1)) (W : Waits sig (HIx 1)) (hO : ∀ g, O g none = 0) :
    TileBodyAt (F := F) m d L O W := by
  unfold TileBodyAt tileProg goRes tdRes
  simp only [cc0__sc_gather_eq_skeleton]; unfold cc0__sc_gather_skel
  rw [(K (F := F)).scopedBufs_V hF d (cV L) (jV L), SparseCore.Cfg.scopedSems0_V (Val := Elt F) d (cV L) (jV L), sc_ownSems0_V, sc_ownBufs_V]
  iintro ⟨#Hlv, ⟨Hx, Ht, Ho⟩, ⟨⟨%f0, Hs0⟩, ⟨%f1, Hs1⟩, ⟨%f2, Hs2⟩, Hbufs⟩, ⟨HsemK, Hsem0, Hsem1, Hsems⟩, HO⟩
  ihave Hmw := ((K (F := F)).mayWaits_none (thr := V d (cV L) (jV L)) hO) $$ Hlv
  ihave Ht' := (Entails.of_eq (pts_tSlice (F := F) d L _).symm) $$ Ht
  ihave Hs0' := (Entails.of_eq (pts_sT (F := F) d L _).symm) $$ Hs0
  sc_chunk tile_body 0
  sc_chunk tile_body 1
  sc_chunk tile_body 2
  sc_chunk tile_body 3
  sc_chunk tile_body 4
  sc_chunk tile_body 5
  sc_chunk tile_body 6
  sc_chunk tile_body 7
  -- the accumulator stored, the sixteen words copied out
  ihave Ho' := (Entails.of_eq (pts_oSlice (F := F) d L _).symm) $$ Ho
  ihave Hs2' := (Entails.of_eq (pts_sA (F := F) d L _).symm) $$ Hs2
  sl_exec_parts
  sl_step
  isplitl [Hx Ht' Ho']
  · isplitl [Hx]; · iexact Hx
    isplitl [Ht']
    · ihave Ht := (Entails.of_eq (pts_tSlice (F := F) d L _)) $$ Ht'; iexact Ht
    iexists _
    isplitr
    rotate_left
    · ihave Ho := (Entails.of_eq (pts_oSlice (F := F) d L _)) $$ Ho'; iexact Ho
    · ipureintro
      exact sc_post_value m d L f0 f2 (sc_gchk _ _) (sc_gchk _ _) (sc_gchk _ _) (sc_gchk _ _) (sc_gchk _ _) (sc_gchk _ _) (sc_gchk _ _) (sc_gchk _ _)
  isplitl [Hs0' Hs1 Hs2' Hbufs]
  · isplitl [Hs0']; · iexists _; iexact Hs0'
    isplitl [Hs1]; · iexists _; iexact Hs1
    isplitl [Hs2']; · iexists _; iexact Hs2'
    iexact Hbufs
  isplitl [HsemK Hsem0 Hsem1 Hsems]
  · isplitl [HsemK]; · iexact HsemK
    isplitl [Hsem0]; · iexact Hsem0
    isplitl [Hsem1]; · iexact Hsem1
    iexact Hsems
  iexists _; isplitr
  rotate_left
  · iexact HO
  · ipureintro
    repeat' (first | exact fun _ h => Or.inl h | apply sc_waits_mono)

/-- The launch theorem's obligation for the tiles. -/
theorem tileObl (hF : (K (F := F)).Facts) (hrng : ∀ d i, (m (tLoc d) i).toNat ≤ 31999) :
    (K (F := F)).TileObl (D (F := F)) 𝒱 (P m) v₀ 0 :=
  tileObl_of m fun d L O W hO => tile_body m d L hF (hrng d) O W hO

end Body

end Cert.Proof.KernelIdeal

end
-- ==== Proof.Bits.ScTileDefs.lean ====
/-
  A tile's task as the launch theorem asks for it: the place of the tile on the grid, the worker number it computes,
  the program it runs with the operands the kernel is called with, the statement of its body's triple, and the
  launch theorem's obligation from that triple.
-/
import proofs.«217662_g32298154065999_cont_8to1_b_8_33_alg».proof.Proof.Bits.Pay

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The operands, as the kernel is called with them -/

abbrev xV : Memref sig .scVector .hbm S4096x32000 .f32 := Memref.whole main_arg0_scv
abbrev tV : Memref sig .scVector .hbm S4096 .i32 := Memref.whole main_arg1_scv
abbrev oV : Memref sig .scVector .hbm S512 .f32 := Memref.whole main_v0_scv
/-- A tile's scratch: its 128 entries of t, the sixteen 8×128 blocks of x, the accumulator. -/
abbrev sT : Memref sig .scVector .vmem S128 .i32 := Memref.whole cc0_scratch0
abbrev sX : Memref sig .scVector .vmem S16x8x128 .f32 := Memref.whole cc0_scratch1
abbrev sA : Memref sig .scVector .vmem S16 .f32 := Memref.whole cc0_scratch2

/-! ## The place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number the tile at grid point `L` computes: twice its subcore plus its core. -/
def widL (L : grid0.Coords) : Fin 32 :=
  ⟨2 * (L 1).val + (L 0).val, by have h0 : (L 0).val < 2 := (L 0).isLt; have h1 : (L 1).val < 16 := (L 1).isLt; omega⟩

def coordsV (c : Fin (grid0.bound 0)) (s : Fin (grid0.bound 1)) : grid0.Coords :=
  fun | 0 => c | 1 => s | ⟨_ + 2, h⟩ => absurd h (Nat.not_lt.2 (Nat.le_add_left _ _))

/-- The tile's program at grid point `L`. -/
abbrev tileProg [FloatOps F] (L : grid0.Coords) :
    Prog (TpuEff nD τ sig (Elt F) Λ₀ (.scVector ((L 0).castLE hcore0) ((L 1).castLE hsub0))) PUnit :=
  cc0__sc_gather L xV (Memref.isWhole_whole _) tV (Memref.isWhole_whole _) oV (Memref.isWhole_whole _)
    sT (Memref.isWhole_whole _) sX (Memref.isWhole_whole _) sA (Memref.isWhole_whole _) cc0_scratch3 cc0_scoped0 cc0_scoped1

theorem defs₀_vector [FloatOps F] (c : Fin τ.nSC) (s : Fin τ.nSub) :
    defs₀ (F := F) (.scVector c s) 0 ()
      = SparseCore.onTile hcore0 hsub0 (fun c s => tileProg (F := F) (coordsV c s)) ⟨⟩ c s := rfl

/-! ## The body's triple, as a statement -/

/-- The triple of the tile's body at grid point `L` of device `d`: from the worker's pieces at the launch contents,
    the tile's own buffers and semaphores, to the pieces back with the result's words at the worker's value. -/
def TileBodyAt [FloatOps F] (m : (ℓ : Loc nD τ sig) → Buf (Elt F) ℓ) (d : Dev nD) (L : grid0.Coords)
    (O : CellTallies nD τ sig (HIx 1)) (W : Waits sig (HIx 1)) : Prop :=
  iprop(levAts (K (F := F)).L (K (F := F)).lev ∗ goRes m d (widL L) ∗ scopedBufs (V d (cV L) (jV L)) ∗ scopedSems0 (V d (cV L) (jV L))
      ∗ owes (V d (cV L) (jV L)) O W)
    ⊢ wp frame (wpE (defs₀ (F := F)) 𝒱₀ (V d (cV L) (jV L)) none) Set.univ (tileProg (F := F) L)
        fun _ => iprop(tdRes m d (widL L) ∗ scopedBufs (V d (cV L) (jV L)) ∗ scopedSems0 (V d (cV L) (jV L))
          ∗ ∃ W', ⌜∀ p ∈ W', p ∈ W ∨ p.2 = none⌝ ∗ owes (V d (cV L) (jV L)) O W')

/-! ## The launch theorem's obligation from the triple -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_pre {A X G B C E : sProp 𝕄} : iprop(A ∗ X ∗ G ∗ B ∗ C ∗ E) ⊢ iprop(A ∗ G ∗ B ∗ C ∗ E) := by
  iintro ⟨HA, -, HG, HB, HC, HE⟩
  isplitl [HA]; · iexact HA
  isplitl [HG]; · iexact HG
  isplitl [HB]; · iexact HB
  isplitl [HC]; · iexact HC
  iexact HE

theorem widL_coordsV (c : Fin (grid0.bound 0)) (s : Fin (grid0.bound 1)) :
    widL (coordsV c s) = widOf (Fin.cast bound_zero c) (Fin.cast bound_one s) := rfl

set_option maxRecDepth 65536 in
theorem tileObl_of [FloatOps F] (m : (ℓ : Loc nD τ sig) → Buf (Elt F) ℓ)
    (hbody : ∀ d L O W, (∀ g, O g none = 0) → TileBodyAt (F := F) m d L O W) :
    (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := hbody d (coordsV ⟨_, hc.1⟩ ⟨_, hc.2⟩) O W hO
  unfold TileBodyAt at hb
  have hw : widL (coordsV ⟨_, hc.1⟩ ⟨_, hc.2⟩) = widOf (Fin.cast nCore_zero c) (Fin.cast nSub_zero i) := Fin.ext rfl
  rw [hw] at hb
  have hb' := hb.trans (wp_mono frame _ _ fun _ => obl_post (q := (0 : Fin 1)))
  exact obl_pre.trans hb'

end Cert.Proof.Kernel

end
-- ==== Proof.Bits.ScTileMath.lean ====
/-
  The arithmetic of a tile's copies: the row of a block is the tile's base row plus two constants, the column of
  a block is the 128-aligned part of a word of t; with t at most 31999 every 8 × 128 block lies inside the
  4096 × 32000 array (32000 = 250 · 128), and the side conditions the body assumes of each word follow.
-/
import proofs.«217662_g32298154065999_cont_8to1_b_8_33_alg».proof.Proof.Bits.ScTileDefs

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Words -/

theorem sc_and_hi (x : Nat) (hx : x < 2^32) : x &&& 4294967168 = 128 * (x / 128) := by
  have h1 : (x &&& 4294967168) % 2^7 = 0 := by
    rw [Nat.and_mod_two_pow]; norm_num
  have h2 : (x &&& 4294967168) / 2^7 = x / 2^7 := by
    rw [Nat.and_div_two_pow]
    rw [show (4294967168 : Nat) / 2^7 = 2^25 - 1 by norm_num, Nat.and_two_pow_sub_one_eq_mod, Nat.mod_eq_of_lt]
    omega
  omega

theorem sc_and_lo (x : Nat) : x &&& 127 = x % 128 := by
  rw [show (127 : Nat) = 2^7 - 1 by norm_num, Nat.and_two_pow_sub_one_eq_mod]

theorem sc_and_7 (x : Nat) : x &&& 7 = x % 8 := by
  rw [show (7 : Nat) = 2^3 - 1 by norm_num, Nat.and_two_pow_sub_one_eq_mod]

/-- The 128-aligned part of a word. -/
theorem sc_andi_hi (v : BitVec 32) : (Scalar.andi v 4294967168#32).toNat = 128 * (v.toNat / 128) := by
  show (v &&& 4294967168#32).toNat = _
  rw [BitVec.toNat_and]; exact sc_and_hi _ v.isLt

/-- The lane of a word inside its block of 128. -/
theorem sc_andi_lo (v : BitVec 32) : (IntOp.andi v 127#32).toNat = v.toNat % 128 := by
  show (v &&& 127#32).toNat = _
  rw [BitVec.toNat_and]; exact sc_and_lo _

theorem sc_andi_7 (v : BitVec 32) : (IntOp.andi v 7#32).toNat = v.toNat % 8 := by
  show (v &&& 7#32).toNat = _
  rw [BitVec.toNat_and]; exact sc_and_7 _

theorem sc_dvd (v : BitVec 32) : 128 ∣ (Scalar.andi v 4294967168#32).toNat := ⟨_, sc_andi_hi v⟩

/-! ## The base row and the blocks' offsets -/

/-- The tile's base row, as the kernel computes it from its grid point: 128 times the worker number. -/
def scBase (L : grid0.Coords) : BitVec 32 :=
  Scalar.muli (Scalar.addi (Scalar.muli (BitVec.ofNat 32 (L 1).val) 2#32) (BitVec.ofNat 32 (L 0).val)) 128#32

theorem scBase_toNat (L : grid0.Coords) : (scBase L).toNat = 128 * (widL L).val := by
  have h0 : (L 0).val < 2 := (L 0).isLt
  have h1 : (L 1).val < 16 := (L 1).isLt
  show ((BitVec.ofNat 32 (L 1).val * 2#32 + BitVec.ofNat 32 (L 0).val) * 128#32).toNat = 128 * (2 * (L 1).val + (L 0).val)
  simp only [BitVec.toNat_mul, BitVec.toNat_add, BitVec.toNat_ofNat]
  omega

/-- The offsets of a block copy: the base row plus two constants, the word's 128-aligned part. -/
def scOff (L : grid0.Coords) (c1 c2 v : BitVec 32) : Fin 2 → Nat :=
  ![(Scalar.addi (Scalar.addi (scBase L) c1) c2).toNat, (Scalar.andi v 4294967168#32).toNat]

theorem scOff_eq (L : grid0.Coords) (c1 c2 v : BitVec 32) (h : c1.toNat + c2.toNat ≤ 120) :
    scOff L c1 c2 v = ![128 * (widL L).val + (c1.toNat + c2.toNat), 128 * (v.toNat / 128)] := by
  have hw := (widL L).isLt
  unfold scOff
  congr 1
  · show ((scBase L + c1 + c2).toNat) = _
    simp only [BitVec.toNat_add, scBase_toNat]
    omega
  · rw [sc_andi_hi]

theorem scOff_inb (L : grid0.Coords) (c1 c2 v : BitVec 32) (h : c1.toNat + c2.toNat ≤ 120) (hv : v.toNat ≤ 31999) :
    ∀ a, scOff L c1 c2 v a + S8x128.size a ≤ S4096x32000.size a := by
  have hw := (widL L).isLt
  rw [scOff_eq L c1 c2 v h]
  intro a
  match a with
  | 0 => show 128 * (widL L).val + (c1.toNat + c2.toNat) + 8 ≤ 4096; omega
  | 1 => show 128 * (v.toNat / 128) + 128 ≤ 32000; omega

/-- The side condition the body assumes of a word of t before it copies the word's block: the column offset a
    multiple of 128, the block (as issued, and as waited for) inside the array. It holds of every word at most 31999.
    One statement for the 128 copies: the printed offsets are `scOff` at the copy's two constants, by unfolding. -/
macro "sc_chk" hv:term : tactic =>
  `(tactic| first
    | exact ⟨sc_dvd _, scOff_inb _ _ _ _ (by decide) $hv, scOff_inb _ _ _ _ (by decide) $hv⟩
    | exact ⟨sc_dvd _, scOff_inb _ _ _ _ (by decide) $hv⟩)

example (L : grid0.Coords) (v : BitVec 32) (hv : v.toNat ≤ 31999) : k0_chk1 L v := by sc_chk hv
example (L : grid0.Coords) (v : BitVec 32) (hv : v.toNat ≤ 31999) : k0_chk16 L v := by sc_chk hv
example (L : grid0.Coords) (v : BitVec 32) (hv : v.toNat ≤ 31999) : k0_chk60 L v := by sc_chk hv
example (L : grid0.Coords) (v : BitVec 32) (hv : v.toNat ≤ 31999) : k0_chk135 L v := by sc_chk hv

end Cert.Proof.Kernel

end
-- ==== Proof.Bits.ScTileRes.lean ====
/-
  A tile's resources as its body slices them: its own semaphores and scratch buffers, its entries of t and words
  of the result, the 8 × 128 blocks of x its copies read and the sixteen tiles of the scratch they land in, what
  a copy delivers, and what the index scratch holds once the entries of t have landed.
-/
import proofs.«217662_g32298154065999_cont_8to1_b_8_33_alg».proof.Proof.Bits.ScTileMath

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile's own semaphores and buffers -/

section Tile

variable (d : Dev nD) (L : grid0.Coords)

/-- The tile's thread. -/
abbrev tileThr : Thread nD τ := V d (cV L) (jV L)

/-- The kernel's one semaphore for the block copies, and the two scoped regions' own. -/
abbrev scCellK : GSem nD τ sig := (V d (cV L) (jV L), .dma cc0_scratch3.sem)
abbrev scCell0 : GSem nD τ sig := (V d (cV L) (jV L), .dma cc0_scoped0.sem)
abbrev scCell1 : GSem nD τ sig := (V d (cV L) (jV L), .dma cc0_scoped1.sem)

theorem sc_ownSems0_V :
    (ownSems0 (V d (cV L) (jV L)) : sProp 𝕄)
      = iprop(semVal (scCellK d L) 0 ∗ semVal (scCell0 d L) 0 ∗ semVal (scCell1 d L) 0
          ∗ bigSep ((((ownCells (V d (cV L) (jV L))).erase (scCellK d L)).erase (scCell0 d L)).erase (scCell1 d L))
              fun g => semVal g 0) := by
  unfold SparseCore.Cfg.ownSems0
  rw [SparseCore.bigSep_erase' ((mem_ownCells (g := scCellK d L)).mpr ⟨rfl, by
      show (SemLoc.dma cc0_scratch3.sem : SemLoc sig).isScoped .scVector = true; decide⟩),
    SparseCore.bigSep_erase' (Finset.mem_erase.mpr ⟨by simp [scCellK, scCell0]; decide, (mem_ownCells (g := scCell0 d L)).mpr ⟨rfl, by
      show (SemLoc.dma cc0_scoped0.sem : SemLoc sig).isScoped .scVector = true; decide⟩⟩),
    SparseCore.bigSep_erase' (Finset.mem_erase.mpr ⟨by simp [scCell0, scCell1]; decide, Finset.mem_erase.mpr ⟨by simp [scCellK, scCell1]; decide,
      (mem_ownCells (g := scCell1 d L)).mpr ⟨rfl, by show (SemLoc.dma cc0_scoped1.sem : SemLoc sig).isScoped .scVector = true; decide⟩⟩⟩)]

/-- The three scratch buffers are among the tile's own: they are them, at some contents, and the rest. -/
theorem sc_ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The tile's entries of t and words of the result, as the body slices them -/

abbrev tSliceR : Rect S4096 := Rect.unit (s := S4096) (k0_off1 L) S128.size (k0_off1_inb L)
abbrev oSliceR : Rect S512 := Rect.unit (s := S512) (k0_off250 L) S16.size (k0_off250_inb L)
abbrev tSlice : Memref sig .scVector .hbm S128 .i32 := (tV : Memref sig .scVector .hbm S4096 .i32).slice (tSliceR L) (fun _ => rfl)
abbrev oSlice : Memref sig .scVector .hbm S16 .f32 := (oV : Memref sig .scVector .hbm S512 .f32).slice (oSliceR L) (fun _ => rfl)

theorem tSliceR_eq : tSliceR L = Rect.part (s := S4096) (a₀ := 0) hdivT (widL L) := by
  unfold tSliceR Rect.part Rect.block
  congr 1 <;> funext a
  · rw [k0_off1_eq]
    match a with
    | 0 => simp [Shape.partIx, Shape.partSize, widL]; omega
  · match a with
    | 0 => simp [Shape.partSize]
theorem oSliceR_eq : oSliceR L = Rect.part (s := S512) (a₀ := 0) hdivO (widL L) := by
  unfold oSliceR Rect.part Rect.block
  congr 1 <;> funext a
  · rw [k0_off250_eq]
    match a with
    | 0 => simp [Shape.partIx, Shape.partSize, widL]; omega
  · match a with
    | 0 => simp [Shape.partSize]

theorem set_tSlice : (tSlice L).view.set = tPart (widL L) := by
  show ((View.whole (main_arg1_scv : Ref sig .scVector)).slice (tSliceR L)).set = _
  rw [View.set_slice, tSliceR_eq]; exact Finset.map_refl
theorem set_oSlice : (oSlice L).view.set = oPart (widL L) := by
  show ((View.whole (main_v0_scv : Ref sig .scVector)).slice (oSliceR L)).set = _
  rw [View.set_slice, oSliceR_eq]; exact Finset.map_refl

theorem pts_tSlice (f : Buf (Elt F) (tLoc d)) :
    ((tSlice L).view.loc (V d (cV L) (jV L)) ↦[(tSlice L).view.set]{fullShare} f : sProp 𝕄) = tLoc d ↦[tPart (widL L)]{fullShare} f := by
  rw [set_tSlice]
theorem pts_oSlice (f : Buf (Elt F) (oLoc d)) :
    ((oSlice L).view.loc (V d (cV L) (jV L)) ↦[(oSlice L).view.set]{fullShare} f : sProp 𝕄) = oLoc d ↦[oPart (widL L)]{fullShare} f := by
  rw [set_oSlice]

theorem pts_sT (f : Buf (Elt F) ((V d (cV L) (jV L)).loc cc0_scratch0)) :
    ((sT : Memref sig .scVector .vmem S128 .i32).view.loc (V d (cV L) (jV L)) ↦{fullShare} f : sProp 𝕄) = (V d (cV L) (jV L)).loc cc0_scratch0 ↦{fullShare} f := rfl
theorem pts_sX (f : Buf (Elt F) ((V d (cV L) (jV L)).loc cc0_scratch1)) :
    ((sX : Memref sig .scVector .vmem S16x8x128 .f32).view.loc (V d (cV L) (jV L)) ↦{fullShare} f : sProp 𝕄) = (V d (cV L) (jV L)).loc cc0_scratch1 ↦{fullShare} f := rfl
theorem pts_sA (f : Buf (Elt F) ((V d (cV L) (jV L)).loc cc0_scratch2)) :
    ((sA : Memref sig .scVector .vmem S16 .f32).view.loc (V d (cV L) (jV L)) ↦{fullShare} f : sProp 𝕄) = (V d (cV L) (jV L)).loc cc0_scratch2 ↦{fullShare} f := rfl

end Tile

/-! ## The blocks of x and the tiles of the scratch -/

abbrev scBlkR (off : Fin 2 → Nat) (inb : ∀ a, off a + S8x128.size a ≤ S4096x32000.size a) : Rect S4096x32000 :=
  Rect.unit (s := S4096x32000) off S8x128.size inb
/-- The 8 × 128 block of x at `off`, as the body slices it. -/
abbrev scBlkM (off : Fin 2 → Nat) (inb : ∀ a, off a + S8x128.size a ≤ S4096x32000.size a) : Memref sig .scVector .hbm S8x128 .f32 :=
  (xV : Memref sig .scVector .hbm S4096x32000 .f32).slice (scBlkR off inb) (fun _ => rfl)

theorem sc_inb_tile (j : Fin 16) : ∀ a, (![j.val, 0, 0] : Fin 3 → Nat) a + S1x8x128.size a ≤ S16x8x128.size a := by
  have := j.isLt
  intro a
  match a with
  | 0 => show j.val + 1 ≤ 16; omega
  | 1 => show 0 + 8 ≤ 8; omega
  | 2 => show 0 + 128 ≤ 128; omega
abbrev scTileR (j : Fin 16) : Rect S16x8x128 := Rect.unit (s := S16x8x128) ![j.val, 0, 0] S1x8x128.size (sc_inb_tile j)
/-- Tile `j` of the scratch, an 8 × 128 block, as the body slices and squeezes it. -/
abbrev scTileM (j : Fin 16) : Memref sig .scVector .vmem S8x128 .f32 :=
  ((sX : Memref sig .scVector .vmem S16x8x128 .f32).slice (scTileR j) (fun _ => rfl)).squeeze S8x128 squeezes_S1x8x128_S8x128

section Deliv
variable (d : Dev nD) (L : grid0.Coords)

/-- What the copy of the block at `off` into tile `j` delivers: the tile holding the block, the block's share back. -/
def scDelivAt (mx : Buf (Elt F) (xLoc d)) (j : Fin 16) (q : PosShare TreeShare)
    (fd : Buf (Elt F) ((scTileM j).view.loc (V d (cV L) (jV L))))
    (off : Fin 2 → Nat) (inb : ∀ a, off a + S8x128.size a ≤ S4096x32000.size a) : sProp 𝕄 :=
  iprop(((scTileM j).view.loc (V d (cV L) (jV L)) ↦[(scTileM j).view.set]{fullShare}
          ((scTileM j).view.write (Elt F) fd (ReadAs.same.apply ((scBlkM off inb).view.read (Elt F) mx)) Finset.univ))
     ∗ ((scBlkM off inb).view.loc (V d (cV L) (jV L)) ↦[(scBlkM off inb).view.set]{q} mx))

theorem scDelivAt_congr (mx : Buf (Elt F) (xLoc d)) (j : Fin 16) (q : PosShare TreeShare)
    (fd : Buf (Elt F) ((scTileM j).view.loc (V d (cV L) (jV L))))
    {off off' : Fin 2 → Nat} (h : off = off') (inb : ∀ a, off a + S8x128.size a ≤ S4096x32000.size a)
    (inb' : ∀ a, off' a + S8x128.size a ≤ S4096x32000.size a) :
    scDelivAt (F := F) d L mx j q fd off inb = scDelivAt (F := F) d L mx j q fd off' inb' := by
  subst h; rfl

instance scDelivAt_storable (mx : Buf (Elt F) (xLoc d)) (j : Fin 16) (q : PosShare TreeShare)
    (fd : Buf (Elt F) ((scTileM j).view.loc (V d (cV L) (jV L))))
    (off : Fin 2 → Nat) (inb : ∀ a, off a + S8x128.size a ≤ S4096x32000.size a) :
    BI.Storable (upEmb : UEmb _ 𝕄) (scDelivAt (F := F) d L mx j q fd off inb) := by unfold scDelivAt; infer_instance

end Deliv

section Words
variable (d : Dev nD) (L : grid0.Coords)

/-- What the tile's index scratch holds once its entries of t have landed: entry `i` is t at `128 w + i`. -/
def scTgtF (mt : Buf (Elt F) (tLoc d)) : Buf (Elt F) ((V d (cV L) (jV L)).loc cc0_scratch0) :=
  fun i => mt (ix1 ⟨128 * (widL L).val + (i 0).val, by have := (widL L).isLt; have h : (i 0).val < 128 := (i 0).isLt; omega⟩)

theorem sc_tgt_eq (f0 : Buf (Elt F) ((V d (cV L) (jV L)).loc cc0_scratch0)) (mt : Buf (Elt F) (tLoc d)) :
    View.write (Elt F) (sT : Memref sig .scVector .vmem S128 .i32).view f0 (ReadAs.same.apply ((tSlice L).view.read (Elt F) mt)) Finset.univ
      = scTgtF (F := F) d L mt := by
  rw [View.write_whole_univ]
  funext i
  show (tSlice L).view.read (Elt F) mt i = _
  rw [View.read_apply]
  refine (cast_eq _ _).trans ?_
  show mt ((tSliceR L).emb i) = mt (ix1 ⟨128 * (widL L).val + (i 0).val, _⟩)
  congr 1
  funext a
  have ha : a = (0 : Fin 1) := Subsingleton.elim (α := Fin 1) a 0
  subst ha
  apply Fin.ext
  show k0_off1 L 0 + 1 * (i 0).val = 128 * (widL L).val + (i 0).val
  rw [k0_off1_eq]
  show 256 * (L 1).val + 128 * (L 0).val + 1 * (i 0).val = 128 * (2 * (L 1).val + (L 0).val) + (i 0).val
  omega

/-- A chunk's sixteen entries, loaded from the scratch. -/
theorem sc_load_eq (mt : Buf (Elt F) (tLoc d)) (k : Fin 8) (inb : ∀ a, (![16 * k.val] : Fin 1 → Nat) a + S16.size a ≤ S128.size a) :
    View.readAt (Elt F) (sT : Memref sig .scVector .vmem S128 .i32).view (Rect.unit (s := S128) ![16 * k.val] S16.size inb).toLoadRect (scTgtF (F := F) d L mt)
      = tvec mt (widL L) k := by
  funext l
  simp only [View.readAt_apply, Memref.view_whole, View.read_whole]
  unfold scTgtF tvec rowOf
  congr 1
  funext a
  have ha : a = (0 : Fin 1) := Subsingleton.elim (α := Fin 1) a 0
  subst ha
  apply Fin.ext
  show 128 * (widL L).val + (16 * k.val + 1 * (l 0).val) = 128 * (widL L).val + 16 * k.val + (l 0).val
  omega

/-- Lane `j` of a chunk's entries, as the body extracts it, is t at the lane's row. -/
theorem sc_word_eq (mt : Buf (Elt F) (tLoc d)) (k : Fin 8) (j : Fin 16) (h : S16.Slices ![j.val] S1) (h' : ∀ a, (![0] : Fin 1 → Nat) a < S1.size a) :
    extractAt ![0] (extractStridedSlice S1 ![j.val] (tvec mt (widL L) k) h) h' = mt (ix1 (rowOf (widL L) k j)) := rfl

end Words

end Cert.Proof.Kernel

end
-- ==== Proof.Bits.ScTileChunk.lean ====
/-
  One chunk of a tile's work: the sixteen words of t it extracts, the blocks of x they name, the read tokens and
  the tiles its sixteen copies take, the batch they form on the kernel's semaphore, and the one rule by which
  each copy is issued.
-/
import proofs.«217662_g32298154065999_cont_8to1_b_8_33_alg».proof.Proof.Bits.ScTileRes

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Chunk
variable [FloatOps F] (m : (ℓ : Loc nD τ sig) → Buf (Elt F) ℓ) (d : Dev nD) (L : grid0.Coords)

/-- The word of t for lane `j` of chunk `k`. -/
def scTw (k : Fin 8) (j : Fin 16) : BitVec 32 := m (tLoc d) (ix1 (rowOf (widL L) k j))
theorem scTw_le (hrng : ∀ i, (m (tLoc d) i).toNat ≤ 31999) (k : Fin 8) (j : Fin 16) : (scTw m d L k j).toNat ≤ 31999 := hrng _

/-- The two constants of a block's row: the chunk's sixteen rows, the lane's half of them. -/
def scC1 (k : Fin 8) : BitVec 32 := BitVec.ofNat 32 (16 * k.val)
def scC2 (j : Fin 16) : BitVec 32 := BitVec.ofNat 32 (8 * (j.val / 8))
theorem scC_le (k : Fin 8) (j : Fin 16) : (scC1 k).toNat + (scC2 j).toNat ≤ 120 := by
  have := k.isLt; have := j.isLt
  unfold scC1 scC2; simp only [BitVec.toNat_ofNat]; omega

/-- The block lane `j` of chunk `k` copies. -/
abbrev scBlkC (hrng : ∀ i, (m (tLoc d) i).toNat ≤ 31999) (k : Fin 8) (j : Fin 16) : Memref sig .scVector .hbm S8x128 .f32 :=
  scBlkM (scOff L (scC1 k) (scC2 j) (scTw m d L k j)) (scOff_inb L _ _ _ (scC_le k j) (scTw_le m d L hrng k j))
/-- Lane `j`'s read token of x, on its block. -/
abbrev scBlkTok (hrng : ∀ i, (m (tLoc d) i).toNat ≤ 31999) (k : Fin 8) (j : Fin 16) : sProp 𝕄 :=
  (scBlkC m d L hrng k j).view.loc (V d (cV L) (jV L)) ↦[(scBlkC m d L hrng k j).view.set]{Transfers.shareTok fullShare 16 j} m (xLoc d)
/-- Tile `j` of the scratch at the contents `f` of the whole scratch. -/
abbrev scTilePts (j : Fin 16) (f : Buf (Elt F) ((V d (cV L) (jV L)).loc cc0_scratch1)) : sProp 𝕄 :=
  (scTileM j).view.loc (V d (cV L) (jV L)) ↦[(scTileM j).view.set]{fullShare} f

/-- The deliveries of chunk `k`'s sixteen copies. -/
def scD (hrng : ∀ i, (m (tLoc d) i).toNat ≤ 31999) (k : Fin 8) (fd : Buf (Elt F) ((V d (cV L) (jV L)).loc cc0_scratch1)) (j : Fin 16) : sProp 𝕄 :=
  scDelivAt (F := F) d L (m (xLoc d)) j (Transfers.shareTok fullShare 16 j) fd
    (scOff L (scC1 k) (scC2 j) (scTw m d L k j)) (scOff_inb L _ _ _ (scC_le k j) (scTw_le m d L hrng k j))

instance scD_storable (hrng : ∀ i, (m (tLoc d) i).toNat ≤ 31999) (k : Fin 8) (fd : Buf (Elt F) ((V d (cV L) (jV L)).loc cc0_scratch1)) (j : Fin 16) :
    BI.Storable (upEmb : UEmb _ 𝕄) (scD (F := F) m d L hrng k fd j) := by unfold scD; infer_instance

/-- One block's credit. -/
abbrev scN : ℕ := (scTileM 0).view.amount (SemLoc.dma (sig := sig) cc0_scratch3.sem)

/-- Chunk `k`'s batch on the kernel's semaphore with `j` copies issued. -/
abbrev scBatch (hrng : ∀ i, (m (tLoc d) i).toNat ≤ 31999) (k : Fin 8) (fd : Buf (Elt F) ((V d (cV L) (jV L)).loc cc0_scratch1)) (j u : ℕ) : sProp 𝕄 :=
  Transfers.Batch (countersEmb (U := UU)) (V d (cV L) (jV L)) (.dma cc0_scratch3.sem) (none : HIx 1) scN (scD (F := F) m d L hrng k fd) j u

variable {m d L}

/-- One issue of a chunk's batch: the block's read token and the tile in, the batch one further. The block is the one
    the body slices at the word it extracted (`hoff`). -/
theorem sc_issue {α : Type} (hrng : ∀ i, (m (tLoc d) i).toNat ≤ 31999) (kk : Fin 8) (j : Fin 16)
    (fd : Buf (Elt F) ((V d (cV L) (jV L)).loc cc0_scratch1))
    (off : Fin 2 → Nat) (inb : ∀ a, off a + S8x128.size a ≤ S4096x32000.size a)
    (hoff : off = scOff L (scC1 kk) (scC2 j) (scTw m d L kk j))
    {h1 : (scBlkM off inb).view.WordExact}
    {h2 : (DmaTarget.here (scTileM j) : DmaTarget nD τ sig (Proc.scVector (cV L) (jV L)) .vmem S8x128 .f32).view.WordExact}
    {h3 : (DmaTarget.here (scTileM j) : DmaTarget nD τ sig (Proc.scVector (cV L) (jV L)) .vmem S8x128 .f32).Typed .hbm (SemLoc.dma cc0_scratch3.sem)}
    {kont : PUnit → Prog (TpuEff nD τ sig (Elt F) Λ₀ (Proc.scVector (cV L) (jV L))) α} {Q : α → sProp 𝕄} :
    iprop(scBlkTok (F := F) m d L hrng kk j ∗ scTilePts (F := F) d L j fd ∗ scBatch (F := F) m d L hrng kk fd j.val 0)
      ⊢ iprop((scBatch (F := F) m d L hrng kk fd (j.val + 1) 0
            -∗ wp frame (wpE (defs₀ (F := F)) 𝒱₀ (V d (cV L) (jV L)) none) Set.univ (kont ⟨⟩) Q)
          -∗ wp frame (wpE (defs₀ (F := F)) 𝒱₀ (V d (cV L) (jV L)) none) Set.univ
              (.op (.enqueueDma (scBlkM off inb) (.here (scTileM j)) (.dma cc0_scratch3.sem) h1 h2 h3) kont) Q) := by
  subst hoff
  exact Transfers.wp_dmaBatch (countersEmb (U := UU)) 𝒱₀ (V d (cV L) (jV L)) none
      (src := scBlkM _ _) (dst := scTileM j) (none : HIx 1) scN rfl subset_rfl
      (D := scD (F := F) m d L hrng kk fd) (j := j.val) (u := 0) j.isLt (Nat.zero_le _)
      (by unfold scD scDelivAt; exact .rfl)

/-- The word the body extracts for lane `j` of chunk `k`, from the scratch as the first copy left it. -/
theorem sc_v_eq (f0 : Buf (Elt F) ((V d (cV L) (jV L)).loc cc0_scratch0)) (k : Fin 8) (j : Fin 16)
    (inb : ∀ a, (![16 * k.val] : Fin 1 → Nat) a + S16.size a ≤ S128.size a) (h : S16.Slices ![j.val] S1) (h' : ∀ a, (![0] : Fin 1 → Nat) a < S1.size a) :
    extractAt ![0] (extractStridedSlice (s := S16) S1 ![j.val]
        (View.readAt (Elt F) (sT : Memref sig .scVector .vmem S128 .i32).view (Rect.unit (s := S128) ![16 * k.val] S16.size inb).toLoadRect
          (View.write (Elt F) (sT : Memref sig .scVector .vmem S128 .i32).view f0 (ReadAs.same.apply ((tSlice L).view.read (Elt F) (m (tLoc d)))) Finset.univ)) h) h'
      = scTw m d L k j := by
  rw [sc_tgt_eq, sc_load_eq]; rfl

/-- Every entry of the scratch, as the first copy left it, is an entry of t: at most 31999. -/
theorem sc_tgt_le (hrng : ∀ i, (m (tLoc d) i).toNat ≤ 31999) (f0 : Buf (Elt F) ((V d (cV L) (jV L)).loc cc0_scratch0)) (i : S128.Idx) :
    ((View.write (Elt F) (sT : Memref sig .scVector .vmem S128 .i32).view f0 (ReadAs.same.apply ((tSlice L).view.read (Elt F) (m (tLoc d)))) Finset.univ i : Elt F .i32) : BitVec 32).toNat ≤ 31999 := by
  rw [sc_tgt_eq]; exact hrng _

theorem sc_word_le (g : IVec S16 32) (hg : ∀ l, (g l).toNat ≤ 31999) (off : Fin 1 → Nat) (h : S16.Slices off S1) (h' : ∀ a, (![0] : Fin 1 → Nat) a < S1.size a) :
    (extractAt ![0] (extractStridedSlice S1 off g h) h').toNat ≤ 31999 := hg _

theorem sc_load_le (f : Buf (Elt F) ((V d (cV L) (jV L)).loc cc0_scratch0)) (hf : ∀ i, ((f i : Elt F .i32) : BitVec 32).toNat ≤ 31999)
    (r : LoadRect S128) (l : r.shape.Idx) :
    ((View.readAt (Elt F) (sT : Memref sig .scVector .vmem S128 .i32).view r f l : Elt F .i32) : BitVec 32).toNat ≤ 31999 := by
  simp only [View.readAt_apply, Memref.view_whole, View.read_whole]; exact hf _

/-- The word the body extracts is an entry of t: at most 31999. -/
theorem sc_v_le (hrng : ∀ i, (m (tLoc d) i).toNat ≤ 31999) (f0 : Buf (Elt F) ((V d (cV L) (jV L)).loc cc0_scratch0))
    (o : Nat) (inb : ∀ a, (![o] : Fin 1 → Nat) a + S16.size a ≤ S128.size a) (off : Fin 1 → Nat) (h : S16.Slices off S1)
    (h' : ∀ a, (![0] : Fin 1 → Nat) a < S1.size a) :
    (extractAt ![0] (extractStridedSlice (s := S16) S1 off
        (View.readAt (Elt F) (sT : Memref sig .scVector .vmem S128 .i32).view (Rect.unit (s := S128) ![o] S16.size inb).toLoadRect
          (View.write (Elt F) (sT : Memref sig .scVector .vmem S128 .i32).view f0 (ReadAs.same.apply ((tSlice L).view.read (Elt F) (m (tLoc d)))) Finset.univ)) h) h').toNat ≤ 31999 := by
  rw [sc_tgt_eq]
  unfold extractAt extractStridedSlice
  simp only [View.readAt_apply, Memref.view_whole, View.read_whole]
  exact hrng _

end Chunk

theorem sc_bigSep16 {M : Type} [URA M] (Φ : Fin 16 → sProp M) :
    bigSep Finset.univ Φ = iprop(Φ (0 : Fin 16) ∗ Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

end Cert.Proof.Kernel

end
-- ==== Proof.Bits.ScTileLemmas.lean ====
/-
  Pure facts about one chunk of a tile's work.

  After chunk k's sixteen blocks have landed, slot j of the tile's 16 × 8 × 128 scratch holds the 8 × 128 block of
  x whose first row is 128 w + 16 k + 8 (j / 8) and whose first column is the 128-aligned part of t at row
  128 w + 16 k + j (`scG`). The gather reads slot l at row-in-block l mod 8 and lane (t mod 128) of row
  128 w + 16 k + l: that is x at that row and column t (`scG_gather`), since 8 (l / 8) + l mod 8 = l and
  128 (t / 128) + t mod 128 = t. Its three index vectors are below 16, 8 and 128 (`sc_gchk`). Each chunk's
  accumulate payload is `accStep`.
-/
import proofs.«217662_g32298154065999_cont_8to1_b_8_33_alg».proof.Proof.Bits.ScTileMath

noncomputable section

namespace Cert.Proof.Kernel

open Cert.Kernel Cert.Kernel.Gen
open Idealize.ShloMosaic Idealize.ShloMosaic.ValueIdx

variable {F : FTy → Type} [FloatOps F]

/-- Slot `a`, row `b`, lane `c` of the scratch after chunk `k`'s blocks have landed. -/
def scGat (mx : S4096x32000.Idx → F .f32) (mt : S4096.Idx → BitVec 32) (w : Fin 32) (k : Fin 8) (a : Fin 16) (b : Fin 8) (c : Fin 128) : F .f32 :=
  mx (ix2 (⟨128 * w.val + 16 * k.val + 8 * (a.val / 8) + b.val, by omega⟩ : Fin 4096)
    (⟨(128 * ((mt (ix1 (rowOf w k a))).toNat / 128) + c.val) % 32000, Nat.mod_lt _ (by norm_num)⟩ : Fin 32000))

/-- The scratch after chunk `k`'s blocks have landed. -/
def scG (mx : S4096x32000.Idx → F .f32) (mt : S4096.Idx → BitVec 32) (w : Fin 32) (k : Fin 8) : S16x8x128.Idx → F .f32 :=
  fun i => scGat mx mt w k (i 0) (i 1) (i 2)

theorem sc_iota_toNat (h : S16.Iotas .scVector 32 [0]) (x : S16.Idx) : (iota .scVector S16 32 [0] h x).toNat = (x 0).val := by
  have hx : (x 0).val < 16 := (x 0).isLt
  show (BitVec.ofNat 32 (0 * 16 + (x 0).val)).toNat = _
  rw [BitVec.toNat_ofNat]; omega

/-- The gather's three index vectors name a slot, a row and a lane. -/
theorem sc_gchk (tv : IVec S16 32) (h : S16.Iotas .scVector 32 [0]) :
    ∀ a x, ((![iota .scVector S16 32 [0] h, andi (iota .scVector S16 32 [0] h) (broadcast S16 7#32), andi tv (broadcast S16 127#32)] : Fin 3 → IVec S16 32) a x).toNat
      < S16x8x128.size a := by
  intro a x
  have hx : (x 0).val < 16 := (x 0).isLt
  match a with
  | 0 => show (iota .scVector S16 32 [0] h x).toNat < 16; rw [sc_iota_toNat]; exact hx
  | 1 =>
    show (IntOp.andi (iota .scVector S16 32 [0] h x) 7#32).toNat < 8
    rw [sc_andi_7]; omega
  | 2 =>
    show (IntOp.andi (tv x) 127#32).toNat < 128
    rw [sc_andi_lo]; omega

/-- What the gather reads out of the landed blocks: x at row 128 w + 16 k + l and column t of that row. -/
theorem scG_gather (mx : S4096x32000.Idx → F .f32) (mt : S4096.Idx → BitVec 32) (w : Fin 32) (k : Fin 8) (h : S16.Iotas .scVector 32 [0])
    (hidx : ∀ a x, ((![iota .scVector S16 32 [0] h, andi (iota .scVector S16 32 [0] h) (broadcast S16 7#32), andi (tvec mt w k) (broadcast S16 127#32)] : Fin 3 → IVec S16 32) a x).toNat
      < S16x8x128.size a) :
    loadIdx (F := F) (s := S16x8x128) (t := S16) (e := EltTy.f32) (scG mx mt w k) ![iota .scVector S16 32 [0] h, andi (iota .scVector S16 32 [0] h) (broadcast S16 7#32), andi (tvec mt w k) (broadcast S16 127#32)] hidx
      = gath mx mt w k := by
  funext x
  have hx : (x 0).val < 16 := (x 0).isLt
  have e0 : (iota .scVector S16 32 [0] h x).toNat = (x 0).val := sc_iota_toNat h x
  have e1 : (IntOp.andi (iota .scVector S16 32 [0] h x) 7#32).toNat = (x 0).val % 8 := by rw [sc_andi_7, e0]
  have e2 : (IntOp.andi (tvec mt w k x) 127#32).toNat = (tvec mt w k x).toNat % 128 := sc_andi_lo _
  show mx _ = mx _
  refine congrArg mx ?_
  funext a
  match a with
  | ⟨0, _⟩ =>
    apply Fin.ext
    show 128 * w.val + 16 * k.val + 8 * ((iota .scVector S16 32 [0] h x).toNat / 8) + (IntOp.andi (iota .scVector S16 32 [0] h x) 7#32).toNat
      = 128 * w.val + 16 * k.val + (x 0).val
    rw [e0, e1]; omega
  | ⟨1, _⟩ =>
    apply Fin.ext
    show (128 * ((mt (ix1 (rowOf w k ⟨(iota .scVector S16 32 [0] h x).toNat, _⟩))).toNat / 128) + (IntOp.andi (tvec mt w k x) 127#32).toNat) % 32000
      = (mt (ix1 (rowOf w k (x 0)))).toNat % 32000
    have er : (⟨(iota .scVector S16 32 [0] h x).toNat, (hidx 0 x)⟩ : Fin 16) = x 0 := Fin.ext e0
    rw [e2]
    show (128 * ((mt (ix1 (rowOf w k ⟨(iota .scVector S16 32 [0] h x).toNat, _⟩))).toNat / 128) + (mt (ix1 (rowOf w k (x 0)))).toNat % 128) % 32000 = _
    rw [er]; omega

/-! ## The accumulate payloads are `accStep` -/

theorem sc_acc0 : (k0_pay4 (F := F)) = broadcast S16 (Scalar.ofBits .f32 0x00000000#32) := rfl
theorem sc_acc_c0 (acc : FVec F S16 .f32) (tv : IVec S16 32) (g : FVec F S16 .f32) : k0_pay23 acc tv g = accStep acc tv g := rfl
theorem sc_acc_c1 (acc : FVec F S16 .f32) (tv : IVec S16 32) (g : FVec F S16 .f32) :
    k0_pay43 acc g (k0_pay42 (F := F) tv) (Scalar.ofBits .f32 0x00000000#32) = accStep acc tv g := rfl
theorem sc_acc_c2 (acc : FVec F S16 .f32) (tv : IVec S16 32) (g : FVec F S16 .f32) : k0_pay62 acc tv g = accStep acc tv g := rfl
theorem sc_acc_c3 (acc : FVec F S16 .f32) (tv : IVec S16 32) (g : FVec F S16 .f32) : k0_pay81 acc tv g = accStep acc tv g := rfl
theorem sc_acc_c4 (acc : FVec F S16 .f32) (tv : IVec S16 32) (g : FVec F S16 .f32) : k0_pay100 acc tv g = accStep acc tv g := rfl
theorem sc_acc_c5 (acc : FVec F S16 .f32) (tv : IVec S16 32) (g : FVec F S16 .f32) : k0_pay119 acc tv g = accStep acc tv g := rfl
theorem sc_acc_c6 (acc : FVec F S16 .f32) (tv : IVec S16 32) (g : FVec F S16 .f32) :
    k0_pay139 acc g (k0_pay138 (F := F) tv) (Scalar.ofBits .f32 0x00000000#32) = accStep acc tv g := rfl
theorem sc_acc_c7 (acc : FVec F S16 .f32) (tv : IVec S16 32) (g : FVec F S16 .f32) : k0_pay3 acc tv g = accStep acc tv g := rfl

end Cert.Proof.Kernel

end
-- ==== Proof.Bits.ScTileLemmas2.lean ====
/-
  Pure facts about the views a tile's body slices: where an 8 × 128 block of x lies among a worker's rows, which
  elements of the scratch a tile of it covers, and what a tile holds once a block has landed in it.
-/
import proofs.«217662_g32298154065999_cont_8to1_b_8_33_alg».proof.Proof.Bits.ScTileRes

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## A landed tile -/

/-- The rows and columns of a block stay inside x. -/
theorem sc_row_lt (off : Fin 2 → Nat) (inb : ∀ a, off a + S8x128.size a ≤ S4096x32000.size a) (i : S16x8x128.Idx) :
    off 0 + (i 1).val < 4096 := by
  have h : off 0 + 8 ≤ 4096 := inb 0
  have h2 : (i 1).val < 8 := (i 1).isLt
  omega
theorem sc_col_lt (off : Fin 2 → Nat) (inb : ∀ a, off a + S8x128.size a ≤ S4096x32000.size a) (i : S16x8x128.Idx) :
    off 1 + (i 2).val < 32000 := by
  have h : off 1 + 128 ≤ 32000 := inb 1
  have h2 : (i 2).val < 128 := (i 2).isLt
  omega

/-- An element of tile `j` of the scratch is the tile's element at its last two coordinates. -/
theorem sc_tile_emb (j : Fin 16) (i : S16x8x128.Idx) (hi : (i 0).val = j.val) :
    (scTileM j).view.emb (ix2 (i 1) (i 2)) = i := by
  show (Memref.whole cc0_scratch1 : Memref sig .scVector .vmem S16x8x128 .f32).view.emb
      ((scTileR j).emb (Shape.reshapeEquiv squeezes_S1x8x128_S8x128.numel_eq (ix2 (i 1) (i 2)))) = i
  rw [Shape.reshapeEquiv_cons_one]
  funext a
  apply Fin.ext
  match a with
  | ⟨0, _⟩ => show j.val + 1 * 0 = (i 0).val; omega
  | ⟨1, _⟩ => show 0 + 1 * (i 1).val = (i 1).val; omega
  | ⟨2, _⟩ => show 0 + 1 * (i 2).val = (i 2).val; omega

/-- THE VALUE of a landed tile: once the block of x at `off` has landed in tile `j`, the scratch's element
    `(j, r, c)` is x at `(off 0 + r, off 1 + c)`. -/
theorem sc_tile_landed_at (d : Dev nD) (L : grid0.Coords) (j : Fin 16)
    (f1 : Buf (Elt F) ((V d (cV L) (jV L)).loc cc0_scratch1)) (mx : Buf (Elt F) (xLoc d))
    (off : Fin 2 → Nat) (inb : ∀ a, off a + S8x128.size a ≤ S4096x32000.size a)
    (i : S16x8x128.Idx) (hi : (i 0).val = j.val) :
    (scTileM j).view.write (Elt F) f1 (ReadAs.same.apply ((scBlkM off inb).view.read (Elt F) mx)) Finset.univ i
      = mx (ix2 ⟨off 0 + (i 1).val, sc_row_lt off inb i⟩ ⟨off 1 + (i 2).val, sc_col_lt off inb i⟩) := by
  have he := sc_tile_emb j i hi
  rw [← he, View.write_emb_of_mem _ _ (Finset.mem_univ _)]
  refine (cast_eq _ _).trans ?_
  show (scBlkM off inb).view.read (Elt F) mx (ix2 (i 1) (i 2)) = _
  rw [View.read_apply]
  refine (cast_eq _ _).trans ?_
  show mx ((scBlkR off inb).emb (ix2 (i 1) (i 2))) = _
  rw [he]
  congr 1
  funext a
  apply Fin.ext
  match a with
  | ⟨0, _⟩ => show off 0 + 1 * (i 1).val = off 0 + (i 1).val; omega
  | ⟨1, _⟩ => show off 1 + 1 * (i 2).val = off 1 + (i 2).val; omega

/-! ## The tiles of the scratch -/

/-- Tile `j`'s elements are the tile's rectangle of the scratch. -/
theorem sc_tile_view_set (j : Fin 16) : ((scTileM j).view.set : Finset S16x8x128.Idx) = (scTileR j).set := by
  show (((View.whole (cc0_scratch1 : Ref sig .scVector)).slice (scTileR j)).reshape S8x128 squeezes_S1x8x128_S8x128.numel_eq).set = _
  rw [View.set_reshape, View.set_slice]; exact Finset.map_refl

/-- An element of the scratch is in tile `j` exactly when its first coordinate is `j`. -/
theorem sc_tile_set (j : Fin 16) (i : S16x8x128.Idx) : i ∈ ((scTileM j).view.set : Finset S16x8x128.Idx) ↔ (i 0).val = j.val := by
  rw [sc_tile_view_set, Rect.mem_set_unit]
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ =>
      have h1 : (i 1).val < 8 := (i 1).isLt
      show 0 ≤ (i 1).val ∧ (i 1).val < 0 + 8; omega
    | ⟨2, _⟩ =>
      have h2 : (i 2).val < 128 := (i 2).isLt
      show 0 ≤ (i 2).val ∧ (i 2).val < 0 + 128; omega

/-- The sixteen tiles are pairwise disjoint -/
theorem sc_tile_disjoint {j j' : Fin 16} (h : j ≠ j') :
    Disjoint ((scTileM j).view.set : Finset S16x8x128.Idx) ((scTileM j').view.set : Finset S16x8x128.Idx) := by
  rw [Finset.disjoint_left]
  intro i hi hi'
  rw [sc_tile_set] at hi hi'
  exact h (Fin.ext (hi.symm.trans hi'))

/-- and cover the scratch. -/
abbrev scTileSet (j : Fin 16) : Finset S16x8x128.Idx := (scTileM j).view.set
theorem sc_tile_biUnion : (Finset.univ : Finset (Fin 16)).biUnion scTileSet = Finset.univ := by
  ext i
  simp only [Finset.mem_biUnion, Finset.mem_univ, true_and, iff_true]
  exact ⟨⟨(i 0).val, (i 0).isLt⟩, (sc_tile_set _ i).mpr rfl⟩

/-! ## A block of x among a worker's rows -/

/-- The block's elements are the block's rectangle of x. -/
theorem sc_blk_view_set (off : Fin 2 → Nat) (inb : ∀ a, off a + S8x128.size a ≤ S4096x32000.size a) :
    ((scBlkM off inb).view.set : Finset S4096x32000.Idx) = (scBlkR off inb).set := by
  show ((View.whole (main_arg0_scv : Ref sig .scVector)).slice (scBlkR off inb)).set = _
  rw [View.set_slice]; exact Finset.map_refl

/-- A block whose eight rows lie among worker `w`'s 128 lies in the worker's part of x. -/
theorem sc_blk_subset (w : Fin 32) (off : Fin 2 → Nat) (inb : ∀ a, off a + S8x128.size a ≤ S4096x32000.size a)
    (h0 : 128 * w.val ≤ off 0) (h1 : off 0 + 8 ≤ 128 * w.val + 128) :
    (scBlkM off inb).view.set ⊆ xPart w := by
  intro i hi
  have hi' := Rect.mem_set_unit.mp ((sc_blk_view_set off inb) ▸ hi)
  refine Rect.mem_set_unit.mpr fun a => ?_
  match a with
  | ⟨0, _⟩ =>
    have ha : off 0 ≤ (i 0).val ∧ (i 0).val < off 0 + 8 := hi' 0
    simp only [Shape.partIx, Shape.partSize, ↓reduceIte]
    show w.val * (4096 / 32) ≤ (i 0).val ∧ (i 0).val < w.val * (4096 / 32) + 4096 / 32
    omega
  | ⟨1, _⟩ =>
    have h2 : (i 1).val < 32000 := (i 1).isLt
    show 0 * 32000 ≤ (i 1).val ∧ (i 1).val < 0 * 32000 + 32000
    omega

end Cert.Proof.Kernel

end
-- ==== Proof.Bits.ScTileLemmas3.lean ====
/-
  A chunk's resources regrouped: the scratch as its sixteen tiles, a worker's rows of x lent to the sixteen copies
  as read tokens on their blocks, and the sixteen deliveries collected into the scratch's contents.
-/
import proofs.«217662_g32298154065999_cont_8to1_b_8_33_alg».proof.Proof.Bits.ScTileChunk
import proofs.«217662_g32298154065999_cont_8to1_b_8_33_alg».proof.Proof.Bits.ScTileLemmas
import proofs.«217662_g32298154065999_cont_8to1_b_8_33_alg».proof.Proof.Bits.ScTileLemmas2

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {m : (ℓ : Loc nD τ sig) → Buf (Elt F) ℓ} {d : Dev nD} {L : grid0.Coords}

local notation "𝕄" => MT nD τ sig (HIx 1) (Elt F) ℕ UU ℕ

/-! ## The scratch as its sixteen tiles -/

theorem sc_tiles_split (f : Buf (Elt F) ((V d (cV L) (jV L)).loc cc0_scratch1)) :
    ((V d (cV L) (jV L)).loc cc0_scratch1 ↦{fullShare} f : sProp 𝕄) = bigSep Finset.univ fun j : Fin 16 => scTilePts (F := F) d L j f := by
  have h : ((V d (cV L) (jV L)).loc cc0_scratch1 ↦[(Finset.univ : Finset (Fin 16)).biUnion scTileSet]{fullShare} f : sProp 𝕄)
      = bigSep Finset.univ fun j : Fin 16 => ((V d (cV L) (jV L)).loc cc0_scratch1 ↦[scTileSet j]{fullShare} f) :=
    pointsTo_biUnion _ _ (fun t _ t' _ hne => sc_tile_disjoint hne)
  rw [sc_tile_biUnion] at h
  exact h

/-! ## The sixteen deliveries, collected -/

theorem sc3_C1_toNat (k : Fin 8) : (scC1 k).toNat = 16 * k.val := by
  have := k.isLt
  unfold scC1; rw [BitVec.toNat_ofNat]; omega
theorem sc3_C2_toNat (j : Fin 16) : (scC2 j).toNat = 8 * (j.val / 8) := by
  have := j.isLt
  unfold scC2; rw [BitVec.toNat_ofNat]; omega

/-- Tile `j` after its block has landed holds, on its own elements, the chunk's contents of the scratch. -/
theorem sc_tile_landed_scG (hrng : ∀ i, (m (tLoc d) i).toNat ≤ 31999) (k : Fin 8) (j : Fin 16)
    (f1 : Buf (Elt F) ((V d (cV L) (jV L)).loc cc0_scratch1)) (i : S16x8x128.Idx) (hi : (i 0).val = j.val) :
    (scTileM j).view.write (Elt F) f1 (ReadAs.same.apply ((scBlkC m d L hrng k j).view.read (Elt F) (m (xLoc d)))) Finset.univ i
      = scG (m (xLoc d)) (m (tLoc d)) (widL L) k i := by
  rw [sc_tile_landed_at d L j f1 (m (xLoc d)) _ _ i hi]
  have hoff := scOff_eq L (scC1 k) (scC2 j) (scTw m d L k j) (scC_le k j)
  have h0 : scOff L (scC1 k) (scC2 j) (scTw m d L k j) 0 = 128 * (widL L).val + ((scC1 k).toNat + (scC2 j).toNat) := by rw [hoff]; rfl
  have h1 : scOff L (scC1 k) (scC2 j) (scTw m d L k j) 1 = 128 * ((scTw m d L k j).toNat / 128) := by rw [hoff]; rfl
  have hij : i 0 = j := Fin.ext hi
  have htw : (scTw m d L k j).toNat ≤ 31999 := scTw_le m d L hrng k j
  have hi1 : (i 1).val < 8 := (i 1).isLt
  have hi2 : (i 2).val < 128 := (i 2).isLt
  unfold scG scGat
  refine congrArg (m (xLoc d)) ?_
  funext a
  match a with
  | ⟨0, _⟩ =>
    apply Fin.ext
    show scOff L (scC1 k) (scC2 j) (scTw m d L k j) 0 + (i 1).val = 128 * (widL L).val + 16 * k.val + 8 * ((i 0).val / 8) + (i 1).val
    rw [h0, sc3_C1_toNat, sc3_C2_toNat, hi]; omega
  | ⟨1, _⟩ =>
    apply Fin.ext
    show scOff L (scC1 k) (scC2 j) (scTw m d L k j) 1 + (i 2).val
      = (128 * ((m (tLoc d) (ix1 (rowOf (widL L) k (i 0)))).toNat / 128) + (i 2).val) % 32000
    rw [h1, hij]
    show 128 * ((scTw m d L k j).toNat / 128) + (i 2).val = (128 * ((scTw m d L k j).toNat / 128) + (i 2).val) % 32000
    omega

theorem sc_collect (hrng : ∀ i, (m (tLoc d) i).toNat ≤ 31999) (k : Fin 8) (f1 : Buf (Elt F) ((V d (cV L) (jV L)).loc cc0_scratch1)) :
    bigSep Finset.univ (scD (F := F) m d L hrng k f1)
      ⊢ (iprop(((V d (cV L) (jV L)).loc cc0_scratch1 ↦{fullShare} scG (m (xLoc d)) (m (tLoc d)) (widL L) k)
          ∗ bigSep Finset.univ fun j : Fin 16 => scBlkTok (F := F) m d L hrng k j) : sProp 𝕄) := by
  have hcongr : ∀ j : Fin 16,
      ((scTileM j).view.loc (V d (cV L) (jV L)) ↦[(scTileM j).view.set]{fullShare}
          ((scTileM j).view.write (Elt F) f1 (ReadAs.same.apply ((scBlkC m d L hrng k j).view.read (Elt F) (m (xLoc d)))) Finset.univ) : sProp 𝕄)
        = scTilePts (F := F) d L j (scG (m (xLoc d)) (m (tLoc d)) (widL L) k) := fun j =>
    pointsTo_congr fun i hi => sc_tile_landed_scG hrng k j f1 i ((sc_tile_set j i).mp hi)
  rw [sc_tiles_split]
  unfold scD scDelivAt
  rw [bigSep_sep']
  exact sep_mono (Entails.of_eq (bigSep_congr fun j _ => hcongr j)) .rfl

/-! ## A worker's rows of x, lent to a chunk's sixteen copies -/

/-- Each block of the chunk lies among the worker's rows. -/
theorem sc_blkC_subset (hrng : ∀ i, (m (tLoc d) i).toNat ≤ 31999) (k : Fin 8) (j : Fin 16) :
    (scBlkC m d L hrng k j).view.set ⊆ xPart (widL L) := by
  have hoff := scOff_eq L (scC1 k) (scC2 j) (scTw m d L k j) (scC_le k j)
  have hle := scC_le k j
  have h0 : scOff L (scC1 k) (scC2 j) (scTw m d L k j) 0 = 128 * (widL L).val + ((scC1 k).toNat + (scC2 j).toNat) := by rw [hoff]; rfl
  refine sc_blk_subset (widL L) _ _ ?_ ?_
  · rw [h0]; omega
  · rw [h0]; omega

theorem sc_x_lend (hrng : ∀ i, (m (tLoc d) i).toNat ≤ 31999) (k : Fin 8) :
    xPartPts m d (widL L)
      ⊢ (iprop((bigSep Finset.univ fun j : Fin 16 => scBlkTok (F := F) m d L hrng k j)
          ∗ ((bigSep Finset.univ fun j : Fin 16 => scBlkTok (F := F) m d L hrng k j) -∗ xPartPts m d (widL L))) : sProp 𝕄) := by
  have hsplit : ∀ j : Fin 16, (xLoc d ↦[xPart (widL L)]{Transfers.shareTok fullShare 16 j} m (xLoc d) : sProp 𝕄)
      ⊣⊢ iprop((xLoc d ↦[((scBlkC m d L hrng k j).view.set : Finset S4096x32000.Idx)]{Transfers.shareTok fullShare 16 j} m (xLoc d))
          ∗ (xLoc d ↦[xPart (widL L) \ ((scBlkC m d L hrng k j).view.set : Finset S4096x32000.Idx)]{Transfers.shareTok fullShare 16 j} m (xLoc d))) :=
    fun j => pointsTo_split_subset (sc_blkC_subset hrng k j)
  have h1 : (bigSep Finset.univ fun j : Fin 16 => (xLoc d ↦[xPart (widL L)]{Transfers.shareTok fullShare 16 j} m (xLoc d) : sProp 𝕄))
      ⊢ iprop((bigSep Finset.univ fun j : Fin 16 => scBlkTok (F := F) m d L hrng k j)
          ∗ bigSep Finset.univ fun j : Fin 16 =>
              (xLoc d ↦[xPart (widL L) \ ((scBlkC m d L hrng k j).view.set : Finset S4096x32000.Idx)]{Transfers.shareTok fullShare 16 j} m (xLoc d))) := by
    rw [← bigSep_sep']
    exact bigSep_mono fun j _ => (hsplit j).1
  have h2 : (iprop((bigSep Finset.univ fun j : Fin 16 => scBlkTok (F := F) m d L hrng k j)
          ∗ bigSep Finset.univ fun j : Fin 16 =>
              (xLoc d ↦[xPart (widL L) \ ((scBlkC m d L hrng k j).view.set : Finset S4096x32000.Idx)]{Transfers.shareTok fullShare 16 j} m (xLoc d))) : sProp 𝕄)
      ⊢ bigSep Finset.univ fun j : Fin 16 => (xLoc d ↦[xPart (widL L)]{Transfers.shareTok fullShare 16 j} m (xLoc d) : sProp 𝕄) := by
    rw [← bigSep_sep']
    exact bigSep_mono fun j _ => (hsplit j).2
  unfold xPartPts
  iintro HA
  ihave H := (Transfers.pointsTo_toks_split fullShare 16) $$ HA
  icases H with ⟨Hd, Ht⟩
  ihave Ht' := h1 $$ Ht
  icases Ht' with ⟨Hb, Hr⟩
  isplitl [Hb]; · iexact Hb
  iintro Hb
  iapply (Transfers.pointsTo_toks_join fullShare 16)
  isplitl [Hd]; · iexact Hd
  iapply h2
  isplitl [Hb]; · iexact Hb
  iexact Hr

end Cert.Proof.Kernel

end
-- ==== Proof.Bits.ScTileValue.lean ====
/-
  The values a tile's body computes, as pure facts.

  (1) A landed block. Lane j of chunk k copies the 8 × 128 block of x whose first row is 128 w + 16 k + 8 (j / 8) and
  whose first column is the 128-aligned part of t at row 128 w + 16 k + j; once it has landed in tile j of the
  scratch, element (j, r, c) of the scratch is x at that row plus r and that column plus c — the scratch `scG` of the
  chunk (with t at most 31999 the column stays below 32000 = 250 · 128, so the reduction modulo 32000 in `scG` is the
  identity).
  (2) The gather out of the landed scratch, with the index vectors as the body names them, reads lane l at x of row
  128 w + 16 k + l and column t of that row: the chunk's gathered entries.
  (3) One chunk's accumulate step takes the accumulator after n chunks to the accumulator after n + 1; after eight
  it is the tile's result.
  (4) The accumulator stored whole reads back as stored; copied out to the worker's sixteen words of the result,
  word 16 w + l holds lane l.
-/
import proofs.«217662_g32298154065999_cont_8to1_b_8_33_alg».proof.Proof.Bits.ScTileLemmas
import proofs.«217662_g32298154065999_cont_8to1_b_8_33_alg».proof.Proof.Bits.ScTileLemmas2
import proofs.«217662_g32298154065999_cont_8to1_b_8_33_alg».proof.Proof.Bits.ScTileChunk
import Idealize.ShloMosaic.Lib.WritesUnit

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## (1) A landed block is the chunk's scratch -/

theorem scv_C1_toNat (k : Fin 8) : (scC1 k).toNat = 16 * k.val := by
  have := k.isLt
  unfold scC1; rw [BitVec.toNat_ofNat]; omega
theorem scv_C2_toNat (j : Fin 16) : (scC2 j).toNat = 8 * (j.val / 8) := by
  have := j.isLt
  unfold scC2; rw [BitVec.toNat_ofNat]; omega

/-- Tile j of the scratch after lane j's block of chunk k has landed: the chunk's scratch `scG`, element by element. -/
theorem sc_landed_eq [FloatOps F] (m : (ℓ : Loc nD τ sig) → Buf (Elt F) ℓ) (d : Dev nD) (L : grid0.Coords)
    (hrng : ∀ i, (m (tLoc d) i).toNat ≤ 31999) (k : Fin 8) (j : Fin 16)
    (fd : Buf (Elt F) ((V d (cV L) (jV L)).loc cc0_scratch1)) (i : S16x8x128.Idx) (hi : (i 0).val = j.val) :
    (scTileM j).view.write (Elt F) fd (ReadAs.same.apply ((scBlkC m d L hrng k j).view.read (Elt F) (m (xLoc d)))) Finset.univ i
      = scG (m (xLoc d)) (m (tLoc d)) (widL L) k i := by
  have hij : i 0 = j := Fin.ext hi
  have hk := k.isLt
  have hj := j.isLt
  have hw := (widL L).isLt
  have hr : (i 1).val < 8 := (i 1).isLt
  have hc : (i 2).val < 128 := (i 2).isLt
  have htw : (scTw m d L k j).toNat ≤ 31999 := scTw_le m d L hrng k j
  have hoff := scOff_eq L (scC1 k) (scC2 j) (scTw m d L k j) (scC_le k j)
  rw [sc_tile_landed_at d L j fd (m (xLoc d)) _ _ i hi]
  unfold scG scGat
  refine congrArg (m (xLoc d)) ?_
  funext a
  apply Fin.ext
  match a with
  | ⟨0, _⟩ =>
    show scOff L (scC1 k) (scC2 j) (scTw m d L k j) 0 + (i 1).val = 128 * (widL L).val + 16 * k.val + 8 * ((i 0).val / 8) + (i 1).val
    rw [hoff, hi]
    show 128 * (widL L).val + ((scC1 k).toNat + (scC2 j).toNat) + (i 1).val = _
    rw [scv_C1_toNat, scv_C2_toNat]; omega
  | ⟨1, _⟩ =>
    show scOff L (scC1 k) (scC2 j) (scTw m d L k j) 1 + (i 2).val
      = (128 * ((m (tLoc d) (ix1 (rowOf (widL L) k (i 0)))).toNat / 128) + (i 2).val) % 32000
    rw [hoff, hij]
    show 128 * ((scTw m d L k j).toNat / 128) + (i 2).val = (128 * ((scTw m d L k j).toNat / 128) + (i 2).val) % 32000
    omega

/-! ## (2) The gather out of the landed scratch -/

/-- The gather with its index vectors named: whatever the second and third are called, if they are the lane's row in
    its block and the word's lane in its block of 128, and the scratch holds the chunk's blocks, it reads the chunk's
    gathered entries. -/
theorem sc_gather_eq [FloatOps F] (mx : S4096x32000.Idx → F .f32) (mt : S4096.Idx → BitVec 32) (w : Fin 32) (k : Fin 8)
    (A B : IVec S16 32)
    (hA : A = andi (iota .scVector S16 32 [0] iota_S16_d0_w32_scVector) (broadcast S16 7#32))
    (hB : B = andi (tvec mt w k) (broadcast S16 127#32))
    (f : S16x8x128.Idx → F .f32) (hf : f = scG mx mt w k)
    (hidx : ∀ a x, ((![iota .scVector S16 32 [0] iota_S16_d0_w32_scVector, A, B] : Fin 3 → IVec S16 32) a x).toNat < S16x8x128.size a) :
    loadIdx (F := F) (s := S16x8x128) (t := S16) (e := EltTy.f32) f ![iota .scVector S16 32 [0] iota_S16_d0_w32_scVector, A, B] hidx
      = gath mx mt w k := by
  subst hA hB hf
  exact scG_gather mx mt w k _ hidx

/-- The scratch read whole is its contents. -/
theorem sc_read_whole (d : Dev nD) (L : grid0.Coords) (f : Buf (Elt F) ((V d (cV L) (jV L)).loc cc0_scratch1)) :
    ((sX : Memref sig .scVector .vmem S16x8x128 .f32).access (.whole S16x8x128)).read (Elt F) f = f := by
  funext i
  rw [View.read_apply]
  refine (cast_eq _ _).trans ?_
  refine congrArg f (funext fun a => Fin.ext ?_)
  show 0 + 1 * (i a).val = (i a).val
  omega

/-! ## (3) The chain of accumulate steps -/

/-- One chunk's step: from the accumulator after n chunks, with the chunk's entries of t and gathered entries of x, to
    the accumulator after n + 1. -/
theorem sc_chain [FloatOps F] (mx : S4096x32000.Idx → F .f32) (mt : S4096.Idx → BitVec 32) (w : Fin 32) (n : Nat) (h : n + 1 ≤ 8)
    (acc : FVec F S16 .f32) (hacc : acc = scAccAt mx mt w n (by omega))
    (tv : IVec S16 32) (htv : tv = tvec mt w ⟨n, by omega⟩)
    (g : FVec F S16 .f32) (hg : g = gath mx mt w ⟨n, by omega⟩) :
    accStep acc tv g = scAccAt mx mt w (n + 1) h := by
  subst hacc htv hg; rfl

theorem sc_chain_zero [FloatOps F] (mx : S4096x32000.Idx → F .f32) (mt : S4096.Idx → BitVec 32) (w : Fin 32) :
    (k0_pay4 (F := F)) = scAccAt mx mt w 0 (by omega) := rfl

theorem sc_chain_last [FloatOps F] (mx : S4096x32000.Idx → F .f32) (mt : S4096.Idx → BitVec 32) (w : Fin 32) :
    scAccAt mx mt w 8 le_rfl = tileOut mx mt w := rfl

/-- One chunk of the run, as the run leaves it: the accumulate step over the chunk's sixteen entries of t as loaded from
    the index scratch (which holds the worker's entries of t) and the gather out of the landed scratch, is the
    accumulator after one more chunk. -/
theorem sc_step [FloatOps F] (m : (ℓ : Loc nD τ sig) → Buf (Elt F) ℓ) (d : Dev nD) (L : grid0.Coords) (k : Fin 8)
    (f0 : Buf (Elt F) ((V d (cV L) (jV L)).loc cc0_scratch0))
    (inb : ∀ a, (![16 * k.val] : Fin 1 → Nat) a + S16.size a ≤ S128.size a)
    (A B : IVec S16 32) (acc : FVec F S16 .f32)
    (hacc : acc = scAccAt (m (xLoc d)) (m (tLoc d)) (widL L) k.val (by have := k.isLt; omega))
    (hA : A = andi (iota .scVector S16 32 [0] iota_S16_d0_w32_scVector) (broadcast S16 7#32))
    (hB : B = andi (View.readAt (Elt F) (sT : Memref sig .scVector .vmem S128 .i32).view (Rect.unit (s := S128) ![16 * k.val] S16.size inb).toLoadRect
        (View.write (Elt F) (sT : Memref sig .scVector .vmem S128 .i32).view f0 (ReadAs.same.apply ((tSlice L).view.read (Elt F) (m (tLoc d)))) Finset.univ))
      (broadcast S16 127#32))
    (hidx : ∀ a x, ((![iota .scVector S16 32 [0] iota_S16_d0_w32_scVector, A, B] : Fin 3 → IVec S16 32) a x).toNat < S16x8x128.size a) :
    accStep acc
        (View.readAt (Elt F) (sT : Memref sig .scVector .vmem S128 .i32).view (Rect.unit (s := S128) ![16 * k.val] S16.size inb).toLoadRect
          (View.write (Elt F) (sT : Memref sig .scVector .vmem S128 .i32).view f0 (ReadAs.same.apply ((tSlice L).view.read (Elt F) (m (tLoc d)))) Finset.univ))
        (loadIdx (F := F) (s := S16x8x128) (t := S16) (e := EltTy.f32)
          (((sX : Memref sig .scVector .vmem S16x8x128 .f32).access (.whole S16x8x128)).read (Elt F) (scG (m (xLoc d)) (m (tLoc d)) (widL L) k))
          ![iota .scVector S16 32 [0] iota_S16_d0_w32_scVector, A, B] hidx)
      = scAccAt (m (xLoc d)) (m (tLoc d)) (widL L) (k.val + 1) (by have := k.isLt; omega) := by
  have htv : View.readAt (Elt F) (sT : Memref sig .scVector .vmem S128 .i32).view (Rect.unit (s := S128) ![16 * k.val] S16.size inb).toLoadRect
      (View.write (Elt F) (sT : Memref sig .scVector .vmem S128 .i32).view f0 (ReadAs.same.apply ((tSlice L).view.read (Elt F) (m (tLoc d)))) Finset.univ)
        = tvec (m (tLoc d)) (widL L) k := by
    rw [sc_tgt_eq, sc_load_eq]
  refine sc_chain (m (xLoc d)) (m (tLoc d)) (widL L) k.val (by have := k.isLt; omega) acc hacc _ htv _ ?_
  exact sc_gather_eq (m (xLoc d)) (m (tLoc d)) (widL L) k A B hA (by rw [hB, htv]) _ (sc_read_whole d L _) hidx

/-! ## (4) The store of the accumulator and the copy-out -/

/-- The accumulator scratch stored whole, as one write, reads back as the stored vector. -/
theorem sc_store_read (d : Dev nD) (L : grid0.Coords) (f2 : Buf (Elt F) ((V d (cV L) (jV L)).loc cc0_scratch2))
    (v : S16.Idx → Elt F .f32) :
    (sA : Memref sig .scVector .vmem S16 .f32).view.read (Elt F)
      (View.write (Elt F) (sA : Memref sig .scVector .vmem S16 .f32).view f2 v Finset.univ) = v := by
  rw [View.write_whole_univ]
  rfl

/-- The same with the store kept as a list of one write through the whole rectangle. -/
theorem sc_store_read_writes (d : Dev nD) (L : grid0.Coords) (f2 : Buf (Elt F) ((V d (cV L) (jV L)).loc cc0_scratch2))
    (inb : ∀ a, (![0] : Fin 1 → Nat) a + S16.size a ≤ S16.size a) (v : (Rect.unit (s := S16) ![0] S16.size inb).shape.Idx → Elt F .f32) :
    (sA : Memref sig .scVector .vmem S16 .f32).view.read (Elt F)
      ((sA : Memref sig .scVector .vmem S16 .f32).view.writes (Elt F) f2 [⟨Rect.unit (s := S16) ![0] S16.size inb, v⟩]) = v := by
  funext y
  refine View.read_writes_cons_unit_of_mem (sA : Memref sig .scVector .vmem S16 .f32).view f2 inb v [] y y rfl (fun a => ?_)
  have ha : a = (0 : Fin 1) := Subsingleton.elim (α := Fin 1) a 0
  subst ha
  show (y 0).val = 0 + (y 0).val
  omega

/-- The copy-out: the worker's sixteen words of the result hold the accumulator's sixteen lanes. -/
theorem sc_out_eq (d : Dev nD) (L : grid0.Coords) (fo : Buf (Elt F) (oLoc d))
    (acc : Buf (Elt F) ((V d (cV L) (jV L)).loc cc0_scratch2)) (l : Fin 16) :
    View.write (Elt F) (oSlice L).view fo (ReadAs.same.apply ((sA : Memref sig .scVector .vmem S16 .f32).view.read (Elt F) acc)) Finset.univ
        (ix1 ⟨16 * (widL L).val + l.val, by have := (widL L).isLt; have := l.isLt; omega⟩)
      = acc (ix1 l) := by
  have he : (oSlice L).view.emb (ix1 l) = ix1 ⟨16 * (widL L).val + l.val, by have := (widL L).isLt; have := l.isLt; omega⟩ := by
    funext a
    have ha : a = (0 : Fin 1) := Subsingleton.elim (α := Fin 1) a 0
    subst ha
    apply Fin.ext
    show k0_off250 L 0 + 1 * l.val = 16 * (widL L).val + l.val
    rw [k0_off250_eq]
    show 32 * (L 1).val + 16 * (L 0).val + 1 * l.val = 16 * (2 * (L 1).val + (L 0).val) + l.val
    omega
  rw [← he, View.write_emb_of_mem _ _ (Finset.mem_univ _)]
  refine (cast_eq _ _).trans ?_
  show (sA : Memref sig .scVector .vmem S16 .f32).view.read (Elt F) acc (ix1 l) = _
  simp only [Memref.view_whole, View.read_whole]

/-- So when the accumulator holds the tile's result, the result array holds the worker's value in the worker's words. -/
theorem sc_outHolds [FloatOps F] (m : (ℓ : Loc nD τ sig) → Buf (Elt F) ℓ) (d : Dev nD) (L : grid0.Coords) (fo : Buf (Elt F) (oLoc d))
    (acc : Buf (Elt F) ((V d (cV L) (jV L)).loc cc0_scratch2))
    (hacc : ∀ l : Fin 16, acc (ix1 l) = tileOut (F := F) (m (xLoc d)) (m (tLoc d)) (widL L) (ix1 l)) :
    OutHolds m d (widL L)
      (View.write (Elt F) (oSlice L).view fo (ReadAs.same.apply ((sA : Memref sig .scVector .vmem S16 .f32).view.read (Elt F) acc)) Finset.univ) :=
  fun l => (sc_out_eq d L fo acc l).trans (hacc l)

/-! ## (5) The whole chain, over the terms the run leaves -/

section Final
variable [FloatOps F] (m : (ℓ : Loc nD τ sig) → Buf (Elt F) ℓ) (d : Dev nD) (L : grid0.Coords)
  (f0 : Buf (Elt F) ((V d (cV L) (jV L)).loc cc0_scratch0))

/-- The sixteen entries of t at offset n of the index scratch, as loaded once the worker's entries have landed in it. -/
abbrev scTV (n : Nat) (inb : ∀ a, (![n] : Fin 1 → Nat) a + S16.size a ≤ S128.size a) : IVec S16 32 :=
  View.readAt (Elt F) (sT : Memref sig .scVector .vmem S128 .i32).view (Rect.unit (s := S128) ![n] S16.size inb).toLoadRect
    (View.write (Elt F) (sT : Memref sig .scVector .vmem S128 .i32).view f0 (ReadAs.same.apply ((tSlice L).view.read (Elt F) (m (tLoc d)))) Finset.univ)

/-- The gather out of chunk k's landed scratch at index vectors A, B. -/
abbrev scGV (k : Fin 8) (A B : IVec S16 32)
    (h : ∀ a x, ((![iota .scVector S16 32 [0] iota_S16_d0_w32_scVector, A, B] : Fin 3 → IVec S16 32) a x).toNat < S16x8x128.size a) : FVec F S16 .f32 :=
  loadIdx (F := F) (s := S16x8x128) (t := S16) (e := EltTy.f32)
    (((sX : Memref sig .scVector .vmem S16x8x128 .f32).access (.whole S16x8x128)).read (Elt F) (scG (m (xLoc d)) (m (tLoc d)) (widL L) k))
    ![iota .scVector S16 32 [0] iota_S16_d0_w32_scVector, A, B] h

/-- Chunk 0's accumulate payload, over the run's terms, takes the accumulator after 0 chunks to the one after 1. -/
theorem sc_acc_step0 (acc : FVec F S16 .f32)
    (hacc : acc = scAccAt (m (xLoc d)) (m (tLoc d)) (widL L) 0 (by omega))
    (h : ∀ a x, ((![iota .scVector S16 32 [0] iota_S16_d0_w32_scVector, k0_pay21, (k0_pay22 (F := F) (scTV m d L f0 0 inb_S128_S16_0))] : Fin 3 → IVec S16 32) a x).toNat < S16x8x128.size a) :
    k0_pay23 acc (scTV m d L f0 0 inb_S128_S16_0) (scGV m d L 0 k0_pay21 (k0_pay22 (F := F) (scTV m d L f0 0 inb_S128_S16_0)) h)
      = scAccAt (m (xLoc d)) (m (tLoc d)) (widL L) 1 (by omega) :=
  (sc_acc_c0 acc (scTV m d L f0 0 inb_S128_S16_0) (scGV m d L 0 k0_pay21 (k0_pay22 (F := F) (scTV m d L f0 0 inb_S128_S16_0)) h)).trans
    (sc_step m d L (0 : Fin 8) f0 inb_S128_S16_0 k0_pay21 (k0_pay22 (F := F) (scTV m d L f0 0 inb_S128_S16_0)) acc hacc rfl rfl h)

/-- Chunk 1's accumulate payload, over the run's terms, takes the accumulator after 1 chunks to the one after 2. -/
theorem sc_acc_step1 (acc : FVec F S16 .f32)
    (hacc : acc = scAccAt (m (xLoc d)) (m (tLoc d)) (widL L) 1 (by omega))
    (h : ∀ a x, ((![iota .scVector S16 32 [0] iota_S16_d0_w32_scVector, k0_pay40, (k0_pay41 (F := F) (scTV m d L f0 16 inb_S128_S16_16))] : Fin 3 → IVec S16 32) a x).toNat < S16x8x128.size a) :
    k0_pay43 acc (scGV m d L 1 k0_pay40 (k0_pay41 (F := F) (scTV m d L f0 16 inb_S128_S16_16)) h) (k0_pay42 (F := F) (scTV m d L f0 16 inb_S128_S16_16)) (Scalar.ofBits .f32 0x00000000#32)
      = scAccAt (m (xLoc d)) (m (tLoc d)) (widL L) 2 (by omega) :=
  (sc_acc_c1 acc (scTV m d L f0 16 inb_S128_S16_16) (scGV m d L 1 k0_pay40 (k0_pay41 (F := F) (scTV m d L f0 16 inb_S128_S16_16)) h)).trans
    (sc_step m d L (1 : Fin 8) f0 inb_S128_S16_16 k0_pay40 (k0_pay41 (F := F) (scTV m d L f0 16 inb_S128_S16_16)) acc hacc rfl rfl h)

/-- Chunk 2's accumulate payload, over the run's terms, takes the accumulator after 2 chunks to the one after 3. -/
theorem sc_acc_step2 (acc : FVec F S16 .f32)
    (hacc : acc = scAccAt (m (xLoc d)) (m (tLoc d)) (widL L) 2 (by omega))
    (h : ∀ a x, ((![iota .scVector S16 32 [0] iota_S16_d0_w32_scVector, k0_pay60, (k0_pay61 (F := F) (scTV m d L f0 32 inb_S128_S16_32))] : Fin 3 → IVec S16 32) a x).toNat < S16x8x128.size a) :
    k0_pay62 acc (scTV m d L f0 32 inb_S128_S16_32) (scGV m d L 2 k0_pay60 (k0_pay61 (F := F) (scTV m d L f0 32 inb_S128_S16_32)) h)
      = scAccAt (m (xLoc d)) (m (tLoc d)) (widL L) 3 (by omega) :=
  (sc_acc_c2 acc (scTV m d L f0 32 inb_S128_S16_32) (scGV m d L 2 k0_pay60 (k0_pay61 (F := F) (scTV m d L f0 32 inb_S128_S16_32)) h)).trans
    (sc_step m d L (2 : Fin 8) f0 inb_S128_S16_32 k0_pay60 (k0_pay61 (F := F) (scTV m d L f0 32 inb_S128_S16_32)) acc hacc rfl rfl h)

/-- Chunk 3's accumulate payload, over the run's terms, takes the accumulator after 3 chunks to the one after 4. -/
theorem sc_acc_step3 (acc : FVec F S16 .f32)
    (hacc : acc = scAccAt (m (xLoc d)) (m (tLoc d)) (widL L) 3 (by omega))
    (h : ∀ a x, ((![iota .scVector S16 32 [0] iota_S16_d0_w32_scVector, k0_pay79, (k0_pay80 (F := F) (scTV m d L f0 48 inb_S128_S16_48))] : Fin 3 → IVec S16 32) a x).toNat < S16x8x128.size a) :
    k0_pay81 acc (scTV m d L f0 48 inb_S128_S16_48) (scGV m d L 3 k0_pay79 (k0_pay80 (F := F) (scTV m d L f0 48 inb_S128_S16_48)) h)
      = scAccAt (m (xLoc d)) (m (tLoc d)) (widL L) 4 (by omega) :=
  (sc_acc_c3 acc (scTV m d L f0 48 inb_S128_S16_48) (scGV m d L 3 k0_pay79 (k0_pay80 (F := F) (scTV m d L f0 48 inb_S128_S16_48)) h)).trans
    (sc_step m d L (3 : Fin 8) f0 inb_S128_S16_48 k0_pay79 (k0_pay80 (F := F) (scTV m d L f0 48 inb_S128_S16_48)) acc hacc rfl rfl h)

/-- Chunk 4's accumulate payload, over the run's terms, takes the accumulator after 4 chunks to the one after 5. -/
theorem sc_acc_step4 (acc : FVec F S16 .f32)
    (hacc : acc = scAccAt (m (xLoc d)) (m (tLoc d)) (widL L) 4 (by omega))
    (h : ∀ a x, ((![iota .scVector S16 32 [0] iota_S16_d0_w32_scVector, (k0_pay98 (iota .scVector S16 32 [0] iota_S16_d0_w32_scVector)), (k0_pay99 (F := F) (scTV m d L f0 64 inb_S128_S16_64))] : Fin 3 → IVec S16 32) a x).toNat < S16x8x128.size a) :
    k0_pay100 acc (scTV m d L f0 64 inb_S128_S16_64) (scGV m d L 4 (k0_pay98 (iota .scVector S16 32 [0] iota_S16_d0_w32_scVector)) (k0_pay99 (F := F) (scTV m d L f0 64 inb_S128_S16_64)) h)
      = scAccAt (m (xLoc d)) (m (tLoc d)) (widL L) 5 (by omega) :=
  (sc_acc_c4 acc (scTV m d L f0 64 inb_S128_S16_64) (scGV m d L 4 (k0_pay98 (iota .scVector S16 32 [0] iota_S16_d0_w32_scVector)) (k0_pay99 (F := F) (scTV m d L f0 64 inb_S128_S16_64)) h)).trans
    (sc_step m d L (4 : Fin 8) f0 inb_S128_S16_64 (k0_pay98 (iota .scVector S16 32 [0] iota_S16_d0_w32_scVector)) (k0_pay99 (F := F) (scTV m d L f0 64 inb_S128_S16_64)) acc hacc rfl rfl h)

/-- Chunk 5's accumulate payload, over the run's terms, takes the accumulator after 5 chunks to the one after 6. -/
theorem sc_acc_step5 (acc : FVec F S16 .f32)
    (hacc : acc = scAccAt (m (xLoc d)) (m (tLoc d)) (widL L) 5 (by omega))
    (h : ∀ a x, ((![iota .scVector S16 32 [0] iota_S16_d0_w32_scVector, k0_pay117, (k0_pay118 (F := F) (scTV m d L f0 80 inb_S128_S16_80))] : Fin 3 → IVec S16 32) a x).toNat < S16x8x128.size a) :
    k0_pay119 acc (scTV m d L f0 80 inb_S128_S16_80) (scGV m d L 5 k0_pay117 (k0_pay118 (F := F) (scTV m d L f0 80 inb_S128_S16_80)) h)
      = scAccAt (m (xLoc d)) (m (tLoc d)) (widL L) 6 (by omega) :=
  (sc_acc_c5 acc (scTV m d L f0 80 inb_S128_S16_80) (scGV m d L 5 k0_pay117 (k0_pay118 (F := F) (scTV m d L f0 80 inb_S128_S16_80)) h)).trans
    (sc_step m d L (5 : Fin 8) f0 inb_S128_S16_80 k0_pay117 (k0_pay118 (F := F) (scTV m d L f0 80 inb_S128_S16_80)) acc hacc rfl rfl h)

/-- Chunk 6's accumulate payload, over the run's terms, takes the accumulator after 6 chunks to the one after 7. -/
theorem sc_acc_step6 (acc : FVec F S16 .f32)
    (hacc : acc = scAccAt (m (xLoc d)) (m (tLoc d)) (widL L) 6 (by omega))
    (h : ∀ a x, ((![iota .scVector S16 32 [0] iota_S16_d0_w32_scVector, k0_pay136, (k0_pay137 (F := F) (scTV m d L f0 96 inb_S128_S16_96))] : Fin 3 → IVec S16 32) a x).toNat < S16x8x128.size a) :
    k0_pay139 acc (scGV m d L 6 k0_pay136 (k0_pay137 (F := F) (scTV m d L f0 96 inb_S128_S16_96)) h) (k0_pay138 (F := F) (scTV m d L f0 96 inb_S128_S16_96)) (Scalar.ofBits .f32 0x00000000#32)
      = scAccAt (m (xLoc d)) (m (tLoc d)) (widL L) 7 (by omega) :=
  (sc_acc_c6 acc (scTV m d L f0 96 inb_S128_S16_96) (scGV m d L 6 k0_pay136 (k0_pay137 (F := F) (scTV m d L f0 96 inb_S128_S16_96)) h)).trans
    (sc_step m d L (6 : Fin 8) f0 inb_S128_S16_96 k0_pay136 (k0_pay137 (F := F) (scTV m d L f0 96 inb_S128_S16_96)) acc hacc rfl rfl h)

/-- Chunk 7's accumulate payload, over the run's terms, takes the accumulator after 7 chunks to the one after 8. -/
theorem sc_acc_step7 (acc : FVec F S16 .f32)
    (hacc : acc = scAccAt (m (xLoc d)) (m (tLoc d)) (widL L) 7 (by omega))
    (h : ∀ a x, ((![iota .scVector S16 32 [0] iota_S16_d0_w32_scVector, k0_pay1, (k0_pay2 (F := F) (scTV m d L f0 112 inb_S128_S16_112))] : Fin 3 → IVec S16 32) a x).toNat < S16x8x128.size a) :
    k0_pay3 acc (scTV m d L f0 112 inb_S128_S16_112) (scGV m d L 7 k0_pay1 (k0_pay2 (F := F) (scTV m d L f0 112 inb_S128_S16_112)) h)
      = scAccAt (m (xLoc d)) (m (tLoc d)) (widL L) 8 (by omega) :=
  (sc_acc_c7 acc (scTV m d L f0 112 inb_S128_S16_112) (scGV m d L 7 k0_pay1 (k0_pay2 (F := F) (scTV m d L f0 112 inb_S128_S16_112)) h)).trans
    (sc_step m d L (7 : Fin 8) f0 inb_S128_S16_112 k0_pay1 (k0_pay2 (F := F) (scTV m d L f0 112 inb_S128_S16_112)) acc hacc rfl rfl h)

/-- The accumulator after the eight chunks, over the run's terms, is the tile's result. -/
theorem sc_final_acc
    (h0 : ∀ a x, ((![iota .scVector S16 32 [0] iota_S16_d0_w32_scVector, k0_pay21, (k0_pay22 (F := F) (scTV m d L f0 0 inb_S128_S16_0))] : Fin 3 → IVec S16 32) a x).toNat < S16x8x128.size a)
    (h1 : ∀ a x, ((![iota .scVector S16 32 [0] iota_S16_d0_w32_scVector, k0_pay40, (k0_pay41 (F := F) (scTV m d L f0 16 inb_S128_S16_16))] : Fin 3 → IVec S16 32) a x).toNat < S16x8x128.size a)
    (h2 : ∀ a x, ((![iota .scVector S16 32 [0] iota_S16_d0_w32_scVector, k0_pay60, (k0_pay61 (F := F) (scTV m d L f0 32 inb_S128_S16_32))] : Fin 3 → IVec S16 32) a x).toNat < S16x8x128.size a)
    (h3 : ∀ a x, ((![iota .scVector S16 32 [0] iota_S16_d0_w32_scVector, k0_pay79, (k0_pay80 (F := F) (scTV m d L f0 48 inb_S128_S16_48))] : Fin 3 → IVec S16 32) a x).toNat < S16x8x128.size a)
    (h4 : ∀ a x, ((![iota .scVector S16 32 [0] iota_S16_d0_w32_scVector, (k0_pay98 (iota .scVector S16 32 [0] iota_S16_d0_w32_scVector)), (k0_pay99 (F := F) (scTV m d L f0 64 inb_S128_S16_64))] : Fin 3 → IVec S16 32) a x).toNat < S16x8x128.size a)
    (h5 : ∀ a x, ((![iota .scVector S16 32 [0] iota_S16_d0_w32_scVector, k0_pay117, (k0_pay118 (F := F) (scTV m d L f0 80 inb_S128_S16_80))] : Fin 3 → IVec S16 32) a x).toNat < S16x8x128.size a)
    (h6 : ∀ a x, ((![iota .scVector S16 32 [0] iota_S16_d0_w32_scVector, k0_pay136, (k0_pay137 (F := F) (scTV m d L f0 96 inb_S128_S16_96))] : Fin 3 → IVec S16 32) a x).toNat < S16x8x128.size a)
    (h7 : ∀ a x, ((![iota .scVector S16 32 [0] iota_S16_d0_w32_scVector, k0_pay1, (k0_pay2 (F := F) (scTV m d L f0 112 inb_S128_S16_112))] : Fin 3 → IVec S16 32) a x).toNat < S16x8x128.size a) :
    (k0_pay3 (k0_pay139 (k0_pay119 (k0_pay100 (k0_pay81 (k0_pay62 (k0_pay43 (k0_pay23 (k0_pay4 (F := F)) (scTV m d L f0 0 inb_S128_S16_0) (scGV m d L 0 k0_pay21 (k0_pay22 (F := F) (scTV m d L f0 0 inb_S128_S16_0)) h0)) (scGV m d L 1 k0_pay40 (k0_pay41 (F := F) (scTV m d L f0 16 inb_S128_S16_16)) h1) (k0_pay42 (F := F) (scTV m d L f0 16 inb_S128_S16_16)) (Scalar.ofBits .f32 0x00000000#32)) (scTV m d L f0 32 inb_S128_S16_32) (scGV m d L 2 k0_pay60 (k0_pay61 (F := F) (scTV m d L f0 32 inb_S128_S16_32)) h2)) (scTV m d L f0 48 inb_S128_S16_48) (scGV m d L 3 k0_pay79 (k0_pay80 (F := F) (scTV m d L f0 48 inb_S128_S16_48)) h3)) (scTV m d L f0 64 inb_S128_S16_64) (scGV m d L 4 (k0_pay98 (iota .scVector S16 32 [0] iota_S16_d0_w32_scVector)) (k0_pay99 (F := F) (scTV m d L f0 64 inb_S128_S16_64)) h4)) (scTV m d L f0 80 inb_S128_S16_80) (scGV m d L 5 k0_pay117 (k0_pay118 (F := F) (scTV m d L f0 80 inb_S128_S16_80)) h5)) (scGV m d L 6 k0_pay136 (k0_pay137 (F := F) (scTV m d L f0 96 inb_S128_S16_96)) h6) (k0_pay138 (F := F) (scTV m d L f0 96 inb_S128_S16_96)) (Scalar.ofBits .f32 0x00000000#32)) (scTV m d L f0 112 inb_S128_S16_112) (scGV m d L 7 k0_pay1 (k0_pay2 (F := F) (scTV m d L f0 112 inb_S128_S16_112)) h7))
      = tileOut (m (xLoc d)) (m (tLoc d)) (widL L) := by
  have e1 := sc_acc_step0 m d L f0 _ (sc_chain_zero _ _ _) h0
  have e2 := sc_acc_step1 m d L f0 _ e1 h1
  have e3 := sc_acc_step2 m d L f0 _ e2 h2
  have e4 := sc_acc_step3 m d L f0 _ e3 h3
  have e5 := sc_acc_step4 m d L f0 _ e4 h4
  have e6 := sc_acc_step5 m d L f0 _ e5 h5
  have e7 := sc_acc_step6 m d L f0 _ e6 h6
  have e8 := sc_acc_step7 m d L f0 _ e7 h7
  exact e8.trans (sc_chain_last _ _ _)

/-- The copy-out's word 16 w + l is lane l of what the accumulator scratch reads. -/
theorem sc_out_read (fo : Buf (Elt F) (oLoc d)) (acc : Buf (Elt F) ((V d (cV L) (jV L)).loc cc0_scratch2)) (l : Fin 16) :
    View.write (Elt F) (oSlice L).view fo (ReadAs.same.apply ((sA : Memref sig .scVector .vmem S16 .f32).view.read (Elt F) acc)) Finset.univ
        (ix1 ⟨16 * (widL L).val + l.val, by have := (widL L).isLt; have := l.isLt; omega⟩)
      = (sA : Memref sig .scVector .vmem S16 .f32).view.read (Elt F) acc (ix1 l) := by
  have he : (oSlice L).view.emb (ix1 l) = ix1 ⟨16 * (widL L).val + l.val, by have := (widL L).isLt; have := l.isLt; omega⟩ := by
    funext a
    have ha : a = (0 : Fin 1) := Subsingleton.elim (α := Fin 1) a 0
    subst ha
    apply Fin.ext
    show k0_off250 L 0 + 1 * l.val = 16 * (widL L).val + l.val
    rw [k0_off250_eq]
    show 32 * (L 1).val + 16 * (L 0).val + 1 * l.val = 16 * (2 * (L 1).val + (L 0).val) + l.val
    omega
  rw [← he, View.write_emb_of_mem _ _ (Finset.mem_univ _)]
  exact cast_eq _ _

/-- THE POST'S VALUE: after the eight chunks, the store of the accumulator and the copy-out, the result array holds the
    worker's value in the worker's sixteen words. -/
theorem sc_post_value (f2 : Buf (Elt F) ((V d (cV L) (jV L)).loc cc0_scratch2))
    (h0 : ∀ a x, ((![iota .scVector S16 32 [0] iota_S16_d0_w32_scVector, k0_pay21, (k0_pay22 (F := F) (scTV m d L f0 0 inb_S128_S16_0))] : Fin 3 → IVec S16 32) a x).toNat < S16x8x128.size a)
    (h1 : ∀ a x, ((![iota .scVector S16 32 [0] iota_S16_d0_w32_scVector, k0_pay40, (k0_pay41 (F := F) (scTV m d L f0 16 inb_S128_S16_16))] : Fin 3 → IVec S16 32) a x).toNat < S16x8x128.size a)
    (h2 : ∀ a x, ((![iota .scVector S16 32 [0] iota_S16_d0_w32_scVector, k0_pay60, (k0_pay61 (F := F) (scTV m d L f0 32 inb_S128_S16_32))] : Fin 3 → IVec S16 32) a x).toNat < S16x8x128.size a)
    (h3 : ∀ a x, ((![iota .scVector S16 32 [0] iota_S16_d0_w32_scVector, k0_pay79, (k0_pay80 (F := F) (scTV m d L f0 48 inb_S128_S16_48))] : Fin 3 → IVec S16 32) a x).toNat < S16x8x128.size a)
    (h4 : ∀ a x, ((![iota .scVector S16 32 [0] iota_S16_d0_w32_scVector, (k0_pay98 (iota .scVector S16 32 [0] iota_S16_d0_w32_scVector)), (k0_pay99 (F := F) (scTV m d L f0 64 inb_S128_S16_64))] : Fin 3 → IVec S16 32) a x).toNat < S16x8x128.size a)
    (h5 : ∀ a x, ((![iota .scVector S16 32 [0] iota_S16_d0_w32_scVector, k0_pay117, (k0_pay118 (F := F) (scTV m d L f0 80 inb_S128_S16_80))] : Fin 3 → IVec S16 32) a x).toNat < S16x8x128.size a)
    (h6 : ∀ a x, ((![iota .scVector S16 32 [0] iota_S16_d0_w32_scVector, k0_pay136, (k0_pay137 (F := F) (scTV m d L f0 96 inb_S128_S16_96))] : Fin 3 → IVec S16 32) a x).toNat < S16x8x128.size a)
    (h7 : ∀ a x, ((![iota .scVector S16 32 [0] iota_S16_d0_w32_scVector, k0_pay1, (k0_pay2 (F := F) (scTV m d L f0 112 inb_S128_S16_112))] : Fin 3 → IVec S16 32) a x).toNat < S16x8x128.size a) :
    OutHolds m d (widL L)
      ((oSlice L).view.writes (Elt F) (m (oLoc d)) [⟨Rect.whole S16, ReadAs.same.apply (View.read (Elt F) (sA : Memref sig .scVector .vmem S16 .f32).view
        ((sA : Memref sig .scVector .vmem S16 .f32).view.writes (Elt F) f2 [⟨Rect.unit (s := S16) ![0] S16.size inb_S16_S16_0,
          (k0_pay3 (k0_pay139 (k0_pay119 (k0_pay100 (k0_pay81 (k0_pay62 (k0_pay43 (k0_pay23 (k0_pay4 (F := F)) (scTV m d L f0 0 inb_S128_S16_0) (scGV m d L 0 k0_pay21 (k0_pay22 (F := F) (scTV m d L f0 0 inb_S128_S16_0)) h0)) (scGV m d L 1 k0_pay40 (k0_pay41 (F := F) (scTV m d L f0 16 inb_S128_S16_16)) h1) (k0_pay42 (F := F) (scTV m d L f0 16 inb_S128_S16_16)) (Scalar.ofBits .f32 0x00000000#32)) (scTV m d L f0 32 inb_S128_S16_32) (scGV m d L 2 k0_pay60 (k0_pay61 (F := F) (scTV m d L f0 32 inb_S128_S16_32)) h2)) (scTV m d L f0 48 inb_S128_S16_48) (scGV m d L 3 k0_pay79 (k0_pay80 (F := F) (scTV m d L f0 48 inb_S128_S16_48)) h3)) (scTV m d L f0 64 inb_S128_S16_64) (scGV m d L 4 (k0_pay98 (iota .scVector S16 32 [0] iota_S16_d0_w32_scVector)) (k0_pay99 (F := F) (scTV m d L f0 64 inb_S128_S16_64)) h4)) (scTV m d L f0 80 inb_S128_S16_80) (scGV m d L 5 k0_pay117 (k0_pay118 (F := F) (scTV m d L f0 80 inb_S128_S16_80)) h5)) (scGV m d L 6 k0_pay136 (k0_pay137 (F := F) (scTV m d L f0 96 inb_S128_S16_96)) h6) (k0_pay138 (F := F) (scTV m d L f0 96 inb_S128_S16_96)) (Scalar.ofBits .f32 0x00000000#32)) (scTV m d L f0 112 inb_S128_S16_112) (scGV m d L 7 k0_pay1 (k0_pay2 (F := F) (scTV m d L f0 112 inb_S128_S16_112)) h7))⟩]))⟩]) := by
  unfold OutHolds
  intro l
  rw [← View.write_univ_eq_writes_whole, View.writes_nil]
  refine (sc_out_read d L _ _ l).trans ?_
  rw [sc_store_read_writes]
  exact congrFun (sc_final_acc m d L f0 h0 h1 h2 h3 h4 h5 h6 h7) (ix1 l)

end Final

end Cert.Proof.Kernel

end
-- ==== Proof.Bits.ScTile.lean ====
/-
  A tile's body, run once at a symbolic place: the sync copy of its 128 entries of t, then for each of the eight
  chunks the sixteen block copies issued on the kernel's one semaphore (each from a read token of x on the block's
  own elements, into its tile of the scratch), the sixteen waits — only the last hands the tiles back —, the gather
  of one entry per row and the accumulation; the accumulator stored and its sixteen words copied out. The value is
  carried all along: after chunk k the scratch is the function `scG … k`, the accumulator `scAccAt … (k + 1)`.
-/
import proofs.«217662_g32298154065999_cont_8to1_b_8_33_alg».proof.Proof.Bits.ScTileLemmas3
import proofs.«217662_g32298154065999_cont_8to1_b_8_33_alg».proof.Proof.Bits.ScTileValue

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem pts_sX_access (d : Dev nD) (L : grid0.Coords) (f : Buf (Elt F) ((V d (cV L) (jV L)).loc cc0_scratch1)) :
    (((sX : Memref sig .scVector .vmem S16x8x128 .f32).access (.whole S16x8x128)).loc (V d (cV L) (jV L)) ↦{fullShare} f : sProp 𝕄)
      = (V d (cV L) (jV L)).loc cc0_scratch1 ↦{fullShare} f := rfl

theorem sc_waits_mono {W S : Waits sig (HIx 1)} (sm : SemLoc sig) (h : ∀ p ∈ S, p ∈ W ∨ p.2 = none) :
    ∀ p ∈ insert (sm, (none : HIx 1)) S, p ∈ W ∨ p.2 = none := by
  intro p hp
  rcases Finset.mem_insert.mp hp with rfl | hp
  · exact .inr rfl
  · exact h p hp

/-! ## The run's script

The body is unrolled: eight chunks, each sixteen (word check, issue), sixteen waits, a collect and a gather. The
steps of one lane and of one chunk are the same tactic text up to the chunk's and the lane's numbers — the names of
the generated facts (`inb_S128_S16_<16k>`, `slices_S16_o<j>_S1`, `k0_off<31k+2+j>`) and of the word the run names
(`<theorem>.sl.v<6+301k+12j>`) — so the text is computed from `(k, j)` here and run by `sc_chunk`. -/

namespace ScScript

def K8 (k : Nat) : String := s!"({k} : Fin 8)"
def J16 (j : Nat) : String := s!"({j} : Fin 16)"
def vname (thm : String) (k j : Nat) : String := s!"{thm}.sl.v{6 + 301 * k + 12 * j}"
def offN (k j : Nat) : String := s!"k0_off{31 * k + 2 + j}"
/-- What the scratch holds when chunk `k` starts. -/
def fdOf (k : Nat) : String := if k = 0 then "f1" else s!"(scG (m (xLoc d)) (m (tLoc d)) (widL L) {K8 (k - 1)})"
def names (p : String) : String := ", ".intercalate ((List.range 16).map fun j => s!"{p}{j}")

/-- Lane `j` of chunk `k`: run to the issue (the word's check discharged from the range of t), issue by `sc_issue`. -/
def lane (thm : String) (k j : Nat) : String :=
  let v := vname thm k j
  s!"  sl_exec_parts (disch := sc_chk (sc_v_le hrng f0 {16 * k} inb_S128_S16_{16 * k} ![{j}] slices_S16_o{j}_S1 inpos_S1_p0))
  have hv : {v} m d L f0 = scTw m d L {K8 k} {J16 j} := sc_v_eq f0 {K8 k} {J16 j} inb_S128_S16_{16 * k} slices_S16_o{j}_S1 inpos_S1_p0
  iapply (sc_issue hrng {K8 k} {J16 j} {fdOf k} ({offN k j} L ({v} m d L f0)) _ (by rw [hv]; rfl)) $$ [Hb{j} Hd{j} HB]
  · isplitl [Hb{j}]; · iexact Hb{j}
    isplitl [Hd{j}]; · iexact Hd{j}
    iexact HB
  iintro HB
  clear hv
"

/-- Chunk `k`: the scratch as its tiles, x lent, the batch allocated (from the semaphore's counter at zero); the sixteen
    lanes; the waits; the collect; the gather's check and the gather. -/
def chunk (thm : String) (k : Nat) : String :=
  let fd := fdOf k
  let hall := " ".intercalate ((List.range 16).map fun j => s!"HB_dst{j} HB_src{j}")
  s!"  ihave Htl := (Entails.of_eq ((sc_tiles_split (F := F) (d := d) (L := L) {fd}).trans (sc_bigSep16 _))) $$ Hs1
  icases Htl with ⟨{names "Hd"}⟩
  ihave Hxl := (sc_x_lend (F := F) (m := m) (d := d) (L := L) hrng {K8 k}) $$ Hx
  icases Hxl with ⟨Hbs, Hback⟩
  ihave Hbs' := (Entails.of_eq (sc_bigSep16 _)) $$ Hbs
  icases Hbs' with ⟨{names "Hb"}⟩
  imod (Transfers.batch_alloc' (Lvl := ℕ) (countersEmb (U := UU)) (V d (cV L) (jV L)) (none : HIx 1) scN
    (scD (F := F) m d L hrng {K8 k} {fd}) (sm := .dma cc0_scratch3.sem) (E := Set.univ)) $$ HsemK with HB
" ++ String.join ((List.range 16).map (lane thm k)) ++
  s!"  sl_exec_parts
  ihave HsemK : (semVal (scCellK d L) 0) $$ [HB]
  · iexact HB
  ihave Hall : (bigSep Finset.univ (scD (F := F) m d L hrng {K8 k} {fd})) $$ [{hall}]
  · rw [sc_bigSep16]; unfold scD scDelivAt
" ++ String.join ((List.range 15).map fun j => s!"    isplitl [HB_dst{j} HB_src{j}]
    · isplitl [HB_dst{j}]; · iexact HB_dst{j}
      iexact HB_src{j}
") ++
  s!"    isplitl [HB_dst15]; · iexact HB_dst15
    iexact HB_src15
  ihave Hc := (sc_collect (F := F) (m := m) (d := d) (L := L) hrng _ {fd}) $$ Hall
  icases Hc with ⟨Hs1, Hbs⟩
  ihave Hx := Hback $$ Hbs
  sl_exec_parts (disch := exact sc_gchk _ _)
  ihave Hsx := (Entails.of_eq (pts_sX_access (F := F) d L _).symm) $$ Hs1
  iapply (SparseCore.wp_vectorLoadIdx 𝒱₀ (V d (cV L) (jV L)) none Set.univ (base := (sX : Memref sig .scVector .vmem S16x8x128 .f32)) (S := Finset.univ) (q := fullShare) (Finset.subset_univ _)) $$ Hsx; iintro Hsx
  ihave Hs1 := (Entails.of_eq (pts_sX_access (F := F) d L _)) $$ Hsx
"

end ScScript

open Lean Elab Tactic in
/-- Run chunk `k`'s script in the theorem `thm`. -/
elab "sc_chunk " thm:ident k:num : tactic => do
  let txt := "(\n" ++ ScScript.chunk thm.getId.toString k.getNat ++ ")"
  match Parser.runParserCategory (← getEnv) `tactic txt with
  | .ok stx => evalTactic stx
  | .error e => throwError e

section Body
variable [FloatOps F] (m : (ℓ : Loc nD τ sig) → Buf (Elt F) ℓ) (d : Dev nD) (L : grid0.Coords)
set_option maxHeartbeats 4000000 in
theorem tile_body (hF : (K (F := F)).Facts)
    (hrng : ∀ i, (m (tLoc d) i).toNat ≤ 31999) (O : CellTallies nD τ sig (HIx 1)) (W : Waits sig (HIx 1)) (hO : ∀ g, O g none = 0) :
    TileBodyAt (F := F) m d L O W := by
  unfold TileBodyAt tileProg goRes tdRes
  simp only [cc0__sc_gather_eq_skeleton]; unfold cc0__sc_gather_skel
  rw [(K (F := F)).scopedBufs_V hF d (cV L) (jV L), SparseCore.Cfg.scopedSems0_V (Val := Elt F) d (cV L) (jV L), sc_ownSems0_V, sc_ownBufs_V]
  iintro ⟨#Hlv, ⟨Hx, Ht, Ho⟩, ⟨⟨%f0, Hs0⟩, ⟨%f1, Hs1⟩, ⟨%f2, Hs2⟩, Hbufs⟩, ⟨HsemK, Hsem0, Hsem1, Hsems⟩, HO⟩
  ihave Hmw := ((K (F := F)).mayWaits_none (thr := V d (cV L) (jV L)) hO) $$ Hlv
  ihave Ht' := (Entails.of_eq (pts_tSlice (F := F) d L _).symm) $$ Ht
  ihave Hs0' := (Entails.of_eq (pts_sT (F := F) d L _).symm) $$ Hs0
  sc_chunk tile_body 0
  sc_chunk tile_body 1
  sc_chunk tile_body 2
  sc_chunk tile_body 3
  sc_chunk tile_body 4
  sc_chunk tile_body 5
  sc_chunk tile_body 6
  sc_chunk tile_body 7
  -- the accumulator stored, the sixteen words copied out
  ihave Ho' := (Entails.of_eq (pts_oSlice (F := F) d L _).symm) $$ Ho
  ihave Hs2' := (Entails.of_eq (pts_sA (F := F) d L _).symm) $$ Hs2
  sl_exec_parts
  sl_step
  isplitl [Hx Ht' Ho']
  · isplitl [Hx]; · iexact Hx
    isplitl [Ht']
    · ihave Ht := (Entails.of_eq (pts_tSlice (F := F) d L _)) $$ Ht'; iexact Ht
    iexists _
    isplitr
    rotate_left
    · ihave Ho := (Entails.of_eq (pts_oSlice (F := F) d L _)) $$ Ho'; iexact Ho
    · ipureintro
      exact sc_post_value m d L f0 f2 (sc_gchk _ _) (sc_gchk _ _) (sc_gchk _ _) (sc_gchk _ _) (sc_gchk _ _) (sc_gchk _ _) (sc_gchk _ _) (sc_gchk _ _)
  isplitl [Hs0' Hs1 Hs2' Hbufs]
  · isplitl [Hs0']; · iexists _; iexact Hs0'
    isplitl [Hs1]; · iexists _; iexact Hs1
    isplitl [Hs2']; · iexists _; iexact Hs2'
    iexact Hbufs
  isplitl [HsemK Hsem0 Hsem1 Hsems]
  · isplitl [HsemK]; · iexact HsemK
    isplitl [Hsem0]; · iexact Hsem0
    isplitl [Hsem1]; · iexact Hsem1
    iexact Hsems
  iexists _; isplitr
  rotate_left
  · iexact HO
  · ipureintro
    repeat' (first | exact fun _ h => Or.inl h | apply sc_waits_mono)

/-- The launch theorem's obligation for the tiles. -/
theorem tileObl (hF : (K (F := F)).Facts) (hrng : ∀ d i, (m (tLoc d) i).toNat ≤ 31999) :
    (K (F := F)).TileObl (D (F := F)) 𝒱 (P m) v₀ 0 :=
  tileObl_of m fun d L O W hO => tile_body m d L hF (hrng d) O W hO

end Body

end Cert.Proof.Kernel

end
-- ==== Proof.RealSum.lean ====
/-
  Two facts about finite families of real numbers inside the extended reals.

  (1) The sum of finitely many reals, taken in the extended reals, is the real sum.
  (2) The maximum of a nonempty finite family of reals, folded from -infinity, is one of them, hence a real.
  Also: the words 0xFF800000, 0x3F800000 denote -infinity and 1.
-/
import Idealize.ShloMosaic.PureOps.Ideal
import Idealize.ShloMosaic.PureOps.Ideal.Laws

noncomputable section

namespace Cert.RealSum

open Idealize.ShloMosaic

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A maximum folded from -infinity over a nonempty finite family of reals is a real. -/
theorem fold_max_bot_real {ι : Type} [Fintype ι] (hne : (Finset.univ : Finset ι).Nonempty) (f : ι → EReal)
    (hf : ∀ k, ∃ r : ℝ, f k = (r : EReal)) : ∃ r : ℝ, (Finset.univ : Finset ι).fold max ⊥ f = (r : EReal) := by
  obtain ⟨k, -, hk⟩ := Finset.exists_mem_eq_sup Finset.univ hne f
  obtain ⟨r, hr⟩ := hf k
  exact ⟨r, by rw [← hr, ← hk]; rfl⟩

/-- The word 0xFF800000 denotes -infinity. -/
theorem bot_word : Ideal.ofBits .f32 0xFF800000#32 = (⊥ : EReal) := by
  simp [Ideal.ofBits, Ideal.ieee]

/-- The word 0x3F800000 denotes 1. -/
theorem one_word : Ideal.ofBits .f32 0x3F800000#32 = (1 : EReal) := by
  simp [Ideal.ofBits, Ideal.ieee]
  rw [← EReal.coe_mul, ← EReal.coe_one, EReal.coe_eq_coe_iff]
  norm_num

end Cert.RealSum

end
-- ==== Proof.KernelValueRow.lean ====
/-
  The TensorCore call's payloads at one row of a block, at the extended reals.

  For a block xb of 128 rows of real numbers: the row maximum m_p = max(-inf, max(-inf, max_j xb[p,j])) is a real
  number (the row is nonempty); the running sum after the block, from the reset state (maximum -inf, sum 0), is
  0 * exp(-inf - m_p) + (0 + ∑_j exp(xb[p,j] - m_p)) = ∑_j exp(xb[p,j] - m_p) (0 times anything is 0); and a point's
  partial sum is the sum over the 128 rows of  log s_p + m_p  where the row's integer entry is not zero, 0 where it
  is (the reduction over the block's two unit-sized axes and its row axis is the sum over the rows).
-/
import proofs.«217662_g32298154065999_cont_8to1_b_8_33_alg».proof.Proof.KernelOut
import proofs.«217662_g32298154065999_cont_8to1_b_8_33_alg».proof.Proof.RealSum
import Idealize.ShloMosaic.PureOps.Ideal.Laws
import Idealize.ShloMosaic.Lib.Pipeline.Value
import Idealize.ShloMosaic.Lib.ValueLayout
import Idealize.ShloMosaic.Lib.Affine

noncomputable section

namespace Cert.Proof.KernelIdeal

open Cert.KernelIdeal Cert.KernelIdeal.Gen Idealize.ShloMosaic Idealize.ShloMosaic.ValueIdx

/-- A vector of 128 entries cast to a column reads entry p at (p, 0). -/
theorem kv_cast_col {α : Type} (v : S128.Idx → α) (h : S128.ShapeCasts S128x1) (p : Fin 128) :
    shapeCast S128x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

theorem kv_lift128 (h : S128x32000.Reduces [1] S128) (p : Fin 128) (k : Fin (S128x32000.size 1)) :
    h.lift (ix1 p) k = ix2 p (⟨k.val, k.isLt⟩ : Fin 32000) := by
  funext c; apply Fin.ext
  fin_cases c <;> rfl

theorem kv_pay1_apply (q : S128x1.Idx) : k1_pay1 (F := Ideal) q = (⊥ : EReal) := by
  unfold k1_pay1
  rw [shapeCast_self]
  exact Cert.RealSum.bot_word

theorem kv_pay2_apply (q : S128x1.Idx) : k1_pay2 (F := Ideal) q = (0 : EReal) := by
  unfold k1_pay2
  rw [shapeCast_self]
  exact Ideal.ofBits_zero_f32

/-- The row maxima, with the reduction's side conditions spelt out. -/
theorem kv_pay3_eq (v0 : FVec Ideal S128x32000 .f32) (v8 : FVec Ideal S128x1 .f32) :
    k1_pay3 (F := Ideal) v0 v8 = maximumf v8 (shapeCast S128x1
      (multiReduction .maximumf [1] S128 v0 0xFF800000#32 reduces_S128x32000_S128 (.inl rfl) rfl) shapeCasts_S128_S128x1) := rfl

theorem kv_max_single (xb : FVec Ideal S128x32000 .f32) (p : Fin 128) :
    multiReduction .maximumf [1] S128 xb 0xFF800000#32 reduces_S128x32000_S128 (.inl rfl) rfl (ix1 p)
      = (Finset.univ : Finset (Fin (S128x32000.size 1))).fold max (⊥ : EReal) (xb ∘ reduces_S128x32000_S128.lift (ix1 p)) := by
  refine (Ideal.multiReduction_maximumf_single xb 0xFF800000#32 reduces_S128x32000_S128 (.inl rfl) rfl (ix1 p)).trans ?_
  show Finset.fold max (Ideal.ofBits .f32 0xFF800000#32) _ _ = _
  rw [Cert.RealSum.bot_word]

theorem kv_rowmax_of (xb : FVec Ideal S128x32000 .f32) (r : ℝ) (p : Fin 128) (hr : Finset.fold max ⊥ (xb ∘ reduces_S128x32000_S128.lift (ix1 p)) (Finset.univ : Finset (Fin (S128x32000.size 1))) = (r : EReal)) :
    k1_pay3 (F := Ideal) xb (k1_pay1 (F := Ideal)) (ix2 p (0 : Fin 1)) = (r : EReal) := by
  rw [kv_pay3_eq, maximumf_apply, kv_pay1_apply, kv_cast_col, kv_max_single, hr]
  exact max_eq_right bot_le

/-- The block's row maximum, folded from -infinity, is a real number. -/
theorem kv_rowmax (xb : FVec Ideal S128x32000 .f32) (hx : ∀ q, ∃ r : ℝ, xb q = (r : EReal)) (p : Fin 128) :
    ∃ M : ℝ, k1_pay3 (F := Ideal) xb (k1_pay1 (F := Ideal)) (ix2 p (0 : Fin 1)) = (M : EReal) := by
  obtain ⟨r, hr⟩ := Cert.RealSum.fold_max_bot_real (ι := Fin (S128x32000.size 1)) ⟨⟨0, by decide⟩, Finset.mem_univ _⟩
    (xb ∘ reduces_S128x32000_S128.lift (ix1 p)) (fun k => hx _)
  exact ⟨r, kv_rowmax_of xb r p hr⟩

theorem kv_pay5_eq (v0 : FVec Ideal S128x32000 .f32) (v8 : FVec Ideal S128x1 .f32) :
    k1_pay5 (F := Ideal) v0 v8 = shapeCast S128x1 (k1_pay3 (F := Ideal) v0 v8) shapeCasts_S128x1_S128x1 := rfl

theorem kv_mNew_eq (xb : FVec Ideal S128x32000 .f32) : mNew (F := Ideal) xb = k1_pay3 (F := Ideal) xb (k1_pay1 (F := Ideal)) := by
  unfold mNew
  rw [kv_pay5_eq, shapeCast_self]

theorem kv_pay4_eq (v0 : FVec Ideal S128x32000 .f32) (v8 v10 : FVec Ideal S128x1 .f32) :
    k1_pay4 (F := Ideal) v0 v8 v10 = shapeCast S128x1 (addf (mulf v10 (exp (subf v8 (k1_pay3 (F := Ideal) v0 v8))))
      (shapeCast S128x1 (multiReduction .add [1] S128 (exp (subf v0 (broadcastTo S128x32000 (k1_pay3 (F := Ideal) v0 v8)
        broadcasts_S128x1_S128x32000))) 0x00000000#32 reduces_S128x32000_S128 (.inl rfl) rfl) shapeCasts_S128_S128x1))
      shapeCasts_S128x1_S128x1 := rfl

theorem kv_add_single (v : FVec Ideal S128x32000 .f32) (p : Fin 128) :
    multiReduction .add [1] S128 v 0x00000000#32 reduces_S128x32000_S128 (.inl rfl) rfl (ix1 p)
      = ∑ k : Fin 32000, v (ix2 p k) := by
  refine (Ideal.multiReduction_add_single v 0x00000000#32 reduces_S128x32000_S128 (.inl rfl) rfl (ix1 p)).trans ?_
  exact Finset.sum_congr rfl fun k _ => congrArg v (kv_lift128 _ p k)

theorem kv_exp_apply {s : Shape} (x : FVec Ideal s .f32) (i : s.Idx) : exp x i = Ideal.exp (x i) := rfl
theorem kv_log_apply {s : Shape} (x : FVec Ideal s .f32) (i : s.Idx) : log x i = Ideal.log (x i) := rfl

/-- The block's row sums of exponentials about the row maxima. -/
theorem kv_sNew_apply (xb : FVec Ideal S128x32000 .f32) (hx : ∀ q, ∃ r : ℝ, xb q = (r : EReal)) (p : Fin 128) (M : ℝ)
    (hM : k1_pay3 (F := Ideal) xb (k1_pay1 (F := Ideal)) (ix2 p (0 : Fin 1)) = (M : EReal)) :
    sNew (F := Ideal) xb (ix2 p (0 : Fin 1)) = ((∑ j : Fin 32000, Real.exp ((xb (ix2 p j)).toReal - M) : ℝ) : EReal) := by
  unfold sNew
  rw [kv_pay4_eq, shapeCast_self, addf_apply, mulf_apply, kv_pay2_apply, zero_mul, zero_add, kv_cast_col, kv_add_single,
    Cert.RealSum.coe_sum]
  refine Finset.sum_congr rfl fun k _ => ?_
  rw [kv_exp_apply, subf_apply,
    broadcastTo_apply (k1_pay3 (F := Ideal) xb (k1_pay1 (F := Ideal))) broadcasts_S128x1_S128x32000 (ix2 p k)
      (ix2 p (0 : Fin 1)) (fun a => match a with
        | ⟨0, _⟩ => by show p.val = if (128 : Nat) = 1 then 0 else p.val; rw [if_neg (by decide)]
        | ⟨1, _⟩ => by show 0 = if (1 : Nat) = 1 then 0 else _; rw [if_pos rfl]),
    hM]
  obtain ⟨r, hr⟩ := hx (ix2 p k)
  rw [hr, EReal.toReal_coe, ← EReal.coe_sub, Ideal.exp_coe]

theorem kv_pay6_eq (v1 : IVec S128x1 32) (v29 v31 : FVec Ideal S128x1 .f32) :
    k1_pay6 (F := Ideal) v1 v29 v31 = broadcast S1x1 (extractAt ![0, 0, 0] (shapeCast S1x1x1
      (multiReduction .add [1, 2] S1 (shapeCast S1x128x1 (select (cmpi .ne (shapeCast S128x1 v1 shapeCasts_S128x1_S128x1)
        (broadcast S128x1 0#32)) (addf (log v29) v31) (broadcast S128x1 (Scalar.ofBits (F := Ideal) .f32 0x00000000#32)))
        shapeCasts_S128x1_S1x128x1) 0x00000000#32 reduces_S1x128x1_S1 (.inl rfl) rfl) shapeCasts_S1_S1x1x1)
      inpos_S1x1x1_p0_0_0) := rfl

theorem kv_extractAt {s : Shape} {α : Type} (pos : Fin s.rank → Nat) (x : s.Idx → α) (h : ∀ a, pos a < s.size a) :
    extractAt pos x h = x (fun a => ⟨pos a, h a⟩) := rfl

/-- A one-entry vector cast to one-by-one-by-one reads its entry everywhere. -/
theorem kv_cast_111 {α : Type} (v : S1.Idx → α) (h : S1.ShapeCasts S1x1x1) (j : S1x1x1.Idx) :
    shapeCast S1x1x1 v h j = v (ix1 (0 : Fin 1)) := by
  refine shapeCast_apply v h j (ix1 (0 : Fin 1)) ?_
  rw [Shape.rowMajor_val_one, Shape.rowMajor_val_three]
  have h0 : (j 0).val < 1 := (j 0).isLt
  have h1 : (j 1).val < 1 := (j 1).isLt
  have h2 : (j 2).val < 1 := (j 2).isLt
  show 0 = ((j 0).val * 1 + (j 1).val) * 1 + (j 2).val
  omega

theorem kv_add_total (v : FVec Ideal S1x128x1 .f32) (j : S1.Idx) :
    multiReduction .add [1, 2] S1 v 0x00000000#32 reduces_S1x128x1_S1 (.inl rfl) rfl j = ∑ i : S1x128x1.Idx, v i :=
  Ideal.multiReduction_add_total v 0x00000000#32 reduces_S1x128x1_S1 (fun b => by fin_cases b; rfl) (.inl rfl) rfl j

/-- A one-by-128-by-one index set is its middle coordinate's range. -/
def kvIdxEquiv1p1 : S1x128x1.Idx ≃ Fin 128 where
  toFun i := i 1
  invFun p := ix3 (0 : Fin 1) p (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

theorem kv_sum_1p1 {M : Type*} [AddCommMonoid M] (f : S1x128x1.Idx → M) :
    ∑ i, f i = ∑ p : Fin 128, f (ix3 (0 : Fin 1) p (0 : Fin 1)) := by
  rw [← Equiv.sum_comp kvIdxEquiv1p1.symm f]
  rfl

/-- One point's partial sum: over the block's 128 rows, log s + m where the integer entry is not zero. -/
theorem kv_pay6_apply (v1 : IVec S128x1 32) (v29 v31 : FVec Ideal S128x1 .f32) (q : S1x1.Idx) :
    k1_pay6 (F := Ideal) v1 v29 v31 q
      = ∑ p : Fin 128, (if v1 (ix2 p (0 : Fin 1)) = 0#32 then (0 : EReal)
          else Ideal.log (v29 (ix2 p (0 : Fin 1))) + v31 (ix2 p (0 : Fin 1))) := by
  rw [kv_pay6_eq, broadcast_apply, kv_extractAt, kv_cast_111, kv_add_total, kv_sum_1p1]
  refine Finset.sum_congr rfl fun p _ => ?_
  rw [shapeCast_ab_1ab_apply, select_apply, shapeCast_self, broadcast_apply, addf_apply, kv_log_apply]
  show Scalar.select (IntOp.cmpi .ne (v1 (ix2 p (0 : Fin 1))) 0#32) _ (Ideal.ofBits .f32 0x00000000#32) = _
  rw [Ideal.ofBits_zero_f32]
  by_cases h : v1 (ix2 p (0 : Fin 1)) = 0#32
  · have hc : IntOp.cmpi .ne (v1 (ix2 p (0 : Fin 1))) 0#32 = 0#1 := eq_zero_of_ne_one (fun e => (IntOp.cmpi_ne.1 e) h)
    rw [if_pos h, hc, select_zero]
  · have hc : IntOp.cmpi .ne (v1 (ix2 p (0 : Fin 1))) 0#32 = 1#1 := IntOp.cmpi_ne.2 h
    rw [if_neg h, hc, select_one]

end Cert.Proof.KernelIdeal

end
-- ==== Proof.KernelValueSum.lean ====
/-
  Finite sums re-indexed.

  A sum over the indices of a one-axis array is the sum over its coordinate; a sum over `Fin (a * b)` is the double
  sum over `w < a`, `l < b` at `b * w + l`. So the sum over the 4096 rows is the sum over the 32 blocks of 128 rows
  `128 r + p`, and also the sum over 32 workers, 8 chunks and 16 lanes at `128 w + 16 k + l`.
-/
import Idealize.ShloMosaic.PureOps.Ideal
import Idealize.ShloMosaic.Lib.ValueIdx

noncomputable section

namespace Cert.Proof.KernelIdeal

open Idealize.ShloMosaic Idealize.ShloMosaic.ValueIdx

/-- A one-axis index set is its coordinate's range. -/
def kvIdxEquiv1 {n : Nat} : (⟨1, ![n]⟩ : Shape).Idx ≃ Fin n where
  toFun i := i 0
  invFun a := ix1 a
  left_inv i := (eq_ix1 i).symm
  right_inv _ := rfl

/-- A sum over a one-axis index set is the sum over the coordinate. -/
theorem kv_sum_idx1 {M : Type*} [AddCommMonoid M] {n : Nat} (f : (⟨1, ![n]⟩ : Shape).Idx → M) :
    ∑ i, f i = ∑ a : Fin n, f (ix1 a) := by
  rw [← Equiv.sum_comp (kvIdxEquiv1 (n := n)).symm f]
  rfl

theorem kv_lt {a b : Nat} (w : Fin a) (l : Fin b) : b * w.val + l.val < a * b :=
  calc b * w.val + l.val < b * w.val + b := by have := l.isLt; omega
    _ = b * (w.val + 1) := by ring
    _ ≤ b * a := Nat.mul_le_mul_left _ w.isLt
    _ = a * b := Nat.mul_comm _ _

/-- A sum over `Fin n`, `n = a * b`, is the double sum at `b * w + l`. -/
theorem kv_sum_fin_mul {M : Type*} [AddCommMonoid M] {a b n : Nat} (hn : a * b = n) (g : Fin n → M) :
    ∑ q, g q = ∑ w : Fin a, ∑ l : Fin b, g ⟨b * w.val + l.val, hn ▸ kv_lt w l⟩ := by
  subst hn
  rw [← Equiv.sum_comp finProdFinEquiv g, Fintype.sum_prod_type]
  refine Finset.sum_congr rfl fun w _ => Finset.sum_congr rfl fun l _ => congrArg g (Fin.ext ?_)
  show (finProdFinEquiv (w, l)).val = b * w.val + l.val
  rw [finProdFinEquiv_apply_val]
  exact Nat.add_comm _ _

/-- The sum over the 4096 rows by blocks of 128. -/
theorem kv_sum_blocks {M : Type*} [AddCommMonoid M] (g : Fin 4096 → M) :
    ∑ i, g i = ∑ r : Fin 32, ∑ p : Fin 128, g ⟨128 * r.val + p.val, by omega⟩ :=
  kv_sum_fin_mul (a := 32) (b := 128) rfl g

/-- The sum over the 4096 rows by workers, chunks and lanes. -/
theorem kv_sum_tiles {M : Type*} [AddCommMonoid M] (g : Fin 4096 → M) :
    ∑ i, g i = ∑ w : Fin 32, ∑ l : Fin 16, ∑ k : Fin 8, g ⟨128 * w.val + 16 * k.val + l.val, by omega⟩ := by
  rw [kv_sum_blocks g]
  refine Finset.sum_congr rfl fun w _ => ?_
  rw [kv_sum_fin_mul (a := 8) (b := 16) rfl (fun p : Fin 128 => g ⟨128 * w.val + p.val, by omega⟩), Finset.sum_comm]
  refine Finset.sum_congr rfl fun l _ => Finset.sum_congr rfl fun k _ => congrArg g (Fin.ext ?_)
  show 128 * w.val + (16 * k.val + l.val) = 128 * w.val + 16 * k.val + l.val
  omega

end Cert.Proof.KernelIdeal

end
-- ==== Proof.Spec.lean ====
/-
  The common value of the two programs, over the reals.

  For a row `i` of the float argument `x` (4096 rows of 32000 entries) write `lse i = log (∑ j, exp x[i,j])`.
  With `t` the integer argument (one column index per row), both programs compute

      loss x t = ∑ i, if t[i] = 0 then 0 else lse i - x[i, t[i]].

  The kernel reaches it as (∑ over rows with t ≠ 0 of log (∑ j, exp (x[i,j] - M i)) + M i) minus
  (∑ over rows with t ≠ 0 of x[i, t[i]]), the reference as the sum over ALL entries (i, j) of
  `xlogy d d - d * logp` with `d` the one-hot row of `t[i]` (zero on rows with t = 0) and
  `logp = (x - M) - log (∑ exp (x - M))`; `M i` is any real number (each side uses the row maximum), since
  `log (∑ j, exp (x j - M)) + M = log (∑ j, exp (x j))` for every real `M`.
  The entries are extended reals; the functions below read them through `EReal.toReal`, which is the identity on
  the finite entries the precondition grants.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 32000]⟩
abbrev ST : Shape := ⟨1, ![4096]⟩
abbrev S0 : Shape := ⟨0, ![]⟩

/-- The column a row's integer entry names: its value as a natural number, reduced below the row length (the
    precondition puts it there already). -/
def col (t : ST.Idx → BitVec 32) (i : Fin 4096) : Fin 32000 :=
  ⟨(t (ix1 i)).toNat % 32000, Nat.mod_lt _ (by norm_num)⟩

/-- `log (∑ j, exp x[i,j])` of row `i`. -/
def lse (x : SX.Idx → EReal) (i : Fin 4096) : ℝ :=
  Real.log (∑ j : Fin 32000, Real.exp (x (ix2 i j)).toReal)

/-- One row's term: nothing for a row whose integer entry is zero, else `lse i - x[i, t[i]]`. -/
def term (x : SX.Idx → EReal) (t : ST.Idx → BitVec 32) (i : Fin 4096) : ℝ :=
  if t (ix1 i) = 0#32 then 0 else lse x i - (x (ix2 i (col t i))).toReal

/-- The loss: the sum of the rows' terms. -/
def loss (x : SX.Idx → EReal) (t : ST.Idx → BitVec 32) : ℝ := ∑ i : Fin 4096, term x t i

/-- The loss as the scalar array both programs end with. -/
def result (x : SX.Idx → EReal) (t : ST.Idx → BitVec 32) : S0.Idx → EReal := fun _ => ((loss x t : ℝ) : EReal)

/-- The shift invariance both sides rest on: for real `M`, `log (∑ exp (a j - M)) + M = log (∑ exp (a j))`
    over a nonempty finite index type. -/
theorem log_sum_exp_shift {ι : Type} [Fintype ι] [Nonempty ι] (a : ι → ℝ) (M : ℝ) :
    Real.log (∑ j, Real.exp (a j - M)) + M = Real.log (∑ j, Real.exp (a j)) := by
  have hpos : 0 < ∑ j, Real.exp (a j) := Finset.sum_pos (fun j _ => Real.exp_pos _) Finset.univ_nonempty
  have h1 : ∑ j, Real.exp (a j - M) = Real.exp (-M) * ∑ j, Real.exp (a j) := by
    rw [Finset.mul_sum]; exact Finset.sum_congr rfl fun j _ => by rw [← Real.exp_add]; ring_nf
  rw [h1, Real.log_mul (Real.exp_pos _).ne' hpos.ne', Real.log_exp]; ring

end Cert.Spec

end
-- ==== Proof.KernelValueTc.lean ====
/-
  The TensorCore call's scalar, at the extended reals.

  Point r of the grid stages rows [128 r, 128 r + 128) of x and of t (as a column). Its partial sum is
  ∑_p h (128 r + p) with h i = if t[i] = 0 then 0 else lse i: on a row of real numbers the kernel's
  log s_p + m_p is log (∑_j exp (x[i,j] - m_p)) + m_p = lse i, by the shift invariance of log-sum-exp. The output
  block after point n is the sum of the partial sums of points 0 … n, and (r, p) ↦ 128 r + p runs over every row
  once: the call's scalar is ∑_i h i.
-/
import proofs.«217662_g32298154065999_cont_8to1_b_8_33_alg».proof.Proof.KernelValueRow
import proofs.«217662_g32298154065999_cont_8to1_b_8_33_alg».proof.Proof.KernelValueSum
import proofs.«217662_g32298154065999_cont_8to1_b_8_33_alg».proof.Proof.Spec

noncomputable section

namespace Cert.Proof.KernelIdeal

open Cert.KernelIdeal Cert.KernelIdeal.Gen Idealize.ShloMosaic Idealize.ShloMosaic.ValueIdx

section AnyF
variable {F : FTy → Type} [FloatOps F]
theorem kv_row_lt (r : Fin cfg1.N) (p : Fin 128) : 128 * r.val + p.val < 4096 := by
  have h : r.val < 32 := r.isLt
  omega

/-- Row p of block r. -/
def kvRow (r : Fin cfg1.N) (p : Fin 128) : Fin 4096 := ⟨128 * r.val + p.val, kv_row_lt r p⟩

theorem kv_xBlk_apply (x : XC F) (r : Fin cfg1.N) (p : Fin 128) (j : Fin 32000) :
    xBlk x r (ix2 p j) = x (ix2 (kvRow r p) j) := by
  have hi : win1_1.index r 0 = r.val ∧ win1_1.index r 1 = 0 :=
    (by decide +kernel : ∀ t : Fin cfg1.N, win1_1.index t 0 = t.val ∧ win1_1.index t 1 = 0) r
  unfold xBlk
  rw [View.read_apply]
  refine congrArg x (funext fun a => Fin.ext ?_)
  match a with
  | ⟨0, _⟩ => show win1_1.index r 0 * 128 + 1 * p.val = 128 * r.val + p.val; rw [hi.1]; omega
  | ⟨1, _⟩ => show win1_1.index r 1 * 32000 + 1 * j.val = j.val; rw [hi.2]; omega

theorem kv_tBlk_apply (t1 : TC F) (r : Fin cfg1.N) (p : Fin 128) :
    tBlk t1 r (ix2 p (0 : Fin 1)) = t1 (ix2 (kvRow r p) (0 : Fin 1)) := by
  have hi : win1_0.index r 0 = r.val ∧ win1_0.index r 1 = 0 :=
    (by decide +kernel : ∀ t : Fin cfg1.N, win1_0.index t 0 = t.val ∧ win1_0.index t 1 = 0) r
  unfold tBlk
  rw [View.read_apply]
  refine congrArg t1 (funext fun a => Fin.ext ?_)
  match a with
  | ⟨0, _⟩ => show win1_0.index r 0 * 128 + 1 * p.val = 128 * r.val + p.val; rw [hi.1]; omega
  | ⟨1, _⟩ => show win1_0.index r 1 * 1 + 1 * 0 = 0; rw [hi.2]

theorem kv_tCol_apply (t : TV F) (i : Fin 4096) : tCol t (ix2 i (0 : Fin 1)) = t (ix1 i) := by
  unfold tCol
  refine shapeCast_apply t _ (ix2 i (0 : Fin 1)) (ix1 i) ?_
  rw [Shape.rowMajor_val_one, Shape.rowMajor_val_two]
  show i.val = i.val * 1 + 0
  omega

end AnyF

/-- Row i's log-sum-exp term: nothing for a row whose integer entry is zero, else lse i. -/
def kvH (x : XC Ideal) (t : TV Ideal) (i : Fin 4096) : ℝ :=
  if t (ix1 i) = 0#32 then 0 else Cert.Spec.lse x i

/-- The partial sum of point r: the sum over its 128 rows of their log-sum-exp terms. -/
theorem kv_part_apply (x : XC Ideal) (t : TV Ideal) (hfin : ∀ i, ∃ r : ℝ, x i = (r : EReal)) (r : Fin cfg1.N) (q : S1x1.Idx) :
    part (F := Ideal) x (tCol (F := Ideal) t) r q = ((∑ p : Fin 128, kvH x t (kvRow r p) : ℝ) : EReal) := by
  have hxb : ∀ q, ∃ r' : ℝ, xBlk (F := Ideal) x r q = (r' : EReal) := fun q => by
    obtain ⟨a, b, rfl⟩ : ∃ (a : Fin 128) (b : Fin 32000), q = ix2 a b := ⟨q 0, q 1, eq_ix2 q⟩
    obtain ⟨r', h'⟩ := hfin (ix2 (kvRow r a) b)
    exact ⟨r', (kv_xBlk_apply x r a b).trans h'⟩
  unfold part
  rw [kv_pay6_apply, Cert.RealSum.coe_sum]
  refine Finset.sum_congr rfl fun p _ => ?_
  obtain ⟨M, hM⟩ := kv_rowmax (xBlk (F := Ideal) x r) hxb p
  rw [kv_tBlk_apply, kv_tCol_apply, kv_sNew_apply (xBlk (F := Ideal) x r) hxb p M hM, kv_mNew_eq, hM]
  unfold kvH
  by_cases h0 : t (ix1 (kvRow r p)) = 0#32
  · rw [if_pos h0, if_pos h0, EReal.coe_zero]
  · have hpos : 0 < ∑ j : Fin 32000, Real.exp ((xBlk (F := Ideal) x r (ix2 p j)).toReal - M) :=
      Finset.sum_pos (fun k _ => Real.exp_pos _) ⟨⟨0, by decide⟩, Finset.mem_univ _⟩
    rw [if_neg h0, if_neg h0, Ideal.log_coe, if_neg (not_le.2 hpos), ← EReal.coe_add]
    refine congrArg (fun r : ℝ => (r : EReal)) ?_
    have hs := Cert.Spec.log_sum_exp_shift (ι := Fin 32000) (fun j => (xBlk (F := Ideal) x r (ix2 p j)).toReal) M
    refine hs.trans ?_
    unfold Cert.Spec.lse
    refine congrArg Real.log (Finset.sum_congr rfl fun j _ => ?_)
    show Real.exp (xBlk (F := Ideal) x r (ix2 p j)).toReal = _
    rw [kv_xBlk_apply]

theorem kv_pay7_eq (v1 : IVec S128x1 32) (v29 v31 : FVec Ideal S128x1 .f32) (v48 : FVec Ideal S1x1 .f32) :
    k1_pay7 (F := Ideal) v1 v29 v31 v48 = addf (shapeCast S1x1 v48 shapeCasts_S1x1_S1x1) (k1_pay6 (F := Ideal) v1 v29 v31) := rfl

/-- The output block after point n: the sum of the partial sums of points 0 … n. -/
theorem kv_accAt_apply (x : XC Ideal) (t : TV Ideal) (hfin : ∀ i, ∃ r : ℝ, x i = (r : EReal)) (q : S1x1.Idx) :
    ∀ (n : Nat) (h : n < cfg1.N), accAt (F := Ideal) x (tCol (F := Ideal) t) n h q
      = ((∑ r ∈ Finset.range (n + 1), if hr : r < cfg1.N then ∑ p : Fin 128, kvH x t (kvRow ⟨r, hr⟩ p) else 0 : ℝ) : EReal)
  | 0, h => by
    rw [accAt, kv_part_apply x t hfin, Finset.sum_range_one, dif_pos h]
  | n + 1, h => by
    rw [accAt, kv_pay7_eq, addf_apply, shapeCast_self, kv_accAt_apply x t hfin q n (Nat.lt_of_succ_lt h),
      Finset.sum_range_succ _ (n + 1), dif_pos h, EReal.coe_add]
    refine congrArg (_ + ·) ?_
    exact kv_part_apply x t hfin ⟨n + 1, h⟩ q

/-- The TensorCore call's scalar: the sum of the rows' log-sum-exp terms. -/
theorem kv_tcScalar_eq (x : XC Ideal) (t : TV Ideal) (hfin : ∀ i, ∃ r : ℝ, x i = (r : EReal)) (q : S_.Idx) :
    tcScalar (F := Ideal) x t q = ((∑ i : Fin 4096, kvH x t i : ℝ) : EReal) := by
  unfold tcScalar
  rw [shapeCast_apply _ Facts₀.shapeCasts_S1x1_S_ q (ix2 (0 : Fin 1) (0 : Fin 1)) (by
    have h : (S_.rowMajor q).val < 1 := (S_.rowMajor q).isLt
    rw [Shape.rowMajor_val_two]
    show (0 : Nat) * 1 + 0 = _
    omega)]
  unfold tcOut
  rw [kv_accAt_apply x t hfin _ 31 (by decide), kv_sum_blocks, Finset.sum_range]
  refine congrArg (fun r : ℝ => (r : EReal)) (Finset.sum_congr rfl fun r _ => ?_)
  rw [dif_pos (show r.val < cfg1.N from r.isLt)]
  rfl

end Cert.Proof.KernelIdeal

end
-- ==== Proof.KernelValueSc.lean ====
/-
  The sum of the SparseCore call's 512 words, at the extended reals.

  Worker w's lane l holds the left fold over its eight chunks k of acc + (if t[r] ≠ 0 then x[r, t[r]] else 0),
  r = 128 w + 16 k + l, from acc = 0: with every entry of x a real number this is the real
  ∑_k g r, g r = if t[r] = 0 then 0 else x[r, col t r]. The host's sum of the 512 words is the sum over workers and
  lanes, and (w, k, l) ↦ 128 w + 16 k + l runs over every row once: the sum is ∑_i g i.
-/
import proofs.«217662_g32298154065999_cont_8to1_b_8_33_alg».proof.Proof.KernelOut
import proofs.«217662_g32298154065999_cont_8to1_b_8_33_alg».proof.Proof.Spec
import proofs.«217662_g32298154065999_cont_8to1_b_8_33_alg».proof.Proof.RealSum
import proofs.«217662_g32298154065999_cont_8to1_b_8_33_alg».proof.Proof.KernelValueSum
import Idealize.ShloMosaic.PureOps.Ideal.Laws
import Idealize.ShloMosaic.Lib.Affine

noncomputable section

namespace Cert.Proof.KernelIdeal

open Cert.KernelIdeal Idealize.ShloMosaic Idealize.ShloMosaic.ValueIdx

/-- Row i's gathered term: nothing for a row whose integer entry is zero, else x[i, col t i]. -/
def kvG (x : XC Ideal) (t : TV Ideal) (i : Fin 4096) : ℝ :=
  if t (ix1 i) = 0#32 then 0 else (x (ix2 i (Cert.Spec.col t i))).toReal

/-- One chunk's step at a lane: the accumulator plus the gathered entry where the integer entry is not zero. -/
theorem kv_accStep_apply (acc : FVec Ideal S16 .f32) (tv : IVec S16 32) (g : FVec Ideal S16 .f32) (l : S16.Idx) :
    accStep (F := Ideal) acc tv g l = acc l + (if tv l = 0#32 then 0 else g l) := by
  show acc l + Scalar.select (IntOp.cmpi .ne (tv l) 0#32) (g l) (Ideal.ofBits .f32 0x00000000#32) = _
  rw [Ideal.ofBits_zero_f32]
  by_cases h : tv l = 0#32
  · have hc : IntOp.cmpi .ne (tv l) 0#32 = 0#1 := eq_zero_of_ne_one (fun e => (IntOp.cmpi_ne.1 e) h)
    rw [if_pos h, hc, select_zero]
  · have hc : IntOp.cmpi .ne (tv l) 0#32 = 1#1 := IntOp.cmpi_ne.2 h
    rw [if_neg h, hc, select_one]

/-- The accumulator after n chunks, at lane l. -/
theorem kv_scAcc_apply (x : XC Ideal) (t : TV Ideal) (hfin : ∀ i, ∃ r : ℝ, x i = (r : EReal)) (w : Fin 32) (l : Fin 16) :
    ∀ (n : Nat) (h : n ≤ 8), scAccAt (F := Ideal) x t w n h (ix1 l)
      = ((∑ k ∈ Finset.range n, if hk : k < 8 then kvG x t (rowOf w ⟨k, hk⟩ l) else 0 : ℝ) : EReal)
  | 0, _ => by
    show Ideal.ofBits .f32 0x00000000#32 = _
    rw [Ideal.ofBits_zero_f32, Finset.range_zero, Finset.sum_empty, EReal.coe_zero]
  | n + 1, h => by
    have hn : n < 8 := by omega
    rw [scAccAt, kv_accStep_apply, kv_scAcc_apply x t hfin w l n (by omega), Finset.sum_range_succ, dif_pos hn, EReal.coe_add]
    refine congrArg (_ + ·) ?_
    show (if t (ix1 (rowOf w ⟨n, hn⟩ l)) = 0#32 then (0 : EReal)
      else x (ix2 (rowOf w ⟨n, hn⟩ l) (Cert.Spec.col t (rowOf w ⟨n, hn⟩ l)))) = _
    unfold kvG
    by_cases h0 : t (ix1 (rowOf w ⟨n, hn⟩ l)) = 0#32
    · rw [if_pos h0, if_pos h0, EReal.coe_zero]
    · rw [if_neg h0, if_neg h0]
      obtain ⟨r, hr⟩ := hfin (ix2 (rowOf w ⟨n, hn⟩ l) (Cert.Spec.col t (rowOf w ⟨n, hn⟩ l)))
      rw [hr, EReal.toReal_coe]

/-- What worker w leaves in lane l: the sum over its eight chunks. -/
theorem kv_tileOut_apply (x : XC Ideal) (t : TV Ideal) (hfin : ∀ i, ∃ r : ℝ, x i = (r : EReal)) (w : Fin 32) (l : Fin 16) :
    tileOut (F := Ideal) x t w (ix1 l) = ((∑ k : Fin 8, kvG x t (rowOf w k l) : ℝ) : EReal) := by
  unfold tileOut
  rw [kv_scAcc_apply x t hfin w l 8 le_rfl, Finset.sum_range]
  refine congrArg (fun r : ℝ => (r : EReal)) (Finset.sum_congr rfl fun k _ => ?_)
  rw [dif_pos k.isLt]

/-- The sum of the 512 words is the sum of the rows' gathered terms. -/
theorem kv_scSum_eq (x : XC Ideal) (t : TV Ideal) (f : OV Ideal) (hfin : ∀ i, ∃ r : ℝ, x i = (r : EReal))
    (hf : ∀ (w : Fin 32) (l : Fin 16), f (ix1 ⟨16 * w.val + l.val, by omega⟩) = tileOut (F := Ideal) x t w (ix1 l))
    (q : S_.Idx) : scSum (F := Ideal) f q = ((∑ i : Fin 4096, kvG x t i : ℝ) : EReal) := by
  unfold scSum
  simp only [Host.reduceAdd, Ideal.hostReduceAdd_def]
  rw [Ideal.hostReduceAdd_total Facts₀.reducesTo_S512_S_d0 (fun b => b.elim0) f _ q]
  show Ideal.ofBits .f32 0x00000000#32 + _ = _
  rw [Ideal.ofBits_zero_f32, zero_add, kv_sum_idx1, kv_sum_fin_mul (a := 32) (b := 16) rfl, kv_sum_tiles,
    Cert.RealSum.coe_sum]
  refine Finset.sum_congr rfl fun w _ => ?_
  rw [Cert.RealSum.coe_sum]
  refine Finset.sum_congr rfl fun l _ => ?_
  rw [hf w l, kv_tileOut_apply x t hfin w l]
  rfl

end Cert.Proof.KernelIdeal

end
-- ==== Proof.KernelValue.lean ====
/-
  The kernel's scalar is the loss.

  The TensorCore call's scalar is ∑_i h i, h i = if t[i] = 0 then 0 else lse i, and the sum of the SparseCore call's
  words is ∑_i g i, g i = if t[i] = 0 then 0 else x[i, col t i]; their difference, a difference of two reals, is
  ∑_i (h i - g i) = ∑_i (if t[i] = 0 then 0 else lse i - x[i, col t i]), the loss.
-/
import proofs.«217662_g32298154065999_cont_8to1_b_8_33_alg».proof.Proof.KernelValueTc
import proofs.«217662_g32298154065999_cont_8to1_b_8_33_alg».proof.Proof.KernelValueSc

noncomputable section

namespace Cert.Proof.KernelIdeal

open Cert.KernelIdeal Idealize.ShloMosaic Idealize.ShloMosaic.ValueIdx

/-- The kernel's scalar is the loss. -/
theorem kernelOut_eq (x : XC Ideal) (t : TV Ideal) (f : OV Ideal) (hfin : ∀ i, ∃ r : ℝ, x i = (r : EReal))
    (hrng : ∀ i, (t i).toNat ≤ 31999)
    (hf : ∀ (w : Fin 32) (l : Fin 16), f (ValueIdx.ix1 ⟨16 * w.val + l.val, by omega⟩) = tileOut (F := Ideal) x t w (ValueIdx.ix1 l)) :
    kernelOut (F := Ideal) x t f = Cert.Spec.result x t := by
  funext q
  unfold kernelOut
  rw [subf_apply, kv_tcScalar_eq x t hfin q, kv_scSum_eq x t f hfin hf q, ← EReal.coe_sub, ← Finset.sum_sub_distrib]
  show _ = ((Cert.Spec.loss x t : ℝ) : EReal)
  unfold Cert.Spec.loss
  refine congrArg (fun r : ℝ => (r : EReal)) (Finset.sum_congr rfl fun i _ => ?_)
  unfold kvH kvG Cert.Spec.term
  by_cases h0 : t (ix1 i) = 0#32
  · rw [if_pos h0, if_pos h0, if_pos h0, sub_zero]
  · rw [if_neg h0, if_neg h0, if_neg h0]

end Cert.Proof.KernelIdeal

end
-- ==== Proof.PreFacts.lean ====
/-
  What the precondition says, entry by entry.

  The precondition is one bit: the conjunction of "every |x[i,j]| is below +infinity" (a reduction by
  `and` over all entries of the comparison |x| < +inf) and "every t[i] lies in [0, 31999] read signed"
  (a reduction by `and` over all rows of (t >= 0) and (t <= 31999)). A reduction by `and` from 1 that
  comes out 1 met only 1s, so each comparison holds at every index. For the integers: a word that is
  nonnegative and at most 31999 read signed is at most 31999 read unsigned. For the floats, on the
  extended reals: |x| = max x (-x), and max x (-x) < +inf says x < +inf and -x < +inf, that is x is
  neither infinity, hence a real number. The word 0x7F800000 denotes +inf.
-/
import proofs.«217662_g32298154065999_cont_8to1_b_8_33_alg».proof.Pre_input_domain
import Idealize.ShloMosaic.Lib.ReduceAll
import Idealize.ShloMosaic.PureOps.Ideal
import Idealize.ShloMosaic.Lib.ValueIdx

noncomputable section

namespace Cert.PreFacts

open Idealize.ShloMosaic Cert.Pre_input_domain

variable [Cert.Pre_input_domain.Facts]

/-- The scalar shape has one index. -/
instance : Subsingleton S_.Idx := ⟨fun a b => funext fun d => d.elim0⟩

/-- Under the precondition every integer entry, read unsigned, is at most 31999 (for every float instance:
    only the integer half of the conjunction is opened). -/
theorem range_of_pre {F : FTy → Type} [FloatOps F] (x : FVec F S4096x32000 .f32) (t : IVec S4096 32)
    (h : fn (F := F) x t = fun _ => 1#1) : ∀ i, (t i).toNat ≤ 31999 := by
  intro i
  have h0 := congrFun h ValueIdx.ix0
  dsimp only [fn] at h0
  obtain ⟨_, h9⟩ := IntOp.andi_eq_one.1 h0
  have h8 := Host.reduce_andi_all _ _ _ _ _ h9 i
  obtain ⟨h5, h7⟩ := IntOp.andi_eq_one.1 h8
  have a5 : (0#32 : BitVec 32).toInt ≤ (t i).toInt := IntOp.cmpi_sge.1 h5
  have a7 : (t i).toInt ≤ (31999#32 : BitVec 32).toInt := IntOp.cmpi_sle.1 h7
  have e0 : (0#32 : BitVec 32).toInt = 0 := by decide
  have e1 : (31999#32 : BitVec 32).toInt = 31999 := by decide
  rw [e0] at a5; rw [e1] at a7
  rw [BitVec.toInt_eq_toNat_cond] at a5 a7
  have := (t i).isLt
  split_ifs at a5 a7 <;> omega

/-- A bit made from a Boolean is 1 exactly when the Boolean is true. -/
theorem ofBool_eq_one {b : Bool} : BitVec.ofBool b = 1#1 ↔ b = true := by cases b <;> decide

/-- The word 0x7F800000 denotes +infinity. -/
theorem top_word : Ideal.ofBits .f32 0x7F800000#32 = (⊤ : EReal) := by
  simp [Ideal.ofBits, Ideal.ieee]

/-- Under the precondition every float entry is a real number. -/
theorem finite_of_pre (x : FVec Ideal S4096x32000 .f32) (t : IVec S4096 32)
    (h : fn (F := Ideal) x t = fun _ => 1#1) : ∀ i, ∃ r : ℝ, x i = (r : EReal) := by
  intro i
  have h0 := congrFun h ValueIdx.ix0
  dsimp only [fn] at h0
  obtain ⟨h3, _⟩ := IntOp.andi_eq_one.1 h0
  have h2 := Host.reduce_andi_all _ _ _ _ _ h3 i
  have h2' : Ideal.cmp .olt (max (x i) (-(x i))) (Ideal.ofBits .f32 0x7F800000#32) = 1#1 := h2
  rw [top_word] at h2'
  have hlt : max (x i) (-(x i)) < ⊤ := of_decide_eq_true (ofBool_eq_one.1 h2')
  obtain ⟨h1, h2⟩ := max_lt_iff.1 hlt
  have hne_bot : x i ≠ ⊥ := by intro hb; rw [hb] at h2; simp at h2
  exact ⟨(x i).toReal, (EReal.coe_toReal h1.ne hne_bot).symm⟩

end Cert.PreFacts

end
-- ==== Proof.RefRow.lean ====
/-
  The reference's log-softmax, read at an entry.

  For a row `i` of the float argument, all of whose entries are real numbers a_0 … a_31999, the reference takes
  M = max(-inf, max_k a_k) (a real, as the row is nonempty), then the entries a_k - M, their exponentials,
  the sum S = ∑_k exp (a_k - M) > 0 (from the zero word), its logarithm, and
  logp[i,j] = (a_j - M) - log S. By the shift invariance of log-sum-exp, log S + M = log (∑_k exp a_k) = lse i,
  so logp[i,j] = a_j - lse i, a real number.
-/
import proofs.«217662_g32298154065999_cont_8to1_b_8_33_alg».proof.Proof.RefReadP
import proofs.«217662_g32298154065999_cont_8to1_b_8_33_alg».proof.Proof.Spec
import proofs.«217662_g32298154065999_cont_8to1_b_8_33_alg».proof.Proof.RealSum

noncomputable section

namespace Cert.RefSide

open Cert.ReferenceIdeal Cert.ReferenceIdeal.Gen Cert.ReferenceIdeal.Read Idealize.ShloMosaic Idealize.ShloMosaic.ValueIdx

/-- The row index with a coordinate on the reduced axis put back is the entry's index. -/
theorem lift_row (h : S4096x32000.Reduces [1] S4096) (i : Fin 4096) (k : Fin (S4096x32000.size 1)) :
    h.lift (ix1 i) k = ix2 i (⟨k.val, k.isLt⟩ : Fin 32000) := by
  funext c; apply Fin.ext
  fin_cases c <;> rfl

/-- The row maximum the reference subtracts is a real number when the row's entries are. -/
theorem rowmax_real (x : S4096x32000.Idx → EReal) (hx : ∀ q, ∃ r : ℝ, x q = (r : EReal)) (i : Fin 4096) :
    ∃ M : ℝ, val_main_call0_v2 (F := Ideal) x (ix1 i) = (M : EReal) := by
  have h : S4096x32000.Reduces [1] S4096 := by decide
  obtain ⟨r, hr⟩ := Cert.RealSum.fold_max_bot_real (ι := Fin (S4096x32000.size 1)) ⟨⟨0, by decide⟩, Finset.mem_univ _⟩
    (x ∘ h.lift (ix1 i)) (fun k => hx _)
  refine ⟨r, ?_⟩
  rw [val_main_call0_v2_apply, val_main_call0_v1_apply, val_main_call0_cst_0_apply]
  unfold val_main_call0_v0
  rw [Host.reduce_eq_fold_single (FloatOps.maximumf (F := Ideal) (φ := .f32)) x _ reducesTo_S4096x32000_S4096_d1 h h_S_]
  show max (Ideal.ofBits .f32 0xFF800000#32)
    (Finset.fold max (Ideal.ofBits .f32 0xFF800000#32) (x ∘ h.lift (ix1 i)) Finset.univ) = _
  rw [Cert.RealSum.bot_word, hr]
  exact max_eq_right bot_le

/-- The shifted entry: `x[i,k] - M` as a real. -/
theorem shifted_apply (x : S4096x32000.Idx → EReal) (hx : ∀ q, ∃ r : ℝ, x q = (r : EReal)) (i : Fin 4096) (M : ℝ)
    (hM : val_main_call0_v2 (F := Ideal) x (ix1 i) = (M : EReal)) (k : Fin 32000) :
    val_main_call0_v5 (F := Ideal) x (ix2 i k) = (((x (ix2 i k)).toReal - M : ℝ) : EReal) := by
  rw [val_main_call0_v5_apply, val_main_call0_v4_apply, val_main_call0_v3_apply]
  have e : idx_main_call0_v3 (idx_main_call0_v4 (ix2 i k)) = ix1 i := by
    funext a; match a with | ⟨0, _⟩ => rfl
  rw [e, hM]
  obtain ⟨r, hr⟩ := hx (ix2 i k)
  rw [hr, EReal.toReal_coe]
  exact (EReal.coe_sub r M).symm

/-- The sum of the exponentials of the shifted row, a real. -/
theorem expsum_apply (x : S4096x32000.Idx → EReal) (hx : ∀ q, ∃ r : ℝ, x q = (r : EReal)) (i : Fin 4096) (M : ℝ)
    (hM : val_main_call0_v2 (F := Ideal) x (ix1 i) = (M : EReal)) :
    val_main_call0_v7 (F := Ideal) x (ix1 i) = ((∑ k : Fin 32000, Real.exp ((x (ix2 i k)).toReal - M) : ℝ) : EReal) := by
  rw [val_main_call0_v7_apply, val_main_call0_cst_1_apply]
  show Ideal.ofBits .f32 0x00000000#32 + _ = _
  rw [Ideal.ofBits_zero_f32, zero_add, Cert.RealSum.coe_sum]
  refine Finset.sum_congr rfl fun k _ => ?_
  have e : idx_main_call0_v7 (ix1 i) k = ix2 i k := by
    funext a; match a with | ⟨0, _⟩ => rfl | ⟨1, _⟩ => rfl
  rw [e, val_main_call0_v6_apply, shifted_apply x hx i M hM k]
  rfl

/-- The reference's log-softmax at an entry is `x[i,j] - lse i`. -/
theorem logp_apply (x : S4096x32000.Idx → EReal) (hx : ∀ q, ∃ r : ℝ, x q = (r : EReal)) (i : Fin 4096) (j : Fin 32000) :
    val_main_v0 (F := Ideal) x (ix2 i j) = (((x (ix2 i j)).toReal - Cert.Spec.lse x i : ℝ) : EReal) := by
  obtain ⟨M, hM⟩ := rowmax_real x hx i
  rw [val_main_v0_apply, shifted_apply x hx i M hM j, val_main_call0_v10_apply, val_main_call0_v9_apply,
    val_main_call0_v8_apply]
  have e : idx_main_call0_v8 (idx_main_call0_v10 (ix2 i j)) = ix1 i := by
    funext a; match a with | ⟨0, _⟩ => rfl
  rw [e, expsum_apply x hx i M hM]
  have hpos : 0 < ∑ k : Fin 32000, Real.exp ((x (ix2 i k)).toReal - M) :=
    Finset.sum_pos (fun k _ => Real.exp_pos _) ⟨⟨0, by decide⟩, Finset.mem_univ _⟩
  rw [Ideal.subf_def, Ideal.hostUnary_log_def, Ideal.log_coe, if_neg (not_le.2 hpos), ← EReal.coe_sub]
  have hs : Real.log (∑ k : Fin 32000, Real.exp ((x (ix2 i k)).toReal - M)) + M = Cert.Spec.lse x i :=
    Cert.Spec.log_sum_exp_shift (ι := Fin 32000) (fun k => (x (ix2 i k)).toReal) M
  rw [← hs]
  generalize Real.log (∑ k : Fin 32000, Real.exp ((x (ix2 i k)).toReal - M)) = L
  refine congrArg (fun r : ℝ => (r : EReal)) ?_
  ring

end Cert.RefSide

end
-- ==== Proof.ScatterSet.lean ====
/-
  A scatter that overwrites with one constant, read at an index.

  The host's scatter is a left fold over the update indices: each update whose landing index lies inside the
  operand replaces the element there by the body's value. When the body returns the update and every update
  is the same constant `c`, the order of the fold does not matter: the result at an index `i` is `c` if some
  update lands on `i` and the operand's element otherwise. An update lands on `i` exactly when, on every
  axis, its start (read signed) plus its window coordinate is `i`'s coordinate.
-/
import Idealize.ShloMosaic.PureOps.Ideal
import Idealize.ShloMosaic.Lib.ValueIdx

noncomputable section

namespace Cert.ScatterSet

open Idealize.ShloMosaic

variable {s si u : Shape}

/-- An update lands on `i` exactly when start plus window coordinate is `i`'s coordinate on every axis. -/
theorem resultIdx?_eq_some_iff (d : ScatterDims s si u) {w : Nat} (j : u.Idx) (idx : IVec si w) (i : s.Idx) :
    d.resultIdx? j idx = some i ↔ ∀ a, d.start j idx a + d.window j a = ((i a).val : Int) := by
  unfold ScatterDims.resultIdx?
  split_ifs with h
  · constructor
    · intro e a
      have e' := congrFun (Option.some.inj e) a
      have := congrArg Fin.val e'
      simp only at this
      have := h a
      omega
    · intro e
      refine congrArg some (funext fun a => Fin.ext ?_)
      show (d.start j idx a + d.window j a).toNat = (i a).val
      rw [e a]; rfl
  · constructor
    · intro e; cases e
    · intro e
      exact absurd (fun a => ⟨by rw [e a]; exact Int.natCast_nonneg _, by rw [e a]; exact_mod_cast (i a).isLt⟩) h

/-- The scatter that overwrites with one constant, read at an index: the constant where some update lands, the
    operand elsewhere. -/
theorem scatter_const_apply {α : Type} (d : ScatterDims s si u) {w : Nat} (x : s.Idx → α) (idx : IVec si w) (c : α) (i : s.Idx) :
    Host.scatter d (fun _ b => b) x idx (fun _ => c) i
      = if ∃ q : u.Idx, d.resultIdx? q idx = some i then c else x i := by
  have hq : (∃ q : u.Idx, d.resultIdx? q idx = some i)
      ↔ ∃ n ∈ List.finRange u.numel, d.resultIdx? (u.rowMajor.symm n) idx = some i := by
    constructor
    · rintro ⟨q, e⟩
      exact ⟨u.rowMajor q, List.mem_finRange _, by rw [Equiv.symm_apply_apply]; exact e⟩
    · rintro ⟨n, _, e⟩; exact ⟨_, e⟩
  rw [if_congr hq rfl rfl]
  unfold Host.scatter
  generalize List.finRange u.numel = l
  induction l generalizing x with
  | nil => simp
  | cons a l ih =>
    rw [List.foldl_cons, ih]
    by_cases hl : ∃ n ∈ l, d.resultIdx? (u.rowMajor.symm n) idx = some i
    · rw [if_pos hl, if_pos]
      obtain ⟨n, hn, e⟩ := hl
      exact ⟨n, List.mem_cons_of_mem _ hn, e⟩
    · rw [if_neg hl]
      cases hg : d.resultIdx? (u.rowMajor.symm a) idx with
      | none =>
        dsimp only
        rw [if_neg]
        rintro ⟨n, hn, e⟩
        rcases List.mem_cons.1 hn with rfl | hn
        · rw [hg] at e; cases e
        · exact hl ⟨n, hn, e⟩
      | some i₀ =>
        dsimp only
        by_cases hi : i = i₀
        · rw [if_pos hi, if_pos]
          exact ⟨a, List.mem_cons_self, by rw [hg, hi]⟩
        · rw [if_neg hi, if_neg]
          rintro ⟨n, hn, e⟩
          rcases List.mem_cons.1 hn with rfl | hn
          · rw [hg] at e; exact hi (Option.some.inj e).symm
          · exact hl ⟨n, hn, e⟩

end Cert.ScatterSet

end
-- ==== Proof.RefHot.lean ====
/-
  The reference's one-hot array, read at an entry.

  The scatter writes the constant 1 into an array of zeros at the index rows (r', c') = (fix r, fix t[r]), r < 4096,
  where fix adds the axis length to a negative word. A row number r < 4096 and, under the precondition, a column
  word t[r] <= 31999 are nonnegative read signed, so the fix-ups are the identity and the row r lands at
  (r, t[r]). Every update is the same constant, so the scattered array is 1 at (i, j) exactly when t[i] = j, and 0
  elsewhere. The select that follows zeroes the rows whose t[i] is the zero word.
-/
import proofs.«217662_g32298154065999_cont_8to1_b_8_33_alg».proof.Proof.RefReadP
import proofs.«217662_g32298154065999_cont_8to1_b_8_33_alg».proof.Proof.Spec
import proofs.«217662_g32298154065999_cont_8to1_b_8_33_alg».proof.Proof.RealSum
import proofs.«217662_g32298154065999_cont_8to1_b_8_33_alg».proof.Proof.ScatterSet

noncomputable section

namespace Cert.RefSide

open Cert.ReferenceIdeal Cert.ReferenceIdeal.Gen Cert.ReferenceIdeal.Read Idealize.ShloMosaic Idealize.ShloMosaic.ValueIdx

/-- A word that is not negative read signed reads the same signed and unsigned. -/
theorem toInt_of_le {v : BitVec 32} {n : Nat} (h : v.toNat ≤ n) (hn : n < 2 ^ 31) : v.toInt = (v.toNat : Int) := by
  rw [BitVec.toInt_eq_toNat_cond, if_pos (by omega)]

/-- The fix-up of a word that is nonnegative read signed is the word. -/
theorem fixup_id (v k : BitVec 32) (n : Nat) (h : v.toNat ≤ n) (hn : n < 2 ^ 31) :
    Scalar.select (IntOp.cmpi .slt v 0#32) (IntOp.addi v k) v = v := by
  have hne : ¬ IntOp.cmpi .slt v 0#32 = 1#1 := by
    rw [IntOp.cmpi_slt, toInt_of_le h hn]
    have : (0#32 : BitVec 32).toInt = 0 := by decide
    rw [this]; omega
  exact if_neg hne

/-- The start of row `r`'s window on axis `a`: the index word at (r, a), read signed. -/
theorem start_eq (r : Fin 4096) (idx : IVec S4096x2 32) (a : Fin 2) :
    (scatter_S4096x32000_S4096x2_S4096_n_01_01_1).start (ix1 r) idx a = (idx (ix2 r a)).toInt := by
  unfold ScatterDims.start
  rw [dif_pos (by fin_cases a <;> decide)]
  refine congrArg (fun q => (idx q).toInt) (funext fun b => Fin.ext ?_)
  fin_cases a <;> fin_cases b <;> rfl

/-- Both operand axes are inserted: the window coordinate is zero. -/
theorem window_eq (r : Fin 4096) (a : Fin 2) :
    (scatter_S4096x32000_S4096x2_S4096_n_01_01_1).window (ix1 r) a = 0 := by
  unfold ScatterDims.window
  rw [dif_neg (by fin_cases a <;> decide)]

/-- The first coordinate of index row `r` is the word `r`. -/
theorem rows_col0 (t : S4096.Idx → BitVec 32) (r : Fin 4096) :
    val_main_v15 (F := Ideal) t (ix2 r (0 : Fin 2)) = BitVec.ofNat 32 r.val := by
  unfold val_main_v15
  rw [concatenate_pair_apply_left (t := S4096x2) (s₁ := S4096x1) (s₂ := S4096x1) 1 (val_main_v13 (F := Ideal))
    (val_main_v14 (F := Ideal) t) concatenates_S4096x1_S4096x1_S4096x2_d1
    (ix2 r (0 : Fin 2)) rfl (ix2 r (0 : Fin 1) : S4096x1.Idx) (fun b => by fin_cases b <;> rfl)]
  rw [val_main_v13_apply, val_main_v7_apply, val_main_v4_apply, val_main_v6_apply, val_main_v2_apply]
  have hr : (BitVec.ofNat 32 r.val).toNat ≤ 4095 := by
    rw [BitVec.toNat_ofNat, Nat.mod_eq_of_lt (by have := r.isLt; omega)]; have := r.isLt; omega
  exact fixup_id _ _ 4095 hr (by norm_num)

/-- The second coordinate of index row `r` is the column word, when that is at most 31999. -/
theorem rows_col1 (t : S4096.Idx → BitVec 32) (r : Fin 4096) (ht : (t (ix1 r)).toNat ≤ 31999) :
    val_main_v15 (F := Ideal) t (ix2 r (1 : Fin 2)) = t (ix1 r) := by
  unfold val_main_v15
  rw [concatenate_pair_apply_right (t := S4096x2) (s₁ := S4096x1) (s₂ := S4096x1) 1 (val_main_v13 (F := Ideal))
    (val_main_v14 (F := Ideal) t) concatenates_S4096x1_S4096x1_S4096x2_d1
    (ix2 r (1 : Fin 2)) rfl rfl (ix2 r (0 : Fin 1) : S4096x1.Idx)
    (fun b hb => by fin_cases b <;> first | rfl | exact absurd rfl hb) rfl]
  rw [val_main_v14_apply, val_main_v12_apply, val_main_v9_apply, val_main_v11_apply]
  have e : idx_main_v14 (ix2 r (0 : Fin 1)) = ix1 r := by
    funext a; match a with | ⟨0, _⟩ => rfl
  rw [e]
  exact fixup_id _ _ 31999 ht (by norm_num)

/-- Row `r` lands on (i, j) exactly when r = i and t[r] = j. -/
theorem lands_iff (t : S4096.Idx → BitVec 32) (ht : ∀ q, (t q).toNat ≤ 31999) (r i : Fin 4096) (j : Fin 32000) :
    (scatter_S4096x32000_S4096x2_S4096_n_01_01_1).resultIdx? (ix1 r) (val_main_v15 (F := Ideal) t) = some (ix2 i j)
      ↔ r = i ∧ (t (ix1 r)).toNat = j.val := by
  rw [Cert.ScatterSet.resultIdx?_eq_some_iff, Fin.forall_fin_two]
  rw [start_eq, start_eq, window_eq, window_eq, rows_col0, rows_col1 t r (ht _)]
  have h0 : (BitVec.ofNat 32 r.val).toNat = r.val := by
    rw [BitVec.toNat_ofNat, Nat.mod_eq_of_lt (by have := r.isLt; omega)]
  rw [toInt_of_le (n := 4095) (by rw [h0]; have := r.isLt; omega) (by norm_num), h0,
    toInt_of_le (ht (ix1 r)) (by norm_num)]
  show ((r.val : Int) + ((0 : Nat) : Int) = (i.val : Int) ∧ (((t (ix1 r)).toNat : Int) + ((0 : Nat) : Int) = (j.val : Int))) ↔ _
  constructor
  · rintro ⟨h1, h2⟩; exact ⟨Fin.ext (by omega), by omega⟩
  · rintro ⟨h1, h2⟩; subst h1; exact ⟨by omega, by omega⟩

/-- The scattered array: 1 at (i, t[i]), 0 elsewhere (as the words' extended reals). -/
theorem scattered_apply (t : S4096.Idx → BitVec 32) (ht : ∀ q, (t q).toNat ≤ 31999) (i : Fin 4096) (j : Fin 32000) :
    val_main_v17 (F := Ideal) t (ix2 i j) = if (t (ix1 i)).toNat = j.val then (1 : EReal) else 0 := by
  unfold val_main_v17
  have hu : val_main_v16 (F := Ideal) = fun _ => (1 : EReal) := by
    funext q; rw [val_main_v16_apply, val_main_cst_3_apply]; exact Cert.RealSum.one_word
  rw [hu, Cert.ScatterSet.scatter_const_apply]
  have hz : val_main_v1 (F := Ideal) (ix2 i j) = (0 : EReal) := by
    rw [val_main_v1_apply, val_main_cst_apply]; exact Ideal.ofBits_zero_f32
  rw [hz]
  refine if_congr ?_ rfl rfl
  constructor
  · rintro ⟨q, hq⟩
    rw [eq_ix1 q] at hq
    obtain ⟨h1, h2⟩ := (lands_iff t ht (q 0) i j).1 hq
    rw [← h1]; exact h2
  · intro h
    exact ⟨ix1 i, (lands_iff t ht i i j).2 ⟨rfl, h⟩⟩

/-- The one-hot array after the rows with a zero word are cleared: 1 at (i, col t i) when t[i] is not the zero
    word, 0 elsewhere. -/
theorem hot_apply (t : S4096.Idx → BitVec 32) (ht : ∀ q, (t q).toNat ≤ 31999) (i : Fin 4096) (j : Fin 32000) :
    val_main_v21 (F := Ideal) t (ix2 i j)
      = if t (ix1 i) ≠ 0#32 ∧ j = Cert.Spec.col t i then (1 : EReal) else 0 := by
  rw [val_main_v21_apply, val_main_call1_v1_apply, val_main_v20_apply, val_main_v19_apply, val_main_v18_apply,
    val_main_c_4_apply, val_main_call1_v2_apply, val_main_call1_v0_apply, val_main_cst_5_apply,
    scattered_apply t ht i j]
  have e : idx_main_v20 (idx_main_call1_v1 (ix2 i j)) = ix1 i := by
    funext a; match a with | ⟨0, _⟩ => rfl
  rw [e]
  have hc : j = Cert.Spec.col t i ↔ (t (ix1 i)).toNat = j.val := by
    unfold Cert.Spec.col
    rw [Fin.ext_iff]
    show j.val = (t (ix1 i)).toNat % 32000 ↔ _
    rw [Nat.mod_eq_of_lt (by have := ht (ix1 i); omega)]
    exact eq_comm
  by_cases h0 : t (ix1 i) = 0#32
  · have hc1 : IntOp.cmpi .eq (t (ix1 i)) 0#32 = 1#1 := IntOp.cmpi_eq.2 h0
    rw [hc1, select_one, if_neg (show ¬ (t (ix1 i) ≠ 0#32 ∧ j = Cert.Spec.col t i) from fun h => h.1 h0)]
    exact Ideal.ofBits_zero_f32
  · have hc0 : IntOp.cmpi .eq (t (ix1 i)) 0#32 = 0#1 := eq_zero_of_ne_one fun h => h0 (IntOp.cmpi_eq.1 h)
    rw [hc0, select_zero]
    exact if_congr ⟨fun h => ⟨h0, hc.2 h⟩, fun h => hc.1 h.2⟩ rfl rfl

end Cert.RefSide

end
-- ==== Proof.RefEntry.lean ====
/-
  One entry of the array the reference sums, and the sum.

  With d the one-hot entry at (i, j) (1 when t[i] is not the zero word and j is the column t[i] names, else 0)
  and p = x[i,j] - lse i the log-softmax entry (a real number), the entry is
  `(if d ≠ 0 then d * log d else 0) - d * p`: for d = 0 this is 0 - 0 * p = 0, for d = 1 it is 1 * log 1 - p = -p
  = lse i - x[i,j]. Row i therefore sums to 0 when t[i] is the zero word and to lse i - x[i, t[i]] otherwise,
  and the whole array to the loss.
-/
import proofs.«217662_g32298154065999_cont_8to1_b_8_33_alg».proof.Proof.RefRow
import proofs.«217662_g32298154065999_cont_8to1_b_8_33_alg».proof.Proof.RefHot

noncomputable section

namespace Cert.RefSide

open Cert.ReferenceIdeal Cert.ReferenceIdeal.Gen Cert.ReferenceIdeal.Read Idealize.ShloMosaic Idealize.ShloMosaic.ValueIdx

/-- The logarithm of 1 is 0. -/
theorem log_one : Ideal.log (1 : EReal) = 0 := by
  rw [← EReal.coe_one, Ideal.log_coe, if_neg (by norm_num), Real.log_one, EReal.coe_zero]

/-- One entry in terms of the one-hot entry d (0 or 1) and the log-softmax entry p (a real):
    `xlogy d d - d * p` is 0 when d = 0 and -p when d = 1. -/
theorem entry_of_hot (d : EReal) (p : ℝ) (hd : d = 0 ∨ d = 1) :
    (Scalar.select (IntOp.ori (Ideal.cmp .une d (Ideal.ofBits .f32 0x00000000#32)) (Ideal.cmp .une d d)) (d * Ideal.log d)
      (Ideal.ofBits .f32 0x00000000#32)) - d * (p : EReal) = if d = 1 then ((-p : ℝ) : EReal) else 0 := by
  rw [Ideal.ofBits_zero_f32]
  rcases hd with rfl | rfl
  · have h1 : Ideal.cmp .une (0 : EReal) 0 = 0#1 := by simp [Ideal.cmp]
    rw [h1, if_neg (by norm_num)]
    show Scalar.select 0#1 _ _ - _ = _
    rw [select_zero, zero_mul, sub_zero]
  · have h1 : Ideal.cmp .une (1 : EReal) 0 = 1#1 := by simp [Ideal.cmp]
    have h2 : Ideal.cmp .une (1 : EReal) 1 = 0#1 := by simp [Ideal.cmp]
    rw [h1, h2, if_pos rfl]
    show Scalar.select 1#1 _ _ - _ = _
    rw [select_one, log_one, mul_zero, one_mul, zero_sub, EReal.coe_neg]

/-- The summed array at (i, j): `lse i - x[i,j]` at the column t[i] names on a row whose t[i] is not the zero
    word, 0 elsewhere. -/
theorem entry_apply (x : S4096x32000.Idx → EReal) (hx : ∀ q, ∃ r : ℝ, x q = (r : EReal))
    (t : S4096.Idx → BitVec 32) (ht : ∀ q, (t q).toNat ≤ 31999) (i : Fin 4096) (j : Fin 32000) :
    val_main_v31 (F := Ideal) x t (ix2 i j)
      = if t (ix1 i) ≠ 0#32 ∧ j = Cert.Spec.col t i then ((Cert.Spec.lse x i - (x (ix2 i j)).toReal : ℝ) : EReal) else 0 := by
  rw [val_main_v31_apply, val_main_v29_apply, val_main_v25_apply, val_main_v23_apply, val_main_v24_apply,
    val_main_v27_apply, val_main_v26_apply, val_main_v28_apply, val_main_cst_7_apply, val_main_v22_apply,
    val_main_cst_6_apply, val_main_v30_apply, hot_apply t ht i j, logp_apply x hx i j]
  refine (entry_of_hot _ _ ?_).trans ?_
  · by_cases h : t (ix1 i) ≠ 0#32 ∧ j = Cert.Spec.col t i
    · rw [if_pos h]; exact Or.inr rfl
    · rw [if_neg h]; exact Or.inl rfl
  · by_cases h : t (ix1 i) ≠ 0#32 ∧ j = Cert.Spec.col t i
    · rw [if_pos h, if_pos h, if_pos rfl]
      refine congrArg (fun r : ℝ => (r : EReal)) ?_
      generalize Cert.Spec.lse x i = L
      ring
    · rw [if_neg h, if_neg h, if_neg (by norm_num)]

/-- Row i of the summed array sums to the row's term. -/
theorem rowsum (x : S4096x32000.Idx → EReal) (hx : ∀ q, ∃ r : ℝ, x q = (r : EReal))
    (t : S4096.Idx → BitVec 32) (ht : ∀ q, (t q).toNat ≤ 31999) (i : Fin 4096) :
    ∑ j : Fin 32000, val_main_v31 (F := Ideal) x t (ix2 i j) = ((Cert.Spec.term x t i : ℝ) : EReal) := by
  rw [Finset.sum_congr rfl (fun j _ => entry_apply x hx t ht i j)]
  unfold Cert.Spec.term
  by_cases h0 : t (ix1 i) = 0#32
  · rw [if_pos h0, Finset.sum_eq_zero (fun j _ => if_neg (fun h => h.1 h0)), EReal.coe_zero]
  · rw [if_neg h0, Finset.sum_eq_single (Cert.Spec.col t i)]
    · rw [if_pos ⟨h0, rfl⟩]
    · intro j _ hj; exact if_neg (fun h => hj h.2)
    · intro h; exact absurd (Finset.mem_univ _) h

/-- The reference's result is the loss. -/
theorem value_eq (x : S4096x32000.Idx → EReal) (hx : ∀ q, ∃ r : ℝ, x q = (r : EReal))
    (t : S4096.Idx → BitVec 32) (ht : ∀ q, (t q).toNat ≤ 31999) :
    val_main_v32 (F := Ideal) x t = Cert.Spec.result x t := by
  funext q
  rw [val_main_v32_apply, val_main_cst_8_apply]
  show Ideal.ofBits .f32 0x00000000#32 + _ = _
  rw [Ideal.ofBits_zero_f32, zero_add, sum_idx2, Finset.sum_congr rfl (fun i _ => rowsum x hx t ht i),
    ← Cert.RealSum.coe_sum]
  rfl

end Cert.RefSide

end
-- ==== Proof.RefRunStages.lean ====
/-
  The reference's run, one operation at a time.

  W k is what the device's buffers hold after the first k of the reference's 61 operations, from the launch contents:
  W 0 is the launch contents and W k is operation k's result over W (k - 1). Operation k writes one buffer, at the value
  of its function of its operands' buffers, and leaves every other buffer as it was. So, by induction on k, every buffer
  written so far holds its stage (the function val_… of the two argument arrays), and the two argument arrays are
  unchanged. The lemma Wk_b says buffer b holds its stage after k operations: it is stated for the buffer operation k
  writes (by the operation's result at its own buffer and the operands' lemmas at k - 1; the stage unfolds to the
  operation's function of the operands' stages) and, for as long as a later operation still reads it, for each buffer
  written earlier (operation k writes another buffer). After the last operation the result buffer holds the last stage,
  the composed function of the two arguments, and the arguments are as at launch. (An operation of a function inlined at
  its call site carries its operands and its result along the equality of each buffer's type with the value's type,
  which is the identity: those stages are closed by removing the transports, argument by argument.)
-/
import proofs.«217662_g32298154065999_cont_8to1_b_8_33_alg».proof.Proof.RefRunP
import proofs.«217662_g32298154065999_cont_8to1_b_8_33_alg».proof.Proof.RefReadP

noncomputable section

namespace Cert.RefSide

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- The two argument arrays at launch. -/
abbrev X0 : (⟨S4096x32000, .f32⟩ : BufTy).Contents (Elt F) := m ((c.tc : Thread nD τ).loc main_arg0)
abbrev X1 : (⟨S4096, .i32⟩ : BufTy).Contents (Elt F) := m ((c.tc : Thread nD τ).loc main_arg1)

/-- An operation that writes the one buffer y leaves every other buffer as it was. -/
theorem keep {op : HloOp τ sig (Elt F)} (y : Ref sig .tc) {r : Ref sig .tc} (hw : op.writes = {Proc.devRef .tc y}) (h : r ≠ y)
    (V : Valuation τ sig (Elt F)) : op.result V (Proc.devRef .tc r) = V (Proc.devRef .tc r) :=
  op.result_of_not_mem V (by rw [hw, Finset.mem_singleton]; exact devRef_ne_of_ne h)

/-- A function of three arguments at equal arguments. -/
theorem congr3 {α β γ δ : Sort _} (f : α → β → γ → δ) {a a' : α} {b b' : β} {c c' : γ} (ha : a = a') (hb : b = b') (hc : c = c') :
    f a b c = f a' b' c' := by subst ha hb hc; rfl

/-- The launch contents. -/
def W0 : Valuation τ sig (Elt F) := launchContents m c
theorem W0_main_arg0 : W0 m c (Proc.devRef .tc main_arg0) = X0 m c := rfl
theorem W0_main_arg1 : W0 m c (Proc.devRef .tc main_arg1) = X1 m c := rfl

/-- After operation 1 (it writes main_call0_cst). -/
def W1 : Valuation τ sig (Elt F) :=
  HloOp.result (τ := τ) (TRef.nullary (TRef.of (T := ⟨S_, .f32⟩) main_call0_cst) (constant S_ .f32 0xFF800000#32)) (W0 m c)
theorem W1_main_call0_cst : W1 m c (Proc.devRef .tc main_call0_cst) = val_main_call0_cst (F := F) := by
  unfold W1
  rw [nullary_result]
  rfl
theorem W1_main_arg0 : W1 m c (Proc.devRef .tc main_arg0) = X0 m c :=
  (keep main_call0_cst rfl (by decide) _).trans (W0_main_arg0 m c)
theorem W1_main_arg1 : W1 m c (Proc.devRef .tc main_arg1) = X1 m c :=
  (keep main_call0_cst rfl (by decide) _).trans (W0_main_arg1 m c)

/-- After operation 2 (it writes main_call0_v0). -/
def W2 : Valuation τ sig (Elt F) :=
  HloOp.result (τ := τ) (TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_)) (W1 m c)
theorem W2_main_call0_v0 : W2 m c (Proc.devRef .tc main_call0_v0) = val_main_call0_v0 (F := F) (X0 m c) := by
  unfold W2
  rw [binary_result, W1_main_arg0 m c, W1_main_call0_cst m c]
  refine (cast_eq _ _).trans ?_
  unfold val_main_call0_v0
  exact congrArg₂ (fun x v => Host.reduce FloatOps.maximumf x v reducesTo_S4096x32000_S4096_d1 h_S_) (cast_eq _ _) (cast_eq _ _)
theorem W2_main_arg0 : W2 m c (Proc.devRef .tc main_arg0) = X0 m c :=
  (keep main_call0_v0 rfl (by decide) _).trans (W1_main_arg0 m c)
theorem W2_main_arg1 : W2 m c (Proc.devRef .tc main_arg1) = X1 m c :=
  (keep main_call0_v0 rfl (by decide) _).trans (W1_main_arg1 m c)

/-- After operation 3 (it writes main_call0_cst_0). -/
def W3 : Valuation τ sig (Elt F) :=
  HloOp.result (τ := τ) (TRef.nullary (TRef.of (T := ⟨S_, .f32⟩) main_call0_cst_0) (constant S_ .f32 0xFF800000#32)) (W2 m c)
theorem W3_main_call0_cst_0 : W3 m c (Proc.devRef .tc main_call0_cst_0) = val_main_call0_cst_0 (F := F) := by
  unfold W3
  rw [nullary_result]
  rfl
theorem W3_main_arg0 : W3 m c (Proc.devRef .tc main_arg0) = X0 m c :=
  (keep main_call0_cst_0 rfl (by decide) _).trans (W2_main_arg0 m c)
theorem W3_main_arg1 : W3 m c (Proc.devRef .tc main_arg1) = X1 m c :=
  (keep main_call0_cst_0 rfl (by decide) _).trans (W2_main_arg1 m c)
theorem W3_main_call0_v0 : W3 m c (Proc.devRef .tc main_call0_v0) = val_main_call0_v0 (F := F) (X0 m c) :=
  (keep main_call0_cst_0 rfl (by decide) _).trans (W2_main_call0_v0 m c)

/-- After operation 4 (it writes main_call0_v1). -/
def W4 : Valuation τ sig (Elt F) :=
  HloOp.result (τ := τ) (TRef.unary (TRef.of (T := ⟨S_, .f32⟩) main_call0_cst_0) (TRef.of (T := ⟨S4096, .f32⟩) main_call0_v1) (broadcastInDim S4096 ![] bcast_S_S4096)) (W3 m c)
theorem W4_main_call0_v1 : W4 m c (Proc.devRef .tc main_call0_v1) = val_main_call0_v1 (F := F) := by
  unfold W4
  rw [unary_result, W3_main_call0_cst_0 m c]
  refine (cast_eq _ _).trans ?_
  unfold val_main_call0_v1
  exact congrArg _ (cast_eq _ _)
theorem W4_main_arg0 : W4 m c (Proc.devRef .tc main_arg0) = X0 m c :=
  (keep main_call0_v1 rfl (by decide) _).trans (W3_main_arg0 m c)
theorem W4_main_arg1 : W4 m c (Proc.devRef .tc main_arg1) = X1 m c :=
  (keep main_call0_v1 rfl (by decide) _).trans (W3_main_arg1 m c)
theorem W4_main_call0_v0 : W4 m c (Proc.devRef .tc main_call0_v0) = val_main_call0_v0 (F := F) (X0 m c) :=
  (keep main_call0_v1 rfl (by decide) _).trans (W3_main_call0_v0 m c)

/-- After operation 5 (it writes main_call0_v2). -/
def W5 : Valuation τ sig (Elt F) :=
  HloOp.result (τ := τ) (TRef.binary (TRef.of (T := ⟨S4096, .f32⟩) main_call0_v1) (TRef.of (T := ⟨S4096, .f32⟩) main_call0_v0) (TRef.of (T := ⟨S4096, .f32⟩) main_call0_v2) maximumf) (W4 m c)
theorem W5_main_call0_v2 : W5 m c (Proc.devRef .tc main_call0_v2) = val_main_call0_v2 (F := F) (X0 m c) := by
  unfold W5
  rw [binary_result, W4_main_call0_v1 m c, W4_main_call0_v0 m c]
  refine (cast_eq _ _).trans ?_
  unfold val_main_call0_v2
  exact congrArg₂ maximumf (cast_eq _ _) (cast_eq _ _)
theorem W5_main_arg0 : W5 m c (Proc.devRef .tc main_arg0) = X0 m c :=
  (keep main_call0_v2 rfl (by decide) _).trans (W4_main_arg0 m c)
theorem W5_main_arg1 : W5 m c (Proc.devRef .tc main_arg1) = X1 m c :=
  (keep main_call0_v2 rfl (by decide) _).trans (W4_main_arg1 m c)

/-- After operation 6 (it writes main_call0_v3). -/
def W6 : Valuation τ sig (Elt F) :=
  HloOp.result (τ := τ) (TRef.unary (TRef.of (T := ⟨S4096, .f32⟩) main_call0_v2) (TRef.of (T := ⟨S4096x1, .f32⟩) main_call0_v3) (broadcastInDim S4096x1 ![0] bcast_S4096_S4096x1_0)) (W5 m c)
theorem W6_main_call0_v3 : W6 m c (Proc.devRef .tc main_call0_v3) = val_main_call0_v3 (F := F) (X0 m c) := by
  unfold W6
  rw [unary_result, W5_main_call0_v2 m c]
  refine (cast_eq _ _).trans ?_
  unfold val_main_call0_v3
  exact congrArg _ (cast_eq _ _)
theorem W6_main_arg0 : W6 m c (Proc.devRef .tc main_arg0) = X0 m c :=
  (keep main_call0_v3 rfl (by decide) _).trans (W5_main_arg0 m c)
theorem W6_main_arg1 : W6 m c (Proc.devRef .tc main_arg1) = X1 m c :=
  (keep main_call0_v3 rfl (by decide) _).trans (W5_main_arg1 m c)

/-- After operation 7 (it writes main_call0_v4). -/
def W7 : Valuation τ sig (Elt F) :=
  HloOp.result (τ := τ) (TRef.unary (TRef.of (T := ⟨S4096x1, .f32⟩) main_call0_v3) (TRef.of (T := ⟨S4096x32000, .f32⟩) main_call0_v4) (broadcastInDim S4096x32000 ![0, 1] bcast_S4096x1_S4096x32000_0_1)) (W6 m c)
theorem W7_main_call0_v4 : W7 m c (Proc.devRef .tc main_call0_v4) = val_main_call0_v4 (F := F) (X0 m c) := by
  unfold W7
  rw [unary_result, W6_main_call0_v3 m c]
  refine (cast_eq _ _).trans ?_
  unfold val_main_call0_v4
  exact congrArg _ (cast_eq _ _)
theorem W7_main_arg0 : W7 m c (Proc.devRef .tc main_arg0) = X0 m c :=
  (keep main_call0_v4 rfl (by decide) _).trans (W6_main_arg0 m c)
theorem W7_main_arg1 : W7 m c (Proc.devRef .tc main_arg1) = X1 m c :=
  (keep main_call0_v4 rfl (by decide) _).trans (W6_main_arg1 m c)

/-- After operation 8 (it writes main_call0_v5). -/
def W8 : Valuation τ sig (Elt F) :=
  HloOp.result (τ := τ) (TRef.binary (TRef.of (T := ⟨S4096x32000, .f32⟩) main_arg0) (TRef.of (T := ⟨S4096x32000, .f32⟩) main_call0_v4) (TRef.of (T := ⟨S4096x32000, .f32⟩) main_call0_v5) subf) (W7 m c)
theorem W8_main_call0_v5 : W8 m c (Proc.devRef .tc main_call0_v5) = val_main_call0_v5 (F := F) (X0 m c) := by
  unfold W8
  rw [binary_result, W7_main_arg0 m c, W7_main_call0_v4 m c]
  refine (cast_eq _ _).trans ?_
  unfold val_main_call0_v5
  exact congrArg₂ subf (cast_eq _ _) (cast_eq _ _)
theorem W8_main_arg0 : W8 m c (Proc.devRef .tc main_arg0) = X0 m c :=
  (keep main_call0_v5 rfl (by decide) _).trans (W7_main_arg0 m c)
theorem W8_main_arg1 : W8 m c (Proc.devRef .tc main_arg1) = X1 m c :=
  (keep main_call0_v5 rfl (by decide) _).trans (W7_main_arg1 m c)

/-- After operation 9 (it writes main_call0_v6). -/
def W9 : Valuation τ sig (Elt F) :=
  HloOp.result (τ := τ) (TRef.unary (TRef.of (T := ⟨S4096x32000, .f32⟩) main_call0_v5) (TRef.of (T := ⟨S4096x32000, .f32⟩) main_call0_v6) Host.exp) (W8 m c)
theorem W9_main_call0_v6 : W9 m c (Proc.devRef .tc main_call0_v6) = val_main_call0_v6 (F := F) (X0 m c) := by
  unfold W9
  rw [unary_result, W8_main_call0_v5 m c]
  refine (cast_eq _ _).trans ?_
  unfold val_main_call0_v6
  exact congrArg _ (cast_eq _ _)
theorem W9_main_arg0 : W9 m c (Proc.devRef .tc main_arg0) = X0 m c :=
  (keep main_call0_v6 rfl (by decide) _).trans (W8_main_arg0 m c)
theorem W9_main_arg1 : W9 m c (Proc.devRef .tc main_arg1) = X1 m c :=
  (keep main_call0_v6 rfl (by decide) _).trans (W8_main_arg1 m c)
theorem W9_main_call0_v5 : W9 m c (Proc.devRef .tc main_call0_v5) = val_main_call0_v5 (F := F) (X0 m c) :=
  (keep main_call0_v6 rfl (by decide) _).trans (W8_main_call0_v5 m c)

/-- After operation 10 (it writes main_call0_cst_1). -/
def W10 : Valuation τ sig (Elt F) :=
  HloOp.result (τ := τ) (TRef.nullary (TRef.of (T := ⟨S_, .f32⟩) main_call0_cst_1) (constant S_ .f32 0x00000000#32)) (W9 m c)
theorem W10_main_call0_cst_1 : W10 m c (Proc.devRef .tc main_call0_cst_1) = val_main_call0_cst_1 (F := F) := by
  unfold W10
  rw [nullary_result]
  rfl
theorem W10_main_arg0 : W10 m c (Proc.devRef .tc main_arg0) = X0 m c :=
  (keep main_call0_cst_1 rfl (by decide) _).trans (W9_main_arg0 m c)
theorem W10_main_arg1 : W10 m c (Proc.devRef .tc main_arg1) = X1 m c :=
  (keep main_call0_cst_1 rfl (by decide) _).trans (W9_main_arg1 m c)
theorem W10_main_call0_v5 : W10 m c (Proc.devRef .tc main_call0_v5) = val_main_call0_v5 (F := F) (X0 m c) :=
  (keep main_call0_cst_1 rfl (by decide) _).trans (W9_main_call0_v5 m c)
theorem W10_main_call0_v6 : W10 m c (Proc.devRef .tc main_call0_v6) = val_main_call0_v6 (F := F) (X0 m c) :=
  (keep main_call0_cst_1 rfl (by decide) _).trans (W9_main_call0_v6 m c)

/-- After operation 11 (it writes main_call0_v7). -/
def W11 : Valuation τ sig (Elt F) :=
  HloOp.result (τ := τ) (TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_)) (W10 m c)
theorem W11_main_call0_v7 : W11 m c (Proc.devRef .tc main_call0_v7) = val_main_call0_v7 (F := F) (X0 m c) := by
  unfold W11
  rw [binary_result, W10_main_call0_v6 m c, W10_main_call0_cst_1 m c]
  refine (cast_eq _ _).trans ?_
  unfold val_main_call0_v7
  exact congrArg₂ (fun x v => Host.reduceAdd x v reducesTo_S4096x32000_S4096_d1 h_S_) (cast_eq _ _) (cast_eq _ _)
theorem W11_main_arg0 : W11 m c (Proc.devRef .tc main_arg0) = X0 m c :=
  (keep main_call0_v7 rfl (by decide) _).trans (W10_main_arg0 m c)
theorem W11_main_arg1 : W11 m c (Proc.devRef .tc main_arg1) = X1 m c :=
  (keep main_call0_v7 rfl (by decide) _).trans (W10_main_arg1 m c)
theorem W11_main_call0_v5 : W11 m c (Proc.devRef .tc main_call0_v5) = val_main_call0_v5 (F := F) (X0 m c) :=
  (keep main_call0_v7 rfl (by decide) _).trans (W10_main_call0_v5 m c)

/-- After operation 12 (it writes main_call0_v8). -/
def W12 : Valuation τ sig (Elt F) :=
  HloOp.result (τ := τ) (TRef.unary (TRef.of (T := ⟨S4096, .f32⟩) main_call0_v7) (TRef.of (T := ⟨S4096x1, .f32⟩) main_call0_v8) (broadcastInDim S4096x1 ![0] bcast_S4096_S4096x1_0)) (W11 m c)
theorem W12_main_call0_v8 : W12 m c (Proc.devRef .tc main_call0_v8) = val_main_call0_v8 (F := F) (X0 m c) := by
  unfold W12
  rw [unary_result, W11_main_call0_v7 m c]
  refine (cast_eq _ _).trans ?_
  unfold val_main_call0_v8
  exact congrArg _ (cast_eq _ _)
theorem W12_main_arg0 : W12 m c (Proc.devRef .tc main_arg0) = X0 m c :=
  (keep main_call0_v8 rfl (by decide) _).trans (W11_main_arg0 m c)
theorem W12_main_arg1 : W12 m c (Proc.devRef .tc main_arg1) = X1 m c :=
  (keep main_call0_v8 rfl (by decide) _).trans (W11_main_arg1 m c)
theorem W12_main_call0_v5 : W12 m c (Proc.devRef .tc main_call0_v5) = val_main_call0_v5 (F := F) (X0 m c) :=
  (keep main_call0_v8 rfl (by decide) _).trans (W11_main_call0_v5 m c)

/-- After operation 13 (it writes main_call0_v9). -/
def W13 : Valuation τ sig (Elt F) :=
  HloOp.result (τ := τ) (TRef.unary (TRef.of (T := ⟨S4096x1, .f32⟩) main_call0_v8) (TRef.of (T := ⟨S4096x1, .f32⟩) main_call0_v9) Host.log) (W12 m c)
theorem W13_main_call0_v9 : W13 m c (Proc.devRef .tc main_call0_v9) = val_main_call0_v9 (F := F) (X0 m c) := by
  unfold W13
  rw [unary_result, W12_main_call0_v8 m c]
  refine (cast_eq _ _).trans ?_
  unfold val_main_call0_v9
  exact congrArg _ (cast_eq _ _)
theorem W13_main_arg0 : W13 m c (Proc.devRef .tc main_arg0) = X0 m c :=
  (keep main_call0_v9 rfl (by decide) _).trans (W12_main_arg0 m c)
theorem W13_main_arg1 : W13 m c (Proc.devRef .tc main_arg1) = X1 m c :=
  (keep main_call0_v9 rfl (by decide) _).trans (W12_main_arg1 m c)
theorem W13_main_call0_v5 : W13 m c (Proc.devRef .tc main_call0_v5) = val_main_call0_v5 (F := F) (X0 m c) :=
  (keep main_call0_v9 rfl (by decide) _).trans (W12_main_call0_v5 m c)

/-- After operation 14 (it writes main_call0_v10). -/
def W14 : Valuation τ sig (Elt F) :=
  HloOp.result (τ := τ) (TRef.unary (TRef.of (T := ⟨S4096x1, .f32⟩) main_call0_v9) (TRef.of (T := ⟨S4096x32000, .f32⟩) main_call0_v10) (broadcastInDim S4096x32000 ![0, 1] bcast_S4096x1_S4096x32000_0_1)) (W13 m c)
theorem W14_main_call0_v10 : W14 m c (Proc.devRef .tc main_call0_v10) = val_main_call0_v10 (F := F) (X0 m c) := by
  unfold W14
  rw [unary_result, W13_main_call0_v9 m c]
  refine (cast_eq _ _).trans ?_
  unfold val_main_call0_v10
  exact congrArg _ (cast_eq _ _)
theorem W14_main_arg0 : W14 m c (Proc.devRef .tc main_arg0) = X0 m c :=
  (keep main_call0_v10 rfl (by decide) _).trans (W13_main_arg0 m c)
theorem W14_main_arg1 : W14 m c (Proc.devRef .tc main_arg1) = X1 m c :=
  (keep main_call0_v10 rfl (by decide) _).trans (W13_main_arg1 m c)
theorem W14_main_call0_v5 : W14 m c (Proc.devRef .tc main_call0_v5) = val_main_call0_v5 (F := F) (X0 m c) :=
  (keep main_call0_v10 rfl (by decide) _).trans (W13_main_call0_v5 m c)

/-- After operation 15 (it writes main_v0). -/
def W15 : Valuation τ sig (Elt F) :=
  HloOp.result (τ := τ) (TRef.binary (TRef.of (T := ⟨S4096x32000, .f32⟩) main_call0_v5) (TRef.of (T := ⟨S4096x32000, .f32⟩) main_call0_v10) (TRef.of (T := ⟨S4096x32000, .f32⟩) main_v0) subf) (W14 m c)
theorem W15_main_v0 : W15 m c (Proc.devRef .tc main_v0) = val_main_v0 (F := F) (X0 m c) := by
  unfold W15
  rw [binary_result, W14_main_call0_v5 m c, W14_main_call0_v10 m c]
  refine (cast_eq _ _).trans ?_
  unfold val_main_v0
  exact congrArg₂ subf (cast_eq _ _) (cast_eq _ _)
theorem W15_main_arg0 : W15 m c (Proc.devRef .tc main_arg0) = X0 m c :=
  (keep main_v0 rfl (by decide) _).trans (W14_main_arg0 m c)
theorem W15_main_arg1 : W15 m c (Proc.devRef .tc main_arg1) = X1 m c :=
  (keep main_v0 rfl (by decide) _).trans (W14_main_arg1 m c)

/-- After operation 16 (it writes main_cst). -/
def W16 : Valuation τ sig (Elt F) :=
  HloOp.result (τ := τ) (nullary main_cst (constant S_ .f32 0x00000000#32)) (W15 m c)
theorem W16_main_cst : W16 m c (Proc.devRef .tc main_cst) = val_main_cst (F := F) := by
  unfold W16
  rw [nullary_result]
  rfl
theorem W16_main_arg0 : W16 m c (Proc.devRef .tc main_arg0) = X0 m c :=
  (keep main_cst rfl (by decide) _).trans (W15_main_arg0 m c)
theorem W16_main_arg1 : W16 m c (Proc.devRef .tc main_arg1) = X1 m c :=
  (keep main_cst rfl (by decide) _).trans (W15_main_arg1 m c)
theorem W16_main_v0 : W16 m c (Proc.devRef .tc main_v0) = val_main_v0 (F := F) (X0 m c) :=
  (keep main_cst rfl (by decide) _).trans (W15_main_v0 m c)

/-- After operation 17 (it writes main_v1). -/
def W17 : Valuation τ sig (Elt F) :=
  HloOp.result (τ := τ) (unary main_cst main_v1 (broadcastInDim S4096x32000 ![] bcast_S_S4096x32000 : (⟨S_, .f32⟩ : BufTy).Contents (Elt F) → (⟨S4096x32000, .f32⟩ : BufTy).Contents (Elt F))) (W16 m c)
theorem W17_main_v1 : W17 m c (Proc.devRef .tc main_v1) = val_main_v1 (F := F) := by
  unfold W17
  rw [unary_result, W16_main_cst m c]
  rfl
theorem W17_main_arg0 : W17 m c (Proc.devRef .tc main_arg0) = X0 m c :=
  (keep main_v1 rfl (by decide) _).trans (W16_main_arg0 m c)
theorem W17_main_arg1 : W17 m c (Proc.devRef .tc main_arg1) = X1 m c :=
  (keep main_v1 rfl (by decide) _).trans (W16_main_arg1 m c)
theorem W17_main_v0 : W17 m c (Proc.devRef .tc main_v0) = val_main_v0 (F := F) (X0 m c) :=
  (keep main_v1 rfl (by decide) _).trans (W16_main_v0 m c)

/-- After operation 18 (it writes main_v2). -/
def W18 : Valuation τ sig (Elt F) :=
  HloOp.result (τ := τ) (nullary main_v2 (iotaInDim S4096 32 0)) (W17 m c)
theorem W18_main_v2 : W18 m c (Proc.devRef .tc main_v2) = val_main_v2 (F := F) := by
  unfold W18
  rw [nullary_result]
  rfl
theorem W18_main_arg0 : W18 m c (Proc.devRef .tc main_arg0) = X0 m c :=
  (keep main_v2 rfl (by decide) _).trans (W17_main_arg0 m c)
theorem W18_main_arg1 : W18 m c (Proc.devRef .tc main_arg1) = X1 m c :=
  (keep main_v2 rfl (by decide) _).trans (W17_main_arg1 m c)
theorem W18_main_v0 : W18 m c (Proc.devRef .tc main_v0) = val_main_v0 (F := F) (X0 m c) :=
  (keep main_v2 rfl (by decide) _).trans (W17_main_v0 m c)
theorem W18_main_v1 : W18 m c (Proc.devRef .tc main_v1) = val_main_v1 (F := F) :=
  (keep main_v2 rfl (by decide) _).trans (W17_main_v1 m c)

/-- After operation 19 (it writes main_c). -/
def W19 : Valuation τ sig (Elt F) :=
  HloOp.result (τ := τ) (nullary main_c (constantI S_ 32 0#32)) (W18 m c)
theorem W19_main_c : W19 m c (Proc.devRef .tc main_c) = val_main_c (F := F) := by
  unfold W19
  rw [nullary_result]
  rfl
theorem W19_main_arg0 : W19 m c (Proc.devRef .tc main_arg0) = X0 m c :=
  (keep main_c rfl (by decide) _).trans (W18_main_arg0 m c)
theorem W19_main_arg1 : W19 m c (Proc.devRef .tc main_arg1) = X1 m c :=
  (keep main_c rfl (by decide) _).trans (W18_main_arg1 m c)
theorem W19_main_v0 : W19 m c (Proc.devRef .tc main_v0) = val_main_v0 (F := F) (X0 m c) :=
  (keep main_c rfl (by decide) _).trans (W18_main_v0 m c)
theorem W19_main_v1 : W19 m c (Proc.devRef .tc main_v1) = val_main_v1 (F := F) :=
  (keep main_c rfl (by decide) _).trans (W18_main_v1 m c)
theorem W19_main_v2 : W19 m c (Proc.devRef .tc main_v2) = val_main_v2 (F := F) :=
  (keep main_c rfl (by decide) _).trans (W18_main_v2 m c)

/-- After operation 20 (it writes main_v3). -/
def W20 : Valuation τ sig (Elt F) :=
  HloOp.result (τ := τ) (unary main_c main_v3 (broadcastInDim S4096 ![] bcast_S_S4096 : (⟨S_, .i32⟩ : BufTy).Contents (Elt F) → (⟨S4096, .i32⟩ : BufTy).Contents (Elt F))) (W19 m c)
theorem W20_main_v3 : W20 m c (Proc.devRef .tc main_v3) = val_main_v3 (F := F) := by
  unfold W20
  rw [unary_result, W19_main_c m c]
  rfl
theorem W20_main_arg0 : W20 m c (Proc.devRef .tc main_arg0) = X0 m c :=
  (keep main_v3 rfl (by decide) _).trans (W19_main_arg0 m c)
theorem W20_main_arg1 : W20 m c (Proc.devRef .tc main_arg1) = X1 m c :=
  (keep main_v3 rfl (by decide) _).trans (W19_main_arg1 m c)
theorem W20_main_v0 : W20 m c (Proc.devRef .tc main_v0) = val_main_v0 (F := F) (X0 m c) :=
  (keep main_v3 rfl (by decide) _).trans (W19_main_v0 m c)
theorem W20_main_v1 : W20 m c (Proc.devRef .tc main_v1) = val_main_v1 (F := F) :=
  (keep main_v3 rfl (by decide) _).trans (W19_main_v1 m c)
theorem W20_main_v2 : W20 m c (Proc.devRef .tc main_v2) = val_main_v2 (F := F) :=
  (keep main_v3 rfl (by decide) _).trans (W19_main_v2 m c)

/-- After operation 21 (it writes main_v4). -/
def W21 : Valuation τ sig (Elt F) :=
  HloOp.result (τ := τ) (binary main_v2 main_v3 main_v4 (cmpi .slt : (⟨S4096, .i32⟩ : BufTy).Contents (Elt F) → (⟨S4096, .i32⟩ : BufTy).Contents (Elt F) → (⟨S4096, .i1⟩ : BufTy).Contents (Elt F))) (W20 m c)
theorem W21_main_v4 : W21 m c (Proc.devRef .tc main_v4) = val_main_v4 (F := F) := by
  unfold W21
  rw [binary_result, W20_main_v2 m c, W20_main_v3 m c]
  rfl
theorem W21_main_arg0 : W21 m c (Proc.devRef .tc main_arg0) = X0 m c :=
  (keep main_v4 rfl (by decide) _).trans (W20_main_arg0 m c)
theorem W21_main_arg1 : W21 m c (Proc.devRef .tc main_arg1) = X1 m c :=
  (keep main_v4 rfl (by decide) _).trans (W20_main_arg1 m c)
theorem W21_main_v0 : W21 m c (Proc.devRef .tc main_v0) = val_main_v0 (F := F) (X0 m c) :=
  (keep main_v4 rfl (by decide) _).trans (W20_main_v0 m c)
theorem W21_main_v1 : W21 m c (Proc.devRef .tc main_v1) = val_main_v1 (F := F) :=
  (keep main_v4 rfl (by decide) _).trans (W20_main_v1 m c)
theorem W21_main_v2 : W21 m c (Proc.devRef .tc main_v2) = val_main_v2 (F := F) :=
  (keep main_v4 rfl (by decide) _).trans (W20_main_v2 m c)

/-- After operation 22 (it writes main_c_0). -/
def W22 : Valuation τ sig (Elt F) :=
  HloOp.result (τ := τ) (nullary main_c_0 (constantI S_ 32 4096#32)) (W21 m c)
theorem W22_main_c_0 : W22 m c (Proc.devRef .tc main_c_0) = val_main_c_0 (F := F) := by
  unfold W22
  rw [nullary_result]
  rfl
theorem W22_main_arg0 : W22 m c (Proc.devRef .tc main_arg0) = X0 m c :=
  (keep main_c_0 rfl (by decide) _).trans (W21_main_arg0 m c)
theorem W22_main_arg1 : W22 m c (Proc.devRef .tc main_arg1) = X1 m c :=
  (keep main_c_0 rfl (by decide) _).trans (W21_main_arg1 m c)
theorem W22_main_v0 : W22 m c (Proc.devRef .tc main_v0) = val_main_v0 (F := F) (X0 m c) :=
  (keep main_c_0 rfl (by decide) _).trans (W21_main_v0 m c)
theorem W22_main_v1 : W22 m c (Proc.devRef .tc main_v1) = val_main_v1 (F := F) :=
  (keep main_c_0 rfl (by decide) _).trans (W21_main_v1 m c)
theorem W22_main_v2 : W22 m c (Proc.devRef .tc main_v2) = val_main_v2 (F := F) :=
  (keep main_c_0 rfl (by decide) _).trans (W21_main_v2 m c)
theorem W22_main_v4 : W22 m c (Proc.devRef .tc main_v4) = val_main_v4 (F := F) :=
  (keep main_c_0 rfl (by decide) _).trans (W21_main_v4 m c)

/-- After operation 23 (it writes main_v5). -/
def W23 : Valuation τ sig (Elt F) :=
  HloOp.result (τ := τ) (unary main_c_0 main_v5 (broadcastInDim S4096 ![] bcast_S_S4096 : (⟨S_, .i32⟩ : BufTy).Contents (Elt F) → (⟨S4096, .i32⟩ : BufTy).Contents (Elt F))) (W22 m c)
theorem W23_main_v5 : W23 m c (Proc.devRef .tc main_v5) = val_main_v5 (F := F) := by
  unfold W23
  rw [unary_result, W22_main_c_0 m c]
  rfl
theorem W23_main_arg0 : W23 m c (Proc.devRef .tc main_arg0) = X0 m c :=
  (keep main_v5 rfl (by decide) _).trans (W22_main_arg0 m c)
theorem W23_main_arg1 : W23 m c (Proc.devRef .tc main_arg1) = X1 m c :=
  (keep main_v5 rfl (by decide) _).trans (W22_main_arg1 m c)
theorem W23_main_v0 : W23 m c (Proc.devRef .tc main_v0) = val_main_v0 (F := F) (X0 m c) :=
  (keep main_v5 rfl (by decide) _).trans (W22_main_v0 m c)
theorem W23_main_v1 : W23 m c (Proc.devRef .tc main_v1) = val_main_v1 (F := F) :=
  (keep main_v5 rfl (by decide) _).trans (W22_main_v1 m c)
theorem W23_main_v2 : W23 m c (Proc.devRef .tc main_v2) = val_main_v2 (F := F) :=
  (keep main_v5 rfl (by decide) _).trans (W22_main_v2 m c)
theorem W23_main_v4 : W23 m c (Proc.devRef .tc main_v4) = val_main_v4 (F := F) :=
  (keep main_v5 rfl (by decide) _).trans (W22_main_v4 m c)

/-- After operation 24 (it writes main_v6). -/
def W24 : Valuation τ sig (Elt F) :=
  HloOp.result (τ := τ) (binary main_v2 main_v5 main_v6 (addi : (⟨S4096, .i32⟩ : BufTy).Contents (Elt F) → (⟨S4096, .i32⟩ : BufTy).Contents (Elt F) → (⟨S4096, .i32⟩ : BufTy).Contents (Elt F))) (W23 m c)
theorem W24_main_v6 : W24 m c (Proc.devRef .tc main_v6) = val_main_v6 (F := F) := by
  unfold W24
  rw [binary_result, W23_main_v2 m c, W23_main_v5 m c]
  rfl
theorem W24_main_arg0 : W24 m c (Proc.devRef .tc main_arg0) = X0 m c :=
  (keep main_v6 rfl (by decide) _).trans (W23_main_arg0 m c)
theorem W24_main_arg1 : W24 m c (Proc.devRef .tc main_arg1) = X1 m c :=
  (keep main_v6 rfl (by decide) _).trans (W23_main_arg1 m c)
theorem W24_main_v0 : W24 m c (Proc.devRef .tc main_v0) = val_main_v0 (F := F) (X0 m c) :=
  (keep main_v6 rfl (by decide) _).trans (W23_main_v0 m c)
theorem W24_main_v1 : W24 m c (Proc.devRef .tc main_v1) = val_main_v1 (F := F) :=
  (keep main_v6 rfl (by decide) _).trans (W23_main_v1 m c)
theorem W24_main_v2 : W24 m c (Proc.devRef .tc main_v2) = val_main_v2 (F := F) :=
  (keep main_v6 rfl (by decide) _).trans (W23_main_v2 m c)
theorem W24_main_v4 : W24 m c (Proc.devRef .tc main_v4) = val_main_v4 (F := F) :=
  (keep main_v6 rfl (by decide) _).trans (W23_main_v4 m c)

/-- After operation 25 (it writes main_v7). -/
def W25 : Valuation τ sig (Elt F) :=
  HloOp.result (τ := τ) (ternary main_v4 main_v6 main_v2 main_v7 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) (W24 m c)
theorem W25_main_v7 : W25 m c (Proc.devRef .tc main_v7) = val_main_v7 (F := F) := by
  unfold W25
  rw [ternary_result, W24_main_v4 m c, W24_main_v6 m c, W24_main_v2 m c]
  rfl
theorem W25_main_arg0 : W25 m c (Proc.devRef .tc main_arg0) = X0 m c :=
  (keep main_v7 rfl (by decide) _).trans (W24_main_arg0 m c)
theorem W25_main_arg1 : W25 m c (Proc.devRef .tc main_arg1) = X1 m c :=
  (keep main_v7 rfl (by decide) _).trans (W24_main_arg1 m c)
theorem W25_main_v0 : W25 m c (Proc.devRef .tc main_v0) = val_main_v0 (F := F) (X0 m c) :=
  (keep main_v7 rfl (by decide) _).trans (W24_main_v0 m c)
theorem W25_main_v1 : W25 m c (Proc.devRef .tc main_v1) = val_main_v1 (F := F) :=
  (keep main_v7 rfl (by decide) _).trans (W24_main_v1 m c)

/-- After operation 26 (it writes main_c_1). -/
def W26 : Valuation τ sig (Elt F) :=
  HloOp.result (τ := τ) (nullary main_c_1 (constantI S_ 32 0#32)) (W25 m c)
theorem W26_main_c_1 : W26 m c (Proc.devRef .tc main_c_1) = val_main_c_1 (F := F) := by
  unfold W26
  rw [nullary_result]
  rfl
theorem W26_main_arg0 : W26 m c (Proc.devRef .tc main_arg0) = X0 m c :=
  (keep main_c_1 rfl (by decide) _).trans (W25_main_arg0 m c)
theorem W26_main_arg1 : W26 m c (Proc.devRef .tc main_arg1) = X1 m c :=
  (keep main_c_1 rfl (by decide) _).trans (W25_main_arg1 m c)
theorem W26_main_v0 : W26 m c (Proc.devRef .tc main_v0) = val_main_v0 (F := F) (X0 m c) :=
  (keep main_c_1 rfl (by decide) _).trans (W25_main_v0 m c)
theorem W26_main_v1 : W26 m c (Proc.devRef .tc main_v1) = val_main_v1 (F := F) :=
  (keep main_c_1 rfl (by decide) _).trans (W25_main_v1 m c)
theorem W26_main_v7 : W26 m c (Proc.devRef .tc main_v7) = val_main_v7 (F := F) :=
  (keep main_c_1 rfl (by decide) _).trans (W25_main_v7 m c)

/-- After operation 27 (it writes main_v8). -/
def W27 : Valuation τ sig (Elt F) :=
  HloOp.result (τ := τ) (unary main_c_1 main_v8 (broadcastInDim S4096 ![] bcast_S_S4096 : (⟨S_, .i32⟩ : BufTy).Contents (Elt F) → (⟨S4096, .i32⟩ : BufTy).Contents (Elt F))) (W26 m c)
theorem W27_main_v8 : W27 m c (Proc.devRef .tc main_v8) = val_main_v8 (F := F) := by
  unfold W27
  rw [unary_result, W26_main_c_1 m c]
  rfl
theorem W27_main_arg0 : W27 m c (Proc.devRef .tc main_arg0) = X0 m c :=
  (keep main_v8 rfl (by decide) _).trans (W26_main_arg0 m c)
theorem W27_main_arg1 : W27 m c (Proc.devRef .tc main_arg1) = X1 m c :=
  (keep main_v8 rfl (by decide) _).trans (W26_main_arg1 m c)
theorem W27_main_v0 : W27 m c (Proc.devRef .tc main_v0) = val_main_v0 (F := F) (X0 m c) :=
  (keep main_v8 rfl (by decide) _).trans (W26_main_v0 m c)
theorem W27_main_v1 : W27 m c (Proc.devRef .tc main_v1) = val_main_v1 (F := F) :=
  (keep main_v8 rfl (by decide) _).trans (W26_main_v1 m c)
theorem W27_main_v7 : W27 m c (Proc.devRef .tc main_v7) = val_main_v7 (F := F) :=
  (keep main_v8 rfl (by decide) _).trans (W26_main_v7 m c)

/-- After operation 28 (it writes main_v9). -/
def W28 : Valuation τ sig (Elt F) :=
  HloOp.result (τ := τ) (binary main_arg1 main_v8 main_v9 (cmpi .slt : (⟨S4096, .i32⟩ : BufTy).Contents (Elt F) → (⟨S4096, .i32⟩ : BufTy).Contents (Elt F) → (⟨S4096, .i1⟩ : BufTy).Contents (Elt F))) (W27 m c)
theorem W28_main_v9 : W28 m c (Proc.devRef .tc main_v9) = val_main_v9 (F := F) (X1 m c) := by
  unfold W28
  rw [binary_result, W27_main_arg1 m c, W27_main_v8 m c]
  rfl
theorem W28_main_arg0 : W28 m c (Proc.devRef .tc main_arg0) = X0 m c :=
  (keep main_v9 rfl (by decide) _).trans (W27_main_arg0 m c)
theorem W28_main_arg1 : W28 m c (Proc.devRef .tc main_arg1) = X1 m c :=
  (keep main_v9 rfl (by decide) _).trans (W27_main_arg1 m c)
theorem W28_main_v0 : W28 m c (Proc.devRef .tc main_v0) = val_main_v0 (F := F) (X0 m c) :=
  (keep main_v9 rfl (by decide) _).trans (W27_main_v0 m c)
theorem W28_main_v1 : W28 m c (Proc.devRef .tc main_v1) = val_main_v1 (F := F) :=
  (keep main_v9 rfl (by decide) _).trans (W27_main_v1 m c)
theorem W28_main_v7 : W28 m c (Proc.devRef .tc main_v7) = val_main_v7 (F := F) :=
  (keep main_v9 rfl (by decide) _).trans (W27_main_v7 m c)

/-- After operation 29 (it writes main_c_2). -/
def W29 : Valuation τ sig (Elt F) :=
  HloOp.result (τ := τ) (nullary main_c_2 (constantI S_ 32 32000#32)) (W28 m c)
theorem W29_main_c_2 : W29 m c (Proc.devRef .tc main_c_2) = val_main_c_2 (F := F) := by
  unfold W29
  rw [nullary_result]
  rfl
theorem W29_main_arg0 : W29 m c (Proc.devRef .tc main_arg0) = X0 m c :=
  (keep main_c_2 rfl (by decide) _).trans (W28_main_arg0 m c)
theorem W29_main_arg1 : W29 m c (Proc.devRef .tc main_arg1) = X1 m c :=
  (keep main_c_2 rfl (by decide) _).trans (W28_main_arg1 m c)
theorem W29_main_v0 : W29 m c (Proc.devRef .tc main_v0) = val_main_v0 (F := F) (X0 m c) :=
  (keep main_c_2 rfl (by decide) _).trans (W28_main_v0 m c)
theorem W29_main_v1 : W29 m c (Proc.devRef .tc main_v1) = val_main_v1 (F := F) :=
  (keep main_c_2 rfl (by decide) _).trans (W28_main_v1 m c)
theorem W29_main_v7 : W29 m c (Proc.devRef .tc main_v7) = val_main_v7 (F := F) :=
  (keep main_c_2 rfl (by decide) _).trans (W28_main_v7 m c)
theorem W29_main_v9 : W29 m c (Proc.devRef .tc main_v9) = val_main_v9 (F := F) (X1 m c) :=
  (keep main_c_2 rfl (by decide) _).trans (W28_main_v9 m c)

/-- After operation 30 (it writes main_v10). -/
def W30 : Valuation τ sig (Elt F) :=
  HloOp.result (τ := τ) (unary main_c_2 main_v10 (broadcastInDim S4096 ![] bcast_S_S4096 : (⟨S_, .i32⟩ : BufTy).Contents (Elt F) → (⟨S4096, .i32⟩ : BufTy).Contents (Elt F))) (W29 m c)
theorem W30_main_v10 : W30 m c (Proc.devRef .tc main_v10) = val_main_v10 (F := F) := by
  unfold W30
  rw [unary_result, W29_main_c_2 m c]
  rfl
theorem W30_main_arg0 : W30 m c (Proc.devRef .tc main_arg0) = X0 m c :=
  (keep main_v10 rfl (by decide) _).trans (W29_main_arg0 m c)
theorem W30_main_arg1 : W30 m c (Proc.devRef .tc main_arg1) = X1 m c :=
  (keep main_v10 rfl (by decide) _).trans (W29_main_arg1 m c)
theorem W30_main_v0 : W30 m c (Proc.devRef .tc main_v0) = val_main_v0 (F := F) (X0 m c) :=
  (keep main_v10 rfl (by decide) _).trans (W29_main_v0 m c)
theorem W30_main_v1 : W30 m c (Proc.devRef .tc main_v1) = val_main_v1 (F := F) :=
  (keep main_v10 rfl (by decide) _).trans (W29_main_v1 m c)
theorem W30_main_v7 : W30 m c (Proc.devRef .tc main_v7) = val_main_v7 (F := F) :=
  (keep main_v10 rfl (by decide) _).trans (W29_main_v7 m c)
theorem W30_main_v9 : W30 m c (Proc.devRef .tc main_v9) = val_main_v9 (F := F) (X1 m c) :=
  (keep main_v10 rfl (by decide) _).trans (W29_main_v9 m c)

/-- After operation 31 (it writes main_v11). -/
def W31 : Valuation τ sig (Elt F) :=
  HloOp.result (τ := τ) (binary main_arg1 main_v10 main_v11 (addi : (⟨S4096, .i32⟩ : BufTy).Contents (Elt F) → (⟨S4096, .i32⟩ : BufTy).Contents (Elt F) → (⟨S4096, .i32⟩ : BufTy).Contents (Elt F))) (W30 m c)
theorem W31_main_v11 : W31 m c (Proc.devRef .tc main_v11) = val_main_v11 (F := F) (X1 m c) := by
  unfold W31
  rw [binary_result, W30_main_arg1 m c, W30_main_v10 m c]
  rfl
theorem W31_main_arg0 : W31 m c (Proc.devRef .tc main_arg0) = X0 m c :=
  (keep main_v11 rfl (by decide) _).trans (W30_main_arg0 m c)
theorem W31_main_arg1 : W31 m c (Proc.devRef .tc main_arg1) = X1 m c :=
  (keep main_v11 rfl (by decide) _).trans (W30_main_arg1 m c)
theorem W31_main_v0 : W31 m c (Proc.devRef .tc main_v0) = val_main_v0 (F := F) (X0 m c) :=
  (keep main_v11 rfl (by decide) _).trans (W30_main_v0 m c)
theorem W31_main_v1 : W31 m c (Proc.devRef .tc main_v1) = val_main_v1 (F := F) :=
  (keep main_v11 rfl (by decide) _).trans (W30_main_v1 m c)
theorem W31_main_v7 : W31 m c (Proc.devRef .tc main_v7) = val_main_v7 (F := F) :=
  (keep main_v11 rfl (by decide) _).trans (W30_main_v7 m c)
theorem W31_main_v9 : W31 m c (Proc.devRef .tc main_v9) = val_main_v9 (F := F) (X1 m c) :=
  (keep main_v11 rfl (by decide) _).trans (W30_main_v9 m c)

/-- After operation 32 (it writes main_v12). -/
def W32 : Valuation τ sig (Elt F) :=
  HloOp.result (τ := τ) (ternary main_v9 main_v11 main_arg1 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) (W31 m c)
theorem W32_main_v12 : W32 m c (Proc.devRef .tc main_v12) = val_main_v12 (F := F) (X1 m c) := by
  unfold W32
  rw [ternary_result, W31_main_v9 m c, W31_main_v11 m c, W31_main_arg1 m c]
  rfl
theorem W32_main_arg0 : W32 m c (Proc.devRef .tc main_arg0) = X0 m c :=
  (keep main_v12 rfl (by decide) _).trans (W31_main_arg0 m c)
theorem W32_main_arg1 : W32 m c (Proc.devRef .tc main_arg1) = X1 m c :=
  (keep main_v12 rfl (by decide) _).trans (W31_main_arg1 m c)
theorem W32_main_v0 : W32 m c (Proc.devRef .tc main_v0) = val_main_v0 (F := F) (X0 m c) :=
  (keep main_v12 rfl (by decide) _).trans (W31_main_v0 m c)
theorem W32_main_v1 : W32 m c (Proc.devRef .tc main_v1) = val_main_v1 (F := F) :=
  (keep main_v12 rfl (by decide) _).trans (W31_main_v1 m c)
theorem W32_main_v7 : W32 m c (Proc.devRef .tc main_v7) = val_main_v7 (F := F) :=
  (keep main_v12 rfl (by decide) _).trans (W31_main_v7 m c)

/-- After operation 33 (it writes main_v13). -/
def W33 : Valuation τ sig (Elt F) :=
  HloOp.result (τ := τ) (unary main_v7 main_v13 (broadcastInDim S4096x1 ![0] bcast_S4096_S4096x1_0 : (⟨S4096, .i32⟩ : BufTy).Contents (Elt F) → (⟨S4096x1, .i32⟩ : BufTy).Contents (Elt F))) (W32 m c)
theorem W33_main_v13 : W33 m c (Proc.devRef .tc main_v13) = val_main_v13 (F := F) := by
  unfold W33
  rw [unary_result, W32_main_v7 m c]
  rfl
theorem W33_main_arg0 : W33 m c (Proc.devRef .tc main_arg0) = X0 m c :=
  (keep main_v13 rfl (by decide) _).trans (W32_main_arg0 m c)
theorem W33_main_arg1 : W33 m c (Proc.devRef .tc main_arg1) = X1 m c :=
  (keep main_v13 rfl (by decide) _).trans (W32_main_arg1 m c)
theorem W33_main_v0 : W33 m c (Proc.devRef .tc main_v0) = val_main_v0 (F := F) (X0 m c) :=
  (keep main_v13 rfl (by decide) _).trans (W32_main_v0 m c)
theorem W33_main_v1 : W33 m c (Proc.devRef .tc main_v1) = val_main_v1 (F := F) :=
  (keep main_v13 rfl (by decide) _).trans (W32_main_v1 m c)
theorem W33_main_v12 : W33 m c (Proc.devRef .tc main_v12) = val_main_v12 (F := F) (X1 m c) :=
  (keep main_v13 rfl (by decide) _).trans (W32_main_v12 m c)

/-- After operation 34 (it writes main_v14). -/
def W34 : Valuation τ sig (Elt F) :=
  HloOp.result (τ := τ) (unary main_v12 main_v14 (broadcastInDim S4096x1 ![0] bcast_S4096_S4096x1_0 : (⟨S4096, .i32⟩ : BufTy).Contents (Elt F) → (⟨S4096x1, .i32⟩ : BufTy).Contents (Elt F))) (W33 m c)
theorem W34_main_v14 : W34 m c (Proc.devRef .tc main_v14) = val_main_v14 (F := F) (X1 m c) := by
  unfold W34
  rw [unary_result, W33_main_v12 m c]
  rfl
theorem W34_main_arg0 : W34 m c (Proc.devRef .tc main_arg0) = X0 m c :=
  (keep main_v14 rfl (by decide) _).trans (W33_main_arg0 m c)
theorem W34_main_arg1 : W34 m c (Proc.devRef .tc main_arg1) = X1 m c :=
  (keep main_v14 rfl (by decide) _).trans (W33_main_arg1 m c)
theorem W34_main_v0 : W34 m c (Proc.devRef .tc main_v0) = val_main_v0 (F := F) (X0 m c) :=
  (keep main_v14 rfl (by decide) _).trans (W33_main_v0 m c)
theorem W34_main_v1 : W34 m c (Proc.devRef .tc main_v1) = val_main_v1 (F := F) :=
  (keep main_v14 rfl (by decide) _).trans (W33_main_v1 m c)
theorem W34_main_v13 : W34 m c (Proc.devRef .tc main_v13) = val_main_v13 (F := F) :=
  (keep main_v14 rfl (by decide) _).trans (W33_main_v13 m c)

/-- After operation 35 (it writes main_v15). -/
def W35 : Valuation τ sig (Elt F) :=
  HloOp.result (τ := τ) (binary main_v13 main_v14 main_v15 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F))) (W34 m c)
theorem W35_main_v15 : W35 m c (Proc.devRef .tc main_v15) = val_main_v15 (F := F) (X1 m c) := by
  unfold W35
  rw [binary_result, W34_main_v13 m c, W34_main_v14 m c]
  rfl
theorem W35_main_arg0 : W35 m c (Proc.devRef .tc main_arg0) = X0 m c :=
  (keep main_v15 rfl (by decide) _).trans (W34_main_arg0 m c)
theorem W35_main_arg1 : W35 m c (Proc.devRef .tc main_arg1) = X1 m c :=
  (keep main_v15 rfl (by decide) _).trans (W34_main_arg1 m c)
theorem W35_main_v0 : W35 m c (Proc.devRef .tc main_v0) = val_main_v0 (F := F) (X0 m c) :=
  (keep main_v15 rfl (by decide) _).trans (W34_main_v0 m c)
theorem W35_main_v1 : W35 m c (Proc.devRef .tc main_v1) = val_main_v1 (F := F) :=
  (keep main_v15 rfl (by decide) _).trans (W34_main_v1 m c)

/-- After operation 36 (it writes main_cst_3). -/
def W36 : Valuation τ sig (Elt F) :=
  HloOp.result (τ := τ) (nullary main_cst_3 (constant S_ .f32 0x3F800000#32)) (W35 m c)
theorem W36_main_cst_3 : W36 m c (Proc.devRef .tc main_cst_3) = val_main_cst_3 (F := F) := by
  unfold W36
  rw [nullary_result]
  rfl
theorem W36_main_arg0 : W36 m c (Proc.devRef .tc main_arg0) = X0 m c :=
  (keep main_cst_3 rfl (by decide) _).trans (W35_main_arg0 m c)
theorem W36_main_arg1 : W36 m c (Proc.devRef .tc main_arg1) = X1 m c :=
  (keep main_cst_3 rfl (by decide) _).trans (W35_main_arg1 m c)
theorem W36_main_v0 : W36 m c (Proc.devRef .tc main_v0) = val_main_v0 (F := F) (X0 m c) :=
  (keep main_cst_3 rfl (by decide) _).trans (W35_main_v0 m c)
theorem W36_main_v1 : W36 m c (Proc.devRef .tc main_v1) = val_main_v1 (F := F) :=
  (keep main_cst_3 rfl (by decide) _).trans (W35_main_v1 m c)
theorem W36_main_v15 : W36 m c (Proc.devRef .tc main_v15) = val_main_v15 (F := F) (X1 m c) :=
  (keep main_cst_3 rfl (by decide) _).trans (W35_main_v15 m c)

/-- After operation 37 (it writes main_v16). -/
def W37 : Valuation τ sig (Elt F) :=
  HloOp.result (τ := τ) (unary main_cst_3 main_v16 (broadcastInDim S4096 ![] bcast_S_S4096 : (⟨S_, .f32⟩ : BufTy).Contents (Elt F) → (⟨S4096, .f32⟩ : BufTy).Contents (Elt F))) (W36 m c)
theorem W37_main_v16 : W37 m c (Proc.devRef .tc main_v16) = val_main_v16 (F := F) := by
  unfold W37
  rw [unary_result, W36_main_cst_3 m c]
  rfl
theorem W37_main_arg0 : W37 m c (Proc.devRef .tc main_arg0) = X0 m c :=
  (keep main_v16 rfl (by decide) _).trans (W36_main_arg0 m c)
theorem W37_main_arg1 : W37 m c (Proc.devRef .tc main_arg1) = X1 m c :=
  (keep main_v16 rfl (by decide) _).trans (W36_main_arg1 m c)
theorem W37_main_v0 : W37 m c (Proc.devRef .tc main_v0) = val_main_v0 (F := F) (X0 m c) :=
  (keep main_v16 rfl (by decide) _).trans (W36_main_v0 m c)
theorem W37_main_v1 : W37 m c (Proc.devRef .tc main_v1) = val_main_v1 (F := F) :=
  (keep main_v16 rfl (by decide) _).trans (W36_main_v1 m c)
theorem W37_main_v15 : W37 m c (Proc.devRef .tc main_v15) = val_main_v15 (F := F) (X1 m c) :=
  (keep main_v16 rfl (by decide) _).trans (W36_main_v15 m c)

/-- After operation 38 (it writes main_v17). -/
def W38 : Valuation τ sig (Elt F) :=
  HloOp.result (τ := τ) (ternary main_v1 main_v15 main_v16 main_v17 ((fun x i u => Host.scatter scatter_S4096x32000_S4096x2_S4096_n_01_01_1 (fun _ b => b) x i u) : (⟨S4096x32000, .f32⟩ : BufTy).Contents (Elt F) → (⟨S4096x2, .i32⟩ : BufTy).Contents (Elt F) → (⟨S4096, .f32⟩ : BufTy).Contents (Elt F) → (⟨S4096x32000, .f32⟩ : BufTy).Contents (Elt F))) (W37 m c)
theorem W38_main_v17 : W38 m c (Proc.devRef .tc main_v17) = val_main_v17 (F := F) (X1 m c) := by
  unfold W38
  rw [ternary_result, W37_main_v1 m c, W37_main_v15 m c, W37_main_v16 m c]
  rfl
theorem W38_main_arg0 : W38 m c (Proc.devRef .tc main_arg0) = X0 m c :=
  (keep main_v17 rfl (by decide) _).trans (W37_main_arg0 m c)
theorem W38_main_arg1 : W38 m c (Proc.devRef .tc main_arg1) = X1 m c :=
  (keep main_v17 rfl (by decide) _).trans (W37_main_arg1 m c)
theorem W38_main_v0 : W38 m c (Proc.devRef .tc main_v0) = val_main_v0 (F := F) (X0 m c) :=
  (keep main_v17 rfl (by decide) _).trans (W37_main_v0 m c)

/-- After operation 39 (it writes main_c_4). -/
def W39 : Valuation τ sig (Elt F) :=
  HloOp.result (τ := τ) (nullary main_c_4 (constantI S_ 32 0#32)) (W38 m c)
theorem W39_main_c_4 : W39 m c (Proc.devRef .tc main_c_4) = val_main_c_4 (F := F) := by
  unfold W39
  rw [nullary_result]
  rfl
theorem W39_main_arg0 : W39 m c (Proc.devRef .tc main_arg0) = X0 m c :=
  (keep main_c_4 rfl (by decide) _).trans (W38_main_arg0 m c)
theorem W39_main_arg1 : W39 m c (Proc.devRef .tc main_arg1) = X1 m c :=
  (keep main_c_4 rfl (by decide) _).trans (W38_main_arg1 m c)
theorem W39_main_v0 : W39 m c (Proc.devRef .tc main_v0) = val_main_v0 (F := F) (X0 m c) :=
  (keep main_c_4 rfl (by decide) _).trans (W38_main_v0 m c)
theorem W39_main_v17 : W39 m c (Proc.devRef .tc main_v17) = val_main_v17 (F := F) (X1 m c) :=
  (keep main_c_4 rfl (by decide) _).trans (W38_main_v17 m c)

/-- After operation 40 (it writes main_v18). -/
def W40 : Valuation τ sig (Elt F) :=
  HloOp.result (τ := τ) (unary main_c_4 main_v18 (broadcastInDim S4096 ![] bcast_S_S4096 : (⟨S_, .i32⟩ : BufTy).Contents (Elt F) → (⟨S4096, .i32⟩ : BufTy).Contents (Elt F))) (W39 m c)
theorem W40_main_v18 : W40 m c (Proc.devRef .tc main_v18) = val_main_v18 (F := F) := by
  unfold W40
  rw [unary_result, W39_main_c_4 m c]
  rfl
theorem W40_main_arg0 : W40 m c (Proc.devRef .tc main_arg0) = X0 m c :=
  (keep main_v18 rfl (by decide) _).trans (W39_main_arg0 m c)
theorem W40_main_arg1 : W40 m c (Proc.devRef .tc main_arg1) = X1 m c :=
  (keep main_v18 rfl (by decide) _).trans (W39_main_arg1 m c)
theorem W40_main_v0 : W40 m c (Proc.devRef .tc main_v0) = val_main_v0 (F := F) (X0 m c) :=
  (keep main_v18 rfl (by decide) _).trans (W39_main_v0 m c)
theorem W40_main_v17 : W40 m c (Proc.devRef .tc main_v17) = val_main_v17 (F := F) (X1 m c) :=
  (keep main_v18 rfl (by decide) _).trans (W39_main_v17 m c)

/-- After operation 41 (it writes main_v19). -/
def W41 : Valuation τ sig (Elt F) :=
  HloOp.result (τ := τ) (binary main_arg1 main_v18 main_v19 (cmpi .eq : (⟨S4096, .i32⟩ : BufTy).Contents (Elt F) → (⟨S4096, .i32⟩ : BufTy).Contents (Elt F) → (⟨S4096, .i1⟩ : BufTy).Contents (Elt F))) (W40 m c)
theorem W41_main_v19 : W41 m c (Proc.devRef .tc main_v19) = val_main_v19 (F := F) (X1 m c) := by
  unfold W41
  rw [binary_result, W40_main_arg1 m c, W40_main_v18 m c]
  rfl
theorem W41_main_arg0 : W41 m c (Proc.devRef .tc main_arg0) = X0 m c :=
  (keep main_v19 rfl (by decide) _).trans (W40_main_arg0 m c)
theorem W41_main_arg1 : W41 m c (Proc.devRef .tc main_arg1) = X1 m c :=
  (keep main_v19 rfl (by decide) _).trans (W40_main_arg1 m c)
theorem W41_main_v0 : W41 m c (Proc.devRef .tc main_v0) = val_main_v0 (F := F) (X0 m c) :=
  (keep main_v19 rfl (by decide) _).trans (W40_main_v0 m c)
theorem W41_main_v17 : W41 m c (Proc.devRef .tc main_v17) = val_main_v17 (F := F) (X1 m c) :=
  (keep main_v19 rfl (by decide) _).trans (W40_main_v17 m c)

/-- After operation 42 (it writes main_v20). -/
def W42 : Valuation τ sig (Elt F) :=
  HloOp.result (τ := τ) (unary main_v19 main_v20 (broadcastInDim S4096x1 ![0] bcast_S4096_S4096x1_0 : (⟨S4096, .i1⟩ : BufTy).Contents (Elt F) → (⟨S4096x1, .i1⟩ : BufTy).Contents (Elt F))) (W41 m c)
theorem W42_main_v20 : W42 m c (Proc.devRef .tc main_v20) = val_main_v20 (F := F) (X1 m c) := by
  unfold W42
  rw [unary_result, W41_main_v19 m c]
  rfl
theorem W42_main_arg0 : W42 m c (Proc.devRef .tc main_arg0) = X0 m c :=
  (keep main_v20 rfl (by decide) _).trans (W41_main_arg0 m c)
theorem W42_main_arg1 : W42 m c (Proc.devRef .tc main_arg1) = X1 m c :=
  (keep main_v20 rfl (by decide) _).trans (W41_main_arg1 m c)
theorem W42_main_v0 : W42 m c (Proc.devRef .tc main_v0) = val_main_v0 (F := F) (X0 m c) :=
  (keep main_v20 rfl (by decide) _).trans (W41_main_v0 m c)
theorem W42_main_v17 : W42 m c (Proc.devRef .tc main_v17) = val_main_v17 (F := F) (X1 m c) :=
  (keep main_v20 rfl (by decide) _).trans (W41_main_v17 m c)

/-- After operation 43 (it writes main_cst_5). -/
def W43 : Valuation τ sig (Elt F) :=
  HloOp.result (τ := τ) (nullary main_cst_5 (constant S_ .f32 0x00000000#32)) (W42 m c)
theorem W43_main_cst_5 : W43 m c (Proc.devRef .tc main_cst_5) = val_main_cst_5 (F := F) := by
  unfold W43
  rw [nullary_result]
  rfl
theorem W43_main_arg0 : W43 m c (Proc.devRef .tc main_arg0) = X0 m c :=
  (keep main_cst_5 rfl (by decide) _).trans (W42_main_arg0 m c)
theorem W43_main_arg1 : W43 m c (Proc.devRef .tc main_arg1) = X1 m c :=
  (keep main_cst_5 rfl (by decide) _).trans (W42_main_arg1 m c)
theorem W43_main_v0 : W43 m c (Proc.devRef .tc main_v0) = val_main_v0 (F := F) (X0 m c) :=
  (keep main_cst_5 rfl (by decide) _).trans (W42_main_v0 m c)
theorem W43_main_v17 : W43 m c (Proc.devRef .tc main_v17) = val_main_v17 (F := F) (X1 m c) :=
  (keep main_cst_5 rfl (by decide) _).trans (W42_main_v17 m c)
theorem W43_main_v20 : W43 m c (Proc.devRef .tc main_v20) = val_main_v20 (F := F) (X1 m c) :=
  (keep main_cst_5 rfl (by decide) _).trans (W42_main_v20 m c)

/-- After operation 44 (it writes main_call1_v0). -/
def W44 : Valuation τ sig (Elt F) :=
  HloOp.result (τ := τ) (TRef.unary (TRef.of (T := ⟨S_, .f32⟩) main_cst_5) (TRef.of (T := ⟨S_, .f32⟩) main_call1_v0) id) (W43 m c)
theorem W44_main_call1_v0 : W44 m c (Proc.devRef .tc main_call1_v0) = val_main_call1_v0 (F := F) := by
  unfold W44
  rw [unary_result, W43_main_cst_5 m c]
  refine (cast_eq _ _).trans ?_
  unfold val_main_call1_v0
  exact congrArg _ (cast_eq _ _)
theorem W44_main_arg0 : W44 m c (Proc.devRef .tc main_arg0) = X0 m c :=
  (keep main_call1_v0 rfl (by decide) _).trans (W43_main_arg0 m c)
theorem W44_main_arg1 : W44 m c (Proc.devRef .tc main_arg1) = X1 m c :=
  (keep main_call1_v0 rfl (by decide) _).trans (W43_main_arg1 m c)
theorem W44_main_v0 : W44 m c (Proc.devRef .tc main_v0) = val_main_v0 (F := F) (X0 m c) :=
  (keep main_call1_v0 rfl (by decide) _).trans (W43_main_v0 m c)
theorem W44_main_v17 : W44 m c (Proc.devRef .tc main_v17) = val_main_v17 (F := F) (X1 m c) :=
  (keep main_call1_v0 rfl (by decide) _).trans (W43_main_v17 m c)
theorem W44_main_v20 : W44 m c (Proc.devRef .tc main_v20) = val_main_v20 (F := F) (X1 m c) :=
  (keep main_call1_v0 rfl (by decide) _).trans (W43_main_v20 m c)

/-- After operation 45 (it writes main_call1_v1). -/
def W45 : Valuation τ sig (Elt F) :=
  HloOp.result (τ := τ) (TRef.unary (TRef.of (T := ⟨S4096x1, .i1⟩) main_v20) (TRef.of (T := ⟨S4096x32000, .i1⟩) main_call1_v1) (broadcastInDim S4096x32000 ![0, 1] bcast_S4096x1_S4096x32000_0_1)) (W44 m c)
theorem W45_main_call1_v1 : W45 m c (Proc.devRef .tc main_call1_v1) = val_main_call1_v1 (F := F) (X1 m c) := by
  unfold W45
  rw [unary_result, W44_main_v20 m c]
  refine (cast_eq _ _).trans ?_
  unfold val_main_call1_v1
  exact congrArg _ (cast_eq _ _)
theorem W45_main_arg0 : W45 m c (Proc.devRef .tc main_arg0) = X0 m c :=
  (keep main_call1_v1 rfl (by decide) _).trans (W44_main_arg0 m c)
theorem W45_main_arg1 : W45 m c (Proc.devRef .tc main_arg1) = X1 m c :=
  (keep main_call1_v1 rfl (by decide) _).trans (W44_main_arg1 m c)
theorem W45_main_v0 : W45 m c (Proc.devRef .tc main_v0) = val_main_v0 (F := F) (X0 m c) :=
  (keep main_call1_v1 rfl (by decide) _).trans (W44_main_v0 m c)
theorem W45_main_v17 : W45 m c (Proc.devRef .tc main_v17) = val_main_v17 (F := F) (X1 m c) :=
  (keep main_call1_v1 rfl (by decide) _).trans (W44_main_v17 m c)
theorem W45_main_call1_v0 : W45 m c (Proc.devRef .tc main_call1_v0) = val_main_call1_v0 (F := F) :=
  (keep main_call1_v1 rfl (by decide) _).trans (W44_main_call1_v0 m c)

/-- After operation 46 (it writes main_call1_v2). -/
def W46 : Valuation τ sig (Elt F) :=
  HloOp.result (τ := τ) (TRef.unary (TRef.of (T := ⟨S_, .f32⟩) main_call1_v0) (TRef.of (T := ⟨S4096x32000, .f32⟩) main_call1_v2) (broadcastInDim S4096x32000 ![] bcast_S_S4096x32000)) (W45 m c)
theorem W46_main_call1_v2 : W46 m c (Proc.devRef .tc main_call1_v2) = val_main_call1_v2 (F := F) := by
  unfold W46
  rw [unary_result, W45_main_call1_v0 m c]
  refine (cast_eq _ _).trans ?_
  unfold val_main_call1_v2
  exact congrArg _ (cast_eq _ _)
theorem W46_main_arg0 : W46 m c (Proc.devRef .tc main_arg0) = X0 m c :=
  (keep main_call1_v2 rfl (by decide) _).trans (W45_main_arg0 m c)
theorem W46_main_arg1 : W46 m c (Proc.devRef .tc main_arg1) = X1 m c :=
  (keep main_call1_v2 rfl (by decide) _).trans (W45_main_arg1 m c)
theorem W46_main_v0 : W46 m c (Proc.devRef .tc main_v0) = val_main_v0 (F := F) (X0 m c) :=
  (keep main_call1_v2 rfl (by decide) _).trans (W45_main_v0 m c)
theorem W46_main_v17 : W46 m c (Proc.devRef .tc main_v17) = val_main_v17 (F := F) (X1 m c) :=
  (keep main_call1_v2 rfl (by decide) _).trans (W45_main_v17 m c)
theorem W46_main_call1_v1 : W46 m c (Proc.devRef .tc main_call1_v1) = val_main_call1_v1 (F := F) (X1 m c) :=
  (keep main_call1_v2 rfl (by decide) _).trans (W45_main_call1_v1 m c)

/-- After operation 47 (it writes main_v21). -/
def W47 : Valuation τ sig (Elt F) :=
  HloOp.result (τ := τ) (TRef.ternary (TRef.of (T := ⟨S4096x32000, .i1⟩) main_call1_v1) (TRef.of (T := ⟨S4096x32000, .f32⟩) main_call1_v2) (TRef.of (T := ⟨S4096x32000, .f32⟩) main_v17) (TRef.of (T := ⟨S4096x32000, .f32⟩) main_v21) select) (W46 m c)
theorem W47_main_v21 : W47 m c (Proc.devRef .tc main_v21) = val_main_v21 (F := F) (X1 m c) := by
  unfold W47
  rw [ternary_result, W46_main_call1_v1 m c, W46_main_call1_v2 m c, W46_main_v17 m c]
  refine (cast_eq _ _).trans ?_
  unfold val_main_v21
  exact congr3 select (cast_eq _ _) (cast_eq _ _) (cast_eq _ _)
theorem W47_main_arg0 : W47 m c (Proc.devRef .tc main_arg0) = X0 m c :=
  (keep main_v21 rfl (by decide) _).trans (W46_main_arg0 m c)
theorem W47_main_arg1 : W47 m c (Proc.devRef .tc main_arg1) = X1 m c :=
  (keep main_v21 rfl (by decide) _).trans (W46_main_arg1 m c)
theorem W47_main_v0 : W47 m c (Proc.devRef .tc main_v0) = val_main_v0 (F := F) (X0 m c) :=
  (keep main_v21 rfl (by decide) _).trans (W46_main_v0 m c)

/-- After operation 48 (it writes main_cst_6). -/
def W48 : Valuation τ sig (Elt F) :=
  HloOp.result (τ := τ) (nullary main_cst_6 (constant S_ .f32 0x00000000#32)) (W47 m c)
theorem W48_main_cst_6 : W48 m c (Proc.devRef .tc main_cst_6) = val_main_cst_6 (F := F) := by
  unfold W48
  rw [nullary_result]
  rfl
theorem W48_main_arg0 : W48 m c (Proc.devRef .tc main_arg0) = X0 m c :=
  (keep main_cst_6 rfl (by decide) _).trans (W47_main_arg0 m c)
theorem W48_main_arg1 : W48 m c (Proc.devRef .tc main_arg1) = X1 m c :=
  (keep main_cst_6 rfl (by decide) _).trans (W47_main_arg1 m c)
theorem W48_main_v0 : W48 m c (Proc.devRef .tc main_v0) = val_main_v0 (F := F) (X0 m c) :=
  (keep main_cst_6 rfl (by decide) _).trans (W47_main_v0 m c)
theorem W48_main_v21 : W48 m c (Proc.devRef .tc main_v21) = val_main_v21 (F := F) (X1 m c) :=
  (keep main_cst_6 rfl (by decide) _).trans (W47_main_v21 m c)

/-- After operation 49 (it writes main_v22). -/
def W49 : Valuation τ sig (Elt F) :=
  HloOp.result (τ := τ) (unary main_cst_6 main_v22 (broadcastInDim S4096x32000 ![] bcast_S_S4096x32000 : (⟨S_, .f32⟩ : BufTy).Contents (Elt F) → (⟨S4096x32000, .f32⟩ : BufTy).Contents (Elt F))) (W48 m c)
theorem W49_main_v22 : W49 m c (Proc.devRef .tc main_v22) = val_main_v22 (F := F) := by
  unfold W49
  rw [unary_result, W48_main_cst_6 m c]
  rfl
theorem W49_main_arg0 : W49 m c (Proc.devRef .tc main_arg0) = X0 m c :=
  (keep main_v22 rfl (by decide) _).trans (W48_main_arg0 m c)
theorem W49_main_arg1 : W49 m c (Proc.devRef .tc main_arg1) = X1 m c :=
  (keep main_v22 rfl (by decide) _).trans (W48_main_arg1 m c)
theorem W49_main_v0 : W49 m c (Proc.devRef .tc main_v0) = val_main_v0 (F := F) (X0 m c) :=
  (keep main_v22 rfl (by decide) _).trans (W48_main_v0 m c)
theorem W49_main_v21 : W49 m c (Proc.devRef .tc main_v21) = val_main_v21 (F := F) (X1 m c) :=
  (keep main_v22 rfl (by decide) _).trans (W48_main_v21 m c)

/-- After operation 50 (it writes main_v23). -/
def W50 : Valuation τ sig (Elt F) :=
  HloOp.result (τ := τ) (binary main_v21 main_v22 main_v23 (cmpf .une : (⟨S4096x32000, .f32⟩ : BufTy).Contents (Elt F) → (⟨S4096x32000, .f32⟩ : BufTy).Contents (Elt F) → (⟨S4096x32000, .i1⟩ : BufTy).Contents (Elt F))) (W49 m c)
theorem W50_main_v23 : W50 m c (Proc.devRef .tc main_v23) = val_main_v23 (F := F) (X1 m c) := by
  unfold W50
  rw [binary_result, W49_main_v21 m c, W49_main_v22 m c]
  rfl
theorem W50_main_arg0 : W50 m c (Proc.devRef .tc main_arg0) = X0 m c :=
  (keep main_v23 rfl (by decide) _).trans (W49_main_arg0 m c)
theorem W50_main_arg1 : W50 m c (Proc.devRef .tc main_arg1) = X1 m c :=
  (keep main_v23 rfl (by decide) _).trans (W49_main_arg1 m c)
theorem W50_main_v0 : W50 m c (Proc.devRef .tc main_v0) = val_main_v0 (F := F) (X0 m c) :=
  (keep main_v23 rfl (by decide) _).trans (W49_main_v0 m c)
theorem W50_main_v21 : W50 m c (Proc.devRef .tc main_v21) = val_main_v21 (F := F) (X1 m c) :=
  (keep main_v23 rfl (by decide) _).trans (W49_main_v21 m c)

/-- After operation 51 (it writes main_v24). -/
def W51 : Valuation τ sig (Elt F) :=
  HloOp.result (τ := τ) (binary main_v21 main_v21 main_v24 (cmpf .une : (⟨S4096x32000, .f32⟩ : BufTy).Contents (Elt F) → (⟨S4096x32000, .f32⟩ : BufTy).Contents (Elt F) → (⟨S4096x32000, .i1⟩ : BufTy).Contents (Elt F))) (W50 m c)
theorem W51_main_v24 : W51 m c (Proc.devRef .tc main_v24) = val_main_v24 (F := F) (X1 m c) := by
  unfold W51
  rw [binary_result, W50_main_v21 m c]
  rfl
theorem W51_main_arg0 : W51 m c (Proc.devRef .tc main_arg0) = X0 m c :=
  (keep main_v24 rfl (by decide) _).trans (W50_main_arg0 m c)
theorem W51_main_arg1 : W51 m c (Proc.devRef .tc main_arg1) = X1 m c :=
  (keep main_v24 rfl (by decide) _).trans (W50_main_arg1 m c)
theorem W51_main_v0 : W51 m c (Proc.devRef .tc main_v0) = val_main_v0 (F := F) (X0 m c) :=
  (keep main_v24 rfl (by decide) _).trans (W50_main_v0 m c)
theorem W51_main_v21 : W51 m c (Proc.devRef .tc main_v21) = val_main_v21 (F := F) (X1 m c) :=
  (keep main_v24 rfl (by decide) _).trans (W50_main_v21 m c)
theorem W51_main_v23 : W51 m c (Proc.devRef .tc main_v23) = val_main_v23 (F := F) (X1 m c) :=
  (keep main_v24 rfl (by decide) _).trans (W50_main_v23 m c)

/-- After operation 52 (it writes main_v25). -/
def W52 : Valuation τ sig (Elt F) :=
  HloOp.result (τ := τ) (binary main_v23 main_v24 main_v25 (ori : (⟨S4096x32000, .i1⟩ : BufTy).Contents (Elt F) → (⟨S4096x32000, .i1⟩ : BufTy).Contents (Elt F) → (⟨S4096x32000, .i1⟩ : BufTy).Contents (Elt F))) (W51 m c)
theorem W52_main_v25 : W52 m c (Proc.devRef .tc main_v25) = val_main_v25 (F := F) (X1 m c) := by
  unfold W52
  rw [binary_result, W51_main_v23 m c, W51_main_v24 m c]
  rfl
theorem W52_main_arg0 : W52 m c (Proc.devRef .tc main_arg0) = X0 m c :=
  (keep main_v25 rfl (by decide) _).trans (W51_main_arg0 m c)
theorem W52_main_arg1 : W52 m c (Proc.devRef .tc main_arg1) = X1 m c :=
  (keep main_v25 rfl (by decide) _).trans (W51_main_arg1 m c)
theorem W52_main_v0 : W52 m c (Proc.devRef .tc main_v0) = val_main_v0 (F := F) (X0 m c) :=
  (keep main_v25 rfl (by decide) _).trans (W51_main_v0 m c)
theorem W52_main_v21 : W52 m c (Proc.devRef .tc main_v21) = val_main_v21 (F := F) (X1 m c) :=
  (keep main_v25 rfl (by decide) _).trans (W51_main_v21 m c)

/-- After operation 53 (it writes main_v26). -/
def W53 : Valuation τ sig (Elt F) :=
  HloOp.result (τ := τ) (unary main_v21 main_v26 (Host.log : (⟨S4096x32000, .f32⟩ : BufTy).Contents (Elt F) → (⟨S4096x32000, .f32⟩ : BufTy).Contents (Elt F))) (W52 m c)
theorem W53_main_v26 : W53 m c (Proc.devRef .tc main_v26) = val_main_v26 (F := F) (X1 m c) := by
  unfold W53
  rw [unary_result, W52_main_v21 m c]
  rfl
theorem W53_main_arg0 : W53 m c (Proc.devRef .tc main_arg0) = X0 m c :=
  (keep main_v26 rfl (by decide) _).trans (W52_main_arg0 m c)
theorem W53_main_arg1 : W53 m c (Proc.devRef .tc main_arg1) = X1 m c :=
  (keep main_v26 rfl (by decide) _).trans (W52_main_arg1 m c)
theorem W53_main_v0 : W53 m c (Proc.devRef .tc main_v0) = val_main_v0 (F := F) (X0 m c) :=
  (keep main_v26 rfl (by decide) _).trans (W52_main_v0 m c)
theorem W53_main_v21 : W53 m c (Proc.devRef .tc main_v21) = val_main_v21 (F := F) (X1 m c) :=
  (keep main_v26 rfl (by decide) _).trans (W52_main_v21 m c)
theorem W53_main_v25 : W53 m c (Proc.devRef .tc main_v25) = val_main_v25 (F := F) (X1 m c) :=
  (keep main_v26 rfl (by decide) _).trans (W52_main_v25 m c)

/-- After operation 54 (it writes main_v27). -/
def W54 : Valuation τ sig (Elt F) :=
  HloOp.result (τ := τ) (binary main_v21 main_v26 main_v27 (mulf : (⟨S4096x32000, .f32⟩ : BufTy).Contents (Elt F) → (⟨S4096x32000, .f32⟩ : BufTy).Contents (Elt F) → (⟨S4096x32000, .f32⟩ : BufTy).Contents (Elt F))) (W53 m c)
theorem W54_main_v27 : W54 m c (Proc.devRef .tc main_v27) = val_main_v27 (F := F) (X1 m c) := by
  unfold W54
  rw [binary_result, W53_main_v21 m c, W53_main_v26 m c]
  rfl
theorem W54_main_arg0 : W54 m c (Proc.devRef .tc main_arg0) = X0 m c :=
  (keep main_v27 rfl (by decide) _).trans (W53_main_arg0 m c)
theorem W54_main_arg1 : W54 m c (Proc.devRef .tc main_arg1) = X1 m c :=
  (keep main_v27 rfl (by decide) _).trans (W53_main_arg1 m c)
theorem W54_main_v0 : W54 m c (Proc.devRef .tc main_v0) = val_main_v0 (F := F) (X0 m c) :=
  (keep main_v27 rfl (by decide) _).trans (W53_main_v0 m c)
theorem W54_main_v21 : W54 m c (Proc.devRef .tc main_v21) = val_main_v21 (F := F) (X1 m c) :=
  (keep main_v27 rfl (by decide) _).trans (W53_main_v21 m c)
theorem W54_main_v25 : W54 m c (Proc.devRef .tc main_v25) = val_main_v25 (F := F) (X1 m c) :=
  (keep main_v27 rfl (by decide) _).trans (W53_main_v25 m c)

/-- After operation 55 (it writes main_cst_7). -/
def W55 : Valuation τ sig (Elt F) :=
  HloOp.result (τ := τ) (nullary main_cst_7 (constant S_ .f32 0x00000000#32)) (W54 m c)
theorem W55_main_cst_7 : W55 m c (Proc.devRef .tc main_cst_7) = val_main_cst_7 (F := F) := by
  unfold W55
  rw [nullary_result]
  rfl
theorem W55_main_arg0 : W55 m c (Proc.devRef .tc main_arg0) = X0 m c :=
  (keep main_cst_7 rfl (by decide) _).trans (W54_main_arg0 m c)
theorem W55_main_arg1 : W55 m c (Proc.devRef .tc main_arg1) = X1 m c :=
  (keep main_cst_7 rfl (by decide) _).trans (W54_main_arg1 m c)
theorem W55_main_v0 : W55 m c (Proc.devRef .tc main_v0) = val_main_v0 (F := F) (X0 m c) :=
  (keep main_cst_7 rfl (by decide) _).trans (W54_main_v0 m c)
theorem W55_main_v21 : W55 m c (Proc.devRef .tc main_v21) = val_main_v21 (F := F) (X1 m c) :=
  (keep main_cst_7 rfl (by decide) _).trans (W54_main_v21 m c)
theorem W55_main_v25 : W55 m c (Proc.devRef .tc main_v25) = val_main_v25 (F := F) (X1 m c) :=
  (keep main_cst_7 rfl (by decide) _).trans (W54_main_v25 m c)
theorem W55_main_v27 : W55 m c (Proc.devRef .tc main_v27) = val_main_v27 (F := F) (X1 m c) :=
  (keep main_cst_7 rfl (by decide) _).trans (W54_main_v27 m c)

/-- After operation 56 (it writes main_v28). -/
def W56 : Valuation τ sig (Elt F) :=
  HloOp.result (τ := τ) (unary main_cst_7 main_v28 (broadcastInDim S4096x32000 ![] bcast_S_S4096x32000 : (⟨S_, .f32⟩ : BufTy).Contents (Elt F) → (⟨S4096x32000, .f32⟩ : BufTy).Contents (Elt F))) (W55 m c)
theorem W56_main_v28 : W56 m c (Proc.devRef .tc main_v28) = val_main_v28 (F := F) := by
  unfold W56
  rw [unary_result, W55_main_cst_7 m c]
  rfl
theorem W56_main_arg0 : W56 m c (Proc.devRef .tc main_arg0) = X0 m c :=
  (keep main_v28 rfl (by decide) _).trans (W55_main_arg0 m c)
theorem W56_main_arg1 : W56 m c (Proc.devRef .tc main_arg1) = X1 m c :=
  (keep main_v28 rfl (by decide) _).trans (W55_main_arg1 m c)
theorem W56_main_v0 : W56 m c (Proc.devRef .tc main_v0) = val_main_v0 (F := F) (X0 m c) :=
  (keep main_v28 rfl (by decide) _).trans (W55_main_v0 m c)
theorem W56_main_v21 : W56 m c (Proc.devRef .tc main_v21) = val_main_v21 (F := F) (X1 m c) :=
  (keep main_v28 rfl (by decide) _).trans (W55_main_v21 m c)
theorem W56_main_v25 : W56 m c (Proc.devRef .tc main_v25) = val_main_v25 (F := F) (X1 m c) :=
  (keep main_v28 rfl (by decide) _).trans (W55_main_v25 m c)
theorem W56_main_v27 : W56 m c (Proc.devRef .tc main_v27) = val_main_v27 (F := F) (X1 m c) :=
  (keep main_v28 rfl (by decide) _).trans (W55_main_v27 m c)

/-- After operation 57 (it writes main_v29). -/
def W57 : Valuation τ sig (Elt F) :=
  HloOp.result (τ := τ) (TRef.ternary (TRef.of (T := ⟨S4096x32000, .i1⟩) main_v25) (TRef.of (T := ⟨S4096x32000, .f32⟩) main_v27) (TRef.of (T := ⟨S4096x32000, .f32⟩) main_v28) (TRef.of (T := ⟨S4096x32000, .f32⟩) main_v29) select) (W56 m c)
theorem W57_main_v29 : W57 m c (Proc.devRef .tc main_v29) = val_main_v29 (F := F) (X1 m c) := by
  unfold W57
  rw [ternary_result, W56_main_v25 m c, W56_main_v27 m c, W56_main_v28 m c]
  refine (cast_eq _ _).trans ?_
  unfold val_main_v29
  exact congr3 select (cast_eq _ _) (cast_eq _ _) (cast_eq _ _)
theorem W57_main_arg0 : W57 m c (Proc.devRef .tc main_arg0) = X0 m c :=
  (keep main_v29 rfl (by decide) _).trans (W56_main_arg0 m c)
theorem W57_main_arg1 : W57 m c (Proc.devRef .tc main_arg1) = X1 m c :=
  (keep main_v29 rfl (by decide) _).trans (W56_main_arg1 m c)
theorem W57_main_v0 : W57 m c (Proc.devRef .tc main_v0) = val_main_v0 (F := F) (X0 m c) :=
  (keep main_v29 rfl (by decide) _).trans (W56_main_v0 m c)
theorem W57_main_v21 : W57 m c (Proc.devRef .tc main_v21) = val_main_v21 (F := F) (X1 m c) :=
  (keep main_v29 rfl (by decide) _).trans (W56_main_v21 m c)

/-- After operation 58 (it writes main_v30). -/
def W58 : Valuation τ sig (Elt F) :=
  HloOp.result (τ := τ) (binary main_v21 main_v0 main_v30 (mulf : (⟨S4096x32000, .f32⟩ : BufTy).Contents (Elt F) → (⟨S4096x32000, .f32⟩ : BufTy).Contents (Elt F) → (⟨S4096x32000, .f32⟩ : BufTy).Contents (Elt F))) (W57 m c)
theorem W58_main_v30 : W58 m c (Proc.devRef .tc main_v30) = val_main_v30 (F := F) (X0 m c) (X1 m c) := by
  unfold W58
  rw [binary_result, W57_main_v21 m c, W57_main_v0 m c]
  rfl
theorem W58_main_arg0 : W58 m c (Proc.devRef .tc main_arg0) = X0 m c :=
  (keep main_v30 rfl (by decide) _).trans (W57_main_arg0 m c)
theorem W58_main_arg1 : W58 m c (Proc.devRef .tc main_arg1) = X1 m c :=
  (keep main_v30 rfl (by decide) _).trans (W57_main_arg1 m c)
theorem W58_main_v29 : W58 m c (Proc.devRef .tc main_v29) = val_main_v29 (F := F) (X1 m c) :=
  (keep main_v30 rfl (by decide) _).trans (W57_main_v29 m c)

/-- After operation 59 (it writes main_v31). -/
def W59 : Valuation τ sig (Elt F) :=
  HloOp.result (τ := τ) (binary main_v29 main_v30 main_v31 (subf : (⟨S4096x32000, .f32⟩ : BufTy).Contents (Elt F) → (⟨S4096x32000, .f32⟩ : BufTy).Contents (Elt F) → (⟨S4096x32000, .f32⟩ : BufTy).Contents (Elt F))) (W58 m c)
theorem W59_main_v31 : W59 m c (Proc.devRef .tc main_v31) = val_main_v31 (F := F) (X0 m c) (X1 m c) := by
  unfold W59
  rw [binary_result, W58_main_v29 m c, W58_main_v30 m c]
  rfl
theorem W59_main_arg0 : W59 m c (Proc.devRef .tc main_arg0) = X0 m c :=
  (keep main_v31 rfl (by decide) _).trans (W58_main_arg0 m c)
theorem W59_main_arg1 : W59 m c (Proc.devRef .tc main_arg1) = X1 m c :=
  (keep main_v31 rfl (by decide) _).trans (W58_main_arg1 m c)

/-- After operation 60 (it writes main_cst_8). -/
def W60 : Valuation τ sig (Elt F) :=
  HloOp.result (τ := τ) (nullary main_cst_8 (constant S_ .f32 0x00000000#32)) (W59 m c)
theorem W60_main_cst_8 : W60 m c (Proc.devRef .tc main_cst_8) = val_main_cst_8 (F := F) := by
  unfold W60
  rw [nullary_result]
  rfl
theorem W60_main_arg0 : W60 m c (Proc.devRef .tc main_arg0) = X0 m c :=
  (keep main_cst_8 rfl (by decide) _).trans (W59_main_arg0 m c)
theorem W60_main_arg1 : W60 m c (Proc.devRef .tc main_arg1) = X1 m c :=
  (keep main_cst_8 rfl (by decide) _).trans (W59_main_arg1 m c)
theorem W60_main_v31 : W60 m c (Proc.devRef .tc main_v31) = val_main_v31 (F := F) (X0 m c) (X1 m c) :=
  (keep main_cst_8 rfl (by decide) _).trans (W59_main_v31 m c)

/-- After operation 61 (it writes main_v32). -/
def W61 : Valuation τ sig (Elt F) :=
  HloOp.result (τ := τ) (binary main_v31 main_cst_8 main_v32 ((fun x v => Host.reduceAdd x v reducesTo_S4096x32000_S_d0_1 h_S_) : (⟨S4096x32000, .f32⟩ : BufTy).Contents (Elt F) → (⟨S_, .f32⟩ : BufTy).Contents (Elt F) → (⟨S_, .f32⟩ : BufTy).Contents (Elt F))) (W60 m c)
theorem W61_main_v32 : W61 m c (Proc.devRef .tc main_v32) = val_main_v32 (F := F) (X0 m c) (X1 m c) := by
  unfold W61
  rw [binary_result, W60_main_v31 m c, W60_main_cst_8 m c]
  rfl
theorem W61_main_arg0 : W61 m c (Proc.devRef .tc main_arg0) = X0 m c :=
  (keep main_v32 rfl (by decide) _).trans (W60_main_arg0 m c)
theorem W61_main_arg1 : W61 m c (Proc.devRef .tc main_arg1) = X1 m c :=
  (keep main_v32 rfl (by decide) _).trans (W60_main_arg1 m c)

/-- The fold of the operations' results over the launch contents is the last of the W k. -/
theorem after_eq : after (ops (F := F)) (launchContents m c) = W61 m c := rfl

/-- Every weakly fair execution of the reference terminates with the result buffer at the last stage of the two argument
    arrays and the argument arrays unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = val_main_v32 (F := F) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v32).trans ((congrFun (after_eq m c) _).trans (W61_main_v32 m c)),
       (h c main_arg0).trans ((congrFun (after_eq m c) _).trans (W61_main_arg0 m c)),
       (h c main_arg1).trans ((congrFun (after_eq m c) _).trans (W61_main_arg1 m c))⟩)
    (run_seq scopedRefs_eq scopedSems_eq defs main (fun _ => ops) main_eq (fun _ => ops_sub) m ρ)

end Cert.RefSide

end
-- ==== Proof.RefValue.lean ====
/-
  The reference's run ends with the loss.

  Under the precondition every float entry is a real number and every integer entry, read unsigned, is at most
  31999; then the last stage of the reference's operations, the composed function of its two argument arrays the run
  ends with, is, index by index, the loss ∑ i, if t[i] = 0 then 0 else lse i - x[i, t[i]], and the arguments end
  unchanged.
-/
import proofs.«217662_g32298154065999_cont_8to1_b_8_33_alg».proof.Defs
import proofs.«217662_g32298154065999_cont_8to1_b_8_33_alg».proof.Proof.RefReadP
import proofs.«217662_g32298154065999_cont_8to1_b_8_33_alg».proof.Proof.Spec
import proofs.«217662_g32298154065999_cont_8to1_b_8_33_alg».proof.Proof.PreFacts
import proofs.«217662_g32298154065999_cont_8to1_b_8_33_alg».proof.Proof.RefEntry
import proofs.«217662_g32298154065999_cont_8to1_b_8_33_alg».proof.Proof.RefRunStages

noncomputable section

namespace Cert.RefSide

open Idealize.ShloMosaic Idealize.ShloMosaic.TcCoe Idealize.SL.Sem

variable [Cert.ReferenceIdeal.Facts] [Cert.Pre_input_domain.Facts]

/-- The last stage of the argument arrays is their loss. -/
theorem result_eq (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    Cert.ReferenceIdeal.Read.val_main_v32 (F := Ideal)
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
      = Cert.Spec.result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) :=
  value_eq _ (Cert.PreFacts.finite_of_pre _ _ (hpre c)) _ (Cert.PreFacts.range_of_pre _ _ (hpre c))

/-- Every weakly fair execution of the reference terminates with the loss in its result and its arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v32)
          = Cert.Spec.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono (fun _ h c => ⟨(h c).1.trans (result_eq m hpre c), (h c).2⟩)
    (ref_run (F := Ideal) m ρ)

/-- The reference runs and its argument arrays end unchanged. -/
theorem frame : Cert.frame_ReferenceIdeal := fun m ρ _ =>
  (θ_run Cert.ReferenceIdeal.defs _ _).mono (fun _ h c => (h c).2) (ref_run (F := Ideal) m ρ)

end Cert.RefSide

end
-- ==== Proof.lean ====
/-
  The certificate: frame_Kernel ∧ frame_KernelIdeal ∧ frame_ReferenceIdeal ∧ preserves ∧ algebraic.

  The kernel computes, for the float argument x (4096 rows of 32000 entries, all finite) and the integer argument t
  (one column index per row, between 0 and 31999),
      (∑ over the rows with t ≠ 0 of log (∑ⱼ exp (x[i,j] − Mᵢ)) + Mᵢ)  −  (∑ over the rows with t ≠ 0 of x[i, t[i]]),
  the first sum on the TensorCore (32 blocks of 128 rows, Mᵢ the row maximum), the second on the SparseCores (32 workers
  of 128 rows each: every worker copies, per row, the 8 × 128 block of x that holds x[i, t[i]] into its scratch and
  gathers the entry out of it). The reference computes ∑ over all entries of xlogy d d − d · logp with d the one-hot
  row of t[i] (zero on the rows with t = 0) and logp the log-softmax. Both are the loss of Proof/Spec.lean,
      ∑ᵢ (if t[i] = 0 then 0 else log (∑ⱼ exp x[i,j]) − x[i, t[i]]),
  by the shift invariance log (∑ⱼ exp (aⱼ − M)) + M = log (∑ⱼ exp aⱼ) and, on the finite entries the precondition
  grants, real arithmetic.

  Every weakly fair execution of the kernel's 35 threads (the TensorCore, two sequencers, thirty-two tiles) terminates
  without a fault and leaves x and t as they were (Proof/Launch.lean, from the tile's body, the TensorCore call's region
  and the host operations), at the word-level instance and at the ideal one (the same text, Proof/Bits/); the reference
  is a line of host operations (Proof/RefRunStages.lean). The idealization rewrote no operation: `preserves` is `True`.
-/
import proofs.«217662_g32298154065999_cont_8to1_b_8_33_alg».proof.Defs
import proofs.«217662_g32298154065999_cont_8to1_b_8_33_alg».proof.Proof.Launch
import proofs.«217662_g32298154065999_cont_8to1_b_8_33_alg».proof.Proof.Bits.Launch
import proofs.«217662_g32298154065999_cont_8to1_b_8_33_alg».proof.Proof.TcRegionK
import proofs.«217662_g32298154065999_cont_8to1_b_8_33_alg».proof.Proof.Bits.TcRegionK
import proofs.«217662_g32298154065999_cont_8to1_b_8_33_alg».proof.Proof.ScTile
import proofs.«217662_g32298154065999_cont_8to1_b_8_33_alg».proof.Proof.Bits.ScTile
import proofs.«217662_g32298154065999_cont_8to1_b_8_33_alg».proof.Proof.KernelValue
import proofs.«217662_g32298154065999_cont_8to1_b_8_33_alg».proof.Proof.RefValue
import proofs.«217662_g32298154065999_cont_8to1_b_8_33_alg».proof.Proof.PreFacts
import proofs.«217662_g32298154065999_cont_8to1_b_8_33_alg».proof.Proof.Gen.Kernel
import proofs.«217662_g32298154065999_cont_8to1_b_8_33_alg».proof.Proof.Gen.KernelIdeal
import proofs.«217662_g32298154065999_cont_8to1_b_8_33_alg».proof.Proof.Gen.ReferenceIdeal
import proofs.«217662_g32298154065999_cont_8to1_b_8_33_alg».proof.Proof.Gen.Pre_input_domain
import Idealize.ShloMosaic.Adequacy
import Idealize.ShloMosaic.Init

noncomputable section

namespace Cert.Proof

open Idealize.ShloMosaic Idealize.SL.Sem

/-- The kernel at the word-level instance runs to the end, faults nowhere, leaves x and t unchanged. -/
theorem frame_K : @Cert.frame_Kernel Cert.Kernel.Gen.facts Cert.Pre_input_domain.Gen.facts := fun m ρ hpre =>
  (θ_run Cert.Kernel.defs _ _).mono (fun _ h c => ⟨(h c).1, (h c).2.1⟩)
    (Cert.Proof.Kernel.run_main (F := Bits) m ρ
      (Cert.Proof.Kernel.tileObl m Cert.Proof.Kernel.facts fun d i => Cert.PreFacts.range_of_pre _ _ (hpre d) i)
      Cert.Proof.Kernel.tcRegionK)

/-- The idealized kernel's run, with its result named: the loss of the arguments. -/
theorem run_KI (m : (ℓ : Loc Cert.KernelIdeal.nD Cert.KernelIdeal.τ Cert.KernelIdeal.sig) → Buf (Elt Ideal) ℓ) (ρ : Dev Cert.KernelIdeal.nD → PrngReg)
    (hpre : @Cert.Pre_KernelIdeal Cert.Pre_input_domain.Gen.facts m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v5)
        = Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c => by
      obtain ⟨hx, ht, f, hf, h5⟩ := h c
      refine ⟨h5.trans ?_, hx, ht⟩
      exact Cert.Proof.KernelIdeal.kernelOut_eq _ _ f (Cert.PreFacts.finite_of_pre _ _ (hpre c)) (fun i => Cert.PreFacts.range_of_pre _ _ (hpre c) i) hf)
    (Cert.Proof.KernelIdeal.run_main (F := Ideal) m ρ
      (Cert.Proof.KernelIdeal.tileObl m Cert.Proof.KernelIdeal.facts fun d i => Cert.PreFacts.range_of_pre _ _ (hpre d) i)
      Cert.Proof.KernelIdeal.tcRegionK)

/-- The idealized kernel runs to the end, faults nowhere, leaves x and t unchanged. -/
theorem frame_KI : @Cert.frame_KernelIdeal Cert.KernelIdeal.Gen.facts Cert.Pre_input_domain.Gen.facts := fun m ρ hpre =>
  (θ_run Cert.KernelIdeal.defs _ _).mono (fun _ h c => ⟨(h c).2.1, (h c).2.2⟩) (run_KI m ρ hpre)

/-- Both idealized programs end at the loss of the arguments they agree on. -/
theorem algebraic : @Cert.algebraic_KernelIdeal_ReferenceIdeal Cert.KernelIdeal.Gen.facts Cert.ReferenceIdeal.Gen.facts Cert.Pre_input_domain.Gen.facts := by
  intro m ρ m' ρ' hpre hagree
  have hpre' : @Cert.Pre_ReferenceIdeal Cert.Pre_input_domain.Gen.facts m' := fun c => by
    rw [(hagree c).1, (hagree c).2]; exact hpre c
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), run_KI m ρ hpre, ?_⟩
  refine (θ_run Cert.ReferenceIdeal.defs _ _).mono (fun _ h c => ⟨?_, (h c).2.1, (h c).2.2⟩) (Cert.RefSide.run_spec m' ρ' hpre')
  rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_K, frame_KI, Cert.RefSide.frame, trivial, algebraic⟩

end Cert.Proof

end
